-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v103)) (v3 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v103) = v2 c
          ∧ r.2.mem ((c.tc : Thread Cert.KernelIdeal.nD Cert.KernelIdeal.τ).loc Cert.KernelIdeal.main_v119) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_v193) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000x256 : Shape := ⟨2, ![320000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part7 {F : FTy → Type} [FloatOps F] (main_arg26 : FVec F S512x256 .f32) (main_arg27 : FVec F S256 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S512x256 .f32 := Host.absf main_arg26
  let main_cst_48 : FVec F S_ .f32 := constant S_ .f32 0x7F800000#32
  let main_v125 : FVec F S512x256 .f32 := broadcastInDim S512x256 ![] bcast_S_S512x256 main_cst_48
  let main_v126 : IVec S512x256 1 := cmpf .olt main_v124 main_v125
  let main_c_49 : IVec S_ 1 := constantI S_ 1 1#1
  let main_v127 : IVec S_ 1 := (fun x v => Host.reduce IntOp.andi x v reducesTo_S512x256_S_d0_1 h_S_) main_v126 main_c_49
  let main_v128 : IVec S_ 1 := andi main_v123 main_v127
  let main_v129 : FVec F S256 .f32 := Host.absf main_arg27
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  main_v133

def fn_part6 {F : FTy → Type} [FloatOps F] (main_arg22 : FVec F S256x512 .f32) (main_arg23 : FVec F S512 .f32) (main_arg24 : FVec F S512 .f32) (main_arg25 : FVec F S512 .f32) (main_arg26 : FVec F S512x256 .f32) (main_arg27 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x512 .f32 := Host.absf main_arg22
  let main_cst_40 : FVec F S_ .f32 := constant S_ .f32 0x7F800000#32
  let main_v105 : FVec F S256x512 .f32 := broadcastInDim S256x512 ![] bcast_S_S256x512 main_cst_40
  let main_v106 : IVec S256x512 1 := cmpf .olt main_v104 main_v105
  let main_c_41 : IVec S_ 1 := constantI S_ 1 1#1
  let main_v107 : IVec S_ 1 := (fun x v => Host.reduce IntOp.andi x v reducesTo_S256x512_S_d0_1 h_S_) main_v106 main_c_41
  let main_v108 : IVec S_ 1 := andi main_v103 main_v107
  let main_v109 : FVec F S512 .f32 := Host.absf main_arg23
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512 .f32 := Host.absf main_arg24
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512 .f32 := Host.absf main_arg25
  fn_part7 (F := F) main_arg26 main_arg27 main_v118 main_v119

def fn_part5 {F : FTy → Type} [FloatOps F] (main_arg19 : FVec F S512 .f32) (main_arg20 : FVec F S512x256 .f32) (main_arg21 : FVec F S256 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg19
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x256 .f32 := Host.absf main_arg20
  let main_cst_36 : FVec F S_ .f32 := constant S_ .f32 0x7F800000#32
  let main_v95 : FVec F S512x256 .f32 := broadcastInDim S512x256 ![] bcast_S_S512x256 main_cst_36
  let main_v96 : IVec S512x256 1 := cmpf .olt main_v94 main_v95
  let main_c_37 : IVec S_ 1 := constantI S_ 1 1#1
  let main_v97 : IVec S_ 1 := (fun x v => Host.reduce IntOp.andi x v reducesTo_S512x256_S_d0_1 h_S_) main_v96 main_c_37
  let main_v98 : IVec S_ 1 := andi main_v93 main_v97
  let main_v99 : FVec F S256 .f32 := Host.absf main_arg21
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S256 .f32) (main_arg16 : FVec F S256x512 .f32) (main_arg17 : FVec F S512 .f32) (main_arg18 : FVec F S512 .f32) (main_arg19 : FVec F S512 .f32) (main_arg20 : FVec F S512x256 .f32) (main_arg21 : FVec F S256 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x512 .f32 := Host.absf main_arg16
  let main_cst_28 : FVec F S_ .f32 := constant S_ .f32 0x7F800000#32
  let main_v75 : FVec F S256x512 .f32 := broadcastInDim S256x512 ![] bcast_S_S256x512 main_cst_28
  let main_v76 : IVec S256x512 1 := cmpf .olt main_v74 main_v75
  let main_c_29 : IVec S_ 1 := constantI S_ 1 1#1
  let main_v77 : IVec S_ 1 := (fun x v => Host.reduce IntOp.andi x v reducesTo_S256x512_S_d0_1 h_S_) main_v76 main_c_29
  let main_v78 : IVec S_ 1 := andi main_v73 main_v77
  let main_v79 : FVec F S512 .f32 := Host.absf main_arg17
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S512 .f32) (main_arg13 : FVec F S512 .f32) (main_arg14 : FVec F S512x256 .f32) (main_arg15 : FVec F S256 .f32) (main_arg16 : FVec F S256x512 .f32) (main_arg17 : FVec F S512 .f32) (main_arg18 : FVec F S512 .f32) (main_arg19 : FVec F S512 .f32) (main_arg20 : FVec F S512x256 .f32) (main_arg21 : FVec F S256 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x256 .f32 := Host.absf main_arg14
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S512x256 .f32) (main_arg9 : FVec F S256 .f32) (main_arg10 : FVec F S256x512 .f32) (main_arg11 : FVec F S512 .f32) (main_arg12 : FVec F S512 .f32) (main_arg13 : FVec F S512 .f32) (main_arg14 : FVec F S512x256 .f32) (main_arg15 : FVec F S256 .f32) (main_arg16 : FVec F S256x512 .f32) (main_arg17 : FVec F S512 .f32) (main_arg18 : FVec F S512 .f32) (main_arg19 : FVec F S512 .f32) (main_arg20 : FVec F S512x256 .f32) (main_arg21 : FVec F S256 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x512 .f32 := Host.absf main_arg10
  let main_cst_16 : FVec F S_ .f32 := constant S_ .f32 0x7F800000#32
  let main_v45 : FVec F S256x512 .f32 := broadcastInDim S256x512 ![] bcast_S_S256x512 main_cst_16
  let main_v46 : IVec S256x512 1 := cmpf .olt main_v44 main_v45
  let main_c_17 : IVec S_ 1 := constantI S_ 1 1#1
  let main_v47 : IVec S_ 1 := (fun x v => Host.reduce IntOp.andi x v reducesTo_S256x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg5 : FVec F S512 .f32) (main_arg6 : FVec F S512 .f32) (main_arg7 : FVec F S512 .f32) (main_arg8 : FVec F S512x256 .f32) (main_arg9 : FVec F S256 .f32) (main_arg10 : FVec F S256x512 .f32) (main_arg11 : FVec F S512 .f32) (main_arg12 : FVec F S512 .f32) (main_arg13 : FVec F S512 .f32) (main_arg14 : FVec F S512x256 .f32) (main_arg15 : FVec F S256 .f32) (main_arg16 : FVec F S256x512 .f32) (main_arg17 : FVec F S512 .f32) (main_arg18 : FVec F S512 .f32) (main_arg19 : FVec F S512 .f32) (main_arg20 : FVec F S512x256 .f32) (main_arg21 : FVec F S256 .f32) (main_arg22 : FVec F S256x512 .f32) (main_arg23 : FVec F S512 .f32) (main_arg24 : FVec F S512 .f32) (main_arg25 : FVec F S512 .f32) (main_arg26 : FVec F S512x256 .f32) (main_arg27 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S20000x256 .f32) (main_arg1 : IVec S2x320000 32) (main_arg2 : FVec F S320000x256 .f32) (main_arg3 : FVec F S20000x256 .f32) (main_arg4 : FVec F S256x512 .f32) (main_arg5 : FVec F S512 .f32) (main_arg6 : FVec F S512 .f32) (main_arg7 : FVec F S512 .f32) (main_arg8 : FVec F S512x256 .f32) (main_arg9 : FVec F S256 .f32) (main_arg10 : FVec F S256x512 .f32) (main_arg11 : FVec F S512 .f32) (main_arg12 : FVec F S512 .f32) (main_arg13 : FVec F S512 .f32) (main_arg14 : FVec F S512x256 .f32) (main_arg15 : FVec F S256 .f32) (main_arg16 : FVec F S256x512 .f32) (main_arg17 : FVec F S512 .f32) (main_arg18 : FVec F S512 .f32) (main_arg19 : FVec F S512 .f32) (main_arg20 : FVec F S512x256 .f32) (main_arg21 : FVec F S256 .f32) (main_arg22 : FVec F S256x512 .f32) (main_arg23 : FVec F S512 .f32) (main_arg24 : FVec F S512 .f32) (main_arg25 : FVec F S512 .f32) (main_arg26 : FVec F S512x256 .f32) (main_arg27 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x256 .f32 := Host.absf main_arg2
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S20000x256 .f32 := Host.absf main_arg3
  let main_cst_2 : FVec F S_ .f32 := constant S_ .f32 0x7F800000#32
  let main_v10 : FVec F S20000x256 .f32 := broadcastInDim S20000x256 ![] bcast_S_S20000x256 main_cst_2
  let main_v11 : IVec S20000x256 1 := cmpf .olt main_v9 main_v10
  let main_c_3 : IVec S_ 1 := constantI S_ 1 1#1
  let main_v12 : IVec S_ 1 := (fun x v => Host.reduce IntOp.andi x v reducesTo_S20000x256_S_d0_1 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S20000x256 : Shape := ⟨2, ![20000, 256]⟩
abbrev S2x320000 : Shape := ⟨2, ![2, 320000]⟩
abbrev S320000x256 : Shape := ⟨2, ![320000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1x512 : Shape := ⟨2, ![1, 512]⟩
abbrev S1x256 : Shape := ⟨2, ![1, 256]⟩
abbrev S20000x512 : Shape := ⟨2, ![20000, 512]⟩
abbrev S2000x256 : Shape := ⟨2, ![2000, 256]⟩
abbrev S2000x512 : Shape := ⟨2, ![2000, 512]⟩
abbrev S20000 : Shape := ⟨1, ![20000]⟩

abbrev nBuf : Space → Nat
  | .hbm => 190
  | .vmem => 80
  | .smem => 0
  | _ => 0

abbrev hbmTy0_0 (i : Nat) : BufTy := match i % 128 with
  | 0 => ⟨S20000x256, .f32⟩
  | 1 => ⟨S2x320000, .i32⟩
  | 2 => ⟨S320000x256, .f32⟩
  | 3 => ⟨S20000x256, .f32⟩
  | 4 => ⟨S256x512, .f32⟩
  | 5 => ⟨S512, .f32⟩
  | 6 => ⟨S512, .f32⟩
  | 7 => ⟨S512, .f32⟩
  | 8 => ⟨S512x256, .f32⟩
  | 9 => ⟨S256, .f32⟩
  | 10 => ⟨S256x512, .f32⟩
  | 11 => ⟨S512, .f32⟩
  | 12 => ⟨S512, .f32⟩
  | 13 => ⟨S512, .f32⟩
  | 14 => ⟨S512x256, .f32⟩
  | 15 => ⟨S256, .f32⟩
  | 16 => ⟨S256x512, .f32⟩
  | 17 => ⟨S512, .f32⟩
  | 18 => ⟨S512, .f32⟩
  | 19 => ⟨S512, .f32⟩
  | 20 => ⟨S512x256, .f32⟩
  | 21 => ⟨S256, .f32⟩
  | 22 => ⟨S256x512, .f32⟩
  | 23 => ⟨S512, .f32⟩
  | 24 => ⟨S512, .f32⟩
  | 25 => ⟨S512, .f32⟩
  | 26 => ⟨S512x256, .f32⟩
  | 27 => ⟨S256, .f32⟩
  | 28 => ⟨S1x320000, .i32⟩
  | 29 => ⟨S320000, .i32⟩
  | 30 => ⟨S1x320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x256, .f32⟩
  | 41 => ⟨S320000x256, .f32⟩
  | 42 => ⟨S_, .f32⟩
  | 43 => ⟨S320000x256, .f32⟩
  | 44 => ⟨S320000x256, .f32⟩
  | 45 => ⟨S_, .f32⟩
  | 46 => ⟨S20000x256, .f32⟩
  | 47 => ⟨S320000x1, .i32⟩
  | 48 => ⟨S20000x256, .f32⟩
  | 49 => ⟨S20000x256, .f32⟩
  | 50 => ⟨S1x512, .f32⟩
  | 51 => ⟨S1x512, .f32⟩
  | 52 => ⟨S1x512, .f32⟩
  | 53 => ⟨S1x256, .f32⟩
  | 54 => ⟨S20000x512, .f32⟩
  | 55 => ⟨S1x512, .f32⟩
  | 56 => ⟨S1x512, .f32⟩
  | 57 => ⟨S_, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S1x512, .f32⟩
  | 65 => ⟨S20000x256, .f32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S320000x256, .f32⟩
  | 75 => ⟨S320000x256, .f32⟩
  | 76 => ⟨S_, .f32⟩
  | 77 => ⟨S320000x256, .f32⟩
  | 78 => ⟨S320000x256, .f32⟩
  | 79 => ⟨S_, .f32⟩
  | 80 => ⟨S20000x256, .f32⟩
  | 81 => ⟨S320000x1, .i32⟩
  | 82 => ⟨S20000x256, .f32⟩
  | 83 => ⟨S20000x256, .f32⟩
  | 84 => ⟨S1x512, .f32⟩
  | 85 => ⟨S1x512, .f32⟩
  | 86 => ⟨S1x512, .f32⟩
  | 87 => ⟨S1x256, .f32⟩
  | 88 => ⟨S20000x512, .f32⟩
  | 89 => ⟨S1x512, .f32⟩
  | 90 => ⟨S1x512, .f32⟩
  | 91 => ⟨S_, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1x512, .f32⟩
  | 98 => ⟨S1x512, .f32⟩
  | 99 => ⟨S20000x256, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x256, .f32⟩
  | 109 => ⟨S320000x256, .f32⟩
  | 110 => ⟨S_, .f32⟩
  | 111 => ⟨S320000x256, .f32⟩
  | 112 => ⟨S320000x256, .f32⟩
  | 113 => ⟨S_, .f32⟩
  | 114 => ⟨S20000x256, .f32⟩
  | 115 => ⟨S320000x1, .i32⟩
  | 116 => ⟨S20000x256, .f32⟩
  | 117 => ⟨S20000x256, .f32⟩
  | 118 => ⟨S1x512, .f32⟩
  | 119 => ⟨S1x512, .f32⟩
  | 120 => ⟨S1x512, .f32⟩
  | 121 => ⟨S1x256, .f32⟩
  | 122 => ⟨S20000x512, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S20000x256, .f32⟩

abbrev hbmTy0_1 (i : Nat) : BufTy := match i % 128 with
  | 0 => ⟨S_, .f32⟩
  | 1 => ⟨S1x512, .f32⟩
  | 2 => ⟨S1x512, .f32⟩
  | 3 => ⟨S1x512, .f32⟩
  | 4 => ⟨S1x512, .f32⟩
  | 5 => ⟨S20000x256, .f32⟩
  | 6 => ⟨S_, .i32⟩
  | 7 => ⟨S320000, .i32⟩
  | 8 => ⟨S320000, .i1⟩
  | 9 => ⟨S_, .i32⟩
  | 10 => ⟨S320000, .i32⟩
  | 11 => ⟨S320000, .i32⟩
  | 12 => ⟨S320000, .i32⟩
  | 13 => ⟨S320000x1, .i32⟩
  | 14 => ⟨S320000x256, .f32⟩
  | 15 => ⟨S320000x256, .f32⟩
  | 16 => ⟨S_, .f32⟩
  | 17 => ⟨S320000x256, .f32⟩
  | 18 => ⟨S320000x256, .f32⟩
  | 19 => ⟨S_, .f32⟩
  | 20 => ⟨S20000x256, .f32⟩
  | 21 => ⟨S320000x1, .i32⟩
  | 22 => ⟨S20000x256, .f32⟩
  | 23 => ⟨S20000x256, .f32⟩
  | 24 => ⟨S1x512, .f32⟩
  | 25 => ⟨S1x512, .f32⟩
  | 26 => ⟨S1x512, .f32⟩
  | 27 => ⟨S1x256, .f32⟩
  | 28 => ⟨S20000x512, .f32⟩
  | 29 => ⟨S1x512, .f32⟩
  | 30 => ⟨S1x512, .f32⟩
  | 31 => ⟨S_, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S1x512, .f32⟩
  | 39 => ⟨S20000x256, .f32⟩
  | 40 => ⟨S20000x256, .f32⟩
  | 41 => ⟨S20000x256, .f32⟩
  | 42 => ⟨S20000x256, .f32⟩
  | 43 => ⟨S_, .f32⟩
  | 44 => ⟨S20000x256, .f32⟩
  | 45 => ⟨S20000x256, .f32⟩
  | 46 => ⟨S_, .f32⟩
  | 47 => ⟨S20000x256, .f32⟩
  | 48 => ⟨S20000x256, .f32⟩
  | 49 => ⟨S20000x256, .f32⟩
  | 50 => ⟨S20000x256, .f32⟩
  | 51 => ⟨S20000x256, .f32⟩
  | 52 => ⟨S20000x256, .f32⟩
  | 53 => ⟨S20000x256, .f32⟩
  | 54 => ⟨S_, .f32⟩
  | 55 => ⟨S20000, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2000x512, .f32⟩
  | .local _ .vmem, ⟨11, _⟩ => ⟨S2000x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x512, .f32⟩
  | .local _ .vmem, ⟨23, _⟩ => ⟨S1x512, .f32⟩
  | .local _ .vmem, ⟨24, _⟩ => ⟨S2000x512, .f32⟩
  | .local _ .vmem, ⟨25, _⟩ => ⟨S2000x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S2000x512, .f32⟩
  | .local _ .vmem, ⟨31, _⟩ => ⟨S2000x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S512x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S256x512, .f32⟩
  | .local _ .vmem, ⟨43, _⟩ => ⟨S1x512, .f32⟩
  | .local _ .vmem, ⟨44, _⟩ => ⟨S2000x512, .f32⟩
  | .local _ .vmem, ⟨45, _⟩ => ⟨S2000x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S1x512, .f32⟩
  | .local _ .vmem, ⟨50, _⟩ => ⟨S2000x512, .f32⟩
  | .local _ .vmem, ⟨51, _⟩ => ⟨S2000x512, .f32⟩
  | .local _ .vmem, ⟨52, _⟩ => ⟨S1x512, .f32⟩
  | .local _ .vmem, ⟨53, _⟩ => ⟨S1x512, .f32⟩
  | .local _ .vmem, ⟨54, _⟩ => ⟨S1x512, .f32⟩
  | .local _ .vmem, ⟨55, _⟩ => ⟨S1x512, .f32⟩
  | .local _ .vmem, ⟨56, _⟩ => ⟨S512x256, .f32⟩
  | .local _ .vmem, ⟨57, _⟩ => ⟨S1x256, .f32⟩
  | .local _ .vmem, ⟨58, _⟩ => ⟨S2000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S256x512, .f32⟩
  | .local _ .vmem, ⟨63, _⟩ => ⟨S1x512, .f32⟩
  | .local _ .vmem, ⟨64, _⟩ => ⟨S2000x512, .f32⟩
  | .local _ .vmem, ⟨65, _⟩ => ⟨S2000x512, .f32⟩
  | .local _ .vmem, ⟨66, _⟩ => ⟨S1x512, .f32⟩
  | .local _ .vmem, ⟨67, _⟩ => ⟨S1x512, .f32⟩
  | .local _ .vmem, ⟨68, _⟩ => ⟨S1x512, .f32⟩
  | .local _ .vmem, ⟨69, _⟩ => ⟨S1x512, .f32⟩
  | .local _ .vmem, ⟨70, _⟩ => ⟨S2000x512, .f32⟩
  | .local _ .vmem, ⟨71, _⟩ => ⟨S2000x512, .f32⟩
  | .local _ .vmem, ⟨72, _⟩ => ⟨S1x512, .f32⟩
  | .local _ .vmem, ⟨73, _⟩ => ⟨S1x512, .f32⟩
  | .local _ .vmem, ⟨74, _⟩ => ⟨S1x512, .f32⟩
  | .local _ .vmem, ⟨75, _⟩ => ⟨S1x512, .f32⟩
  | .local _ .vmem, ⟨76, _⟩ => ⟨S512x256, .f32⟩
  | .local _ .vmem, ⟨77, _⟩ => ⟨S1x256, .f32⟩
  | .local _ .vmem, ⟨78, _⟩ => ⟨S2000x256, .f32⟩
  | .local _ .vmem, ⟨79, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_call0_cst : Ref sig .tc := ⟨.hbm, 42, rfl⟩
abbrev main_call0_v0 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21_0 : Ref sig .tc := ⟨.hbm, 54, rfl⟩
abbrev main_v21_1 : Ref sig .tc := ⟨.hbm, 55, rfl⟩
abbrev main_v21_2 : Ref sig .tc := ⟨.hbm, 56, rfl⟩
abbrev main_cst_1 : Ref sig .tc := ⟨.hbm, 57, rfl⟩
abbrev main_v22 : Ref sig .tc := ⟨.hbm, 58, rfl⟩
abbrev main_v23 : Ref sig .tc := ⟨.hbm, 59, rfl⟩
abbrev main_cst_2 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_c_3 : Ref sig .tc := ⟨.hbm, 66, rfl⟩
abbrev main_v29 : Ref sig .tc := ⟨.hbm, 67, rfl⟩
abbrev main_v30 : Ref sig .tc := ⟨.hbm, 68, rfl⟩
abbrev main_c_4 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_call1_cst : Ref sig .tc := ⟨.hbm, 76, rfl⟩
abbrev main_call1_v0 : Ref sig .tc := ⟨.hbm, 77, rfl⟩
abbrev main_v37 : Ref sig .tc := ⟨.hbm, 78, rfl⟩
abbrev main_cst_5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46_0 : Ref sig .tc := ⟨.hbm, 88, rfl⟩
abbrev main_v46_1 : Ref sig .tc := ⟨.hbm, 89, rfl⟩
abbrev main_v46_2 : Ref sig .tc := ⟨.hbm, 90, rfl⟩
abbrev main_cst_6 : Ref sig .tc := ⟨.hbm, 91, rfl⟩
abbrev main_v47 : Ref sig .tc := ⟨.hbm, 92, rfl⟩
abbrev main_v48 : Ref sig .tc := ⟨.hbm, 93, rfl⟩
abbrev main_cst_7 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_8 : Ref sig .tc := ⟨.hbm, 100, rfl⟩
abbrev main_v54 : Ref sig .tc := ⟨.hbm, 101, rfl⟩
abbrev main_v55 : Ref sig .tc := ⟨.hbm, 102, rfl⟩
abbrev main_c_9 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_call2_cst : Ref sig .tc := ⟨.hbm, 110, rfl⟩
abbrev main_call2_v0 : Ref sig .tc := ⟨.hbm, 111, rfl⟩
abbrev main_v62 : Ref sig .tc := ⟨.hbm, 112, rfl⟩
abbrev main_cst_10 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71_0 : Ref sig .tc := ⟨.hbm, 122, rfl⟩
abbrev main_v71_1 : Ref sig .tc := ⟨.hbm, 123, rfl⟩
abbrev main_v71_2 : Ref sig .tc := ⟨.hbm, 124, rfl⟩
abbrev main_cst_11 : Ref sig .tc := ⟨.hbm, 125, rfl⟩
abbrev main_v72 : Ref sig .tc := ⟨.hbm, 126, rfl⟩
abbrev main_v73 : Ref sig .tc := ⟨.hbm, 127, rfl⟩
abbrev main_cst_12 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c_13 : Ref sig .tc := ⟨.hbm, 134, rfl⟩
abbrev main_v79 : Ref sig .tc := ⟨.hbm, 135, rfl⟩
abbrev main_v80 : Ref sig .tc := ⟨.hbm, 136, rfl⟩
abbrev main_c_14 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_call3_cst : Ref sig .tc := ⟨.hbm, 144, rfl⟩
abbrev main_call3_v0 : Ref sig .tc := ⟨.hbm, 145, rfl⟩
abbrev main_v87 : Ref sig .tc := ⟨.hbm, 146, rfl⟩
abbrev main_cst_15 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96_0 : Ref sig .tc := ⟨.hbm, 156, rfl⟩
abbrev main_v96_1 : Ref sig .tc := ⟨.hbm, 157, rfl⟩
abbrev main_v96_2 : Ref sig .tc := ⟨.hbm, 158, rfl⟩
abbrev main_cst_16 : Ref sig .tc := ⟨.hbm, 159, rfl⟩
abbrev main_v97 : Ref sig .tc := ⟨.hbm, 160, rfl⟩
abbrev main_v98 : Ref sig .tc := ⟨.hbm, 161, rfl⟩
abbrev main_cst_17 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_18 : Ref sig .tc := ⟨.hbm, 171, rfl⟩
abbrev main_v107 : Ref sig .tc := ⟨.hbm, 172, rfl⟩
abbrev main_v108 : Ref sig .tc := ⟨.hbm, 173, rfl⟩
abbrev main_cst_19 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_cst_20 : Ref sig .tc := ⟨.hbm, 182, rfl⟩
abbrev main_v116 : Ref sig .tc := ⟨.hbm, 183, rfl⟩
abbrev main_cst_21 : Ref sig .tc := ⟨.hbm, 184, rfl⟩
abbrev main_v117 : Ref sig .tc := ⟨.hbm, 185, rfl⟩
abbrev main_cst_22 : Ref sig .tc := ⟨.hbm, 186, rfl⟩
abbrev main_v118 : Ref sig .tc := ⟨.hbm, 187, rfl⟩
abbrev main_cst_23 : Ref sig .tc := ⟨.hbm, 188, rfl⟩
abbrev main_v119 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg5_0 : Ref sig .tc := ⟨.vmem, 47, rfl⟩
abbrev cc4_scratch0 : Ref sig .tc := ⟨.vmem, 48, rfl⟩
abbrev cc4_scratch1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg3_1 : Ref sig .tc := ⟨.vmem, 65, rfl⟩
abbrev cc6_stg4_0 : Ref sig .tc := ⟨.vmem, 66, rfl⟩
abbrev cc6_stg5_0 : Ref sig .tc := ⟨.vmem, 67, rfl⟩
abbrev cc6_scratch0 : Ref sig .tc := ⟨.vmem, 68, rfl⟩
abbrev cc6_scratch1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg6_0 : Ref sig .tc := ⟨.vmem, 77, rfl⟩
abbrev cc7_stg7_0 : Ref sig .tc := ⟨.vmem, 78, rfl⟩
abbrev cc7_stg7_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc4_sem4_0 : DmaSem sig := 42
abbrev cc4_sem5_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc6_sem4_0 : DmaSem sig := 60
abbrev cc6_sem5_0 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem4_0 : DmaSem sig := 67
abbrev cc7_sem5_0 : DmaSem sig := 68
abbrev cc7_sem6_0 : DmaSem sig := 69
abbrev cc7_sem7_0 : DmaSem sig := 70
abbrev cc7_sem7_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x512 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x256 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x256 : S_.BroadcastsInDim S320000x256 (![] : Fin 0 → Fin S320000x256.rank)
  bcast_S_S20000x256 : S_.BroadcastsInDim S20000x256 (![] : Fin 0 → Fin S20000x256.rank)
  shapeCasts_S512_S1x512 : S512.ShapeCasts S1x512
  shapeCasts_S256_S1x256 : S256.ShapeCasts S1x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  reduces_S2000x512_S512 : S2000x512.Reduces [0] S512
  bcast_S_S1x512 : S_.BroadcastsInDim S1x512 (![] : Fin 0 → Fin S1x512.rank)
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reducesTo_S20000x256_S20000_d1 : S20000x256.ReducesTo [1] S20000
  h_S_ : 0 < S_.numel
  reducesTo_S20000_S_d0 : S20000.ReducesTo [0] S_
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S2000x256_S256x512_S2000x512_1_0_0_1_n_n_wf : DotDims.WF S2000x256 S256x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S20000x512.size a
  hwx0_3 : ∀ i : grid0.Coords, EltTy.bits .f32 = 32 ∨ (Rect.block (s := S20000x512) S2000x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .f32 = 32 ∨ (Rect.block (s := S512x256) S512x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S20000x256.size a
  hwx1_7 : ∀ i : grid1.Coords, EltTy.bits .f32 = 32 ∨ (Rect.block (s := S20000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .f32 = 32 ∨ (Rect.block (s := S256x512) S256x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S20000x512.size a
  hwx2_3 : ∀ i : grid2.Coords, EltTy.bits .f32 = 32 ∨ (Rect.block (s := S20000x512) S2000x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S20000x512.size a
  hwx3_0 : ∀ i : grid3.Coords, EltTy.bits .f32 = 32 ∨ (Rect.block (s := S20000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x256.size a ≤ S512x256.size a
  hwx3_5 : ∀ i : grid3.Coords, EltTy.bits .f32 = 32 ∨ (Rect.block (s := S512x256) S512x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S20000x256.size a
  hwx3_7 : ∀ i : grid3.Coords, EltTy.bits .f32 = 32 ∨ (Rect.block (s := S20000x256) S2000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x512.size a ≤ S256x512.size a
  hwx4_1 : ∀ i : grid4.Coords, EltTy.bits .f32 = 32 ∨ (Rect.block (s := S256x512) S256x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x512.size a ≤ S20000x512.size a
  hwx4_3 : ∀ i : grid4.Coords, EltTy.bits .f32 = 32 ∨ (Rect.block (s := S20000x512) S2000x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x512.size a ≤ S1x512.size a
  hwx4_5 : ∀ i : grid4.Coords, EltTy.bits .f32 = 32 ∨ (Rect.block (s := S1x512) S1x512.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S20000x512.size a
  hwx5_0 : ∀ i : grid5.Coords, EltTy.bits .f32 = 32 ∨ (Rect.block (s := S20000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x256.size a ≤ S512x256.size a
  hwx5_5 : ∀ i : grid5.Coords, EltTy.bits .f32 = 32 ∨ (Rect.block (s := S512x256) S512x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x256.size a ≤ S20000x256.size a
  hwx5_7 : ∀ i : grid5.Coords, EltTy.bits .f32 = 32 ∨ (Rect.block (s := S20000x256) S2000x256.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x512.size a ≤ S256x512.size a
  hwx6_1 : ∀ i : grid6.Coords, EltTy.bits .f32 = 32 ∨ (Rect.block (s := S256x512) S256x512.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x512.size a ≤ S20000x512.size a
  hwx6_3 : ∀ i : grid6.Coords, EltTy.bits .f32 = 32 ∨ (Rect.block (s := S20000x512) S2000x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x512.size a ≤ S1x512.size a
  hwx6_5 : ∀ i : grid6.Coords, EltTy.bits .f32 = 32 ∨ (Rect.block (s := S1x512) S1x512.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x512.size a ≤ S20000x512.size a
  hwx7_0 : ∀ i : grid7.Coords, EltTy.bits .f32 = 32 ∨ (Rect.block (s := S20000x512) S2000x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x512.size a ≤ S1x512.size a
  hwx7_1 : ∀ i : grid7.Coords, EltTy.bits .f32 = 32 ∨ (Rect.block (s := S1x512) S1x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x512.size a ≤ S1x512.size a
  hwx7_3 : ∀ i : grid7.Coords, EltTy.bits .f32 = 32 ∨ (Rect.block (s := S1x512) S1x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x512.size a ≤ S1x512.size a
  hwx7_4 : ∀ i : grid7.Coords, EltTy.bits .f32 = 32 ∨ (Rect.block (s := S1x512) S1x512.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x256.size a ≤ S512x256.size a
  hwx7_5 : ∀ i : grid7.Coords, EltTy.bits .f32 = 32 ∨ (Rect.block (s := S512x256) S512x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x256.size a ≤ S20000x256.size a
  hwx7_7 : ∀ i : grid7.Coords, EltTy.bits .f32 = 32 ∨ (Rect.block (s := S20000x256) S2000x256.size (cc7_transform_7 i) (hinb7_7 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_v16) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21_0) S2000x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_1) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21_0) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v41) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46_0) S2000x512.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v46_1) S1x512.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46_2) S1x512.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46_0) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S512x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v53) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v66) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S256x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v71_0) S2000x512.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v71_1) S1x512.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71_2) S1x512.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v71_0) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg20) S512x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v70) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v78) S2000x256.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v91) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg22) S256x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v96_0) S2000x512.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v96_1) S1x512.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v96_2) S1x512.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v96_0) S2000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S1x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v93) S1x512.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v94) S1x512.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg26) S512x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v95) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v103) S2000x256.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000x256 : Shape := ⟨2, ![320000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S20000x512 : Shape := ⟨2, ![20000, 512]⟩
abbrev S1x512 : Shape := ⟨2, ![1, 512]⟩
abbrev S1x256 : Shape := ⟨2, ![1, 256]⟩
abbrev S20000 : Shape := ⟨1, ![20000]⟩

abbrev nBuf : Space → Nat
  | .hbm => 352
  | .vmem => 0
  | .smem => 0
  | _ => 0

abbrev hbmTy0_0 (i : Nat) : BufTy := match i % 128 with
  | 0 => ⟨S20000x256, .f32⟩
  | 1 => ⟨S2x320000, .i32⟩
  | 2 => ⟨S320000x256, .f32⟩
  | 3 => ⟨S20000x256, .f32⟩
  | 4 => ⟨S256x512, .f32⟩
  | 5 => ⟨S512, .f32⟩
  | 6 => ⟨S512, .f32⟩
  | 7 => ⟨S512, .f32⟩
  | 8 => ⟨S512x256, .f32⟩
  | 9 => ⟨S256, .f32⟩
  | 10 => ⟨S256x512, .f32⟩
  | 11 => ⟨S512, .f32⟩
  | 12 => ⟨S512, .f32⟩
  | 13 => ⟨S512, .f32⟩
  | 14 => ⟨S512x256, .f32⟩
  | 15 => ⟨S256, .f32⟩
  | 16 => ⟨S256x512, .f32⟩
  | 17 => ⟨S512, .f32⟩
  | 18 => ⟨S512, .f32⟩
  | 19 => ⟨S512, .f32⟩
  | 20 => ⟨S512x256, .f32⟩
  | 21 => ⟨S256, .f32⟩
  | 22 => ⟨S256x512, .f32⟩
  | 23 => ⟨S512, .f32⟩
  | 24 => ⟨S512, .f32⟩
  | 25 => ⟨S512, .f32⟩
  | 26 => ⟨S512x256, .f32⟩
  | 27 => ⟨S256, .f32⟩
  | 28 => ⟨S1x320000, .i32⟩
  | 29 => ⟨S320000, .i32⟩
  | 30 => ⟨S1x320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x256, .f32⟩
  | 41 => ⟨S320000x256, .f32⟩
  | 42 => ⟨S_, .f32⟩
  | 43 => ⟨S320000x256, .f32⟩
  | 44 => ⟨S320000x256, .f32⟩
  | 45 => ⟨S_, .f32⟩
  | 46 => ⟨S20000x256, .f32⟩
  | 47 => ⟨S320000x1, .i32⟩
  | 48 => ⟨S20000x256, .f32⟩
  | 49 => ⟨S20000x256, .f32⟩
  | 50 => ⟨S20000x512, .f32⟩
  | 51 => ⟨S1x512, .f32⟩
  | 52 => ⟨S20000x512, .f32⟩
  | 53 => ⟨S20000x512, .f32⟩
  | 54 => ⟨S_, .f32⟩
  | 55 => ⟨S512, .f32⟩
  | 56 => ⟨S_, .f32⟩
  | 57 => ⟨S512, .f32⟩
  | 58 => ⟨S512, .f32⟩
  | 59 => ⟨S_, .i32⟩
  | 60 => ⟨S_, .f32⟩
  | 61 => ⟨S512, .f32⟩
  | 62 => ⟨S1x512, .f32⟩
  | 63 => ⟨S_, .f32⟩
  | 64 => ⟨S1x512, .f32⟩
  | 65 => ⟨S1x512, .f32⟩
  | 66 => ⟨S20000x512, .f32⟩
  | 67 => ⟨S20000x512, .f32⟩
  | 68 => ⟨S20000x512, .f32⟩
  | 69 => ⟨S_, .f32⟩
  | 70 => ⟨S_, .f32⟩
  | 71 => ⟨S_, .f32⟩
  | 72 => ⟨S_, .f32⟩
  | 73 => ⟨S512, .f32⟩
  | 74 => ⟨S512, .f32⟩
  | 75 => ⟨S512, .f32⟩
  | 76 => ⟨S_, .f32⟩
  | 77 => ⟨S_, .i1⟩
  | 78 => ⟨S_, .f32⟩
  | 79 => ⟨S_, .f32⟩
  | 80 => ⟨S512, .f32⟩
  | 81 => ⟨S512, .f32⟩
  | 82 => ⟨S1x512, .f32⟩
  | 83 => ⟨S20000x512, .f32⟩
  | 84 => ⟨S20000x512, .f32⟩
  | 85 => ⟨S_, .f32⟩
  | 86 => ⟨S512, .f32⟩
  | 87 => ⟨S512, .f32⟩
  | 88 => ⟨S512, .f32⟩
  | 89 => ⟨S1x512, .f32⟩
  | 90 => ⟨S20000x512, .f32⟩
  | 91 => ⟨S20000x512, .f32⟩
  | 92 => ⟨S1x512, .f32⟩
  | 93 => ⟨S20000x512, .f32⟩
  | 94 => ⟨S20000x512, .f32⟩
  | 95 => ⟨S1x512, .f32⟩
  | 96 => ⟨S20000x512, .f32⟩
  | 97 => ⟨S20000x512, .f32⟩
  | 98 => ⟨S_, .f32⟩
  | 99 => ⟨S20000x512, .f32⟩
  | 100 => ⟨S20000x512, .f32⟩
  | 101 => ⟨S20000x256, .f32⟩
  | 102 => ⟨S1x256, .f32⟩
  | 103 => ⟨S20000x256, .f32⟩
  | 104 => ⟨S20000x256, .f32⟩
  | 105 => ⟨S1x320000, .i32⟩
  | 106 => ⟨S320000, .i32⟩
  | 107 => ⟨S1x320000, .i32⟩
  | 108 => ⟨S320000, .i32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000x256, .f32⟩
  | 118 => ⟨S320000x256, .f32⟩
  | 119 => ⟨S_, .f32⟩
  | 120 => ⟨S320000x256, .f32⟩
  | 121 => ⟨S320000x256, .f32⟩
  | 122 => ⟨S_, .f32⟩
  | 123 => ⟨S20000x256, .f32⟩
  | 124 => ⟨S320000x1, .i32⟩
  | 125 => ⟨S20000x256, .f32⟩
  | 126 => ⟨S20000x256, .f32⟩
  | 127 => ⟨S20000x512, .f32⟩
  | _ => ⟨S20000x256, .f32⟩

abbrev hbmTy0_1 (i : Nat) : BufTy := match i % 128 with
  | 0 => ⟨S1x512, .f32⟩
  | 1 => ⟨S20000x512, .f32⟩
  | 2 => ⟨S20000x512, .f32⟩
  | 3 => ⟨S_, .f32⟩
  | 4 => ⟨S512, .f32⟩
  | 5 => ⟨S_, .f32⟩
  | 6 => ⟨S512, .f32⟩
  | 7 => ⟨S512, .f32⟩
  | 8 => ⟨S_, .i32⟩
  | 9 => ⟨S_, .f32⟩
  | 10 => ⟨S512, .f32⟩
  | 11 => ⟨S1x512, .f32⟩
  | 12 => ⟨S_, .f32⟩
  | 13 => ⟨S1x512, .f32⟩
  | 14 => ⟨S1x512, .f32⟩
  | 15 => ⟨S20000x512, .f32⟩
  | 16 => ⟨S20000x512, .f32⟩
  | 17 => ⟨S20000x512, .f32⟩
  | 18 => ⟨S_, .f32⟩
  | 19 => ⟨S_, .f32⟩
  | 20 => ⟨S_, .f32⟩
  | 21 => ⟨S_, .f32⟩
  | 22 => ⟨S512, .f32⟩
  | 23 => ⟨S512, .f32⟩
  | 24 => ⟨S512, .f32⟩
  | 25 => ⟨S_, .f32⟩
  | 26 => ⟨S_, .i1⟩
  | 27 => ⟨S_, .f32⟩
  | 28 => ⟨S_, .f32⟩
  | 29 => ⟨S512, .f32⟩
  | 30 => ⟨S512, .f32⟩
  | 31 => ⟨S1x512, .f32⟩
  | 32 => ⟨S20000x512, .f32⟩
  | 33 => ⟨S20000x512, .f32⟩
  | 34 => ⟨S_, .f32⟩
  | 35 => ⟨S512, .f32⟩
  | 36 => ⟨S512, .f32⟩
  | 37 => ⟨S512, .f32⟩
  | 38 => ⟨S1x512, .f32⟩
  | 39 => ⟨S20000x512, .f32⟩
  | 40 => ⟨S20000x512, .f32⟩
  | 41 => ⟨S1x512, .f32⟩
  | 42 => ⟨S20000x512, .f32⟩
  | 43 => ⟨S20000x512, .f32⟩
  | 44 => ⟨S1x512, .f32⟩
  | 45 => ⟨S20000x512, .f32⟩
  | 46 => ⟨S20000x512, .f32⟩
  | 47 => ⟨S_, .f32⟩
  | 48 => ⟨S20000x512, .f32⟩
  | 49 => ⟨S20000x512, .f32⟩
  | 50 => ⟨S20000x256, .f32⟩
  | 51 => ⟨S1x256, .f32⟩
  | 52 => ⟨S20000x256, .f32⟩
  | 53 => ⟨S20000x256, .f32⟩
  | 54 => ⟨S1x320000, .i32⟩
  | 55 => ⟨S320000, .i32⟩
  | 56 => ⟨S1x320000, .i32⟩
  | 57 => ⟨S320000, .i32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x256, .f32⟩
  | 67 => ⟨S320000x256, .f32⟩
  | 68 => ⟨S_, .f32⟩
  | 69 => ⟨S320000x256, .f32⟩
  | 70 => ⟨S320000x256, .f32⟩
  | 71 => ⟨S_, .f32⟩
  | 72 => ⟨S20000x256, .f32⟩
  | 73 => ⟨S320000x1, .i32⟩
  | 74 => ⟨S20000x256, .f32⟩
  | 75 => ⟨S20000x256, .f32⟩
  | 76 => ⟨S20000x512, .f32⟩
  | 77 => ⟨S1x512, .f32⟩
  | 78 => ⟨S20000x512, .f32⟩
  | 79 => ⟨S20000x512, .f32⟩
  | 80 => ⟨S_, .f32⟩
  | 81 => ⟨S512, .f32⟩
  | 82 => ⟨S_, .f32⟩
  | 83 => ⟨S512, .f32⟩
  | 84 => ⟨S512, .f32⟩
  | 85 => ⟨S_, .i32⟩
  | 86 => ⟨S_, .f32⟩
  | 87 => ⟨S512, .f32⟩
  | 88 => ⟨S1x512, .f32⟩
  | 89 => ⟨S_, .f32⟩
  | 90 => ⟨S1x512, .f32⟩
  | 91 => ⟨S1x512, .f32⟩
  | 92 => ⟨S20000x512, .f32⟩
  | 93 => ⟨S20000x512, .f32⟩
  | 94 => ⟨S20000x512, .f32⟩
  | 95 => ⟨S_, .f32⟩
  | 96 => ⟨S_, .f32⟩
  | 97 => ⟨S_, .f32⟩
  | 98 => ⟨S_, .f32⟩
  | 99 => ⟨S512, .f32⟩
  | 100 => ⟨S512, .f32⟩
  | 101 => ⟨S512, .f32⟩
  | 102 => ⟨S_, .f32⟩
  | 103 => ⟨S_, .i1⟩
  | 104 => ⟨S_, .f32⟩
  | 105 => ⟨S_, .f32⟩
  | 106 => ⟨S512, .f32⟩
  | 107 => ⟨S512, .f32⟩
  | 108 => ⟨S1x512, .f32⟩
  | 109 => ⟨S20000x512, .f32⟩
  | 110 => ⟨S20000x512, .f32⟩
  | 111 => ⟨S_, .f32⟩
  | 112 => ⟨S512, .f32⟩
  | 113 => ⟨S512, .f32⟩
  | 114 => ⟨S512, .f32⟩
  | 115 => ⟨S1x512, .f32⟩
  | 116 => ⟨S20000x512, .f32⟩
  | 117 => ⟨S20000x512, .f32⟩
  | 118 => ⟨S1x512, .f32⟩
  | 119 => ⟨S20000x512, .f32⟩
  | 120 => ⟨S20000x512, .f32⟩
  | 121 => ⟨S1x512, .f32⟩
  | 122 => ⟨S20000x512, .f32⟩
  | 123 => ⟨S20000x512, .f32⟩
  | 124 => ⟨S20000x256, .f32⟩
  | 125 => ⟨S1x256, .f32⟩
  | 126 => ⟨S20000x256, .f32⟩
  | 127 => ⟨S20000x256, .f32⟩
  | _ => ⟨S20000x256, .f32⟩

abbrev hbmTy0_2 (i : Nat) : BufTy := match i % 128 with
  | 0 => ⟨S1x320000, .i32⟩
  | 1 => ⟨S320000, .i32⟩
  | 2 => ⟨S1x320000, .i32⟩
  | 3 => ⟨S320000, .i32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000x256, .f32⟩
  | 13 => ⟨S320000x256, .f32⟩
  | 14 => ⟨S_, .f32⟩
  | 15 => ⟨S320000x256, .f32⟩
  | 16 => ⟨S320000x256, .f32⟩
  | 17 => ⟨S_, .f32⟩
  | 18 => ⟨S20000x256, .f32⟩
  | 19 => ⟨S320000x1, .i32⟩
  | 20 => ⟨S20000x256, .f32⟩
  | 21 => ⟨S20000x256, .f32⟩
  | 22 => ⟨S20000x512, .f32⟩
  | 23 => ⟨S1x512, .f32⟩
  | 24 => ⟨S20000x512, .f32⟩
  | 25 => ⟨S20000x512, .f32⟩
  | 26 => ⟨S_, .f32⟩
  | 27 => ⟨S512, .f32⟩
  | 28 => ⟨S_, .f32⟩
  | 29 => ⟨S512, .f32⟩
  | 30 => ⟨S512, .f32⟩
  | 31 => ⟨S_, .i32⟩
  | 32 => ⟨S_, .f32⟩
  | 33 => ⟨S512, .f32⟩
  | 34 => ⟨S1x512, .f32⟩
  | 35 => ⟨S_, .f32⟩
  | 36 => ⟨S1x512, .f32⟩
  | 37 => ⟨S1x512, .f32⟩
  | 38 => ⟨S20000x512, .f32⟩
  | 39 => ⟨S20000x512, .f32⟩
  | 40 => ⟨S20000x512, .f32⟩
  | 41 => ⟨S_, .f32⟩
  | 42 => ⟨S_, .f32⟩
  | 43 => ⟨S_, .f32⟩
  | 44 => ⟨S_, .f32⟩
  | 45 => ⟨S512, .f32⟩
  | 46 => ⟨S512, .f32⟩
  | 47 => ⟨S512, .f32⟩
  | 48 => ⟨S_, .f32⟩
  | 49 => ⟨S_, .i1⟩
  | 50 => ⟨S_, .f32⟩
  | 51 => ⟨S_, .f32⟩
  | 52 => ⟨S512, .f32⟩
  | 53 => ⟨S512, .f32⟩
  | 54 => ⟨S1x512, .f32⟩
  | 55 => ⟨S20000x512, .f32⟩
  | 56 => ⟨S20000x512, .f32⟩
  | 57 => ⟨S_, .f32⟩
  | 58 => ⟨S512, .f32⟩
  | 59 => ⟨S512, .f32⟩
  | 60 => ⟨S512, .f32⟩
  | 61 => ⟨S1x512, .f32⟩
  | 62 => ⟨S20000x512, .f32⟩
  | 63 => ⟨S20000x512, .f32⟩
  | 64 => ⟨S1x512, .f32⟩
  | 65 => ⟨S20000x512, .f32⟩
  | 66 => ⟨S20000x512, .f32⟩
  | 67 => ⟨S1x512, .f32⟩
  | 68 => ⟨S20000x512, .f32⟩
  | 69 => ⟨S20000x512, .f32⟩
  | 70 => ⟨S20000x256, .f32⟩
  | 71 => ⟨S1x256, .f32⟩
  | 72 => ⟨S20000x256, .f32⟩
  | 73 => ⟨S20000x256, .f32⟩
  | 74 => ⟨S20000x256, .f32⟩
  | 75 => ⟨S20000x256, .f32⟩
  | 76 => ⟨S20000x256, .f32⟩
  | 77 => ⟨S_, .f32⟩
  | 78 => ⟨S20000x256, .f32⟩
  | 79 => ⟨S20000x256, .f32⟩
  | 80 => ⟨S_, .f32⟩
  | 81 => ⟨S20000x256, .f32⟩
  | 82 => ⟨S20000x256, .f32⟩
  | 83 => ⟨S20000x256, .f32⟩
  | 84 => ⟨S20000x256, .f32⟩
  | 85 => ⟨S20000x256, .f32⟩
  | 86 => ⟨S20000x256, .f32⟩
  | 87 => ⟨S20000x256, .f32⟩
  | 88 => ⟨S_, .f32⟩
  | 89 => ⟨S20000, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_call0_cst : Ref sig .tc := ⟨.hbm, 42, rfl⟩
abbrev main_call0_v0 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_1 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_c_3 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_cst_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_cst_2 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_cst_3 : Ref sig .tc := ⟨.hbm, 76, rfl⟩
abbrev main_call1_v12 : Ref sig .tc := ⟨.hbm, 77, rfl⟩
abbrev main_call1_cst_4 : Ref sig .tc := ⟨.hbm, 78, rfl⟩
abbrev main_call1_call0_v0 : Ref sig .tc := ⟨.hbm, 79, rfl⟩
abbrev main_call1_call0_v1 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_4 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_call2_cst : Ref sig .tc := ⟨.hbm, 98, rfl⟩
abbrev main_call2_v0 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_5 : Ref sig .tc := ⟨.hbm, 109, rfl⟩
abbrev main_v49 : Ref sig .tc := ⟨.hbm, 110, rfl⟩
abbrev main_v50 : Ref sig .tc := ⟨.hbm, 111, rfl⟩
abbrev main_c_6 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_call3_cst : Ref sig .tc := ⟨.hbm, 119, rfl⟩
abbrev main_call3_v0 : Ref sig .tc := ⟨.hbm, 120, rfl⟩
abbrev main_v57 : Ref sig .tc := ⟨.hbm, 121, rfl⟩
abbrev main_cst_7 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_8 : Ref sig .tc := ⟨.hbm, 131, rfl⟩
abbrev main_v66 : Ref sig .tc := ⟨.hbm, 132, rfl⟩
abbrev main_cst_9 : Ref sig .tc := ⟨.hbm, 133, rfl⟩
abbrev main_v67 : Ref sig .tc := ⟨.hbm, 134, rfl⟩
abbrev main_v68 : Ref sig .tc := ⟨.hbm, 135, rfl⟩
abbrev main_c_10 : Ref sig .tc := ⟨.hbm, 136, rfl⟩
abbrev main_call4_cst : Ref sig .tc := ⟨.hbm, 137, rfl⟩
abbrev main_call4_v0 : Ref sig .tc := ⟨.hbm, 138, rfl⟩
abbrev main_call4_v1 : Ref sig .tc := ⟨.hbm, 139, rfl⟩
abbrev main_call4_cst_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_v6 : Ref sig .tc := ⟨.hbm, 145, rfl⟩
abbrev main_call4_v7 : Ref sig .tc := ⟨.hbm, 146, rfl⟩
abbrev main_call4_cst_1 : Ref sig .tc := ⟨.hbm, 147, rfl⟩
abbrev main_call4_v8 : Ref sig .tc := ⟨.hbm, 148, rfl⟩
abbrev main_call4_cst_2 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_cst_3 : Ref sig .tc := ⟨.hbm, 153, rfl⟩
abbrev main_call4_v12 : Ref sig .tc := ⟨.hbm, 154, rfl⟩
abbrev main_call4_cst_4 : Ref sig .tc := ⟨.hbm, 155, rfl⟩
abbrev main_call4_call0_v0 : Ref sig .tc := ⟨.hbm, 156, rfl⟩
abbrev main_call4_call0_v1 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_cst_11 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_v76 : Ref sig .tc := ⟨.hbm, 166, rfl⟩
abbrev main_v77 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_call5_cst : Ref sig .tc := ⟨.hbm, 175, rfl⟩
abbrev main_call5_v0 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_v92 : Ref sig .tc := ⟨.hbm, 184, rfl⟩
abbrev main_v93 : Ref sig .tc := ⟨.hbm, 185, rfl⟩
abbrev main_c_12 : Ref sig .tc := ⟨.hbm, 186, rfl⟩
abbrev main_v94 : Ref sig .tc := ⟨.hbm, 187, rfl⟩
abbrev main_v95 : Ref sig .tc := ⟨.hbm, 188, rfl⟩
abbrev main_c_13 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_v101 : Ref sig .tc := ⟨.hbm, 195, rfl⟩
abbrev main_call6_cst : Ref sig .tc := ⟨.hbm, 196, rfl⟩
abbrev main_call6_v0 : Ref sig .tc := ⟨.hbm, 197, rfl⟩
abbrev main_v102 : Ref sig .tc := ⟨.hbm, 198, rfl⟩
abbrev main_cst_14 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_cst_15 : Ref sig .tc := ⟨.hbm, 208, rfl⟩
abbrev main_v111 : Ref sig .tc := ⟨.hbm, 209, rfl⟩
abbrev main_cst_16 : Ref sig .tc := ⟨.hbm, 210, rfl⟩
abbrev main_v112 : Ref sig .tc := ⟨.hbm, 211, rfl⟩
abbrev main_v113 : Ref sig .tc := ⟨.hbm, 212, rfl⟩
abbrev main_c_17 : Ref sig .tc := ⟨.hbm, 213, rfl⟩
abbrev main_call7_cst : Ref sig .tc := ⟨.hbm, 214, rfl⟩
abbrev main_call7_v0 : Ref sig .tc := ⟨.hbm, 215, rfl⟩
abbrev main_call7_v1 : Ref sig .tc := ⟨.hbm, 216, rfl⟩
abbrev main_call7_cst_0 : Ref sig .tc := ⟨.hbm, 217, rfl⟩
abbrev main_call7_v2 : Ref sig .tc := ⟨.hbm, 218, rfl⟩
abbrev main_call7_v3 : Ref sig .tc := ⟨.hbm, 219, rfl⟩
abbrev main_call7_v4 : Ref sig .tc := ⟨.hbm, 220, rfl⟩
abbrev main_call7_v5 : Ref sig .tc := ⟨.hbm, 221, rfl⟩
abbrev main_call7_v6 : Ref sig .tc := ⟨.hbm, 222, rfl⟩
abbrev main_call7_v7 : Ref sig .tc := ⟨.hbm, 223, rfl⟩
abbrev main_call7_cst_1 : Ref sig .tc := ⟨.hbm, 224, rfl⟩
abbrev main_call7_v8 : Ref sig .tc := ⟨.hbm, 225, rfl⟩
abbrev main_call7_cst_2 : Ref sig .tc := ⟨.hbm, 226, rfl⟩
abbrev main_call7_v9 : Ref sig .tc := ⟨.hbm, 227, rfl⟩
abbrev main_call7_v10 : Ref sig .tc := ⟨.hbm, 228, rfl⟩
abbrev main_call7_v11 : Ref sig .tc := ⟨.hbm, 229, rfl⟩
abbrev main_call7_cst_3 : Ref sig .tc := ⟨.hbm, 230, rfl⟩
abbrev main_call7_v12 : Ref sig .tc := ⟨.hbm, 231, rfl⟩
abbrev main_call7_cst_4 : Ref sig .tc := ⟨.hbm, 232, rfl⟩
abbrev main_call7_call0_v0 : Ref sig .tc := ⟨.hbm, 233, rfl⟩
abbrev main_call7_call0_v1 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_cst_18 : Ref sig .tc := ⟨.hbm, 239, rfl⟩
abbrev main_v118 : Ref sig .tc := ⟨.hbm, 240, rfl⟩
abbrev main_v119 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_v123 : Ref sig .tc := ⟨.hbm, 245, rfl⟩
abbrev main_v124 : Ref sig .tc := ⟨.hbm, 246, rfl⟩
abbrev main_v125 : Ref sig .tc := ⟨.hbm, 247, rfl⟩
abbrev main_v126 : Ref sig .tc := ⟨.hbm, 248, rfl⟩
abbrev main_v127 : Ref sig .tc := ⟨.hbm, 249, rfl⟩
abbrev main_v128 : Ref sig .tc := ⟨.hbm, 250, rfl⟩
abbrev main_v129 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_c_19 : Ref sig .tc := ⟨.hbm, 260, rfl⟩
abbrev main_v138 : Ref sig .tc := ⟨.hbm, 261, rfl⟩
abbrev main_v139 : Ref sig .tc := ⟨.hbm, 262, rfl⟩
abbrev main_c_20 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_call8_cst : Ref sig .tc := ⟨.hbm, 270, rfl⟩
abbrev main_call8_v0 : Ref sig .tc := ⟨.hbm, 271, rfl⟩
abbrev main_v146 : Ref sig .tc := ⟨.hbm, 272, rfl⟩
abbrev main_cst_21 : Ref sig .tc := ⟨.hbm, 273, rfl⟩
abbrev main_v147 : Ref sig .tc := ⟨.hbm, 274, rfl⟩
abbrev main_v148 : Ref sig .tc := ⟨.hbm, 275, rfl⟩
abbrev main_v149 : Ref sig .tc := ⟨.hbm, 276, rfl⟩
abbrev main_v150 : Ref sig .tc := ⟨.hbm, 277, rfl⟩
abbrev main_v151 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_cst_22 : Ref sig .tc := ⟨.hbm, 282, rfl⟩
abbrev main_v155 : Ref sig .tc := ⟨.hbm, 283, rfl⟩
abbrev main_cst_23 : Ref sig .tc := ⟨.hbm, 284, rfl⟩
abbrev main_v156 : Ref sig .tc := ⟨.hbm, 285, rfl⟩
abbrev main_v157 : Ref sig .tc := ⟨.hbm, 286, rfl⟩
abbrev main_c_24 : Ref sig .tc := ⟨.hbm, 287, rfl⟩
abbrev main_call9_cst : Ref sig .tc := ⟨.hbm, 288, rfl⟩
abbrev main_call9_v0 : Ref sig .tc := ⟨.hbm, 289, rfl⟩
abbrev main_call9_v1 : Ref sig .tc := ⟨.hbm, 290, rfl⟩
abbrev main_call9_cst_0 : Ref sig .tc := ⟨.hbm, 291, rfl⟩
abbrev main_call9_v2 : Ref sig .tc := ⟨.hbm, 292, rfl⟩
abbrev main_call9_v3 : Ref sig .tc := ⟨.hbm, 293, rfl⟩
abbrev main_call9_v4 : Ref sig .tc := ⟨.hbm, 294, rfl⟩
abbrev main_call9_v5 : Ref sig .tc := ⟨.hbm, 295, rfl⟩
abbrev main_call9_v6 : Ref sig .tc := ⟨.hbm, 296, rfl⟩
abbrev main_call9_v7 : Ref sig .tc := ⟨.hbm, 297, rfl⟩
abbrev main_call9_cst_1 : Ref sig .tc := ⟨.hbm, 298, rfl⟩
abbrev main_call9_v8 : Ref sig .tc := ⟨.hbm, 299, rfl⟩
abbrev main_call9_cst_2 : Ref sig .tc := ⟨.hbm, 300, rfl⟩
abbrev main_call9_v9 : Ref sig .tc := ⟨.hbm, 301, rfl⟩
abbrev main_call9_v10 : Ref sig .tc := ⟨.hbm, 302, rfl⟩
abbrev main_call9_v11 : Ref sig .tc := ⟨.hbm, 303, rfl⟩
abbrev main_call9_cst_3 : Ref sig .tc := ⟨.hbm, 304, rfl⟩
abbrev main_call9_v12 : Ref sig .tc := ⟨.hbm, 305, rfl⟩
abbrev main_call9_cst_4 : Ref sig .tc := ⟨.hbm, 306, rfl⟩
abbrev main_call9_call0_v0 : Ref sig .tc := ⟨.hbm, 307, rfl⟩
abbrev main_call9_call0_v1 : Ref sig .tc := ⟨.hbm, 308, rfl⟩
abbrev main_v158 : Ref sig .tc := ⟨.hbm, 309, rfl⟩
abbrev main_v159 : Ref sig .tc := ⟨.hbm, 310, rfl⟩
abbrev main_v160 : Ref sig .tc := ⟨.hbm, 311, rfl⟩
abbrev main_v161 : Ref sig .tc := ⟨.hbm, 312, rfl⟩
abbrev main_cst_25 : Ref sig .tc := ⟨.hbm, 313, rfl⟩
abbrev main_v162 : Ref sig .tc := ⟨.hbm, 314, rfl⟩
abbrev main_v163 : Ref sig .tc := ⟨.hbm, 315, rfl⟩
abbrev main_v164 : Ref sig .tc := ⟨.hbm, 316, rfl⟩
abbrev main_v165 : Ref sig .tc := ⟨.hbm, 317, rfl⟩
abbrev main_v166 : Ref sig .tc := ⟨.hbm, 318, rfl⟩
abbrev main_v167 : Ref sig .tc := ⟨.hbm, 319, rfl⟩
abbrev main_v168 : Ref sig .tc := ⟨.hbm, 320, rfl⟩
abbrev main_v169 : Ref sig .tc := ⟨.hbm, 321, rfl⟩
abbrev main_v170 : Ref sig .tc := ⟨.hbm, 322, rfl⟩
abbrev main_v171 : Ref sig .tc := ⟨.hbm, 323, rfl⟩
abbrev main_v172 : Ref sig .tc := ⟨.hbm, 324, rfl⟩
abbrev main_v173 : Ref sig .tc := ⟨.hbm, 325, rfl⟩
abbrev main_v174 : Ref sig .tc := ⟨.hbm, 326, rfl⟩
abbrev main_v175 : Ref sig .tc := ⟨.hbm, 327, rfl⟩
abbrev main_v176 : Ref sig .tc := ⟨.hbm, 328, rfl⟩
abbrev main_v177 : Ref sig .tc := ⟨.hbm, 329, rfl⟩
abbrev main_v178 : Ref sig .tc := ⟨.hbm, 330, rfl⟩
abbrev main_v179 : Ref sig .tc := ⟨.hbm, 331, rfl⟩
abbrev main_v180 : Ref sig .tc := ⟨.hbm, 332, rfl⟩
abbrev main_cst_26 : Ref sig .tc := ⟨.hbm, 333, rfl⟩
abbrev main_v181 : Ref sig .tc := ⟨.hbm, 334, rfl⟩
abbrev main_v182 : Ref sig .tc := ⟨.hbm, 335, rfl⟩
abbrev main_cst_27 : Ref sig .tc := ⟨.hbm, 336, rfl⟩
abbrev main_v183 : Ref sig .tc := ⟨.hbm, 337, rfl⟩
abbrev main_v184 : Ref sig .tc := ⟨.hbm, 338, rfl⟩
abbrev main_v185 : Ref sig .tc := ⟨.hbm, 339, rfl⟩
abbrev main_v186 : Ref sig .tc := ⟨.hbm, 340, rfl⟩
abbrev main_v187 : Ref sig .tc := ⟨.hbm, 341, rfl⟩
abbrev main_v188 : Ref sig .tc := ⟨.hbm, 342, rfl⟩
abbrev main_v189 : Ref sig .tc := ⟨.hbm, 343, rfl⟩
abbrev main_cst_28 : Ref sig .tc := ⟨.hbm, 344, rfl⟩
abbrev main_v190 : Ref sig .tc := ⟨.hbm, 345, rfl⟩
abbrev main_cst_29 : Ref sig .tc := ⟨.hbm, 346, rfl⟩
abbrev main_v191 : Ref sig .tc := ⟨.hbm, 347, rfl⟩
abbrev main_cst_30 : Ref sig .tc := ⟨.hbm, 348, rfl⟩
abbrev main_v192 : Ref sig .tc := ⟨.hbm, 349, rfl⟩
abbrev main_cst_31 : Ref sig .tc := ⟨.hbm, 350, rfl⟩
abbrev main_v193 : Ref sig .tc := ⟨.hbm, 351, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x256 : S_.BroadcastsInDim S320000x256 (![] : Fin 0 → Fin S320000x256.rank)
  bcast_S_S20000x256 : S_.BroadcastsInDim S20000x256 (![] : Fin 0 → Fin S20000x256.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  reducesTo_S20000x512_S512_d0 : S20000x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S20000x512 : S_.BroadcastsInDim S20000x512 (![] : Fin 0 → Fin S20000x512.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S20000_d1 : S20000x256.ReducesTo [1] S20000
  reducesTo_S20000_S_d0 : S20000.ReducesTo [0] S_
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x512_S20000x512_1_0_0_1_n_n_wf : DotDims.WF S20000x256 S256x512 S20000x512 [1] [0] [0] [1] [] []
  dot_S20000x512_S512x256_S20000x256_1_0_0_1_n_n_wf : DotDims.WF S20000x512 S512x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf

class Facts : Prop extends Facts₀ where

variable [Facts]
-- ==== Proof.KCommon.lean ====
/-
  Small facts shared by the modules that run the kernel bodies: the zero offset of a whole-buffer rectangle, a load of a
  whole buffer after writes whose last one covered it, and that a buffer left by writes reading back as `v` is owned at `v`.
-/

import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- A load of the whole buffer after a list of writes whose last one covered the whole buffer reads that write's payload. -/
theorem readCov_cons_unit_zero {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- A buffer left by writes whose read-back is `v` is owned at `v`. -/
theorem owns_of_writes {s : Shape} {e : EltTy} (c : Dev nD) (arg : Memref sig .tc .vmem s e) (L : List (View.Piece (Elt F) s e)) (v : Vec F s e)
    (hread : ∀ f, arg.view.read (Elt F) (arg.view.writes (Elt F) f L) = v) :
    (iprop(∃ f, arg.view.loc (c : Thread nD τ) ↦[arg.view.set]{fullShare} arg.view.writes (Elt F) f L) : sProp 𝕄)
      ⊢ owns (c : Thread nD τ) arg fullShare v := by
  unfold owns
  iintro ⟨%f, H⟩
  iexists _; isplitr; · ipureintro; exact hread f
  iexact H

end Cert.Kernel.Hand

end
-- ==== Proof.KRun0.lean ====
/-
  The first kernel of layer 0 (a row tile's dense block h = x·W1 + b1, stored, and the running column sums of h and of h·h
  kept in two scratch rows) run once on whole staging buffers, in its two cases: at the first grid point both scratch rows
  are reset to zero before the tile's sums are added; at every later point they come in holding what the point before left.
  Each run ends with every buffer the body stored into written by a list of pieces the run itself determines.
-/
import proofs.«138093_j17583596110490_1_alg».proof.Proof.KCommon
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first grid point's test, as the body computes it from the grid coordinate. -/
abbrev cond0 (i : grid0.Coords) : Prop := (Scalar.cmpi .ne (Scalar.extui (Scalar.cmpi .eq (BitVec.ofNat 32 (i 0).val) 0#32)) 0#32) = 1#1

set_option maxHeartbeats 4000000 in
/-- The body at the first grid point: both accumulators are reset, then the tile's block and its column sums are stored. -/
noncomputable def kernelRun0_A (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__mm1_kernel_eq_skeleton]; unfold cc0__mm1_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

set_option maxHeartbeats 4000000 in
/-- The body at a later grid point: the accumulators come in at what the point before left. -/
noncomputable def kernelRun0_B (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__mm1_kernel_eq_skeleton]; unfold cc0__mm1_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.KPieces0.lean ====
/-
  What the first kernel of layer 0 leaves, read back: in each of its two cases every buffer the body wrote holds a named
  term of the input blocks — the dense block k0_pay3, and in the scratch rows and the statistics outputs k0_pay4 / k0_pay5
  of the block and of what the scratch rows held (zero rows at the first point) — and the body's triple restated with them.
-/
import proofs.«138093_j17583596110490_1_alg».proof.Proof.KRun0
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piece0_A_3 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg4.view.read (Elt F) (arg4.view.writes (Elt F) f (kernelRun0_A c i arg1 harg1 arg2 harg2 arg3 harg3 arg4 harg4 arg5 harg5 arg6 harg6 arg7 harg7 arg8 harg8 hc0 x0 x1 x2).1) = k0_pay3 x0 x1 x2 := by
  rw [View.read_writes_eq_canon _ _ _ (View.cover_of_tiledL _ S2000x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_A_4 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg5.view.read (Elt F) (arg5.view.writes (Elt F) f (kernelRun0_A c i arg1 harg1 arg2 harg2 arg3 harg3 arg4 harg4 arg5 harg5 arg6 harg6 arg7 harg7 arg8 harg8 hc0 x0 x1 x2).2.1) = k0_pay4 x0 x1 x2 (k0_pay1 (F := F)) := by
  rw [View.read_writes_eq_canon _ _ _ (View.cover_of_tiledL _ S1x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_A_5 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg6.view.read (Elt F) (arg6.view.writes (Elt F) f (kernelRun0_A c i arg1 harg1 arg2 harg2 arg3 harg3 arg4 harg4 arg5 harg5 arg6 harg6 arg7 harg7 arg8 harg8 hc0 x0 x1 x2).2.2.1) = k0_pay5 x0 x1 x2 (k0_pay2 (F := F)) := by
  rw [View.read_writes_eq_canon _ _ _ (View.cover_of_tiledL _ S1x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_A_S0 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg7.view.read (Elt F) (arg7.view.writes (Elt F) f (kernelRun0_A c i arg1 harg1 arg2 harg2 arg3 harg3 arg4 harg4 arg5 harg5 arg6 harg6 arg7 harg7 arg8 harg8 hc0 x0 x1 x2).2.2.2.1) = k0_pay4 x0 x1 x2 (k0_pay1 (F := F)) := by
  rw [View.read_writes_eq_canon _ _ _ (View.cover_of_tiledL _ S1x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_A_S1 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg8.view.read (Elt F) (arg8.view.writes (Elt F) f (kernelRun0_A c i arg1 harg1 arg2 harg2 arg3 harg3 arg4 harg4 arg5 harg5 arg6 harg6 arg7 harg7 arg8 harg8 hc0 x0 x1 x2).2.2.2.2.1) = k0_pay5 x0 x1 x2 (k0_pay2 (F := F)) := by
  rw [View.read_writes_eq_canon _ _ _ (View.cover_of_tiledL _ S1x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_3 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg4.view.read (Elt F) (arg4.view.writes (Elt F) f (kernelRun0_B c i arg1 harg1 arg2 harg2 arg3 harg3 arg4 harg4 arg5 harg5 arg6 harg6 arg7 harg7 arg8 harg8 hc0 x0 x1 x2 xs0 xs1).1) = k0_pay3 x0 x1 x2 := by
  rw [View.read_writes_eq_canon _ _ _ (View.cover_of_tiledL _ S2000x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_4 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg5.view.read (Elt F) (arg5.view.writes (Elt F) f (kernelRun0_B c i arg1 harg1 arg2 harg2 arg3 harg3 arg4 harg4 arg5 harg5 arg6 harg6 arg7 harg7 arg8 harg8 hc0 x0 x1 x2 xs0 xs1).2.1) = k0_pay4 x0 x1 x2 xs0 := by
  rw [View.read_writes_eq_canon _ _ _ (View.cover_of_tiledL _ S1x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_5 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg6.view.read (Elt F) (arg6.view.writes (Elt F) f (kernelRun0_B c i arg1 harg1 arg2 harg2 arg3 harg3 arg4 harg4 arg5 harg5 arg6 harg6 arg7 harg7 arg8 harg8 hc0 x0 x1 x2 xs0 xs1).2.2.1) = k0_pay5 x0 x1 x2 xs1 := by
  rw [View.read_writes_eq_canon _ _ _ (View.cover_of_tiledL _ S1x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_S0 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg7.view.read (Elt F) (arg7.view.writes (Elt F) f (kernelRun0_B c i arg1 harg1 arg2 harg2 arg3 harg3 arg4 harg4 arg5 harg5 arg6 harg6 arg7 harg7 arg8 harg8 hc0 x0 x1 x2 xs0 xs1).2.2.2.1) = k0_pay4 x0 x1 x2 xs0 := by
  rw [View.read_writes_eq_canon _ _ _ (View.cover_of_tiledL _ S1x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_S1 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg8.view.read (Elt F) (arg8.view.writes (Elt F) f (kernelRun0_B c i arg1 harg1 arg2 harg2 arg3 harg3 arg4 harg4 arg5 harg5 arg6 harg6 arg7 harg7 arg8 harg8 hc0 x0 x1 x2 xs0 xs1).2.2.2.2.1) = k0_pay5 x0 x1 x2 xs1 := by
  rw [View.read_writes_eq_canon _ _ _ (View.cover_of_tiledL _ S1x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

/-- The body at the first grid point, with what it leaves named: the tile's dense block, and in both scratch rows and both
    statistics outputs the column sums of the block (of its squares) added to zero. -/
theorem sound0_A (c : Dev nD) (E : Set ℕ) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 (k0_pay1 (F := F))) ∗ owns (c : Thread nD τ) arg6 fullShare (k0_pay5 x0 x1 x2 (k0_pay2 (F := F)))
            ∗ owns (c : Thread nD τ) arg7 fullShare (k0_pay4 x0 x1 x2 (k0_pay1 (F := F))) ∗ owns (c : Thread nD τ) arg8 fullShare (k0_pay5 x0 x1 x2 (k0_pay2 (F := F)))) -∗ K ⟨⟩))
      ⊢ wp frame (wpE (defs₀ (F := F)) Variants.none c none) E (cc0__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun0_A c i arg1 harg1 arg2 harg2 arg3 harg3 arg4 harg4 arg5 harg5 arg6 harg6 arg7 harg7 arg8 harg8 hc0 x0 x1 x2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece0_A_3 c i arg1 harg1 arg2 harg2 arg3 harg3 arg4 harg4 arg5 harg5 arg6 harg6 arg7 harg7 arg8 harg8 hc0 x0 x1 x2)); iexact H3
  isplitl [H4]; · iapply (owns_of_writes c arg5 _ _ (piece0_A_4 c i arg1 harg1 arg2 harg2 arg3 harg3 arg4 harg4 arg5 harg5 arg6 harg6 arg7 harg7 arg8 harg8 hc0 x0 x1 x2)); iexact H4
  isplitl [H5]; · iapply (owns_of_writes c arg6 _ _ (piece0_A_5 c i arg1 harg1 arg2 harg2 arg3 harg3 arg4 harg4 arg5 harg5 arg6 harg6 arg7 harg7 arg8 harg8 hc0 x0 x1 x2)); iexact H5
  isplitl [H6]; · iapply (owns_of_writes c arg7 _ _ (piece0_A_S0 c i arg1 harg1 arg2 harg2 arg3 harg3 arg4 harg4 arg5 harg5 arg6 harg6 arg7 harg7 arg8 harg8 hc0 x0 x1 x2)); iexact H6
  iapply (owns_of_writes c arg8 _ _ (piece0_A_S1 c i arg1 harg1 arg2 harg2 arg3 harg3 arg4 harg4 arg5 harg5 arg6 harg6 arg7 harg7 arg8 harg8 hc0 x0 x1 x2)); iexact H7

/-- The body at a later grid point, with what it leaves named: the tile's dense block, and in both scratch rows and both
    statistics outputs the column sums of the block (of its squares) added to what the scratch rows held. -/
theorem sound0_B (c : Dev nD) (E : Set ℕ) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 xs0) ∗ owns (c : Thread nD τ) arg6 fullShare (k0_pay5 x0 x1 x2 xs1)
            ∗ owns (c : Thread nD τ) arg7 fullShare (k0_pay4 x0 x1 x2 xs0) ∗ owns (c : Thread nD τ) arg8 fullShare (k0_pay5 x0 x1 x2 xs1)) -∗ K ⟨⟩))
      ⊢ wp frame (wpE (defs₀ (F := F)) Variants.none c none) E (cc0__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun0_B c i arg1 harg1 arg2 harg2 arg3 harg3 arg4 harg4 arg5 harg5 arg6 harg6 arg7 harg7 arg8 harg8 hc0 x0 x1 x2 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece0_B_3 c i arg1 harg1 arg2 harg2 arg3 harg3 arg4 harg4 arg5 harg5 arg6 harg6 arg7 harg7 arg8 harg8 hc0 x0 x1 x2 xs0 xs1)); iexact H3
  isplitl [H4]; · iapply (owns_of_writes c arg5 _ _ (piece0_B_4 c i arg1 harg1 arg2 harg2 arg3 harg3 arg4 harg4 arg5 harg5 arg6 harg6 arg7 harg7 arg8 harg8 hc0 x0 x1 x2 xs0 xs1)); iexact H4
  isplitl [H5]; · iapply (owns_of_writes c arg6 _ _ (piece0_B_5 c i arg1 harg1 arg2 harg2 arg3 harg3 arg4 harg4 arg5 harg5 arg6 harg6 arg7 harg7 arg8 harg8 hc0 x0 x1 x2 xs0 xs1)); iexact H5
  isplitl [H6]; · iapply (owns_of_writes c arg7 _ _ (piece0_B_S0 c i arg1 harg1 arg2 harg2 arg3 harg3 arg4 harg4 arg5 harg5 arg6 harg6 arg7 harg7 arg8 harg8 hc0 x0 x1 x2 xs0 xs1)); iexact H6
  iapply (owns_of_writes c arg8 _ _ (piece0_B_S1 c i arg1 harg1 arg2 harg2 arg3 harg3 arg4 harg4 arg5 harg5 arg6 harg6 arg7 harg7 arg8 harg8 hc0 x0 x1 x2 xs0 xs1)); iexact H7

end Cert.Kernel.Hand

end
-- ==== Proof.KHalf0.lean ====
/-
  The first kernel of layer 0 as a pipeline: the running column sums after each grid point (`acc0`), the region invariant
  that carries the two scratch rows from point to point (`Phi0`), the proof data at the contents the region finds, and the
  pipeline's body obligation from the body's two triples.
-/
import proofs.«138093_j17583596110490_1_alg».proof.Proof.KPieces0
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch rows of this kernel, as whole-buffer memrefs. -/
abbrev scM0_0 : Memref sig .tc .vmem S1x512 .f32 := Memref.whole cc0_scratch0
abbrev scM0_1 : Memref sig .tc .vmem S1x512 .f32 := Memref.whole cc0_scratch1

/-- The body's first-point test holds exactly at grid point 0. -/
theorem hcond0 : ∀ t : Fin cfg0.N, cond0 (grid0.coords t) ↔ t.val = 0 :=
  (by decide +kernel : ∀ t : Fin grid0.N, cond0 (grid0.coords t) ↔ t.val = 0)

section
-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the two scratch rows hold after the body at grid point `n`: the column sums (of the block, of its
    squares) of the tiles 0..n, accumulated tile by tile from zero rows. -/
def acc0 (c : Dev nD) : (n : ℕ) → n < cfg0.N → Vec F S1x512 .f32 × Vec F S1x512 .f32
  | 0, hn => (k0_pay4 (iblk0 V c 0 ⟨0, hn⟩) (iblk0 V c 1 ⟨0, hn⟩) (iblk0 V c 2 ⟨0, hn⟩) k0_pay1, k0_pay5 (iblk0 V c 0 ⟨0, hn⟩) (iblk0 V c 1 ⟨0, hn⟩) (iblk0 V c 2 ⟨0, hn⟩) k0_pay2)
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
      k0_pay5 (iblk0 V c 0 ⟨n + 1, hn⟩) (iblk0 V c 1 ⟨n + 1, hn⟩) (iblk0 V c 2 ⟨n + 1, hn⟩) (acc0 c n (Nat.lt_of_succ_lt hn)).2)

theorem acc0_zero_1 (c : Dev nD) (t : Fin cfg0.N) (h : t.val = 0) :
    (acc0 V c t.val t.isLt).1 = k0_pay4 (iblk0 V c 0 t) (iblk0 V c 1 t) (iblk0 V c 2 t) k0_pay1 := by
  obtain ⟨n, hn⟩ := t
  cases n with
  | zero => rfl
  | succ n => exact absurd h (Nat.succ_ne_zero n)
theorem acc0_zero_2 (c : Dev nD) (t : Fin cfg0.N) (h : t.val = 0) :
    (acc0 V c t.val t.isLt).2 = k0_pay5 (iblk0 V c 0 t) (iblk0 V c 1 t) (iblk0 V c 2 t) k0_pay2 := by
  obtain ⟨n, hn⟩ := t
  cases n with
  | zero => rfl
  | succ n => exact absurd h (Nat.succ_ne_zero n)
theorem acc0_pos_1 (c : Dev nD) (t : Fin cfg0.N) (h : t.val ≠ 0) :
    (acc0 V c t.val t.isLt).1 = k0_pay4 (iblk0 V c 0 t) (iblk0 V c 1 t) (iblk0 V c 2 t) (acc0 V c (t.val - 1) (Nat.lt_of_le_of_lt (Nat.sub_le _ _) t.isLt)).1 := by
  obtain ⟨n, hn⟩ := t
  cases n with
  | zero => exact absurd rfl h
  | succ n => rfl
theorem acc0_pos_2 (c : Dev nD) (t : Fin cfg0.N) (h : t.val ≠ 0) :
    (acc0 V c t.val t.isLt).2 = k0_pay5 (iblk0 V c 0 t) (iblk0 V c 1 t) (iblk0 V c 2 t) (acc0 V c (t.val - 1) (Nat.lt_of_le_of_lt (Nat.sub_le _ _) t.isLt)).2 := by
  obtain ⟨n, hn⟩ := t
  cases n with
  | zero => exact absurd rfl h
  | succ n => rfl

/-- The region invariant before position `n`: before the first point the scoped rest (both scratch rows at anything) and the
    generator register; afterwards the two scratch rows at what the point before left, the other scoped buffers, the register. -/
def Phi0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl
theorem Phi0_pos (c : Dev nD) (n : ℕ) (h : n ≤ cfg0.N) (hz : n ≠ 0) :
    Phi0 V c n h = iprop(iprop(iprop(owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The class invariant with the two scratch rows split out of the scoped rest, each owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-- The proof data of this pipeline on core `c`: the arrays as the region finds them; after the body at point `t` each input's
    buffer at its block, the block output at the tile's dense block, the two statistics outputs at the running sums; the
    invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 0 t) (iblk0 V c 1 t) (iblk0 V c 2 t)
    | ⟨4, _⟩ => (acc0 V c t.val t.isLt).1
    | ⟨5, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (iblk0 V c 0 t) (iblk0 V c 1 t) (iblk0 V c 2 t) := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' buffers hold their blocks; at point 0 the invariant hands over both scratch rows at
    anything and the first case's triple applies, at a later point it hands them over at what the point before left and the
    second case's triple applies; either way the scratch rows go back into the invariant at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) t.isLt from rfl, Phi0_succ,
    after0_0, after0_1, after0_2, after0_3, after0_4, after0_5]
  by_cases hz : t.val = 0
  · rw [Phi0_castSucc V c t, Phi0_zero V c _ _ hz, PhiA0_eq, acc0_zero_1 V c t hz, acc0_zero_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound0_A c Set.univ _ _ _ _ _ _ _ _ _ _ _ _ _ _ _ _ _ ((hcond0 t).mpr hz) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi0_castSucc V c t, Phi0_pos V c _ _ hz, acc0_pos_1 V c t hz, acc0_pos_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound0_B c Set.univ _ _ _ _ _ _ _ _ _ _ _ _ _ _ _ _ _ (fun h => hz ((hcond0 t).mp h)) (iblk0 V c 0 t) (iblk0 V c 1 t) (iblk0 V c 2 t) _ _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 (F := F) V c).Φ 0 := by
  rw [show (dat0 V c).Φ 0 = Phi0 V c 0 (Nat.zero_le _) from rfl, Phi0_zero V c 0 _ rfl]

/-- After the last point the invariant gives the class invariant back: the scratch rows' contents are forgotten. -/
theorem hout0 (c : Dev nD) : (dat0 (F := F) V c).Φ (Fin.last cfg0.N) ⊢ Pipeline.ΦA spec0 c := by
  rw [show (dat0 V c).Φ (Fin.last cfg0.N) = Phi0 V c cfg0.N (Nat.le_refl _) from rfl,
    Phi0_pos V c _ _ (by rw [show cfg0.N = 10 from N_0]; decide), PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end

end Cert.Kernel.Hand

end
-- ==== Proof.KHalf1.lean ====
/-
  The second kernel of layer 0 (the batch-normalised, rectified block times the second weight matrix plus its bias row) on whole
  staging buffers: its triple, the pipeline's proof data at the contents the region finds, and the pipeline's body obligation.
-/
import proofs.«138093_j17583596110490_1_alg».proof.Proof.KCommon
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the second kernel of a layer leaves in its output block: the normalised, optionally rectified block times the second weight
    matrix plus the bias row, as one term of the seven input blocks (mean is the second operand, the variance the third). -/
def out1_7 (x0 : Vec F S2000x512 .f32) (x1 x2 x3 x4 : Vec F S1x512 .f32) (x5 : Vec F S512x256 .f32) (x6 : Vec F S1x256 .f32) :
    Vec F S2000x256 .f32 :=
  k1_pay1 x0 x2 x1 x3 x4 x5 x6

set_option maxHeartbeats 1000000 in
/-- The body on whole staging buffers: the seven inputs are read and handed back, the output buffer ends at `out1_7` of them. -/
theorem sound_kernel1 (c : Dev nD) (E : Set ℕ) (i : grid1.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S2000x256 .f32) (harg8 : arg8.IsWhole)
    (x0 : Vec F S2000x512 .f32) (x1 x2 x3 x4 : Vec F S1x512 .f32) (x5 : Vec F S512x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__mm2_kernel i arg1 harg1 arg2 harg2 arg3 harg3 arg4 harg4 arg5 harg5 arg6 harg6 arg7 harg7 arg8 harg8) K := by
  simp only [cc1__mm2_kernel_eq_skeleton]; unfold cc1__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (View.cover_of_tiled _ S2000x256.size (by rfl)), View.canon_unit_zero hz2]
  simp only [View.readAt_eq_ld, View.ld_unit_zero (S := S2000x512) hz2, View.ld_unit_zero (S := S1x512) hz2,
    View.ld_unit_zero (S := S512x256) hz2, View.ld_unit_zero (S := S1x256) hz2]
  rfl

section
-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data of this pipeline on core `c`: the arrays as the region finds them; after the body at point `t` each input's
    buffer at its block and the output's at the body's result on the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KRun2.lean ====
/-
  The first kernel of layer 1 (a row tile's dense block h = x·W1 + b1, stored, and the running column sums of h and of h·h
  kept in two scratch rows) run once on whole staging buffers, in its two cases: at the first grid point both scratch rows
  are reset to zero before the tile's sums are added; at every later point they come in holding what the point before left.
  Each run ends with every buffer the body stored into written by a list of pieces the run itself determines.
-/
import proofs.«138093_j17583596110490_1_alg».proof.Proof.KCommon
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first grid point's test, as the body computes it from the grid coordinate. -/
abbrev cond2 (i : grid2.Coords) : Prop := (Scalar.cmpi .ne (Scalar.extui (Scalar.cmpi .eq (BitVec.ofNat 32 (i 0).val) 0#32)) 0#32) = 1#1

set_option maxHeartbeats 4000000 in
/-- The body at the first grid point: both accumulators are reset, then the tile's block and its column sums are stored. -/
noncomputable def kernelRun2_A (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__mm1_kernel_eq_skeleton]; unfold cc2__mm1_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

set_option maxHeartbeats 4000000 in
/-- The body at a later grid point: the accumulators come in at what the point before left. -/
noncomputable def kernelRun2_B (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__mm1_kernel_eq_skeleton]; unfold cc2__mm1_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.KPieces2.lean ====
/-
  What the first kernel of layer 1 leaves, read back: in each of its two cases every buffer the body wrote holds a named
  term of the input blocks — the dense block k2_pay3, and in the scratch rows and the statistics outputs k2_pay4 / k2_pay5
  of the block and of what the scratch rows held (zero rows at the first point) — and the body's triple restated with them.
-/
import proofs.«138093_j17583596110490_1_alg».proof.Proof.KRun2
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piece2_A_3 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg4.view.read (Elt F) (arg4.view.writes (Elt F) f (kernelRun2_A c i arg1 harg1 arg2 harg2 arg3 harg3 arg4 harg4 arg5 harg5 arg6 harg6 arg7 harg7 arg8 harg8 hc0 x0 x1 x2).1) = k2_pay3 x0 x1 x2 := by
  rw [View.read_writes_eq_canon _ _ _ (View.cover_of_tiledL _ S2000x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_A_4 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg5.view.read (Elt F) (arg5.view.writes (Elt F) f (kernelRun2_A c i arg1 harg1 arg2 harg2 arg3 harg3 arg4 harg4 arg5 harg5 arg6 harg6 arg7 harg7 arg8 harg8 hc0 x0 x1 x2).2.1) = k2_pay4 x0 x1 x2 (k2_pay1 (F := F)) := by
  rw [View.read_writes_eq_canon _ _ _ (View.cover_of_tiledL _ S1x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_A_5 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg6.view.read (Elt F) (arg6.view.writes (Elt F) f (kernelRun2_A c i arg1 harg1 arg2 harg2 arg3 harg3 arg4 harg4 arg5 harg5 arg6 harg6 arg7 harg7 arg8 harg8 hc0 x0 x1 x2).2.2.1) = k2_pay5 x0 x1 x2 (k2_pay2 (F := F)) := by
  rw [View.read_writes_eq_canon _ _ _ (View.cover_of_tiledL _ S1x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_A_S0 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg7.view.read (Elt F) (arg7.view.writes (Elt F) f (kernelRun2_A c i arg1 harg1 arg2 harg2 arg3 harg3 arg4 harg4 arg5 harg5 arg6 harg6 arg7 harg7 arg8 harg8 hc0 x0 x1 x2).2.2.2.1) = k2_pay4 x0 x1 x2 (k2_pay1 (F := F)) := by
  rw [View.read_writes_eq_canon _ _ _ (View.cover_of_tiledL _ S1x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_A_S1 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg8.view.read (Elt F) (arg8.view.writes (Elt F) f (kernelRun2_A c i arg1 harg1 arg2 harg2 arg3 harg3 arg4 harg4 arg5 harg5 arg6 harg6 arg7 harg7 arg8 harg8 hc0 x0 x1 x2).2.2.2.2.1) = k2_pay5 x0 x1 x2 (k2_pay2 (F := F)) := by
  rw [View.read_writes_eq_canon _ _ _ (View.cover_of_tiledL _ S1x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_3 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg4.view.read (Elt F) (arg4.view.writes (Elt F) f (kernelRun2_B c i arg1 harg1 arg2 harg2 arg3 harg3 arg4 harg4 arg5 harg5 arg6 harg6 arg7 harg7 arg8 harg8 hc0 x0 x1 x2 xs0 xs1).1) = k2_pay3 x0 x1 x2 := by
  rw [View.read_writes_eq_canon _ _ _ (View.cover_of_tiledL _ S2000x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_4 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg5.view.read (Elt F) (arg5.view.writes (Elt F) f (kernelRun2_B c i arg1 harg1 arg2 harg2 arg3 harg3 arg4 harg4 arg5 harg5 arg6 harg6 arg7 harg7 arg8 harg8 hc0 x0 x1 x2 xs0 xs1).2.1) = k2_pay4 x0 x1 x2 xs0 := by
  rw [View.read_writes_eq_canon _ _ _ (View.cover_of_tiledL _ S1x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_5 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg6.view.read (Elt F) (arg6.view.writes (Elt F) f (kernelRun2_B c i arg1 harg1 arg2 harg2 arg3 harg3 arg4 harg4 arg5 harg5 arg6 harg6 arg7 harg7 arg8 harg8 hc0 x0 x1 x2 xs0 xs1).2.2.1) = k2_pay5 x0 x1 x2 xs1 := by
  rw [View.read_writes_eq_canon _ _ _ (View.cover_of_tiledL _ S1x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_S0 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg7.view.read (Elt F) (arg7.view.writes (Elt F) f (kernelRun2_B c i arg1 harg1 arg2 harg2 arg3 harg3 arg4 harg4 arg5 harg5 arg6 harg6 arg7 harg7 arg8 harg8 hc0 x0 x1 x2 xs0 xs1).2.2.2.1) = k2_pay4 x0 x1 x2 xs0 := by
  rw [View.read_writes_eq_canon _ _ _ (View.cover_of_tiledL _ S1x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_S1 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg8.view.read (Elt F) (arg8.view.writes (Elt F) f (kernelRun2_B c i arg1 harg1 arg2 harg2 arg3 harg3 arg4 harg4 arg5 harg5 arg6 harg6 arg7 harg7 arg8 harg8 hc0 x0 x1 x2 xs0 xs1).2.2.2.2.1) = k2_pay5 x0 x1 x2 xs1 := by
  rw [View.read_writes_eq_canon _ _ _ (View.cover_of_tiledL _ S1x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

/-- The body at the first grid point, with what it leaves named: the tile's dense block, and in both scratch rows and both
    statistics outputs the column sums of the block (of its squares) added to zero. -/
theorem sound2_A (c : Dev nD) (E : Set ℕ) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay3 x0 x1 x2)
            ∗ owns (c : Thread nD τ) arg5 fullShare (k2_pay4 x0 x1 x2 (k2_pay1 (F := F))) ∗ owns (c : Thread nD τ) arg6 fullShare (k2_pay5 x0 x1 x2 (k2_pay2 (F := F)))
            ∗ owns (c : Thread nD τ) arg7 fullShare (k2_pay4 x0 x1 x2 (k2_pay1 (F := F))) ∗ owns (c : Thread nD τ) arg8 fullShare (k2_pay5 x0 x1 x2 (k2_pay2 (F := F)))) -∗ K ⟨⟩))
      ⊢ wp frame (wpE (defs₀ (F := F)) Variants.none c none) E (cc2__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun2_A c i arg1 harg1 arg2 harg2 arg3 harg3 arg4 harg4 arg5 harg5 arg6 harg6 arg7 harg7 arg8 harg8 hc0 x0 x1 x2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece2_A_3 c i arg1 harg1 arg2 harg2 arg3 harg3 arg4 harg4 arg5 harg5 arg6 harg6 arg7 harg7 arg8 harg8 hc0 x0 x1 x2)); iexact H3
  isplitl [H4]; · iapply (owns_of_writes c arg5 _ _ (piece2_A_4 c i arg1 harg1 arg2 harg2 arg3 harg3 arg4 harg4 arg5 harg5 arg6 harg6 arg7 harg7 arg8 harg8 hc0 x0 x1 x2)); iexact H4
  isplitl [H5]; · iapply (owns_of_writes c arg6 _ _ (piece2_A_5 c i arg1 harg1 arg2 harg2 arg3 harg3 arg4 harg4 arg5 harg5 arg6 harg6 arg7 harg7 arg8 harg8 hc0 x0 x1 x2)); iexact H5
  isplitl [H6]; · iapply (owns_of_writes c arg7 _ _ (piece2_A_S0 c i arg1 harg1 arg2 harg2 arg3 harg3 arg4 harg4 arg5 harg5 arg6 harg6 arg7 harg7 arg8 harg8 hc0 x0 x1 x2)); iexact H6
  iapply (owns_of_writes c arg8 _ _ (piece2_A_S1 c i arg1 harg1 arg2 harg2 arg3 harg3 arg4 harg4 arg5 harg5 arg6 harg6 arg7 harg7 arg8 harg8 hc0 x0 x1 x2)); iexact H7

/-- The body at a later grid point, with what it leaves named: the tile's dense block, and in both scratch rows and both
    statistics outputs the column sums of the block (of its squares) added to what the scratch rows held. -/
theorem sound2_B (c : Dev nD) (E : Set ℕ) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k2_pay3 x0 x1 x2)
            ∗ owns (c : Thread nD τ) arg5 fullShare (k2_pay4 x0 x1 x2 xs0) ∗ owns (c : Thread nD τ) arg6 fullShare (k2_pay5 x0 x1 x2 xs1)
            ∗ owns (c : Thread nD τ) arg7 fullShare (k2_pay4 x0 x1 x2 xs0) ∗ owns (c : Thread nD τ) arg8 fullShare (k2_pay5 x0 x1 x2 xs1)) -∗ K ⟨⟩))
      ⊢ wp frame (wpE (defs₀ (F := F)) Variants.none c none) E (cc2__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun2_B c i arg1 harg1 arg2 harg2 arg3 harg3 arg4 harg4 arg5 harg5 arg6 harg6 arg7 harg7 arg8 harg8 hc0 x0 x1 x2 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece2_B_3 c i arg1 harg1 arg2 harg2 arg3 harg3 arg4 harg4 arg5 harg5 arg6 harg6 arg7 harg7 arg8 harg8 hc0 x0 x1 x2 xs0 xs1)); iexact H3
  isplitl [H4]; · iapply (owns_of_writes c arg5 _ _ (piece2_B_4 c i arg1 harg1 arg2 harg2 arg3 harg3 arg4 harg4 arg5 harg5 arg6 harg6 arg7 harg7 arg8 harg8 hc0 x0 x1 x2 xs0 xs1)); iexact H4
  isplitl [H5]; · iapply (owns_of_writes c arg6 _ _ (piece2_B_5 c i arg1 harg1 arg2 harg2 arg3 harg3 arg4 harg4 arg5 harg5 arg6 harg6 arg7 harg7 arg8 harg8 hc0 x0 x1 x2 xs0 xs1)); iexact H5
  isplitl [H6]; · iapply (owns_of_writes c arg7 _ _ (piece2_B_S0 c i arg1 harg1 arg2 harg2 arg3 harg3 arg4 harg4 arg5 harg5 arg6 harg6 arg7 harg7 arg8 harg8 hc0 x0 x1 x2 xs0 xs1)); iexact H6
  iapply (owns_of_writes c arg8 _ _ (piece2_B_S1 c i arg1 harg1 arg2 harg2 arg3 harg3 arg4 harg4 arg5 harg5 arg6 harg6 arg7 harg7 arg8 harg8 hc0 x0 x1 x2 xs0 xs1)); iexact H7

end Cert.Kernel.Hand

end
-- ==== Proof.KHalf2.lean ====
/-
  The first kernel of layer 1 as a pipeline: the running column sums after each grid point (`acc2`), the region invariant
  that carries the two scratch rows from point to point (`Phi2`), the proof data at the contents the region finds, and the
  pipeline's body obligation from the body's two triples.
-/
import proofs.«138093_j17583596110490_1_alg».proof.Proof.KPieces2
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch rows of this kernel, as whole-buffer memrefs. -/
abbrev scM2_0 : Memref sig .tc .vmem S1x512 .f32 := Memref.whole cc2_scratch0
abbrev scM2_1 : Memref sig .tc .vmem S1x512 .f32 := Memref.whole cc2_scratch1

/-- The body's first-point test holds exactly at grid point 0. -/
theorem hcond2 : ∀ t : Fin cfg2.N, cond2 (grid2.coords t) ↔ t.val = 0 :=
  (by decide +kernel : ∀ t : Fin grid2.N, cond2 (grid2.coords t) ↔ t.val = 0)

section
-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION. What the two scratch rows hold after the body at grid point `n`: the column sums (of the block, of its
    squares) of the tiles 0..n, accumulated tile by tile from zero rows. -/
def acc2 (c : Dev nD) : (n : ℕ) → n < cfg2.N → Vec F S1x512 .f32 × Vec F S1x512 .f32
  | 0, hn => (k2_pay4 (iblk2 V c 0 ⟨0, hn⟩) (iblk2 V c 1 ⟨0, hn⟩) (iblk2 V c 2 ⟨0, hn⟩) k2_pay1, k2_pay5 (iblk2 V c 0 ⟨0, hn⟩) (iblk2 V c 1 ⟨0, hn⟩) (iblk2 V c 2 ⟨0, hn⟩) k2_pay2)
  | n + 1, hn => (k2_pay4 (iblk2 V c 0 ⟨n + 1, hn⟩) (iblk2 V c 1 ⟨n + 1, hn⟩) (iblk2 V c 2 ⟨n + 1, hn⟩) (acc2 c n (Nat.lt_of_succ_lt hn)).1,
      k2_pay5 (iblk2 V c 0 ⟨n + 1, hn⟩) (iblk2 V c 1 ⟨n + 1, hn⟩) (iblk2 V c 2 ⟨n + 1, hn⟩) (acc2 c n (Nat.lt_of_succ_lt hn)).2)

theorem acc2_zero_1 (c : Dev nD) (t : Fin cfg2.N) (h : t.val = 0) :
    (acc2 V c t.val t.isLt).1 = k2_pay4 (iblk2 V c 0 t) (iblk2 V c 1 t) (iblk2 V c 2 t) k2_pay1 := by
  obtain ⟨n, hn⟩ := t
  cases n with
  | zero => rfl
  | succ n => exact absurd h (Nat.succ_ne_zero n)
theorem acc2_zero_2 (c : Dev nD) (t : Fin cfg2.N) (h : t.val = 0) :
    (acc2 V c t.val t.isLt).2 = k2_pay5 (iblk2 V c 0 t) (iblk2 V c 1 t) (iblk2 V c 2 t) k2_pay2 := by
  obtain ⟨n, hn⟩ := t
  cases n with
  | zero => rfl
  | succ n => exact absurd h (Nat.succ_ne_zero n)
theorem acc2_pos_1 (c : Dev nD) (t : Fin cfg2.N) (h : t.val ≠ 0) :
    (acc2 V c t.val t.isLt).1 = k2_pay4 (iblk2 V c 0 t) (iblk2 V c 1 t) (iblk2 V c 2 t) (acc2 V c (t.val - 1) (Nat.lt_of_le_of_lt (Nat.sub_le _ _) t.isLt)).1 := by
  obtain ⟨n, hn⟩ := t
  cases n with
  | zero => exact absurd rfl h
  | succ n => rfl
theorem acc2_pos_2 (c : Dev nD) (t : Fin cfg2.N) (h : t.val ≠ 0) :
    (acc2 V c t.val t.isLt).2 = k2_pay5 (iblk2 V c 0 t) (iblk2 V c 1 t) (iblk2 V c 2 t) (acc2 V c (t.val - 1) (Nat.lt_of_le_of_lt (Nat.sub_le _ _) t.isLt)).2 := by
  obtain ⟨n, hn⟩ := t
  cases n with
  | zero => exact absurd rfl h
  | succ n => rfl

/-- The region invariant before position `n`: before the first point the scoped rest (both scratch rows at anything) and the
    generator register; afterwards the two scratch rows at what the point before left, the other scoped buffers, the register. -/
def Phi2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl
theorem Phi2_pos (c : Dev nD) (n : ℕ) (h : n ≤ cfg2.N) (hz : n ≠ 0) :
    Phi2 V c n h = iprop(iprop(iprop(owns (c : Thread nD τ) scM2_0 fullShare (acc2 V c (n - 1) (by omega)).1 ∗ owns (c : Thread nD τ) scM2_1 fullShare (acc2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The class invariant with the two scratch rows split out of the scoped rest, each owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- The proof data of this pipeline on core `c`: the arrays as the region finds them; after the body at point `t` each input's
    buffer at its block, the block output at the tile's dense block, the two statistics outputs at the running sums; the
    invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (iblk2 V c 0 t) (iblk2 V c 1 t) (iblk2 V c 2 t)
    | ⟨4, _⟩ => (acc2 V c t.val t.isLt).1
    | ⟨5, _⟩ => (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (iblk2 V c 0 t) (iblk2 V c 1 t) (iblk2 V c 2 t) := by dsimp only [dat2]
theorem after2_4 (c : Dev nD) (t : Fin cfg2.N) : (dat2 V c).after 4 t = (acc2 V c t.val t.isLt).1 := by dsimp only [dat2]
theorem after2_5 (c : Dev nD) (t : Fin cfg2.N) : (dat2 V c).after 5 t = (acc2 V c t.val t.isLt).2 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 2000000 in
/-- The body at any point: the inputs' buffers hold their blocks; at point 0 the invariant hands over both scratch rows at
    anything and the first case's triple applies, at a later point it hands them over at what the point before left and the
    second case's triple applies; either way the scratch rows go back into the invariant at this point's sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl, Phi2_succ,
    after2_0, after2_1, after2_2, after2_3, after2_4, after2_5]
  by_cases hz : t.val = 0
  · rw [Phi2_castSucc V c t, Phi2_zero V c _ _ hz, PhiA2_eq, acc2_zero_1 V c t hz, acc2_zero_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound2_A c Set.univ _ _ _ _ _ _ _ _ _ _ _ _ _ _ _ _ _ ((hcond2 t).mpr hz) (iblk2 V c 0 t) (iblk2 V c 1 t) (iblk2 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi2_castSucc V c t, Phi2_pos V c _ _ hz, acc2_pos_1 V c t hz, acc2_pos_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound2_B c Set.univ _ _ _ _ _ _ _ _ _ _ _ _ _ _ _ _ _ (fun h => hz ((hcond2 t).mp h)) (iblk2 V c 0 t) (iblk2 V c 1 t) (iblk2 V c 2 t) _ _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = Phi2 V c 0 (Nat.zero_le _) from rfl, Phi2_zero V c 0 _ rfl]

/-- After the last point the invariant gives the class invariant back: the scratch rows' contents are forgotten. -/
theorem hout2 (c : Dev nD) : (dat2 (F := F) V c).Φ (Fin.last cfg2.N) ⊢ Pipeline.ΦA spec2 c := by
  rw [show (dat2 V c).Φ (Fin.last cfg2.N) = Phi2 V c cfg2.N (Nat.le_refl _) from rfl,
    Phi2_pos V c _ _ (by rw [show cfg2.N = 10 from N_2]; decide), PhiA2_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end

end Cert.Kernel.Hand

end
-- ==== Proof.KHalf3.lean ====
/-
  The second kernel of layer 1 (the batch-normalised, rectified block times the second weight matrix plus its bias row) on whole
  staging buffers: its triple, the pipeline's proof data at the contents the region finds, and the pipeline's body obligation.
-/
import proofs.«138093_j17583596110490_1_alg».proof.Proof.KCommon
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the second kernel of a layer leaves in its output block: the normalised, optionally rectified block times the second weight
    matrix plus the bias row, as one term of the seven input blocks (mean is the second operand, the variance the third). -/
def out3_7 (x0 : Vec F S2000x512 .f32) (x1 x2 x3 x4 : Vec F S1x512 .f32) (x5 : Vec F S512x256 .f32) (x6 : Vec F S1x256 .f32) :
    Vec F S2000x256 .f32 :=
  k3_pay1 x0 x2 x1 x3 x4 x5 x6

set_option maxHeartbeats 1000000 in
/-- The body on whole staging buffers: the seven inputs are read and handed back, the output buffer ends at `out3_7` of them. -/
theorem sound_kernel3 (c : Dev nD) (E : Set ℕ) (i : grid3.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S2000x256 .f32) (harg8 : arg8.IsWhole)
    (x0 : Vec F S2000x512 .f32) (x1 x2 x3 x4 : Vec F S1x512 .f32) (x5 : Vec F S512x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E
          (cc3__mm2_kernel i arg1 harg1 arg2 harg2 arg3 harg3 arg4 harg4 arg5 harg5 arg6 harg6 arg7 harg7 arg8 harg8) K := by
  simp only [cc3__mm2_kernel_eq_skeleton]; unfold cc3__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (View.cover_of_tiled _ S2000x256.size (by rfl)), View.canon_unit_zero hz2]
  simp only [View.readAt_eq_ld, View.ld_unit_zero (S := S2000x512) hz2, View.ld_unit_zero (S := S1x512) hz2,
    View.ld_unit_zero (S := S512x256) hz2, View.ld_unit_zero (S := S1x256) hz2]
  rfl

section
-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The proof data of this pipeline on core `c`: the arrays as the region finds them; after the body at point `t` each input's
    buffer at its block and the output's at the body's result on the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end

end Cert.Kernel.Hand

end
-- ==== Proof.KRun4.lean ====
/-
  The first kernel of layer 2 (a row tile's dense block h = x·W1 + b1, stored, and the running column sums of h and of h·h
  kept in two scratch rows) run once on whole staging buffers, in its two cases: at the first grid point both scratch rows
  are reset to zero before the tile's sums are added; at every later point they come in holding what the point before left.
  Each run ends with every buffer the body stored into written by a list of pieces the run itself determines.
-/
import proofs.«138093_j17583596110490_1_alg».proof.Proof.KCommon
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first grid point's test, as the body computes it from the grid coordinate. -/
abbrev cond4 (i : grid4.Coords) : Prop := (Scalar.cmpi .ne (Scalar.extui (Scalar.cmpi .eq (BitVec.ofNat 32 (i 0).val) 0#32)) 0#32) = 1#1

set_option maxHeartbeats 4000000 in
/-- The body at the first grid point: both accumulators are reset, then the tile's block and its column sums are stored. -/
noncomputable def kernelRun4_A (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__mm1_kernel_eq_skeleton]; unfold cc4__mm1_kernel_skel
    simp only [k4_part1_eq_skeleton]; unfold k4_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

set_option maxHeartbeats 4000000 in
/-- The body at a later grid point: the accumulators come in at what the point before left. -/
noncomputable def kernelRun4_B (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__mm1_kernel_eq_skeleton]; unfold cc4__mm1_kernel_skel
    simp only [k4_part1_eq_skeleton]; unfold k4_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.KPieces4.lean ====
/-
  What the first kernel of layer 2 leaves, read back: in each of its two cases every buffer the body wrote holds a named
  term of the input blocks — the dense block k4_pay3, and in the scratch rows and the statistics outputs k4_pay4 / k4_pay5
  of the block and of what the scratch rows held (zero rows at the first point) — and the body's triple restated with them.
-/
import proofs.«138093_j17583596110490_1_alg».proof.Proof.KRun4
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piece4_A_3 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg4.view.read (Elt F) (arg4.view.writes (Elt F) f (kernelRun4_A c i arg1 harg1 arg2 harg2 arg3 harg3 arg4 harg4 arg5 harg5 arg6 harg6 arg7 harg7 arg8 harg8 hc0 x0 x1 x2).1) = k4_pay3 x0 x1 x2 := by
  rw [View.read_writes_eq_canon _ _ _ (View.cover_of_tiledL _ S2000x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_A_4 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg5.view.read (Elt F) (arg5.view.writes (Elt F) f (kernelRun4_A c i arg1 harg1 arg2 harg2 arg3 harg3 arg4 harg4 arg5 harg5 arg6 harg6 arg7 harg7 arg8 harg8 hc0 x0 x1 x2).2.1) = k4_pay4 x0 x1 x2 (k4_pay1 (F := F)) := by
  rw [View.read_writes_eq_canon _ _ _ (View.cover_of_tiledL _ S1x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_A_5 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg6.view.read (Elt F) (arg6.view.writes (Elt F) f (kernelRun4_A c i arg1 harg1 arg2 harg2 arg3 harg3 arg4 harg4 arg5 harg5 arg6 harg6 arg7 harg7 arg8 harg8 hc0 x0 x1 x2).2.2.1) = k4_pay5 x0 x1 x2 (k4_pay2 (F := F)) := by
  rw [View.read_writes_eq_canon _ _ _ (View.cover_of_tiledL _ S1x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_A_S0 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg7.view.read (Elt F) (arg7.view.writes (Elt F) f (kernelRun4_A c i arg1 harg1 arg2 harg2 arg3 harg3 arg4 harg4 arg5 harg5 arg6 harg6 arg7 harg7 arg8 harg8 hc0 x0 x1 x2).2.2.2.1) = k4_pay4 x0 x1 x2 (k4_pay1 (F := F)) := by
  rw [View.read_writes_eq_canon _ _ _ (View.cover_of_tiledL _ S1x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_A_S1 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg8.view.read (Elt F) (arg8.view.writes (Elt F) f (kernelRun4_A c i arg1 harg1 arg2 harg2 arg3 harg3 arg4 harg4 arg5 harg5 arg6 harg6 arg7 harg7 arg8 harg8 hc0 x0 x1 x2).2.2.2.2.1) = k4_pay5 x0 x1 x2 (k4_pay2 (F := F)) := by
  rw [View.read_writes_eq_canon _ _ _ (View.cover_of_tiledL _ S1x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_3 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg4.view.read (Elt F) (arg4.view.writes (Elt F) f (kernelRun4_B c i arg1 harg1 arg2 harg2 arg3 harg3 arg4 harg4 arg5 harg5 arg6 harg6 arg7 harg7 arg8 harg8 hc0 x0 x1 x2 xs0 xs1).1) = k4_pay3 x0 x1 x2 := by
  rw [View.read_writes_eq_canon _ _ _ (View.cover_of_tiledL _ S2000x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_4 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg5.view.read (Elt F) (arg5.view.writes (Elt F) f (kernelRun4_B c i arg1 harg1 arg2 harg2 arg3 harg3 arg4 harg4 arg5 harg5 arg6 harg6 arg7 harg7 arg8 harg8 hc0 x0 x1 x2 xs0 xs1).2.1) = k4_pay4 x0 x1 x2 xs0 := by
  rw [View.read_writes_eq_canon _ _ _ (View.cover_of_tiledL _ S1x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_5 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg6.view.read (Elt F) (arg6.view.writes (Elt F) f (kernelRun4_B c i arg1 harg1 arg2 harg2 arg3 harg3 arg4 harg4 arg5 harg5 arg6 harg6 arg7 harg7 arg8 harg8 hc0 x0 x1 x2 xs0 xs1).2.2.1) = k4_pay5 x0 x1 x2 xs1 := by
  rw [View.read_writes_eq_canon _ _ _ (View.cover_of_tiledL _ S1x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_S0 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg7.view.read (Elt F) (arg7.view.writes (Elt F) f (kernelRun4_B c i arg1 harg1 arg2 harg2 arg3 harg3 arg4 harg4 arg5 harg5 arg6 harg6 arg7 harg7 arg8 harg8 hc0 x0 x1 x2 xs0 xs1).2.2.2.1) = k4_pay4 x0 x1 x2 xs0 := by
  rw [View.read_writes_eq_canon _ _ _ (View.cover_of_tiledL _ S1x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_S1 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg8.view.read (Elt F) (arg8.view.writes (Elt F) f (kernelRun4_B c i arg1 harg1 arg2 harg2 arg3 harg3 arg4 harg4 arg5 harg5 arg6 harg6 arg7 harg7 arg8 harg8 hc0 x0 x1 x2 xs0 xs1).2.2.2.2.1) = k4_pay5 x0 x1 x2 xs1 := by
  rw [View.read_writes_eq_canon _ _ _ (View.cover_of_tiledL _ S1x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

/-- The body at the first grid point, with what it leaves named: the tile's dense block, and in both scratch rows and both
    statistics outputs the column sums of the block (of its squares) added to zero. -/
theorem sound4_A (c : Dev nD) (E : Set ℕ) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k4_pay3 x0 x1 x2)
            ∗ owns (c : Thread nD τ) arg5 fullShare (k4_pay4 x0 x1 x2 (k4_pay1 (F := F))) ∗ owns (c : Thread nD τ) arg6 fullShare (k4_pay5 x0 x1 x2 (k4_pay2 (F := F)))
            ∗ owns (c : Thread nD τ) arg7 fullShare (k4_pay4 x0 x1 x2 (k4_pay1 (F := F))) ∗ owns (c : Thread nD τ) arg8 fullShare (k4_pay5 x0 x1 x2 (k4_pay2 (F := F)))) -∗ K ⟨⟩))
      ⊢ wp frame (wpE (defs₀ (F := F)) Variants.none c none) E (cc4__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun4_A c i arg1 harg1 arg2 harg2 arg3 harg3 arg4 harg4 arg5 harg5 arg6 harg6 arg7 harg7 arg8 harg8 hc0 x0 x1 x2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece4_A_3 c i arg1 harg1 arg2 harg2 arg3 harg3 arg4 harg4 arg5 harg5 arg6 harg6 arg7 harg7 arg8 harg8 hc0 x0 x1 x2)); iexact H3
  isplitl [H4]; · iapply (owns_of_writes c arg5 _ _ (piece4_A_4 c i arg1 harg1 arg2 harg2 arg3 harg3 arg4 harg4 arg5 harg5 arg6 harg6 arg7 harg7 arg8 harg8 hc0 x0 x1 x2)); iexact H4
  isplitl [H5]; · iapply (owns_of_writes c arg6 _ _ (piece4_A_5 c i arg1 harg1 arg2 harg2 arg3 harg3 arg4 harg4 arg5 harg5 arg6 harg6 arg7 harg7 arg8 harg8 hc0 x0 x1 x2)); iexact H5
  isplitl [H6]; · iapply (owns_of_writes c arg7 _ _ (piece4_A_S0 c i arg1 harg1 arg2 harg2 arg3 harg3 arg4 harg4 arg5 harg5 arg6 harg6 arg7 harg7 arg8 harg8 hc0 x0 x1 x2)); iexact H6
  iapply (owns_of_writes c arg8 _ _ (piece4_A_S1 c i arg1 harg1 arg2 harg2 arg3 harg3 arg4 harg4 arg5 harg5 arg6 harg6 arg7 harg7 arg8 harg8 hc0 x0 x1 x2)); iexact H7

/-- The body at a later grid point, with what it leaves named: the tile's dense block, and in both scratch rows and both
    statistics outputs the column sums of the block (of its squares) added to what the scratch rows held. -/
theorem sound4_B (c : Dev nD) (E : Set ℕ) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k4_pay3 x0 x1 x2)
            ∗ owns (c : Thread nD τ) arg5 fullShare (k4_pay4 x0 x1 x2 xs0) ∗ owns (c : Thread nD τ) arg6 fullShare (k4_pay5 x0 x1 x2 xs1)
            ∗ owns (c : Thread nD τ) arg7 fullShare (k4_pay4 x0 x1 x2 xs0) ∗ owns (c : Thread nD τ) arg8 fullShare (k4_pay5 x0 x1 x2 xs1)) -∗ K ⟨⟩))
      ⊢ wp frame (wpE (defs₀ (F := F)) Variants.none c none) E (cc4__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun4_B c i arg1 harg1 arg2 harg2 arg3 harg3 arg4 harg4 arg5 harg5 arg6 harg6 arg7 harg7 arg8 harg8 hc0 x0 x1 x2 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece4_B_3 c i arg1 harg1 arg2 harg2 arg3 harg3 arg4 harg4 arg5 harg5 arg6 harg6 arg7 harg7 arg8 harg8 hc0 x0 x1 x2 xs0 xs1)); iexact H3
  isplitl [H4]; · iapply (owns_of_writes c arg5 _ _ (piece4_B_4 c i arg1 harg1 arg2 harg2 arg3 harg3 arg4 harg4 arg5 harg5 arg6 harg6 arg7 harg7 arg8 harg8 hc0 x0 x1 x2 xs0 xs1)); iexact H4
  isplitl [H5]; · iapply (owns_of_writes c arg6 _ _ (piece4_B_5 c i arg1 harg1 arg2 harg2 arg3 harg3 arg4 harg4 arg5 harg5 arg6 harg6 arg7 harg7 arg8 harg8 hc0 x0 x1 x2 xs0 xs1)); iexact H5
  isplitl [H6]; · iapply (owns_of_writes c arg7 _ _ (piece4_B_S0 c i arg1 harg1 arg2 harg2 arg3 harg3 arg4 harg4 arg5 harg5 arg6 harg6 arg7 harg7 arg8 harg8 hc0 x0 x1 x2 xs0 xs1)); iexact H6
  iapply (owns_of_writes c arg8 _ _ (piece4_B_S1 c i arg1 harg1 arg2 harg2 arg3 harg3 arg4 harg4 arg5 harg5 arg6 harg6 arg7 harg7 arg8 harg8 hc0 x0 x1 x2 xs0 xs1)); iexact H7

end Cert.Kernel.Hand

end
-- ==== Proof.KHalf4.lean ====
/-
  The first kernel of layer 2 as a pipeline: the running column sums after each grid point (`acc4`), the region invariant
  that carries the two scratch rows from point to point (`Phi4`), the proof data at the contents the region finds, and the
  pipeline's body obligation from the body's two triples.
-/
import proofs.«138093_j17583596110490_1_alg».proof.Proof.KPieces4
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch rows of this kernel, as whole-buffer memrefs. -/
abbrev scM4_0 : Memref sig .tc .vmem S1x512 .f32 := Memref.whole cc4_scratch0
abbrev scM4_1 : Memref sig .tc .vmem S1x512 .f32 := Memref.whole cc4_scratch1

/-- The body's first-point test holds exactly at grid point 0. -/
theorem hcond4 : ∀ t : Fin cfg4.N, cond4 (grid4.coords t) ↔ t.val = 0 :=
  (by decide +kernel : ∀ t : Fin grid4.N, cond4 (grid4.coords t) ↔ t.val = 0)

section
-- the TensorCore's buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- THE ACCUMULATION. What the two scratch rows hold after the body at grid point `n`: the column sums (of the block, of its
    squares) of the tiles 0..n, accumulated tile by tile from zero rows. -/
def acc4 (c : Dev nD) : (n : ℕ) → n < cfg4.N → Vec F S1x512 .f32 × Vec F S1x512 .f32
  | 0, hn => (k4_pay4 (iblk4 V c 0 ⟨0, hn⟩) (iblk4 V c 1 ⟨0, hn⟩) (iblk4 V c 2 ⟨0, hn⟩) k4_pay1, k4_pay5 (iblk4 V c 0 ⟨0, hn⟩) (iblk4 V c 1 ⟨0, hn⟩) (iblk4 V c 2 ⟨0, hn⟩) k4_pay2)
  | n + 1, hn => (k4_pay4 (iblk4 V c 0 ⟨n + 1, hn⟩) (iblk4 V c 1 ⟨n + 1, hn⟩) (iblk4 V c 2 ⟨n + 1, hn⟩) (acc4 c n (Nat.lt_of_succ_lt hn)).1,
      k4_pay5 (iblk4 V c 0 ⟨n + 1, hn⟩) (iblk4 V c 1 ⟨n + 1, hn⟩) (iblk4 V c 2 ⟨n + 1, hn⟩) (acc4 c n (Nat.lt_of_succ_lt hn)).2)

theorem acc4_zero_1 (c : Dev nD) (t : Fin cfg4.N) (h : t.val = 0) :
    (acc4 V c t.val t.isLt).1 = k4_pay4 (iblk4 V c 0 t) (iblk4 V c 1 t) (iblk4 V c 2 t) k4_pay1 := by
  obtain ⟨n, hn⟩ := t
  cases n with
  | zero => rfl
  | succ n => exact absurd h (Nat.succ_ne_zero n)
theorem acc4_zero_2 (c : Dev nD) (t : Fin cfg4.N) (h : t.val = 0) :
    (acc4 V c t.val t.isLt).2 = k4_pay5 (iblk4 V c 0 t) (iblk4 V c 1 t) (iblk4 V c 2 t) k4_pay2 := by
  obtain ⟨n, hn⟩ := t
  cases n with
  | zero => rfl
  | succ n => exact absurd h (Nat.succ_ne_zero n)
theorem acc4_pos_1 (c : Dev nD) (t : Fin cfg4.N) (h : t.val ≠ 0) :
    (acc4 V c t.val t.isLt).1 = k4_pay4 (iblk4 V c 0 t) (iblk4 V c 1 t) (iblk4 V c 2 t) (acc4 V c (t.val - 1) (Nat.lt_of_le_of_lt (Nat.sub_le _ _) t.isLt)).1 := by
  obtain ⟨n, hn⟩ := t
  cases n with
  | zero => exact absurd rfl h
  | succ n => rfl
theorem acc4_pos_2 (c : Dev nD) (t : Fin cfg4.N) (h : t.val ≠ 0) :
    (acc4 V c t.val t.isLt).2 = k4_pay5 (iblk4 V c 0 t) (iblk4 V c 1 t) (iblk4 V c 2 t) (acc4 V c (t.val - 1) (Nat.lt_of_le_of_lt (Nat.sub_le _ _) t.isLt)).2 := by
  obtain ⟨n, hn⟩ := t
  cases n with
  | zero => exact absurd rfl h
  | succ n => rfl

/-- The region invariant before position `n`: before the first point the scoped rest (both scratch rows at anything) and the
    generator register; afterwards the two scratch rows at what the point before left, the other scoped buffers, the register. -/
def Phi4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem Phi4_zero (c : Dev nD) (n : ℕ) (h : n ≤ cfg4.N) (hz : n = 0) : Phi4 V c n h = Pipeline.ΦA spec4 c := by
  subst hz; rfl
theorem Phi4_succ (c : Dev nD) (n : ℕ) (hn : n < cfg4.N) :
    Phi4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl
theorem Phi4_pos (c : Dev nD) (n : ℕ) (h : n ≤ cfg4.N) (hz : n ≠ 0) :
    Phi4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class invariant with the two scratch rows split out of the scoped rest, each owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The proof data of this pipeline on core `c`: the arrays as the region finds them; after the body at point `t` each input's
    buffer at its block, the block output at the tile's dense block, the two statistics outputs at the running sums; the
    invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 0 t) (iblk4 V c 1 t) (iblk4 V c 2 t)
    | ⟨4, _⟩ => (acc4 V c t.val t.isLt).1
    | ⟨5, _⟩ => (acc4 V c t.val t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem Phi4_castSucc (c : Dev nD) (t : Fin cfg4.N) :
    (dat4 V c).Φ t.castSucc = Phi4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k4_pay3 (iblk4 V c 0 t) (iblk4 V c 1 t) (iblk4 V c 2 t) := by dsimp only [dat4]
theorem after4_4 (c : Dev nD) (t : Fin cfg4.N) : (dat4 V c).after 4 t = (acc4 V c t.val t.isLt).1 := by dsimp only [dat4]
theorem after4_5 (c : Dev nD) (t : Fin cfg4.N) : (dat4 V c).after 5 t = (acc4 V c t.val t.isLt).2 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 2000000 in
/-- The body at any point: the inputs' buffers hold their blocks; at point 0 the invariant hands over both scratch rows at
    anything and the first case's triple applies, at a later point it hands them over at what the point before left and the
    second case's triple applies; either way the scratch rows go back into the invariant at this point's sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Phi4 V c (t.val + 1) t.isLt from rfl, Phi4_succ,
    after4_0, after4_1, after4_2, after4_3, after4_4, after4_5]
  by_cases hz : t.val = 0
  · rw [Phi4_castSucc V c t, Phi4_zero V c _ _ hz, PhiA4_eq, acc4_zero_1 V c t hz, acc4_zero_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound4_A c Set.univ _ _ _ _ _ _ _ _ _ _ _ _ _ _ _ _ _ ((hcond4 t).mpr hz) (iblk4 V c 0 t) (iblk4 V c 1 t) (iblk4 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi4_castSucc V c t, Phi4_pos V c _ _ hz, acc4_pos_1 V c t hz, acc4_pos_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound4_B c Set.univ _ _ _ _ _ _ _ _ _ _ _ _ _ _ _ _ _ (fun h => hz ((hcond4 t).mp h)) (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 (F := F) V c).Φ 0 := by
  rw [show (dat4 V c).Φ 0 = Phi4 V c 0 (Nat.zero_le _) from rfl, Phi4_zero V c 0 _ rfl]

/-- After the last point the invariant gives the class invariant back: the scratch rows' contents are forgotten. -/
theorem hout4 (c : Dev nD) : (dat4 (F := F) V c).Φ (Fin.last cfg4.N) ⊢ Pipeline.ΦA spec4 c := by
  rw [show (dat4 V c).Φ (Fin.last cfg4.N) = Phi4 V c cfg4.N (Nat.le_refl _) from rfl,
    Phi4_pos V c _ _ (by rw [show cfg4.N = 10 from N_4]; decide), PhiA4_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end

end Cert.Kernel.Hand

end
-- ==== Proof.KHalf5.lean ====
/-
  The second kernel of layer 2 (the batch-normalised, block times the second weight matrix plus its bias row) on whole
  staging buffers: its triple, the pipeline's proof data at the contents the region finds, and the pipeline's body obligation.
-/
import proofs.«138093_j17583596110490_1_alg».proof.Proof.KCommon
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the second kernel of a layer leaves in its output block: the normalised, optionally rectified block times the second weight
    matrix plus the bias row, as one term of the seven input blocks (mean is the second operand, the variance the third). -/
def out5_7 (x0 : Vec F S2000x512 .f32) (x1 x2 x3 x4 : Vec F S1x512 .f32) (x5 : Vec F S512x256 .f32) (x6 : Vec F S1x256 .f32) :
    Vec F S2000x256 .f32 :=
  k5_pay1 x0 x2 x1 x3 x4 x5 x6

set_option maxHeartbeats 1000000 in
/-- The body on whole staging buffers: the seven inputs are read and handed back, the output buffer ends at `out5_7` of them. -/
theorem sound_kernel5 (c : Dev nD) (E : Set ℕ) (i : grid5.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S2000x256 .f32) (harg8 : arg8.IsWhole)
    (x0 : Vec F S2000x512 .f32) (x1 x2 x3 x4 : Vec F S1x512 .f32) (x5 : Vec F S512x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E
          (cc5__mm2_kernel i arg1 harg1 arg2 harg2 arg3 harg3 arg4 harg4 arg5 harg5 arg6 harg6 arg7 harg7 arg8 harg8) K := by
  simp only [cc5__mm2_kernel_eq_skeleton]; unfold cc5__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (View.cover_of_tiled _ S2000x256.size (by rfl)), View.canon_unit_zero hz2]
  simp only [View.readAt_eq_ld, View.ld_unit_zero (S := S2000x512) hz2, View.ld_unit_zero (S := S1x512) hz2,
    View.ld_unit_zero (S := S512x256) hz2, View.ld_unit_zero (S := S1x256) hz2]
  rfl

section
-- the TensorCore's buffer contents when the region is entered
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- The proof data of this pipeline on core `c`: the arrays as the region finds them; after the body at point `t` each input's
    buffer at its block and the output's at the body's result on the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' buffers hold their blocks, so the body's triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end

end Cert.Kernel.Hand

end
-- ==== Proof.KRun6.lean ====
/-
  The first kernel of layer 3 (a row tile's dense block h = x·W1 + b1, stored, and the running column sums of h and of h·h
  kept in two scratch rows) run once on whole staging buffers, in its two cases: at the first grid point both scratch rows
  are reset to zero before the tile's sums are added; at every later point they come in holding what the point before left.
  Each run ends with every buffer the body stored into written by a list of pieces the run itself determines.
-/
import proofs.«138093_j17583596110490_1_alg».proof.Proof.KCommon
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first grid point's test, as the body computes it from the grid coordinate. -/
abbrev cond6 (i : grid6.Coords) : Prop := (Scalar.cmpi .ne (Scalar.extui (Scalar.cmpi .eq (BitVec.ofNat 32 (i 0).val) 0#32)) 0#32) = 1#1

set_option maxHeartbeats 4000000 in
/-- The body at the first grid point: both accumulators are reset, then the tile's block and its column sums are stored. -/
noncomputable def kernelRun6_A (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__mm1_kernel_eq_skeleton]; unfold cc6__mm1_kernel_skel
    simp only [k6_part1_eq_skeleton]; unfold k6_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

set_option maxHeartbeats 4000000 in
/-- The body at a later grid point: the accumulators come in at what the point before left. -/
noncomputable def kernelRun6_B (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__mm1_kernel_eq_skeleton]; unfold cc6__mm1_kernel_skel
    simp only [k6_part1_eq_skeleton]; unfold k6_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.Kernel.Hand

end
-- ==== Proof.KPieces6.lean ====
/-
  What the first kernel of layer 3 leaves, read back: in each of its two cases every buffer the body wrote holds a named
  term of the input blocks — the dense block k6_pay3, and in the scratch rows and the statistics outputs k6_pay4 / k6_pay5
  of the block and of what the scratch rows held (zero rows at the first point) — and the body's triple restated with them.
-/
import proofs.«138093_j17583596110490_1_alg».proof.Proof.KRun6
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piece6_A_3 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg4.view.read (Elt F) (arg4.view.writes (Elt F) f (kernelRun6_A c i arg1 harg1 arg2 harg2 arg3 harg3 arg4 harg4 arg5 harg5 arg6 harg6 arg7 harg7 arg8 harg8 hc0 x0 x1 x2).1) = k6_pay3 x0 x1 x2 := by
  rw [View.read_writes_eq_canon _ _ _ (View.cover_of_tiledL _ S2000x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_A_4 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg5.view.read (Elt F) (arg5.view.writes (Elt F) f (kernelRun6_A c i arg1 harg1 arg2 harg2 arg3 harg3 arg4 harg4 arg5 harg5 arg6 harg6 arg7 harg7 arg8 harg8 hc0 x0 x1 x2).2.1) = k6_pay4 x0 x1 x2 (k6_pay1 (F := F)) := by
  rw [View.read_writes_eq_canon _ _ _ (View.cover_of_tiledL _ S1x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_A_5 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg6.view.read (Elt F) (arg6.view.writes (Elt F) f (kernelRun6_A c i arg1 harg1 arg2 harg2 arg3 harg3 arg4 harg4 arg5 harg5 arg6 harg6 arg7 harg7 arg8 harg8 hc0 x0 x1 x2).2.2.1) = k6_pay5 x0 x1 x2 (k6_pay2 (F := F)) := by
  rw [View.read_writes_eq_canon _ _ _ (View.cover_of_tiledL _ S1x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_A_S0 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg7.view.read (Elt F) (arg7.view.writes (Elt F) f (kernelRun6_A c i arg1 harg1 arg2 harg2 arg3 harg3 arg4 harg4 arg5 harg5 arg6 harg6 arg7 harg7 arg8 harg8 hc0 x0 x1 x2).2.2.2.1) = k6_pay4 x0 x1 x2 (k6_pay1 (F := F)) := by
  rw [View.read_writes_eq_canon _ _ _ (View.cover_of_tiledL _ S1x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_A_S1 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg8.view.read (Elt F) (arg8.view.writes (Elt F) f (kernelRun6_A c i arg1 harg1 arg2 harg2 arg3 harg3 arg4 harg4 arg5 harg5 arg6 harg6 arg7 harg7 arg8 harg8 hc0 x0 x1 x2).2.2.2.2.1) = k6_pay5 x0 x1 x2 (k6_pay2 (F := F)) := by
  rw [View.read_writes_eq_canon _ _ _ (View.cover_of_tiledL _ S1x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_3 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg4.view.read (Elt F) (arg4.view.writes (Elt F) f (kernelRun6_B c i arg1 harg1 arg2 harg2 arg3 harg3 arg4 harg4 arg5 harg5 arg6 harg6 arg7 harg7 arg8 harg8 hc0 x0 x1 x2 xs0 xs1).1) = k6_pay3 x0 x1 x2 := by
  rw [View.read_writes_eq_canon _ _ _ (View.cover_of_tiledL _ S2000x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_4 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg5.view.read (Elt F) (arg5.view.writes (Elt F) f (kernelRun6_B c i arg1 harg1 arg2 harg2 arg3 harg3 arg4 harg4 arg5 harg5 arg6 harg6 arg7 harg7 arg8 harg8 hc0 x0 x1 x2 xs0 xs1).2.1) = k6_pay4 x0 x1 x2 xs0 := by
  rw [View.read_writes_eq_canon _ _ _ (View.cover_of_tiledL _ S1x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_5 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg6.view.read (Elt F) (arg6.view.writes (Elt F) f (kernelRun6_B c i arg1 harg1 arg2 harg2 arg3 harg3 arg4 harg4 arg5 harg5 arg6 harg6 arg7 harg7 arg8 harg8 hc0 x0 x1 x2 xs0 xs1).2.2.1) = k6_pay5 x0 x1 x2 xs1 := by
  rw [View.read_writes_eq_canon _ _ _ (View.cover_of_tiledL _ S1x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_S0 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg7.view.read (Elt F) (arg7.view.writes (Elt F) f (kernelRun6_B c i arg1 harg1 arg2 harg2 arg3 harg3 arg4 harg4 arg5 harg5 arg6 harg6 arg7 harg7 arg8 harg8 hc0 x0 x1 x2 xs0 xs1).2.2.2.1) = k6_pay4 x0 x1 x2 xs0 := by
  rw [View.read_writes_eq_canon _ _ _ (View.cover_of_tiledL _ S1x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_S1 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg8.view.read (Elt F) (arg8.view.writes (Elt F) f (kernelRun6_B c i arg1 harg1 arg2 harg2 arg3 harg3 arg4 harg4 arg5 harg5 arg6 harg6 arg7 harg7 arg8 harg8 hc0 x0 x1 x2 xs0 xs1).2.2.2.2.1) = k6_pay5 x0 x1 x2 xs1 := by
  rw [View.read_writes_eq_canon _ _ _ (View.cover_of_tiledL _ S1x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

/-- The body at the first grid point, with what it leaves named: the tile's dense block, and in both scratch rows and both
    statistics outputs the column sums of the block (of its squares) added to zero. -/
theorem sound6_A (c : Dev nD) (E : Set ℕ) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k6_pay3 x0 x1 x2)
            ∗ owns (c : Thread nD τ) arg5 fullShare (k6_pay4 x0 x1 x2 (k6_pay1 (F := F))) ∗ owns (c : Thread nD τ) arg6 fullShare (k6_pay5 x0 x1 x2 (k6_pay2 (F := F)))
            ∗ owns (c : Thread nD τ) arg7 fullShare (k6_pay4 x0 x1 x2 (k6_pay1 (F := F))) ∗ owns (c : Thread nD τ) arg8 fullShare (k6_pay5 x0 x1 x2 (k6_pay2 (F := F)))) -∗ K ⟨⟩))
      ⊢ wp frame (wpE (defs₀ (F := F)) Variants.none c none) E (cc6__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun6_A c i arg1 harg1 arg2 harg2 arg3 harg3 arg4 harg4 arg5 harg5 arg6 harg6 arg7 harg7 arg8 harg8 hc0 x0 x1 x2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece6_A_3 c i arg1 harg1 arg2 harg2 arg3 harg3 arg4 harg4 arg5 harg5 arg6 harg6 arg7 harg7 arg8 harg8 hc0 x0 x1 x2)); iexact H3
  isplitl [H4]; · iapply (owns_of_writes c arg5 _ _ (piece6_A_4 c i arg1 harg1 arg2 harg2 arg3 harg3 arg4 harg4 arg5 harg5 arg6 harg6 arg7 harg7 arg8 harg8 hc0 x0 x1 x2)); iexact H4
  isplitl [H5]; · iapply (owns_of_writes c arg6 _ _ (piece6_A_5 c i arg1 harg1 arg2 harg2 arg3 harg3 arg4 harg4 arg5 harg5 arg6 harg6 arg7 harg7 arg8 harg8 hc0 x0 x1 x2)); iexact H5
  isplitl [H6]; · iapply (owns_of_writes c arg7 _ _ (piece6_A_S0 c i arg1 harg1 arg2 harg2 arg3 harg3 arg4 harg4 arg5 harg5 arg6 harg6 arg7 harg7 arg8 harg8 hc0 x0 x1 x2)); iexact H6
  iapply (owns_of_writes c arg8 _ _ (piece6_A_S1 c i arg1 harg1 arg2 harg2 arg3 harg3 arg4 harg4 arg5 harg5 arg6 harg6 arg7 harg7 arg8 harg8 hc0 x0 x1 x2)); iexact H7

/-- The body at a later grid point, with what it leaves named: the tile's dense block, and in both scratch rows and both
    statistics outputs the column sums of the block (of its squares) added to what the scratch rows held. -/
theorem sound6_B (c : Dev nD) (E : Set ℕ) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k6_pay3 x0 x1 x2)
            ∗ owns (c : Thread nD τ) arg5 fullShare (k6_pay4 x0 x1 x2 xs0) ∗ owns (c : Thread nD τ) arg6 fullShare (k6_pay5 x0 x1 x2 xs1)
            ∗ owns (c : Thread nD τ) arg7 fullShare (k6_pay4 x0 x1 x2 xs0) ∗ owns (c : Thread nD τ) arg8 fullShare (k6_pay5 x0 x1 x2 xs1)) -∗ K ⟨⟩))
      ⊢ wp frame (wpE (defs₀ (F := F)) Variants.none c none) E (cc6__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun6_B c i arg1 harg1 arg2 harg2 arg3 harg3 arg4 harg4 arg5 harg5 arg6 harg6 arg7 harg7 arg8 harg8 hc0 x0 x1 x2 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece6_B_3 c i arg1 harg1 arg2 harg2 arg3 harg3 arg4 harg4 arg5 harg5 arg6 harg6 arg7 harg7 arg8 harg8 hc0 x0 x1 x2 xs0 xs1)); iexact H3
  isplitl [H4]; · iapply (owns_of_writes c arg5 _ _ (piece6_B_4 c i arg1 harg1 arg2 harg2 arg3 harg3 arg4 harg4 arg5 harg5 arg6 harg6 arg7 harg7 arg8 harg8 hc0 x0 x1 x2 xs0 xs1)); iexact H4
  isplitl [H5]; · iapply (owns_of_writes c arg6 _ _ (piece6_B_5 c i arg1 harg1 arg2 harg2 arg3 harg3 arg4 harg4 arg5 harg5 arg6 harg6 arg7 harg7 arg8 harg8 hc0 x0 x1 x2 xs0 xs1)); iexact H5
  isplitl [H6]; · iapply (owns_of_writes c arg7 _ _ (piece6_B_S0 c i arg1 harg1 arg2 harg2 arg3 harg3 arg4 harg4 arg5 harg5 arg6 harg6 arg7 harg7 arg8 harg8 hc0 x0 x1 x2 xs0 xs1)); iexact H6
  iapply (owns_of_writes c arg8 _ _ (piece6_B_S1 c i arg1 harg1 arg2 harg2 arg3 harg3 arg4 harg4 arg5 harg5 arg6 harg6 arg7 harg7 arg8 harg8 hc0 x0 x1 x2 xs0 xs1)); iexact H7

end Cert.Kernel.Hand

end
-- ==== Proof.KHalf6.lean ====
/-
  The first kernel of layer 3 as a pipeline: the running column sums after each grid point (`acc6`), the region invariant
  that carries the two scratch rows from point to point (`Phi6`), the proof data at the contents the region finds, and the
  pipeline's body obligation from the body's two triples.
-/
import proofs.«138093_j17583596110490_1_alg».proof.Proof.KPieces6
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch rows of this kernel, as whole-buffer memrefs. -/
abbrev scM6_0 : Memref sig .tc .vmem S1x512 .f32 := Memref.whole cc6_scratch0
abbrev scM6_1 : Memref sig .tc .vmem S1x512 .f32 := Memref.whole cc6_scratch1

/-- The body's first-point test holds exactly at grid point 0. -/
theorem hcond6 : ∀ t : Fin cfg6.N, cond6 (grid6.coords t) ↔ t.val = 0 :=
  (by decide +kernel : ∀ t : Fin grid6.N, cond6 (grid6.coords t) ↔ t.val = 0)

section
-- the TensorCore's buffer contents when the region is entered
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- THE ACCUMULATION. What the two scratch rows hold after the body at grid point `n`: the column sums (of the block, of its
    squares) of the tiles 0..n, accumulated tile by tile from zero rows. -/
def acc6 (c : Dev nD) : (n : ℕ) → n < cfg6.N → Vec F S1x512 .f32 × Vec F S1x512 .f32
  | 0, hn => (k6_pay4 (iblk6 V c 0 ⟨0, hn⟩) (iblk6 V c 1 ⟨0, hn⟩) (iblk6 V c 2 ⟨0, hn⟩) k6_pay1, k6_pay5 (iblk6 V c 0 ⟨0, hn⟩) (iblk6 V c 1 ⟨0, hn⟩) (iblk6 V c 2 ⟨0, hn⟩) k6_pay2)
  | n + 1, hn => (k6_pay4 (iblk6 V c 0 ⟨n + 1, hn⟩) (iblk6 V c 1 ⟨n + 1, hn⟩) (iblk6 V c 2 ⟨n + 1, hn⟩) (acc6 c n (Nat.lt_of_succ_lt hn)).1,
      k6_pay5 (iblk6 V c 0 ⟨n + 1, hn⟩) (iblk6 V c 1 ⟨n + 1, hn⟩) (iblk6 V c 2 ⟨n + 1, hn⟩) (acc6 c n (Nat.lt_of_succ_lt hn)).2)

theorem acc6_zero_1 (c : Dev nD) (t : Fin cfg6.N) (h : t.val = 0) :
    (acc6 V c t.val t.isLt).1 = k6_pay4 (iblk6 V c 0 t) (iblk6 V c 1 t) (iblk6 V c 2 t) k6_pay1 := by
  obtain ⟨n, hn⟩ := t
  cases n with
  | zero => rfl
  | succ n => exact absurd h (Nat.succ_ne_zero n)
theorem acc6_zero_2 (c : Dev nD) (t : Fin cfg6.N) (h : t.val = 0) :
    (acc6 V c t.val t.isLt).2 = k6_pay5 (iblk6 V c 0 t) (iblk6 V c 1 t) (iblk6 V c 2 t) k6_pay2 := by
  obtain ⟨n, hn⟩ := t
  cases n with
  | zero => rfl
  | succ n => exact absurd h (Nat.succ_ne_zero n)
theorem acc6_pos_1 (c : Dev nD) (t : Fin cfg6.N) (h : t.val ≠ 0) :
    (acc6 V c t.val t.isLt).1 = k6_pay4 (iblk6 V c 0 t) (iblk6 V c 1 t) (iblk6 V c 2 t) (acc6 V c (t.val - 1) (Nat.lt_of_le_of_lt (Nat.sub_le _ _) t.isLt)).1 := by
  obtain ⟨n, hn⟩ := t
  cases n with
  | zero => exact absurd rfl h
  | succ n => rfl
theorem acc6_pos_2 (c : Dev nD) (t : Fin cfg6.N) (h : t.val ≠ 0) :
    (acc6 V c t.val t.isLt).2 = k6_pay5 (iblk6 V c 0 t) (iblk6 V c 1 t) (iblk6 V c 2 t) (acc6 V c (t.val - 1) (Nat.lt_of_le_of_lt (Nat.sub_le _ _) t.isLt)).2 := by
  obtain ⟨n, hn⟩ := t
  cases n with
  | zero => exact absurd rfl h
  | succ n => rfl

/-- The region invariant before position `n`: before the first point the scoped rest (both scratch rows at anything) and the
    generator register; afterwards the two scratch rows at what the point before left, the other scoped buffers, the register. -/
def Phi6 (c : Dev nD) : (n : ℕ) → n ≤ cfg6.N → sProp 𝕄
  | 0, _ => Pipeline.ΦA spec6 c
  | n + 1, hn => iprop(iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) (Val := Elt F) spec6 c [cc6_scratch0, cc6_scratch1]) ∗ (∃ r, prngReg c r))

theorem Phi6_zero (c : Dev nD) (n : ℕ) (h : n ≤ cfg6.N) (hz : n = 0) : Phi6 V c n h = Pipeline.ΦA spec6 c := by
  subst hz; rfl
theorem Phi6_succ (c : Dev nD) (n : ℕ) (hn : n < cfg6.N) :
    Phi6 V c (n + 1) hn = iprop(iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) (Val := Elt F) spec6 c [cc6_scratch0, cc6_scratch1]) ∗ (∃ r, prngReg c r)) := rfl
theorem Phi6_pos (c : Dev nD) (n : ℕ) (h : n ≤ cfg6.N) (hz : n ≠ 0) :
    Phi6 V c n h = iprop(iprop(iprop(owns (c : Thread nD τ) scM6_0 fullShare (acc6 V c (n - 1) (by omega)).1 ∗ owns (c : Thread nD τ) scM6_1 fullShare (acc6 V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The class invariant with the two scratch rows split out of the scoped rest, each owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-- The proof data of this pipeline on core `c`: the arrays as the region finds them; after the body at point `t` each input's
    buffer at its block, the block output at the tile's dense block, the two statistics outputs at the running sums; the
    invariant `Phi6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (iblk6 V c 0 t) (iblk6 V c 1 t) (iblk6 V c 2 t)
    | ⟨4, _⟩ => (acc6 V c t.val t.isLt).1
    | ⟨5, _⟩ => (acc6 V c t.val t.isLt).2
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem Phi6_castSucc (c : Dev nD) (t : Fin cfg6.N) :
    (dat6 V c).Φ t.castSucc = Phi6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = k6_pay3 (iblk6 V c 0 t) (iblk6 V c 1 t) (iblk6 V c 2 t) := by dsimp only [dat6]
theorem after6_4 (c : Dev nD) (t : Fin cfg6.N) : (dat6 V c).after 4 t = (acc6 V c t.val t.isLt).1 := by dsimp only [dat6]
theorem after6_5 (c : Dev nD) (t : Fin cfg6.N) : (dat6 V c).after 5 t = (acc6 V c t.val t.isLt).2 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

set_option maxHeartbeats 2000000 in
/-- The body at any point: the inputs' buffers hold their blocks; at point 0 the invariant hands over both scratch rows at
    anything and the first case's triple applies, at a later point it hands them over at what the point before left and the
    second case's triple applies; either way the scratch rows go back into the invariant at this point's sums. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    show (dat6 V c).Φ t.succ = Phi6 V c (t.val + 1) t.isLt from rfl, Phi6_succ,
    after6_0, after6_1, after6_2, after6_3, after6_4, after6_5]
  by_cases hz : t.val = 0
  · rw [Phi6_castSucc V c t, Phi6_zero V c _ _ hz, PhiA6_eq, acc6_zero_1 V c t hz, acc6_zero_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound6_A c Set.univ _ _ _ _ _ _ _ _ _ _ _ _ _ _ _ _ _ ((hcond6 t).mpr hz) (iblk6 V c 0 t) (iblk6 V c 1 t) (iblk6 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi6_castSucc V c t, Phi6_pos V c _ _ hz, acc6_pos_1 V c t hz, acc6_pos_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound6_B c Set.univ _ _ _ _ _ _ _ _ _ _ _ _ _ _ _ _ _ (fun h => hz ((hcond6 t).mp h)) (iblk6 V c 0 t) (iblk6 V c 1 t) (iblk6 V c 2 t) _ _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 (F := F) V c).Φ 0 := by
  rw [show (dat6 V c).Φ 0 = Phi6 V c 0 (Nat.zero_le _) from rfl, Phi6_zero V c 0 _ rfl]

/-- After the last point the invariant gives the class invariant back: the scratch rows' contents are forgotten. -/
theorem hout6 (c : Dev nD) : (dat6 (F := F) V c).Φ (Fin.last cfg6.N) ⊢ Pipeline.ΦA spec6 c := by
  rw [show (dat6 V c).Φ (Fin.last cfg6.N) = Phi6 V c cfg6.N (Nat.le_refl _) from rfl,
    Phi6_pos V c _ _ (by rw [show cfg6.N = 10 from N_6]; decide), PhiA6_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end

end Cert.Kernel.Hand

end
-- ==== Proof.KHalf7.lean ====
/-
  The second kernel of layer 3 (the batch-normalised, block times the second weight matrix plus its bias row) on whole
  staging buffers: its triple, the pipeline's proof data at the contents the region finds, and the pipeline's body obligation.
-/
import proofs.«138093_j17583596110490_1_alg».proof.Proof.KCommon
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the second kernel of a layer leaves in its output block: the normalised, optionally rectified block times the second weight
    matrix plus the bias row, as one term of the seven input blocks (mean is the second operand, the variance the third). -/
def out7_7 (x0 : Vec F S2000x512 .f32) (x1 x2 x3 x4 : Vec F S1x512 .f32) (x5 : Vec F S512x256 .f32) (x6 : Vec F S1x256 .f32) :
    Vec F S2000x256 .f32 :=
  k7_pay1 x0 x2 x1 x3 x4 x5 x6

set_option maxHeartbeats 1000000 in
/-- The body on whole staging buffers: the seven inputs are read and handed back, the output buffer ends at `out7_7` of them. -/
theorem sound_kernel7 (c : Dev nD) (E : Set ℕ) (i : grid7.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S2000x256 .f32) (harg8 : arg8.IsWhole)
    (x0 : Vec F S2000x512 .f32) (x1 x2 x3 x4 : Vec F S1x512 .f32) (x5 : Vec F S512x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E
          (cc7__mm2_kernel i arg1 harg1 arg2 harg2 arg3 harg3 arg4 harg4 arg5 harg5 arg6 harg6 arg7 harg7 arg8 harg8) K := by
  simp only [cc7__mm2_kernel_eq_skeleton]; unfold cc7__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (View.cover_of_tiled _ S2000x256.size (by rfl)), View.canon_unit_zero hz2]
  simp only [View.readAt_eq_ld, View.ld_unit_zero (S := S2000x512) hz2, View.ld_unit_zero (S := S1x512) hz2,
    View.ld_unit_zero (S := S512x256) hz2, View.ld_unit_zero (S := S1x256) hz2]
  rfl

section
-- the TensorCore's buffer contents when the region is entered
variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- The proof data of this pipeline on core `c`: the arrays as the region finds them; after the body at point `t` each input's
    buffer at its block and the output's at the body's result on the input blocks; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so the body's triple applies; the invariant and the core's
    dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end

end Cert.Kernel.Hand

end
-- ==== Proof.KFrame.lean ====
/-
  The whole program's run. @main is 25 items — host stretches and the eight kernel launches of the four layers — and the buffer
  contents at each boundary are a fold from the launch memory: a host stretch applies its operations, a kernel region leaves its
  arrays at what its pipeline's write-backs leave. Each region is a segment over the thread state "every unscoped buffer at the
  boundary's contents"; the launch theorem for a list of segments gives the run, from which the frame (every argument array ends as
  launched) is read: no host stretch writes an argument and a region only writes its output arrays.
-/
import proofs.«138093_j17583596110490_1_alg».proof.Proof.KHalf0
import proofs.«138093_j17583596110490_1_alg».proof.Proof.KHalf1
import proofs.«138093_j17583596110490_1_alg».proof.Proof.KHalf2
import proofs.«138093_j17583596110490_1_alg».proof.Proof.KHalf3
import proofs.«138093_j17583596110490_1_alg».proof.Proof.KHalf4
import proofs.«138093_j17583596110490_1_alg».proof.Proof.KHalf5
import proofs.«138093_j17583596110490_1_alg».proof.Proof.KHalf6
import proofs.«138093_j17583596110490_1_alg».proof.Proof.KHalf7
import proofs.«138093_j17583596110490_1_alg».proof.Proof.Gen.Kernel.Regions
import proofs.«138093_j17583596110490_1_alg».proof.Proof.Gen.Kernel.Launch
import proofs.«138093_j17583596110490_1_alg».proof.Proof.Gen.Kernel.Skeleton
import proofs.«138093_j17583596110490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main's 25 items: a fold from the launch memory -/

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After item 1, the host stretch `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- After item 2, the host stretch `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- The contents region 0 is entered from, read at the TensorCore's references. -/
abbrev V3 : (c : Dev nD) → (b : Ref sig .tc) → Buf (Elt F) ((c : Thread nD τ).loc b) := fun c b => W3 m ρ c b
/-- After item 3, kernel region 0: its arrays at what the pipeline's write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- Region 0 leaves every buffer but its output arrays as it found it: an input window's array is never written back. -/
theorem W4_of (c : Dev nD) (r : Ref sig .tc) (h : r ∉ ([main_v21_0, main_v21_1, main_v21_2] : List (Ref sig .tc))) :
    W4 m ρ c (Proc.devRef .tc r) = W3 m ρ c (Proc.devRef .tc r) := by
  by_cases hw : ∃ w, Pipeline.arrRef spec0 w = r
  · obtain ⟨w, rfl⟩ := hw
    rw [W4_arr]
    have hcases : ∀ w : Fin 6, w = 0 ∨ w = 1 ∨ w = 2 ∨ w = 3 ∨ w = 4 ∨ w = 5 := by decide
    rcases hcases w with rfl | rfl | rfl | rfl | rfl | rfl
    · exact ((dat0 (V3 m ρ) c).arrAt_in 0 rfl _).trans (A_eq0 _ c 0)
    · exact ((dat0 (V3 m ρ) c).arrAt_in 1 rfl _).trans (A_eq0 _ c 1)
    · exact ((dat0 (V3 m ρ) c).arrAt_in 2 rfl _).trans (A_eq0 _ c 2)
    · exact absurd (by decide) h
    · exact absurd (by decide) h
    · exact absurd (by decide) h
  · exact W4_of_ne m ρ c r (fun w e => hw ⟨w, e⟩)
/-- After item 4, the host stretch `hostOps1`. -/
abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- The contents region 1 is entered from, read at the TensorCore's references. -/
abbrev V5 : (c : Dev nD) → (b : Ref sig .tc) → Buf (Elt F) ((c : Thread nD τ).loc b) := fun c b => W5 m ρ c b
/-- After item 5, kernel region 1: its arrays at what the pipeline's write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- Region 1 leaves every buffer but its output arrays as it found it: an input window's array is never written back. -/
theorem W6_of (c : Dev nD) (r : Ref sig .tc) (h : r ∉ ([main_v28] : List (Ref sig .tc))) :
    W6 m ρ c (Proc.devRef .tc r) = W5 m ρ c (Proc.devRef .tc r) := by
  by_cases hw : ∃ w, Pipeline.arrRef spec1 w = r
  · obtain ⟨w, rfl⟩ := hw
    rw [W6_arr]
    have hcases : ∀ w : Fin 8, w = 0 ∨ w = 1 ∨ w = 2 ∨ w = 3 ∨ w = 4 ∨ w = 5 ∨ w = 6 ∨ w = 7 := by decide
    rcases hcases w with rfl | rfl | rfl | rfl | rfl | rfl | rfl | rfl
    · exact ((dat1 (V5 m ρ) c).arrAt_in 0 rfl _).trans (A_eq1 _ c 0)
    · exact ((dat1 (V5 m ρ) c).arrAt_in 1 rfl _).trans (A_eq1 _ c 1)
    · exact ((dat1 (V5 m ρ) c).arrAt_in 2 rfl _).trans (A_eq1 _ c 2)
    · exact ((dat1 (V5 m ρ) c).arrAt_in 3 rfl _).trans (A_eq1 _ c 3)
    · exact ((dat1 (V5 m ρ) c).arrAt_in 4 rfl _).trans (A_eq1 _ c 4)
    · exact ((dat1 (V5 m ρ) c).arrAt_in 5 rfl _).trans (A_eq1 _ c 5)
    · exact ((dat1 (V5 m ρ) c).arrAt_in 6 rfl _).trans (A_eq1 _ c 6)
    · exact absurd (by decide) h
  · exact W6_of_ne m ρ c r (fun w e => hw ⟨w, e⟩)
/-- After item 6, the host stretch `hostOps2`. -/
abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- After item 7, the host stretch `hostOps2_1`. -/
abbrev W8 : Dev nD → Valuation τ sig (Elt F) := fun c => StableHlo.after hostOps2_1 (W7 m ρ c)
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h
/-- After item 8, the host stretch `hostOps2_2`. -/
abbrev W9 : Dev nD → Valuation τ sig (Elt F) := fun c => StableHlo.after hostOps2_2 (W8 m ρ c)
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h
/-- The contents region 2 is entered from, read at the TensorCore's references. -/
abbrev V9 : (c : Dev nD) → (b : Ref sig .tc) → Buf (Elt F) ((c : Thread nD τ).loc b) := fun c b => W9 m ρ c b
/-- After item 9, kernel region 2: its arrays at what the pipeline's write-backs leave, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- Region 2 leaves every buffer but its output arrays as it found it: an input window's array is never written back. -/
theorem W10_of (c : Dev nD) (r : Ref sig .tc) (h : r ∉ ([main_v46_0, main_v46_1, main_v46_2] : List (Ref sig .tc))) :
    W10 m ρ c (Proc.devRef .tc r) = W9 m ρ c (Proc.devRef .tc r) := by
  by_cases hw : ∃ w, Pipeline.arrRef spec2 w = r
  · obtain ⟨w, rfl⟩ := hw
    rw [W10_arr]
    have hcases : ∀ w : Fin 6, w = 0 ∨ w = 1 ∨ w = 2 ∨ w = 3 ∨ w = 4 ∨ w = 5 := by decide
    rcases hcases w with rfl | rfl | rfl | rfl | rfl | rfl
    · exact ((dat2 (V9 m ρ) c).arrAt_in 0 rfl _).trans (A_eq2 _ c 0)
    · exact ((dat2 (V9 m ρ) c).arrAt_in 1 rfl _).trans (A_eq2 _ c 1)
    · exact ((dat2 (V9 m ρ) c).arrAt_in 2 rfl _).trans (A_eq2 _ c 2)
    · exact absurd (by decide) h
    · exact absurd (by decide) h
    · exact absurd (by decide) h
  · exact W10_of_ne m ρ c r (fun w e => hw ⟨w, e⟩)
/-- After item 10, the host stretch `hostOps3`. -/
abbrev W11 : Dev nD → Valuation τ sig (Elt F) := fun c => StableHlo.after hostOps3 (W10 m ρ c)
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
/-- The contents region 3 is entered from, read at the TensorCore's references. -/
abbrev V11 : (c : Dev nD) → (b : Ref sig .tc) → Buf (Elt F) ((c : Thread nD τ).loc b) := fun c b => W11 m ρ c b
/-- After item 11, kernel region 3: its arrays at what the pipeline's write-backs leave, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- Region 3 leaves every buffer but its output arrays as it found it: an input window's array is never written back. -/
theorem W12_of (c : Dev nD) (r : Ref sig .tc) (h : r ∉ ([main_v53] : List (Ref sig .tc))) :
    W12 m ρ c (Proc.devRef .tc r) = W11 m ρ c (Proc.devRef .tc r) := by
  by_cases hw : ∃ w, Pipeline.arrRef spec3 w = r
  · obtain ⟨w, rfl⟩ := hw
    rw [W12_arr]
    have hcases : ∀ w : Fin 8, w = 0 ∨ w = 1 ∨ w = 2 ∨ w = 3 ∨ w = 4 ∨ w = 5 ∨ w = 6 ∨ w = 7 := by decide
    rcases hcases w with rfl | rfl | rfl | rfl | rfl | rfl | rfl | rfl
    · exact ((dat3 (V11 m ρ) c).arrAt_in 0 rfl _).trans (A_eq3 _ c 0)
    · exact ((dat3 (V11 m ρ) c).arrAt_in 1 rfl _).trans (A_eq3 _ c 1)
    · exact ((dat3 (V11 m ρ) c).arrAt_in 2 rfl _).trans (A_eq3 _ c 2)
    · exact ((dat3 (V11 m ρ) c).arrAt_in 3 rfl _).trans (A_eq3 _ c 3)
    · exact ((dat3 (V11 m ρ) c).arrAt_in 4 rfl _).trans (A_eq3 _ c 4)
    · exact ((dat3 (V11 m ρ) c).arrAt_in 5 rfl _).trans (A_eq3 _ c 5)
    · exact ((dat3 (V11 m ρ) c).arrAt_in 6 rfl _).trans (A_eq3 _ c 6)
    · exact absurd (by decide) h
  · exact W12_of_ne m ρ c r (fun w e => hw ⟨w, e⟩)
/-- After item 12, the host stretch `hostOps4`. -/
abbrev W13 : Dev nD → Valuation τ sig (Elt F) := fun c => StableHlo.after hostOps4 (W12 m ρ c)
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h
/-- After item 13, the host stretch `hostOps4_1`. -/
abbrev W14 : Dev nD → Valuation τ sig (Elt F) := fun c => StableHlo.after hostOps4_1 (W13 m ρ c)
theorem W14_of (c : Dev nD) (r : Ref sig .tc) (h : r ∉ hostOps4_1_W) : W14 m ρ c (Proc.devRef .tc r) = W13 m ρ c (Proc.devRef .tc r) :=
  StableHlo.after_of_writes_sub hostOps4_1 _ hostOps4_1_writes h
/-- After item 14, the host stretch `hostOps4_2`. -/
abbrev W15 : Dev nD → Valuation τ sig (Elt F) := fun c => StableHlo.after hostOps4_2 (W14 m ρ c)
theorem W15_of (c : Dev nD) (r : Ref sig .tc) (h : r ∉ hostOps4_2_W) : W15 m ρ c (Proc.devRef .tc r) = W14 m ρ c (Proc.devRef .tc r) :=
  StableHlo.after_of_writes_sub hostOps4_2 _ hostOps4_2_writes h
/-- The contents region 4 is entered from, read at the TensorCore's references. -/
abbrev V15 : (c : Dev nD) → (b : Ref sig .tc) → Buf (Elt F) ((c : Thread nD τ).loc b) := fun c b => W15 m ρ c b
/-- After item 15, kernel region 4: its arrays at what the pipeline's write-backs leave, every other buffer as entered. -/
def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
abbrev V16 : (c : Dev nD) → (b : Ref sig .tc) → Buf (Elt F) ((c : Thread nD τ).loc b) := fun c b => W16 m ρ c b
theorem hF4 (c : Dev nD) (w : Fin cfg4.W) : (dat4 (V15 m ρ) c).arrAt w cfg4.N = V16 m ρ c (Pipeline.arrRef spec4 w) :=
  (W16_arr m ρ c w).symm
theorem hrest4 (c : Dev nD) : ∀ b, b ∉ Finset.univ.image (Pipeline.arrRef spec4) → V16 m ρ c b = V15 m ρ c b :=
  fun b hb => W16_of_ne m ρ c b fun w e => hb (Finset.mem_image.mpr ⟨w, Finset.mem_univ _, e⟩)
/-- Region 4 leaves every buffer but its output arrays as it found it: an input window's array is never written back. -/
theorem W16_of (c : Dev nD) (r : Ref sig .tc) (h : r ∉ ([main_v71_0, main_v71_1, main_v71_2] : List (Ref sig .tc))) :
    W16 m ρ c (Proc.devRef .tc r) = W15 m ρ c (Proc.devRef .tc r) := by
  by_cases hw : ∃ w, Pipeline.arrRef spec4 w = r
  · obtain ⟨w, rfl⟩ := hw
    rw [W16_arr]
    have hcases : ∀ w : Fin 6, w = 0 ∨ w = 1 ∨ w = 2 ∨ w = 3 ∨ w = 4 ∨ w = 5 := by decide
    rcases hcases w with rfl | rfl | rfl | rfl | rfl | rfl
    · exact ((dat4 (V15 m ρ) c).arrAt_in 0 rfl _).trans (A_eq4 _ c 0)
    · exact ((dat4 (V15 m ρ) c).arrAt_in 1 rfl _).trans (A_eq4 _ c 1)
    · exact ((dat4 (V15 m ρ) c).arrAt_in 2 rfl _).trans (A_eq4 _ c 2)
    · exact absurd (by decide) h
    · exact absurd (by decide) h
    · exact absurd (by decide) h
  · exact W16_of_ne m ρ c r (fun w e => hw ⟨w, e⟩)
/-- After item 16, the host stretch `hostOps5`. -/
abbrev W17 : Dev nD → Valuation τ sig (Elt F) := fun c => StableHlo.after hostOps5 (W16 m ρ c)
theorem W17_of (c : Dev nD) (r : Ref sig .tc) (h : r ∉ hostOps5_W) : W17 m ρ c (Proc.devRef .tc r) = W16 m ρ c (Proc.devRef .tc r) :=
  StableHlo.after_of_writes_sub hostOps5 _ hostOps5_writes h
/-- The contents region 5 is entered from, read at the TensorCore's references. -/
abbrev V17 : (c : Dev nD) → (b : Ref sig .tc) → Buf (Elt F) ((c : Thread nD τ).loc b) := fun c b => W17 m ρ c b
/-- After item 17, kernel region 5: its arrays at what the pipeline's write-backs leave, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
abbrev V18 : (c : Dev nD) → (b : Ref sig .tc) → Buf (Elt F) ((c : Thread nD τ).loc b) := fun c b => W18 m ρ c b
theorem hF5 (c : Dev nD) (w : Fin cfg5.W) : (dat5 (V17 m ρ) c).arrAt w cfg5.N = V18 m ρ c (Pipeline.arrRef spec5 w) :=
  (W18_arr m ρ c w).symm
theorem hrest5 (c : Dev nD) : ∀ b, b ∉ Finset.univ.image (Pipeline.arrRef spec5) → V18 m ρ c b = V17 m ρ c b :=
  fun b hb => W18_of_ne m ρ c b fun w e => hb (Finset.mem_image.mpr ⟨w, Finset.mem_univ _, e⟩)
/-- Region 5 leaves every buffer but its output arrays as it found it: an input window's array is never written back. -/
theorem W18_of (c : Dev nD) (r : Ref sig .tc) (h : r ∉ ([main_v78] : List (Ref sig .tc))) :
    W18 m ρ c (Proc.devRef .tc r) = W17 m ρ c (Proc.devRef .tc r) := by
  by_cases hw : ∃ w, Pipeline.arrRef spec5 w = r
  · obtain ⟨w, rfl⟩ := hw
    rw [W18_arr]
    have hcases : ∀ w : Fin 8, w = 0 ∨ w = 1 ∨ w = 2 ∨ w = 3 ∨ w = 4 ∨ w = 5 ∨ w = 6 ∨ w = 7 := by decide
    rcases hcases w with rfl | rfl | rfl | rfl | rfl | rfl | rfl | rfl
    · exact ((dat5 (V17 m ρ) c).arrAt_in 0 rfl _).trans (A_eq5 _ c 0)
    · exact ((dat5 (V17 m ρ) c).arrAt_in 1 rfl _).trans (A_eq5 _ c 1)
    · exact ((dat5 (V17 m ρ) c).arrAt_in 2 rfl _).trans (A_eq5 _ c 2)
    · exact ((dat5 (V17 m ρ) c).arrAt_in 3 rfl _).trans (A_eq5 _ c 3)
    · exact ((dat5 (V17 m ρ) c).arrAt_in 4 rfl _).trans (A_eq5 _ c 4)
    · exact ((dat5 (V17 m ρ) c).arrAt_in 5 rfl _).trans (A_eq5 _ c 5)
    · exact ((dat5 (V17 m ρ) c).arrAt_in 6 rfl _).trans (A_eq5 _ c 6)
    · exact absurd (by decide) h
  · exact W18_of_ne m ρ c r (fun w e => hw ⟨w, e⟩)
/-- After item 18, the host stretch `hostOps6`. -/
abbrev W19 : Dev nD → Valuation τ sig (Elt F) := fun c => StableHlo.after hostOps6 (W18 m ρ c)
theorem W19_of (c : Dev nD) (r : Ref sig .tc) (h : r ∉ hostOps6_W) : W19 m ρ c (Proc.devRef .tc r) = W18 m ρ c (Proc.devRef .tc r) :=
  StableHlo.after_of_writes_sub hostOps6 _ hostOps6_writes h
/-- After item 19, the host stretch `hostOps6_1`. -/
abbrev W20 : Dev nD → Valuation τ sig (Elt F) := fun c => StableHlo.after hostOps6_1 (W19 m ρ c)
theorem W20_of (c : Dev nD) (r : Ref sig .tc) (h : r ∉ hostOps6_1_W) : W20 m ρ c (Proc.devRef .tc r) = W19 m ρ c (Proc.devRef .tc r) :=
  StableHlo.after_of_writes_sub hostOps6_1 _ hostOps6_1_writes h
/-- After item 20, the host stretch `hostOps6_2`. -/
abbrev W21 : Dev nD → Valuation τ sig (Elt F) := fun c => StableHlo.after hostOps6_2 (W20 m ρ c)
theorem W21_of (c : Dev nD) (r : Ref sig .tc) (h : r ∉ hostOps6_2_W) : W21 m ρ c (Proc.devRef .tc r) = W20 m ρ c (Proc.devRef .tc r) :=
  StableHlo.after_of_writes_sub hostOps6_2 _ hostOps6_2_writes h
/-- The contents region 6 is entered from, read at the TensorCore's references. -/
abbrev V21 : (c : Dev nD) → (b : Ref sig .tc) → Buf (Elt F) ((c : Thread nD τ).loc b) := fun c b => W21 m ρ c b
/-- After item 21, kernel region 6: its arrays at what the pipeline's write-backs leave, every other buffer as entered. -/
def W22 (c : Dev nD) : Valuation τ sig (Elt F) :=
  Pipeline.withArrays spec6 c (W21 m ρ c) fun w => (dat6 (V21 m ρ) c).arrAt w cfg6.N
theorem W22_arr (c : Dev nD) (w : Fin cfg6.W) :
    W22 m ρ c (Proc.devRef .tc (Pipeline.arrRef spec6 w)) = (dat6 (V21 m ρ) c).arrAt w cfg6.N := by
  unfold W22; exact Pipeline.withArrays_arr spec6 launch6.win.arr_inj c _ _ w
theorem W22_of_ne (c : Dev nD) (b : Ref sig .tc) (hb : ∀ w, Pipeline.arrRef spec6 w ≠ b) :
    W22 m ρ c (Proc.devRef .tc b) = W21 m ρ c (Proc.devRef .tc b) := by
  unfold W22; exact Pipeline.withArrays_of_ne spec6 c _ _ b hb
abbrev V22 : (c : Dev nD) → (b : Ref sig .tc) → Buf (Elt F) ((c : Thread nD τ).loc b) := fun c b => W22 m ρ c b
theorem hF6 (c : Dev nD) (w : Fin cfg6.W) : (dat6 (V21 m ρ) c).arrAt w cfg6.N = V22 m ρ c (Pipeline.arrRef spec6 w) :=
  (W22_arr m ρ c w).symm
theorem hrest6 (c : Dev nD) : ∀ b, b ∉ Finset.univ.image (Pipeline.arrRef spec6) → V22 m ρ c b = V21 m ρ c b :=
  fun b hb => W22_of_ne m ρ c b fun w e => hb (Finset.mem_image.mpr ⟨w, Finset.mem_univ _, e⟩)
/-- Region 6 leaves every buffer but its output arrays as it found it: an input window's array is never written back. -/
theorem W22_of (c : Dev nD) (r : Ref sig .tc) (h : r ∉ ([main_v96_0, main_v96_1, main_v96_2] : List (Ref sig .tc))) :
    W22 m ρ c (Proc.devRef .tc r) = W21 m ρ c (Proc.devRef .tc r) := by
  by_cases hw : ∃ w, Pipeline.arrRef spec6 w = r
  · obtain ⟨w, rfl⟩ := hw
    rw [W22_arr]
    have hcases : ∀ w : Fin 6, w = 0 ∨ w = 1 ∨ w = 2 ∨ w = 3 ∨ w = 4 ∨ w = 5 := by decide
    rcases hcases w with rfl | rfl | rfl | rfl | rfl | rfl
    · exact ((dat6 (V21 m ρ) c).arrAt_in 0 rfl _).trans (A_eq6 _ c 0)
    · exact ((dat6 (V21 m ρ) c).arrAt_in 1 rfl _).trans (A_eq6 _ c 1)
    · exact ((dat6 (V21 m ρ) c).arrAt_in 2 rfl _).trans (A_eq6 _ c 2)
    · exact absurd (by decide) h
    · exact absurd (by decide) h
    · exact absurd (by decide) h
  · exact W22_of_ne m ρ c r (fun w e => hw ⟨w, e⟩)
/-- After item 22, the host stretch `hostOps7`. -/
abbrev W23 : Dev nD → Valuation τ sig (Elt F) := fun c => StableHlo.after hostOps7 (W22 m ρ c)
theorem W23_of (c : Dev nD) (r : Ref sig .tc) (h : r ∉ hostOps7_W) : W23 m ρ c (Proc.devRef .tc r) = W22 m ρ c (Proc.devRef .tc r) :=
  StableHlo.after_of_writes_sub hostOps7 _ hostOps7_writes h
/-- The contents region 7 is entered from, read at the TensorCore's references. -/
abbrev V23 : (c : Dev nD) → (b : Ref sig .tc) → Buf (Elt F) ((c : Thread nD τ).loc b) := fun c b => W23 m ρ c b
/-- After item 23, kernel region 7: its arrays at what the pipeline's write-backs leave, every other buffer as entered. -/
def W24 (c : Dev nD) : Valuation τ sig (Elt F) :=
  Pipeline.withArrays spec7 c (W23 m ρ c) fun w => (dat7 (V23 m ρ) c).arrAt w cfg7.N
theorem W24_arr (c : Dev nD) (w : Fin cfg7.W) :
    W24 m ρ c (Proc.devRef .tc (Pipeline.arrRef spec7 w)) = (dat7 (V23 m ρ) c).arrAt w cfg7.N := by
  unfold W24; exact Pipeline.withArrays_arr spec7 launch7.win.arr_inj c _ _ w
theorem W24_of_ne (c : Dev nD) (b : Ref sig .tc) (hb : ∀ w, Pipeline.arrRef spec7 w ≠ b) :
    W24 m ρ c (Proc.devRef .tc b) = W23 m ρ c (Proc.devRef .tc b) := by
  unfold W24; exact Pipeline.withArrays_of_ne spec7 c _ _ b hb
abbrev V24 : (c : Dev nD) → (b : Ref sig .tc) → Buf (Elt F) ((c : Thread nD τ).loc b) := fun c b => W24 m ρ c b
theorem hF7 (c : Dev nD) (w : Fin cfg7.W) : (dat7 (V23 m ρ) c).arrAt w cfg7.N = V24 m ρ c (Pipeline.arrRef spec7 w) :=
  (W24_arr m ρ c w).symm
theorem hrest7 (c : Dev nD) : ∀ b, b ∉ Finset.univ.image (Pipeline.arrRef spec7) → V24 m ρ c b = V23 m ρ c b :=
  fun b hb => W24_of_ne m ρ c b fun w e => hb (Finset.mem_image.mpr ⟨w, Finset.mem_univ _, e⟩)
/-- Region 7 leaves every buffer but its output arrays as it found it: an input window's array is never written back. -/
theorem W24_of (c : Dev nD) (r : Ref sig .tc) (h : r ∉ ([main_v103] : List (Ref sig .tc))) :
    W24 m ρ c (Proc.devRef .tc r) = W23 m ρ c (Proc.devRef .tc r) := by
  by_cases hw : ∃ w, Pipeline.arrRef spec7 w = r
  · obtain ⟨w, rfl⟩ := hw
    rw [W24_arr]
    have hcases : ∀ w : Fin 8, w = 0 ∨ w = 1 ∨ w = 2 ∨ w = 3 ∨ w = 4 ∨ w = 5 ∨ w = 6 ∨ w = 7 := by decide
    rcases hcases w with rfl | rfl | rfl | rfl | rfl | rfl | rfl | rfl
    · exact ((dat7 (V23 m ρ) c).arrAt_in 0 rfl _).trans (A_eq7 _ c 0)
    · exact ((dat7 (V23 m ρ) c).arrAt_in 1 rfl _).trans (A_eq7 _ c 1)
    · exact ((dat7 (V23 m ρ) c).arrAt_in 2 rfl _).trans (A_eq7 _ c 2)
    · exact ((dat7 (V23 m ρ) c).arrAt_in 3 rfl _).trans (A_eq7 _ c 3)
    · exact ((dat7 (V23 m ρ) c).arrAt_in 4 rfl _).trans (A_eq7 _ c 4)
    · exact ((dat7 (V23 m ρ) c).arrAt_in 5 rfl _).trans (A_eq7 _ c 5)
    · exact ((dat7 (V23 m ρ) c).arrAt_in 6 rfl _).trans (A_eq7 _ c 6)
    · exact absurd (by decide) h
  · exact W24_of_ne m ρ c r (fun w e => hw ⟨w, e⟩)
/-- After item 24, the host stretch `hostOps8`. -/
abbrev W25 : Dev nD → Valuation τ sig (Elt F) := fun c => StableHlo.after hostOps8 (W24 m ρ c)
theorem W25_of (c : Dev nD) (r : Ref sig .tc) (h : r ∉ hostOps8_W) : W25 m ρ c (Proc.devRef .tc r) = W24 m ρ c (Proc.devRef .tc r) :=
  StableHlo.after_of_writes_sub hostOps8 _ hostOps8_writes h

/-! ## The arguments end as launched -/
theorem W25_main_arg0 (c : Dev nD) : W25 m ρ c (Proc.devRef .tc main_arg0) = m ((c : Thread nD τ).loc main_arg0) :=
  (W25_of m ρ c main_arg0 (by decide)).trans <| (W24_of m ρ c main_arg0 (by decide)).trans <| (W23_of m ρ c main_arg0 (by decide)).trans <| (W22_of m ρ c main_arg0 (by decide)).trans <| (W21_of m ρ c main_arg0 (by decide)).trans <| (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans rfl
theorem W25_main_arg1 (c : Dev nD) : W25 m ρ c (Proc.devRef .tc main_arg1) = m ((c : Thread nD τ).loc main_arg1) :=
  (W25_of m ρ c main_arg1 (by decide)).trans <| (W24_of m ρ c main_arg1 (by decide)).trans <| (W23_of m ρ c main_arg1 (by decide)).trans <| (W22_of m ρ c main_arg1 (by decide)).trans <| (W21_of m ρ c main_arg1 (by decide)).trans <| (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans rfl
theorem W25_main_arg2 (c : Dev nD) : W25 m ρ c (Proc.devRef .tc main_arg2) = m ((c : Thread nD τ).loc main_arg2) :=
  (W25_of m ρ c main_arg2 (by decide)).trans <| (W24_of m ρ c main_arg2 (by decide)).trans <| (W23_of m ρ c main_arg2 (by decide)).trans <| (W22_of m ρ c main_arg2 (by decide)).trans <| (W21_of m ρ c main_arg2 (by decide)).trans <| (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans rfl
theorem W25_main_arg3 (c : Dev nD) : W25 m ρ c (Proc.devRef .tc main_arg3) = m ((c : Thread nD τ).loc main_arg3) :=
  (W25_of m ρ c main_arg3 (by decide)).trans <| (W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans rfl
theorem W25_main_arg4 (c : Dev nD) : W25 m ρ c (Proc.devRef .tc main_arg4) = m ((c : Thread nD τ).loc main_arg4) :=
  (W25_of m ρ c main_arg4 (by decide)).trans <| (W24_of m ρ c main_arg4 (by decide)).trans <| (W23_of m ρ c main_arg4 (by decide)).trans <| (W22_of m ρ c main_arg4 (by decide)).trans <| (W21_of m ρ c main_arg4 (by decide)).trans <| (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans rfl
theorem W25_main_arg5 (c : Dev nD) : W25 m ρ c (Proc.devRef .tc main_arg5) = m ((c : Thread nD τ).loc main_arg5) :=
  (W25_of m ρ c main_arg5 (by decide)).trans <| (W24_of m ρ c main_arg5 (by decide)).trans <| (W23_of m ρ c main_arg5 (by decide)).trans <| (W22_of m ρ c main_arg5 (by decide)).trans <| (W21_of m ρ c main_arg5 (by decide)).trans <| (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans rfl
theorem W25_main_arg6 (c : Dev nD) : W25 m ρ c (Proc.devRef .tc main_arg6) = m ((c : Thread nD τ).loc main_arg6) :=
  (W25_of m ρ c main_arg6 (by decide)).trans <| (W24_of m ρ c main_arg6 (by decide)).trans <| (W23_of m ρ c main_arg6 (by decide)).trans <| (W22_of m ρ c main_arg6 (by decide)).trans <| (W21_of m ρ c main_arg6 (by decide)).trans <| (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans rfl
theorem W25_main_arg7 (c : Dev nD) : W25 m ρ c (Proc.devRef .tc main_arg7) = m ((c : Thread nD τ).loc main_arg7) :=
  (W25_of m ρ c main_arg7 (by decide)).trans <| (W24_of m ρ c main_arg7 (by decide)).trans <| (W23_of m ρ c main_arg7 (by decide)).trans <| (W22_of m ρ c main_arg7 (by decide)).trans <| (W21_of m ρ c main_arg7 (by decide)).trans <| (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans rfl
theorem W25_main_arg8 (c : Dev nD) : W25 m ρ c (Proc.devRef .tc main_arg8) = m ((c : Thread nD τ).loc main_arg8) :=
  (W25_of m ρ c main_arg8 (by decide)).trans <| (W24_of m ρ c main_arg8 (by decide)).trans <| (W23_of m ρ c main_arg8 (by decide)).trans <| (W22_of m ρ c main_arg8 (by decide)).trans <| (W21_of m ρ c main_arg8 (by decide)).trans <| (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans rfl
theorem W25_main_arg9 (c : Dev nD) : W25 m ρ c (Proc.devRef .tc main_arg9) = m ((c : Thread nD τ).loc main_arg9) :=
  (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem W25_main_arg10 (c : Dev nD) : W25 m ρ c (Proc.devRef .tc main_arg10) = m ((c : Thread nD τ).loc main_arg10) :=
  (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl
theorem W25_main_arg11 (c : Dev nD) : W25 m ρ c (Proc.devRef .tc main_arg11) = m ((c : Thread nD τ).loc main_arg11) :=
  (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans rfl
theorem W25_main_arg12 (c : Dev nD) : W25 m ρ c (Proc.devRef .tc main_arg12) = m ((c : Thread nD τ).loc main_arg12) :=
  (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans rfl
theorem W25_main_arg13 (c : Dev nD) : W25 m ρ c (Proc.devRef .tc main_arg13) = m ((c : Thread nD τ).loc main_arg13) :=
  (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans rfl
theorem W25_main_arg14 (c : Dev nD) : W25 m ρ c (Proc.devRef .tc main_arg14) = m ((c : Thread nD τ).loc main_arg14) :=
  (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans rfl
theorem W25_main_arg15 (c : Dev nD) : W25 m ρ c (Proc.devRef .tc main_arg15) = m ((c : Thread nD τ).loc main_arg15) :=
  (W25_of m ρ c main_arg15 (by decide)).trans <| (W24_of m ρ c main_arg15 (by decide)).trans <| (W23_of m ρ c main_arg15 (by decide)).trans <| (W22_of m ρ c main_arg15 (by decide)).trans <| (W21_of m ρ c main_arg15 (by decide)).trans <| (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans rfl
theorem W25_main_arg16 (c : Dev nD) : W25 m ρ c (Proc.devRef .tc main_arg16) = m ((c : Thread nD τ).loc main_arg16) :=
  (W25_of m ρ c main_arg16 (by decide)).trans <| (W24_of m ρ c main_arg16 (by decide)).trans <| (W23_of m ρ c main_arg16 (by decide)).trans <| (W22_of m ρ c main_arg16 (by decide)).trans <| (W21_of m ρ c main_arg16 (by decide)).trans <| (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans rfl
theorem W25_main_arg17 (c : Dev nD) : W25 m ρ c (Proc.devRef .tc main_arg17) = m ((c : Thread nD τ).loc main_arg17) :=
  (W25_of m ρ c main_arg17 (by decide)).trans <| (W24_of m ρ c main_arg17 (by decide)).trans <| (W23_of m ρ c main_arg17 (by decide)).trans <| (W22_of m ρ c main_arg17 (by decide)).trans <| (W21_of m ρ c main_arg17 (by decide)).trans <| (W20_of m ρ c main_arg17 (by decide)).trans <| (W19_of m ρ c main_arg17 (by decide)).trans <| (W18_of m ρ c main_arg17 (by decide)).trans <| (W17_of m ρ c main_arg17 (by decide)).trans <| (W16_of m ρ c main_arg17 (by decide)).trans <| (W15_of m ρ c main_arg17 (by decide)).trans <| (W14_of m ρ c main_arg17 (by decide)).trans <| (W13_of m ρ c main_arg17 (by decide)).trans <| (W12_of m ρ c main_arg17 (by decide)).trans <| (W11_of m ρ c main_arg17 (by decide)).trans <| (W10_of m ρ c main_arg17 (by decide)).trans <| (W9_of m ρ c main_arg17 (by decide)).trans <| (W8_of m ρ c main_arg17 (by decide)).trans <| (W7_of m ρ c main_arg17 (by decide)).trans <| (W6_of m ρ c main_arg17 (by decide)).trans <| (W5_of m ρ c main_arg17 (by decide)).trans <| (W4_of m ρ c main_arg17 (by decide)).trans <| (W3_of m ρ c main_arg17 (by decide)).trans <| (W2_of m ρ c main_arg17 (by decide)).trans <| (W1_of m ρ c main_arg17 (by decide)).trans rfl
theorem W25_main_arg18 (c : Dev nD) : W25 m ρ c (Proc.devRef .tc main_arg18) = m ((c : Thread nD τ).loc main_arg18) :=
  (W25_of m ρ c main_arg18 (by decide)).trans <| (W24_of m ρ c main_arg18 (by decide)).trans <| (W23_of m ρ c main_arg18 (by decide)).trans <| (W22_of m ρ c main_arg18 (by decide)).trans <| (W21_of m ρ c main_arg18 (by decide)).trans <| (W20_of m ρ c main_arg18 (by decide)).trans <| (W19_of m ρ c main_arg18 (by decide)).trans <| (W18_of m ρ c main_arg18 (by decide)).trans <| (W17_of m ρ c main_arg18 (by decide)).trans <| (W16_of m ρ c main_arg18 (by decide)).trans <| (W15_of m ρ c main_arg18 (by decide)).trans <| (W14_of m ρ c main_arg18 (by decide)).trans <| (W13_of m ρ c main_arg18 (by decide)).trans <| (W12_of m ρ c main_arg18 (by decide)).trans <| (W11_of m ρ c main_arg18 (by decide)).trans <| (W10_of m ρ c main_arg18 (by decide)).trans <| (W9_of m ρ c main_arg18 (by decide)).trans <| (W8_of m ρ c main_arg18 (by decide)).trans <| (W7_of m ρ c main_arg18 (by decide)).trans <| (W6_of m ρ c main_arg18 (by decide)).trans <| (W5_of m ρ c main_arg18 (by decide)).trans <| (W4_of m ρ c main_arg18 (by decide)).trans <| (W3_of m ρ c main_arg18 (by decide)).trans <| (W2_of m ρ c main_arg18 (by decide)).trans <| (W1_of m ρ c main_arg18 (by decide)).trans rfl
theorem W25_main_arg19 (c : Dev nD) : W25 m ρ c (Proc.devRef .tc main_arg19) = m ((c : Thread nD τ).loc main_arg19) :=
  (W25_of m ρ c main_arg19 (by decide)).trans <| (W24_of m ρ c main_arg19 (by decide)).trans <| (W23_of m ρ c main_arg19 (by decide)).trans <| (W22_of m ρ c main_arg19 (by decide)).trans <| (W21_of m ρ c main_arg19 (by decide)).trans <| (W20_of m ρ c main_arg19 (by decide)).trans <| (W19_of m ρ c main_arg19 (by decide)).trans <| (W18_of m ρ c main_arg19 (by decide)).trans <| (W17_of m ρ c main_arg19 (by decide)).trans <| (W16_of m ρ c main_arg19 (by decide)).trans <| (W15_of m ρ c main_arg19 (by decide)).trans <| (W14_of m ρ c main_arg19 (by decide)).trans <| (W13_of m ρ c main_arg19 (by decide)).trans <| (W12_of m ρ c main_arg19 (by decide)).trans <| (W11_of m ρ c main_arg19 (by decide)).trans <| (W10_of m ρ c main_arg19 (by decide)).trans <| (W9_of m ρ c main_arg19 (by decide)).trans <| (W8_of m ρ c main_arg19 (by decide)).trans <| (W7_of m ρ c main_arg19 (by decide)).trans <| (W6_of m ρ c main_arg19 (by decide)).trans <| (W5_of m ρ c main_arg19 (by decide)).trans <| (W4_of m ρ c main_arg19 (by decide)).trans <| (W3_of m ρ c main_arg19 (by decide)).trans <| (W2_of m ρ c main_arg19 (by decide)).trans <| (W1_of m ρ c main_arg19 (by decide)).trans rfl
theorem W25_main_arg20 (c : Dev nD) : W25 m ρ c (Proc.devRef .tc main_arg20) = m ((c : Thread nD τ).loc main_arg20) :=
  (W25_of m ρ c main_arg20 (by decide)).trans <| (W24_of m ρ c main_arg20 (by decide)).trans <| (W23_of m ρ c main_arg20 (by decide)).trans <| (W22_of m ρ c main_arg20 (by decide)).trans <| (W21_of m ρ c main_arg20 (by decide)).trans <| (W20_of m ρ c main_arg20 (by decide)).trans <| (W19_of m ρ c main_arg20 (by decide)).trans <| (W18_of m ρ c main_arg20 (by decide)).trans <| (W17_of m ρ c main_arg20 (by decide)).trans <| (W16_of m ρ c main_arg20 (by decide)).trans <| (W15_of m ρ c main_arg20 (by decide)).trans <| (W14_of m ρ c main_arg20 (by decide)).trans <| (W13_of m ρ c main_arg20 (by decide)).trans <| (W12_of m ρ c main_arg20 (by decide)).trans <| (W11_of m ρ c main_arg20 (by decide)).trans <| (W10_of m ρ c main_arg20 (by decide)).trans <| (W9_of m ρ c main_arg20 (by decide)).trans <| (W8_of m ρ c main_arg20 (by decide)).trans <| (W7_of m ρ c main_arg20 (by decide)).trans <| (W6_of m ρ c main_arg20 (by decide)).trans <| (W5_of m ρ c main_arg20 (by decide)).trans <| (W4_of m ρ c main_arg20 (by decide)).trans <| (W3_of m ρ c main_arg20 (by decide)).trans <| (W2_of m ρ c main_arg20 (by decide)).trans <| (W1_of m ρ c main_arg20 (by decide)).trans rfl
theorem W25_main_arg21 (c : Dev nD) : W25 m ρ c (Proc.devRef .tc main_arg21) = m ((c : Thread nD τ).loc main_arg21) :=
  (W25_of m ρ c main_arg21 (by decide)).trans <| (W24_of m ρ c main_arg21 (by decide)).trans <| (W23_of m ρ c main_arg21 (by decide)).trans <| (W22_of m ρ c main_arg21 (by decide)).trans <| (W21_of m ρ c main_arg21 (by decide)).trans <| (W20_of m ρ c main_arg21 (by decide)).trans <| (W19_of m ρ c main_arg21 (by decide)).trans <| (W18_of m ρ c main_arg21 (by decide)).trans <| (W17_of m ρ c main_arg21 (by decide)).trans <| (W16_of m ρ c main_arg21 (by decide)).trans <| (W15_of m ρ c main_arg21 (by decide)).trans <| (W14_of m ρ c main_arg21 (by decide)).trans <| (W13_of m ρ c main_arg21 (by decide)).trans <| (W12_of m ρ c main_arg21 (by decide)).trans <| (W11_of m ρ c main_arg21 (by decide)).trans <| (W10_of m ρ c main_arg21 (by decide)).trans <| (W9_of m ρ c main_arg21 (by decide)).trans <| (W8_of m ρ c main_arg21 (by decide)).trans <| (W7_of m ρ c main_arg21 (by decide)).trans <| (W6_of m ρ c main_arg21 (by decide)).trans <| (W5_of m ρ c main_arg21 (by decide)).trans <| (W4_of m ρ c main_arg21 (by decide)).trans <| (W3_of m ρ c main_arg21 (by decide)).trans <| (W2_of m ρ c main_arg21 (by decide)).trans <| (W1_of m ρ c main_arg21 (by decide)).trans rfl
theorem W25_main_arg22 (c : Dev nD) : W25 m ρ c (Proc.devRef .tc main_arg22) = m ((c : Thread nD τ).loc main_arg22) :=
  (W25_of m ρ c main_arg22 (by decide)).trans <| (W24_of m ρ c main_arg22 (by decide)).trans <| (W23_of m ρ c main_arg22 (by decide)).trans <| (W22_of m ρ c main_arg22 (by decide)).trans <| (W21_of m ρ c main_arg22 (by decide)).trans <| (W20_of m ρ c main_arg22 (by decide)).trans <| (W19_of m ρ c main_arg22 (by decide)).trans <| (W18_of m ρ c main_arg22 (by decide)).trans <| (W17_of m ρ c main_arg22 (by decide)).trans <| (W16_of m ρ c main_arg22 (by decide)).trans <| (W15_of m ρ c main_arg22 (by decide)).trans <| (W14_of m ρ c main_arg22 (by decide)).trans <| (W13_of m ρ c main_arg22 (by decide)).trans <| (W12_of m ρ c main_arg22 (by decide)).trans <| (W11_of m ρ c main_arg22 (by decide)).trans <| (W10_of m ρ c main_arg22 (by decide)).trans <| (W9_of m ρ c main_arg22 (by decide)).trans <| (W8_of m ρ c main_arg22 (by decide)).trans <| (W7_of m ρ c main_arg22 (by decide)).trans <| (W6_of m ρ c main_arg22 (by decide)).trans <| (W5_of m ρ c main_arg22 (by decide)).trans <| (W4_of m ρ c main_arg22 (by decide)).trans <| (W3_of m ρ c main_arg22 (by decide)).trans <| (W2_of m ρ c main_arg22 (by decide)).trans <| (W1_of m ρ c main_arg22 (by decide)).trans rfl
theorem W25_main_arg23 (c : Dev nD) : W25 m ρ c (Proc.devRef .tc main_arg23) = m ((c : Thread nD τ).loc main_arg23) :=
  (W25_of m ρ c main_arg23 (by decide)).trans <| (W24_of m ρ c main_arg23 (by decide)).trans <| (W23_of m ρ c main_arg23 (by decide)).trans <| (W22_of m ρ c main_arg23 (by decide)).trans <| (W21_of m ρ c main_arg23 (by decide)).trans <| (W20_of m ρ c main_arg23 (by decide)).trans <| (W19_of m ρ c main_arg23 (by decide)).trans <| (W18_of m ρ c main_arg23 (by decide)).trans <| (W17_of m ρ c main_arg23 (by decide)).trans <| (W16_of m ρ c main_arg23 (by decide)).trans <| (W15_of m ρ c main_arg23 (by decide)).trans <| (W14_of m ρ c main_arg23 (by decide)).trans <| (W13_of m ρ c main_arg23 (by decide)).trans <| (W12_of m ρ c main_arg23 (by decide)).trans <| (W11_of m ρ c main_arg23 (by decide)).trans <| (W10_of m ρ c main_arg23 (by decide)).trans <| (W9_of m ρ c main_arg23 (by decide)).trans <| (W8_of m ρ c main_arg23 (by decide)).trans <| (W7_of m ρ c main_arg23 (by decide)).trans <| (W6_of m ρ c main_arg23 (by decide)).trans <| (W5_of m ρ c main_arg23 (by decide)).trans <| (W4_of m ρ c main_arg23 (by decide)).trans <| (W3_of m ρ c main_arg23 (by decide)).trans <| (W2_of m ρ c main_arg23 (by decide)).trans <| (W1_of m ρ c main_arg23 (by decide)).trans rfl
theorem W25_main_arg24 (c : Dev nD) : W25 m ρ c (Proc.devRef .tc main_arg24) = m ((c : Thread nD τ).loc main_arg24) :=
  (W25_of m ρ c main_arg24 (by decide)).trans <| (W24_of m ρ c main_arg24 (by decide)).trans <| (W23_of m ρ c main_arg24 (by decide)).trans <| (W22_of m ρ c main_arg24 (by decide)).trans <| (W21_of m ρ c main_arg24 (by decide)).trans <| (W20_of m ρ c main_arg24 (by decide)).trans <| (W19_of m ρ c main_arg24 (by decide)).trans <| (W18_of m ρ c main_arg24 (by decide)).trans <| (W17_of m ρ c main_arg24 (by decide)).trans <| (W16_of m ρ c main_arg24 (by decide)).trans <| (W15_of m ρ c main_arg24 (by decide)).trans <| (W14_of m ρ c main_arg24 (by decide)).trans <| (W13_of m ρ c main_arg24 (by decide)).trans <| (W12_of m ρ c main_arg24 (by decide)).trans <| (W11_of m ρ c main_arg24 (by decide)).trans <| (W10_of m ρ c main_arg24 (by decide)).trans <| (W9_of m ρ c main_arg24 (by decide)).trans <| (W8_of m ρ c main_arg24 (by decide)).trans <| (W7_of m ρ c main_arg24 (by decide)).trans <| (W6_of m ρ c main_arg24 (by decide)).trans <| (W5_of m ρ c main_arg24 (by decide)).trans <| (W4_of m ρ c main_arg24 (by decide)).trans <| (W3_of m ρ c main_arg24 (by decide)).trans <| (W2_of m ρ c main_arg24 (by decide)).trans <| (W1_of m ρ c main_arg24 (by decide)).trans rfl
theorem W25_main_arg25 (c : Dev nD) : W25 m ρ c (Proc.devRef .tc main_arg25) = m ((c : Thread nD τ).loc main_arg25) :=
  (W25_of m ρ c main_arg25 (by decide)).trans <| (W24_of m ρ c main_arg25 (by decide)).trans <| (W23_of m ρ c main_arg25 (by decide)).trans <| (W22_of m ρ c main_arg25 (by decide)).trans <| (W21_of m ρ c main_arg25 (by decide)).trans <| (W20_of m ρ c main_arg25 (by decide)).trans <| (W19_of m ρ c main_arg25 (by decide)).trans <| (W18_of m ρ c main_arg25 (by decide)).trans <| (W17_of m ρ c main_arg25 (by decide)).trans <| (W16_of m ρ c main_arg25 (by decide)).trans <| (W15_of m ρ c main_arg25 (by decide)).trans <| (W14_of m ρ c main_arg25 (by decide)).trans <| (W13_of m ρ c main_arg25 (by decide)).trans <| (W12_of m ρ c main_arg25 (by decide)).trans <| (W11_of m ρ c main_arg25 (by decide)).trans <| (W10_of m ρ c main_arg25 (by decide)).trans <| (W9_of m ρ c main_arg25 (by decide)).trans <| (W8_of m ρ c main_arg25 (by decide)).trans <| (W7_of m ρ c main_arg25 (by decide)).trans <| (W6_of m ρ c main_arg25 (by decide)).trans <| (W5_of m ρ c main_arg25 (by decide)).trans <| (W4_of m ρ c main_arg25 (by decide)).trans <| (W3_of m ρ c main_arg25 (by decide)).trans <| (W2_of m ρ c main_arg25 (by decide)).trans <| (W1_of m ρ c main_arg25 (by decide)).trans rfl
theorem W25_main_arg26 (c : Dev nD) : W25 m ρ c (Proc.devRef .tc main_arg26) = m ((c : Thread nD τ).loc main_arg26) :=
  (W25_of m ρ c main_arg26 (by decide)).trans <| (W24_of m ρ c main_arg26 (by decide)).trans <| (W23_of m ρ c main_arg26 (by decide)).trans <| (W22_of m ρ c main_arg26 (by decide)).trans <| (W21_of m ρ c main_arg26 (by decide)).trans <| (W20_of m ρ c main_arg26 (by decide)).trans <| (W19_of m ρ c main_arg26 (by decide)).trans <| (W18_of m ρ c main_arg26 (by decide)).trans <| (W17_of m ρ c main_arg26 (by decide)).trans <| (W16_of m ρ c main_arg26 (by decide)).trans <| (W15_of m ρ c main_arg26 (by decide)).trans <| (W14_of m ρ c main_arg26 (by decide)).trans <| (W13_of m ρ c main_arg26 (by decide)).trans <| (W12_of m ρ c main_arg26 (by decide)).trans <| (W11_of m ρ c main_arg26 (by decide)).trans <| (W10_of m ρ c main_arg26 (by decide)).trans <| (W9_of m ρ c main_arg26 (by decide)).trans <| (W8_of m ρ c main_arg26 (by decide)).trans <| (W7_of m ρ c main_arg26 (by decide)).trans <| (W6_of m ρ c main_arg26 (by decide)).trans <| (W5_of m ρ c main_arg26 (by decide)).trans <| (W4_of m ρ c main_arg26 (by decide)).trans <| (W3_of m ρ c main_arg26 (by decide)).trans <| (W2_of m ρ c main_arg26 (by decide)).trans <| (W1_of m ρ c main_arg26 (by decide)).trans rfl
theorem W25_main_arg27 (c : Dev nD) : W25 m ρ c (Proc.devRef .tc main_arg27) = m ((c : Thread nD τ).loc main_arg27) :=
  (W25_of m ρ c main_arg27 (by decide)).trans <| (W24_of m ρ c main_arg27 (by decide)).trans <| (W23_of m ρ c main_arg27 (by decide)).trans <| (W22_of m ρ c main_arg27 (by decide)).trans <| (W21_of m ρ c main_arg27 (by decide)).trans <| (W20_of m ρ c main_arg27 (by decide)).trans <| (W19_of m ρ c main_arg27 (by decide)).trans <| (W18_of m ρ c main_arg27 (by decide)).trans <| (W17_of m ρ c main_arg27 (by decide)).trans <| (W16_of m ρ c main_arg27 (by decide)).trans <| (W15_of m ρ c main_arg27 (by decide)).trans <| (W14_of m ρ c main_arg27 (by decide)).trans <| (W13_of m ρ c main_arg27 (by decide)).trans <| (W12_of m ρ c main_arg27 (by decide)).trans <| (W11_of m ρ c main_arg27 (by decide)).trans <| (W10_of m ρ c main_arg27 (by decide)).trans <| (W9_of m ρ c main_arg27 (by decide)).trans <| (W8_of m ρ c main_arg27 (by decide)).trans <| (W7_of m ρ c main_arg27 (by decide)).trans <| (W6_of m ρ c main_arg27 (by decide)).trans <| (W5_of m ρ c main_arg27 (by decide)).trans <| (W4_of m ρ c main_arg27 (by decide)).trans <| (W3_of m ρ c main_arg27 (by decide)).trans <| (W2_of m ρ c main_arg27 (by decide)).trans <| (W1_of m ρ c main_arg27 (by decide)).trans rfl

/-! ## The proof data family and the thread state -/

/-- The prefetched tables' admissible contents: no pipeline has a table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V9 m ρ) c
  | ⟨3, _⟩ => fun c => dat3 (V11 m ρ) c
  | ⟨4, _⟩ => fun c => dat4 (V15 m ρ) c
  | ⟨5, _⟩ => fun c => dat5 (V17 m ρ) c
  | ⟨6, _⟩ => fun c => dat6 (V21 m ρ) c
  | ⟨7, _⟩ => fun c => dat7 (V23 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W25 m ρ c) ∗ ∃ r, prngReg c r)

/-! ## The regions as segments -/

set_option backward.isDefEq.respectTransparency.types false in
/-- Region 0 over the thread state: entered from every unscoped buffer at `W3`, left at `W4`. Its arrays are split out of
    the unscoped buffers and put back at the exit contents; the generator register goes into the pipeline's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (iprop(Pipeline.scopedRest (Ix := Unit) (Name := ℕ) (U := UR sig nD τ) (Lvl := ℕ) (Val := Elt F) spec0 c ∗ ∃ r, prngReg c r) : sProp 𝕄) ⊢ (dat0 (V3 m ρ) c).Φ 0 := hin0 (V3 m ρ) c
    rw [show (pdats m ρ 0 c).Φ 0 = (dat0 (V3 m ρ) c).Φ 0 from rfl]
    iintro ⟨Hp, -, Hr⟩
    iapply h2
    isplitl [Hr]; · iexact Hr
    iexact Hp
  hout c := by
    have h2 : (dat0 (V3 m ρ) c).Φ (Fin.last cfg0.N) ⊢ (iprop(Pipeline.scopedRest (Ix := Unit) (Name := ℕ) (U := UR sig nD τ) (Lvl := ℕ) (Val := Elt F) spec0 c ∗ ∃ r, prngReg c r) : sProp 𝕄) := hout0 (V3 m ρ) c
    rw [Pipeline.ownSems0_none, show (pdats m ρ 0 c).Φ (Fin.last _) = (dat0 (V3 m ρ) c).Φ (Fin.last cfg0.N) from rfl]
    have h3 : (iprop(Pipeline.scopedRest (Ix := Unit) (Name := ℕ) (U := UR sig nD τ) (Lvl := ℕ) (Val := Elt F) spec0 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec0 c) := by
      iintro ⟨Hr, Hp⟩
      isplitl [Hp]; · iexact Hp
      isplitr; · iempintro
      iexact Hr
    exact h2.trans h3
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out of
    the unscoped buffers and put back at the exit contents; the generator register goes into the pipeline's invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. Its arrays are split out of
    the unscoped buffers and put back at the exit contents; the generator register goes into the pipeline's invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (iprop(Pipeline.scopedRest (Ix := Unit) (Name := ℕ) (U := UR sig nD τ) (Lvl := ℕ) (Val := Elt F) spec2 c ∗ ∃ r, prngReg c r) : sProp 𝕄) ⊢ (dat2 (V9 m ρ) c).Φ 0 := hin2 (V9 m ρ) c
    rw [show (pdats m ρ 2 c).Φ 0 = (dat2 (V9 m ρ) c).Φ 0 from rfl]
    iintro ⟨Hp, -, Hr⟩
    iapply h2
    isplitl [Hr]; · iexact Hr
    iexact Hp
  hout c := by
    have h2 : (dat2 (V9 m ρ) c).Φ (Fin.last cfg2.N) ⊢ (iprop(Pipeline.scopedRest (Ix := Unit) (Name := ℕ) (U := UR sig nD τ) (Lvl := ℕ) (Val := Elt F) spec2 c ∗ ∃ r, prngReg c r) : sProp 𝕄) := hout2 (V9 m ρ) c
    rw [Pipeline.ownSems0_none, show (pdats m ρ 2 c).Φ (Fin.last _) = (dat2 (V9 m ρ) c).Φ (Fin.last cfg2.N) from rfl]
    have h3 : (iprop(Pipeline.scopedRest (Ix := Unit) (Name := ℕ) (U := UR sig nD τ) (Lvl := ℕ) (Val := Elt F) spec2 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec2 c) := by
      iintro ⟨Hr, Hp⟩
      isplitl [Hp]; · iexact Hp
      isplitr; · iempintro
      iexact Hr
    exact h2.trans h3
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Its arrays are split out of
    the unscoped buffers and put back at the exit contents; the generator register goes into the pipeline's invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W15`, left at `W16`. Its arrays are split out of
    the unscoped buffers and put back at the exit contents; the generator register goes into the pipeline's invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (iprop(Pipeline.scopedRest (Ix := Unit) (Name := ℕ) (U := UR sig nD τ) (Lvl := ℕ) (Val := Elt F) spec4 c ∗ ∃ r, prngReg c r) : sProp 𝕄) ⊢ (dat4 (V15 m ρ) c).Φ 0 := hin4 (V15 m ρ) c
    rw [show (pdats m ρ 4 c).Φ 0 = (dat4 (V15 m ρ) c).Φ 0 from rfl]
    iintro ⟨Hp, -, Hr⟩
    iapply h2
    isplitl [Hr]; · iexact Hr
    iexact Hp
  hout c := by
    have h2 : (dat4 (V15 m ρ) c).Φ (Fin.last cfg4.N) ⊢ (iprop(Pipeline.scopedRest (Ix := Unit) (Name := ℕ) (U := UR sig nD τ) (Lvl := ℕ) (Val := Elt F) spec4 c ∗ ∃ r, prngReg c r) : sProp 𝕄) := hout4 (V15 m ρ) c
    rw [Pipeline.ownSems0_none, show (pdats m ρ 4 c).Φ (Fin.last _) = (dat4 (V15 m ρ) c).Φ (Fin.last cfg4.N) from rfl]
    have h3 : (iprop(Pipeline.scopedRest (Ix := Unit) (Name := ℕ) (U := UR sig nD τ) (Lvl := ℕ) (Val := Elt F) spec4 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec4 c) := by
      iintro ⟨Hr, Hp⟩
      isplitl [Hp]; · iexact Hp
      isplitr; · iempintro
      iexact Hr
    exact h2.trans h3
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (V16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W17`, left at `W18`. Its arrays are split out of
    the unscoped buffers and put back at the exit contents; the generator register goes into the pipeline's invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (V18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W21`, left at `W22`. Its arrays are split out of
    the unscoped buffers and put back at the exit contents; the generator register goes into the pipeline's invariant and comes
    back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V21 m ρ) c).loose
  hwaits := Pipeline.hwaits_of_owed_zero _ _ _ _ L lv 6 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec6 c (V21 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (iprop(Pipeline.scopedRest (Ix := Unit) (Name := ℕ) (U := UR sig nD τ) (Lvl := ℕ) (Val := Elt F) spec6 c ∗ ∃ r, prngReg c r) : sProp 𝕄) ⊢ (dat6 (V21 m ρ) c).Φ 0 := hin6 (V21 m ρ) c
    rw [show (pdats m ρ 6 c).Φ 0 = (dat6 (V21 m ρ) c).Φ 0 from rfl]
    iintro ⟨Hp, -, Hr⟩
    iapply h2
    isplitl [Hr]; · iexact Hr
    iexact Hp
  hout c := by
    have h2 : (dat6 (V21 m ρ) c).Φ (Fin.last cfg6.N) ⊢ (iprop(Pipeline.scopedRest (Ix := Unit) (Name := ℕ) (U := UR sig nD τ) (Lvl := ℕ) (Val := Elt F) spec6 c ∗ ∃ r, prngReg c r) : sProp 𝕄) := hout6 (V21 m ρ) c
    rw [Pipeline.ownSems0_none, show (pdats m ρ 6 c).Φ (Fin.last _) = (dat6 (V21 m ρ) c).Φ (Fin.last cfg6.N) from rfl]
    have h3 : (iprop(Pipeline.scopedRest (Ix := Unit) (Name := ℕ) (U := UR sig nD τ) (Lvl := ℕ) (Val := Elt F) spec6 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec6 c) := by
      iintro ⟨Hr, Hp⟩
      isplitl [Hp]; · iexact Hp
      isplitr; · iempintro
      iexact Hr
    exact h2.trans h3
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V21 m ρ c) (V22 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W23`, left at `W24`. Its arrays are split out of
    the unscoped buffers and put back at the exit contents; the generator register goes into the pipeline's invariant and comes
    back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V23 m ρ) c).loose
  hwaits := Pipeline.hwaits_of_owed_zero _ _ _ _ L lv 7 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec7 c (V23 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V23 m ρ c) (V24 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 25 items in order: a host segment per stretch from its boundary's contents, a region per kernel launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .host (hseg hostOps4_1 hostOps4_1_sub hostOps4_1_fresh (W13 m ρ)),
    .host (hseg hostOps4_2 hostOps4_2_sub hostOps4_2_fresh (W14 m ρ)),
    .region (reg4 m ρ),
    .host (hseg hostOps5 hostOps5_sub hostOps5_fresh (W16 m ρ)),
    .region (reg5 m ρ),
    .host (hseg hostOps6 hostOps6_sub hostOps6_fresh (W18 m ρ)),
    .host (hseg hostOps6_1 hostOps6_1_sub hostOps6_1_fresh (W19 m ρ)),
    .host (hseg hostOps6_2 hostOps6_2_sub hostOps6_2_fresh (W20 m ρ)),
    .region (reg6 m ρ),
    .host (hseg hostOps7 hostOps7_sub hostOps7_fresh (W22 m ρ)),
    .region (reg7 m ρ),
    .host (hseg hostOps8 hostOps8_sub hostOps8_fresh (W24 m ρ)) ]

/-- @main is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the TensorCores
    terminates, nothing faulting, and every final state holds every unscoped buffer at the last boundary's contents `W25`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W25 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W25 m ρ c) ∗ R c)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨(h c _ (mem_uc main_arg0 (by decide))).trans (W25_main_arg0 m ρ c),
      (h c _ (mem_uc main_arg1 (by decide))).trans (W25_main_arg1 m ρ c),
      (h c _ (mem_uc main_arg2 (by decide))).trans (W25_main_arg2 m ρ c),
      (h c _ (mem_uc main_arg3 (by decide))).trans (W25_main_arg3 m ρ c),
      (h c _ (mem_uc main_arg4 (by decide))).trans (W25_main_arg4 m ρ c),
      (h c _ (mem_uc main_arg5 (by decide))).trans (W25_main_arg5 m ρ c),
      (h c _ (mem_uc main_arg6 (by decide))).trans (W25_main_arg6 m ρ c),
      (h c _ (mem_uc main_arg7 (by decide))).trans (W25_main_arg7 m ρ c),
      (h c _ (mem_uc main_arg8 (by decide))).trans (W25_main_arg8 m ρ c),
      (h c _ (mem_uc main_arg9 (by decide))).trans (W25_main_arg9 m ρ c),
      (h c _ (mem_uc main_arg10 (by decide))).trans (W25_main_arg10 m ρ c),
      (h c _ (mem_uc main_arg11 (by decide))).trans (W25_main_arg11 m ρ c),
      (h c _ (mem_uc main_arg12 (by decide))).trans (W25_main_arg12 m ρ c),
      (h c _ (mem_uc main_arg13 (by decide))).trans (W25_main_arg13 m ρ c),
      (h c _ (mem_uc main_arg14 (by decide))).trans (W25_main_arg14 m ρ c),
      (h c _ (mem_uc main_arg15 (by decide))).trans (W25_main_arg15 m ρ c),
      (h c _ (mem_uc main_arg16 (by decide))).trans (W25_main_arg16 m ρ c),
      (h c _ (mem_uc main_arg17 (by decide))).trans (W25_main_arg17 m ρ c),
      (h c _ (mem_uc main_arg18 (by decide))).trans (W25_main_arg18 m ρ c),
      (h c _ (mem_uc main_arg19 (by decide))).trans (W25_main_arg19 m ρ c),
      (h c _ (mem_uc main_arg20 (by decide))).trans (W25_main_arg20 m ρ c),
      (h c _ (mem_uc main_arg21 (by decide))).trans (W25_main_arg21 m ρ c),
      (h c _ (mem_uc main_arg22 (by decide))).trans (W25_main_arg22 m ρ c),
      (h c _ (mem_uc main_arg23 (by decide))).trans (W25_main_arg23 m ρ c),
      (h c _ (mem_uc main_arg24 (by decide))).trans (W25_main_arg24 m ρ c),
      (h c _ (mem_uc main_arg25 (by decide))).trans (W25_main_arg25 m ρ c),
      (h c _ (mem_uc main_arg26 (by decide))).trans (W25_main_arg26 m ρ c),
      (h c _ (mem_uc main_arg27 (by decide))).trans (W25_main_arg27 m ρ c)⟩)
    (run_all m ρ)

end Cert.Kernel.Hand

end
-- ==== Proof.KICommon.lean ====
/-
  Small facts shared by the modules that run the kernel bodies: the zero offset of a whole-buffer rectangle, a load of a
  whole buffer after writes whose last one covered it, and that a buffer left by writes reading back as `v` is owned at `v`.
-/

import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl

/-- A load of the whole buffer after a list of writes whose last one covered the whole buffer reads that write's payload. -/
theorem readCov_cons_unit_zero {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- A buffer left by writes whose read-back is `v` is owned at `v`. -/
theorem owns_of_writes {s : Shape} {e : EltTy} (c : Dev nD) (arg : Memref sig .tc .vmem s e) (L : List (View.Piece (Elt F) s e)) (v : Vec F s e)
    (hread : ∀ f, arg.view.read (Elt F) (arg.view.writes (Elt F) f L) = v) :
    (iprop(∃ f, arg.view.loc (c : Thread nD τ) ↦[arg.view.set]{fullShare} arg.view.writes (Elt F) f L) : sProp 𝕄)
      ⊢ owns (c : Thread nD τ) arg fullShare v := by
  unfold owns
  iintro ⟨%f, H⟩
  iexists _; isplitr; · ipureintro; exact hread f
  iexact H

end Cert.KernelIdeal.Hand

end
-- ==== Proof.KIRun0.lean ====
/-
  The first kernel of layer 0 (a row tile's dense block h = x·W1 + b1, stored, and the running column sums of h and of h·h
  kept in two scratch rows) run once on whole staging buffers, in its two cases: at the first grid point both scratch rows
  are reset to zero before the tile's sums are added; at every later point they come in holding what the point before left.
  Each run ends with every buffer the body stored into written by a list of pieces the run itself determines.
-/
import proofs.«138093_j17583596110490_1_alg».proof.Proof.KICommon
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first grid point's test, as the body computes it from the grid coordinate. -/
abbrev cond0 (i : grid0.Coords) : Prop := (Scalar.cmpi .ne (Scalar.extui (Scalar.cmpi .eq (BitVec.ofNat 32 (i 0).val) 0#32)) 0#32) = 1#1

set_option maxHeartbeats 4000000 in
/-- The body at the first grid point: both accumulators are reset, then the tile's block and its column sums are stored. -/
noncomputable def kernelRun0_A (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__mm1_kernel_eq_skeleton]; unfold cc0__mm1_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

set_option maxHeartbeats 4000000 in
/-- The body at a later grid point: the accumulators come in at what the point before left. -/
noncomputable def kernelRun0_B (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc0__mm1_kernel_eq_skeleton]; unfold cc0__mm1_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KIPieces0.lean ====
/-
  What the first kernel of layer 0 leaves, read back: in each of its two cases every buffer the body wrote holds a named
  term of the input blocks — the dense block k0_pay3, and in the scratch rows and the statistics outputs k0_pay4 / k0_pay5
  of the block and of what the scratch rows held (zero rows at the first point) — and the body's triple restated with them.
-/
import proofs.«138093_j17583596110490_1_alg».proof.Proof.KIRun0
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piece0_A_3 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg4.view.read (Elt F) (arg4.view.writes (Elt F) f (kernelRun0_A c i arg1 harg1 arg2 harg2 arg3 harg3 arg4 harg4 arg5 harg5 arg6 harg6 arg7 harg7 arg8 harg8 hc0 x0 x1 x2).1) = k0_pay3 x0 x1 x2 := by
  rw [View.read_writes_eq_canon _ _ _ (View.cover_of_tiledL _ S2000x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_A_4 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg5.view.read (Elt F) (arg5.view.writes (Elt F) f (kernelRun0_A c i arg1 harg1 arg2 harg2 arg3 harg3 arg4 harg4 arg5 harg5 arg6 harg6 arg7 harg7 arg8 harg8 hc0 x0 x1 x2).2.1) = k0_pay4 x0 x1 x2 (k0_pay1 (F := F)) := by
  rw [View.read_writes_eq_canon _ _ _ (View.cover_of_tiledL _ S1x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_A_5 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg6.view.read (Elt F) (arg6.view.writes (Elt F) f (kernelRun0_A c i arg1 harg1 arg2 harg2 arg3 harg3 arg4 harg4 arg5 harg5 arg6 harg6 arg7 harg7 arg8 harg8 hc0 x0 x1 x2).2.2.1) = k0_pay5 x0 x1 x2 (k0_pay2 (F := F)) := by
  rw [View.read_writes_eq_canon _ _ _ (View.cover_of_tiledL _ S1x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_A_S0 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg7.view.read (Elt F) (arg7.view.writes (Elt F) f (kernelRun0_A c i arg1 harg1 arg2 harg2 arg3 harg3 arg4 harg4 arg5 harg5 arg6 harg6 arg7 harg7 arg8 harg8 hc0 x0 x1 x2).2.2.2.1) = k0_pay4 x0 x1 x2 (k0_pay1 (F := F)) := by
  rw [View.read_writes_eq_canon _ _ _ (View.cover_of_tiledL _ S1x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_A_S1 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (f) :
    arg8.view.read (Elt F) (arg8.view.writes (Elt F) f (kernelRun0_A c i arg1 harg1 arg2 harg2 arg3 harg3 arg4 harg4 arg5 harg5 arg6 harg6 arg7 harg7 arg8 harg8 hc0 x0 x1 x2).2.2.2.2.1) = k0_pay5 x0 x1 x2 (k0_pay2 (F := F)) := by
  rw [View.read_writes_eq_canon _ _ _ (View.cover_of_tiledL _ S1x512.size (by sl_kernel_rfl))]
  unfold kernelRun0_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_3 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg4.view.read (Elt F) (arg4.view.writes (Elt F) f (kernelRun0_B c i arg1 harg1 arg2 harg2 arg3 harg3 arg4 harg4 arg5 harg5 arg6 harg6 arg7 harg7 arg8 harg8 hc0 x0 x1 x2 xs0 xs1).1) = k0_pay3 x0 x1 x2 := by
  rw [View.read_writes_eq_canon _ _ _ (View.cover_of_tiledL _ S2000x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_4 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg5.view.read (Elt F) (arg5.view.writes (Elt F) f (kernelRun0_B c i arg1 harg1 arg2 harg2 arg3 harg3 arg4 harg4 arg5 harg5 arg6 harg6 arg7 harg7 arg8 harg8 hc0 x0 x1 x2 xs0 xs1).2.1) = k0_pay4 x0 x1 x2 xs0 := by
  rw [View.read_writes_eq_canon _ _ _ (View.cover_of_tiledL _ S1x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_5 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg6.view.read (Elt F) (arg6.view.writes (Elt F) f (kernelRun0_B c i arg1 harg1 arg2 harg2 arg3 harg3 arg4 harg4 arg5 harg5 arg6 harg6 arg7 harg7 arg8 harg8 hc0 x0 x1 x2 xs0 xs1).2.2.1) = k0_pay5 x0 x1 x2 xs1 := by
  rw [View.read_writes_eq_canon _ _ _ (View.cover_of_tiledL _ S1x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_S0 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg7.view.read (Elt F) (arg7.view.writes (Elt F) f (kernelRun0_B c i arg1 harg1 arg2 harg2 arg3 harg3 arg4 harg4 arg5 harg5 arg6 harg6 arg7 harg7 arg8 harg8 hc0 x0 x1 x2 xs0 xs1).2.2.2.1) = k0_pay4 x0 x1 x2 xs0 := by
  rw [View.read_writes_eq_canon _ _ _ (View.cover_of_tiledL _ S1x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece0_B_S1 (c : Dev nD) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (f) :
    arg8.view.read (Elt F) (arg8.view.writes (Elt F) f (kernelRun0_B c i arg1 harg1 arg2 harg2 arg3 harg3 arg4 harg4 arg5 harg5 arg6 harg6 arg7 harg7 arg8 harg8 hc0 x0 x1 x2 xs0 xs1).2.2.2.2.1) = k0_pay5 x0 x1 x2 xs1 := by
  rw [View.read_writes_eq_canon _ _ _ (View.cover_of_tiledL _ S1x512.size (by sl_kernel_rfl))]
  unfold kernelRun0_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

/-- The body at the first grid point, with what it leaves named: the tile's dense block, and in both scratch rows and both
    statistics outputs the column sums of the block (of its squares) added to zero. -/
theorem sound0_A (c : Dev nD) (E : Set ℕ) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond0 i)
    (x0 : Vec F S2000x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 (k0_pay1 (F := F))) ∗ owns (c : Thread nD τ) arg6 fullShare (k0_pay5 x0 x1 x2 (k0_pay2 (F := F)))
            ∗ owns (c : Thread nD τ) arg7 fullShare (k0_pay4 x0 x1 x2 (k0_pay1 (F := F))) ∗ owns (c : Thread nD τ) arg8 fullShare (k0_pay5 x0 x1 x2 (k0_pay2 (F := F)))) -∗ K ⟨⟩))
      ⊢ wp frame (wpE (defs₀ (F := F)) Variants.none c none) E (cc0__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun0_A c i arg1 harg1 arg2 harg2 arg3 harg3 arg4 harg4 arg5 harg5 arg6 harg6 arg7 harg7 arg8 harg8 hc0 x0 x1 x2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece0_A_3 c i arg1 harg1 arg2 harg2 arg3 harg3 arg4 harg4 arg5 harg5 arg6 harg6 arg7 harg7 arg8 harg8 hc0 x0 x1 x2)); iexact H3
  isplitl [H4]; · iapply (owns_of_writes c arg5 _ _ (piece0_A_4 c i arg1 harg1 arg2 harg2 arg3 harg3 arg4 harg4 arg5 harg5 arg6 harg6 arg7 harg7 arg8 harg8 hc0 x0 x1 x2)); iexact H4
  isplitl [H5]; · iapply (owns_of_writes c arg6 _ _ (piece0_A_5 c i arg1 harg1 arg2 harg2 arg3 harg3 arg4 harg4 arg5 harg5 arg6 harg6 arg7 harg7 arg8 harg8 hc0 x0 x1 x2)); iexact H5
  isplitl [H6]; · iapply (owns_of_writes c arg7 _ _ (piece0_A_S0 c i arg1 harg1 arg2 harg2 arg3 harg3 arg4 harg4 arg5 harg5 arg6 harg6 arg7 harg7 arg8 harg8 hc0 x0 x1 x2)); iexact H6
  iapply (owns_of_writes c arg8 _ _ (piece0_A_S1 c i arg1 harg1 arg2 harg2 arg3 harg3 arg4 harg4 arg5 harg5 arg6 harg6 arg7 harg7 arg8 harg8 hc0 x0 x1 x2)); iexact H7

/-- The body at a later grid point, with what it leaves named: the tile's dense block, and in both scratch rows and both
    statistics outputs the column sums of the block (of its squares) added to what the scratch rows held. -/
theorem sound0_B (c : Dev nD) (E : Set ℕ) (i : grid0.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond0 i)
    (x0 : Vec F S2000x256 .f32) (x1 : Vec F S256x512 .f32) (x2 : Vec F S1x512 .f32) (xs0 xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 x2)
            ∗ owns (c : Thread nD τ) arg5 fullShare (k0_pay4 x0 x1 x2 xs0) ∗ owns (c : Thread nD τ) arg6 fullShare (k0_pay5 x0 x1 x2 xs1)
            ∗ owns (c : Thread nD τ) arg7 fullShare (k0_pay4 x0 x1 x2 xs0) ∗ owns (c : Thread nD τ) arg8 fullShare (k0_pay5 x0 x1 x2 xs1)) -∗ K ⟨⟩))
      ⊢ wp frame (wpE (defs₀ (F := F)) Variants.none c none) E (cc0__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun0_B c i arg1 harg1 arg2 harg2 arg3 harg3 arg4 harg4 arg5 harg5 arg6 harg6 arg7 harg7 arg8 harg8 hc0 x0 x1 x2 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece0_B_3 c i arg1 harg1 arg2 harg2 arg3 harg3 arg4 harg4 arg5 harg5 arg6 harg6 arg7 harg7 arg8 harg8 hc0 x0 x1 x2 xs0 xs1)); iexact H3
  isplitl [H4]; · iapply (owns_of_writes c arg5 _ _ (piece0_B_4 c i arg1 harg1 arg2 harg2 arg3 harg3 arg4 harg4 arg5 harg5 arg6 harg6 arg7 harg7 arg8 harg8 hc0 x0 x1 x2 xs0 xs1)); iexact H4
  isplitl [H5]; · iapply (owns_of_writes c arg6 _ _ (piece0_B_5 c i arg1 harg1 arg2 harg2 arg3 harg3 arg4 harg4 arg5 harg5 arg6 harg6 arg7 harg7 arg8 harg8 hc0 x0 x1 x2 xs0 xs1)); iexact H5
  isplitl [H6]; · iapply (owns_of_writes c arg7 _ _ (piece0_B_S0 c i arg1 harg1 arg2 harg2 arg3 harg3 arg4 harg4 arg5 harg5 arg6 harg6 arg7 harg7 arg8 harg8 hc0 x0 x1 x2 xs0 xs1)); iexact H6
  iapply (owns_of_writes c arg8 _ _ (piece0_B_S1 c i arg1 harg1 arg2 harg2 arg3 harg3 arg4 harg4 arg5 harg5 arg6 harg6 arg7 harg7 arg8 harg8 hc0 x0 x1 x2 xs0 xs1)); iexact H7

end Cert.KernelIdeal.Hand

end
-- ==== Proof.KIHalf0.lean ====
/-
  The first kernel of layer 0 as a pipeline: the running column sums after each grid point (`acc0`), the region invariant
  that carries the two scratch rows from point to point (`Phi0`), the proof data at the contents the region finds, and the
  pipeline's body obligation from the body's two triples.
-/
import proofs.«138093_j17583596110490_1_alg».proof.Proof.KIPieces0
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch rows of this kernel, as whole-buffer memrefs. -/
abbrev scM0_0 : Memref sig .tc .vmem S1x512 .f32 := Memref.whole cc0_scratch0
abbrev scM0_1 : Memref sig .tc .vmem S1x512 .f32 := Memref.whole cc0_scratch1

/-- The body's first-point test holds exactly at grid point 0. -/
theorem hcond0 : ∀ t : Fin cfg0.N, cond0 (grid0.coords t) ↔ t.val = 0 :=
  (by decide +kernel : ∀ t : Fin grid0.N, cond0 (grid0.coords t) ↔ t.val = 0)

section
-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION. What the two scratch rows hold after the body at grid point `n`: the column sums (of the block, of its
    squares) of the tiles 0..n, accumulated tile by tile from zero rows. -/
def acc0 (c : Dev nD) : (n : ℕ) → n < cfg0.N → Vec F S1x512 .f32 × Vec F S1x512 .f32
  | 0, hn => (k0_pay4 (iblk0 V c 0 ⟨0, hn⟩) (iblk0 V c 1 ⟨0, hn⟩) (iblk0 V c 2 ⟨0, hn⟩) k0_pay1, k0_pay5 (iblk0 V c 0 ⟨0, hn⟩) (iblk0 V c 1 ⟨0, hn⟩) (iblk0 V c 2 ⟨0, hn⟩) k0_pay2)
  | n + 1, hn => (k0_pay4 (iblk0 V c 0 ⟨n + 1, hn⟩) (iblk0 V c 1 ⟨n + 1, hn⟩) (iblk0 V c 2 ⟨n + 1, hn⟩) (acc0 c n (Nat.lt_of_succ_lt hn)).1,
      k0_pay5 (iblk0 V c 0 ⟨n + 1, hn⟩) (iblk0 V c 1 ⟨n + 1, hn⟩) (iblk0 V c 2 ⟨n + 1, hn⟩) (acc0 c n (Nat.lt_of_succ_lt hn)).2)

theorem acc0_zero_1 (c : Dev nD) (t : Fin cfg0.N) (h : t.val = 0) :
    (acc0 V c t.val t.isLt).1 = k0_pay4 (iblk0 V c 0 t) (iblk0 V c 1 t) (iblk0 V c 2 t) k0_pay1 := by
  obtain ⟨n, hn⟩ := t
  cases n with
  | zero => rfl
  | succ n => exact absurd h (Nat.succ_ne_zero n)
theorem acc0_zero_2 (c : Dev nD) (t : Fin cfg0.N) (h : t.val = 0) :
    (acc0 V c t.val t.isLt).2 = k0_pay5 (iblk0 V c 0 t) (iblk0 V c 1 t) (iblk0 V c 2 t) k0_pay2 := by
  obtain ⟨n, hn⟩ := t
  cases n with
  | zero => rfl
  | succ n => exact absurd h (Nat.succ_ne_zero n)
theorem acc0_pos_1 (c : Dev nD) (t : Fin cfg0.N) (h : t.val ≠ 0) :
    (acc0 V c t.val t.isLt).1 = k0_pay4 (iblk0 V c 0 t) (iblk0 V c 1 t) (iblk0 V c 2 t) (acc0 V c (t.val - 1) (Nat.lt_of_le_of_lt (Nat.sub_le _ _) t.isLt)).1 := by
  obtain ⟨n, hn⟩ := t
  cases n with
  | zero => exact absurd rfl h
  | succ n => rfl
theorem acc0_pos_2 (c : Dev nD) (t : Fin cfg0.N) (h : t.val ≠ 0) :
    (acc0 V c t.val t.isLt).2 = k0_pay5 (iblk0 V c 0 t) (iblk0 V c 1 t) (iblk0 V c 2 t) (acc0 V c (t.val - 1) (Nat.lt_of_le_of_lt (Nat.sub_le _ _) t.isLt)).2 := by
  obtain ⟨n, hn⟩ := t
  cases n with
  | zero => exact absurd rfl h
  | succ n => rfl

/-- The region invariant before position `n`: before the first point the scoped rest (both scratch rows at anything) and the
    generator register; afterwards the two scratch rows at what the point before left, the other scoped buffers, the register. -/
def Phi0 (c : Dev nD) : (n : ℕ) → n ≤ cfg0.N → sProp 𝕄
  | 0, _ => Pipeline.ΦA spec0 c
  | n + 1, hn => iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(iprop(iprop(owns (c : Thread nD τ) scM0_0 fullShare (acc0 V c n hn).1 ∗ owns (c : Thread nD τ) scM0_1 fullShare (acc0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl
theorem Phi0_pos (c : Dev nD) (n : ℕ) (h : n ≤ cfg0.N) (hz : n ≠ 0) :
    Phi0 V c n h = iprop(iprop(iprop(owns (c : Thread nD τ) scM0_0 fullShare (acc0 V c (n - 1) (by omega)).1 ∗ owns (c : Thread nD τ) scM0_1 fullShare (acc0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-- The class invariant with the two scratch rows split out of the scoped rest, each owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-- The proof data of this pipeline on core `c`: the arrays as the region finds them; after the body at point `t` each input's
    buffer at its block, the block output at the tile's dense block, the two statistics outputs at the running sums; the
    invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 0 t) (iblk0 V c 1 t) (iblk0 V c 2 t)
    | ⟨4, _⟩ => (acc0 V c t.val t.isLt).1
    | ⟨5, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (iblk0 V c 0 t) (iblk0 V c 1 t) (iblk0 V c 2 t) := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the inputs' buffers hold their blocks; at point 0 the invariant hands over both scratch rows at
    anything and the first case's triple applies, at a later point it hands them over at what the point before left and the
    second case's triple applies; either way the scratch rows go back into the invariant at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) t.isLt from rfl, Phi0_succ,
    after0_0, after0_1, after0_2, after0_3, after0_4, after0_5]
  by_cases hz : t.val = 0
  · rw [Phi0_castSucc V c t, Phi0_zero V c _ _ hz, PhiA0_eq, acc0_zero_1 V c t hz, acc0_zero_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound0_A c Set.univ _ _ _ _ _ _ _ _ _ _ _ _ _ _ _ _ _ ((hcond0 t).mpr hz) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi0_castSucc V c t, Phi0_pos V c _ _ hz, acc0_pos_1 V c t hz, acc0_pos_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound0_B c Set.univ _ _ _ _ _ _ _ _ _ _ _ _ _ _ _ _ _ (fun h => hz ((hcond0 t).mp h)) (iblk0 V c 0 t) (iblk0 V c 1 t) (iblk0 V c 2 t) _ _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 (F := F) V c).Φ 0 := by
  rw [show (dat0 V c).Φ 0 = Phi0 V c 0 (Nat.zero_le _) from rfl, Phi0_zero V c 0 _ rfl]

/-- After the last point the invariant gives the class invariant back: the scratch rows' contents are forgotten. -/
theorem hout0 (c : Dev nD) : (dat0 (F := F) V c).Φ (Fin.last cfg0.N) ⊢ Pipeline.ΦA spec0 c := by
  rw [show (dat0 V c).Φ (Fin.last cfg0.N) = Phi0 V c cfg0.N (Nat.le_refl _) from rfl,
    Phi0_pos V c _ _ (by rw [show cfg0.N = 10 from N_0]; decide), PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end

end Cert.KernelIdeal.Hand

end
-- ==== Proof.KIHalf1.lean ====
/-
  The second kernel of layer 0 (the batch-normalised, rectified block times the second weight matrix plus its bias row) on whole
  staging buffers: its triple, the pipeline's proof data at the contents the region finds, and the pipeline's body obligation.
-/
import proofs.«138093_j17583596110490_1_alg».proof.Proof.KICommon
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the second kernel of a layer leaves in its output block: the normalised, optionally rectified block times the second weight
    matrix plus the bias row, as one term of the seven input blocks (mean is the second operand, the variance the third). -/
def out1_7 (x0 : Vec F S2000x512 .f32) (x1 x2 x3 x4 : Vec F S1x512 .f32) (x5 : Vec F S512x256 .f32) (x6 : Vec F S1x256 .f32) :
    Vec F S2000x256 .f32 :=
  k1_pay1 x0 x2 x1 x3 x4 x5 x6

set_option maxHeartbeats 1000000 in
/-- The body on whole staging buffers: the seven inputs are read and handed back, the output buffer ends at `out1_7` of them. -/
theorem sound_kernel1 (c : Dev nD) (E : Set ℕ) (i : grid1.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S2000x256 .f32) (harg8 : arg8.IsWhole)
    (x0 : Vec F S2000x512 .f32) (x1 x2 x3 x4 : Vec F S1x512 .f32) (x5 : Vec F S512x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__mm2_kernel i arg1 harg1 arg2 harg2 arg3 harg3 arg4 harg4 arg5 harg5 arg6 harg6 arg7 harg7 arg8 harg8) K := by
  simp only [cc1__mm2_kernel_eq_skeleton]; unfold cc1__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (View.cover_of_tiled _ S2000x256.size (by rfl)), View.canon_unit_zero hz2]
  simp only [View.readAt_eq_ld, View.ld_unit_zero (S := S2000x512) hz2, View.ld_unit_zero (S := S1x512) hz2,
    View.ld_unit_zero (S := S512x256) hz2, View.ld_unit_zero (S := S1x256) hz2]
  rfl

section
-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The proof data of this pipeline on core `c`: the arrays as the region finds them; after the body at point `t` each input's
    buffer at its block and the output's at the body's result on the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KIRun2.lean ====
/-
  The first kernel of layer 1 (a row tile's dense block h = x·W1 + b1, stored, and the running column sums of h and of h·h
  kept in two scratch rows) run once on whole staging buffers, in its two cases: at the first grid point both scratch rows
  are reset to zero before the tile's sums are added; at every later point they come in holding what the point before left.
  Each run ends with every buffer the body stored into written by a list of pieces the run itself determines.
-/
import proofs.«138093_j17583596110490_1_alg».proof.Proof.KICommon
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first grid point's test, as the body computes it from the grid coordinate. -/
abbrev cond2 (i : grid2.Coords) : Prop := (Scalar.cmpi .ne (Scalar.extui (Scalar.cmpi .eq (BitVec.ofNat 32 (i 0).val) 0#32)) 0#32) = 1#1

set_option maxHeartbeats 4000000 in
/-- The body at the first grid point: both accumulators are reset, then the tile's block and its column sums are stored. -/
noncomputable def kernelRun2_A (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__mm1_kernel_eq_skeleton]; unfold cc2__mm1_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

set_option maxHeartbeats 4000000 in
/-- The body at a later grid point: the accumulators come in at what the point before left. -/
noncomputable def kernelRun2_B (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc2__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc2__mm1_kernel_eq_skeleton]; unfold cc2__mm1_kernel_skel
    simp only [k2_part1_eq_skeleton]; unfold k2_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KIPieces2.lean ====
/-
  What the first kernel of layer 1 leaves, read back: in each of its two cases every buffer the body wrote holds a named
  term of the input blocks — the dense block k2_pay3, and in the scratch rows and the statistics outputs k2_pay4 / k2_pay5
  of the block and of what the scratch rows held (zero rows at the first point) — and the body's triple restated with them.
-/
import proofs.«138093_j17583596110490_1_alg».proof.Proof.KIRun2
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piece2_A_3 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg4.view.read (Elt F) (arg4.view.writes (Elt F) f (kernelRun2_A c i arg1 harg1 arg2 harg2 arg3 harg3 arg4 harg4 arg5 harg5 arg6 harg6 arg7 harg7 arg8 harg8 hc0 x0 x1 x2).1) = k2_pay3 x0 x1 x2 := by
  rw [View.read_writes_eq_canon _ _ _ (View.cover_of_tiledL _ S2000x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_A_4 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg5.view.read (Elt F) (arg5.view.writes (Elt F) f (kernelRun2_A c i arg1 harg1 arg2 harg2 arg3 harg3 arg4 harg4 arg5 harg5 arg6 harg6 arg7 harg7 arg8 harg8 hc0 x0 x1 x2).2.1) = k2_pay4 x0 x1 x2 (k2_pay1 (F := F)) := by
  rw [View.read_writes_eq_canon _ _ _ (View.cover_of_tiledL _ S1x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_A_5 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg6.view.read (Elt F) (arg6.view.writes (Elt F) f (kernelRun2_A c i arg1 harg1 arg2 harg2 arg3 harg3 arg4 harg4 arg5 harg5 arg6 harg6 arg7 harg7 arg8 harg8 hc0 x0 x1 x2).2.2.1) = k2_pay5 x0 x1 x2 (k2_pay2 (F := F)) := by
  rw [View.read_writes_eq_canon _ _ _ (View.cover_of_tiledL _ S1x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_A_S0 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg7.view.read (Elt F) (arg7.view.writes (Elt F) f (kernelRun2_A c i arg1 harg1 arg2 harg2 arg3 harg3 arg4 harg4 arg5 harg5 arg6 harg6 arg7 harg7 arg8 harg8 hc0 x0 x1 x2).2.2.2.1) = k2_pay4 x0 x1 x2 (k2_pay1 (F := F)) := by
  rw [View.read_writes_eq_canon _ _ _ (View.cover_of_tiledL _ S1x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_A_S1 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (f) :
    arg8.view.read (Elt F) (arg8.view.writes (Elt F) f (kernelRun2_A c i arg1 harg1 arg2 harg2 arg3 harg3 arg4 harg4 arg5 harg5 arg6 harg6 arg7 harg7 arg8 harg8 hc0 x0 x1 x2).2.2.2.2.1) = k2_pay5 x0 x1 x2 (k2_pay2 (F := F)) := by
  rw [View.read_writes_eq_canon _ _ _ (View.cover_of_tiledL _ S1x512.size (by sl_kernel_rfl))]
  unfold kernelRun2_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_3 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg4.view.read (Elt F) (arg4.view.writes (Elt F) f (kernelRun2_B c i arg1 harg1 arg2 harg2 arg3 harg3 arg4 harg4 arg5 harg5 arg6 harg6 arg7 harg7 arg8 harg8 hc0 x0 x1 x2 xs0 xs1).1) = k2_pay3 x0 x1 x2 := by
  rw [View.read_writes_eq_canon _ _ _ (View.cover_of_tiledL _ S2000x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_4 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg5.view.read (Elt F) (arg5.view.writes (Elt F) f (kernelRun2_B c i arg1 harg1 arg2 harg2 arg3 harg3 arg4 harg4 arg5 harg5 arg6 harg6 arg7 harg7 arg8 harg8 hc0 x0 x1 x2 xs0 xs1).2.1) = k2_pay4 x0 x1 x2 xs0 := by
  rw [View.read_writes_eq_canon _ _ _ (View.cover_of_tiledL _ S1x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_5 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg6.view.read (Elt F) (arg6.view.writes (Elt F) f (kernelRun2_B c i arg1 harg1 arg2 harg2 arg3 harg3 arg4 harg4 arg5 harg5 arg6 harg6 arg7 harg7 arg8 harg8 hc0 x0 x1 x2 xs0 xs1).2.2.1) = k2_pay5 x0 x1 x2 xs1 := by
  rw [View.read_writes_eq_canon _ _ _ (View.cover_of_tiledL _ S1x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_S0 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg7.view.read (Elt F) (arg7.view.writes (Elt F) f (kernelRun2_B c i arg1 harg1 arg2 harg2 arg3 harg3 arg4 harg4 arg5 harg5 arg6 harg6 arg7 harg7 arg8 harg8 hc0 x0 x1 x2 xs0 xs1).2.2.2.1) = k2_pay4 x0 x1 x2 xs0 := by
  rw [View.read_writes_eq_canon _ _ _ (View.cover_of_tiledL _ S1x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece2_B_S1 (c : Dev nD) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (f) :
    arg8.view.read (Elt F) (arg8.view.writes (Elt F) f (kernelRun2_B c i arg1 harg1 arg2 harg2 arg3 harg3 arg4 harg4 arg5 harg5 arg6 harg6 arg7 harg7 arg8 harg8 hc0 x0 x1 x2 xs0 xs1).2.2.2.2.1) = k2_pay5 x0 x1 x2 xs1 := by
  rw [View.read_writes_eq_canon _ _ _ (View.cover_of_tiledL _ S1x512.size (by sl_kernel_rfl))]
  unfold kernelRun2_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

/-- The body at the first grid point, with what it leaves named: the tile's dense block, and in both scratch rows and both
    statistics outputs the column sums of the block (of its squares) added to zero. -/
theorem sound2_A (c : Dev nD) (E : Set ℕ) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond2 i)
    (x0 : Vec F S2000x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay3 x0 x1 x2)
            ∗ owns (c : Thread nD τ) arg5 fullShare (k2_pay4 x0 x1 x2 (k2_pay1 (F := F))) ∗ owns (c : Thread nD τ) arg6 fullShare (k2_pay5 x0 x1 x2 (k2_pay2 (F := F)))
            ∗ owns (c : Thread nD τ) arg7 fullShare (k2_pay4 x0 x1 x2 (k2_pay1 (F := F))) ∗ owns (c : Thread nD τ) arg8 fullShare (k2_pay5 x0 x1 x2 (k2_pay2 (F := F)))) -∗ K ⟨⟩))
      ⊢ wp frame (wpE (defs₀ (F := F)) Variants.none c none) E (cc2__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun2_A c i arg1 harg1 arg2 harg2 arg3 harg3 arg4 harg4 arg5 harg5 arg6 harg6 arg7 harg7 arg8 harg8 hc0 x0 x1 x2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece2_A_3 c i arg1 harg1 arg2 harg2 arg3 harg3 arg4 harg4 arg5 harg5 arg6 harg6 arg7 harg7 arg8 harg8 hc0 x0 x1 x2)); iexact H3
  isplitl [H4]; · iapply (owns_of_writes c arg5 _ _ (piece2_A_4 c i arg1 harg1 arg2 harg2 arg3 harg3 arg4 harg4 arg5 harg5 arg6 harg6 arg7 harg7 arg8 harg8 hc0 x0 x1 x2)); iexact H4
  isplitl [H5]; · iapply (owns_of_writes c arg6 _ _ (piece2_A_5 c i arg1 harg1 arg2 harg2 arg3 harg3 arg4 harg4 arg5 harg5 arg6 harg6 arg7 harg7 arg8 harg8 hc0 x0 x1 x2)); iexact H5
  isplitl [H6]; · iapply (owns_of_writes c arg7 _ _ (piece2_A_S0 c i arg1 harg1 arg2 harg2 arg3 harg3 arg4 harg4 arg5 harg5 arg6 harg6 arg7 harg7 arg8 harg8 hc0 x0 x1 x2)); iexact H6
  iapply (owns_of_writes c arg8 _ _ (piece2_A_S1 c i arg1 harg1 arg2 harg2 arg3 harg3 arg4 harg4 arg5 harg5 arg6 harg6 arg7 harg7 arg8 harg8 hc0 x0 x1 x2)); iexact H7

/-- The body at a later grid point, with what it leaves named: the tile's dense block, and in both scratch rows and both
    statistics outputs the column sums of the block (of its squares) added to what the scratch rows held. -/
theorem sound2_B (c : Dev nD) (E : Set ℕ) (i : grid2.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond2 i)
    (x0 : Vec F S2000x256 .f32) (x1 : Vec F S256x512 .f32) (x2 : Vec F S1x512 .f32) (xs0 xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k2_pay3 x0 x1 x2)
            ∗ owns (c : Thread nD τ) arg5 fullShare (k2_pay4 x0 x1 x2 xs0) ∗ owns (c : Thread nD τ) arg6 fullShare (k2_pay5 x0 x1 x2 xs1)
            ∗ owns (c : Thread nD τ) arg7 fullShare (k2_pay4 x0 x1 x2 xs0) ∗ owns (c : Thread nD τ) arg8 fullShare (k2_pay5 x0 x1 x2 xs1)) -∗ K ⟨⟩))
      ⊢ wp frame (wpE (defs₀ (F := F)) Variants.none c none) E (cc2__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun2_B c i arg1 harg1 arg2 harg2 arg3 harg3 arg4 harg4 arg5 harg5 arg6 harg6 arg7 harg7 arg8 harg8 hc0 x0 x1 x2 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece2_B_3 c i arg1 harg1 arg2 harg2 arg3 harg3 arg4 harg4 arg5 harg5 arg6 harg6 arg7 harg7 arg8 harg8 hc0 x0 x1 x2 xs0 xs1)); iexact H3
  isplitl [H4]; · iapply (owns_of_writes c arg5 _ _ (piece2_B_4 c i arg1 harg1 arg2 harg2 arg3 harg3 arg4 harg4 arg5 harg5 arg6 harg6 arg7 harg7 arg8 harg8 hc0 x0 x1 x2 xs0 xs1)); iexact H4
  isplitl [H5]; · iapply (owns_of_writes c arg6 _ _ (piece2_B_5 c i arg1 harg1 arg2 harg2 arg3 harg3 arg4 harg4 arg5 harg5 arg6 harg6 arg7 harg7 arg8 harg8 hc0 x0 x1 x2 xs0 xs1)); iexact H5
  isplitl [H6]; · iapply (owns_of_writes c arg7 _ _ (piece2_B_S0 c i arg1 harg1 arg2 harg2 arg3 harg3 arg4 harg4 arg5 harg5 arg6 harg6 arg7 harg7 arg8 harg8 hc0 x0 x1 x2 xs0 xs1)); iexact H6
  iapply (owns_of_writes c arg8 _ _ (piece2_B_S1 c i arg1 harg1 arg2 harg2 arg3 harg3 arg4 harg4 arg5 harg5 arg6 harg6 arg7 harg7 arg8 harg8 hc0 x0 x1 x2 xs0 xs1)); iexact H7

end Cert.KernelIdeal.Hand

end
-- ==== Proof.KIHalf2.lean ====
/-
  The first kernel of layer 1 as a pipeline: the running column sums after each grid point (`acc2`), the region invariant
  that carries the two scratch rows from point to point (`Phi2`), the proof data at the contents the region finds, and the
  pipeline's body obligation from the body's two triples.
-/
import proofs.«138093_j17583596110490_1_alg».proof.Proof.KIPieces2
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch rows of this kernel, as whole-buffer memrefs. -/
abbrev scM2_0 : Memref sig .tc .vmem S1x512 .f32 := Memref.whole cc2_scratch0
abbrev scM2_1 : Memref sig .tc .vmem S1x512 .f32 := Memref.whole cc2_scratch1

/-- The body's first-point test holds exactly at grid point 0. -/
theorem hcond2 : ∀ t : Fin cfg2.N, cond2 (grid2.coords t) ↔ t.val = 0 :=
  (by decide +kernel : ∀ t : Fin grid2.N, cond2 (grid2.coords t) ↔ t.val = 0)

section
-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION. What the two scratch rows hold after the body at grid point `n`: the column sums (of the block, of its
    squares) of the tiles 0..n, accumulated tile by tile from zero rows. -/
def acc2 (c : Dev nD) : (n : ℕ) → n < cfg2.N → Vec F S1x512 .f32 × Vec F S1x512 .f32
  | 0, hn => (k2_pay4 (iblk2 V c 0 ⟨0, hn⟩) (iblk2 V c 1 ⟨0, hn⟩) (iblk2 V c 2 ⟨0, hn⟩) k2_pay1, k2_pay5 (iblk2 V c 0 ⟨0, hn⟩) (iblk2 V c 1 ⟨0, hn⟩) (iblk2 V c 2 ⟨0, hn⟩) k2_pay2)
  | n + 1, hn => (k2_pay4 (iblk2 V c 0 ⟨n + 1, hn⟩) (iblk2 V c 1 ⟨n + 1, hn⟩) (iblk2 V c 2 ⟨n + 1, hn⟩) (acc2 c n (Nat.lt_of_succ_lt hn)).1,
      k2_pay5 (iblk2 V c 0 ⟨n + 1, hn⟩) (iblk2 V c 1 ⟨n + 1, hn⟩) (iblk2 V c 2 ⟨n + 1, hn⟩) (acc2 c n (Nat.lt_of_succ_lt hn)).2)

theorem acc2_zero_1 (c : Dev nD) (t : Fin cfg2.N) (h : t.val = 0) :
    (acc2 V c t.val t.isLt).1 = k2_pay4 (iblk2 V c 0 t) (iblk2 V c 1 t) (iblk2 V c 2 t) k2_pay1 := by
  obtain ⟨n, hn⟩ := t
  cases n with
  | zero => rfl
  | succ n => exact absurd h (Nat.succ_ne_zero n)
theorem acc2_zero_2 (c : Dev nD) (t : Fin cfg2.N) (h : t.val = 0) :
    (acc2 V c t.val t.isLt).2 = k2_pay5 (iblk2 V c 0 t) (iblk2 V c 1 t) (iblk2 V c 2 t) k2_pay2 := by
  obtain ⟨n, hn⟩ := t
  cases n with
  | zero => rfl
  | succ n => exact absurd h (Nat.succ_ne_zero n)
theorem acc2_pos_1 (c : Dev nD) (t : Fin cfg2.N) (h : t.val ≠ 0) :
    (acc2 V c t.val t.isLt).1 = k2_pay4 (iblk2 V c 0 t) (iblk2 V c 1 t) (iblk2 V c 2 t) (acc2 V c (t.val - 1) (Nat.lt_of_le_of_lt (Nat.sub_le _ _) t.isLt)).1 := by
  obtain ⟨n, hn⟩ := t
  cases n with
  | zero => exact absurd rfl h
  | succ n => rfl
theorem acc2_pos_2 (c : Dev nD) (t : Fin cfg2.N) (h : t.val ≠ 0) :
    (acc2 V c t.val t.isLt).2 = k2_pay5 (iblk2 V c 0 t) (iblk2 V c 1 t) (iblk2 V c 2 t) (acc2 V c (t.val - 1) (Nat.lt_of_le_of_lt (Nat.sub_le _ _) t.isLt)).2 := by
  obtain ⟨n, hn⟩ := t
  cases n with
  | zero => exact absurd rfl h
  | succ n => rfl

/-- The region invariant before position `n`: before the first point the scoped rest (both scratch rows at anything) and the
    generator register; afterwards the two scratch rows at what the point before left, the other scoped buffers, the register. -/
def Phi2 (c : Dev nD) : (n : ℕ) → n ≤ cfg2.N → sProp 𝕄
  | 0, _ => Pipeline.ΦA spec2 c
  | n + 1, hn => iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(iprop(iprop(owns (c : Thread nD τ) scM2_0 fullShare (acc2 V c n hn).1 ∗ owns (c : Thread nD τ) scM2_1 fullShare (acc2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl
theorem Phi2_pos (c : Dev nD) (n : ℕ) (h : n ≤ cfg2.N) (hz : n ≠ 0) :
    Phi2 V c n h = iprop(iprop(iprop(owns (c : Thread nD τ) scM2_0 fullShare (acc2 V c (n - 1) (by omega)).1 ∗ owns (c : Thread nD τ) scM2_1 fullShare (acc2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The class invariant with the two scratch rows split out of the scoped rest, each owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- The proof data of this pipeline on core `c`: the arrays as the region finds them; after the body at point `t` each input's
    buffer at its block, the block output at the tile's dense block, the two statistics outputs at the running sums; the
    invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (iblk2 V c 0 t) (iblk2 V c 1 t) (iblk2 V c 2 t)
    | ⟨4, _⟩ => (acc2 V c t.val t.isLt).1
    | ⟨5, _⟩ => (acc2 V c t.val t.isLt).2
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (iblk2 V c 0 t) (iblk2 V c 1 t) (iblk2 V c 2 t) := by dsimp only [dat2]
theorem after2_4 (c : Dev nD) (t : Fin cfg2.N) : (dat2 V c).after 4 t = (acc2 V c t.val t.isLt).1 := by dsimp only [dat2]
theorem after2_5 (c : Dev nD) (t : Fin cfg2.N) : (dat2 V c).after 5 t = (acc2 V c t.val t.isLt).2 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 2000000 in
/-- The body at any point: the inputs' buffers hold their blocks; at point 0 the invariant hands over both scratch rows at
    anything and the first case's triple applies, at a later point it hands them over at what the point before left and the
    second case's triple applies; either way the scratch rows go back into the invariant at this point's sums. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) t.isLt from rfl, Phi2_succ,
    after2_0, after2_1, after2_2, after2_3, after2_4, after2_5]
  by_cases hz : t.val = 0
  · rw [Phi2_castSucc V c t, Phi2_zero V c _ _ hz, PhiA2_eq, acc2_zero_1 V c t hz, acc2_zero_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound2_A c Set.univ _ _ _ _ _ _ _ _ _ _ _ _ _ _ _ _ _ ((hcond2 t).mpr hz) (iblk2 V c 0 t) (iblk2 V c 1 t) (iblk2 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi2_castSucc V c t, Phi2_pos V c _ _ hz, acc2_pos_1 V c t hz, acc2_pos_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound2_B c Set.univ _ _ _ _ _ _ _ _ _ _ _ _ _ _ _ _ _ (fun h => hz ((hcond2 t).mp h)) (iblk2 V c 0 t) (iblk2 V c 1 t) (iblk2 V c 2 t) _ _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = Phi2 V c 0 (Nat.zero_le _) from rfl, Phi2_zero V c 0 _ rfl]

/-- After the last point the invariant gives the class invariant back: the scratch rows' contents are forgotten. -/
theorem hout2 (c : Dev nD) : (dat2 (F := F) V c).Φ (Fin.last cfg2.N) ⊢ Pipeline.ΦA spec2 c := by
  rw [show (dat2 V c).Φ (Fin.last cfg2.N) = Phi2 V c cfg2.N (Nat.le_refl _) from rfl,
    Phi2_pos V c _ _ (by rw [show cfg2.N = 10 from N_2]; decide), PhiA2_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end

end Cert.KernelIdeal.Hand

end
-- ==== Proof.KIHalf3.lean ====
/-
  The second kernel of layer 1 (the batch-normalised, rectified block times the second weight matrix plus its bias row) on whole
  staging buffers: its triple, the pipeline's proof data at the contents the region finds, and the pipeline's body obligation.
-/
import proofs.«138093_j17583596110490_1_alg».proof.Proof.KICommon
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the second kernel of a layer leaves in its output block: the normalised, optionally rectified block times the second weight
    matrix plus the bias row, as one term of the seven input blocks (mean is the second operand, the variance the third). -/
def out3_7 (x0 : Vec F S2000x512 .f32) (x1 x2 x3 x4 : Vec F S1x512 .f32) (x5 : Vec F S512x256 .f32) (x6 : Vec F S1x256 .f32) :
    Vec F S2000x256 .f32 :=
  k3_pay1 x0 x2 x1 x3 x4 x5 x6

set_option maxHeartbeats 1000000 in
/-- The body on whole staging buffers: the seven inputs are read and handed back, the output buffer ends at `out3_7` of them. -/
theorem sound_kernel3 (c : Dev nD) (E : Set ℕ) (i : grid3.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S2000x256 .f32) (harg8 : arg8.IsWhole)
    (x0 : Vec F S2000x512 .f32) (x1 x2 x3 x4 : Vec F S1x512 .f32) (x5 : Vec F S512x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E
          (cc3__mm2_kernel i arg1 harg1 arg2 harg2 arg3 harg3 arg4 harg4 arg5 harg5 arg6 harg6 arg7 harg7 arg8 harg8) K := by
  simp only [cc3__mm2_kernel_eq_skeleton]; unfold cc3__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (View.cover_of_tiled _ S2000x256.size (by rfl)), View.canon_unit_zero hz2]
  simp only [View.readAt_eq_ld, View.ld_unit_zero (S := S2000x512) hz2, View.ld_unit_zero (S := S1x512) hz2,
    View.ld_unit_zero (S := S512x256) hz2, View.ld_unit_zero (S := S1x256) hz2]
  rfl

section
-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- The proof data of this pipeline on core `c`: the arrays as the region finds them; after the body at point `t` each input's
    buffer at its block and the output's at the body's result on the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.Hand

end
-- ==== Proof.KIRun4.lean ====
/-
  The first kernel of layer 2 (a row tile's dense block h = x·W1 + b1, stored, and the running column sums of h and of h·h
  kept in two scratch rows) run once on whole staging buffers, in its two cases: at the first grid point both scratch rows
  are reset to zero before the tile's sums are added; at every later point they come in holding what the point before left.
  Each run ends with every buffer the body stored into written by a list of pieces the run itself determines.
-/
import proofs.«138093_j17583596110490_1_alg».proof.Proof.KICommon
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first grid point's test, as the body computes it from the grid coordinate. -/
abbrev cond4 (i : grid4.Coords) : Prop := (Scalar.cmpi .ne (Scalar.extui (Scalar.cmpi .eq (BitVec.ofNat 32 (i 0).val) 0#32)) 0#32) = 1#1

set_option maxHeartbeats 4000000 in
/-- The body at the first grid point: both accumulators are reset, then the tile's block and its column sums are stored. -/
noncomputable def kernelRun4_A (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__mm1_kernel_eq_skeleton]; unfold cc4__mm1_kernel_skel
    simp only [k4_part1_eq_skeleton]; unfold k4_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

set_option maxHeartbeats 4000000 in
/-- The body at a later grid point: the accumulators come in at what the point before left. -/
noncomputable def kernelRun4_B (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc4__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc4__mm1_kernel_eq_skeleton]; unfold cc4__mm1_kernel_skel
    simp only [k4_part1_eq_skeleton]; unfold k4_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KIPieces4.lean ====
/-
  What the first kernel of layer 2 leaves, read back: in each of its two cases every buffer the body wrote holds a named
  term of the input blocks — the dense block k4_pay3, and in the scratch rows and the statistics outputs k4_pay4 / k4_pay5
  of the block and of what the scratch rows held (zero rows at the first point) — and the body's triple restated with them.
-/
import proofs.«138093_j17583596110490_1_alg».proof.Proof.KIRun4
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piece4_A_3 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg4.view.read (Elt F) (arg4.view.writes (Elt F) f (kernelRun4_A c i arg1 harg1 arg2 harg2 arg3 harg3 arg4 harg4 arg5 harg5 arg6 harg6 arg7 harg7 arg8 harg8 hc0 x0 x1 x2).1) = k4_pay3 x0 x1 x2 := by
  rw [View.read_writes_eq_canon _ _ _ (View.cover_of_tiledL _ S2000x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_A_4 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg5.view.read (Elt F) (arg5.view.writes (Elt F) f (kernelRun4_A c i arg1 harg1 arg2 harg2 arg3 harg3 arg4 harg4 arg5 harg5 arg6 harg6 arg7 harg7 arg8 harg8 hc0 x0 x1 x2).2.1) = k4_pay4 x0 x1 x2 (k4_pay1 (F := F)) := by
  rw [View.read_writes_eq_canon _ _ _ (View.cover_of_tiledL _ S1x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_A_5 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg6.view.read (Elt F) (arg6.view.writes (Elt F) f (kernelRun4_A c i arg1 harg1 arg2 harg2 arg3 harg3 arg4 harg4 arg5 harg5 arg6 harg6 arg7 harg7 arg8 harg8 hc0 x0 x1 x2).2.2.1) = k4_pay5 x0 x1 x2 (k4_pay2 (F := F)) := by
  rw [View.read_writes_eq_canon _ _ _ (View.cover_of_tiledL _ S1x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_A_S0 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg7.view.read (Elt F) (arg7.view.writes (Elt F) f (kernelRun4_A c i arg1 harg1 arg2 harg2 arg3 harg3 arg4 harg4 arg5 harg5 arg6 harg6 arg7 harg7 arg8 harg8 hc0 x0 x1 x2).2.2.2.1) = k4_pay4 x0 x1 x2 (k4_pay1 (F := F)) := by
  rw [View.read_writes_eq_canon _ _ _ (View.cover_of_tiledL _ S1x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_A_S1 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (f) :
    arg8.view.read (Elt F) (arg8.view.writes (Elt F) f (kernelRun4_A c i arg1 harg1 arg2 harg2 arg3 harg3 arg4 harg4 arg5 harg5 arg6 harg6 arg7 harg7 arg8 harg8 hc0 x0 x1 x2).2.2.2.2.1) = k4_pay5 x0 x1 x2 (k4_pay2 (F := F)) := by
  rw [View.read_writes_eq_canon _ _ _ (View.cover_of_tiledL _ S1x512.size (by sl_kernel_rfl))]
  unfold kernelRun4_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_3 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg4.view.read (Elt F) (arg4.view.writes (Elt F) f (kernelRun4_B c i arg1 harg1 arg2 harg2 arg3 harg3 arg4 harg4 arg5 harg5 arg6 harg6 arg7 harg7 arg8 harg8 hc0 x0 x1 x2 xs0 xs1).1) = k4_pay3 x0 x1 x2 := by
  rw [View.read_writes_eq_canon _ _ _ (View.cover_of_tiledL _ S2000x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_4 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg5.view.read (Elt F) (arg5.view.writes (Elt F) f (kernelRun4_B c i arg1 harg1 arg2 harg2 arg3 harg3 arg4 harg4 arg5 harg5 arg6 harg6 arg7 harg7 arg8 harg8 hc0 x0 x1 x2 xs0 xs1).2.1) = k4_pay4 x0 x1 x2 xs0 := by
  rw [View.read_writes_eq_canon _ _ _ (View.cover_of_tiledL _ S1x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_5 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg6.view.read (Elt F) (arg6.view.writes (Elt F) f (kernelRun4_B c i arg1 harg1 arg2 harg2 arg3 harg3 arg4 harg4 arg5 harg5 arg6 harg6 arg7 harg7 arg8 harg8 hc0 x0 x1 x2 xs0 xs1).2.2.1) = k4_pay5 x0 x1 x2 xs1 := by
  rw [View.read_writes_eq_canon _ _ _ (View.cover_of_tiledL _ S1x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_S0 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg7.view.read (Elt F) (arg7.view.writes (Elt F) f (kernelRun4_B c i arg1 harg1 arg2 harg2 arg3 harg3 arg4 harg4 arg5 harg5 arg6 harg6 arg7 harg7 arg8 harg8 hc0 x0 x1 x2 xs0 xs1).2.2.2.1) = k4_pay4 x0 x1 x2 xs0 := by
  rw [View.read_writes_eq_canon _ _ _ (View.cover_of_tiledL _ S1x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece4_B_S1 (c : Dev nD) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (f) :
    arg8.view.read (Elt F) (arg8.view.writes (Elt F) f (kernelRun4_B c i arg1 harg1 arg2 harg2 arg3 harg3 arg4 harg4 arg5 harg5 arg6 harg6 arg7 harg7 arg8 harg8 hc0 x0 x1 x2 xs0 xs1).2.2.2.2.1) = k4_pay5 x0 x1 x2 xs1 := by
  rw [View.read_writes_eq_canon _ _ _ (View.cover_of_tiledL _ S1x512.size (by sl_kernel_rfl))]
  unfold kernelRun4_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

/-- The body at the first grid point, with what it leaves named: the tile's dense block, and in both scratch rows and both
    statistics outputs the column sums of the block (of its squares) added to zero. -/
theorem sound4_A (c : Dev nD) (E : Set ℕ) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond4 i)
    (x0 : Vec F S2000x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k4_pay3 x0 x1 x2)
            ∗ owns (c : Thread nD τ) arg5 fullShare (k4_pay4 x0 x1 x2 (k4_pay1 (F := F))) ∗ owns (c : Thread nD τ) arg6 fullShare (k4_pay5 x0 x1 x2 (k4_pay2 (F := F)))
            ∗ owns (c : Thread nD τ) arg7 fullShare (k4_pay4 x0 x1 x2 (k4_pay1 (F := F))) ∗ owns (c : Thread nD τ) arg8 fullShare (k4_pay5 x0 x1 x2 (k4_pay2 (F := F)))) -∗ K ⟨⟩))
      ⊢ wp frame (wpE (defs₀ (F := F)) Variants.none c none) E (cc4__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun4_A c i arg1 harg1 arg2 harg2 arg3 harg3 arg4 harg4 arg5 harg5 arg6 harg6 arg7 harg7 arg8 harg8 hc0 x0 x1 x2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece4_A_3 c i arg1 harg1 arg2 harg2 arg3 harg3 arg4 harg4 arg5 harg5 arg6 harg6 arg7 harg7 arg8 harg8 hc0 x0 x1 x2)); iexact H3
  isplitl [H4]; · iapply (owns_of_writes c arg5 _ _ (piece4_A_4 c i arg1 harg1 arg2 harg2 arg3 harg3 arg4 harg4 arg5 harg5 arg6 harg6 arg7 harg7 arg8 harg8 hc0 x0 x1 x2)); iexact H4
  isplitl [H5]; · iapply (owns_of_writes c arg6 _ _ (piece4_A_5 c i arg1 harg1 arg2 harg2 arg3 harg3 arg4 harg4 arg5 harg5 arg6 harg6 arg7 harg7 arg8 harg8 hc0 x0 x1 x2)); iexact H5
  isplitl [H6]; · iapply (owns_of_writes c arg7 _ _ (piece4_A_S0 c i arg1 harg1 arg2 harg2 arg3 harg3 arg4 harg4 arg5 harg5 arg6 harg6 arg7 harg7 arg8 harg8 hc0 x0 x1 x2)); iexact H6
  iapply (owns_of_writes c arg8 _ _ (piece4_A_S1 c i arg1 harg1 arg2 harg2 arg3 harg3 arg4 harg4 arg5 harg5 arg6 harg6 arg7 harg7 arg8 harg8 hc0 x0 x1 x2)); iexact H7

/-- The body at a later grid point, with what it leaves named: the tile's dense block, and in both scratch rows and both
    statistics outputs the column sums of the block (of its squares) added to what the scratch rows held. -/
theorem sound4_B (c : Dev nD) (E : Set ℕ) (i : grid4.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond4 i)
    (x0 : Vec F S2000x256 .f32) (x1 : Vec F S256x512 .f32) (x2 : Vec F S1x512 .f32) (xs0 xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k4_pay3 x0 x1 x2)
            ∗ owns (c : Thread nD τ) arg5 fullShare (k4_pay4 x0 x1 x2 xs0) ∗ owns (c : Thread nD τ) arg6 fullShare (k4_pay5 x0 x1 x2 xs1)
            ∗ owns (c : Thread nD τ) arg7 fullShare (k4_pay4 x0 x1 x2 xs0) ∗ owns (c : Thread nD τ) arg8 fullShare (k4_pay5 x0 x1 x2 xs1)) -∗ K ⟨⟩))
      ⊢ wp frame (wpE (defs₀ (F := F)) Variants.none c none) E (cc4__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun4_B c i arg1 harg1 arg2 harg2 arg3 harg3 arg4 harg4 arg5 harg5 arg6 harg6 arg7 harg7 arg8 harg8 hc0 x0 x1 x2 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece4_B_3 c i arg1 harg1 arg2 harg2 arg3 harg3 arg4 harg4 arg5 harg5 arg6 harg6 arg7 harg7 arg8 harg8 hc0 x0 x1 x2 xs0 xs1)); iexact H3
  isplitl [H4]; · iapply (owns_of_writes c arg5 _ _ (piece4_B_4 c i arg1 harg1 arg2 harg2 arg3 harg3 arg4 harg4 arg5 harg5 arg6 harg6 arg7 harg7 arg8 harg8 hc0 x0 x1 x2 xs0 xs1)); iexact H4
  isplitl [H5]; · iapply (owns_of_writes c arg6 _ _ (piece4_B_5 c i arg1 harg1 arg2 harg2 arg3 harg3 arg4 harg4 arg5 harg5 arg6 harg6 arg7 harg7 arg8 harg8 hc0 x0 x1 x2 xs0 xs1)); iexact H5
  isplitl [H6]; · iapply (owns_of_writes c arg7 _ _ (piece4_B_S0 c i arg1 harg1 arg2 harg2 arg3 harg3 arg4 harg4 arg5 harg5 arg6 harg6 arg7 harg7 arg8 harg8 hc0 x0 x1 x2 xs0 xs1)); iexact H6
  iapply (owns_of_writes c arg8 _ _ (piece4_B_S1 c i arg1 harg1 arg2 harg2 arg3 harg3 arg4 harg4 arg5 harg5 arg6 harg6 arg7 harg7 arg8 harg8 hc0 x0 x1 x2 xs0 xs1)); iexact H7

end Cert.KernelIdeal.Hand

end
-- ==== Proof.KIHalf4.lean ====
/-
  The first kernel of layer 2 as a pipeline: the running column sums after each grid point (`acc4`), the region invariant
  that carries the two scratch rows from point to point (`Phi4`), the proof data at the contents the region finds, and the
  pipeline's body obligation from the body's two triples.
-/
import proofs.«138093_j17583596110490_1_alg».proof.Proof.KIPieces4
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch rows of this kernel, as whole-buffer memrefs. -/
abbrev scM4_0 : Memref sig .tc .vmem S1x512 .f32 := Memref.whole cc4_scratch0
abbrev scM4_1 : Memref sig .tc .vmem S1x512 .f32 := Memref.whole cc4_scratch1

/-- The body's first-point test holds exactly at grid point 0. -/
theorem hcond4 : ∀ t : Fin cfg4.N, cond4 (grid4.coords t) ↔ t.val = 0 :=
  (by decide +kernel : ∀ t : Fin grid4.N, cond4 (grid4.coords t) ↔ t.val = 0)

section
-- the TensorCore's buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- THE ACCUMULATION. What the two scratch rows hold after the body at grid point `n`: the column sums (of the block, of its
    squares) of the tiles 0..n, accumulated tile by tile from zero rows. -/
def acc4 (c : Dev nD) : (n : ℕ) → n < cfg4.N → Vec F S1x512 .f32 × Vec F S1x512 .f32
  | 0, hn => (k4_pay4 (iblk4 V c 0 ⟨0, hn⟩) (iblk4 V c 1 ⟨0, hn⟩) (iblk4 V c 2 ⟨0, hn⟩) k4_pay1, k4_pay5 (iblk4 V c 0 ⟨0, hn⟩) (iblk4 V c 1 ⟨0, hn⟩) (iblk4 V c 2 ⟨0, hn⟩) k4_pay2)
  | n + 1, hn => (k4_pay4 (iblk4 V c 0 ⟨n + 1, hn⟩) (iblk4 V c 1 ⟨n + 1, hn⟩) (iblk4 V c 2 ⟨n + 1, hn⟩) (acc4 c n (Nat.lt_of_succ_lt hn)).1,
      k4_pay5 (iblk4 V c 0 ⟨n + 1, hn⟩) (iblk4 V c 1 ⟨n + 1, hn⟩) (iblk4 V c 2 ⟨n + 1, hn⟩) (acc4 c n (Nat.lt_of_succ_lt hn)).2)

theorem acc4_zero_1 (c : Dev nD) (t : Fin cfg4.N) (h : t.val = 0) :
    (acc4 V c t.val t.isLt).1 = k4_pay4 (iblk4 V c 0 t) (iblk4 V c 1 t) (iblk4 V c 2 t) k4_pay1 := by
  obtain ⟨n, hn⟩ := t
  cases n with
  | zero => rfl
  | succ n => exact absurd h (Nat.succ_ne_zero n)
theorem acc4_zero_2 (c : Dev nD) (t : Fin cfg4.N) (h : t.val = 0) :
    (acc4 V c t.val t.isLt).2 = k4_pay5 (iblk4 V c 0 t) (iblk4 V c 1 t) (iblk4 V c 2 t) k4_pay2 := by
  obtain ⟨n, hn⟩ := t
  cases n with
  | zero => rfl
  | succ n => exact absurd h (Nat.succ_ne_zero n)
theorem acc4_pos_1 (c : Dev nD) (t : Fin cfg4.N) (h : t.val ≠ 0) :
    (acc4 V c t.val t.isLt).1 = k4_pay4 (iblk4 V c 0 t) (iblk4 V c 1 t) (iblk4 V c 2 t) (acc4 V c (t.val - 1) (Nat.lt_of_le_of_lt (Nat.sub_le _ _) t.isLt)).1 := by
  obtain ⟨n, hn⟩ := t
  cases n with
  | zero => exact absurd rfl h
  | succ n => rfl
theorem acc4_pos_2 (c : Dev nD) (t : Fin cfg4.N) (h : t.val ≠ 0) :
    (acc4 V c t.val t.isLt).2 = k4_pay5 (iblk4 V c 0 t) (iblk4 V c 1 t) (iblk4 V c 2 t) (acc4 V c (t.val - 1) (Nat.lt_of_le_of_lt (Nat.sub_le _ _) t.isLt)).2 := by
  obtain ⟨n, hn⟩ := t
  cases n with
  | zero => exact absurd rfl h
  | succ n => rfl

/-- The region invariant before position `n`: before the first point the scoped rest (both scratch rows at anything) and the
    generator register; afterwards the two scratch rows at what the point before left, the other scoped buffers, the register. -/
def Phi4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem Phi4_zero (c : Dev nD) (n : ℕ) (h : n ≤ cfg4.N) (hz : n = 0) : Phi4 V c n h = Pipeline.ΦA spec4 c := by
  subst hz; rfl
theorem Phi4_succ (c : Dev nD) (n : ℕ) (hn : n < cfg4.N) :
    Phi4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl
theorem Phi4_pos (c : Dev nD) (n : ℕ) (h : n ≤ cfg4.N) (hz : n ≠ 0) :
    Phi4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The class invariant with the two scratch rows split out of the scoped rest, each owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-- The proof data of this pipeline on core `c`: the arrays as the region finds them; after the body at point `t` each input's
    buffer at its block, the block output at the tile's dense block, the two statistics outputs at the running sums; the
    invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (iblk4 V c 0 t) (iblk4 V c 1 t) (iblk4 V c 2 t)
    | ⟨4, _⟩ => (acc4 V c t.val t.isLt).1
    | ⟨5, _⟩ => (acc4 V c t.val t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem Phi4_castSucc (c : Dev nD) (t : Fin cfg4.N) :
    (dat4 V c).Φ t.castSucc = Phi4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k4_pay3 (iblk4 V c 0 t) (iblk4 V c 1 t) (iblk4 V c 2 t) := by dsimp only [dat4]
theorem after4_4 (c : Dev nD) (t : Fin cfg4.N) : (dat4 V c).after 4 t = (acc4 V c t.val t.isLt).1 := by dsimp only [dat4]
theorem after4_5 (c : Dev nD) (t : Fin cfg4.N) : (dat4 V c).after 5 t = (acc4 V c t.val t.isLt).2 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 2000000 in
/-- The body at any point: the inputs' buffers hold their blocks; at point 0 the invariant hands over both scratch rows at
    anything and the first case's triple applies, at a later point it hands them over at what the point before left and the
    second case's triple applies; either way the scratch rows go back into the invariant at this point's sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl,
    show (dat4 V c).Φ t.succ = Phi4 V c (t.val + 1) t.isLt from rfl, Phi4_succ,
    after4_0, after4_1, after4_2, after4_3, after4_4, after4_5]
  by_cases hz : t.val = 0
  · rw [Phi4_castSucc V c t, Phi4_zero V c _ _ hz, PhiA4_eq, acc4_zero_1 V c t hz, acc4_zero_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound4_A c Set.univ _ _ _ _ _ _ _ _ _ _ _ _ _ _ _ _ _ ((hcond4 t).mpr hz) (iblk4 V c 0 t) (iblk4 V c 1 t) (iblk4 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi4_castSucc V c t, Phi4_pos V c _ _ hz, acc4_pos_1 V c t hz, acc4_pos_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound4_B c Set.univ _ _ _ _ _ _ _ _ _ _ _ _ _ _ _ _ _ (fun h => hz ((hcond4 t).mp h)) (iblk4 V c 0 t) (iblk4 V c 1 t) (iblk4 V c 2 t) _ _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 (F := F) V c).Φ 0 := by
  rw [show (dat4 V c).Φ 0 = Phi4 V c 0 (Nat.zero_le _) from rfl, Phi4_zero V c 0 _ rfl]

/-- After the last point the invariant gives the class invariant back: the scratch rows' contents are forgotten. -/
theorem hout4 (c : Dev nD) : (dat4 (F := F) V c).Φ (Fin.last cfg4.N) ⊢ Pipeline.ΦA spec4 c := by
  rw [show (dat4 V c).Φ (Fin.last cfg4.N) = Phi4 V c cfg4.N (Nat.le_refl _) from rfl,
    Phi4_pos V c _ _ (by rw [show cfg4.N = 10 from N_4]; decide), PhiA4_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end

end Cert.KernelIdeal.Hand

end
-- ==== Proof.KIHalf5.lean ====
/-
  The second kernel of layer 2 (the batch-normalised, block times the second weight matrix plus its bias row) on whole
  staging buffers: its triple, the pipeline's proof data at the contents the region finds, and the pipeline's body obligation.
-/
import proofs.«138093_j17583596110490_1_alg».proof.Proof.KICommon
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the second kernel of a layer leaves in its output block: the normalised, optionally rectified block times the second weight
    matrix plus the bias row, as one term of the seven input blocks (mean is the second operand, the variance the third). -/
def out5_7 (x0 : Vec F S2000x512 .f32) (x1 x2 x3 x4 : Vec F S1x512 .f32) (x5 : Vec F S512x256 .f32) (x6 : Vec F S1x256 .f32) :
    Vec F S2000x256 .f32 :=
  k5_pay1 x0 x2 x1 x3 x4 x5 x6

set_option maxHeartbeats 1000000 in
/-- The body on whole staging buffers: the seven inputs are read and handed back, the output buffer ends at `out5_7` of them. -/
theorem sound_kernel5 (c : Dev nD) (E : Set ℕ) (i : grid5.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S2000x256 .f32) (harg8 : arg8.IsWhole)
    (x0 : Vec F S2000x512 .f32) (x1 x2 x3 x4 : Vec F S1x512 .f32) (x5 : Vec F S512x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out5_7 x0 x1 x2 x3 x4 x5 x6)) -∗ K ⟨⟩))
      ⊢ wp frame (wpE (defs₀ (F := F)) Variants.none c none) E
          (cc5__mm2_kernel i arg1 harg1 arg2 harg2 arg3 harg3 arg4 harg4 arg5 harg5 arg6 harg6 arg7 harg7 arg8 harg8) K := by
  simp only [cc5__mm2_kernel_eq_skeleton]; unfold cc5__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (View.cover_of_tiled _ S2000x256.size (by rfl)), View.canon_unit_zero hz2]
  simp only [View.readAt_eq_ld, View.ld_unit_zero (S := S2000x512) hz2, View.ld_unit_zero (S := S1x512) hz2,
    View.ld_unit_zero (S := S512x256) hz2, View.ld_unit_zero (S := S1x256) hz2]
  rfl

section
-- the TensorCore's buffer contents when the region is entered
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- The proof data of this pipeline on core `c`: the arrays as the region finds them; after the body at point `t` each input's
    buffer at its block and the output's at the body's result on the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

/-- The body at any point: the inputs' buffers hold their blocks, so the body's triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end

end Cert.KernelIdeal.Hand

end
-- ==== Proof.KIRun6.lean ====
/-
  The first kernel of layer 3 (a row tile's dense block h = x·W1 + b1, stored, and the running column sums of h and of h·h
  kept in two scratch rows) run once on whole staging buffers, in its two cases: at the first grid point both scratch rows
  are reset to zero before the tile's sums are added; at every later point they come in holding what the point before left.
  Each run ends with every buffer the body stored into written by a list of pieces the run itself determines.
-/
import proofs.«138093_j17583596110490_1_alg».proof.Proof.KICommon
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first grid point's test, as the body computes it from the grid coordinate. -/
abbrev cond6 (i : grid6.Coords) : Prop := (Scalar.cmpi .ne (Scalar.extui (Scalar.cmpi .eq (BitVec.ofNat 32 (i 0).val) 0#32)) 0#32) = 1#1

set_option maxHeartbeats 4000000 in
/-- The body at the first grid point: both accumulators are reset, then the tile's block and its column sums are stored. -/
noncomputable def kernelRun6_A (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__mm1_kernel_eq_skeleton]; unfold cc6__mm1_kernel_skel
    simp only [k6_part1_eq_skeleton]; unfold k6_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

set_option maxHeartbeats 4000000 in
/-- The body at a later grid point: the accumulators come in at what the point before left. -/
noncomputable def kernelRun6_B (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) :
    Σ' (L3 : List (View.Piece (Elt F) S2000x512 .f32)) (L4 : List (View.Piece (Elt F) S1x512 .f32)) (L5 : List (View.Piece (Elt F) S1x512 .f32))
       (LS0 : List (View.Piece (Elt F) S1x512 .f32)), { LS1 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc6__mm1_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__mm1_kernel_eq_skeleton]; unfold cc6__mm1_kernel_skel
    simp only [k6_part1_eq_skeleton]; unfold k6_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [H6]; · iexists _; iexact H6
    iexists _; iexact H7

end Cert.KernelIdeal.Hand

end
-- ==== Proof.KIPieces6.lean ====
/-
  What the first kernel of layer 3 leaves, read back: in each of its two cases every buffer the body wrote holds a named
  term of the input blocks — the dense block k6_pay3, and in the scratch rows and the statistics outputs k6_pay4 / k6_pay5
  of the block and of what the scratch rows held (zero rows at the first point) — and the body's triple restated with them.
-/
import proofs.«138093_j17583596110490_1_alg».proof.Proof.KIRun6
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem piece6_A_3 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg4.view.read (Elt F) (arg4.view.writes (Elt F) f (kernelRun6_A c i arg1 harg1 arg2 harg2 arg3 harg3 arg4 harg4 arg5 harg5 arg6 harg6 arg7 harg7 arg8 harg8 hc0 x0 x1 x2).1) = k6_pay3 x0 x1 x2 := by
  rw [View.read_writes_eq_canon _ _ _ (View.cover_of_tiledL _ S2000x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_A_4 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg5.view.read (Elt F) (arg5.view.writes (Elt F) f (kernelRun6_A c i arg1 harg1 arg2 harg2 arg3 harg3 arg4 harg4 arg5 harg5 arg6 harg6 arg7 harg7 arg8 harg8 hc0 x0 x1 x2).2.1) = k6_pay4 x0 x1 x2 (k6_pay1 (F := F)) := by
  rw [View.read_writes_eq_canon _ _ _ (View.cover_of_tiledL _ S1x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_A_5 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg6.view.read (Elt F) (arg6.view.writes (Elt F) f (kernelRun6_A c i arg1 harg1 arg2 harg2 arg3 harg3 arg4 harg4 arg5 harg5 arg6 harg6 arg7 harg7 arg8 harg8 hc0 x0 x1 x2).2.2.1) = k6_pay5 x0 x1 x2 (k6_pay2 (F := F)) := by
  rw [View.read_writes_eq_canon _ _ _ (View.cover_of_tiledL _ S1x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_A_S0 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg7.view.read (Elt F) (arg7.view.writes (Elt F) f (kernelRun6_A c i arg1 harg1 arg2 harg2 arg3 harg3 arg4 harg4 arg5 harg5 arg6 harg6 arg7 harg7 arg8 harg8 hc0 x0 x1 x2).2.2.2.1) = k6_pay4 x0 x1 x2 (k6_pay1 (F := F)) := by
  rw [View.read_writes_eq_canon _ _ _ (View.cover_of_tiledL _ S1x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_A_S1 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (f) :
    arg8.view.read (Elt F) (arg8.view.writes (Elt F) f (kernelRun6_A c i arg1 harg1 arg2 harg2 arg3 harg3 arg4 harg4 arg5 harg5 arg6 harg6 arg7 harg7 arg8 harg8 hc0 x0 x1 x2).2.2.2.2.1) = k6_pay5 x0 x1 x2 (k6_pay2 (F := F)) := by
  rw [View.read_writes_eq_canon _ _ _ (View.cover_of_tiledL _ S1x512.size (by sl_kernel_rfl))]
  unfold kernelRun6_A; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_3 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg4.view.read (Elt F) (arg4.view.writes (Elt F) f (kernelRun6_B c i arg1 harg1 arg2 harg2 arg3 harg3 arg4 harg4 arg5 harg5 arg6 harg6 arg7 harg7 arg8 harg8 hc0 x0 x1 x2 xs0 xs1).1) = k6_pay3 x0 x1 x2 := by
  rw [View.read_writes_eq_canon _ _ _ (View.cover_of_tiledL _ S2000x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_4 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg5.view.read (Elt F) (arg5.view.writes (Elt F) f (kernelRun6_B c i arg1 harg1 arg2 harg2 arg3 harg3 arg4 harg4 arg5 harg5 arg6 harg6 arg7 harg7 arg8 harg8 hc0 x0 x1 x2 xs0 xs1).2.1) = k6_pay4 x0 x1 x2 xs0 := by
  rw [View.read_writes_eq_canon _ _ _ (View.cover_of_tiledL _ S1x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_5 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg6.view.read (Elt F) (arg6.view.writes (Elt F) f (kernelRun6_B c i arg1 harg1 arg2 harg2 arg3 harg3 arg4 harg4 arg5 harg5 arg6 harg6 arg7 harg7 arg8 harg8 hc0 x0 x1 x2 xs0 xs1).2.2.1) = k6_pay5 x0 x1 x2 xs1 := by
  rw [View.read_writes_eq_canon _ _ _ (View.cover_of_tiledL _ S1x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_S0 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg7.view.read (Elt F) (arg7.view.writes (Elt F) f (kernelRun6_B c i arg1 harg1 arg2 harg2 arg3 harg3 arg4 harg4 arg5 harg5 arg6 harg6 arg7 harg7 arg8 harg8 hc0 x0 x1 x2 xs0 xs1).2.2.2.1) = k6_pay4 x0 x1 x2 xs0 := by
  rw [View.read_writes_eq_canon _ _ _ (View.cover_of_tiledL _ S1x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

theorem piece6_B_S1 (c : Dev nD) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (f) :
    arg8.view.read (Elt F) (arg8.view.writes (Elt F) f (kernelRun6_B c i arg1 harg1 arg2 harg2 arg3 harg3 arg4 harg4 arg5 harg5 arg6 harg6 arg7 harg7 arg8 harg8 hc0 x0 x1 x2 xs0 xs1).2.2.2.2.1) = k6_pay5 x0 x1 x2 xs1 := by
  rw [View.read_writes_eq_canon _ _ _ (View.cover_of_tiledL _ S1x512.size (by sl_kernel_rfl))]
  unfold kernelRun6_B; dsimp only; sl_unfold_words
  simp only [View.canon_unit_zero (S := S2000x512) hz2, View.canon_unit_zero (S := S1x512) hz2, View.canon_cons_unit_zero (S := S1x512) hz2,
    readCov_cons_unit_zero (S := S1x512) _ hz2, View.readCov_unit_zero (S := S1x512) _ hz2, View.readAt_eq_ld,
    Memref.IsWhole.read_unread, View.ld_unit_zero (S := S2000x256) hz2, View.ld_unit_zero (S := S256x512) hz2, View.ld_unit_zero (S := S1x512) hz2]

/-- The body at the first grid point, with what it leaves named: the tile's dense block, and in both scratch rows and both
    statistics outputs the column sums of the block (of its squares) added to zero. -/
theorem sound6_A (c : Dev nD) (E : Set ℕ) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : cond6 i)
    (x0 : Vec F S2000x256 .f32) (x1 : Vec F S256x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k6_pay3 x0 x1 x2)
            ∗ owns (c : Thread nD τ) arg5 fullShare (k6_pay4 x0 x1 x2 (k6_pay1 (F := F))) ∗ owns (c : Thread nD τ) arg6 fullShare (k6_pay5 x0 x1 x2 (k6_pay2 (F := F)))
            ∗ owns (c : Thread nD τ) arg7 fullShare (k6_pay4 x0 x1 x2 (k6_pay1 (F := F))) ∗ owns (c : Thread nD τ) arg8 fullShare (k6_pay5 x0 x1 x2 (k6_pay2 (F := F)))) -∗ K ⟨⟩))
      ⊢ wp frame (wpE (defs₀ (F := F)) Variants.none c none) E (cc6__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun6_A c i arg1 harg1 arg2 harg2 arg3 harg3 arg4 harg4 arg5 harg5 arg6 harg6 arg7 harg7 arg8 harg8 hc0 x0 x1 x2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece6_A_3 c i arg1 harg1 arg2 harg2 arg3 harg3 arg4 harg4 arg5 harg5 arg6 harg6 arg7 harg7 arg8 harg8 hc0 x0 x1 x2)); iexact H3
  isplitl [H4]; · iapply (owns_of_writes c arg5 _ _ (piece6_A_4 c i arg1 harg1 arg2 harg2 arg3 harg3 arg4 harg4 arg5 harg5 arg6 harg6 arg7 harg7 arg8 harg8 hc0 x0 x1 x2)); iexact H4
  isplitl [H5]; · iapply (owns_of_writes c arg6 _ _ (piece6_A_5 c i arg1 harg1 arg2 harg2 arg3 harg3 arg4 harg4 arg5 harg5 arg6 harg6 arg7 harg7 arg8 harg8 hc0 x0 x1 x2)); iexact H5
  isplitl [H6]; · iapply (owns_of_writes c arg7 _ _ (piece6_A_S0 c i arg1 harg1 arg2 harg2 arg3 harg3 arg4 harg4 arg5 harg5 arg6 harg6 arg7 harg7 arg8 harg8 hc0 x0 x1 x2)); iexact H6
  iapply (owns_of_writes c arg8 _ _ (piece6_A_S1 c i arg1 harg1 arg2 harg2 arg3 harg3 arg4 harg4 arg5 harg5 arg6 harg6 arg7 harg7 arg8 harg8 hc0 x0 x1 x2)); iexact H7

/-- The body at a later grid point, with what it leaves named: the tile's dense block, and in both scratch rows and both
    statistics outputs the column sums of the block (of its squares) added to what the scratch rows held. -/
theorem sound6_B (c : Dev nD) (E : Set ℕ) (i : grid6.Coords) (arg1 : Memref sig .tc .vmem S2000x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S2000x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (hc0 : ¬cond6 i)
    (x0 : Vec F S2000x256 .f32) (x1 : Vec F S256x512 .f32) (x2 : Vec F S1x512 .f32) (xs0 xs1 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare (k6_pay3 x0 x1 x2)
            ∗ owns (c : Thread nD τ) arg5 fullShare (k6_pay4 x0 x1 x2 xs0) ∗ owns (c : Thread nD τ) arg6 fullShare (k6_pay5 x0 x1 x2 xs1)
            ∗ owns (c : Thread nD τ) arg7 fullShare (k6_pay4 x0 x1 x2 xs0) ∗ owns (c : Thread nD τ) arg8 fullShare (k6_pay5 x0 x1 x2 xs1)) -∗ K ⟨⟩))
      ⊢ wp frame (wpE (defs₀ (F := F)) Variants.none c none) E (cc6__mm1_kernel i arg1 harg1 arg2 harg2 arg3 harg3 arg4 harg4 arg5 harg5 arg6 harg6 arg7 harg7 arg8 harg8) K := by
  iintro ⟨H0, H1, H2, H3, H4, H5, H6, H7, Hk⟩
  iapply ((kernelRun6_B c i arg1 harg1 arg2 harg2 arg3 harg3 arg4 harg4 arg5 harg5 arg6 harg6 arg7 harg7 arg8 harg8 hc0 x0 x1 x2 xs0 xs1).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  iapply Hk
  isplitl [H0]; · iexact H0
  isplitl [H1]; · iexact H1
  isplitl [H2]; · iexact H2
  isplitl [H3]; · iapply (owns_of_writes c arg4 _ _ (piece6_B_3 c i arg1 harg1 arg2 harg2 arg3 harg3 arg4 harg4 arg5 harg5 arg6 harg6 arg7 harg7 arg8 harg8 hc0 x0 x1 x2 xs0 xs1)); iexact H3
  isplitl [H4]; · iapply (owns_of_writes c arg5 _ _ (piece6_B_4 c i arg1 harg1 arg2 harg2 arg3 harg3 arg4 harg4 arg5 harg5 arg6 harg6 arg7 harg7 arg8 harg8 hc0 x0 x1 x2 xs0 xs1)); iexact H4
  isplitl [H5]; · iapply (owns_of_writes c arg6 _ _ (piece6_B_5 c i arg1 harg1 arg2 harg2 arg3 harg3 arg4 harg4 arg5 harg5 arg6 harg6 arg7 harg7 arg8 harg8 hc0 x0 x1 x2 xs0 xs1)); iexact H5
  isplitl [H6]; · iapply (owns_of_writes c arg7 _ _ (piece6_B_S0 c i arg1 harg1 arg2 harg2 arg3 harg3 arg4 harg4 arg5 harg5 arg6 harg6 arg7 harg7 arg8 harg8 hc0 x0 x1 x2 xs0 xs1)); iexact H6
  iapply (owns_of_writes c arg8 _ _ (piece6_B_S1 c i arg1 harg1 arg2 harg2 arg3 harg3 arg4 harg4 arg5 harg5 arg6 harg6 arg7 harg7 arg8 harg8 hc0 x0 x1 x2 xs0 xs1)); iexact H7

end Cert.KernelIdeal.Hand

end
-- ==== Proof.KIHalf6.lean ====
/-
  The first kernel of layer 3 as a pipeline: the running column sums after each grid point (`acc6`), the region invariant
  that carries the two scratch rows from point to point (`Phi6`), the proof data at the contents the region finds, and the
  pipeline's body obligation from the body's two triples.
-/
import proofs.«138093_j17583596110490_1_alg».proof.Proof.KIPieces6
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two scratch rows of this kernel, as whole-buffer memrefs. -/
abbrev scM6_0 : Memref sig .tc .vmem S1x512 .f32 := Memref.whole cc6_scratch0
abbrev scM6_1 : Memref sig .tc .vmem S1x512 .f32 := Memref.whole cc6_scratch1

/-- The body's first-point test holds exactly at grid point 0. -/
theorem hcond6 : ∀ t : Fin cfg6.N, cond6 (grid6.coords t) ↔ t.val = 0 :=
  (by decide +kernel : ∀ t : Fin grid6.N, cond6 (grid6.coords t) ↔ t.val = 0)

section
-- the TensorCore's buffer contents when the region is entered
variable (V : (c : Dev nD) → (b : Ref sig .tc) → Buf (Elt F) ((c : Thread nD τ).loc b))

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- THE ACCUMULATION. What the two scratch rows hold after the body at grid point `n`: the column sums (of the block, of its
    squares) of the tiles 0..n, accumulated tile by tile from zero rows. -/
def acc6 (c : Dev nD) : (n : ℕ) → n < cfg6.N → Vec F S1x512 .f32 × Vec F S1x512 .f32
  | 0, hn => (k6_pay4 (iblk6 V c 0 ⟨0, hn⟩) (iblk6 V c 1 ⟨0, hn⟩) (iblk6 V c 2 ⟨0, hn⟩) k6_pay1, k6_pay5 (iblk6 V c 0 ⟨0, hn⟩) (iblk6 V c 1 ⟨0, hn⟩) (iblk6 V c 2 ⟨0, hn⟩) k6_pay2)
  | n + 1, hn => (k6_pay4 (iblk6 V c 0 ⟨n + 1, hn⟩) (iblk6 V c 1 ⟨n + 1, hn⟩) (iblk6 V c 2 ⟨n + 1, hn⟩) (acc6 c n (Nat.lt_of_succ_lt hn)).1,
      k6_pay5 (iblk6 V c 0 ⟨n + 1, hn⟩) (iblk6 V c 1 ⟨n + 1, hn⟩) (iblk6 V c 2 ⟨n + 1, hn⟩) (acc6 c n (Nat.lt_of_succ_lt hn)).2)

theorem acc6_zero_1 (c : Dev nD) (t : Fin cfg6.N) (h : t.val = 0) :
    (acc6 V c t.val t.isLt).1 = k6_pay4 (iblk6 V c 0 t) (iblk6 V c 1 t) (iblk6 V c 2 t) k6_pay1 := by
  obtain ⟨n, hn⟩ := t
  cases n with
  | zero => rfl
  | succ n => exact absurd h (Nat.succ_ne_zero n)
theorem acc6_zero_2 (c : Dev nD) (t : Fin cfg6.N) (h : t.val = 0) :
    (acc6 V c t.val t.isLt).2 = k6_pay5 (iblk6 V c 0 t) (iblk6 V c 1 t) (iblk6 V c 2 t) k6_pay2 := by
  obtain ⟨n, hn⟩ := t
  cases n with
  | zero => rfl
  | succ n => exact absurd h (Nat.succ_ne_zero n)
theorem acc6_pos_1 (c : Dev nD) (t : Fin cfg6.N) (h : t.val ≠ 0) :
    (acc6 V c t.val t.isLt).1 = k6_pay4 (iblk6 V c 0 t) (iblk6 V c 1 t) (iblk6 V c 2 t) (acc6 V c (t.val - 1) (Nat.lt_of_le_of_lt (Nat.sub_le _ _) t.isLt)).1 := by
  obtain ⟨n, hn⟩ := t
  cases n with
  | zero => exact absurd rfl h
  | succ n => rfl
theorem acc6_pos_2 (c : Dev nD) (t : Fin cfg6.N) (h : t.val ≠ 0) :
    (acc6 V c t.val t.isLt).2 = k6_pay5 (iblk6 V c 0 t) (iblk6 V c 1 t) (iblk6 V c 2 t) (acc6 V c (t.val - 1) (Nat.lt_of_le_of_lt (Nat.sub_le _ _) t.isLt)).2 := by
  obtain ⟨n, hn⟩ := t
  cases n with
  | zero => exact absurd rfl h
  | succ n => rfl

/-- The region invariant before position `n`: before the first point the scoped rest (both scratch rows at anything) and the
    generator register; afterwards the two scratch rows at what the point before left, the other scoped buffers, the register. -/
def Phi6 (c : Dev nD) : (n : ℕ) → n ≤ cfg6.N → sProp 𝕄
  | 0, _ => Pipeline.ΦA spec6 c
  | n + 1, hn => iprop(iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) (Val := Elt F) spec6 c [cc6_scratch0, cc6_scratch1]) ∗ (∃ r, prngReg c r))

theorem Phi6_zero (c : Dev nD) (n : ℕ) (h : n ≤ cfg6.N) (hz : n = 0) : Phi6 V c n h = Pipeline.ΦA spec6 c := by
  subst hz; rfl
theorem Phi6_succ (c : Dev nD) (n : ℕ) (hn : n < cfg6.N) :
    Phi6 V c (n + 1) hn = iprop(iprop(iprop(owns (c : Thread nD τ) scM6_0 fullShare (acc6 V c n hn).1 ∗ owns (c : Thread nD τ) scM6_1 fullShare (acc6 V c n hn).2)
      ∗ Pipeline.scopedRestBut (Ix := Unit) (Name := ℕ) (U := UR sig nD τ) (Lvl := ℕ) (Val := Elt F) spec6 c [cc6_scratch0, cc6_scratch1]) ∗ (∃ r, prngReg c r)) := rfl
theorem Phi6_pos (c : Dev nD) (n : ℕ) (h : n ≤ cfg6.N) (hz : n ≠ 0) :
    Phi6 V c n h = iprop(iprop(iprop(owns (c : Thread nD τ) scM6_0 fullShare (acc6 V c (n - 1) (by omega)).1 ∗ owns (c : Thread nD τ) scM6_1 fullShare (acc6 V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-- The class invariant with the two scratch rows split out of the scoped rest, each owned at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-- The proof data of this pipeline on core `c`: the arrays as the region finds them; after the body at point `t` each input's
    buffer at its block, the block output at the tile's dense block, the two statistics outputs at the running sums; the
    invariant `Phi6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (iblk6 V c 0 t) (iblk6 V c 1 t) (iblk6 V c 2 t)
    | ⟨4, _⟩ => (acc6 V c t.val t.isLt).1
    | ⟨5, _⟩ => (acc6 V c t.val t.isLt).2
  Φ t := Phi6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem Phi6_castSucc (c : Dev nD) (t : Fin cfg6.N) :
    (dat6 V c).Φ t.castSucc = Phi6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = k6_pay3 (iblk6 V c 0 t) (iblk6 V c 1 t) (iblk6 V c 2 t) := by dsimp only [dat6]
theorem after6_4 (c : Dev nD) (t : Fin cfg6.N) : (dat6 V c).after 4 t = (acc6 V c t.val t.isLt).1 := by dsimp only [dat6]
theorem after6_5 (c : Dev nD) (t : Fin cfg6.N) : (dat6 V c).after 5 t = (acc6 V c t.val t.isLt).2 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

set_option maxHeartbeats 2000000 in
/-- The body at any point: the inputs' buffers hold their blocks; at point 0 the invariant hands over both scratch rows at
    anything and the first case's triple applies, at a later point it hands them over at what the point before left and the
    second case's triple applies; either way the scratch rows go back into the invariant at this point's sums. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl,
    show (dat6 V c).Φ t.succ = Phi6 V c (t.val + 1) t.isLt from rfl, Phi6_succ,
    after6_0, after6_1, after6_2, after6_3, after6_4, after6_5]
  by_cases hz : t.val = 0
  · rw [Phi6_castSucc V c t, Phi6_zero V c _ _ hz, PhiA6_eq, acc6_zero_1 V c t hz, acc6_zero_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound6_A c Set.univ _ _ _ _ _ _ _ _ _ _ _ _ _ _ _ _ _ ((hcond6 t).mpr hz) (iblk6 V c 0 t) (iblk6 V c 1 t) (iblk6 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi6_castSucc V c t, Phi6_pos V c _ _ hz, acc6_pos_1 V c t hz, acc6_pos_2 V c t hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply (sound6_B c Set.univ _ _ _ _ _ _ _ _ _ _ _ _ _ _ _ _ _ (fun h => hz ((hcond6 t).mp h)) (iblk6 V c 0 t) (iblk6 V c 1 t) (iblk6 V c 2 t) _ _ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 (F := F) V c).Φ 0 := by
  rw [show (dat6 V c).Φ 0 = Phi6 V c 0 (Nat.zero_le _) from rfl, Phi6_zero V c 0 _ rfl]

/-- After the last point the invariant gives the class invariant back: the scratch rows' contents are forgotten. -/
theorem hout6 (c : Dev nD) : (dat6 (F := F) V c).Φ (Fin.last cfg6.N) ⊢ Pipeline.ΦA spec6 c := by
  rw [show (dat6 V c).Φ (Fin.last cfg6.N) = Phi6 V c cfg6.N (Nat.le_refl _) from rfl,
    Phi6_pos V c _ _ (by rw [show cfg6.N = 10 from N_6]; decide), PhiA6_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

end

end Cert.KernelIdeal.Hand

end
-- ==== Proof.KIHalf7.lean ====
/-
  The second kernel of layer 3 (the batch-normalised, block times the second weight matrix plus its bias row) on whole
  staging buffers: its triple, the pipeline's proof data at the contents the region finds, and the pipeline's body obligation.
-/
import proofs.«138093_j17583596110490_1_alg».proof.Proof.KICommon
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the second kernel of a layer leaves in its output block: the normalised, optionally rectified block times the second weight
    matrix plus the bias row, as one term of the seven input blocks (mean is the second operand, the variance the third). -/
def out7_7 (x0 : Vec F S2000x512 .f32) (x1 x2 x3 x4 : Vec F S1x512 .f32) (x5 : Vec F S512x256 .f32) (x6 : Vec F S1x256 .f32) :
    Vec F S2000x256 .f32 :=
  k7_pay1 x0 x2 x1 x3 x4 x5 x6

set_option maxHeartbeats 1000000 in
/-- The body on whole staging buffers: the seven inputs are read and handed back, the output buffer ends at `out7_7` of them. -/
theorem sound_kernel7 (c : Dev nD) (E : Set ℕ) (i : grid7.Coords)
    (arg1 : Memref sig .tc .vmem S2000x512 .f32) (harg1 : arg1.IsWhole) (arg2 : Memref sig .tc .vmem S1x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1x512 .f32) (harg5 : arg5.IsWhole) (arg6 : Memref sig .tc .vmem S512x256 .f32) (harg6 : arg6.IsWhole)
    (arg7 : Memref sig .tc .vmem S1x256 .f32) (harg7 : arg7.IsWhole) (arg8 : Memref sig .tc .vmem S2000x256 .f32) (harg8 : arg8.IsWhole)
    (x0 : Vec F S2000x512 .f32) (x1 x2 x3 x4 : Vec F S1x512 .f32) (x5 : Vec F S512x256 .f32) (x6 : Vec F S1x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out7_7 x0 x1 x2 x3 x4 x5 x6)) -∗ K ⟨⟩))
      ⊢ wp frame (wpE (defs₀ (F := F)) Variants.none c none) E
          (cc7__mm2_kernel i arg1 harg1 arg2 harg2 arg3 harg3 arg4 harg4 arg5 harg5 arg6 harg6 arg7 harg7 arg8 harg8) K := by
  simp only [cc7__mm2_kernel_eq_skeleton]; unfold cc7__mm2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (View.cover_of_tiled _ S2000x256.size (by rfl)), View.canon_unit_zero hz2]
  simp only [View.readAt_eq_ld, View.ld_unit_zero (S := S2000x512) hz2, View.ld_unit_zero (S := S1x512) hz2,
    View.ld_unit_zero (S := S512x256) hz2, View.ld_unit_zero (S := S1x256) hz2]
  rfl

section
-- the TensorCore's buffer contents when the region is entered
variable (V : (c : Dev nD) → (b : Ref sig .tc) → Buf (Elt F) ((c : Thread nD τ).loc b))

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not. -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- The proof data of this pipeline on core `c`: the arrays as the region finds them; after the body at point `t` each input's
    buffer at its block and the output's at the body's result on the input blocks; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => out7_7 (iblk7 V c 0 t) (iblk7 V c 1 t) (iblk7 V c 2 t) (iblk7 V c 3 t) (iblk7 V c 4 t) (iblk7 V c 5 t) (iblk7 V c 6 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) (iblk7 V c 6 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t))

/-- The body at any point: the inputs' buffers hold their blocks, so the body's triple applies; the invariant and the core's
    dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end

end Cert.KernelIdeal.Hand

end
-- ==== Proof.KIFrame.lean ====
/-
  The whole program's run. @main is 25 items — host stretches and the eight kernel launches of the four layers — and the buffer
  contents at each boundary are a fold from the launch memory: a host stretch applies its operations, a kernel region leaves its
  arrays at what its pipeline's write-backs leave. Each region is a segment over the thread state "every unscoped buffer at the
  boundary's contents"; the launch theorem for a list of segments gives the run, from which the frame (every argument array ends as
  launched) is read: no host stretch writes an argument and a region only writes its output arrays.
-/
import proofs.«138093_j17583596110490_1_alg».proof.Proof.KIHalf0
import proofs.«138093_j17583596110490_1_alg».proof.Proof.KIHalf1
import proofs.«138093_j17583596110490_1_alg».proof.Proof.KIHalf2
import proofs.«138093_j17583596110490_1_alg».proof.Proof.KIHalf3
import proofs.«138093_j17583596110490_1_alg».proof.Proof.KIHalf4
import proofs.«138093_j17583596110490_1_alg».proof.Proof.KIHalf5
import proofs.«138093_j17583596110490_1_alg».proof.Proof.KIHalf6
import proofs.«138093_j17583596110490_1_alg».proof.Proof.KIHalf7
import proofs.«138093_j17583596110490_1_alg».proof.Proof.Gen.KernelIdeal.Regions
import proofs.«138093_j17583596110490_1_alg».proof.Proof.Gen.KernelIdeal.Launch
import proofs.«138093_j17583596110490_1_alg».proof.Proof.Gen.KernelIdeal.Skeleton
import proofs.«138093_j17583596110490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main's 25 items: a fold from the launch memory -/

/-- Core `c`'s buffers at launch. -/
abbrev W0 : Dev nD → Valuation τ sig (Elt F) := fun c b => (s₀ m ρ).mem ((c : Dev nD), b)
/-- After item 0, the host stretch `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After item 1, the host stretch `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- After item 2, the host stretch `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- The contents region 0 is entered from, read at the TensorCore's references. -/
abbrev V3 : (c : Dev nD) → (b : Ref sig .tc) → Buf (Elt F) ((c : Thread nD τ).loc b) := fun c b => W3 m ρ c b
/-- After item 3, kernel region 0: its arrays at what the pipeline's write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- Region 0 leaves every buffer but its output arrays as it found it: an input window's array is never written back. -/
theorem W4_of (c : Dev nD) (r : Ref sig .tc) (h : r ∉ ([main_v21_0, main_v21_1, main_v21_2] : List (Ref sig .tc))) :
    W4 m ρ c (Proc.devRef .tc r) = W3 m ρ c (Proc.devRef .tc r) := by
  by_cases hw : ∃ w, Pipeline.arrRef spec0 w = r
  · obtain ⟨w, rfl⟩ := hw
    rw [W4_arr]
    have hcases : ∀ w : Fin 6, w = 0 ∨ w = 1 ∨ w = 2 ∨ w = 3 ∨ w = 4 ∨ w = 5 := by decide
    rcases hcases w with rfl | rfl | rfl | rfl | rfl | rfl
    · exact ((dat0 (V3 m ρ) c).arrAt_in 0 rfl _).trans (A_eq0 _ c 0)
    · exact ((dat0 (V3 m ρ) c).arrAt_in 1 rfl _).trans (A_eq0 _ c 1)
    · exact ((dat0 (V3 m ρ) c).arrAt_in 2 rfl _).trans (A_eq0 _ c 2)
    · exact absurd (by decide) h
    · exact absurd (by decide) h
    · exact absurd (by decide) h
  · exact W4_of_ne m ρ c r (fun w e => hw ⟨w, e⟩)
/-- After item 4, the host stretch `hostOps1`. -/
abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
/-- The contents region 1 is entered from, read at the TensorCore's references. -/
abbrev V5 : (c : Dev nD) → (b : Ref sig .tc) → Buf (Elt F) ((c : Thread nD τ).loc b) := fun c b => W5 m ρ c b
/-- After item 5, kernel region 1: its arrays at what the pipeline's write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- Region 1 leaves every buffer but its output arrays as it found it: an input window's array is never written back. -/
theorem W6_of (c : Dev nD) (r : Ref sig .tc) (h : r ∉ ([main_v28] : List (Ref sig .tc))) :
    W6 m ρ c (Proc.devRef .tc r) = W5 m ρ c (Proc.devRef .tc r) := by
  by_cases hw : ∃ w, Pipeline.arrRef spec1 w = r
  · obtain ⟨w, rfl⟩ := hw
    rw [W6_arr]
    have hcases : ∀ w : Fin 8, w = 0 ∨ w = 1 ∨ w = 2 ∨ w = 3 ∨ w = 4 ∨ w = 5 ∨ w = 6 ∨ w = 7 := by decide
    rcases hcases w with rfl | rfl | rfl | rfl | rfl | rfl | rfl | rfl
    · exact ((dat1 (V5 m ρ) c).arrAt_in 0 rfl _).trans (A_eq1 _ c 0)
    · exact ((dat1 (V5 m ρ) c).arrAt_in 1 rfl _).trans (A_eq1 _ c 1)
    · exact ((dat1 (V5 m ρ) c).arrAt_in 2 rfl _).trans (A_eq1 _ c 2)
    · exact ((dat1 (V5 m ρ) c).arrAt_in 3 rfl _).trans (A_eq1 _ c 3)
    · exact ((dat1 (V5 m ρ) c).arrAt_in 4 rfl _).trans (A_eq1 _ c 4)
    · exact ((dat1 (V5 m ρ) c).arrAt_in 5 rfl _).trans (A_eq1 _ c 5)
    · exact ((dat1 (V5 m ρ) c).arrAt_in 6 rfl _).trans (A_eq1 _ c 6)
    · exact absurd (by decide) h
  · exact W6_of_ne m ρ c r (fun w e => hw ⟨w, e⟩)
/-- After item 6, the host stretch `hostOps2`. -/
abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
/-- After item 7, the host stretch `hostOps2_1`. -/
abbrev W8 : Dev nD → Valuation τ sig (Elt F) := fun c => StableHlo.after hostOps2_1 (W7 m ρ c)
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h
/-- After item 8, the host stretch `hostOps2_2`. -/
abbrev W9 : Dev nD → Valuation τ sig (Elt F) := fun c => StableHlo.after hostOps2_2 (W8 m ρ c)
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h
/-- The contents region 2 is entered from, read at the TensorCore's references. -/
abbrev V9 : (c : Dev nD) → (b : Ref sig .tc) → Buf (Elt F) ((c : Thread nD τ).loc b) := fun c b => W9 m ρ c b
/-- After item 9, kernel region 2: its arrays at what the pipeline's write-backs leave, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)
/-- Region 2 leaves every buffer but its output arrays as it found it: an input window's array is never written back. -/
theorem W10_of (c : Dev nD) (r : Ref sig .tc) (h : r ∉ ([main_v46_0, main_v46_1, main_v46_2] : List (Ref sig .tc))) :
    W10 m ρ c (Proc.devRef .tc r) = W9 m ρ c (Proc.devRef .tc r) := by
  by_cases hw : ∃ w, Pipeline.arrRef spec2 w = r
  · obtain ⟨w, rfl⟩ := hw
    rw [W10_arr]
    have hcases : ∀ w : Fin 6, w = 0 ∨ w = 1 ∨ w = 2 ∨ w = 3 ∨ w = 4 ∨ w = 5 := by decide
    rcases hcases w with rfl | rfl | rfl | rfl | rfl | rfl
    · exact ((dat2 (V9 m ρ) c).arrAt_in 0 rfl _).trans (A_eq2 _ c 0)
    · exact ((dat2 (V9 m ρ) c).arrAt_in 1 rfl _).trans (A_eq2 _ c 1)
    · exact ((dat2 (V9 m ρ) c).arrAt_in 2 rfl _).trans (A_eq2 _ c 2)
    · exact absurd (by decide) h
    · exact absurd (by decide) h
    · exact absurd (by decide) h
  · exact W10_of_ne m ρ c r (fun w e => hw ⟨w, e⟩)
/-- After item 10, the host stretch `hostOps3`. -/
abbrev W11 : Dev nD → Valuation τ sig (Elt F) := fun c => StableHlo.after hostOps3 (W10 m ρ c)
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
/-- The contents region 3 is entered from, read at the TensorCore's references. -/
abbrev V11 : (c : Dev nD) → (b : Ref sig .tc) → Buf (Elt F) ((c : Thread nD τ).loc b) := fun c b => W11 m ρ c b
/-- After item 11, kernel region 3: its arrays at what the pipeline's write-backs leave, every other buffer as entered. -/
def W12 (c : Dev nD) : Valuation τ sig (Elt F) :=
  Pipeline.withArrays spec3 c (W11 m ρ c) fun w => (dat3 (V11 m ρ) c).arrAt w cfg3.N
theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev V12 : (c : Dev nD) → (b : Ref sig .tc) → Buf (Elt F) ((c : Thread nD τ).loc b) := fun c b => W12 m ρ c b
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)
/-- Region 3 leaves every buffer but its output arrays as it found it: an input window's array is never written back. -/
theorem W12_of (c : Dev nD) (r : Ref sig .tc) (h : r ∉ ([main_v53] : List (Ref sig .tc))) :
    W12 m ρ c (Proc.devRef .tc r) = W11 m ρ c (Proc.devRef .tc r) := by
  by_cases hw : ∃ w, Pipeline.arrRef spec3 w = r
  · obtain ⟨w, rfl⟩ := hw
    rw [W12_arr]
    have hcases : ∀ w : Fin 8, w = 0 ∨ w = 1 ∨ w = 2 ∨ w = 3 ∨ w = 4 ∨ w = 5 ∨ w = 6 ∨ w = 7 := by decide
    rcases hcases w with rfl | rfl | rfl | rfl | rfl | rfl | rfl | rfl
    · exact ((dat3 (V11 m ρ) c).arrAt_in 0 rfl _).trans (A_eq3 _ c 0)
    · exact ((dat3 (V11 m ρ) c).arrAt_in 1 rfl _).trans (A_eq3 _ c 1)
    · exact ((dat3 (V11 m ρ) c).arrAt_in 2 rfl _).trans (A_eq3 _ c 2)
    · exact ((dat3 (V11 m ρ) c).arrAt_in 3 rfl _).trans (A_eq3 _ c 3)
    · exact ((dat3 (V11 m ρ) c).arrAt_in 4 rfl _).trans (A_eq3 _ c 4)
    · exact ((dat3 (V11 m ρ) c).arrAt_in 5 rfl _).trans (A_eq3 _ c 5)
    · exact ((dat3 (V11 m ρ) c).arrAt_in 6 rfl _).trans (A_eq3 _ c 6)
    · exact absurd (by decide) h
  · exact W12_of_ne m ρ c r (fun w e => hw ⟨w, e⟩)
/-- After item 12, the host stretch `hostOps4`. -/
abbrev W13 : Dev nD → Valuation τ sig (Elt F) := fun c => StableHlo.after hostOps4 (W12 m ρ c)
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h
/-- After item 13, the host stretch `hostOps4_1`. -/
abbrev W14 : Dev nD → Valuation τ sig (Elt F) := fun c => StableHlo.after hostOps4_1 (W13 m ρ c)
theorem W14_of (c : Dev nD) (r : Ref sig .tc) (h : r ∉ hostOps4_1_W) : W14 m ρ c (Proc.devRef .tc r) = W13 m ρ c (Proc.devRef .tc r) :=
  StableHlo.after_of_writes_sub hostOps4_1 _ hostOps4_1_writes h
/-- After item 14, the host stretch `hostOps4_2`. -/
abbrev W15 : Dev nD → Valuation τ sig (Elt F) := fun c => StableHlo.after hostOps4_2 (W14 m ρ c)
theorem W15_of (c : Dev nD) (r : Ref sig .tc) (h : r ∉ hostOps4_2_W) : W15 m ρ c (Proc.devRef .tc r) = W14 m ρ c (Proc.devRef .tc r) :=
  StableHlo.after_of_writes_sub hostOps4_2 _ hostOps4_2_writes h
/-- The contents region 4 is entered from, read at the TensorCore's references. -/
abbrev V15 : (c : Dev nD) → (b : Ref sig .tc) → Buf (Elt F) ((c : Thread nD τ).loc b) := fun c b => W15 m ρ c b
/-- After item 15, kernel region 4: its arrays at what the pipeline's write-backs leave, every other buffer as entered. -/
def W16 (c : Dev nD) : Valuation τ sig (Elt F) :=
  Pipeline.withArrays spec4 c (W15 m ρ c) fun w => (dat4 (V15 m ρ) c).arrAt w cfg4.N
theorem W16_arr (c : Dev nD) (w : Fin cfg4.W) :
    W16 m ρ c (Proc.devRef .tc (Pipeline.arrRef spec4 w)) = (dat4 (V15 m ρ) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m ρ c (Proc.devRef .tc b) = W15 m ρ c (Proc.devRef .tc b) := by
  unfold W16; exact Pipeline.withArrays_of_ne spec4 c _ _ b hb
abbrev V16 : (c : Dev nD) → (b : Ref sig .tc) → Buf (Elt F) ((c : Thread nD τ).loc b) := fun c b => W16 m ρ c b
theorem hF4 (c : Dev nD) (w : Fin cfg4.W) : (dat4 (V15 m ρ) c).arrAt w cfg4.N = V16 m ρ c (Pipeline.arrRef spec4 w) :=
  (W16_arr m ρ c w).symm
theorem hrest4 (c : Dev nD) : ∀ b, b ∉ Finset.univ.image (Pipeline.arrRef spec4) → V16 m ρ c b = V15 m ρ c b :=
  fun b hb => W16_of_ne m ρ c b fun w e => hb (Finset.mem_image.mpr ⟨w, Finset.mem_univ _, e⟩)
/-- Region 4 leaves every buffer but its output arrays as it found it: an input window's array is never written back. -/
theorem W16_of (c : Dev nD) (r : Ref sig .tc) (h : r ∉ ([main_v71_0, main_v71_1, main_v71_2] : List (Ref sig .tc))) :
    W16 m ρ c (Proc.devRef .tc r) = W15 m ρ c (Proc.devRef .tc r) := by
  by_cases hw : ∃ w, Pipeline.arrRef spec4 w = r
  · obtain ⟨w, rfl⟩ := hw
    rw [W16_arr]
    have hcases : ∀ w : Fin 6, w = 0 ∨ w = 1 ∨ w = 2 ∨ w = 3 ∨ w = 4 ∨ w = 5 := by decide
    rcases hcases w with rfl | rfl | rfl | rfl | rfl | rfl
    · exact ((dat4 (V15 m ρ) c).arrAt_in 0 rfl _).trans (A_eq4 _ c 0)
    · exact ((dat4 (V15 m ρ) c).arrAt_in 1 rfl _).trans (A_eq4 _ c 1)
    · exact ((dat4 (V15 m ρ) c).arrAt_in 2 rfl _).trans (A_eq4 _ c 2)
    · exact absurd (by decide) h
    · exact absurd (by decide) h
    · exact absurd (by decide) h
  · exact W16_of_ne m ρ c r (fun w e => hw ⟨w, e⟩)
/-- After item 16, the host stretch `hostOps5`. -/
abbrev W17 : Dev nD → Valuation τ sig (Elt F) := fun c => StableHlo.after hostOps5 (W16 m ρ c)
theorem W17_of (c : Dev nD) (r : Ref sig .tc) (h : r ∉ hostOps5_W) : W17 m ρ c (Proc.devRef .tc r) = W16 m ρ c (Proc.devRef .tc r) :=
  StableHlo.after_of_writes_sub hostOps5 _ hostOps5_writes h
/-- The contents region 5 is entered from, read at the TensorCore's references. -/
abbrev V17 : (c : Dev nD) → (b : Ref sig .tc) → Buf (Elt F) ((c : Thread nD τ).loc b) := fun c b => W17 m ρ c b
/-- After item 17, kernel region 5: its arrays at what the pipeline's write-backs leave, every other buffer as entered. -/
def W18 (c : Dev nD) : Valuation τ sig (Elt F) :=
  Pipeline.withArrays spec5 c (W17 m ρ c) fun w => (dat5 (V17 m ρ) c).arrAt w cfg5.N
theorem W18_arr (c : Dev nD) (w : Fin cfg5.W) :
    W18 m ρ c (Proc.devRef .tc (Pipeline.arrRef spec5 w)) = (dat5 (V17 m ρ) c).arrAt w cfg5.N := by
  unfold W18; exact Pipeline.withArrays_arr spec5 launch5.win.arr_inj c _ _ w
theorem W18_of_ne (c : Dev nD) (b : Ref sig .tc) (hb : ∀ w, Pipeline.arrRef spec5 w ≠ b) :
    W18 m ρ c (Proc.devRef .tc b) = W17 m ρ c (Proc.devRef .tc b) := by
  unfold W18; exact Pipeline.withArrays_of_ne spec5 c _ _ b hb
abbrev V18 : (c : Dev nD) → (b : Ref sig .tc) → Buf (Elt F) ((c : Thread nD τ).loc b) := fun c b => W18 m ρ c b
theorem hF5 (c : Dev nD) (w : Fin cfg5.W) : (dat5 (V17 m ρ) c).arrAt w cfg5.N = V18 m ρ c (Pipeline.arrRef spec5 w) :=
  (W18_arr m ρ c w).symm
theorem hrest5 (c : Dev nD) : ∀ b, b ∉ Finset.univ.image (Pipeline.arrRef spec5) → V18 m ρ c b = V17 m ρ c b :=
  fun b hb => W18_of_ne m ρ c b fun w e => hb (Finset.mem_image.mpr ⟨w, Finset.mem_univ _, e⟩)
/-- Region 5 leaves every buffer but its output arrays as it found it: an input window's array is never written back. -/
theorem W18_of (c : Dev nD) (r : Ref sig .tc) (h : r ∉ ([main_v78] : List (Ref sig .tc))) :
    W18 m ρ c (Proc.devRef .tc r) = W17 m ρ c (Proc.devRef .tc r) := by
  by_cases hw : ∃ w, Pipeline.arrRef spec5 w = r
  · obtain ⟨w, rfl⟩ := hw
    rw [W18_arr]
    have hcases : ∀ w : Fin 8, w = 0 ∨ w = 1 ∨ w = 2 ∨ w = 3 ∨ w = 4 ∨ w = 5 ∨ w = 6 ∨ w = 7 := by decide
    rcases hcases w with rfl | rfl | rfl | rfl | rfl | rfl | rfl | rfl
    · exact ((dat5 (V17 m ρ) c).arrAt_in 0 rfl _).trans (A_eq5 _ c 0)
    · exact ((dat5 (V17 m ρ) c).arrAt_in 1 rfl _).trans (A_eq5 _ c 1)
    · exact ((dat5 (V17 m ρ) c).arrAt_in 2 rfl _).trans (A_eq5 _ c 2)
    · exact ((dat5 (V17 m ρ) c).arrAt_in 3 rfl _).trans (A_eq5 _ c 3)
    · exact ((dat5 (V17 m ρ) c).arrAt_in 4 rfl _).trans (A_eq5 _ c 4)
    · exact ((dat5 (V17 m ρ) c).arrAt_in 5 rfl _).trans (A_eq5 _ c 5)
    · exact ((dat5 (V17 m ρ) c).arrAt_in 6 rfl _).trans (A_eq5 _ c 6)
    · exact absurd (by decide) h
  · exact W18_of_ne m ρ c r (fun w e => hw ⟨w, e⟩)
/-- After item 18, the host stretch `hostOps6`. -/
abbrev W19 : Dev nD → Valuation τ sig (Elt F) := fun c => StableHlo.after hostOps6 (W18 m ρ c)
theorem W19_of (c : Dev nD) (r : Ref sig .tc) (h : r ∉ hostOps6_W) : W19 m ρ c (Proc.devRef .tc r) = W18 m ρ c (Proc.devRef .tc r) :=
  StableHlo.after_of_writes_sub hostOps6 _ hostOps6_writes h
/-- After item 19, the host stretch `hostOps6_1`. -/
abbrev W20 : Dev nD → Valuation τ sig (Elt F) := fun c => StableHlo.after hostOps6_1 (W19 m ρ c)
theorem W20_of (c : Dev nD) (r : Ref sig .tc) (h : r ∉ hostOps6_1_W) : W20 m ρ c (Proc.devRef .tc r) = W19 m ρ c (Proc.devRef .tc r) :=
  StableHlo.after_of_writes_sub hostOps6_1 _ hostOps6_1_writes h
/-- After item 20, the host stretch `hostOps6_2`. -/
abbrev W21 : Dev nD → Valuation τ sig (Elt F) := fun c => StableHlo.after hostOps6_2 (W20 m ρ c)
theorem W21_of (c : Dev nD) (r : Ref sig .tc) (h : r ∉ hostOps6_2_W) : W21 m ρ c (Proc.devRef .tc r) = W20 m ρ c (Proc.devRef .tc r) :=
  StableHlo.after_of_writes_sub hostOps6_2 _ hostOps6_2_writes h
/-- The contents region 6 is entered from, read at the TensorCore's references. -/
abbrev V21 : (c : Dev nD) → (b : Ref sig .tc) → Buf (Elt F) ((c : Thread nD τ).loc b) := fun c b => W21 m ρ c b
/-- After item 21, kernel region 6: its arrays at what the pipeline's write-backs leave, every other buffer as entered. -/
def W22 (c : Dev nD) : Valuation τ sig (Elt F) :=
  Pipeline.withArrays spec6 c (W21 m ρ c) fun w => (dat6 (V21 m ρ) c).arrAt w cfg6.N
theorem W22_arr (c : Dev nD) (w : Fin cfg6.W) :
    W22 m ρ c (Proc.devRef .tc (Pipeline.arrRef spec6 w)) = (dat6 (V21 m ρ) c).arrAt w cfg6.N := by
  unfold W22; exact Pipeline.withArrays_arr spec6 launch6.win.arr_inj c _ _ w
theorem W22_of_ne (c : Dev nD) (b : Ref sig .tc) (hb : ∀ w, Pipeline.arrRef spec6 w ≠ b) :
    W22 m ρ c (Proc.devRef .tc b) = W21 m ρ c (Proc.devRef .tc b) := by
  unfold W22; exact Pipeline.withArrays_of_ne spec6 c _ _ b hb
abbrev V22 : (c : Dev nD) → (b : Ref sig .tc) → Buf (Elt F) ((c : Thread nD τ).loc b) := fun c b => W22 m ρ c b
theorem hF6 (c : Dev nD) (w : Fin cfg6.W) : (dat6 (V21 m ρ) c).arrAt w cfg6.N = V22 m ρ c (Pipeline.arrRef spec6 w) :=
  (W22_arr m ρ c w).symm
theorem hrest6 (c : Dev nD) : ∀ b, b ∉ Finset.univ.image (Pipeline.arrRef spec6) → V22 m ρ c b = V21 m ρ c b :=
  fun b hb => W22_of_ne m ρ c b fun w e => hb (Finset.mem_image.mpr ⟨w, Finset.mem_univ _, e⟩)
/-- Region 6 leaves every buffer but its output arrays as it found it: an input window's array is never written back. -/
theorem W22_of (c : Dev nD) (r : Ref sig .tc) (h : r ∉ ([main_v96_0, main_v96_1, main_v96_2] : List (Ref sig .tc))) :
    W22 m ρ c (Proc.devRef .tc r) = W21 m ρ c (Proc.devRef .tc r) := by
  by_cases hw : ∃ w, Pipeline.arrRef spec6 w = r
  · obtain ⟨w, rfl⟩ := hw
    rw [W22_arr]
    have hcases : ∀ w : Fin 6, w = 0 ∨ w = 1 ∨ w = 2 ∨ w = 3 ∨ w = 4 ∨ w = 5 := by decide
    rcases hcases w with rfl | rfl | rfl | rfl | rfl | rfl
    · exact ((dat6 (V21 m ρ) c).arrAt_in 0 rfl _).trans (A_eq6 _ c 0)
    · exact ((dat6 (V21 m ρ) c).arrAt_in 1 rfl _).trans (A_eq6 _ c 1)
    · exact ((dat6 (V21 m ρ) c).arrAt_in 2 rfl _).trans (A_eq6 _ c 2)
    · exact absurd (by decide) h
    · exact absurd (by decide) h
    · exact absurd (by decide) h
  · exact W22_of_ne m ρ c r (fun w e => hw ⟨w, e⟩)
/-- After item 22, the host stretch `hostOps7`. -/
abbrev W23 : Dev nD → Valuation τ sig (Elt F) := fun c => StableHlo.after hostOps7 (W22 m ρ c)
theorem W23_of (c : Dev nD) (r : Ref sig .tc) (h : r ∉ hostOps7_W) : W23 m ρ c (Proc.devRef .tc r) = W22 m ρ c (Proc.devRef .tc r) :=
  StableHlo.after_of_writes_sub hostOps7 _ hostOps7_writes h
/-- The contents region 7 is entered from, read at the TensorCore's references. -/
abbrev V23 : (c : Dev nD) → (b : Ref sig .tc) → Buf (Elt F) ((c : Thread nD τ).loc b) := fun c b => W23 m ρ c b
/-- After item 23, kernel region 7: its arrays at what the pipeline's write-backs leave, every other buffer as entered. -/
def W24 (c : Dev nD) : Valuation τ sig (Elt F) :=
  Pipeline.withArrays spec7 c (W23 m ρ c) fun w => (dat7 (V23 m ρ) c).arrAt w cfg7.N
theorem W24_arr (c : Dev nD) (w : Fin cfg7.W) :
    W24 m ρ c (Proc.devRef .tc (Pipeline.arrRef spec7 w)) = (dat7 (V23 m ρ) c).arrAt w cfg7.N := by
  unfold W24; exact Pipeline.withArrays_arr spec7 launch7.win.arr_inj c _ _ w
theorem W24_of_ne (c : Dev nD) (b : Ref sig .tc) (hb : ∀ w, Pipeline.arrRef spec7 w ≠ b) :
    W24 m ρ c (Proc.devRef .tc b) = W23 m ρ c (Proc.devRef .tc b) := by
  unfold W24; exact Pipeline.withArrays_of_ne spec7 c _ _ b hb
abbrev V24 : (c : Dev nD) → (b : Ref sig .tc) → Buf (Elt F) ((c : Thread nD τ).loc b) := fun c b => W24 m ρ c b
theorem hF7 (c : Dev nD) (w : Fin cfg7.W) : (dat7 (V23 m ρ) c).arrAt w cfg7.N = V24 m ρ c (Pipeline.arrRef spec7 w) :=
  (W24_arr m ρ c w).symm
theorem hrest7 (c : Dev nD) : ∀ b, b ∉ Finset.univ.image (Pipeline.arrRef spec7) → V24 m ρ c b = V23 m ρ c b :=
  fun b hb => W24_of_ne m ρ c b fun w e => hb (Finset.mem_image.mpr ⟨w, Finset.mem_univ _, e⟩)
/-- Region 7 leaves every buffer but its output arrays as it found it: an input window's array is never written back. -/
theorem W24_of (c : Dev nD) (r : Ref sig .tc) (h : r ∉ ([main_v103] : List (Ref sig .tc))) :
    W24 m ρ c (Proc.devRef .tc r) = W23 m ρ c (Proc.devRef .tc r) := by
  by_cases hw : ∃ w, Pipeline.arrRef spec7 w = r
  · obtain ⟨w, rfl⟩ := hw
    rw [W24_arr]
    have hcases : ∀ w : Fin 8, w = 0 ∨ w = 1 ∨ w = 2 ∨ w = 3 ∨ w = 4 ∨ w = 5 ∨ w = 6 ∨ w = 7 := by decide
    rcases hcases w with rfl | rfl | rfl | rfl | rfl | rfl | rfl | rfl
    · exact ((dat7 (V23 m ρ) c).arrAt_in 0 rfl _).trans (A_eq7 _ c 0)
    · exact ((dat7 (V23 m ρ) c).arrAt_in 1 rfl _).trans (A_eq7 _ c 1)
    · exact ((dat7 (V23 m ρ) c).arrAt_in 2 rfl _).trans (A_eq7 _ c 2)
    · exact ((dat7 (V23 m ρ) c).arrAt_in 3 rfl _).trans (A_eq7 _ c 3)
    · exact ((dat7 (V23 m ρ) c).arrAt_in 4 rfl _).trans (A_eq7 _ c 4)
    · exact ((dat7 (V23 m ρ) c).arrAt_in 5 rfl _).trans (A_eq7 _ c 5)
    · exact ((dat7 (V23 m ρ) c).arrAt_in 6 rfl _).trans (A_eq7 _ c 6)
    · exact absurd (by decide) h
  · exact W24_of_ne m ρ c r (fun w e => hw ⟨w, e⟩)
/-- After item 24, the host stretch `hostOps8`. -/
abbrev W25 : Dev nD → Valuation τ sig (Elt F) := fun c => StableHlo.after hostOps8 (W24 m ρ c)
theorem W25_of (c : Dev nD) (r : Ref sig .tc) (h : r ∉ hostOps8_W) : W25 m ρ c (Proc.devRef .tc r) = W24 m ρ c (Proc.devRef .tc r) :=
  StableHlo.after_of_writes_sub hostOps8 _ hostOps8_writes h

/-! ## The arguments end as launched -/
theorem W25_main_arg0 (c : Dev nD) : W25 m ρ c (Proc.devRef .tc main_arg0) = m ((c : Thread nD τ).loc main_arg0) :=
  (W25_of m ρ c main_arg0 (by decide)).trans <| (W24_of m ρ c main_arg0 (by decide)).trans <| (W23_of m ρ c main_arg0 (by decide)).trans <| (W22_of m ρ c main_arg0 (by decide)).trans <| (W21_of m ρ c main_arg0 (by decide)).trans <| (W20_of m ρ c main_arg0 (by decide)).trans <| (W19_of m ρ c main_arg0 (by decide)).trans <| (W18_of m ρ c main_arg0 (by decide)).trans <| (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans rfl
theorem W25_main_arg1 (c : Dev nD) : W25 m ρ c (Proc.devRef .tc main_arg1) = m ((c : Thread nD τ).loc main_arg1) :=
  (W25_of m ρ c main_arg1 (by decide)).trans <| (W24_of m ρ c main_arg1 (by decide)).trans <| (W23_of m ρ c main_arg1 (by decide)).trans <| (W22_of m ρ c main_arg1 (by decide)).trans <| (W21_of m ρ c main_arg1 (by decide)).trans <| (W20_of m ρ c main_arg1 (by decide)).trans <| (W19_of m ρ c main_arg1 (by decide)).trans <| (W18_of m ρ c main_arg1 (by decide)).trans <| (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans rfl
theorem W25_main_arg2 (c : Dev nD) : W25 m ρ c (Proc.devRef .tc main_arg2) = m ((c : Thread nD τ).loc main_arg2) :=
  (W25_of m ρ c main_arg2 (by decide)).trans <| (W24_of m ρ c main_arg2 (by decide)).trans <| (W23_of m ρ c main_arg2 (by decide)).trans <| (W22_of m ρ c main_arg2 (by decide)).trans <| (W21_of m ρ c main_arg2 (by decide)).trans <| (W20_of m ρ c main_arg2 (by decide)).trans <| (W19_of m ρ c main_arg2 (by decide)).trans <| (W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans rfl
theorem W25_main_arg3 (c : Dev nD) : W25 m ρ c (Proc.devRef .tc main_arg3) = m ((c : Thread nD τ).loc main_arg3) :=
  (W25_of m ρ c main_arg3 (by decide)).trans <| (W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans rfl
theorem W25_main_arg4 (c : Dev nD) : W25 m ρ c (Proc.devRef .tc main_arg4) = m ((c : Thread nD τ).loc main_arg4) :=
  (W25_of m ρ c main_arg4 (by decide)).trans <| (W24_of m ρ c main_arg4 (by decide)).trans <| (W23_of m ρ c main_arg4 (by decide)).trans <| (W22_of m ρ c main_arg4 (by decide)).trans <| (W21_of m ρ c main_arg4 (by decide)).trans <| (W20_of m ρ c main_arg4 (by decide)).trans <| (W19_of m ρ c main_arg4 (by decide)).trans <| (W18_of m ρ c main_arg4 (by decide)).trans <| (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans rfl
theorem W25_main_arg5 (c : Dev nD) : W25 m ρ c (Proc.devRef .tc main_arg5) = m ((c : Thread nD τ).loc main_arg5) :=
  (W25_of m ρ c main_arg5 (by decide)).trans <| (W24_of m ρ c main_arg5 (by decide)).trans <| (W23_of m ρ c main_arg5 (by decide)).trans <| (W22_of m ρ c main_arg5 (by decide)).trans <| (W21_of m ρ c main_arg5 (by decide)).trans <| (W20_of m ρ c main_arg5 (by decide)).trans <| (W19_of m ρ c main_arg5 (by decide)).trans <| (W18_of m ρ c main_arg5 (by decide)).trans <| (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans rfl
theorem W25_main_arg6 (c : Dev nD) : W25 m ρ c (Proc.devRef .tc main_arg6) = m ((c : Thread nD τ).loc main_arg6) :=
  (W25_of m ρ c main_arg6 (by decide)).trans <| (W24_of m ρ c main_arg6 (by decide)).trans <| (W23_of m ρ c main_arg6 (by decide)).trans <| (W22_of m ρ c main_arg6 (by decide)).trans <| (W21_of m ρ c main_arg6 (by decide)).trans <| (W20_of m ρ c main_arg6 (by decide)).trans <| (W19_of m ρ c main_arg6 (by decide)).trans <| (W18_of m ρ c main_arg6 (by decide)).trans <| (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans rfl
theorem W25_main_arg7 (c : Dev nD) : W25 m ρ c (Proc.devRef .tc main_arg7) = m ((c : Thread nD τ).loc main_arg7) :=
  (W25_of m ρ c main_arg7 (by decide)).trans <| (W24_of m ρ c main_arg7 (by decide)).trans <| (W23_of m ρ c main_arg7 (by decide)).trans <| (W22_of m ρ c main_arg7 (by decide)).trans <| (W21_of m ρ c main_arg7 (by decide)).trans <| (W20_of m ρ c main_arg7 (by decide)).trans <| (W19_of m ρ c main_arg7 (by decide)).trans <| (W18_of m ρ c main_arg7 (by decide)).trans <| (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans rfl
theorem W25_main_arg8 (c : Dev nD) : W25 m ρ c (Proc.devRef .tc main_arg8) = m ((c : Thread nD τ).loc main_arg8) :=
  (W25_of m ρ c main_arg8 (by decide)).trans <| (W24_of m ρ c main_arg8 (by decide)).trans <| (W23_of m ρ c main_arg8 (by decide)).trans <| (W22_of m ρ c main_arg8 (by decide)).trans <| (W21_of m ρ c main_arg8 (by decide)).trans <| (W20_of m ρ c main_arg8 (by decide)).trans <| (W19_of m ρ c main_arg8 (by decide)).trans <| (W18_of m ρ c main_arg8 (by decide)).trans <| (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans rfl
theorem W25_main_arg9 (c : Dev nD) : W25 m ρ c (Proc.devRef .tc main_arg9) = m ((c : Thread nD τ).loc main_arg9) :=
  (W25_of m ρ c main_arg9 (by decide)).trans <| (W24_of m ρ c main_arg9 (by decide)).trans <| (W23_of m ρ c main_arg9 (by decide)).trans <| (W22_of m ρ c main_arg9 (by decide)).trans <| (W21_of m ρ c main_arg9 (by decide)).trans <| (W20_of m ρ c main_arg9 (by decide)).trans <| (W19_of m ρ c main_arg9 (by decide)).trans <| (W18_of m ρ c main_arg9 (by decide)).trans <| (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem W25_main_arg10 (c : Dev nD) : W25 m ρ c (Proc.devRef .tc main_arg10) = m ((c : Thread nD τ).loc main_arg10) :=
  (W25_of m ρ c main_arg10 (by decide)).trans <| (W24_of m ρ c main_arg10 (by decide)).trans <| (W23_of m ρ c main_arg10 (by decide)).trans <| (W22_of m ρ c main_arg10 (by decide)).trans <| (W21_of m ρ c main_arg10 (by decide)).trans <| (W20_of m ρ c main_arg10 (by decide)).trans <| (W19_of m ρ c main_arg10 (by decide)).trans <| (W18_of m ρ c main_arg10 (by decide)).trans <| (W17_of m ρ c main_arg10 (by decide)).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl
theorem W25_main_arg11 (c : Dev nD) : W25 m ρ c (Proc.devRef .tc main_arg11) = m ((c : Thread nD τ).loc main_arg11) :=
  (W25_of m ρ c main_arg11 (by decide)).trans <| (W24_of m ρ c main_arg11 (by decide)).trans <| (W23_of m ρ c main_arg11 (by decide)).trans <| (W22_of m ρ c main_arg11 (by decide)).trans <| (W21_of m ρ c main_arg11 (by decide)).trans <| (W20_of m ρ c main_arg11 (by decide)).trans <| (W19_of m ρ c main_arg11 (by decide)).trans <| (W18_of m ρ c main_arg11 (by decide)).trans <| (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans rfl
theorem W25_main_arg12 (c : Dev nD) : W25 m ρ c (Proc.devRef .tc main_arg12) = m ((c : Thread nD τ).loc main_arg12) :=
  (W25_of m ρ c main_arg12 (by decide)).trans <| (W24_of m ρ c main_arg12 (by decide)).trans <| (W23_of m ρ c main_arg12 (by decide)).trans <| (W22_of m ρ c main_arg12 (by decide)).trans <| (W21_of m ρ c main_arg12 (by decide)).trans <| (W20_of m ρ c main_arg12 (by decide)).trans <| (W19_of m ρ c main_arg12 (by decide)).trans <| (W18_of m ρ c main_arg12 (by decide)).trans <| (W17_of m ρ c main_arg12 (by decide)).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans rfl
theorem W25_main_arg13 (c : Dev nD) : W25 m ρ c (Proc.devRef .tc main_arg13) = m ((c : Thread nD τ).loc main_arg13) :=
  (W25_of m ρ c main_arg13 (by decide)).trans <| (W24_of m ρ c main_arg13 (by decide)).trans <| (W23_of m ρ c main_arg13 (by decide)).trans <| (W22_of m ρ c main_arg13 (by decide)).trans <| (W21_of m ρ c main_arg13 (by decide)).trans <| (W20_of m ρ c main_arg13 (by decide)).trans <| (W19_of m ρ c main_arg13 (by decide)).trans <| (W18_of m ρ c main_arg13 (by decide)).trans <| (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans rfl
theorem W25_main_arg14 (c : Dev nD) : W25 m ρ c (Proc.devRef .tc main_arg14) = m ((c : Thread nD τ).loc main_arg14) :=
  (W25_of m ρ c main_arg14 (by decide)).trans <| (W24_of m ρ c main_arg14 (by decide)).trans <| (W23_of m ρ c main_arg14 (by decide)).trans <| (W22_of m ρ c main_arg14 (by decide)).trans <| (W21_of m ρ c main_arg14 (by decide)).trans <| (W20_of m ρ c main_arg14 (by decide)).trans <| (W19_of m ρ c main_arg14 (by decide)).trans <| (W18_of m ρ c main_arg14 (by decide)).trans <| (W17_of m ρ c main_arg14 (by decide)).trans <| (W16_of m ρ c main_arg14 (by decide)).trans <| (W15_of m ρ c main_arg14 (by decide)).trans <| (W14_of m ρ c main_arg14 (by decide)).trans <| (W13_of m ρ c main_arg14 (by decide)).trans <| (W12_of m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans rfl
theorem W25_main_arg15 (c : Dev nD) : W25 m ρ c (Proc.devRef .tc main_arg15) = m ((c : Thread nD τ).loc main_arg15) :=
  (W25_of m ρ c main_arg15 (by decide)).trans <| (W24_of m ρ c main_arg15 (by decide)).trans <| (W23_of m ρ c main_arg15 (by decide)).trans <| (W22_of m ρ c main_arg15 (by decide)).trans <| (W21_of m ρ c main_arg15 (by decide)).trans <| (W20_of m ρ c main_arg15 (by decide)).trans <| (W19_of m ρ c main_arg15 (by decide)).trans <| (W18_of m ρ c main_arg15 (by decide)).trans <| (W17_of m ρ c main_arg15 (by decide)).trans <| (W16_of m ρ c main_arg15 (by decide)).trans <| (W15_of m ρ c main_arg15 (by decide)).trans <| (W14_of m ρ c main_arg15 (by decide)).trans <| (W13_of m ρ c main_arg15 (by decide)).trans <| (W12_of m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans rfl
theorem W25_main_arg16 (c : Dev nD) : W25 m ρ c (Proc.devRef .tc main_arg16) = m ((c : Thread nD τ).loc main_arg16) :=
  (W25_of m ρ c main_arg16 (by decide)).trans <| (W24_of m ρ c main_arg16 (by decide)).trans <| (W23_of m ρ c main_arg16 (by decide)).trans <| (W22_of m ρ c main_arg16 (by decide)).trans <| (W21_of m ρ c main_arg16 (by decide)).trans <| (W20_of m ρ c main_arg16 (by decide)).trans <| (W19_of m ρ c main_arg16 (by decide)).trans <| (W18_of m ρ c main_arg16 (by decide)).trans <| (W17_of m ρ c main_arg16 (by decide)).trans <| (W16_of m ρ c main_arg16 (by decide)).trans <| (W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide)).trans rfl
theorem W25_main_arg17 (c : Dev nD) : W25 m ρ c (Proc.devRef .tc main_arg17) = m ((c : Thread nD τ).loc main_arg17) :=
  (W25_of m ρ c main_arg17 (by decide)).trans <| (W24_of m ρ c main_arg17 (by decide)).trans <| (W23_of m ρ c main_arg17 (by decide)).trans <| (W22_of m ρ c main_arg17 (by decide)).trans <| (W21_of m ρ c main_arg17 (by decide)).trans <| (W20_of m ρ c main_arg17 (by decide)).trans <| (W19_of m ρ c main_arg17 (by decide)).trans <| (W18_of m ρ c main_arg17 (by decide)).trans <| (W17_of m ρ c main_arg17 (by decide)).trans <| (W16_of m ρ c main_arg17 (by decide)).trans <| (W15_of m ρ c main_arg17 (by decide)).trans <| (W14_of m ρ c main_arg17 (by decide)).trans <| (W13_of m ρ c main_arg17 (by decide)).trans <| (W12_of m ρ c main_arg17 (by decide)).trans <| (W11_of m ρ c main_arg17 (by decide)).trans <| (W10_of m ρ c main_arg17 (by decide)).trans <| (W9_of m ρ c main_arg17 (by decide)).trans <| (W8_of m ρ c main_arg17 (by decide)).trans <| (W7_of m ρ c main_arg17 (by decide)).trans <| (W6_of m ρ c main_arg17 (by decide)).trans <| (W5_of m ρ c main_arg17 (by decide)).trans <| (W4_of m ρ c main_arg17 (by decide)).trans <| (W3_of m ρ c main_arg17 (by decide)).trans <| (W2_of m ρ c main_arg17 (by decide)).trans <| (W1_of m ρ c main_arg17 (by decide)).trans rfl
theorem W25_main_arg18 (c : Dev nD) : W25 m ρ c (Proc.devRef .tc main_arg18) = m ((c : Thread nD τ).loc main_arg18) :=
  (W25_of m ρ c main_arg18 (by decide)).trans <| (W24_of m ρ c main_arg18 (by decide)).trans <| (W23_of m ρ c main_arg18 (by decide)).trans <| (W22_of m ρ c main_arg18 (by decide)).trans <| (W21_of m ρ c main_arg18 (by decide)).trans <| (W20_of m ρ c main_arg18 (by decide)).trans <| (W19_of m ρ c main_arg18 (by decide)).trans <| (W18_of m ρ c main_arg18 (by decide)).trans <| (W17_of m ρ c main_arg18 (by decide)).trans <| (W16_of m ρ c main_arg18 (by decide)).trans <| (W15_of m ρ c main_arg18 (by decide)).trans <| (W14_of m ρ c main_arg18 (by decide)).trans <| (W13_of m ρ c main_arg18 (by decide)).trans <| (W12_of m ρ c main_arg18 (by decide)).trans <| (W11_of m ρ c main_arg18 (by decide)).trans <| (W10_of m ρ c main_arg18 (by decide)).trans <| (W9_of m ρ c main_arg18 (by decide)).trans <| (W8_of m ρ c main_arg18 (by decide)).trans <| (W7_of m ρ c main_arg18 (by decide)).trans <| (W6_of m ρ c main_arg18 (by decide)).trans <| (W5_of m ρ c main_arg18 (by decide)).trans <| (W4_of m ρ c main_arg18 (by decide)).trans <| (W3_of m ρ c main_arg18 (by decide)).trans <| (W2_of m ρ c main_arg18 (by decide)).trans <| (W1_of m ρ c main_arg18 (by decide)).trans rfl
theorem W25_main_arg19 (c : Dev nD) : W25 m ρ c (Proc.devRef .tc main_arg19) = m ((c : Thread nD τ).loc main_arg19) :=
  (W25_of m ρ c main_arg19 (by decide)).trans <| (W24_of m ρ c main_arg19 (by decide)).trans <| (W23_of m ρ c main_arg19 (by decide)).trans <| (W22_of m ρ c main_arg19 (by decide)).trans <| (W21_of m ρ c main_arg19 (by decide)).trans <| (W20_of m ρ c main_arg19 (by decide)).trans <| (W19_of m ρ c main_arg19 (by decide)).trans <| (W18_of m ρ c main_arg19 (by decide)).trans <| (W17_of m ρ c main_arg19 (by decide)).trans <| (W16_of m ρ c main_arg19 (by decide)).trans <| (W15_of m ρ c main_arg19 (by decide)).trans <| (W14_of m ρ c main_arg19 (by decide)).trans <| (W13_of m ρ c main_arg19 (by decide)).trans <| (W12_of m ρ c main_arg19 (by decide)).trans <| (W11_of m ρ c main_arg19 (by decide)).trans <| (W10_of m ρ c main_arg19 (by decide)).trans <| (W9_of m ρ c main_arg19 (by decide)).trans <| (W8_of m ρ c main_arg19 (by decide)).trans <| (W7_of m ρ c main_arg19 (by decide)).trans <| (W6_of m ρ c main_arg19 (by decide)).trans <| (W5_of m ρ c main_arg19 (by decide)).trans <| (W4_of m ρ c main_arg19 (by decide)).trans <| (W3_of m ρ c main_arg19 (by decide)).trans <| (W2_of m ρ c main_arg19 (by decide)).trans <| (W1_of m ρ c main_arg19 (by decide)).trans rfl
theorem W25_main_arg20 (c : Dev nD) : W25 m ρ c (Proc.devRef .tc main_arg20) = m ((c : Thread nD τ).loc main_arg20) :=
  (W25_of m ρ c main_arg20 (by decide)).trans <| (W24_of m ρ c main_arg20 (by decide)).trans <| (W23_of m ρ c main_arg20 (by decide)).trans <| (W22_of m ρ c main_arg20 (by decide)).trans <| (W21_of m ρ c main_arg20 (by decide)).trans <| (W20_of m ρ c main_arg20 (by decide)).trans <| (W19_of m ρ c main_arg20 (by decide)).trans <| (W18_of m ρ c main_arg20 (by decide)).trans <| (W17_of m ρ c main_arg20 (by decide)).trans <| (W16_of m ρ c main_arg20 (by decide)).trans <| (W15_of m ρ c main_arg20 (by decide)).trans <| (W14_of m ρ c main_arg20 (by decide)).trans <| (W13_of m ρ c main_arg20 (by decide)).trans <| (W12_of m ρ c main_arg20 (by decide)).trans <| (W11_of m ρ c main_arg20 (by decide)).trans <| (W10_of m ρ c main_arg20 (by decide)).trans <| (W9_of m ρ c main_arg20 (by decide)).trans <| (W8_of m ρ c main_arg20 (by decide)).trans <| (W7_of m ρ c main_arg20 (by decide)).trans <| (W6_of m ρ c main_arg20 (by decide)).trans <| (W5_of m ρ c main_arg20 (by decide)).trans <| (W4_of m ρ c main_arg20 (by decide)).trans <| (W3_of m ρ c main_arg20 (by decide)).trans <| (W2_of m ρ c main_arg20 (by decide)).trans <| (W1_of m ρ c main_arg20 (by decide)).trans rfl
theorem W25_main_arg21 (c : Dev nD) : W25 m ρ c (Proc.devRef .tc main_arg21) = m ((c : Thread nD τ).loc main_arg21) :=
  (W25_of m ρ c main_arg21 (by decide)).trans <| (W24_of m ρ c main_arg21 (by decide)).trans <| (W23_of m ρ c main_arg21 (by decide)).trans <| (W22_of m ρ c main_arg21 (by decide)).trans <| (W21_of m ρ c main_arg21 (by decide)).trans <| (W20_of m ρ c main_arg21 (by decide)).trans <| (W19_of m ρ c main_arg21 (by decide)).trans <| (W18_of m ρ c main_arg21 (by decide)).trans <| (W17_of m ρ c main_arg21 (by decide)).trans <| (W16_of m ρ c main_arg21 (by decide)).trans <| (W15_of m ρ c main_arg21 (by decide)).trans <| (W14_of m ρ c main_arg21 (by decide)).trans <| (W13_of m ρ c main_arg21 (by decide)).trans <| (W12_of m ρ c main_arg21 (by decide)).trans <| (W11_of m ρ c main_arg21 (by decide)).trans <| (W10_of m ρ c main_arg21 (by decide)).trans <| (W9_of m ρ c main_arg21 (by decide)).trans <| (W8_of m ρ c main_arg21 (by decide)).trans <| (W7_of m ρ c main_arg21 (by decide)).trans <| (W6_of m ρ c main_arg21 (by decide)).trans <| (W5_of m ρ c main_arg21 (by decide)).trans <| (W4_of m ρ c main_arg21 (by decide)).trans <| (W3_of m ρ c main_arg21 (by decide)).trans <| (W2_of m ρ c main_arg21 (by decide)).trans <| (W1_of m ρ c main_arg21 (by decide)).trans rfl
theorem W25_main_arg22 (c : Dev nD) : W25 m ρ c (Proc.devRef .tc main_arg22) = m ((c : Thread nD τ).loc main_arg22) :=
  (W25_of m ρ c main_arg22 (by decide)).trans <| (W24_of m ρ c main_arg22 (by decide)).trans <| (W23_of m ρ c main_arg22 (by decide)).trans <| (W22_of m ρ c main_arg22 (by decide)).trans <| (W21_of m ρ c main_arg22 (by decide)).trans <| (W20_of m ρ c main_arg22 (by decide)).trans <| (W19_of m ρ c main_arg22 (by decide)).trans <| (W18_of m ρ c main_arg22 (by decide)).trans <| (W17_of m ρ c main_arg22 (by decide)).trans <| (W16_of m ρ c main_arg22 (by decide)).trans <| (W15_of m ρ c main_arg22 (by decide)).trans <| (W14_of m ρ c main_arg22 (by decide)).trans <| (W13_of m ρ c main_arg22 (by decide)).trans <| (W12_of m ρ c main_arg22 (by decide)).trans <| (W11_of m ρ c main_arg22 (by decide)).trans <| (W10_of m ρ c main_arg22 (by decide)).trans <| (W9_of m ρ c main_arg22 (by decide)).trans <| (W8_of m ρ c main_arg22 (by decide)).trans <| (W7_of m ρ c main_arg22 (by decide)).trans <| (W6_of m ρ c main_arg22 (by decide)).trans <| (W5_of m ρ c main_arg22 (by decide)).trans <| (W4_of m ρ c main_arg22 (by decide)).trans <| (W3_of m ρ c main_arg22 (by decide)).trans <| (W2_of m ρ c main_arg22 (by decide)).trans <| (W1_of m ρ c main_arg22 (by decide)).trans rfl
theorem W25_main_arg23 (c : Dev nD) : W25 m ρ c (Proc.devRef .tc main_arg23) = m ((c : Thread nD τ).loc main_arg23) :=
  (W25_of m ρ c main_arg23 (by decide)).trans <| (W24_of m ρ c main_arg23 (by decide)).trans <| (W23_of m ρ c main_arg23 (by decide)).trans <| (W22_of m ρ c main_arg23 (by decide)).trans <| (W21_of m ρ c main_arg23 (by decide)).trans <| (W20_of m ρ c main_arg23 (by decide)).trans <| (W19_of m ρ c main_arg23 (by decide)).trans <| (W18_of m ρ c main_arg23 (by decide)).trans <| (W17_of m ρ c main_arg23 (by decide)).trans <| (W16_of m ρ c main_arg23 (by decide)).trans <| (W15_of m ρ c main_arg23 (by decide)).trans <| (W14_of m ρ c main_arg23 (by decide)).trans <| (W13_of m ρ c main_arg23 (by decide)).trans <| (W12_of m ρ c main_arg23 (by decide)).trans <| (W11_of m ρ c main_arg23 (by decide)).trans <| (W10_of m ρ c main_arg23 (by decide)).trans <| (W9_of m ρ c main_arg23 (by decide)).trans <| (W8_of m ρ c main_arg23 (by decide)).trans <| (W7_of m ρ c main_arg23 (by decide)).trans <| (W6_of m ρ c main_arg23 (by decide)).trans <| (W5_of m ρ c main_arg23 (by decide)).trans <| (W4_of m ρ c main_arg23 (by decide)).trans <| (W3_of m ρ c main_arg23 (by decide)).trans <| (W2_of m ρ c main_arg23 (by decide)).trans <| (W1_of m ρ c main_arg23 (by decide)).trans rfl
theorem W25_main_arg24 (c : Dev nD) : W25 m ρ c (Proc.devRef .tc main_arg24) = m ((c : Thread nD τ).loc main_arg24) :=
  (W25_of m ρ c main_arg24 (by decide)).trans <| (W24_of m ρ c main_arg24 (by decide)).trans <| (W23_of m ρ c main_arg24 (by decide)).trans <| (W22_of m ρ c main_arg24 (by decide)).trans <| (W21_of m ρ c main_arg24 (by decide)).trans <| (W20_of m ρ c main_arg24 (by decide)).trans <| (W19_of m ρ c main_arg24 (by decide)).trans <| (W18_of m ρ c main_arg24 (by decide)).trans <| (W17_of m ρ c main_arg24 (by decide)).trans <| (W16_of m ρ c main_arg24 (by decide)).trans <| (W15_of m ρ c main_arg24 (by decide)).trans <| (W14_of m ρ c main_arg24 (by decide)).trans <| (W13_of m ρ c main_arg24 (by decide)).trans <| (W12_of m ρ c main_arg24 (by decide)).trans <| (W11_of m ρ c main_arg24 (by decide)).trans <| (W10_of m ρ c main_arg24 (by decide)).trans <| (W9_of m ρ c main_arg24 (by decide)).trans <| (W8_of m ρ c main_arg24 (by decide)).trans <| (W7_of m ρ c main_arg24 (by decide)).trans <| (W6_of m ρ c main_arg24 (by decide)).trans <| (W5_of m ρ c main_arg24 (by decide)).trans <| (W4_of m ρ c main_arg24 (by decide)).trans <| (W3_of m ρ c main_arg24 (by decide)).trans <| (W2_of m ρ c main_arg24 (by decide)).trans <| (W1_of m ρ c main_arg24 (by decide)).trans rfl
theorem W25_main_arg25 (c : Dev nD) : W25 m ρ c (Proc.devRef .tc main_arg25) = m ((c : Thread nD τ).loc main_arg25) :=
  (W25_of m ρ c main_arg25 (by decide)).trans <| (W24_of m ρ c main_arg25 (by decide)).trans <| (W23_of m ρ c main_arg25 (by decide)).trans <| (W22_of m ρ c main_arg25 (by decide)).trans <| (W21_of m ρ c main_arg25 (by decide)).trans <| (W20_of m ρ c main_arg25 (by decide)).trans <| (W19_of m ρ c main_arg25 (by decide)).trans <| (W18_of m ρ c main_arg25 (by decide)).trans <| (W17_of m ρ c main_arg25 (by decide)).trans <| (W16_of m ρ c main_arg25 (by decide)).trans <| (W15_of m ρ c main_arg25 (by decide)).trans <| (W14_of m ρ c main_arg25 (by decide)).trans <| (W13_of m ρ c main_arg25 (by decide)).trans <| (W12_of m ρ c main_arg25 (by decide)).trans <| (W11_of m ρ c main_arg25 (by decide)).trans <| (W10_of m ρ c main_arg25 (by decide)).trans <| (W9_of m ρ c main_arg25 (by decide)).trans <| (W8_of m ρ c main_arg25 (by decide)).trans <| (W7_of m ρ c main_arg25 (by decide)).trans <| (W6_of m ρ c main_arg25 (by decide)).trans <| (W5_of m ρ c main_arg25 (by decide)).trans <| (W4_of m ρ c main_arg25 (by decide)).trans <| (W3_of m ρ c main_arg25 (by decide)).trans <| (W2_of m ρ c main_arg25 (by decide)).trans <| (W1_of m ρ c main_arg25 (by decide)).trans rfl
theorem W25_main_arg26 (c : Dev nD) : W25 m ρ c (Proc.devRef .tc main_arg26) = m ((c : Thread nD τ).loc main_arg26) :=
  (W25_of m ρ c main_arg26 (by decide)).trans <| (W24_of m ρ c main_arg26 (by decide)).trans <| (W23_of m ρ c main_arg26 (by decide)).trans <| (W22_of m ρ c main_arg26 (by decide)).trans <| (W21_of m ρ c main_arg26 (by decide)).trans <| (W20_of m ρ c main_arg26 (by decide)).trans <| (W19_of m ρ c main_arg26 (by decide)).trans <| (W18_of m ρ c main_arg26 (by decide)).trans <| (W17_of m ρ c main_arg26 (by decide)).trans <| (W16_of m ρ c main_arg26 (by decide)).trans <| (W15_of m ρ c main_arg26 (by decide)).trans <| (W14_of m ρ c main_arg26 (by decide)).trans <| (W13_of m ρ c main_arg26 (by decide)).trans <| (W12_of m ρ c main_arg26 (by decide)).trans <| (W11_of m ρ c main_arg26 (by decide)).trans <| (W10_of m ρ c main_arg26 (by decide)).trans <| (W9_of m ρ c main_arg26 (by decide)).trans <| (W8_of m ρ c main_arg26 (by decide)).trans <| (W7_of m ρ c main_arg26 (by decide)).trans <| (W6_of m ρ c main_arg26 (by decide)).trans <| (W5_of m ρ c main_arg26 (by decide)).trans <| (W4_of m ρ c main_arg26 (by decide)).trans <| (W3_of m ρ c main_arg26 (by decide)).trans <| (W2_of m ρ c main_arg26 (by decide)).trans <| (W1_of m ρ c main_arg26 (by decide)).trans rfl
theorem W25_main_arg27 (c : Dev nD) : W25 m ρ c (Proc.devRef .tc main_arg27) = m ((c : Thread nD τ).loc main_arg27) :=
  (W25_of m ρ c main_arg27 (by decide)).trans <| (W24_of m ρ c main_arg27 (by decide)).trans <| (W23_of m ρ c main_arg27 (by decide)).trans <| (W22_of m ρ c main_arg27 (by decide)).trans <| (W21_of m ρ c main_arg27 (by decide)).trans <| (W20_of m ρ c main_arg27 (by decide)).trans <| (W19_of m ρ c main_arg27 (by decide)).trans <| (W18_of m ρ c main_arg27 (by decide)).trans <| (W17_of m ρ c main_arg27 (by decide)).trans <| (W16_of m ρ c main_arg27 (by decide)).trans <| (W15_of m ρ c main_arg27 (by decide)).trans <| (W14_of m ρ c main_arg27 (by decide)).trans <| (W13_of m ρ c main_arg27 (by decide)).trans <| (W12_of m ρ c main_arg27 (by decide)).trans <| (W11_of m ρ c main_arg27 (by decide)).trans <| (W10_of m ρ c main_arg27 (by decide)).trans <| (W9_of m ρ c main_arg27 (by decide)).trans <| (W8_of m ρ c main_arg27 (by decide)).trans <| (W7_of m ρ c main_arg27 (by decide)).trans <| (W6_of m ρ c main_arg27 (by decide)).trans <| (W5_of m ρ c main_arg27 (by decide)).trans <| (W4_of m ρ c main_arg27 (by decide)).trans <| (W3_of m ρ c main_arg27 (by decide)).trans <| (W2_of m ρ c main_arg27 (by decide)).trans <| (W1_of m ρ c main_arg27 (by decide)).trans rfl

/-! ## The proof data family and the thread state -/

/-- The prefetched tables' admissible contents: no pipeline has a table. -/
abbrev adm : (p : Fin 8) → (pcfgs (F := F) p).Adm := fun p => (cfgs p).toPCfg_adm
/-- Every pipeline's proof data, each at its region's entry contents. -/
def pdats : (p : Fin 8) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V9 m ρ) c
  | ⟨3, _⟩ => fun c => dat3 (V11 m ρ) c
  | ⟨4, _⟩ => fun c => dat4 (V15 m ρ) c
  | ⟨5, _⟩ => fun c => dat5 (V17 m ρ) c
  | ⟨6, _⟩ => fun c => dat6 (V21 m ρ) c
  | ⟨7, _⟩ => fun c => dat7 (V23 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W25 m ρ c) ∗ ∃ r, prngReg c r)

/-! ## The regions as segments -/

set_option backward.isDefEq.respectTransparency.types false in
/-- Region 0 over the thread state: entered from every unscoped buffer at `W3`, left at `W4`. Its arrays are split out of
    the unscoped buffers and put back at the exit contents; the generator register goes into the pipeline's invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (iprop(Pipeline.scopedRest (Ix := Unit) (Name := ℕ) (U := UR sig nD τ) (Lvl := ℕ) (Val := Elt F) spec0 c ∗ ∃ r, prngReg c r) : sProp 𝕄) ⊢ (dat0 (V3 m ρ) c).Φ 0 := hin0 (V3 m ρ) c
    rw [show (pdats m ρ 0 c).Φ 0 = (dat0 (V3 m ρ) c).Φ 0 from rfl]
    iintro ⟨Hp, -, Hr⟩
    iapply h2
    isplitl [Hr]; · iexact Hr
    iexact Hp
  hout c := by
    have h2 : (dat0 (V3 m ρ) c).Φ (Fin.last cfg0.N) ⊢ (iprop(Pipeline.scopedRest (Ix := Unit) (Name := ℕ) (U := UR sig nD τ) (Lvl := ℕ) (Val := Elt F) spec0 c ∗ ∃ r, prngReg c r) : sProp 𝕄) := hout0 (V3 m ρ) c
    rw [Pipeline.ownSems0_none, show (pdats m ρ 0 c).Φ (Fin.last _) = (dat0 (V3 m ρ) c).Φ (Fin.last cfg0.N) from rfl]
    have h3 : (iprop(Pipeline.scopedRest (Ix := Unit) (Name := ℕ) (U := UR sig nD τ) (Lvl := ℕ) (Val := Elt F) spec0 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec0 c) := by
      iintro ⟨Hr, Hp⟩
      isplitl [Hp]; · iexact Hp
      isplitr; · iempintro
      iexact Hr
    exact h2.trans h3
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out of
    the unscoped buffers and put back at the exit contents; the generator register goes into the pipeline's invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. Its arrays are split out of
    the unscoped buffers and put back at the exit contents; the generator register goes into the pipeline's invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (iprop(Pipeline.scopedRest (Ix := Unit) (Name := ℕ) (U := UR sig nD τ) (Lvl := ℕ) (Val := Elt F) spec2 c ∗ ∃ r, prngReg c r) : sProp 𝕄) ⊢ (dat2 (V9 m ρ) c).Φ 0 := hin2 (V9 m ρ) c
    rw [show (pdats m ρ 2 c).Φ 0 = (dat2 (V9 m ρ) c).Φ 0 from rfl]
    iintro ⟨Hp, -, Hr⟩
    iapply h2
    isplitl [Hr]; · iexact Hr
    iexact Hp
  hout c := by
    have h2 : (dat2 (V9 m ρ) c).Φ (Fin.last cfg2.N) ⊢ (iprop(Pipeline.scopedRest (Ix := Unit) (Name := ℕ) (U := UR sig nD τ) (Lvl := ℕ) (Val := Elt F) spec2 c ∗ ∃ r, prngReg c r) : sProp 𝕄) := hout2 (V9 m ρ) c
    rw [Pipeline.ownSems0_none, show (pdats m ρ 2 c).Φ (Fin.last _) = (dat2 (V9 m ρ) c).Φ (Fin.last cfg2.N) from rfl]
    have h3 : (iprop(Pipeline.scopedRest (Ix := Unit) (Name := ℕ) (U := UR sig nD τ) (Lvl := ℕ) (Val := Elt F) spec2 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec2 c) := by
      iintro ⟨Hr, Hp⟩
      isplitl [Hp]; · iexact Hp
      isplitr; · iempintro
      iexact Hr
    exact h2.trans h3
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Its arrays are split out of
    the unscoped buffers and put back at the exit contents; the generator register goes into the pipeline's invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W15`, left at `W16`. Its arrays are split out of
    the unscoped buffers and put back at the exit contents; the generator register goes into the pipeline's invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V15 m ρ) c).loose
  hwaits := Pipeline.hwaits_of_owed_zero _ _ _ _ L lv 4 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec4 c (V15 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (iprop(Pipeline.scopedRest (Ix := Unit) (Name := ℕ) (U := UR sig nD τ) (Lvl := ℕ) (Val := Elt F) spec4 c ∗ ∃ r, prngReg c r) : sProp 𝕄) ⊢ (dat4 (V15 m ρ) c).Φ 0 := hin4 (V15 m ρ) c
    rw [show (pdats m ρ 4 c).Φ 0 = (dat4 (V15 m ρ) c).Φ 0 from rfl]
    iintro ⟨Hp, -, Hr⟩
    iapply h2
    isplitl [Hr]; · iexact Hr
    iexact Hp
  hout c := by
    have h2 : (dat4 (V15 m ρ) c).Φ (Fin.last cfg4.N) ⊢ (iprop(Pipeline.scopedRest (Ix := Unit) (Name := ℕ) (U := UR sig nD τ) (Lvl := ℕ) (Val := Elt F) spec4 c ∗ ∃ r, prngReg c r) : sProp 𝕄) := hout4 (V15 m ρ) c
    rw [Pipeline.ownSems0_none, show (pdats m ρ 4 c).Φ (Fin.last _) = (dat4 (V15 m ρ) c).Φ (Fin.last cfg4.N) from rfl]
    have h3 : (iprop(Pipeline.scopedRest (Ix := Unit) (Name := ℕ) (U := UR sig nD τ) (Lvl := ℕ) (Val := Elt F) spec4 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec4 c) := by
      iintro ⟨Hr, Hp⟩
      isplitl [Hp]; · iexact Hp
      isplitr; · iempintro
      iexact Hr
    exact h2.trans h3
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V15 m ρ c) (V16 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W17`, left at `W18`. Its arrays are split out of
    the unscoped buffers and put back at the exit contents; the generator register goes into the pipeline's invariant and comes
    back; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V17 m ρ) c).loose
  hwaits := Pipeline.hwaits_of_owed_zero _ _ _ _ L lv 5 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec5 c (V17 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V17 m ρ c) (V18 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W21`, left at `W22`. Its arrays are split out of
    the unscoped buffers and put back at the exit contents; the generator register goes into the pipeline's invariant and comes
    back; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V21 m ρ) c).loose
  hwaits := Pipeline.hwaits_of_owed_zero _ _ _ _ L lv 6 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec6 c (V21 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : (iprop(Pipeline.scopedRest (Ix := Unit) (Name := ℕ) (U := UR sig nD τ) (Lvl := ℕ) (Val := Elt F) spec6 c ∗ ∃ r, prngReg c r) : sProp 𝕄) ⊢ (dat6 (V21 m ρ) c).Φ 0 := hin6 (V21 m ρ) c
    rw [show (pdats m ρ 6 c).Φ 0 = (dat6 (V21 m ρ) c).Φ 0 from rfl]
    iintro ⟨Hp, -, Hr⟩
    iapply h2
    isplitl [Hr]; · iexact Hr
    iexact Hp
  hout c := by
    have h2 : (dat6 (V21 m ρ) c).Φ (Fin.last cfg6.N) ⊢ (iprop(Pipeline.scopedRest (Ix := Unit) (Name := ℕ) (U := UR sig nD τ) (Lvl := ℕ) (Val := Elt F) spec6 c ∗ ∃ r, prngReg c r) : sProp 𝕄) := hout6 (V21 m ρ) c
    rw [Pipeline.ownSems0_none, show (pdats m ρ 6 c).Φ (Fin.last _) = (dat6 (V21 m ρ) c).Φ (Fin.last cfg6.N) from rfl]
    have h3 : (iprop(Pipeline.scopedRest (Ix := Unit) (Name := ℕ) (U := UR sig nD τ) (Lvl := ℕ) (Val := Elt F) spec6 c ∗ ∃ r, prngReg c r) : sProp 𝕄) ⊢ iprop((∃ r, prngReg c r) ∗ BI.emp ∗ Pipeline.scopedRest (Ix := Unit) (Name := ℕ) (U := UR sig nD τ) (Lvl := ℕ) (Val := Elt F) spec6 c) := by
      iintro ⟨Hr, Hp⟩
      isplitl [Hp]; · iexact Hp
      isplitr; · iempintro
      iexact Hr
    exact h2.trans h3
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V21 m ρ c) (V22 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W23`, left at `W24`. Its arrays are split out of
    the unscoped buffers and put back at the exit contents; the generator register goes into the pipeline's invariant and comes
    back; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V23 m ρ) c).loose
  hwaits := Pipeline.hwaits_of_owed_zero _ _ _ _ L lv 7 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec7 c (V23 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V23 m ρ c) (V24 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 25 items in order: a host segment per stretch from its boundary's contents, a region per kernel launch. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .host (hseg hostOps4_1 hostOps4_1_sub hostOps4_1_fresh (W13 m ρ)),
    .host (hseg hostOps4_2 hostOps4_2_sub hostOps4_2_fresh (W14 m ρ)),
    .region (reg4 m ρ),
    .host (hseg hostOps5 hostOps5_sub hostOps5_fresh (W16 m ρ)),
    .region (reg5 m ρ),
    .host (hseg hostOps6 hostOps6_sub hostOps6_fresh (W18 m ρ)),
    .host (hseg hostOps6_1 hostOps6_1_sub hostOps6_1_fresh (W19 m ρ)),
    .host (hseg hostOps6_2 hostOps6_2_sub hostOps6_2_fresh (W20 m ρ)),
    .region (reg6 m ρ),
    .host (hseg hostOps7 hostOps7_sub hostOps7_fresh (W22 m ρ)),
    .region (reg7 m ρ),
    .host (hseg hostOps8 hostOps8_sub hostOps8_fresh (W24 m ρ)) ]

/-- @main is the run of the segments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the TensorCores
    terminates, nothing faulting, and every final state holds every unscoped buffer at the last boundary's contents `W25`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W25 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W25 m ρ c) ∗ R c)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨(h c _ (mem_uc main_arg0 (by decide))).trans (W25_main_arg0 m ρ c),
      (h c _ (mem_uc main_arg1 (by decide))).trans (W25_main_arg1 m ρ c),
      (h c _ (mem_uc main_arg2 (by decide))).trans (W25_main_arg2 m ρ c),
      (h c _ (mem_uc main_arg3 (by decide))).trans (W25_main_arg3 m ρ c),
      (h c _ (mem_uc main_arg4 (by decide))).trans (W25_main_arg4 m ρ c),
      (h c _ (mem_uc main_arg5 (by decide))).trans (W25_main_arg5 m ρ c),
      (h c _ (mem_uc main_arg6 (by decide))).trans (W25_main_arg6 m ρ c),
      (h c _ (mem_uc main_arg7 (by decide))).trans (W25_main_arg7 m ρ c),
      (h c _ (mem_uc main_arg8 (by decide))).trans (W25_main_arg8 m ρ c),
      (h c _ (mem_uc main_arg9 (by decide))).trans (W25_main_arg9 m ρ c),
      (h c _ (mem_uc main_arg10 (by decide))).trans (W25_main_arg10 m ρ c),
      (h c _ (mem_uc main_arg11 (by decide))).trans (W25_main_arg11 m ρ c),
      (h c _ (mem_uc main_arg12 (by decide))).trans (W25_main_arg12 m ρ c),
      (h c _ (mem_uc main_arg13 (by decide))).trans (W25_main_arg13 m ρ c),
      (h c _ (mem_uc main_arg14 (by decide))).trans (W25_main_arg14 m ρ c),
      (h c _ (mem_uc main_arg15 (by decide))).trans (W25_main_arg15 m ρ c),
      (h c _ (mem_uc main_arg16 (by decide))).trans (W25_main_arg16 m ρ c),
      (h c _ (mem_uc main_arg17 (by decide))).trans (W25_main_arg17 m ρ c),
      (h c _ (mem_uc main_arg18 (by decide))).trans (W25_main_arg18 m ρ c),
      (h c _ (mem_uc main_arg19 (by decide))).trans (W25_main_arg19 m ρ c),
      (h c _ (mem_uc main_arg20 (by decide))).trans (W25_main_arg20 m ρ c),
      (h c _ (mem_uc main_arg21 (by decide))).trans (W25_main_arg21 m ρ c),
      (h c _ (mem_uc main_arg22 (by decide))).trans (W25_main_arg22 m ρ c),
      (h c _ (mem_uc main_arg23 (by decide))).trans (W25_main_arg23 m ρ c),
      (h c _ (mem_uc main_arg24 (by decide))).trans (W25_main_arg24 m ρ c),
      (h c _ (mem_uc main_arg25 (by decide))).trans (W25_main_arg25 m ρ c),
      (h c _ (mem_uc main_arg26 (by decide))).trans (W25_main_arg26 m ρ c),
      (h c _ (mem_uc main_arg27 (by decide))).trans (W25_main_arg27 m ρ c)⟩)
    (run_all m ρ)

end Cert.KernelIdeal.Hand

end
-- ==== Proof.RefOps.lean ====
/- The reference program's @main as lists of its host operations, in program order, each outlined function's
   body written out at its call site over that call's buffer record. The 324 operations are cut into twelve
   consecutive lists: the cuts fall where one layer's neighbourhood sum ends, where its two-layer perceptron
   ends, and where the printed program's windows end. Each operation writes the one buffer whose index in the
   HBM table is the operation's position plus 28, so a list writes a block of consecutive indices; a buffer
   outside the block is unchanged by the list (`after_frame`). -/
import proofs.«138093_j17583596110490_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operation writes exactly one buffer, and its index in the table lies in `[lo, hi]`. -/
def WritesIn (lo hi : ℕ) (op : HloOp τ sig (Elt F)) : Prop :=
  ∃ y : Ref sig .tc, op.writes = {Proc.devRef .tc y} ∧ lo ≤ y.idx.val ∧ y.idx.val ≤ hi

/-- A line all of whose operations write inside `[lo, hi]` leaves every buffer indexed outside it as it was. -/
theorem after_frame {lo hi : ℕ} (l : List (HloOp τ sig (Elt F))) (hl : l.Forall (WritesIn lo hi))
    (V : Valuation τ sig (Elt F)) (r : Ref sig .tc) (hr : r.idx.val < lo ∨ hi < r.idx.val) :
    after l V (Proc.devRef .tc r) = V (Proc.devRef .tc r) :=
  after_of_forall_not_mem l V fun op hop hb => by
    obtain ⟨y, hw, h1, h2⟩ := (List.forall_iff_forall_mem.mp hl) op hop
    rw [hw, Finset.mem_singleton] at hb
    have e : r = y := Proc.devRef_injective _ hb
    subst e
    omega

/-- The fold over two lines one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0 … 21 (they write the buffers indexed 28 … 49). -/
abbrev cA0 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S320000 ![] bcast_S_S320000 : (⟨S_, .i32⟩ : BufTy).Contents (Elt F) → (⟨S320000, .i32⟩ : BufTy).Contents (Elt F)),
    StableHlo.binary main_v1 main_v4 main_v5 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 20000#32),
    StableHlo.unary main_c_0 main_v6 (broadcastInDim S320000 ![] bcast_S_S320000 : (⟨S_, .i32⟩ : BufTy).Contents (Elt F) → (⟨S320000, .i32⟩ : BufTy).Contents (Elt F)),
    StableHlo.binary main_v1 main_v6 main_v7 (addi : (⟨S320000, .i32⟩ : BufTy).Contents (Elt F) → (⟨S320000, .i32⟩ : BufTy).Contents (Elt F) → (⟨S320000, .i32⟩ : BufTy).Contents (Elt F)),
    StableHlo.ternary main_v5 main_v7 main_v1 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v8 main_v9 (broadcastInDim S320000x1 ![0] bcast_S320000_S320000x1_0 : (⟨S320000, .i32⟩ : BufTy).Contents (Elt F) → (⟨S320000x1, .i32⟩ : BufTy).Contents (Elt F)),
    StableHlo.binary main_arg0 main_v9 main_v10 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.binary main_v10 main_arg2 main_v11 (addf : (⟨S320000x256, .f32⟩ : BufTy).Contents (Elt F) → (⟨S320000x256, .f32⟩ : BufTy).Contents (Elt F) → (⟨S320000x256, .f32⟩ : BufTy).Contents (Elt F)),
    StableHlo.TRef.nullary main_call0.cst (constant S_ .f32 0x00000000#32),
    StableHlo.TRef.unary main_call0.cst main_call0.v0 (broadcastInDim S320000x256 ![] bcast_S_S320000x256),
    StableHlo.TRef.binary (.of main_v11 : StableHlo.TRef sig ⟨S320000x256, .f32⟩) main_call0.v0 main_call0.v1 maximumf,
    StableHlo.nullary main_cst (constant S_ .f32 0x00000000#32),
    StableHlo.unary main_cst main_v13 (broadcastInDim S20000x256 ![] bcast_S_S20000x256 : (⟨S_, .f32⟩ : BufTy).Contents (Elt F) → (⟨S20000x256, .f32⟩ : BufTy).Contents (Elt F)),
    StableHlo.unary main_v3 main_v14 (broadcastInDim S320000x1 ![0] bcast_S320000_S320000x1_0 : (⟨S320000, .i32⟩ : BufTy).Contents (Elt F) → (⟨S320000x1, .i32⟩ : BufTy).Contents (Elt F)),
    StableHlo.ternary main_v13 main_v14 main_v12 main_v15 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.binary main_arg0 main_v15 main_v16 (addf : (⟨S20000x256, .f32⟩ : BufTy).Contents (Elt F) → (⟨S20000x256, .f32⟩ : BufTy).Contents (Elt F) → (⟨S20000x256, .f32⟩ : BufTy).Contents (Elt F)) ]

theorem cA0_sub : (cA0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub ..⟩

theorem cA0_fresh : (cA0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem cA0_writes : (cA0 : List (HloOp τ sig (Elt F))).Forall (WritesIn 28 49) :=
  ⟨⟨main_v0, rfl, by decide, by decide⟩, ⟨main_v1, rfl, by decide, by decide⟩, ⟨main_v2, rfl, by decide, by decide⟩, ⟨main_v3, rfl, by decide, by decide⟩, ⟨main_c, rfl, by decide, by decide⟩, ⟨main_v4, rfl, by decide, by decide⟩, ⟨main_v5, rfl, by decide, by decide⟩, ⟨main_c_0, rfl, by decide, by decide⟩, ⟨main_v6, rfl, by decide, by decide⟩, ⟨main_v7, rfl, by decide, by decide⟩, ⟨main_v8, rfl, by decide, by decide⟩, ⟨main_v9, rfl, by decide, by decide⟩, ⟨main_v10, rfl, by decide, by decide⟩, ⟨main_v11, rfl, by decide, by decide⟩, ⟨main_call0_cst, rfl, by decide, by decide⟩, ⟨main_call0_v0, rfl, by decide, by decide⟩, ⟨main_v12, rfl, by decide, by decide⟩, ⟨main_cst, rfl, by decide, by decide⟩, ⟨main_v13, rfl, by decide, by decide⟩, ⟨main_v14, rfl, by decide, by decide⟩, ⟨main_v15, rfl, by decide, by decide⟩, ⟨main_v16, rfl, by decide, by decide⟩⟩

/-- Operations 22 … 76 (they write the buffers indexed 50 … 104). -/
abbrev cM0 : List (HloOp τ sig (Elt F)) :=
  [ StableHlo.binary main_v16 main_arg4 main_v17 ((fun l r => Host.dotGeneral dot_S20000x256_S256x512_S20000x512_1_0_0_1_n_n none l r) : (⟨S20000x256, .f32⟩ : BufTy).Contents (Elt F) → (⟨S256x512, .f32⟩ : BufTy).Contents (Elt F) → (⟨S20000x512, .f32⟩ : BufTy).Contents (Elt F)),
    StableHlo.unary main_arg5 main_v18 (broadcastInDim S1x512 ![1] bcast_S512_S1x512_1 : (⟨S512, .f32⟩ : BufTy).Contents (Elt F) → (⟨S1x512, .f32⟩ : BufTy).Contents (Elt F)),
    StableHlo.unary main_v18 main_v19 (broadcastInDim S20000x512 ![0, 1] bcast_S1x512_S20000x512_0_1 : (⟨S1x512, .f32⟩ : BufTy).Contents (Elt F) → (⟨S20000x512, .f32⟩ : BufTy).Contents (Elt F)),
    StableHlo.binary main_v17 main_v19 main_v20 (addf : (⟨S20000x512, .f32⟩ : BufTy).Contents (Elt F) → (⟨S20000x512, .f32⟩ : BufTy).Contents (Elt F) → (⟨S20000x512, .f32⟩ : BufTy).Contents (Elt F)),
    StableHlo.nullary main_cst_1 (constant S_ .f32 0x00000000#32),
    StableHlo.binary main_v20 main_cst_1 main_v21 ((fun x v => Host.reduceAdd x v reducesTo_S20000x512_S512_d0 h_S_) : (⟨S20000x512, .f32⟩ : BufTy).Contents (Elt F) → (⟨S_, .f32⟩ : BufTy).Contents (Elt F) → (⟨S512, .f32⟩ : BufTy).Contents (Elt F)),
    StableHlo.nullary main_cst_2 (constant S_ .f32 0x469C4000#32),
    StableHlo.unary main_cst_2 main_v22 (broadcastInDim S512 ![] bcast_S_S512 : (⟨S_, .f32⟩ : BufTy).Contents (Elt F) → (⟨S512, .f32⟩ : BufTy).Contents (Elt F)),
    StableHlo.binary main_v21 main_v22 main_v23 (Host.divf : (⟨S512, .f32⟩ : BufTy).Contents (Elt F) → (⟨S512, .f32⟩ : BufTy).Contents (Elt F) → (⟨S512, .f32⟩ : BufTy).Contents (Elt F)),
    StableHlo.nullary main_c_3 (constantI S_ 32 0#32),
    StableHlo.TRef.nullary main_call1.cst (constant S_ .f32 0x00000000#32),
    StableHlo.TRef.binary (.of main_v20 : StableHlo.TRef sig ⟨S20000x512, .f32⟩) main_call1.cst main_call1.v0 (fun x v => Host.reduceAdd x v reducesTo_S20000x512_S512_d0 h_S_),
    StableHlo.TRef.unary main_call1.v0 main_call1.v1 (broadcastInDim S1x512 ![1] bcast_S512_S1x512_1),
    StableHlo.TRef.nullary main_call1.cst_0 (constant S_ .f32 0x469C4000#32),
    StableHlo.TRef.unary main_call1.cst_0 main_call1.v2 (broadcastInDim S1x512 ![] bcast_S_S1x512),
    StableHlo.TRef.binary main_call1.v1 main_call1.v2 main_call1.v3 Host.divf,
    StableHlo.TRef.unary main_call1.v3 main_call1.v4 (broadcastInDim S20000x512 ![0, 1] bcast_S1x512_S20000x512_0_1),
    StableHlo.TRef.binary (.of main_v20 : StableHlo.TRef sig ⟨S20000x512, .f32⟩) main_call1.v4 main_call1.v5 subf,
    StableHlo.TRef.binary main_call1.v5 main_call1.v5 main_call1.v6 mulf,
    StableHlo.TRef.unary (.of main_c_3 : StableHlo.TRef sig ⟨S_, .i32⟩) main_call1.v7 (sitofp .f32),
    StableHlo.TRef.nullary main_call1.cst_1 (constant S_ .f32 0x469C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S20000x512_S512_d0 h_S_),
    StableHlo.TRef.unary main_call1.v8 main_call1.v10 (broadcastInDim S512 ![] bcast_S_S512),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S512 ![] bcast_S_S512),
    StableHlo.TRef.ternary main_call1.v12 main_call1.v11 main_call1.call0.v1 main_call1.call0.v2 (fun p a b => select (broadcastInDim S512 ![] bcast_S_S512 p) a b),
    StableHlo.unary main_v23 main_v25 (broadcastInDim S1x512 ![1] bcast_S512_S1x512_1 : (⟨S512, .f32⟩ : BufTy).Contents (Elt F) → (⟨S1x512, .f32⟩ : BufTy).Contents (Elt F)),
    StableHlo.unary main_v25 main_v26 (broadcastInDim S20000x512 ![0, 1] bcast_S1x512_S20000x512_0_1 : (⟨S1x512, .f32⟩ : BufTy).Contents (Elt F) → (⟨S20000x512, .f32⟩ : BufTy).Contents (Elt F)),
    StableHlo.binary main_v20 main_v26 main_v27 (subf : (⟨S20000x512, .f32⟩ : BufTy).Contents (Elt F) → (⟨S20000x512, .f32⟩ : BufTy).Contents (Elt F) → (⟨S20000x512, .f32⟩ : BufTy).Contents (Elt F)),
    StableHlo.nullary main_cst_4 (constant S_ .f32 0x3727C5AC#32),
    StableHlo.unary main_cst_4 main_v28 (broadcastInDim S512 ![] bcast_S_S512 : (⟨S_, .f32⟩ : BufTy).Contents (Elt F) → (⟨S512, .f32⟩ : BufTy).Contents (Elt F)),
    StableHlo.binary main_v24 main_v28 main_v29 (addf : (⟨S512, .f32⟩ : BufTy).Contents (Elt F) → (⟨S512, .f32⟩ : BufTy).Contents (Elt F) → (⟨S512, .f32⟩ : BufTy).Contents (Elt F)),
    StableHlo.unary main_v29 main_v30 (Host.rsqrt : (⟨S512, .f32⟩ : BufTy).Contents (Elt F) → (⟨S512, .f32⟩ : BufTy).Contents (Elt F)),
    StableHlo.unary main_v30 main_v31 (broadcastInDim S1x512 ![1] bcast_S512_S1x512_1 : (⟨S512, .f32⟩ : BufTy).Contents (Elt F) → (⟨S1x512, .f32⟩ : BufTy).Contents (Elt F)),
    StableHlo.unary main_v31 main_v32 (broadcastInDim S20000x512 ![0, 1] bcast_S1x512_S20000x512_0_1 : (⟨S1x512, .f32⟩ : BufTy).Contents (Elt F) → (⟨S20000x512, .f32⟩ : BufTy).Contents (Elt F)),
    StableHlo.binary main_v27 main_v32 main_v33 (mulf : (⟨S20000x512, .f32⟩ : BufTy).Contents (Elt F) → (⟨S20000x512, .f32⟩ : BufTy).Contents (Elt F) → (⟨S20000x512, .f32⟩ : BufTy).Contents (Elt F)),
    StableHlo.unary main_arg6 main_v34 (broadcastInDim S1x512 ![1] bcast_S512_S1x512_1 : (⟨S512, .f32⟩ : BufTy).Contents (Elt F) → (⟨S1x512, .f32⟩ : BufTy).Contents (Elt F)),
    StableHlo.unary main_v34 main_v35 (broadcastInDim S20000x512 ![0, 1] bcast_S1x512_S20000x512_0_1 : (⟨S1x512, .f32⟩ : BufTy).Contents (Elt F) → (⟨S20000x512, .f32⟩ : BufTy).Contents (Elt F)),
    StableHlo.binary main_v33 main_v35 main_v36 (mulf : (⟨S20000x512, .f32⟩ : BufTy).Contents (Elt F) → (⟨S20000x512, .f32⟩ : BufTy).Contents (Elt F) → (⟨S20000x512, .f32⟩ : BufTy).Contents (Elt F)),
    StableHlo.unary main_arg7 main_v37 (broadcastInDim S1x512 ![1] bcast_S512_S1x512_1 : (⟨S512, .f32⟩ : BufTy).Contents (Elt F) → (⟨S1x512, .f32⟩ : BufTy).Contents (Elt F)),
    StableHlo.unary main_v37 main_v38 (broadcastInDim S20000x512 ![0, 1] bcast_S1x512_S20000x512_0_1 : (⟨S1x512, .f32⟩ : BufTy).Contents (Elt F) → (⟨S20000x512, .f32⟩ : BufTy).Contents (Elt F)),
    StableHlo.binary main_v36 main_v38 main_v39 (addf : (⟨S20000x512, .f32⟩ : BufTy).Contents (Elt F) → (⟨S20000x512, .f32⟩ : BufTy).Contents (Elt F) → (⟨S20000x512, .f32⟩ : BufTy).Contents (Elt F)),
    StableHlo.TRef.nullary main_call2.cst (constant S_ .f32 0x00000000#32),
    StableHlo.TRef.unary main_call2.cst main_call2.v0 (broadcastInDim S20000x512 ![] bcast_S_S20000x512),
    StableHlo.TRef.binary (.of main_v39 : StableHlo.TRef sig ⟨S20000x512, .f32⟩) main_call2.v0 main_call2.v1 maximumf,
    StableHlo.binary main_v40 main_arg8 main_v41 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    StableHlo.unary main_arg9 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S20000x256 ![0, 1] bcast_S1x256_S20000x256_0_1 : (⟨S1x256, .f32⟩ : BufTy).Contents (Elt F) → (⟨S20000x256, .f32⟩ : BufTy).Contents (Elt F)),
    StableHlo.binary main_v41 main_v43 main_v44 (addf : (⟨S20000x256, .f32⟩ : BufTy).Contents (Elt F) → (⟨S20000x256, .f32⟩ : BufTy).Contents (Elt F) → (⟨S20000x256, .f32⟩ : BufTy).Contents (Elt F)) ]

theorem cM0_sub : (cM0 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem cM0_fresh : (cM0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem cM0_writes : (cM0 : List (HloOp τ sig (Elt F))).Forall (WritesIn 50 104) :=
  ⟨⟨main_v17, rfl, by decide, by decide⟩, ⟨main_v18, rfl, by decide, by decide⟩, ⟨main_v19, rfl, by decide, by decide⟩, ⟨main_v20, rfl, by decide, by decide⟩, ⟨main_cst_1, rfl, by decide, by decide⟩, ⟨main_v21, rfl, by decide, by decide⟩, ⟨main_cst_2, rfl, by decide, by decide⟩, ⟨main_v22, rfl, by decide, by decide⟩, ⟨main_v23, rfl, by decide, by decide⟩, ⟨main_c_3, rfl, by decide, by decide⟩, ⟨main_call1_cst, rfl, by decide, by decide⟩, ⟨main_call1_v0, rfl, by decide, by decide⟩, ⟨main_call1_v1, rfl, by decide, by decide⟩, ⟨main_call1_cst_0, rfl, by decide, by decide⟩, ⟨main_call1_v2, rfl, by decide, by decide⟩, ⟨main_call1_v3, rfl, by decide, by decide⟩, ⟨main_call1_v4, rfl, by decide, by decide⟩, ⟨main_call1_v5, rfl, by decide, by decide⟩, ⟨main_call1_v6, rfl, by decide, by decide⟩, ⟨main_call1_v7, rfl, by decide, by decide⟩, ⟨main_call1_cst_1, rfl, by decide, by decide⟩, ⟨main_call1_v8, rfl, by decide, by decide⟩, ⟨main_call1_cst_2, rfl, by decide, by decide⟩, ⟨main_call1_v9, rfl, by decide, by decide⟩, ⟨main_call1_v10, rfl, by decide, by decide⟩, ⟨main_call1_v11, rfl, by decide, by decide⟩, ⟨main_call1_cst_3, rfl, by decide, by decide⟩, ⟨main_call1_v12, rfl, by decide, by decide⟩, ⟨main_call1_cst_4, rfl, by decide, by decide⟩, ⟨main_call1_call0_v0, rfl, by decide, by decide⟩, ⟨main_call1_call0_v1, rfl, by decide, by decide⟩, ⟨main_v24, rfl, by decide, by decide⟩, ⟨main_v25, rfl, by decide, by decide⟩, ⟨main_v26, rfl, by decide, by decide⟩, ⟨main_v27, rfl, by decide, by decide⟩, ⟨main_cst_4, rfl, by decide, by decide⟩, ⟨main_v28, rfl, by decide, by decide⟩, ⟨main_v29, rfl, by decide, by decide⟩, ⟨main_v30, rfl, by decide, by decide⟩, ⟨main_v31, rfl, by decide, by decide⟩, ⟨main_v32, rfl, by decide, by decide⟩, ⟨main_v33, rfl, by decide, by decide⟩, ⟨main_v34, rfl, by decide, by decide⟩, ⟨main_v35, rfl, by decide, by decide⟩, ⟨main_v36, rfl, by decide, by decide⟩, ⟨main_v37, rfl, by decide, by decide⟩, ⟨main_v38, rfl, by decide, by decide⟩, ⟨main_v39, rfl, by decide, by decide⟩, ⟨main_call2_cst, rfl, by decide, by decide⟩, ⟨main_call2_v0, rfl, by decide, by decide⟩, ⟨main_v40, rfl, by decide, by decide⟩, ⟨main_v41, rfl, by decide, by decide⟩, ⟨main_v42, rfl, by decide, by decide⟩, ⟨main_v43, rfl, by decide, by decide⟩, ⟨main_v44, rfl, by decide, by decide⟩⟩

/-- Operations 77 … 84 (they write the buffers indexed 105 … 112). -/
abbrev cA1a : List (HloOp τ sig (Elt F)) :=
  [ StableHlo.unary main_arg1 main_v45 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v45 main_v46 rfl shapeCasts_S1x320000_S320000,
    StableHlo.unary main_arg1 main_v47 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v47 main_v48 rfl shapeCasts_S1x320000_S320000,
    StableHlo.nullary main_c_5 (constantI S_ 32 0#32),
    StableHlo.unary main_c_5 main_v49 (broadcastInDim S320000 ![] bcast_S_S320000 : (⟨S_, .i32⟩ : BufTy).Contents (Elt F) → (⟨S320000, .i32⟩ : BufTy).Contents (Elt F)),
    StableHlo.binary main_v46 main_v49 main_v50 (cmpi .slt : (⟨S320000, .i32⟩ : BufTy).Contents (Elt F) → (⟨S320000, .i32⟩ : BufTy).Contents (Elt F) → (⟨S320000, .i1⟩ : BufTy).Contents (Elt F)),
    StableHlo.nullary main_c_6 (constantI S_ 32 20000#32) ]

theorem cA1a_sub : (cA1a : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub ..⟩

theorem cA1a_fresh : (cA1a : List (HloOp τ sig (Elt F))).Forall fun op => op.fresh = ∅ :=
  ⟨rfl, rfl, rfl, rfl, rfl, rfl, rfl, rfl⟩

theorem cA1a_writes : (cA1a : List (HloOp τ sig (Elt F))).Forall (WritesIn 105 112) :=
  ⟨⟨main_v45, rfl, by decide, by decide⟩, ⟨main_v46, rfl, by decide, by decide⟩, ⟨main_v47, rfl, by decide, by decide⟩, ⟨main_v48, rfl, by decide, by decide⟩, ⟨main_c_5, rfl, by decide, by decide⟩, ⟨main_v49, rfl, by decide, by decide⟩, ⟨main_v50, rfl, by decide, by decide⟩, ⟨main_c_6, rfl, by decide, by decide⟩⟩

/-- Operations 85 … 98 (they write the buffers indexed 113 … 126). -/
abbrev cA1b : List (HloOp τ sig (Elt F)) :=
  [ StableHlo.unary main_c_6 main_v51 (broadcastInDim S320000 ![] bcast_S_S320000 : (⟨S_, .i32⟩ : BufTy).Contents (Elt F) → (⟨S320000, .i32⟩ : BufTy).Contents (Elt F)),
    StableHlo.binary main_v46 main_v51 main_v52 (addi : (⟨S320000, .i32⟩ : BufTy).Contents (Elt F) → (⟨S320000, .i32⟩ : BufTy).Contents (Elt F) → (⟨S320000, .i32⟩ : BufTy).Contents (Elt F)),
    StableHlo.ternary main_v50 main_v52 main_v46 main_v53 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v53 main_v54 (broadcastInDim S320000x1 ![0] bcast_S320000_S320000x1_0 : (⟨S320000, .i32⟩ : BufTy).Contents (Elt F) → (⟨S320000x1, .i32⟩ : BufTy).Contents (Elt F)),
    StableHlo.binary main_v44 main_v54 main_v55 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.binary main_v55 main_arg2 main_v56 (addf : (⟨S320000x256, .f32⟩ : BufTy).Contents (Elt F) → (⟨S320000x256, .f32⟩ : BufTy).Contents (Elt F) → (⟨S320000x256, .f32⟩ : BufTy).Contents (Elt F)),
    StableHlo.TRef.nullary main_call3.cst (constant S_ .f32 0x00000000#32),
    StableHlo.TRef.unary main_call3.cst main_call3.v0 (broadcastInDim S320000x256 ![] bcast_S_S320000x256),
    StableHlo.TRef.binary (.of main_v56 : StableHlo.TRef sig ⟨S320000x256, .f32⟩) main_call3.v0 main_call3.v1 maximumf,
    StableHlo.nullary main_cst_7 (constant S_ .f32 0x00000000#32),
    StableHlo.unary main_cst_7 main_v58 (broadcastInDim S20000x256 ![] bcast_S_S20000x256 : (⟨S_, .f32⟩ : BufTy).Contents (Elt F) → (⟨S20000x256, .f32⟩ : BufTy).Contents (Elt F)),
    StableHlo.unary main_v48 main_v59 (broadcastInDim S320000x1 ![0] bcast_S320000_S320000x1_0 : (⟨S320000, .i32⟩ : BufTy).Contents (Elt F) → (⟨S320000x1, .i32⟩ : BufTy).Contents (Elt F)),
    StableHlo.ternary main_v58 main_v59 main_v57 main_v60 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.binary main_v44 main_v60 main_v61 (addf : (⟨S20000x256, .f32⟩ : BufTy).Contents (Elt F) → (⟨S20000x256, .f32⟩ : BufTy).Contents (Elt F) → (⟨S20000x256, .f32⟩ : BufTy).Contents (Elt F)) ]

theorem cA1b_sub : (cA1b : List (HloOp τ sig (Elt F))).Forall fun op => op.bufs ⊆ tcRefs τ sig :=
  ⟨unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub ..⟩

theorem cA1b_fresh : (cA1b : List (HloOp τ sig (Elt F))).Forall fun op => op.fresh = ∅ :=
  ⟨rfl, rfl, rfl, rfl, rfl, rfl, rfl, rfl, rfl, rfl, rfl, rfl, rfl, rfl⟩

theorem cA1b_writes : (cA1b : List (HloOp τ sig (Elt F))).Forall (WritesIn 113 126) :=
  ⟨⟨main_v51, rfl, by decide, by decide⟩, ⟨main_v52, rfl, by decide, by decide⟩, ⟨main_v53, rfl, by decide, by decide⟩, ⟨main_v54, rfl, by decide, by decide⟩, ⟨main_v55, rfl, by decide, by decide⟩, ⟨main_v56, rfl, by decide, by decide⟩, ⟨main_call3_cst, rfl, by decide, by decide⟩, ⟨main_call3_v0, rfl, by decide, by decide⟩, ⟨main_v57, rfl, by decide, by decide⟩, ⟨main_cst_7, rfl, by decide, by decide⟩, ⟨main_v58, rfl, by decide, by decide⟩, ⟨main_v59, rfl, by decide, by decide⟩, ⟨main_v60, rfl, by decide, by decide⟩, ⟨main_v61, rfl, by decide, by decide⟩⟩

/-- Operations 99 … 153 (they write the buffers indexed 127 … 181). -/
abbrev cM1 : List (HloOp τ sig (Elt F)) :=
  [ StableHlo.binary main_v61 main_arg10 main_v62 ((fun l r => Host.dotGeneral dot_S20000x256_S256x512_S20000x512_1_0_0_1_n_n none l r) : (⟨S20000x256, .f32⟩ : BufTy).Contents (Elt F) → (⟨S256x512, .f32⟩ : BufTy).Contents (Elt F) → (⟨S20000x512, .f32⟩ : BufTy).Contents (Elt F)),
    StableHlo.unary main_arg11 main_v63 (broadcastInDim S1x512 ![1] bcast_S512_S1x512_1 : (⟨S512, .f32⟩ : BufTy).Contents (Elt F) → (⟨S1x512, .f32⟩ : BufTy).Contents (Elt F)),
    StableHlo.unary main_v63 main_v64 (broadcastInDim S20000x512 ![0, 1] bcast_S1x512_S20000x512_0_1 : (⟨S1x512, .f32⟩ : BufTy).Contents (Elt F) → (⟨S20000x512, .f32⟩ : BufTy).Contents (Elt F)),
    StableHlo.binary main_v62 main_v64 main_v65 (addf : (⟨S20000x512, .f32⟩ : BufTy).Contents (Elt F) → (⟨S20000x512, .f32⟩ : BufTy).Contents (Elt F) → (⟨S20000x512, .f32⟩ : BufTy).Contents (Elt F)),
    StableHlo.nullary main_cst_8 (constant S_ .f32 0x00000000#32),
    StableHlo.binary main_v65 main_cst_8 main_v66 ((fun x v => Host.reduceAdd x v reducesTo_S20000x512_S512_d0 h_S_) : (⟨S20000x512, .f32⟩ : BufTy).Contents (Elt F) → (⟨S_, .f32⟩ : BufTy).Contents (Elt F) → (⟨S512, .f32⟩ : BufTy).Contents (Elt F)),
    StableHlo.nullary main_cst_9 (constant S_ .f32 0x469C4000#32),
    StableHlo.unary main_cst_9 main_v67 (broadcastInDim S512 ![] bcast_S_S512 : (⟨S_, .f32⟩ : BufTy).Contents (Elt F) → (⟨S512, .f32⟩ : BufTy).Contents (Elt F)),
    StableHlo.binary main_v66 main_v67 main_v68 (Host.divf : (⟨S512, .f32⟩ : BufTy).Contents (Elt F) → (⟨S512, .f32⟩ : BufTy).Contents (Elt F) → (⟨S512, .f32⟩ : BufTy).Contents (Elt F)),
    StableHlo.nullary main_c_10 (constantI S_ 32 0#32),
    StableHlo.TRef.nullary main_call4.cst (constant S_ .f32 0x00000000#32),
    StableHlo.TRef.binary (.of main_v65 : StableHlo.TRef sig ⟨S20000x512, .f32⟩) main_call4.cst main_call4.v0 (fun x v => Host.reduceAdd x v reducesTo_S20000x512_S512_d0 h_S_),
    StableHlo.TRef.unary main_call4.v0 main_call4.v1 (broadcastInDim S1x512 ![1] bcast_S512_S1x512_1),
    StableHlo.TRef.nullary main_call4.cst_0 (constant S_ .f32 0x469C4000#32),
    StableHlo.TRef.unary main_call4.cst_0 main_call4.v2 (broadcastInDim S1x512 ![] bcast_S_S1x512),
    StableHlo.TRef.binary main_call4.v1 main_call4.v2 main_call4.v3 Host.divf,
    StableHlo.TRef.unary main_call4.v3 main_call4.v4 (broadcastInDim S20000x512 ![0, 1] bcast_S1x512_S20000x512_0_1),
    StableHlo.TRef.binary (.of main_v65 : StableHlo.TRef sig ⟨S20000x512, .f32⟩) main_call4.v4 main_call4.v5 subf,
    StableHlo.TRef.binary main_call4.v5 main_call4.v5 main_call4.v6 mulf,
    StableHlo.TRef.unary (.of main_c_10 : StableHlo.TRef sig ⟨S_, .i32⟩) main_call4.v7 (sitofp .f32),
    StableHlo.TRef.nullary main_call4.cst_1 (constant S_ .f32 0x469C4000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S20000x512_S512_d0 h_S_),
    StableHlo.TRef.unary main_call4.v8 main_call4.v10 (broadcastInDim S512 ![] bcast_S_S512),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S512 ![] bcast_S_S512),
    StableHlo.TRef.ternary main_call4.v12 main_call4.v11 main_call4.call0.v1 main_call4.call0.v2 (fun p a b => select (broadcastInDim S512 ![] bcast_S_S512 p) a b),
    StableHlo.unary main_v68 main_v70 (broadcastInDim S1x512 ![1] bcast_S512_S1x512_1 : (⟨S512, .f32⟩ : BufTy).Contents (Elt F) → (⟨S1x512, .f32⟩ : BufTy).Contents (Elt F)),
    StableHlo.unary main_v70 main_v71 (broadcastInDim S20000x512 ![0, 1] bcast_S1x512_S20000x512_0_1 : (⟨S1x512, .f32⟩ : BufTy).Contents (Elt F) → (⟨S20000x512, .f32⟩ : BufTy).Contents (Elt F)),
    StableHlo.binary main_v65 main_v71 main_v72 (subf : (⟨S20000x512, .f32⟩ : BufTy).Contents (Elt F) → (⟨S20000x512, .f32⟩ : BufTy).Contents (Elt F) → (⟨S20000x512, .f32⟩ : BufTy).Contents (Elt F)),
    StableHlo.nullary main_cst_11 (constant S_ .f32 0x3727C5AC#32),
    StableHlo.unary main_cst_11 main_v73 (broadcastInDim S512 ![] bcast_S_S512 : (⟨S_, .f32⟩ : BufTy).Contents (Elt F) → (⟨S512, .f32⟩ : BufTy).Contents (Elt F)),
    StableHlo.binary main_v69 main_v73 main_v74 (addf : (⟨S512, .f32⟩ : BufTy).Contents (Elt F) → (⟨S512, .f32⟩ : BufTy).Contents (Elt F) → (⟨S512, .f32⟩ : BufTy).Contents (Elt F)),
    StableHlo.unary main_v74 main_v75 (Host.rsqrt : (⟨S512, .f32⟩ : BufTy).Contents (Elt F) → (⟨S512, .f32⟩ : BufTy).Contents (Elt F)),
    StableHlo.unary main_v75 main_v76 (broadcastInDim S1x512 ![1] bcast_S512_S1x512_1 : (⟨S512, .f32⟩ : BufTy).Contents (Elt F) → (⟨S1x512, .f32⟩ : BufTy).Contents (Elt F)),
    StableHlo.unary main_v76 main_v77 (broadcastInDim S20000x512 ![0, 1] bcast_S1x512_S20000x512_0_1 : (⟨S1x512, .f32⟩ : BufTy).Contents (Elt F) → (⟨S20000x512, .f32⟩ : BufTy).Contents (Elt F)),
    StableHlo.binary main_v72 main_v77 main_v78 (mulf : (⟨S20000x512, .f32⟩ : BufTy).Contents (Elt F) → (⟨S20000x512, .f32⟩ : BufTy).Contents (Elt F) → (⟨S20000x512, .f32⟩ : BufTy).Contents (Elt F)),
    StableHlo.unary main_arg12 main_v79 (broadcastInDim S1x512 ![1] bcast_S512_S1x512_1 : (⟨S512, .f32⟩ : BufTy).Contents (Elt F) → (⟨S1x512, .f32⟩ : BufTy).Contents (Elt F)),
    StableHlo.unary main_v79 main_v80 (broadcastInDim S20000x512 ![0, 1] bcast_S1x512_S20000x512_0_1 : (⟨S1x512, .f32⟩ : BufTy).Contents (Elt F) → (⟨S20000x512, .f32⟩ : BufTy).Contents (Elt F)),
    StableHlo.binary main_v78 main_v80 main_v81 (mulf : (⟨S20000x512, .f32⟩ : BufTy).Contents (Elt F) → (⟨S20000x512, .f32⟩ : BufTy).Contents (Elt F) → (⟨S20000x512, .f32⟩ : BufTy).Contents (Elt F)),
    StableHlo.unary main_arg13 main_v82 (broadcastInDim S1x512 ![1] bcast_S512_S1x512_1 : (⟨S512, .f32⟩ : BufTy).Contents (Elt F) → (⟨S1x512, .f32⟩ : BufTy).Contents (Elt F)),
    StableHlo.unary main_v82 main_v83 (broadcastInDim S20000x512 ![0, 1] bcast_S1x512_S20000x512_0_1 : (⟨S1x512, .f32⟩ : BufTy).Contents (Elt F) → (⟨S20000x512, .f32⟩ : BufTy).Contents (Elt F)),
    StableHlo.binary main_v81 main_v83 main_v84 (addf : (⟨S20000x512, .f32⟩ : BufTy).Contents (Elt F) → (⟨S20000x512, .f32⟩ : BufTy).Contents (Elt F) → (⟨S20000x512, .f32⟩ : BufTy).Contents (Elt F)),
    StableHlo.TRef.nullary main_call5.cst (constant S_ .f32 0x00000000#32),
    StableHlo.TRef.unary main_call5.cst main_call5.v0 (broadcastInDim S20000x512 ![] bcast_S_S20000x512),
    StableHlo.TRef.binary (.of main_v84 : StableHlo.TRef sig ⟨S20000x512, .f32⟩) main_call5.v0 main_call5.v1 maximumf,
    StableHlo.binary main_v85 main_arg14 main_v86 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    StableHlo.unary main_arg15 main_v87 (broadcastInDim S1x256 ![1] bcast_S256_S1x256_1 : (⟨S256, .f32⟩ : BufTy).Contents (Elt F) → (⟨S1x256, .f32⟩ : BufTy).Contents (Elt F)),
    StableHlo.unary main_v87 main_v88 (broadcastInDim S20000x256 ![0, 1] bcast_S1x256_S20000x256_0_1 : (⟨S1x256, .f32⟩ : BufTy).Contents (Elt F) → (⟨S20000x256, .f32⟩ : BufTy).Contents (Elt F)),
    StableHlo.binary main_v86 main_v88 main_v89 (addf : (⟨S20000x256, .f32⟩ : BufTy).Contents (Elt F) → (⟨S20000x256, .f32⟩ : BufTy).Contents (Elt F) → (⟨S20000x256, .f32⟩ : BufTy).Contents (Elt F)) ]

theorem cM1_sub : (cM1 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem cM1_fresh : (cM1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem cM1_writes : (cM1 : List (HloOp τ sig (Elt F))).Forall (WritesIn 127 181) :=
  ⟨⟨main_v62, rfl, by decide, by decide⟩, ⟨main_v63, rfl, by decide, by decide⟩, ⟨main_v64, rfl, by decide, by decide⟩, ⟨main_v65, rfl, by decide, by decide⟩, ⟨main_cst_8, rfl, by decide, by decide⟩, ⟨main_v66, rfl, by decide, by decide⟩, ⟨main_cst_9, rfl, by decide, by decide⟩, ⟨main_v67, rfl, by decide, by decide⟩, ⟨main_v68, rfl, by decide, by decide⟩, ⟨main_c_10, rfl, by decide, by decide⟩, ⟨main_call4_cst, rfl, by decide, by decide⟩, ⟨main_call4_v0, rfl, by decide, by decide⟩, ⟨main_call4_v1, rfl, by decide, by decide⟩, ⟨main_call4_cst_0, rfl, by decide, by decide⟩, ⟨main_call4_v2, rfl, by decide, by decide⟩, ⟨main_call4_v3, rfl, by decide, by decide⟩, ⟨main_call4_v4, rfl, by decide, by decide⟩, ⟨main_call4_v5, rfl, by decide, by decide⟩, ⟨main_call4_v6, rfl, by decide, by decide⟩, ⟨main_call4_v7, rfl, by decide, by decide⟩, ⟨main_call4_cst_1, rfl, by decide, by decide⟩, ⟨main_call4_v8, rfl, by decide, by decide⟩, ⟨main_call4_cst_2, rfl, by decide, by decide⟩, ⟨main_call4_v9, rfl, by decide, by decide⟩, ⟨main_call4_v10, rfl, by decide, by decide⟩, ⟨main_call4_v11, rfl, by decide, by decide⟩, ⟨main_call4_cst_3, rfl, by decide, by decide⟩, ⟨main_call4_v12, rfl, by decide, by decide⟩, ⟨main_call4_cst_4, rfl, by decide, by decide⟩, ⟨main_call4_call0_v0, rfl, by decide, by decide⟩, ⟨main_call4_call0_v1, rfl, by decide, by decide⟩, ⟨main_v69, rfl, by decide, by decide⟩, ⟨main_v70, rfl, by decide, by decide⟩, ⟨main_v71, rfl, by decide, by decide⟩, ⟨main_v72, rfl, by decide, by decide⟩, ⟨main_cst_11, rfl, by decide, by decide⟩, ⟨main_v73, rfl, by decide, by decide⟩, ⟨main_v74, rfl, by decide, by decide⟩, ⟨main_v75, rfl, by decide, by decide⟩, ⟨main_v76, rfl, by decide, by decide⟩, ⟨main_v77, rfl, by decide, by decide⟩, ⟨main_v78, rfl, by decide, by decide⟩, ⟨main_v79, rfl, by decide, by decide⟩, ⟨main_v80, rfl, by decide, by decide⟩, ⟨main_v81, rfl, by decide, by decide⟩, ⟨main_v82, rfl, by decide, by decide⟩, ⟨main_v83, rfl, by decide, by decide⟩, ⟨main_v84, rfl, by decide, by decide⟩, ⟨main_call5_cst, rfl, by decide, by decide⟩, ⟨main_call5_v0, rfl, by decide, by decide⟩, ⟨main_v85, rfl, by decide, by decide⟩, ⟨main_v86, rfl, by decide, by decide⟩, ⟨main_v87, rfl, by decide, by decide⟩, ⟨main_v88, rfl, by decide, by decide⟩, ⟨main_v89, rfl, by decide, by decide⟩⟩

/-- Operations 154 … 171 (they write the buffers indexed 182 … 199). -/
abbrev cA2a : List (HloOp τ sig (Elt F)) :=
  [ StableHlo.unary main_arg1 main_v90 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v90 main_v91 rfl shapeCasts_S1x320000_S320000,
    StableHlo.unary main_arg1 main_v92 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v92 main_v93 rfl shapeCasts_S1x320000_S320000,
    StableHlo.nullary main_c_12 (constantI S_ 32 0#32),
    StableHlo.unary main_c_12 main_v94 (broadcastInDim S320000 ![] bcast_S_S320000 : (⟨S_, .i32⟩ : BufTy).Contents (Elt F) → (⟨S320000, .i32⟩ : BufTy).Contents (Elt F)),
    StableHlo.binary main_v91 main_v94 main_v95 (cmpi .slt : (⟨S320000, .i32⟩ : BufTy).Contents (Elt F) → (⟨S320000, .i32⟩ : BufTy).Contents (Elt F) → (⟨S320000, .i1⟩ : BufTy).Contents (Elt F)),
    StableHlo.nullary main_c_13 (constantI S_ 32 20000#32),
    StableHlo.unary main_c_13 main_v96 (broadcastInDim S320000 ![] bcast_S_S320000 : (⟨S_, .i32⟩ : BufTy).Contents (Elt F) → (⟨S320000, .i32⟩ : BufTy).Contents (Elt F)),
    StableHlo.binary main_v91 main_v96 main_v97 (addi : (⟨S320000, .i32⟩ : BufTy).Contents (Elt F) → (⟨S320000, .i32⟩ : BufTy).Contents (Elt F) → (⟨S320000, .i32⟩ : BufTy).Contents (Elt F)),
    StableHlo.ternary main_v95 main_v97 main_v91 main_v98 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v98 main_v99 (broadcastInDim S320000x1 ![0] bcast_S320000_S320000x1_0 : (⟨S320000, .i32⟩ : BufTy).Contents (Elt F) → (⟨S320000x1, .i32⟩ : BufTy).Contents (Elt F)),
    StableHlo.binary main_v89 main_v99 main_v100 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.binary main_v100 main_arg2 main_v101 (addf : (⟨S320000x256, .f32⟩ : BufTy).Contents (Elt F) → (⟨S320000x256, .f32⟩ : BufTy).Contents (Elt F) → (⟨S320000x256, .f32⟩ : BufTy).Contents (Elt F)),
    StableHlo.TRef.nullary main_call6.cst (constant S_ .f32 0x00000000#32),
    StableHlo.TRef.unary main_call6.cst main_call6.v0 (broadcastInDim S320000x256 ![] bcast_S_S320000x256),
    StableHlo.TRef.binary (.of main_v101 : StableHlo.TRef sig ⟨S320000x256, .f32⟩) main_call6.v0 main_call6.v1 maximumf,
    StableHlo.nullary main_cst_14 (constant S_ .f32 0x00000000#32) ]

theorem cA2a_sub : (cA2a : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..⟩

theorem cA2a_fresh : (cA2a : List (HloOp τ sig (Elt F))).Forall fun op => op.fresh = ∅ :=
  ⟨rfl, rfl, rfl, rfl, rfl, rfl, rfl, rfl, rfl, rfl, rfl, rfl, rfl, rfl, rfl, rfl, rfl, rfl⟩

theorem cA2a_writes : (cA2a : List (HloOp τ sig (Elt F))).Forall (WritesIn 182 199) :=
  ⟨⟨main_v90, rfl, by decide, by decide⟩, ⟨main_v91, rfl, by decide, by decide⟩, ⟨main_v92, rfl, by decide, by decide⟩, ⟨main_v93, rfl, by decide, by decide⟩, ⟨main_c_12, rfl, by decide, by decide⟩, ⟨main_v94, rfl, by decide, by decide⟩, ⟨main_v95, rfl, by decide, by decide⟩, ⟨main_c_13, rfl, by decide, by decide⟩, ⟨main_v96, rfl, by decide, by decide⟩, ⟨main_v97, rfl, by decide, by decide⟩, ⟨main_v98, rfl, by decide, by decide⟩, ⟨main_v99, rfl, by decide, by decide⟩, ⟨main_v100, rfl, by decide, by decide⟩, ⟨main_v101, rfl, by decide, by decide⟩, ⟨main_call6_cst, rfl, by decide, by decide⟩, ⟨main_call6_v0, rfl, by decide, by decide⟩, ⟨main_v102, rfl, by decide, by decide⟩, ⟨main_cst_14, rfl, by decide, by decide⟩⟩

/-- Operations 172 … 175 (they write the buffers indexed 200 … 203). -/
abbrev cA2b : List (HloOp τ sig (Elt F)) :=
  [ StableHlo.unary main_cst_14 main_v103 (broadcastInDim S20000x256 ![] bcast_S_S20000x256 : (⟨S_, .f32⟩ : BufTy).Contents (Elt F) → (⟨S20000x256, .f32⟩ : BufTy).Contents (Elt F)),
    StableHlo.unary main_v93 main_v104 (broadcastInDim S320000x1 ![0] bcast_S320000_S320000x1_0 : (⟨S320000, .i32⟩ : BufTy).Contents (Elt F) → (⟨S320000x1, .i32⟩ : BufTy).Contents (Elt F)),
    StableHlo.ternary main_v103 main_v104 main_v102 main_v105 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.binary main_v89 main_v105 main_v106 (addf : (⟨S20000x256, .f32⟩ : BufTy).Contents (Elt F) → (⟨S20000x256, .f32⟩ : BufTy).Contents (Elt F) → (⟨S20000x256, .f32⟩ : BufTy).Contents (Elt F)) ]

theorem cA2b_sub : (cA2b : List (HloOp τ sig (Elt F))).Forall fun op => op.bufs ⊆ tcRefs τ sig :=
  ⟨unary_bufs_sub .., unary_bufs_sub .., ternary_bufs_sub .., binary_bufs_sub ..⟩

theorem cA2b_fresh : (cA2b : List (HloOp τ sig (Elt F))).Forall fun op => op.fresh = ∅ :=
  ⟨rfl, rfl, rfl, rfl⟩

theorem cA2b_writes : (cA2b : List (HloOp τ sig (Elt F))).Forall (WritesIn 200 203) :=
  ⟨⟨main_v103, rfl, by decide, by decide⟩, ⟨main_v104, rfl, by decide, by decide⟩, ⟨main_v105, rfl, by decide, by decide⟩, ⟨main_v106, rfl, by decide, by decide⟩⟩

/-- Operations 176 … 227 (they write the buffers indexed 204 … 255). -/
abbrev cM2 : List (HloOp τ sig (Elt F)) :=
  [ StableHlo.binary main_v106 main_arg16 main_v107 ((fun l r => Host.dotGeneral dot_S20000x256_S256x512_S20000x512_1_0_0_1_n_n none l r) : (⟨S20000x256, .f32⟩ : BufTy).Contents (Elt F) → (⟨S256x512, .f32⟩ : BufTy).Contents (Elt F) → (⟨S20000x512, .f32⟩ : BufTy).Contents (Elt F)),
    StableHlo.unary main_arg17 main_v108 (broadcastInDim S1x512 ![1] bcast_S512_S1x512_1 : (⟨S512, .f32⟩ : BufTy).Contents (Elt F) → (⟨S1x512, .f32⟩ : BufTy).Contents (Elt F)),
    StableHlo.unary main_v108 main_v109 (broadcastInDim S20000x512 ![0, 1] bcast_S1x512_S20000x512_0_1 : (⟨S1x512, .f32⟩ : BufTy).Contents (Elt F) → (⟨S20000x512, .f32⟩ : BufTy).Contents (Elt F)),
    StableHlo.binary main_v107 main_v109 main_v110 (addf : (⟨S20000x512, .f32⟩ : BufTy).Contents (Elt F) → (⟨S20000x512, .f32⟩ : BufTy).Contents (Elt F) → (⟨S20000x512, .f32⟩ : BufTy).Contents (Elt F)),
    StableHlo.nullary main_cst_15 (constant S_ .f32 0x00000000#32),
    StableHlo.binary main_v110 main_cst_15 main_v111 ((fun x v => Host.reduceAdd x v reducesTo_S20000x512_S512_d0 h_S_) : (⟨S20000x512, .f32⟩ : BufTy).Contents (Elt F) → (⟨S_, .f32⟩ : BufTy).Contents (Elt F) → (⟨S512, .f32⟩ : BufTy).Contents (Elt F)),
    StableHlo.nullary main_cst_16 (constant S_ .f32 0x469C4000#32),
    StableHlo.unary main_cst_16 main_v112 (broadcastInDim S512 ![] bcast_S_S512 : (⟨S_, .f32⟩ : BufTy).Contents (Elt F) → (⟨S512, .f32⟩ : BufTy).Contents (Elt F)),
    StableHlo.binary main_v111 main_v112 main_v113 (Host.divf : (⟨S512, .f32⟩ : BufTy).Contents (Elt F) → (⟨S512, .f32⟩ : BufTy).Contents (Elt F) → (⟨S512, .f32⟩ : BufTy).Contents (Elt F)),
    StableHlo.nullary main_c_17 (constantI S_ 32 0#32),
    StableHlo.TRef.nullary main_call7.cst (constant S_ .f32 0x00000000#32),
    StableHlo.TRef.binary (.of main_v110 : StableHlo.TRef sig ⟨S20000x512, .f32⟩) main_call7.cst main_call7.v0 (fun x v => Host.reduceAdd x v reducesTo_S20000x512_S512_d0 h_S_),
    StableHlo.TRef.unary main_call7.v0 main_call7.v1 (broadcastInDim S1x512 ![1] bcast_S512_S1x512_1),
    StableHlo.TRef.nullary main_call7.cst_0 (constant S_ .f32 0x469C4000#32),
    StableHlo.TRef.unary main_call7.cst_0 main_call7.v2 (broadcastInDim S1x512 ![] bcast_S_S1x512),
    StableHlo.TRef.binary main_call7.v1 main_call7.v2 main_call7.v3 Host.divf,
    StableHlo.TRef.unary main_call7.v3 main_call7.v4 (broadcastInDim S20000x512 ![0, 1] bcast_S1x512_S20000x512_0_1),
    StableHlo.TRef.binary (.of main_v110 : StableHlo.TRef sig ⟨S20000x512, .f32⟩) main_call7.v4 main_call7.v5 subf,
    StableHlo.TRef.binary main_call7.v5 main_call7.v5 main_call7.v6 mulf,
    StableHlo.TRef.unary (.of main_c_17 : StableHlo.TRef sig ⟨S_, .i32⟩) main_call7.v7 (sitofp .f32),
    StableHlo.TRef.nullary main_call7.cst_1 (constant S_ .f32 0x469C4000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S20000x512_S512_d0 h_S_),
    StableHlo.TRef.unary main_call7.v8 main_call7.v10 (broadcastInDim S512 ![] bcast_S_S512),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S512 ![] bcast_S_S512),
    StableHlo.TRef.ternary main_call7.v12 main_call7.v11 main_call7.call0.v1 main_call7.call0.v2 (fun p a b => select (broadcastInDim S512 ![] bcast_S_S512 p) a b),
    StableHlo.unary main_v113 main_v115 (broadcastInDim S1x512 ![1] bcast_S512_S1x512_1 : (⟨S512, .f32⟩ : BufTy).Contents (Elt F) → (⟨S1x512, .f32⟩ : BufTy).Contents (Elt F)),
    StableHlo.unary main_v115 main_v116 (broadcastInDim S20000x512 ![0, 1] bcast_S1x512_S20000x512_0_1 : (⟨S1x512, .f32⟩ : BufTy).Contents (Elt F) → (⟨S20000x512, .f32⟩ : BufTy).Contents (Elt F)),
    StableHlo.binary main_v110 main_v116 main_v117 (subf : (⟨S20000x512, .f32⟩ : BufTy).Contents (Elt F) → (⟨S20000x512, .f32⟩ : BufTy).Contents (Elt F) → (⟨S20000x512, .f32⟩ : BufTy).Contents (Elt F)),
    StableHlo.nullary main_cst_18 (constant S_ .f32 0x3727C5AC#32),
    StableHlo.unary main_cst_18 main_v118 (broadcastInDim S512 ![] bcast_S_S512 : (⟨S_, .f32⟩ : BufTy).Contents (Elt F) → (⟨S512, .f32⟩ : BufTy).Contents (Elt F)),
    StableHlo.binary main_v114 main_v118 main_v119 (addf : (⟨S512, .f32⟩ : BufTy).Contents (Elt F) → (⟨S512, .f32⟩ : BufTy).Contents (Elt F) → (⟨S512, .f32⟩ : BufTy).Contents (Elt F)),
    StableHlo.unary main_v119 main_v120 (Host.rsqrt : (⟨S512, .f32⟩ : BufTy).Contents (Elt F) → (⟨S512, .f32⟩ : BufTy).Contents (Elt F)),
    StableHlo.unary main_v120 main_v121 (broadcastInDim S1x512 ![1] bcast_S512_S1x512_1 : (⟨S512, .f32⟩ : BufTy).Contents (Elt F) → (⟨S1x512, .f32⟩ : BufTy).Contents (Elt F)),
    StableHlo.unary main_v121 main_v122 (broadcastInDim S20000x512 ![0, 1] bcast_S1x512_S20000x512_0_1 : (⟨S1x512, .f32⟩ : BufTy).Contents (Elt F) → (⟨S20000x512, .f32⟩ : BufTy).Contents (Elt F)),
    StableHlo.binary main_v117 main_v122 main_v123 (mulf : (⟨S20000x512, .f32⟩ : BufTy).Contents (Elt F) → (⟨S20000x512, .f32⟩ : BufTy).Contents (Elt F) → (⟨S20000x512, .f32⟩ : BufTy).Contents (Elt F)),
    StableHlo.unary main_arg18 main_v124 (broadcastInDim S1x512 ![1] bcast_S512_S1x512_1 : (⟨S512, .f32⟩ : BufTy).Contents (Elt F) → (⟨S1x512, .f32⟩ : BufTy).Contents (Elt F)),
    StableHlo.unary main_v124 main_v125 (broadcastInDim S20000x512 ![0, 1] bcast_S1x512_S20000x512_0_1 : (⟨S1x512, .f32⟩ : BufTy).Contents (Elt F) → (⟨S20000x512, .f32⟩ : BufTy).Contents (Elt F)),
    StableHlo.binary main_v123 main_v125 main_v126 (mulf : (⟨S20000x512, .f32⟩ : BufTy).Contents (Elt F) → (⟨S20000x512, .f32⟩ : BufTy).Contents (Elt F) → (⟨S20000x512, .f32⟩ : BufTy).Contents (Elt F)),
    StableHlo.unary main_arg19 main_v127 (broadcastInDim S1x512 ![1] bcast_S512_S1x512_1 : (⟨S512, .f32⟩ : BufTy).Contents (Elt F) → (⟨S1x512, .f32⟩ : BufTy).Contents (Elt F)),
    StableHlo.unary main_v127 main_v128 (broadcastInDim S20000x512 ![0, 1] bcast_S1x512_S20000x512_0_1 : (⟨S1x512, .f32⟩ : BufTy).Contents (Elt F) → (⟨S20000x512, .f32⟩ : BufTy).Contents (Elt F)),
    StableHlo.binary main_v126 main_v128 main_v129 (addf : (⟨S20000x512, .f32⟩ : BufTy).Contents (Elt F) → (⟨S20000x512, .f32⟩ : BufTy).Contents (Elt F) → (⟨S20000x512, .f32⟩ : BufTy).Contents (Elt F)),
    StableHlo.binary main_v129 main_arg20 main_v130 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    StableHlo.unary main_arg21 main_v131 (broadcastInDim S1x256 ![1] bcast_S256_S1x256_1 : (⟨S256, .f32⟩ : BufTy).Contents (Elt F) → (⟨S1x256, .f32⟩ : BufTy).Contents (Elt F)),
    StableHlo.unary main_v131 main_v132 (broadcastInDim S20000x256 ![0, 1] bcast_S1x256_S20000x256_0_1 : (⟨S1x256, .f32⟩ : BufTy).Contents (Elt F) → (⟨S20000x256, .f32⟩ : BufTy).Contents (Elt F)),
    StableHlo.binary main_v130 main_v132 main_v133 (addf : (⟨S20000x256, .f32⟩ : BufTy).Contents (Elt F) → (⟨S20000x256, .f32⟩ : BufTy).Contents (Elt F) → (⟨S20000x256, .f32⟩ : BufTy).Contents (Elt F)) ]

theorem cM2_sub : (cM2 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩

theorem cM2_fresh : (cM2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem cM2_writes : (cM2 : List (HloOp τ sig (Elt F))).Forall (WritesIn 204 255) :=
  ⟨⟨main_v107, rfl, by decide, by decide⟩, ⟨main_v108, rfl, by decide, by decide⟩, ⟨main_v109, rfl, by decide, by decide⟩, ⟨main_v110, rfl, by decide, by decide⟩, ⟨main_cst_15, rfl, by decide, by decide⟩, ⟨main_v111, rfl, by decide, by decide⟩, ⟨main_cst_16, rfl, by decide, by decide⟩, ⟨main_v112, rfl, by decide, by decide⟩, ⟨main_v113, rfl, by decide, by decide⟩, ⟨main_c_17, rfl, by decide, by decide⟩, ⟨main_call7_cst, rfl, by decide, by decide⟩, ⟨main_call7_v0, rfl, by decide, by decide⟩, ⟨main_call7_v1, rfl, by decide, by decide⟩, ⟨main_call7_cst_0, rfl, by decide, by decide⟩, ⟨main_call7_v2, rfl, by decide, by decide⟩, ⟨main_call7_v3, rfl, by decide, by decide⟩, ⟨main_call7_v4, rfl, by decide, by decide⟩, ⟨main_call7_v5, rfl, by decide, by decide⟩, ⟨main_call7_v6, rfl, by decide, by decide⟩, ⟨main_call7_v7, rfl, by decide, by decide⟩, ⟨main_call7_cst_1, rfl, by decide, by decide⟩, ⟨main_call7_v8, rfl, by decide, by decide⟩, ⟨main_call7_cst_2, rfl, by decide, by decide⟩, ⟨main_call7_v9, rfl, by decide, by decide⟩, ⟨main_call7_v10, rfl, by decide, by decide⟩, ⟨main_call7_v11, rfl, by decide, by decide⟩, ⟨main_call7_cst_3, rfl, by decide, by decide⟩, ⟨main_call7_v12, rfl, by decide, by decide⟩, ⟨main_call7_cst_4, rfl, by decide, by decide⟩, ⟨main_call7_call0_v0, rfl, by decide, by decide⟩, ⟨main_call7_call0_v1, rfl, by decide, by decide⟩, ⟨main_v114, rfl, by decide, by decide⟩, ⟨main_v115, rfl, by decide, by decide⟩, ⟨main_v116, rfl, by decide, by decide⟩, ⟨main_v117, rfl, by decide, by decide⟩, ⟨main_cst_18, rfl, by decide, by decide⟩, ⟨main_v118, rfl, by decide, by decide⟩, ⟨main_v119, rfl, by decide, by decide⟩, ⟨main_v120, rfl, by decide, by decide⟩, ⟨main_v121, rfl, by decide, by decide⟩, ⟨main_v122, rfl, by decide, by decide⟩, ⟨main_v123, rfl, by decide, by decide⟩, ⟨main_v124, rfl, by decide, by decide⟩, ⟨main_v125, rfl, by decide, by decide⟩, ⟨main_v126, rfl, by decide, by decide⟩, ⟨main_v127, rfl, by decide, by decide⟩, ⟨main_v128, rfl, by decide, by decide⟩, ⟨main_v129, rfl, by decide, by decide⟩, ⟨main_v130, rfl, by decide, by decide⟩, ⟨main_v131, rfl, by decide, by decide⟩, ⟨main_v132, rfl, by decide, by decide⟩, ⟨main_v133, rfl, by decide, by decide⟩⟩

/-- Operations 228 … 249 (they write the buffers indexed 256 … 277). -/
abbrev cA3 : List (HloOp τ sig (Elt F)) :=
  [ StableHlo.unary main_arg1 main_v134 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v134 main_v135 rfl shapeCasts_S1x320000_S320000,
    StableHlo.unary main_arg1 main_v136 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v136 main_v137 rfl shapeCasts_S1x320000_S320000,
    StableHlo.nullary main_c_19 (constantI S_ 32 0#32),
    StableHlo.unary main_c_19 main_v138 (broadcastInDim S320000 ![] bcast_S_S320000 : (⟨S_, .i32⟩ : BufTy).Contents (Elt F) → (⟨S320000, .i32⟩ : BufTy).Contents (Elt F)),
    StableHlo.binary main_v135 main_v138 main_v139 (cmpi .slt : (⟨S320000, .i32⟩ : BufTy).Contents (Elt F) → (⟨S320000, .i32⟩ : BufTy).Contents (Elt F) → (⟨S320000, .i1⟩ : BufTy).Contents (Elt F)),
    StableHlo.nullary main_c_20 (constantI S_ 32 20000#32),
    StableHlo.unary main_c_20 main_v140 (broadcastInDim S320000 ![] bcast_S_S320000 : (⟨S_, .i32⟩ : BufTy).Contents (Elt F) → (⟨S320000, .i32⟩ : BufTy).Contents (Elt F)),
    StableHlo.binary main_v135 main_v140 main_v141 (addi : (⟨S320000, .i32⟩ : BufTy).Contents (Elt F) → (⟨S320000, .i32⟩ : BufTy).Contents (Elt F) → (⟨S320000, .i32⟩ : BufTy).Contents (Elt F)),
    StableHlo.ternary main_v139 main_v141 main_v135 main_v142 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v142 main_v143 (broadcastInDim S320000x1 ![0] bcast_S320000_S320000x1_0 : (⟨S320000, .i32⟩ : BufTy).Contents (Elt F) → (⟨S320000x1, .i32⟩ : BufTy).Contents (Elt F)),
    StableHlo.binary main_v89 main_v143 main_v144 ((fun x i => Host.gather gather_S20000x256_S320000x1_S320000x256_1_0_n_n_0_1_1256 x i) : (⟨S20000x256, .f32⟩ : BufTy).Contents (Elt F) → (⟨S320000x1, .i32⟩ : BufTy).Contents (Elt F) → (⟨S320000x256, .f32⟩ : BufTy).Contents (Elt F)),
    StableHlo.binary main_v144 main_arg2 main_v145 (addf : (⟨S320000x256, .f32⟩ : BufTy).Contents (Elt F) → (⟨S320000x256, .f32⟩ : BufTy).Contents (Elt F) → (⟨S320000x256, .f32⟩ : BufTy).Contents (Elt F)),
    StableHlo.TRef.nullary main_call8.cst (constant S_ .f32 0x00000000#32),
    StableHlo.TRef.unary main_call8.cst main_call8.v0 (broadcastInDim S320000x256 ![] bcast_S_S320000x256),
    StableHlo.TRef.binary (.of main_v145 : StableHlo.TRef sig ⟨S320000x256, .f32⟩) main_call8.v0 main_call8.v1 maximumf,
    StableHlo.nullary main_cst_21 (constant S_ .f32 0x00000000#32),
    StableHlo.unary main_cst_21 main_v147 (broadcastInDim S20000x256 ![] bcast_S_S20000x256 : (⟨S_, .f32⟩ : BufTy).Contents (Elt F) → (⟨S20000x256, .f32⟩ : BufTy).Contents (Elt F)),
    StableHlo.unary main_v137 main_v148 (broadcastInDim S320000x1 ![0] bcast_S320000_S320000x1_0 : (⟨S320000, .i32⟩ : BufTy).Contents (Elt F) → (⟨S320000x1, .i32⟩ : BufTy).Contents (Elt F)),
    StableHlo.ternary main_v147 main_v148 main_v146 main_v149 ((fun x i u => Host.scatterAdd scatter_S20000x256_S320000x1_S320000x256_1_0_0_1 x i u) : (⟨S20000x256, .f32⟩ : BufTy).Contents (Elt F) → (⟨S320000x1, .i32⟩ : BufTy).Contents (Elt F) → (⟨S320000x256, .f32⟩ : BufTy).Contents (Elt F) → (⟨S20000x256, .f32⟩ : BufTy).Contents (Elt F)),
    StableHlo.binary main_v89 main_v149 main_v150 (addf : (⟨S20000x256, .f32⟩ : BufTy).Contents (Elt F) → (⟨S20000x256, .f32⟩ : BufTy).Contents (Elt F) → (⟨S20000x256, .f32⟩ : BufTy).Contents (Elt F)) ]

theorem cA3_sub : (cA3 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub ..⟩

theorem cA3_fresh : (cA3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem cA3_writes : (cA3 : List (HloOp τ sig (Elt F))).Forall (WritesIn 256 277) :=
  ⟨⟨main_v134, rfl, by decide, by decide⟩, ⟨main_v135, rfl, by decide, by decide⟩, ⟨main_v136, rfl, by decide, by decide⟩, ⟨main_v137, rfl, by decide, by decide⟩, ⟨main_c_19, rfl, by decide, by decide⟩, ⟨main_v138, rfl, by decide, by decide⟩, ⟨main_v139, rfl, by decide, by decide⟩, ⟨main_c_20, rfl, by decide, by decide⟩, ⟨main_v140, rfl, by decide, by decide⟩, ⟨main_v141, rfl, by decide, by decide⟩, ⟨main_v142, rfl, by decide, by decide⟩, ⟨main_v143, rfl, by decide, by decide⟩, ⟨main_v144, rfl, by decide, by decide⟩, ⟨main_v145, rfl, by decide, by decide⟩, ⟨main_call8_cst, rfl, by decide, by decide⟩, ⟨main_call8_v0, rfl, by decide, by decide⟩, ⟨main_v146, rfl, by decide, by decide⟩, ⟨main_cst_21, rfl, by decide, by decide⟩, ⟨main_v147, rfl, by decide, by decide⟩, ⟨main_v148, rfl, by decide, by decide⟩, ⟨main_v149, rfl, by decide, by decide⟩, ⟨main_v150, rfl, by decide, by decide⟩⟩

/-- Operations 250 … 254 (they write the buffers indexed 278 … 282). -/
abbrev cM3a : List (HloOp τ sig (Elt F)) :=
  [ StableHlo.binary main_v150 main_arg22 main_v151 ((fun l r => Host.dotGeneral dot_S20000x256_S256x512_S20000x512_1_0_0_1_n_n none l r) : (⟨S20000x256, .f32⟩ : BufTy).Contents (Elt F) → (⟨S256x512, .f32⟩ : BufTy).Contents (Elt F) → (⟨S20000x512, .f32⟩ : BufTy).Contents (Elt F)),
    StableHlo.unary main_arg23 main_v152 (broadcastInDim S1x512 ![1] bcast_S512_S1x512_1 : (⟨S512, .f32⟩ : BufTy).Contents (Elt F) → (⟨S1x512, .f32⟩ : BufTy).Contents (Elt F)),
    StableHlo.unary main_v152 main_v153 (broadcastInDim S20000x512 ![0, 1] bcast_S1x512_S20000x512_0_1 : (⟨S1x512, .f32⟩ : BufTy).Contents (Elt F) → (⟨S20000x512, .f32⟩ : BufTy).Contents (Elt F)),
    StableHlo.binary main_v151 main_v153 main_v154 (addf : (⟨S20000x512, .f32⟩ : BufTy).Contents (Elt F) → (⟨S20000x512, .f32⟩ : BufTy).Contents (Elt F) → (⟨S20000x512, .f32⟩ : BufTy).Contents (Elt F)),
    StableHlo.nullary main_cst_22 (constant S_ .f32 0x00000000#32) ]

theorem cM3a_sub : (cM3a : List (HloOp τ sig (Elt F))).Forall fun op => op.bufs ⊆ tcRefs τ sig :=
  ⟨binary_bufs_sub .., unary_bufs_sub .., unary_bufs_sub .., binary_bufs_sub .., nullary_bufs_sub ..⟩

theorem cM3a_fresh : (cM3a : List (HloOp τ sig (Elt F))).Forall fun op => op.fresh = ∅ :=
  ⟨rfl, rfl, rfl, rfl, rfl⟩

theorem cM3a_writes : (cM3a : List (HloOp τ sig (Elt F))).Forall (WritesIn 278 282) :=
  ⟨⟨main_v151, rfl, by decide, by decide⟩, ⟨main_v152, rfl, by decide, by decide⟩, ⟨main_v153, rfl, by decide, by decide⟩, ⟨main_v154, rfl, by decide, by decide⟩, ⟨main_cst_22, rfl, by decide, by decide⟩⟩

/-- Operations 255 … 301 (they write the buffers indexed 283 … 329). -/
abbrev cM3b : List (HloOp τ sig (Elt F)) :=
  [ StableHlo.binary main_v154 main_cst_22 main_v155 ((fun x v => Host.reduceAdd x v reducesTo_S20000x512_S512_d0 h_S_) : (⟨S20000x512, .f32⟩ : BufTy).Contents (Elt F) → (⟨S_, .f32⟩ : BufTy).Contents (Elt F) → (⟨S512, .f32⟩ : BufTy).Contents (Elt F)),
    StableHlo.nullary main_cst_23 (constant S_ .f32 0x469C4000#32),
    StableHlo.unary main_cst_23 main_v156 (broadcastInDim S512 ![] bcast_S_S512 : (⟨S_, .f32⟩ : BufTy).Contents (Elt F) → (⟨S512, .f32⟩ : BufTy).Contents (Elt F)),
    StableHlo.binary main_v155 main_v156 main_v157 (Host.divf : (⟨S512, .f32⟩ : BufTy).Contents (Elt F) → (⟨S512, .f32⟩ : BufTy).Contents (Elt F) → (⟨S512, .f32⟩ : BufTy).Contents (Elt F)),
    StableHlo.nullary main_c_24 (constantI S_ 32 0#32),
    StableHlo.TRef.nullary main_call9.cst (constant S_ .f32 0x00000000#32),
    StableHlo.TRef.binary (.of main_v154 : StableHlo.TRef sig ⟨S20000x512, .f32⟩) main_call9.cst main_call9.v0 (fun x v => Host.reduceAdd x v reducesTo_S20000x512_S512_d0 h_S_),
    StableHlo.TRef.unary main_call9.v0 main_call9.v1 (broadcastInDim S1x512 ![1] bcast_S512_S1x512_1),
    StableHlo.TRef.nullary main_call9.cst_0 (constant S_ .f32 0x469C4000#32),
    StableHlo.TRef.unary main_call9.cst_0 main_call9.v2 (broadcastInDim S1x512 ![] bcast_S_S1x512),
    StableHlo.TRef.binary main_call9.v1 main_call9.v2 main_call9.v3 Host.divf,
    StableHlo.TRef.unary main_call9.v3 main_call9.v4 (broadcastInDim S20000x512 ![0, 1] bcast_S1x512_S20000x512_0_1),
    StableHlo.TRef.binary (.of main_v154 : StableHlo.TRef sig ⟨S20000x512, .f32⟩) main_call9.v4 main_call9.v5 subf,
    StableHlo.TRef.binary main_call9.v5 main_call9.v5 main_call9.v6 mulf,
    StableHlo.TRef.unary (.of main_c_24 : StableHlo.TRef sig ⟨S_, .i32⟩) main_call9.v7 (sitofp .f32),
    StableHlo.TRef.nullary main_call9.cst_1 (constant S_ .f32 0x469C4000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S20000x512_S512_d0 h_S_),
    StableHlo.TRef.unary main_call9.v8 main_call9.v10 (broadcastInDim S512 ![] bcast_S_S512),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S512 ![] bcast_S_S512),
    StableHlo.TRef.ternary main_call9.v12 main_call9.v11 main_call9.call0.v1 main_call9.call0.v2 (fun p a b => select (broadcastInDim S512 ![] bcast_S_S512 p) a b),
    StableHlo.unary main_v157 main_v159 (broadcastInDim S1x512 ![1] bcast_S512_S1x512_1 : (⟨S512, .f32⟩ : BufTy).Contents (Elt F) → (⟨S1x512, .f32⟩ : BufTy).Contents (Elt F)),
    StableHlo.unary main_v159 main_v160 (broadcastInDim S20000x512 ![0, 1] bcast_S1x512_S20000x512_0_1 : (⟨S1x512, .f32⟩ : BufTy).Contents (Elt F) → (⟨S20000x512, .f32⟩ : BufTy).Contents (Elt F)),
    StableHlo.binary main_v154 main_v160 main_v161 (subf : (⟨S20000x512, .f32⟩ : BufTy).Contents (Elt F) → (⟨S20000x512, .f32⟩ : BufTy).Contents (Elt F) → (⟨S20000x512, .f32⟩ : BufTy).Contents (Elt F)),
    StableHlo.nullary main_cst_25 (constant S_ .f32 0x3727C5AC#32),
    StableHlo.unary main_cst_25 main_v162 (broadcastInDim S512 ![] bcast_S_S512 : (⟨S_, .f32⟩ : BufTy).Contents (Elt F) → (⟨S512, .f32⟩ : BufTy).Contents (Elt F)),
    StableHlo.binary main_v158 main_v162 main_v163 (addf : (⟨S512, .f32⟩ : BufTy).Contents (Elt F) → (⟨S512, .f32⟩ : BufTy).Contents (Elt F) → (⟨S512, .f32⟩ : BufTy).Contents (Elt F)),
    StableHlo.unary main_v163 main_v164 (Host.rsqrt : (⟨S512, .f32⟩ : BufTy).Contents (Elt F) → (⟨S512, .f32⟩ : BufTy).Contents (Elt F)),
    StableHlo.unary main_v164 main_v165 (broadcastInDim S1x512 ![1] bcast_S512_S1x512_1 : (⟨S512, .f32⟩ : BufTy).Contents (Elt F) → (⟨S1x512, .f32⟩ : BufTy).Contents (Elt F)),
    StableHlo.unary main_v165 main_v166 (broadcastInDim S20000x512 ![0, 1] bcast_S1x512_S20000x512_0_1 : (⟨S1x512, .f32⟩ : BufTy).Contents (Elt F) → (⟨S20000x512, .f32⟩ : BufTy).Contents (Elt F)),
    StableHlo.binary main_v161 main_v166 main_v167 (mulf : (⟨S20000x512, .f32⟩ : BufTy).Contents (Elt F) → (⟨S20000x512, .f32⟩ : BufTy).Contents (Elt F) → (⟨S20000x512, .f32⟩ : BufTy).Contents (Elt F)),
    StableHlo.unary main_arg24 main_v168 (broadcastInDim S1x512 ![1] bcast_S512_S1x512_1 : (⟨S512, .f32⟩ : BufTy).Contents (Elt F) → (⟨S1x512, .f32⟩ : BufTy).Contents (Elt F)),
    StableHlo.unary main_v168 main_v169 (broadcastInDim S20000x512 ![0, 1] bcast_S1x512_S20000x512_0_1 : (⟨S1x512, .f32⟩ : BufTy).Contents (Elt F) → (⟨S20000x512, .f32⟩ : BufTy).Contents (Elt F)),
    StableHlo.binary main_v167 main_v169 main_v170 (mulf : (⟨S20000x512, .f32⟩ : BufTy).Contents (Elt F) → (⟨S20000x512, .f32⟩ : BufTy).Contents (Elt F) → (⟨S20000x512, .f32⟩ : BufTy).Contents (Elt F)),
    StableHlo.unary main_arg25 main_v171 (broadcastInDim S1x512 ![1] bcast_S512_S1x512_1 : (⟨S512, .f32⟩ : BufTy).Contents (Elt F) → (⟨S1x512, .f32⟩ : BufTy).Contents (Elt F)),
    StableHlo.unary main_v171 main_v172 (broadcastInDim S20000x512 ![0, 1] bcast_S1x512_S20000x512_0_1 : (⟨S1x512, .f32⟩ : BufTy).Contents (Elt F) → (⟨S20000x512, .f32⟩ : BufTy).Contents (Elt F)),
    StableHlo.binary main_v170 main_v172 main_v173 (addf : (⟨S20000x512, .f32⟩ : BufTy).Contents (Elt F) → (⟨S20000x512, .f32⟩ : BufTy).Contents (Elt F) → (⟨S20000x512, .f32⟩ : BufTy).Contents (Elt F)),
    StableHlo.binary main_v173 main_arg26 main_v174 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    StableHlo.unary main_arg27 main_v175 (broadcastInDim S1x256 ![1] bcast_S256_S1x256_1 : (⟨S256, .f32⟩ : BufTy).Contents (Elt F) → (⟨S1x256, .f32⟩ : BufTy).Contents (Elt F)),
    StableHlo.unary main_v175 main_v176 (broadcastInDim S20000x256 ![0, 1] bcast_S1x256_S20000x256_0_1 : (⟨S1x256, .f32⟩ : BufTy).Contents (Elt F) → (⟨S20000x256, .f32⟩ : BufTy).Contents (Elt F)),
    StableHlo.binary main_v174 main_v176 main_v177 (addf : (⟨S20000x256, .f32⟩ : BufTy).Contents (Elt F) → (⟨S20000x256, .f32⟩ : BufTy).Contents (Elt F) → (⟨S20000x256, .f32⟩ : BufTy).Contents (Elt F)) ]

theorem cM3b_sub : (cM3b : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩

theorem cM3b_fresh : (cM3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem cM3b_writes : (cM3b : List (HloOp τ sig (Elt F))).Forall (WritesIn 283 329) :=
  ⟨⟨main_v155, rfl, by decide, by decide⟩, ⟨main_cst_23, rfl, by decide, by decide⟩, ⟨main_v156, rfl, by decide, by decide⟩, ⟨main_v157, rfl, by decide, by decide⟩, ⟨main_c_24, rfl, by decide, by decide⟩, ⟨main_call9_cst, rfl, by decide, by decide⟩, ⟨main_call9_v0, rfl, by decide, by decide⟩, ⟨main_call9_v1, rfl, by decide, by decide⟩, ⟨main_call9_cst_0, rfl, by decide, by decide⟩, ⟨main_call9_v2, rfl, by decide, by decide⟩, ⟨main_call9_v3, rfl, by decide, by decide⟩, ⟨main_call9_v4, rfl, by decide, by decide⟩, ⟨main_call9_v5, rfl, by decide, by decide⟩, ⟨main_call9_v6, rfl, by decide, by decide⟩, ⟨main_call9_v7, rfl, by decide, by decide⟩, ⟨main_call9_cst_1, rfl, by decide, by decide⟩, ⟨main_call9_v8, rfl, by decide, by decide⟩, ⟨main_call9_cst_2, rfl, by decide, by decide⟩, ⟨main_call9_v9, rfl, by decide, by decide⟩, ⟨main_call9_v10, rfl, by decide, by decide⟩, ⟨main_call9_v11, rfl, by decide, by decide⟩, ⟨main_call9_cst_3, rfl, by decide, by decide⟩, ⟨main_call9_v12, rfl, by decide, by decide⟩, ⟨main_call9_cst_4, rfl, by decide, by decide⟩, ⟨main_call9_call0_v0, rfl, by decide, by decide⟩, ⟨main_call9_call0_v1, rfl, by decide, by decide⟩, ⟨main_v158, rfl, by decide, by decide⟩, ⟨main_v159, rfl, by decide, by decide⟩, ⟨main_v160, rfl, by decide, by decide⟩, ⟨main_v161, rfl, by decide, by decide⟩, ⟨main_cst_25, rfl, by decide, by decide⟩, ⟨main_v162, rfl, by decide, by decide⟩, ⟨main_v163, rfl, by decide, by decide⟩, ⟨main_v164, rfl, by decide, by decide⟩, ⟨main_v165, rfl, by decide, by decide⟩, ⟨main_v166, rfl, by decide, by decide⟩, ⟨main_v167, rfl, by decide, by decide⟩, ⟨main_v168, rfl, by decide, by decide⟩, ⟨main_v169, rfl, by decide, by decide⟩, ⟨main_v170, rfl, by decide, by decide⟩, ⟨main_v171, rfl, by decide, by decide⟩, ⟨main_v172, rfl, by decide, by decide⟩, ⟨main_v173, rfl, by decide, by decide⟩, ⟨main_v174, rfl, by decide, by decide⟩, ⟨main_v175, rfl, by decide, by decide⟩, ⟨main_v176, rfl, by decide, by decide⟩, ⟨main_v177, rfl, by decide, by decide⟩⟩

/-- Operations 302 … 323 (they write the buffers indexed 330 … 351). -/
abbrev cT : List (HloOp τ sig (Elt F)) :=
  [ StableHlo.unary main_v177 main_v178 (Host.exp : (⟨S20000x256, .f32⟩ : BufTy).Contents (Elt F) → (⟨S20000x256, .f32⟩ : BufTy).Contents (Elt F)),
    StableHlo.binary main_arg3 main_v178 main_v179 (mulf : (⟨S20000x256, .f32⟩ : BufTy).Contents (Elt F) → (⟨S20000x256, .f32⟩ : BufTy).Contents (Elt F) → (⟨S20000x256, .f32⟩ : BufTy).Contents (Elt F)),
    StableHlo.binary main_v179 main_v133 main_v180 (addf : (⟨S20000x256, .f32⟩ : BufTy).Contents (Elt F) → (⟨S20000x256, .f32⟩ : BufTy).Contents (Elt F) → (⟨S20000x256, .f32⟩ : BufTy).Contents (Elt F)),
    StableHlo.nullary main_cst_26 (constant S_ .f32 0x40000000#32),
    StableHlo.unary main_cst_26 main_v181 (broadcastInDim S20000x256 ![] bcast_S_S20000x256 : (⟨S_, .f32⟩ : BufTy).Contents (Elt F) → (⟨S20000x256, .f32⟩ : BufTy).Contents (Elt F)),
    StableHlo.binary main_v181 main_v177 main_v182 (mulf : (⟨S20000x256, .f32⟩ : BufTy).Contents (Elt F) → (⟨S20000x256, .f32⟩ : BufTy).Contents (Elt F) → (⟨S20000x256, .f32⟩ : BufTy).Contents (Elt F)),
    StableHlo.nullary main_cst_27 (constant S_ .f32 0x3F800000#32),
    StableHlo.unary main_cst_27 main_v183 (broadcastInDim S20000x256 ![] bcast_S_S20000x256 : (⟨S_, .f32⟩ : BufTy).Contents (Elt F) → (⟨S20000x256, .f32⟩ : BufTy).Contents (Elt F)),
    StableHlo.binary main_v183 main_v182 main_v184 (addf : (⟨S20000x256, .f32⟩ : BufTy).Contents (Elt F) → (⟨S20000x256, .f32⟩ : BufTy).Contents (Elt F) → (⟨S20000x256, .f32⟩ : BufTy).Contents (Elt F)),
    StableHlo.binary main_v133 main_v133 main_v185 (mulf : (⟨S20000x256, .f32⟩ : BufTy).Contents (Elt F) → (⟨S20000x256, .f32⟩ : BufTy).Contents (Elt F) → (⟨S20000x256, .f32⟩ : BufTy).Contents (Elt F)),
    StableHlo.binary main_v184 main_v185 main_v186 (subf : (⟨S20000x256, .f32⟩ : BufTy).Contents (Elt F) → (⟨S20000x256, .f32⟩ : BufTy).Contents (Elt F) → (⟨S20000x256, .f32⟩ : BufTy).Contents (Elt F)),
    StableHlo.unary main_v177 main_v187 (Host.exp : (⟨S20000x256, .f32⟩ : BufTy).Contents (Elt F) → (⟨S20000x256, .f32⟩ : BufTy).Contents (Elt F)),
    StableHlo.binary main_v187 main_v187 main_v188 (mulf : (⟨S20000x256, .f32⟩ : BufTy).Contents (Elt F) → (⟨S20000x256, .f32⟩ : BufTy).Contents (Elt F) → (⟨S20000x256, .f32⟩ : BufTy).Contents (Elt F)),
    StableHlo.binary main_v186 main_v188 main_v189 (subf : (⟨S20000x256, .f32⟩ : BufTy).Contents (Elt F) → (⟨S20000x256, .f32⟩ : BufTy).Contents (Elt F) → (⟨S20000x256, .f32⟩ : BufTy).Contents (Elt F)),
    StableHlo.nullary main_cst_28 (constant S_ .f32 0x00000000#32),
    StableHlo.binary main_v189 main_cst_28 main_v190 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    StableHlo.nullary main_cst_29 (constant S_ .f32 0x00000000#32),
    StableHlo.binary main_v190 main_cst_29 main_v191 ((fun x v => Host.reduceAdd x v reducesTo_S20000_S_d0 h_S_) : (⟨S20000, .f32⟩ : BufTy).Contents (Elt F) → (⟨S_, .f32⟩ : BufTy).Contents (Elt F) → (⟨S_, .f32⟩ : BufTy).Contents (Elt F)),
    StableHlo.nullary main_cst_30 (constant S_ .f32 0x469C4000#32),
    StableHlo.binary main_v191 main_cst_30 main_v192 (Host.divf : (⟨S_, .f32⟩ : BufTy).Contents (Elt F) → (⟨S_, .f32⟩ : BufTy).Contents (Elt F) → (⟨S_, .f32⟩ : BufTy).Contents (Elt F)),
    StableHlo.nullary main_cst_31 (constant S_ .f32 0x37D1B717#32),
    StableHlo.binary main_cst_31 main_v192 main_v193 (mulf : (⟨S_, .f32⟩ : BufTy).Contents (Elt F) → (⟨S_, .f32⟩ : BufTy).Contents (Elt F) → (⟨S_, .f32⟩ : BufTy).Contents (Elt F)) ]

theorem cT_sub : (cT : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub ..⟩

theorem cT_fresh : (cT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem cT_writes : (cT : List (HloOp τ sig (Elt F))).Forall (WritesIn 330 351) :=
  ⟨⟨main_v178, rfl, by decide, by decide⟩, ⟨main_v179, rfl, by decide, by decide⟩, ⟨main_v180, rfl, by decide, by decide⟩, ⟨main_cst_26, rfl, by decide, by decide⟩, ⟨main_v181, rfl, by decide, by decide⟩, ⟨main_v182, rfl, by decide, by decide⟩, ⟨main_cst_27, rfl, by decide, by decide⟩, ⟨main_v183, rfl, by decide, by decide⟩, ⟨main_v184, rfl, by decide, by decide⟩, ⟨main_v185, rfl, by decide, by decide⟩, ⟨main_v186, rfl, by decide, by decide⟩, ⟨main_v187, rfl, by decide, by decide⟩, ⟨main_v188, rfl, by decide, by decide⟩, ⟨main_v189, rfl, by decide, by decide⟩, ⟨main_cst_28, rfl, by decide, by decide⟩, ⟨main_v190, rfl, by decide, by decide⟩, ⟨main_cst_29, rfl, by decide, by decide⟩, ⟨main_v191, rfl, by decide, by decide⟩, ⟨main_cst_30, rfl, by decide, by decide⟩, ⟨main_v192, rfl, by decide, by decide⟩, ⟨main_cst_31, rfl, by decide, by decide⟩, ⟨main_v193, rfl, by decide, by decide⟩⟩

end Cert.ReferenceIdeal.RefRun

end
-- ==== Proof.RefRun.lean ====
/- The run of the reference program: @main is the straight line of the 324 operations of RefOps.lean
   (window by window: each printed window of @main is the line of its lists, the outlined functions' bodies
   unfolded at their calls and the sequencing reassociated), so every weakly fair execution terminates with each
   buffer at the fold of the operations over the launch contents (`run_all`); an argument buffer is indexed below
   every buffer the line writes, so it ends as it began (`frame_ri`). -/
import proofs.«138093_j17583596110490_1_alg».proof.Proof.RefOps
import proofs.«138093_j17583596110490_1_alg».proof.Defs
import proofs.«138093_j17583596110490_1_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 324 operations, in order. -/
abbrev ops : List (HloOp τ sig (Elt F)) :=
  cA0 ++ (cM0 ++ (cA1a ++ (cA1b ++ (cM1 ++ (cA2a ++ (cA2b ++ (cM2 ++ (cA3 ++ (cM3a ++ (cM3b ++ (cT)))))))))))

set_option maxRecDepth 8192 in
set_option maxHeartbeats 8000000 in
/-- Window 0 of @main is the line of its lists: the functions' definitions unfolded at their calls, both sides are
    one chain of steps once the sequencing is reassociated. -/
theorem main_part0_eq (c : Dev nD) : main_part0 (F := F) c = seq (cA0 ++ (cM0 ++ (cA1a))) := by
  simp only [main_part0, fn_relu.body, fn_var.body, fn_where.body, fn_relu_0.body, seq_append, seq, bind_assoc, pure_bind]
  rfl

set_option maxRecDepth 8192 in
set_option maxHeartbeats 8000000 in
/-- Window 1 of @main is the line of its lists: the functions' definitions unfolded at their calls, both sides are
    one chain of steps once the sequencing is reassociated. -/
theorem main_part1_eq (c : Dev nD) : main_part1 (F := F) c = seq (cA1b ++ (cM1 ++ (cA2a))) := by
  simp only [main_part1, fn_relu.body, fn_var.body, fn_where.body, fn_relu_0.body, seq_append, seq, bind_assoc, pure_bind]
  rfl

set_option maxRecDepth 8192 in
set_option maxHeartbeats 8000000 in
/-- Window 2 of @main is the line of its lists: the functions' definitions unfolded at their calls, both sides are
    one chain of steps once the sequencing is reassociated. -/
theorem main_part2_eq (c : Dev nD) : main_part2 (F := F) c = seq (cA2b ++ (cM2 ++ (cA3 ++ (cM3a)))) := by
  simp only [main_part2, fn_relu.body, fn_var.body, fn_where.body, fn_relu_0.body, seq_append, seq, bind_assoc, pure_bind]
  rfl

set_option maxRecDepth 8192 in
set_option maxHeartbeats 8000000 in
/-- Window 3 of @main is the line of its lists: the functions' definitions unfolded at their calls, both sides are
    one chain of steps once the sequencing is reassociated. -/
theorem main_part3_eq (c : Dev nD) : main_part3 (F := F) c = seq (cM3b ++ (cT)) := by
  simp only [main_part3, fn_relu.body, fn_var.body, fn_where.body, fn_relu_0.body, seq_append, seq, bind_assoc, pure_bind]

theorem main_eq (c : Dev nD) : main (F := F) c = seq ops := by
  simp only [ops, main, seq_append, main_part0_eq, main_part1_eq, main_part2_eq, main_part3_eq, bind_assoc]

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨cA0_sub, List.forall_append.mpr ⟨cM0_sub, List.forall_append.mpr ⟨cA1a_sub, List.forall_append.mpr ⟨cA1b_sub, List.forall_append.mpr ⟨cM1_sub, List.forall_append.mpr ⟨cA2a_sub, List.forall_append.mpr ⟨cA2b_sub, List.forall_append.mpr ⟨cM2_sub, List.forall_append.mpr ⟨cA3_sub, List.forall_append.mpr ⟨cM3a_sub, List.forall_append.mpr ⟨cM3b_sub, cT_sub⟩⟩⟩⟩⟩⟩⟩⟩⟩⟩⟩

theorem ops_fresh : (ops : List (HloOp τ sig (Elt F))).Forall fun op => op.fresh = ∅ :=
  List.forall_append.mpr ⟨cA0_fresh, List.forall_append.mpr ⟨cM0_fresh, List.forall_append.mpr ⟨cA1a_fresh, List.forall_append.mpr ⟨cA1b_fresh, List.forall_append.mpr ⟨cM1_fresh, List.forall_append.mpr ⟨cA2a_fresh, List.forall_append.mpr ⟨cA2b_fresh, List.forall_append.mpr ⟨cM2_fresh, List.forall_append.mpr ⟨cA3_fresh, List.forall_append.mpr ⟨cM3a_fresh, List.forall_append.mpr ⟨cM3b_fresh, cT_fresh⟩⟩⟩⟩⟩⟩⟩⟩⟩⟩⟩

/-- On every device, for any float values, from any memory with zero counters: every weakly fair execution of @main
    terminates, and every final state has each buffer at the fold of the 324 operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-- A buffer indexed below 28 — an argument of @main — is written by no operation: the line leaves it as it was. -/
theorem after_ops_arg (V : Valuation τ sig (Elt F)) (r : Ref sig .tc) (hr : r.idx.val < 28) :
    after ops V (Proc.devRef .tc r) = V (Proc.devRef .tc r) := by
  simp only [ops, after_append]
  rw [after_frame cT cT_writes _ r (Or.inl (by omega)),
    after_frame cM3b cM3b_writes _ r (Or.inl (by omega)),
    after_frame cM3a cM3a_writes _ r (Or.inl (by omega)),
    after_frame cA3 cA3_writes _ r (Or.inl (by omega)),
    after_frame cM2 cM2_writes _ r (Or.inl (by omega)),
    after_frame cA2b cA2b_writes _ r (Or.inl (by omega)),
    after_frame cA2a cA2a_writes _ r (Or.inl (by omega)),
    after_frame cM1 cM1_writes _ r (Or.inl (by omega)),
    after_frame cA1b cA1b_writes _ r (Or.inl (by omega)),
    after_frame cA1a cA1a_writes _ r (Or.inl (by omega)),
    after_frame cM0 cM0_writes _ r (Or.inl (by omega)),
    after_frame cA0 cA0_writes _ r (Or.inl (by omega))]

/-- The reference runs and its 28 argument arrays end unchanged. -/
theorem frame_ri [hReferenceIdeal : Cert.ReferenceIdeal.Facts] [hPre_finite_inputs : Cert.Pre_finite_inputs.Facts] :
    Cert.frame_ReferenceIdeal := fun m g _ =>
  (θ_run _ _ _).mono (fun _ h c => ⟨(h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide)),
      (h c main_arg15).trans (after_ops_arg _ main_arg15 (by decide)),
      (h c main_arg16).trans (after_ops_arg _ main_arg16 (by decide)),
      (h c main_arg17).trans (after_ops_arg _ main_arg17 (by decide)),
      (h c main_arg18).trans (after_ops_arg _ main_arg18 (by decide)),
      (h c main_arg19).trans (after_ops_arg _ main_arg19 (by decide)),
      (h c main_arg20).trans (after_ops_arg _ main_arg20 (by decide)),
      (h c main_arg21).trans (after_ops_arg _ main_arg21 (by decide)),
      (h c main_arg22).trans (after_ops_arg _ main_arg22 (by decide)),
      (h c main_arg23).trans (after_ops_arg _ main_arg23 (by decide)),
      (h c main_arg24).trans (after_ops_arg _ main_arg24 (by decide)),
      (h c main_arg25).trans (after_ops_arg _ main_arg25 (by decide)),
      (h c main_arg26).trans (after_ops_arg _ main_arg26 (by decide)),
      (h c main_arg27).trans (after_ops_arg _ main_arg27 (by decide))⟩)
    (run_all (F := Ideal) m g)

end Cert.ReferenceIdeal.RefRun

end
-- ==== Proof.KStages.lean ====
/- The kernel program's host operations between its kernel regions, as named stage functions of the buffers they read.
   The program alternates host stretches and kernel regions. Before the first kernel of a layer the host forms the
   layer's input (`aggIdxK`: gather the source rows, add the edge attributes, clamp at zero, scatter-add onto the
   destination rows, add the input; the source and destination ids are the two rows of the edge index, cut out once at
   the start, `srcIdx` and `dstIdx`) and reshapes the layer's bias, scale and shift vectors to one-row arrays (`rowK512`,
   `rowK256`). Between the two kernels of a layer it turns the column sums and sums of squares into the column mean and
   variance (`meanK`, `varK`). After the last kernel it forms the sample and the divergence (`zK`, `klK`).
   Each stretch computes the stage function of the buffers it reads (`…_out` lemmas, for an arbitrary valuation) and
   leaves every buffer it does not write as it was (`…_frame`). -/
import proofs.«138093_j17583596110490_1_alg».proof.Proof.Gen.KernelIdeal.Regions
import Idealize.ShloMosaic.Lib.StableHlo.Run

noncomputable section

namespace Cert.KernelIdeal.KStages

open Cert.KernelIdeal Cert.KernelIdeal.Gen Idealize.ShloMosaic Idealize.ShloMosaic.TcCoe Idealize.SL.Sem Idealize.ShloMosaic.StableHlo

variable {F : FTy → Type} [FloatOps F]

/-- The contents of a buffer of 32-bit floats of shape `s`. -/
abbrev Tf (F : FTy → Type) (s : Shape) : Type := (⟨s, .f32⟩ : BufTy).Contents (Elt F)
/-- The contents of a buffer of 32-bit integers of shape `s`. -/
abbrev Ti (F : FTy → Type) (s : Shape) : Type := (⟨s, .i32⟩ : BufTy).Contents (Elt F)

/-! ## The stage functions -/

/-- Row 0 of the edge index: the 320000 source node ids. -/
def srcIdx (ei : Ti F S2x320000) : Ti F S320000 :=
  shapeCast S320000 (extractStridedSlice S1x320000 ![0, 0] ei slices_S2x320000_S1x320000_0_0) shapeCasts_S1x320000_S320000

/-- Row 1 of the edge index: the 320000 destination node ids. -/
def dstIdx (ei : Ti F S2x320000) : Ti F S320000 :=
  shapeCast S320000 (extractStridedSlice S1x320000 ![1, 0] ei slices_S2x320000_S1x320000_1_0) shapeCasts_S1x320000_S320000

/-- A negative node id counts from the end: `i + 20000` where `i < 0`, else `i`. -/
def wrapIdx (s : Ti F S320000) : Ti F S320000 :=
  select (cmpi .slt s (broadcastInDim S320000 ![] bcast_S_S320000 (constantI S_ 32 0#32)))
    (addi s (broadcastInDim S320000 ![] bcast_S_S320000 (constantI S_ 32 20000#32))) s

/-- The ids as a column of one-component index vectors. -/
def colIdx (s : Ti F S320000) : Ti F S320000x1 := broadcastInDim S320000x1 ![0] bcast_S320000_S320000x1_0 s

/-- `max(v, 0)` on the edge messages. -/
def reluE (v : Tf F S320000x256) : Tf F S320000x256 :=
  maximumf v (broadcastInDim S320000x256 ![] bcast_S_S320000x256 (constant S_ .f32 0x00000000#32))

/-- `x + segment_sum(relu(x[src] + edge_attr), dst)`, from the source and destination ids. -/
def aggIdxK (x : Tf F S20000x256) (src dst : Ti F S320000) (ea : Tf F S320000x256) : Tf F S20000x256 :=
  addf x (Host.scatterAdd scatter_S20000x256_S320000x1_S320000x256_1_0_0_1
    (broadcastInDim S20000x256 ![] bcast_S_S20000x256 (constant S_ .f32 0x00000000#32))
    (colIdx dst)
    (reluE (addf (Host.gather gather_S20000x256_S320000x1_S320000x256_1_0_n_n_0_1_1256 x (colIdx (wrapIdx src))) ea)))

/-- The same from the edge index. -/
def aggK (x : Tf F S20000x256) (ei : Ti F S2x320000) (ea : Tf F S320000x256) : Tf F S20000x256 :=
  aggIdxK x (srcIdx ei) (dstIdx ei) ea

/-- A vector of 512 as a one-row array. -/
def rowK512 (b : Tf F S512) : Tf F S1x512 := shapeCast S1x512 b shapeCasts_S512_S1x512

/-- A vector of 256 as a one-row array. -/
def rowK256 (b : Tf F S256) : Tf F S1x256 := shapeCast S1x256 b shapeCasts_S256_S1x256

/-- The row count 20000 as a one-row array of 512. -/
def rowsK : Tf F S1x512 := broadcastInDim S1x512 ![] bcast_S_S1x512 (constant S_ .f32 0x469C4000#32)

/-- The column means from the column sums: the sums over 20000. -/
def meanK (s : Tf F S1x512) : Tf F S1x512 := Host.divf s rowsK

/-- The column variances from the column sums and sums of squares: the mean of the squares minus the squared mean. -/
def varK (s ss : Tf F S1x512) : Tf F S1x512 := subf (Host.divf ss rowsK) (mulf (meanK s) (meanK s))

/-- A scalar as a 20000 × 256 array. -/
def splatN (c : Tf F S_) : Tf F S20000x256 := broadcastInDim S20000x256 ![] bcast_S_S20000x256 c

/-- `noise * exp(logstd) + mean`. -/
def zK (noise mean logstd : Tf F S20000x256) : Tf F S20000x256 := addf (mulf noise (Host.exp logstd)) mean

/-- `2.5e-5 * (Σ_rows Σ_cols (1 + 2 logstd - mean² - exp(logstd)²)) / 20000`. -/
def klK (mean logstd : Tf F S20000x256) : Tf F S_ :=
  mulf (constant S_ .f32 0x37D1B717#32)
    (Host.divf (Host.reduceAdd (Host.reduceAdd
        (subf (subf (addf (splatN (constant S_ .f32 0x3F800000#32)) (mulf (splatN (constant S_ .f32 0x40000000#32)) logstd))
          (mulf mean mean)) (mulf (Host.exp logstd) (Host.exp logstd)))
        (constant S_ .f32 0x00000000#32) reducesTo_S20000x256_S20000_d1 h_S_)
      (constant S_ .f32 0x00000000#32) reducesTo_S20000_S_d0 h_S_) (constant S_ .f32 0x469C4000#32))

/-! ## Each stretch computes its stage functions -/

/-! ### Before the first kernel of layer 0: `hostOps0`, `hostOps0_1`, `hostOps0_2` -/

set_option maxRecDepth 8192 in
set_option maxHeartbeats 4000000 in
theorem s0_src (V : Valuation τ sig (Elt F)) :
    after hostOps0_2 (after hostOps0_1 (after hostOps0 V)) (no_index (Proc.devRef .tc main_v1))
      = srcIdx (V (Proc.devRef .tc main_arg1)) := by
  after_results_simp
  rfl

set_option maxRecDepth 8192 in
set_option maxHeartbeats 4000000 in
theorem s0_dst (V : Valuation τ sig (Elt F)) :
    after hostOps0_2 (after hostOps0_1 (after hostOps0 V)) (no_index (Proc.devRef .tc main_v3))
      = dstIdx (V (Proc.devRef .tc main_arg1)) := by
  after_results_simp
  rfl

set_option maxRecDepth 8192 in
set_option maxHeartbeats 4000000 in
theorem s0_hin (V : Valuation τ sig (Elt F)) :
    after hostOps0_2 (after hostOps0_1 (after hostOps0 V)) (no_index (Proc.devRef .tc main_v16))
      = aggK (V (Proc.devRef .tc main_arg0)) (V (Proc.devRef .tc main_arg1)) (V (Proc.devRef .tc main_arg2)) := by
  after_results_simp
  rfl

set_option maxRecDepth 8192 in
set_option maxHeartbeats 4000000 in
theorem s0_b1 (V : Valuation τ sig (Elt F)) :
    after hostOps0_2 (after hostOps0_1 (after hostOps0 V)) (no_index (Proc.devRef .tc main_v17))
      = rowK512 (V (Proc.devRef .tc main_arg5)) := by
  after_results_simp
  rfl

set_option maxRecDepth 8192 in
set_option maxHeartbeats 4000000 in
theorem s0_g (V : Valuation τ sig (Elt F)) :
    after hostOps0_2 (after hostOps0_1 (after hostOps0 V)) (no_index (Proc.devRef .tc main_v18))
      = rowK512 (V (Proc.devRef .tc main_arg6)) := by
  after_results_simp
  rfl

set_option maxRecDepth 8192 in
set_option maxHeartbeats 4000000 in
theorem s0_be (V : Valuation τ sig (Elt F)) :
    after hostOps0_2 (after hostOps0_1 (after hostOps0 V)) (no_index (Proc.devRef .tc main_v19))
      = rowK512 (V (Proc.devRef .tc main_arg7)) := by
  after_results_simp
  rfl

set_option maxRecDepth 8192 in
set_option maxHeartbeats 4000000 in
theorem s0_b2 (V : Valuation τ sig (Elt F)) :
    after hostOps0_2 (after hostOps0_1 (after hostOps0 V)) (no_index (Proc.devRef .tc main_v20))
      = rowK256 (V (Proc.devRef .tc main_arg9)) := by
  after_results_simp
  rfl

/-! ### Before the first kernel of layer 1: `hostOps2`, `hostOps2_1`, `hostOps2_2` -/

set_option maxRecDepth 8192 in
set_option maxHeartbeats 4000000 in
theorem s2_hin (V : Valuation τ sig (Elt F)) :
    after hostOps2_2 (after hostOps2_1 (after hostOps2 V)) (no_index (Proc.devRef .tc main_v41))
      = aggIdxK (V (Proc.devRef .tc main_v28)) (V (Proc.devRef .tc main_v1)) (V (Proc.devRef .tc main_v3)) (V (Proc.devRef .tc main_arg2)) := by
  after_results_simp
  rfl

set_option maxRecDepth 8192 in
set_option maxHeartbeats 4000000 in
theorem s2_b1 (V : Valuation τ sig (Elt F)) :
    after hostOps2_2 (after hostOps2_1 (after hostOps2 V)) (no_index (Proc.devRef .tc main_v42))
      = rowK512 (V (Proc.devRef .tc main_arg11)) := by
  after_results_simp
  rfl

set_option maxRecDepth 8192 in
set_option maxHeartbeats 4000000 in
theorem s2_g (V : Valuation τ sig (Elt F)) :
    after hostOps2_2 (after hostOps2_1 (after hostOps2 V)) (no_index (Proc.devRef .tc main_v43))
      = rowK512 (V (Proc.devRef .tc main_arg12)) := by
  after_results_simp
  rfl

set_option maxRecDepth 8192 in
set_option maxHeartbeats 4000000 in
theorem s2_be (V : Valuation τ sig (Elt F)) :
    after hostOps2_2 (after hostOps2_1 (after hostOps2 V)) (no_index (Proc.devRef .tc main_v44))
      = rowK512 (V (Proc.devRef .tc main_arg13)) := by
  after_results_simp
  rfl

set_option maxRecDepth 8192 in
set_option maxHeartbeats 4000000 in
theorem s2_b2 (V : Valuation τ sig (Elt F)) :
    after hostOps2_2 (after hostOps2_1 (after hostOps2 V)) (no_index (Proc.devRef .tc main_v45))
      = rowK256 (V (Proc.devRef .tc main_arg15)) := by
  after_results_simp
  rfl

/-! ### Before the first kernel of layer 2: `hostOps4`, `hostOps4_1`, `hostOps4_2` -/

set_option maxRecDepth 8192 in
set_option maxHeartbeats 4000000 in
theorem s4_hin (V : Valuation τ sig (Elt F)) :
    after hostOps4_2 (after hostOps4_1 (after hostOps4 V)) (no_index (Proc.devRef .tc main_v66))
      = aggIdxK (V (Proc.devRef .tc main_v53)) (V (Proc.devRef .tc main_v1)) (V (Proc.devRef .tc main_v3)) (V (Proc.devRef .tc main_arg2)) := by
  after_results_simp
  rfl

set_option maxRecDepth 8192 in
set_option maxHeartbeats 4000000 in
theorem s4_b1 (V : Valuation τ sig (Elt F)) :
    after hostOps4_2 (after hostOps4_1 (after hostOps4 V)) (no_index (Proc.devRef .tc main_v67))
      = rowK512 (V (Proc.devRef .tc main_arg17)) := by
  after_results_simp
  rfl

set_option maxRecDepth 8192 in
set_option maxHeartbeats 4000000 in
theorem s4_g (V : Valuation τ sig (Elt F)) :
    after hostOps4_2 (after hostOps4_1 (after hostOps4 V)) (no_index (Proc.devRef .tc main_v68))
      = rowK512 (V (Proc.devRef .tc main_arg18)) := by
  after_results_simp
  rfl

set_option maxRecDepth 8192 in
set_option maxHeartbeats 4000000 in
theorem s4_be (V : Valuation τ sig (Elt F)) :
    after hostOps4_2 (after hostOps4_1 (after hostOps4 V)) (no_index (Proc.devRef .tc main_v69))
      = rowK512 (V (Proc.devRef .tc main_arg19)) := by
  after_results_simp
  rfl

set_option maxRecDepth 8192 in
set_option maxHeartbeats 4000000 in
theorem s4_b2 (V : Valuation τ sig (Elt F)) :
    after hostOps4_2 (after hostOps4_1 (after hostOps4 V)) (no_index (Proc.devRef .tc main_v70))
      = rowK256 (V (Proc.devRef .tc main_arg21)) := by
  after_results_simp
  rfl

/-! ### Before the first kernel of layer 3: `hostOps6`, `hostOps6_1`, `hostOps6_2` -/

set_option maxRecDepth 8192 in
set_option maxHeartbeats 4000000 in
theorem s6_hin (V : Valuation τ sig (Elt F)) :
    after hostOps6_2 (after hostOps6_1 (after hostOps6 V)) (no_index (Proc.devRef .tc main_v91))
      = aggIdxK (V (Proc.devRef .tc main_v53)) (V (Proc.devRef .tc main_v1)) (V (Proc.devRef .tc main_v3)) (V (Proc.devRef .tc main_arg2)) := by
  after_results_simp
  rfl

set_option maxRecDepth 8192 in
set_option maxHeartbeats 4000000 in
theorem s6_b1 (V : Valuation τ sig (Elt F)) :
    after hostOps6_2 (after hostOps6_1 (after hostOps6 V)) (no_index (Proc.devRef .tc main_v92))
      = rowK512 (V (Proc.devRef .tc main_arg23)) := by
  after_results_simp
  rfl

set_option maxRecDepth 8192 in
set_option maxHeartbeats 4000000 in
theorem s6_g (V : Valuation τ sig (Elt F)) :
    after hostOps6_2 (after hostOps6_1 (after hostOps6 V)) (no_index (Proc.devRef .tc main_v93))
      = rowK512 (V (Proc.devRef .tc main_arg24)) := by
  after_results_simp
  rfl

set_option maxRecDepth 8192 in
set_option maxHeartbeats 4000000 in
theorem s6_be (V : Valuation τ sig (Elt F)) :
    after hostOps6_2 (after hostOps6_1 (after hostOps6 V)) (no_index (Proc.devRef .tc main_v94))
      = rowK512 (V (Proc.devRef .tc main_arg25)) := by
  after_results_simp
  rfl

set_option maxRecDepth 8192 in
set_option maxHeartbeats 4000000 in
theorem s6_b2 (V : Valuation τ sig (Elt F)) :
    after hostOps6_2 (after hostOps6_1 (after hostOps6 V)) (no_index (Proc.devRef .tc main_v95))
      = rowK256 (V (Proc.devRef .tc main_arg27)) := by
  after_results_simp
  rfl

/-! ### Between the two kernels of layer 0: `hostOps1` -/

set_option maxRecDepth 8192 in
set_option maxHeartbeats 4000000 in
theorem s1_mean (V : Valuation τ sig (Elt F)) :
    after hostOps1 V (no_index (Proc.devRef .tc main_v23))
      = meanK (V (Proc.devRef .tc main_v21_1)) := by
  after_results_simp
  rfl

set_option maxRecDepth 8192 in
set_option maxHeartbeats 4000000 in
theorem s1_var (V : Valuation τ sig (Elt F)) :
    after hostOps1 V (no_index (Proc.devRef .tc main_v27))
      = varK (V (Proc.devRef .tc main_v21_1)) (V (Proc.devRef .tc main_v21_2)) := by
  after_results_simp
  rfl

/-! ### Between the two kernels of layer 1: `hostOps3` -/

set_option maxRecDepth 8192 in
set_option maxHeartbeats 4000000 in
theorem s3_mean (V : Valuation τ sig (Elt F)) :
    after hostOps3 V (no_index (Proc.devRef .tc main_v48))
      = meanK (V (Proc.devRef .tc main_v46_1)) := by
  after_results_simp
  rfl

set_option maxRecDepth 8192 in
set_option maxHeartbeats 4000000 in
theorem s3_var (V : Valuation τ sig (Elt F)) :
    after hostOps3 V (no_index (Proc.devRef .tc main_v52))
      = varK (V (Proc.devRef .tc main_v46_1)) (V (Proc.devRef .tc main_v46_2)) := by
  after_results_simp
  rfl

/-! ### Between the two kernels of layer 2: `hostOps5` -/

set_option maxRecDepth 8192 in
set_option maxHeartbeats 4000000 in
theorem s5_mean (V : Valuation τ sig (Elt F)) :
    after hostOps5 V (no_index (Proc.devRef .tc main_v73))
      = meanK (V (Proc.devRef .tc main_v71_1)) := by
  after_results_simp
  rfl

set_option maxRecDepth 8192 in
set_option maxHeartbeats 4000000 in
theorem s5_var (V : Valuation τ sig (Elt F)) :
    after hostOps5 V (no_index (Proc.devRef .tc main_v77))
      = varK (V (Proc.devRef .tc main_v71_1)) (V (Proc.devRef .tc main_v71_2)) := by
  after_results_simp
  rfl

/-! ### Between the two kernels of layer 3: `hostOps7` -/

set_option maxRecDepth 8192 in
set_option maxHeartbeats 4000000 in
theorem s7_mean (V : Valuation τ sig (Elt F)) :
    after hostOps7 V (no_index (Proc.devRef .tc main_v98))
      = meanK (V (Proc.devRef .tc main_v96_1)) := by
  after_results_simp
  rfl

set_option maxRecDepth 8192 in
set_option maxHeartbeats 4000000 in
theorem s7_var (V : Valuation τ sig (Elt F)) :
    after hostOps7 V (no_index (Proc.devRef .tc main_v102))
      = varK (V (Proc.devRef .tc main_v96_1)) (V (Proc.devRef .tc main_v96_2)) := by
  after_results_simp
  rfl

/-! ### After the last kernel: `hostOps8` -/

set_option maxRecDepth 8192 in
set_option maxHeartbeats 4000000 in
theorem s8_z (V : Valuation τ sig (Elt F)) :
    after hostOps8 V (no_index (Proc.devRef .tc main_v106))
      = zK (V (Proc.devRef .tc main_arg3)) (V (Proc.devRef .tc main_v78)) (V (Proc.devRef .tc main_v103)) := by
  after_results_simp
  rfl

set_option maxRecDepth 8192 in
set_option maxHeartbeats 4000000 in
theorem s8_kl (V : Valuation τ sig (Elt F)) :
    after hostOps8 V (no_index (Proc.devRef .tc main_v119))
      = klK (V (Proc.devRef .tc main_v78)) (V (Proc.devRef .tc main_v103)) := by
  after_results_simp
  rfl

/-! ## A stretch leaves the buffers it does not write as they were -/

theorem hostOps0_frame (V : Valuation τ sig (Elt F)) (r : Ref sig .tc) (hr : r ∉ hostOps0_W) :
    after hostOps0 V (Proc.devRef .tc r) = V (Proc.devRef .tc r) :=
  after_of_writes_sub hostOps0 V hostOps0_writes hr

theorem hostOps0_1_frame (V : Valuation τ sig (Elt F)) (r : Ref sig .tc) (hr : r ∉ hostOps0_1_W) :
    after hostOps0_1 V (Proc.devRef .tc r) = V (Proc.devRef .tc r) :=
  after_of_writes_sub hostOps0_1 V hostOps0_1_writes hr

theorem hostOps0_2_frame (V : Valuation τ sig (Elt F)) (r : Ref sig .tc) (hr : r ∉ hostOps0_2_W) :
    after hostOps0_2 V (Proc.devRef .tc r) = V (Proc.devRef .tc r) :=
  after_of_writes_sub hostOps0_2 V hostOps0_2_writes hr

theorem hostOps1_frame (V : Valuation τ sig (Elt F)) (r : Ref sig .tc) (hr : r ∉ hostOps1_W) :
    after hostOps1 V (Proc.devRef .tc r) = V (Proc.devRef .tc r) :=
  after_of_writes_sub hostOps1 V hostOps1_writes hr

theorem hostOps2_frame (V : Valuation τ sig (Elt F)) (r : Ref sig .tc) (hr : r ∉ hostOps2_W) :
    after hostOps2 V (Proc.devRef .tc r) = V (Proc.devRef .tc r) :=
  after_of_writes_sub hostOps2 V hostOps2_writes hr

theorem hostOps2_1_frame (V : Valuation τ sig (Elt F)) (r : Ref sig .tc) (hr : r ∉ hostOps2_1_W) :
    after hostOps2_1 V (Proc.devRef .tc r) = V (Proc.devRef .tc r) :=
  after_of_writes_sub hostOps2_1 V hostOps2_1_writes hr

theorem hostOps2_2_frame (V : Valuation τ sig (Elt F)) (r : Ref sig .tc) (hr : r ∉ hostOps2_2_W) :
    after hostOps2_2 V (Proc.devRef .tc r) = V (Proc.devRef .tc r) :=
  after_of_writes_sub hostOps2_2 V hostOps2_2_writes hr

theorem hostOps3_frame (V : Valuation τ sig (Elt F)) (r : Ref sig .tc) (hr : r ∉ hostOps3_W) :
    after hostOps3 V (Proc.devRef .tc r) = V (Proc.devRef .tc r) :=
  after_of_writes_sub hostOps3 V hostOps3_writes hr

theorem hostOps4_frame (V : Valuation τ sig (Elt F)) (r : Ref sig .tc) (hr : r ∉ hostOps4_W) :
    after hostOps4 V (Proc.devRef .tc r) = V (Proc.devRef .tc r) :=
  after_of_writes_sub hostOps4 V hostOps4_writes hr

theorem hostOps4_1_frame (V : Valuation τ sig (Elt F)) (r : Ref sig .tc) (hr : r ∉ hostOps4_1_W) :
    after hostOps4_1 V (Proc.devRef .tc r) = V (Proc.devRef .tc r) :=
  after_of_writes_sub hostOps4_1 V hostOps4_1_writes hr

theorem hostOps4_2_frame (V : Valuation τ sig (Elt F)) (r : Ref sig .tc) (hr : r ∉ hostOps4_2_W) :
    after hostOps4_2 V (Proc.devRef .tc r) = V (Proc.devRef .tc r) :=
  after_of_writes_sub hostOps4_2 V hostOps4_2_writes hr

theorem hostOps5_frame (V : Valuation τ sig (Elt F)) (r : Ref sig .tc) (hr : r ∉ hostOps5_W) :
    after hostOps5 V (Proc.devRef .tc r) = V (Proc.devRef .tc r) :=
  after_of_writes_sub hostOps5 V hostOps5_writes hr

theorem hostOps6_frame (V : Valuation τ sig (Elt F)) (r : Ref sig .tc) (hr : r ∉ hostOps6_W) :
    after hostOps6 V (Proc.devRef .tc r) = V (Proc.devRef .tc r) :=
  after_of_writes_sub hostOps6 V hostOps6_writes hr

theorem hostOps6_1_frame (V : Valuation τ sig (Elt F)) (r : Ref sig .tc) (hr : r ∉ hostOps6_1_W) :
    after hostOps6_1 V (Proc.devRef .tc r) = V (Proc.devRef .tc r) :=
  after_of_writes_sub hostOps6_1 V hostOps6_1_writes hr

theorem hostOps6_2_frame (V : Valuation τ sig (Elt F)) (r : Ref sig .tc) (hr : r ∉ hostOps6_2_W) :
    after hostOps6_2 V (Proc.devRef .tc r) = V (Proc.devRef .tc r) :=
  after_of_writes_sub hostOps6_2 V hostOps6_2_writes hr

theorem hostOps7_frame (V : Valuation τ sig (Elt F)) (r : Ref sig .tc) (hr : r ∉ hostOps7_W) :
    after hostOps7 V (Proc.devRef .tc r) = V (Proc.devRef .tc r) :=
  after_of_writes_sub hostOps7 V hostOps7_writes hr

theorem hostOps8_frame (V : Valuation τ sig (Elt F)) (r : Ref sig .tc) (hr : r ∉ hostOps8_W) :
    after hostOps8 V (Proc.devRef .tc r) = V (Proc.devRef .tc r) :=
  after_of_writes_sub hostOps8 V hostOps8_writes hr

/-- The three stretches before the first kernel of a layer, together. -/
theorem group0_frame (V : Valuation τ sig (Elt F)) (r : Ref sig .tc)
    (hr : r ∉ hostOps0_W ++ hostOps0_1_W ++ hostOps0_2_W) :
    after hostOps0_2 (after hostOps0_1 (after hostOps0 V)) (Proc.devRef .tc r) = V (Proc.devRef .tc r) := by
  have h0 : r ∉ hostOps0_W := fun h => hr (List.mem_append_left _ (List.mem_append_left _ h))
  have h1 : r ∉ hostOps0_1_W := fun h => hr (List.mem_append_left _ (List.mem_append_right _ h))
  have h2 : r ∉ hostOps0_2_W := fun h => hr (List.mem_append_right _ h)
  rw [hostOps0_2_frame _ r h2, hostOps0_1_frame _ r h1, hostOps0_frame _ r h0]

/-- The three stretches before the first kernel of a layer, together. -/
theorem group2_frame (V : Valuation τ sig (Elt F)) (r : Ref sig .tc)
    (hr : r ∉ hostOps2_W ++ hostOps2_1_W ++ hostOps2_2_W) :
    after hostOps2_2 (after hostOps2_1 (after hostOps2 V)) (Proc.devRef .tc r) = V (Proc.devRef .tc r) := by
  have h0 : r ∉ hostOps2_W := fun h => hr (List.mem_append_left _ (List.mem_append_left _ h))
  have h1 : r ∉ hostOps2_1_W := fun h => hr (List.mem_append_left _ (List.mem_append_right _ h))
  have h2 : r ∉ hostOps2_2_W := fun h => hr (List.mem_append_right _ h)
  rw [hostOps2_2_frame _ r h2, hostOps2_1_frame _ r h1, hostOps2_frame _ r h0]

/-- The three stretches before the first kernel of a layer, together. -/
theorem group4_frame (V : Valuation τ sig (Elt F)) (r : Ref sig .tc)
    (hr : r ∉ hostOps4_W ++ hostOps4_1_W ++ hostOps4_2_W) :
    after hostOps4_2 (after hostOps4_1 (after hostOps4 V)) (Proc.devRef .tc r) = V (Proc.devRef .tc r) := by
  have h0 : r ∉ hostOps4_W := fun h => hr (List.mem_append_left _ (List.mem_append_left _ h))
  have h1 : r ∉ hostOps4_1_W := fun h => hr (List.mem_append_left _ (List.mem_append_right _ h))
  have h2 : r ∉ hostOps4_2_W := fun h => hr (List.mem_append_right _ h)
  rw [hostOps4_2_frame _ r h2, hostOps4_1_frame _ r h1, hostOps4_frame _ r h0]

/-- The three stretches before the first kernel of a layer, together. -/
theorem group6_frame (V : Valuation τ sig (Elt F)) (r : Ref sig .tc)
    (hr : r ∉ hostOps6_W ++ hostOps6_1_W ++ hostOps6_2_W) :
    after hostOps6_2 (after hostOps6_1 (after hostOps6 V)) (Proc.devRef .tc r) = V (Proc.devRef .tc r) := by
  have h0 : r ∉ hostOps6_W := fun h => hr (List.mem_append_left _ (List.mem_append_left _ h))
  have h1 : r ∉ hostOps6_1_W := fun h => hr (List.mem_append_left _ (List.mem_append_right _ h))
  have h2 : r ∉ hostOps6_2_W := fun h => hr (List.mem_append_right _ h)
  rw [hostOps6_2_frame _ r h2, hostOps6_1_frame _ r h1, hostOps6_frame _ r h0]

end Cert.KernelIdeal.KStages

end
-- ==== Proof.KIChain.lean ====
/-
  The host glue of the kernel program's value: what the boundary contents `W{j}` hold at the buffers the kernel regions'
  windows read, as the stage functions of the launch memory and of the regions' output arrays.

  The program is 25 items: host stretches and the eight kernel regions of the four layers. A host stretch computes its stage
  functions of the buffers it reads and keeps every buffer it does not write; a region keeps every buffer but its output
  arrays. So a buffer read at a boundary is traced back, item by item, to the stretch that wrote it (or to the launch memory,
  for an argument array), and that stretch's inputs are traced back in turn:
    * `keep_…`: a buffer no item in between writes has the contents it had at the earlier boundary;
    * `arg…_at…`: an argument array is the launch memory's at every boundary where it is read (no item writes an argument);
    * `L{layer}_{buffer}`: the buffer at the boundary before the layer's first region (the neighbourhood sum, the first weight
      matrix and bias row) and before its second region (the column sums' mean and variance, the scale and shift rows, the
      second weight matrix and bias row). Layers 2 and 3 both aggregate the output of layer 1;
    * `LT_…`: after the last region, the sample and the divergence, from the outputs of layers 2 and 3.
-/
import proofs.«138093_j17583596110490_1_alg».proof.Proof.KIFrame
import proofs.«138093_j17583596110490_1_alg».proof.Proof.KStages

set_option maxRecDepth 16384

noncomputable section

namespace Cert.KernelIdeal.Hand

open Cert.KernelIdeal Cert.KernelIdeal.Gen Cert.KernelIdeal.KStages
open Idealize.ShloMosaic Idealize.ShloMosaic.TcCoe Idealize.SL.Sem

variable {F : FTy → Type} [FloatOps F]
variable (m : (ℓ : Loc nD τ sig) → Buf (Elt F) ℓ) (ρ : Dev nD → PrngReg)

/-! ## A buffer no item in between writes is carried along -/

theorem keep_v18_5_3 (c : Dev nD) : W5 m ρ c (Proc.devRef .tc main_v18) = W3 m ρ c (Proc.devRef .tc main_v18) :=
  (W5_of m ρ c main_v18 (by decide)).trans <| (W4_of m ρ c main_v18 (by decide))
theorem keep_v19_5_3 (c : Dev nD) : W5 m ρ c (Proc.devRef .tc main_v19) = W3 m ρ c (Proc.devRef .tc main_v19) :=
  (W5_of m ρ c main_v19 (by decide)).trans <| (W4_of m ρ c main_v19 (by decide))
theorem keep_v20_5_3 (c : Dev nD) : W5 m ρ c (Proc.devRef .tc main_v20) = W3 m ρ c (Proc.devRef .tc main_v20) :=
  (W5_of m ρ c main_v20 (by decide)).trans <| (W4_of m ρ c main_v20 (by decide))
theorem keep_v43_11_9 (c : Dev nD) : W11 m ρ c (Proc.devRef .tc main_v43) = W9 m ρ c (Proc.devRef .tc main_v43) :=
  (W11_of m ρ c main_v43 (by decide)).trans <| (W10_of m ρ c main_v43 (by decide))
theorem keep_v44_11_9 (c : Dev nD) : W11 m ρ c (Proc.devRef .tc main_v44) = W9 m ρ c (Proc.devRef .tc main_v44) :=
  (W11_of m ρ c main_v44 (by decide)).trans <| (W10_of m ρ c main_v44 (by decide))
theorem keep_v45_11_9 (c : Dev nD) : W11 m ρ c (Proc.devRef .tc main_v45) = W9 m ρ c (Proc.devRef .tc main_v45) :=
  (W11_of m ρ c main_v45 (by decide)).trans <| (W10_of m ρ c main_v45 (by decide))
theorem keep_v68_17_15 (c : Dev nD) : W17 m ρ c (Proc.devRef .tc main_v68) = W15 m ρ c (Proc.devRef .tc main_v68) :=
  (W17_of m ρ c main_v68 (by decide)).trans <| (W16_of m ρ c main_v68 (by decide))
theorem keep_v69_17_15 (c : Dev nD) : W17 m ρ c (Proc.devRef .tc main_v69) = W15 m ρ c (Proc.devRef .tc main_v69) :=
  (W17_of m ρ c main_v69 (by decide)).trans <| (W16_of m ρ c main_v69 (by decide))
theorem keep_v70_17_15 (c : Dev nD) : W17 m ρ c (Proc.devRef .tc main_v70) = W15 m ρ c (Proc.devRef .tc main_v70) :=
  (W17_of m ρ c main_v70 (by decide)).trans <| (W16_of m ρ c main_v70 (by decide))
theorem keep_v93_23_21 (c : Dev nD) : W23 m ρ c (Proc.devRef .tc main_v93) = W21 m ρ c (Proc.devRef .tc main_v93) :=
  (W23_of m ρ c main_v93 (by decide)).trans <| (W22_of m ρ c main_v93 (by decide))
theorem keep_v94_23_21 (c : Dev nD) : W23 m ρ c (Proc.devRef .tc main_v94) = W21 m ρ c (Proc.devRef .tc main_v94) :=
  (W23_of m ρ c main_v94 (by decide)).trans <| (W22_of m ρ c main_v94 (by decide))
theorem keep_v95_23_21 (c : Dev nD) : W23 m ρ c (Proc.devRef .tc main_v95) = W21 m ρ c (Proc.devRef .tc main_v95) :=
  (W23_of m ρ c main_v95 (by decide)).trans <| (W22_of m ρ c main_v95 (by decide))
theorem keep_v1_6_3 (c : Dev nD) : W6 m ρ c (Proc.devRef .tc main_v1) = W3 m ρ c (Proc.devRef .tc main_v1) :=
  (W6_of m ρ c main_v1 (by decide)).trans <| (W5_of m ρ c main_v1 (by decide)).trans <| (W4_of m ρ c main_v1 (by decide))
theorem keep_v3_6_3 (c : Dev nD) : W6 m ρ c (Proc.devRef .tc main_v3) = W3 m ρ c (Proc.devRef .tc main_v3) :=
  (W6_of m ρ c main_v3 (by decide)).trans <| (W5_of m ρ c main_v3 (by decide)).trans <| (W4_of m ρ c main_v3 (by decide))
theorem keep_v1_12_3 (c : Dev nD) : W12 m ρ c (Proc.devRef .tc main_v1) = W3 m ρ c (Proc.devRef .tc main_v1) :=
  (W12_of m ρ c main_v1 (by decide)).trans <| (W11_of m ρ c main_v1 (by decide)).trans <| (W10_of m ρ c main_v1 (by decide)).trans <| (W9_of m ρ c main_v1 (by decide)).trans <| (W8_of m ρ c main_v1 (by decide)).trans <| (W7_of m ρ c main_v1 (by decide)).trans <| (W6_of m ρ c main_v1 (by decide)).trans <| (W5_of m ρ c main_v1 (by decide)).trans <| (W4_of m ρ c main_v1 (by decide))
theorem keep_v3_12_3 (c : Dev nD) : W12 m ρ c (Proc.devRef .tc main_v3) = W3 m ρ c (Proc.devRef .tc main_v3) :=
  (W12_of m ρ c main_v3 (by decide)).trans <| (W11_of m ρ c main_v3 (by decide)).trans <| (W10_of m ρ c main_v3 (by decide)).trans <| (W9_of m ρ c main_v3 (by decide)).trans <| (W8_of m ρ c main_v3 (by decide)).trans <| (W7_of m ρ c main_v3 (by decide)).trans <| (W6_of m ρ c main_v3 (by decide)).trans <| (W5_of m ρ c main_v3 (by decide)).trans <| (W4_of m ρ c main_v3 (by decide))
theorem keep_v1_18_3 (c : Dev nD) : W18 m ρ c (Proc.devRef .tc main_v1) = W3 m ρ c (Proc.devRef .tc main_v1) :=
  (W18_of m ρ c main_v1 (by decide)).trans <| (W17_of m ρ c main_v1 (by decide)).trans <| (W16_of m ρ c main_v1 (by decide)).trans <| (W15_of m ρ c main_v1 (by decide)).trans <| (W14_of m ρ c main_v1 (by decide)).trans <| (W13_of m ρ c main_v1 (by decide)).trans <| (W12_of m ρ c main_v1 (by decide)).trans <| (W11_of m ρ c main_v1 (by decide)).trans <| (W10_of m ρ c main_v1 (by decide)).trans <| (W9_of m ρ c main_v1 (by decide)).trans <| (W8_of m ρ c main_v1 (by decide)).trans <| (W7_of m ρ c main_v1 (by decide)).trans <| (W6_of m ρ c main_v1 (by decide)).trans <| (W5_of m ρ c main_v1 (by decide)).trans <| (W4_of m ρ c main_v1 (by decide))
theorem keep_v3_18_3 (c : Dev nD) : W18 m ρ c (Proc.devRef .tc main_v3) = W3 m ρ c (Proc.devRef .tc main_v3) :=
  (W18_of m ρ c main_v3 (by decide)).trans <| (W17_of m ρ c main_v3 (by decide)).trans <| (W16_of m ρ c main_v3 (by decide)).trans <| (W15_of m ρ c main_v3 (by decide)).trans <| (W14_of m ρ c main_v3 (by decide)).trans <| (W13_of m ρ c main_v3 (by decide)).trans <| (W12_of m ρ c main_v3 (by decide)).trans <| (W11_of m ρ c main_v3 (by decide)).trans <| (W10_of m ρ c main_v3 (by decide)).trans <| (W9_of m ρ c main_v3 (by decide)).trans <| (W8_of m ρ c main_v3 (by decide)).trans <| (W7_of m ρ c main_v3 (by decide)).trans <| (W6_of m ρ c main_v3 (by decide)).trans <| (W5_of m ρ c main_v3 (by decide)).trans <| (W4_of m ρ c main_v3 (by decide))
theorem keep_v53_18_12 (c : Dev nD) : W18 m ρ c (Proc.devRef .tc main_v53) = W12 m ρ c (Proc.devRef .tc main_v53) :=
  (W18_of m ρ c main_v53 (by decide)).trans <| (W17_of m ρ c main_v53 (by decide)).trans <| (W16_of m ρ c main_v53 (by decide)).trans <| (W15_of m ρ c main_v53 (by decide)).trans <| (W14_of m ρ c main_v53 (by decide)).trans <| (W13_of m ρ c main_v53 (by decide))
theorem keep_v78_24_18 (c : Dev nD) : W24 m ρ c (Proc.devRef .tc main_v78) = W18 m ρ c (Proc.devRef .tc main_v78) :=
  (W24_of m ρ c main_v78 (by decide)).trans <| (W23_of m ρ c main_v78 (by decide)).trans <| (W22_of m ρ c main_v78 (by decide)).trans <| (W21_of m ρ c main_v78 (by decide)).trans <| (W20_of m ρ c main_v78 (by decide)).trans <| (W19_of m ρ c main_v78 (by decide))

/-! ## An argument array is still the launch memory's at every boundary where it is read -/

theorem arg4_at3 (c : Dev nD) : W3 m ρ c (Proc.devRef .tc main_arg4) = m ((c : Thread nD τ).loc main_arg4) :=
  ((W3_of m ρ c main_arg4 (by decide)).trans <| (W2_of m ρ c main_arg4 (by decide)).trans <| (W1_of m ρ c main_arg4 (by decide))).trans rfl
theorem arg8_at5 (c : Dev nD) : W5 m ρ c (Proc.devRef .tc main_arg8) = m ((c : Thread nD τ).loc main_arg8) :=
  ((W5_of m ρ c main_arg8 (by decide)).trans <| (W4_of m ρ c main_arg8 (by decide)).trans <| (W3_of m ρ c main_arg8 (by decide)).trans <| (W2_of m ρ c main_arg8 (by decide)).trans <| (W1_of m ρ c main_arg8 (by decide))).trans rfl
theorem arg10_at9 (c : Dev nD) : W9 m ρ c (Proc.devRef .tc main_arg10) = m ((c : Thread nD τ).loc main_arg10) :=
  ((W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide))).trans rfl
theorem arg14_at11 (c : Dev nD) : W11 m ρ c (Proc.devRef .tc main_arg14) = m ((c : Thread nD τ).loc main_arg14) :=
  ((W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide))).trans rfl
theorem arg16_at15 (c : Dev nD) : W15 m ρ c (Proc.devRef .tc main_arg16) = m ((c : Thread nD τ).loc main_arg16) :=
  ((W15_of m ρ c main_arg16 (by decide)).trans <| (W14_of m ρ c main_arg16 (by decide)).trans <| (W13_of m ρ c main_arg16 (by decide)).trans <| (W12_of m ρ c main_arg16 (by decide)).trans <| (W11_of m ρ c main_arg16 (by decide)).trans <| (W10_of m ρ c main_arg16 (by decide)).trans <| (W9_of m ρ c main_arg16 (by decide)).trans <| (W8_of m ρ c main_arg16 (by decide)).trans <| (W7_of m ρ c main_arg16 (by decide)).trans <| (W6_of m ρ c main_arg16 (by decide)).trans <| (W5_of m ρ c main_arg16 (by decide)).trans <| (W4_of m ρ c main_arg16 (by decide)).trans <| (W3_of m ρ c main_arg16 (by decide)).trans <| (W2_of m ρ c main_arg16 (by decide)).trans <| (W1_of m ρ c main_arg16 (by decide))).trans rfl
theorem arg20_at17 (c : Dev nD) : W17 m ρ c (Proc.devRef .tc main_arg20) = m ((c : Thread nD τ).loc main_arg20) :=
  ((W17_of m ρ c main_arg20 (by decide)).trans <| (W16_of m ρ c main_arg20 (by decide)).trans <| (W15_of m ρ c main_arg20 (by decide)).trans <| (W14_of m ρ c main_arg20 (by decide)).trans <| (W13_of m ρ c main_arg20 (by decide)).trans <| (W12_of m ρ c main_arg20 (by decide)).trans <| (W11_of m ρ c main_arg20 (by decide)).trans <| (W10_of m ρ c main_arg20 (by decide)).trans <| (W9_of m ρ c main_arg20 (by decide)).trans <| (W8_of m ρ c main_arg20 (by decide)).trans <| (W7_of m ρ c main_arg20 (by decide)).trans <| (W6_of m ρ c main_arg20 (by decide)).trans <| (W5_of m ρ c main_arg20 (by decide)).trans <| (W4_of m ρ c main_arg20 (by decide)).trans <| (W3_of m ρ c main_arg20 (by decide)).trans <| (W2_of m ρ c main_arg20 (by decide)).trans <| (W1_of m ρ c main_arg20 (by decide))).trans rfl
theorem arg22_at21 (c : Dev nD) : W21 m ρ c (Proc.devRef .tc main_arg22) = m ((c : Thread nD τ).loc main_arg22) :=
  ((W21_of m ρ c main_arg22 (by decide)).trans <| (W20_of m ρ c main_arg22 (by decide)).trans <| (W19_of m ρ c main_arg22 (by decide)).trans <| (W18_of m ρ c main_arg22 (by decide)).trans <| (W17_of m ρ c main_arg22 (by decide)).trans <| (W16_of m ρ c main_arg22 (by decide)).trans <| (W15_of m ρ c main_arg22 (by decide)).trans <| (W14_of m ρ c main_arg22 (by decide)).trans <| (W13_of m ρ c main_arg22 (by decide)).trans <| (W12_of m ρ c main_arg22 (by decide)).trans <| (W11_of m ρ c main_arg22 (by decide)).trans <| (W10_of m ρ c main_arg22 (by decide)).trans <| (W9_of m ρ c main_arg22 (by decide)).trans <| (W8_of m ρ c main_arg22 (by decide)).trans <| (W7_of m ρ c main_arg22 (by decide)).trans <| (W6_of m ρ c main_arg22 (by decide)).trans <| (W5_of m ρ c main_arg22 (by decide)).trans <| (W4_of m ρ c main_arg22 (by decide)).trans <| (W3_of m ρ c main_arg22 (by decide)).trans <| (W2_of m ρ c main_arg22 (by decide)).trans <| (W1_of m ρ c main_arg22 (by decide))).trans rfl
theorem arg26_at23 (c : Dev nD) : W23 m ρ c (Proc.devRef .tc main_arg26) = m ((c : Thread nD τ).loc main_arg26) :=
  ((W23_of m ρ c main_arg26 (by decide)).trans <| (W22_of m ρ c main_arg26 (by decide)).trans <| (W21_of m ρ c main_arg26 (by decide)).trans <| (W20_of m ρ c main_arg26 (by decide)).trans <| (W19_of m ρ c main_arg26 (by decide)).trans <| (W18_of m ρ c main_arg26 (by decide)).trans <| (W17_of m ρ c main_arg26 (by decide)).trans <| (W16_of m ρ c main_arg26 (by decide)).trans <| (W15_of m ρ c main_arg26 (by decide)).trans <| (W14_of m ρ c main_arg26 (by decide)).trans <| (W13_of m ρ c main_arg26 (by decide)).trans <| (W12_of m ρ c main_arg26 (by decide)).trans <| (W11_of m ρ c main_arg26 (by decide)).trans <| (W10_of m ρ c main_arg26 (by decide)).trans <| (W9_of m ρ c main_arg26 (by decide)).trans <| (W8_of m ρ c main_arg26 (by decide)).trans <| (W7_of m ρ c main_arg26 (by decide)).trans <| (W6_of m ρ c main_arg26 (by decide)).trans <| (W5_of m ρ c main_arg26 (by decide)).trans <| (W4_of m ρ c main_arg26 (by decide)).trans <| (W3_of m ρ c main_arg26 (by decide)).trans <| (W2_of m ρ c main_arg26 (by decide)).trans <| (W1_of m ρ c main_arg26 (by decide))).trans rfl
theorem arg2_at6 (c : Dev nD) : W6 m ρ c (Proc.devRef .tc main_arg2) = m ((c : Thread nD τ).loc main_arg2) :=
  ((W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide))).trans rfl
theorem arg11_at6 (c : Dev nD) : W6 m ρ c (Proc.devRef .tc main_arg11) = m ((c : Thread nD τ).loc main_arg11) :=
  ((W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide))).trans rfl
theorem arg12_at6 (c : Dev nD) : W6 m ρ c (Proc.devRef .tc main_arg12) = m ((c : Thread nD τ).loc main_arg12) :=
  ((W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide))).trans rfl
theorem arg13_at6 (c : Dev nD) : W6 m ρ c (Proc.devRef .tc main_arg13) = m ((c : Thread nD τ).loc main_arg13) :=
  ((W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide))).trans rfl
theorem arg15_at6 (c : Dev nD) : W6 m ρ c (Proc.devRef .tc main_arg15) = m ((c : Thread nD τ).loc main_arg15) :=
  ((W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide))).trans rfl
theorem arg2_at12 (c : Dev nD) : W12 m ρ c (Proc.devRef .tc main_arg2) = m ((c : Thread nD τ).loc main_arg2) :=
  ((W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide))).trans rfl
theorem arg17_at12 (c : Dev nD) : W12 m ρ c (Proc.devRef .tc main_arg17) = m ((c : Thread nD τ).loc main_arg17) :=
  ((W12_of m ρ c main_arg17 (by decide)).trans <| (W11_of m ρ c main_arg17 (by decide)).trans <| (W10_of m ρ c main_arg17 (by decide)).trans <| (W9_of m ρ c main_arg17 (by decide)).trans <| (W8_of m ρ c main_arg17 (by decide)).trans <| (W7_of m ρ c main_arg17 (by decide)).trans <| (W6_of m ρ c main_arg17 (by decide)).trans <| (W5_of m ρ c main_arg17 (by decide)).trans <| (W4_of m ρ c main_arg17 (by decide)).trans <| (W3_of m ρ c main_arg17 (by decide)).trans <| (W2_of m ρ c main_arg17 (by decide)).trans <| (W1_of m ρ c main_arg17 (by decide))).trans rfl
theorem arg18_at12 (c : Dev nD) : W12 m ρ c (Proc.devRef .tc main_arg18) = m ((c : Thread nD τ).loc main_arg18) :=
  ((W12_of m ρ c main_arg18 (by decide)).trans <| (W11_of m ρ c main_arg18 (by decide)).trans <| (W10_of m ρ c main_arg18 (by decide)).trans <| (W9_of m ρ c main_arg18 (by decide)).trans <| (W8_of m ρ c main_arg18 (by decide)).trans <| (W7_of m ρ c main_arg18 (by decide)).trans <| (W6_of m ρ c main_arg18 (by decide)).trans <| (W5_of m ρ c main_arg18 (by decide)).trans <| (W4_of m ρ c main_arg18 (by decide)).trans <| (W3_of m ρ c main_arg18 (by decide)).trans <| (W2_of m ρ c main_arg18 (by decide)).trans <| (W1_of m ρ c main_arg18 (by decide))).trans rfl
theorem arg19_at12 (c : Dev nD) : W12 m ρ c (Proc.devRef .tc main_arg19) = m ((c : Thread nD τ).loc main_arg19) :=
  ((W12_of m ρ c main_arg19 (by decide)).trans <| (W11_of m ρ c main_arg19 (by decide)).trans <| (W10_of m ρ c main_arg19 (by decide)).trans <| (W9_of m ρ c main_arg19 (by decide)).trans <| (W8_of m ρ c main_arg19 (by decide)).trans <| (W7_of m ρ c main_arg19 (by decide)).trans <| (W6_of m ρ c main_arg19 (by decide)).trans <| (W5_of m ρ c main_arg19 (by decide)).trans <| (W4_of m ρ c main_arg19 (by decide)).trans <| (W3_of m ρ c main_arg19 (by decide)).trans <| (W2_of m ρ c main_arg19 (by decide)).trans <| (W1_of m ρ c main_arg19 (by decide))).trans rfl
theorem arg21_at12 (c : Dev nD) : W12 m ρ c (Proc.devRef .tc main_arg21) = m ((c : Thread nD τ).loc main_arg21) :=
  ((W12_of m ρ c main_arg21 (by decide)).trans <| (W11_of m ρ c main_arg21 (by decide)).trans <| (W10_of m ρ c main_arg21 (by decide)).trans <| (W9_of m ρ c main_arg21 (by decide)).trans <| (W8_of m ρ c main_arg21 (by decide)).trans <| (W7_of m ρ c main_arg21 (by decide)).trans <| (W6_of m ρ c main_arg21 (by decide)).trans <| (W5_of m ρ c main_arg21 (by decide)).trans <| (W4_of m ρ c main_arg21 (by decide)).trans <| (W3_of m ρ c main_arg21 (by decide)).trans <| (W2_of m ρ c main_arg21 (by decide)).trans <| (W1_of m ρ c main_arg21 (by decide))).trans rfl
theorem arg2_at18 (c : Dev nD) : W18 m ρ c (Proc.devRef .tc main_arg2) = m ((c : Thread nD τ).loc main_arg2) :=
  ((W18_of m ρ c main_arg2 (by decide)).trans <| (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide))).trans rfl
theorem arg23_at18 (c : Dev nD) : W18 m ρ c (Proc.devRef .tc main_arg23) = m ((c : Thread nD τ).loc main_arg23) :=
  ((W18_of m ρ c main_arg23 (by decide)).trans <| (W17_of m ρ c main_arg23 (by decide)).trans <| (W16_of m ρ c main_arg23 (by decide)).trans <| (W15_of m ρ c main_arg23 (by decide)).trans <| (W14_of m ρ c main_arg23 (by decide)).trans <| (W13_of m ρ c main_arg23 (by decide)).trans <| (W12_of m ρ c main_arg23 (by decide)).trans <| (W11_of m ρ c main_arg23 (by decide)).trans <| (W10_of m ρ c main_arg23 (by decide)).trans <| (W9_of m ρ c main_arg23 (by decide)).trans <| (W8_of m ρ c main_arg23 (by decide)).trans <| (W7_of m ρ c main_arg23 (by decide)).trans <| (W6_of m ρ c main_arg23 (by decide)).trans <| (W5_of m ρ c main_arg23 (by decide)).trans <| (W4_of m ρ c main_arg23 (by decide)).trans <| (W3_of m ρ c main_arg23 (by decide)).trans <| (W2_of m ρ c main_arg23 (by decide)).trans <| (W1_of m ρ c main_arg23 (by decide))).trans rfl
theorem arg24_at18 (c : Dev nD) : W18 m ρ c (Proc.devRef .tc main_arg24) = m ((c : Thread nD τ).loc main_arg24) :=
  ((W18_of m ρ c main_arg24 (by decide)).trans <| (W17_of m ρ c main_arg24 (by decide)).trans <| (W16_of m ρ c main_arg24 (by decide)).trans <| (W15_of m ρ c main_arg24 (by decide)).trans <| (W14_of m ρ c main_arg24 (by decide)).trans <| (W13_of m ρ c main_arg24 (by decide)).trans <| (W12_of m ρ c main_arg24 (by decide)).trans <| (W11_of m ρ c main_arg24 (by decide)).trans <| (W10_of m ρ c main_arg24 (by decide)).trans <| (W9_of m ρ c main_arg24 (by decide)).trans <| (W8_of m ρ c main_arg24 (by decide)).trans <| (W7_of m ρ c main_arg24 (by decide)).trans <| (W6_of m ρ c main_arg24 (by decide)).trans <| (W5_of m ρ c main_arg24 (by decide)).trans <| (W4_of m ρ c main_arg24 (by decide)).trans <| (W3_of m ρ c main_arg24 (by decide)).trans <| (W2_of m ρ c main_arg24 (by decide)).trans <| (W1_of m ρ c main_arg24 (by decide))).trans rfl
theorem arg25_at18 (c : Dev nD) : W18 m ρ c (Proc.devRef .tc main_arg25) = m ((c : Thread nD τ).loc main_arg25) :=
  ((W18_of m ρ c main_arg25 (by decide)).trans <| (W17_of m ρ c main_arg25 (by decide)).trans <| (W16_of m ρ c main_arg25 (by decide)).trans <| (W15_of m ρ c main_arg25 (by decide)).trans <| (W14_of m ρ c main_arg25 (by decide)).trans <| (W13_of m ρ c main_arg25 (by decide)).trans <| (W12_of m ρ c main_arg25 (by decide)).trans <| (W11_of m ρ c main_arg25 (by decide)).trans <| (W10_of m ρ c main_arg25 (by decide)).trans <| (W9_of m ρ c main_arg25 (by decide)).trans <| (W8_of m ρ c main_arg25 (by decide)).trans <| (W7_of m ρ c main_arg25 (by decide)).trans <| (W6_of m ρ c main_arg25 (by decide)).trans <| (W5_of m ρ c main_arg25 (by decide)).trans <| (W4_of m ρ c main_arg25 (by decide)).trans <| (W3_of m ρ c main_arg25 (by decide)).trans <| (W2_of m ρ c main_arg25 (by decide)).trans <| (W1_of m ρ c main_arg25 (by decide))).trans rfl
theorem arg27_at18 (c : Dev nD) : W18 m ρ c (Proc.devRef .tc main_arg27) = m ((c : Thread nD τ).loc main_arg27) :=
  ((W18_of m ρ c main_arg27 (by decide)).trans <| (W17_of m ρ c main_arg27 (by decide)).trans <| (W16_of m ρ c main_arg27 (by decide)).trans <| (W15_of m ρ c main_arg27 (by decide)).trans <| (W14_of m ρ c main_arg27 (by decide)).trans <| (W13_of m ρ c main_arg27 (by decide)).trans <| (W12_of m ρ c main_arg27 (by decide)).trans <| (W11_of m ρ c main_arg27 (by decide)).trans <| (W10_of m ρ c main_arg27 (by decide)).trans <| (W9_of m ρ c main_arg27 (by decide)).trans <| (W8_of m ρ c main_arg27 (by decide)).trans <| (W7_of m ρ c main_arg27 (by decide)).trans <| (W6_of m ρ c main_arg27 (by decide)).trans <| (W5_of m ρ c main_arg27 (by decide)).trans <| (W4_of m ρ c main_arg27 (by decide)).trans <| (W3_of m ρ c main_arg27 (by decide)).trans <| (W2_of m ρ c main_arg27 (by decide)).trans <| (W1_of m ρ c main_arg27 (by decide))).trans rfl
theorem arg3_at24 (c : Dev nD) : W24 m ρ c (Proc.devRef .tc main_arg3) = m ((c : Thread nD τ).loc main_arg3) :=
  ((W24_of m ρ c main_arg3 (by decide)).trans <| (W23_of m ρ c main_arg3 (by decide)).trans <| (W22_of m ρ c main_arg3 (by decide)).trans <| (W21_of m ρ c main_arg3 (by decide)).trans <| (W20_of m ρ c main_arg3 (by decide)).trans <| (W19_of m ρ c main_arg3 (by decide)).trans <| (W18_of m ρ c main_arg3 (by decide)).trans <| (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide))).trans rfl

/-! ## Layer 0 -/

theorem L0_v16 (c : Dev nD) :
    W3 m ρ c (Proc.devRef .tc main_v16)
      = aggK (m ((c : Thread nD τ).loc main_arg0)) (m ((c : Thread nD τ).loc main_arg1)) (m ((c : Thread nD τ).loc main_arg2)) :=
  s0_hin (W0 m ρ c)
theorem L0_arg4 (c : Dev nD) :
    W3 m ρ c (Proc.devRef .tc main_arg4)
      = m ((c : Thread nD τ).loc main_arg4) :=
  arg4_at3 m ρ c
theorem L0_v17 (c : Dev nD) :
    W3 m ρ c (Proc.devRef .tc main_v17)
      = rowK512 (m ((c : Thread nD τ).loc main_arg5)) :=
  s0_b1 (W0 m ρ c)
theorem L0_v1 (c : Dev nD) :
    W3 m ρ c (Proc.devRef .tc main_v1)
      = srcIdx (m ((c : Thread nD τ).loc main_arg1)) :=
  s0_src (W0 m ρ c)
theorem L0_v3 (c : Dev nD) :
    W3 m ρ c (Proc.devRef .tc main_v3)
      = dstIdx (m ((c : Thread nD τ).loc main_arg1)) :=
  s0_dst (W0 m ρ c)
theorem L0_v21_0 (c : Dev nD) :
    W5 m ρ c (Proc.devRef .tc main_v21_0)
      = W4 m ρ c (Proc.devRef .tc main_v21_0) :=
  W5_of m ρ c main_v21_0 (by decide)
theorem L0_v23 (c : Dev nD) :
    W5 m ρ c (Proc.devRef .tc main_v23)
      = meanK (W4 m ρ c (Proc.devRef .tc main_v21_1)) :=
  s1_mean (W4 m ρ c)
theorem L0_v27 (c : Dev nD) :
    W5 m ρ c (Proc.devRef .tc main_v27)
      = varK (W4 m ρ c (Proc.devRef .tc main_v21_1)) (W4 m ρ c (Proc.devRef .tc main_v21_2)) :=
  s1_var (W4 m ρ c)
theorem L0_v18 (c : Dev nD) :
    W5 m ρ c (Proc.devRef .tc main_v18)
      = rowK512 (m ((c : Thread nD τ).loc main_arg6)) :=
  (keep_v18_5_3 m ρ c).trans (s0_g (W0 m ρ c))
theorem L0_v19 (c : Dev nD) :
    W5 m ρ c (Proc.devRef .tc main_v19)
      = rowK512 (m ((c : Thread nD τ).loc main_arg7)) :=
  (keep_v19_5_3 m ρ c).trans (s0_be (W0 m ρ c))
theorem L0_arg8 (c : Dev nD) :
    W5 m ρ c (Proc.devRef .tc main_arg8)
      = m ((c : Thread nD τ).loc main_arg8) :=
  arg8_at5 m ρ c
theorem L0_v20 (c : Dev nD) :
    W5 m ρ c (Proc.devRef .tc main_v20)
      = rowK256 (m ((c : Thread nD τ).loc main_arg9)) :=
  (keep_v20_5_3 m ρ c).trans (s0_b2 (W0 m ρ c))

/-! ## Layer 1 -/

theorem L1_v41 (c : Dev nD) :
    W9 m ρ c (Proc.devRef .tc main_v41)
      = aggIdxK (W6 m ρ c (Proc.devRef .tc main_v28)) (srcIdx (m ((c : Thread nD τ).loc main_arg1))) (dstIdx (m ((c : Thread nD τ).loc main_arg1))) (m ((c : Thread nD τ).loc main_arg2)) := by
  refine (s2_hin (W6 m ρ c)).trans ?_
  rw [keep_v1_6_3 m ρ c, keep_v3_6_3 m ρ c, arg2_at6 m ρ c, L0_v1 m ρ c, L0_v3 m ρ c]
theorem L1_arg10 (c : Dev nD) :
    W9 m ρ c (Proc.devRef .tc main_arg10)
      = m ((c : Thread nD τ).loc main_arg10) :=
  arg10_at9 m ρ c
theorem L1_v42 (c : Dev nD) :
    W9 m ρ c (Proc.devRef .tc main_v42)
      = rowK512 (m ((c : Thread nD τ).loc main_arg11)) :=
  (s2_b1 (W6 m ρ c)).trans (congrArg rowK512 (arg11_at6 m ρ c))
theorem L1_v46_0 (c : Dev nD) :
    W11 m ρ c (Proc.devRef .tc main_v46_0)
      = W10 m ρ c (Proc.devRef .tc main_v46_0) :=
  W11_of m ρ c main_v46_0 (by decide)
theorem L1_v48 (c : Dev nD) :
    W11 m ρ c (Proc.devRef .tc main_v48)
      = meanK (W10 m ρ c (Proc.devRef .tc main_v46_1)) :=
  s3_mean (W10 m ρ c)
theorem L1_v52 (c : Dev nD) :
    W11 m ρ c (Proc.devRef .tc main_v52)
      = varK (W10 m ρ c (Proc.devRef .tc main_v46_1)) (W10 m ρ c (Proc.devRef .tc main_v46_2)) :=
  s3_var (W10 m ρ c)
theorem L1_v43 (c : Dev nD) :
    W11 m ρ c (Proc.devRef .tc main_v43)
      = rowK512 (m ((c : Thread nD τ).loc main_arg12)) :=
  (keep_v43_11_9 m ρ c).trans <| (s2_g (W6 m ρ c)).trans (congrArg rowK512 (arg12_at6 m ρ c))
theorem L1_v44 (c : Dev nD) :
    W11 m ρ c (Proc.devRef .tc main_v44)
      = rowK512 (m ((c : Thread nD τ).loc main_arg13)) :=
  (keep_v44_11_9 m ρ c).trans <| (s2_be (W6 m ρ c)).trans (congrArg rowK512 (arg13_at6 m ρ c))
theorem L1_arg14 (c : Dev nD) :
    W11 m ρ c (Proc.devRef .tc main_arg14)
      = m ((c : Thread nD τ).loc main_arg14) :=
  arg14_at11 m ρ c
theorem L1_v45 (c : Dev nD) :
    W11 m ρ c (Proc.devRef .tc main_v45)
      = rowK256 (m ((c : Thread nD τ).loc main_arg15)) :=
  (keep_v45_11_9 m ρ c).trans <| (s2_b2 (W6 m ρ c)).trans (congrArg rowK256 (arg15_at6 m ρ c))

/-! ## Layer 2 -/

theorem L2_v66 (c : Dev nD) :
    W15 m ρ c (Proc.devRef .tc main_v66)
      = aggIdxK (W12 m ρ c (Proc.devRef .tc main_v53)) (srcIdx (m ((c : Thread nD τ).loc main_arg1))) (dstIdx (m ((c : Thread nD τ).loc main_arg1))) (m ((c : Thread nD τ).loc main_arg2)) := by
  refine (s4_hin (W12 m ρ c)).trans ?_
  rw [keep_v1_12_3 m ρ c, keep_v3_12_3 m ρ c, arg2_at12 m ρ c, L0_v1 m ρ c, L0_v3 m ρ c]
theorem L2_arg16 (c : Dev nD) :
    W15 m ρ c (Proc.devRef .tc main_arg16)
      = m ((c : Thread nD τ).loc main_arg16) :=
  arg16_at15 m ρ c
theorem L2_v67 (c : Dev nD) :
    W15 m ρ c (Proc.devRef .tc main_v67)
      = rowK512 (m ((c : Thread nD τ).loc main_arg17)) :=
  (s4_b1 (W12 m ρ c)).trans (congrArg rowK512 (arg17_at12 m ρ c))
theorem L2_v71_0 (c : Dev nD) :
    W17 m ρ c (Proc.devRef .tc main_v71_0)
      = W16 m ρ c (Proc.devRef .tc main_v71_0) :=
  W17_of m ρ c main_v71_0 (by decide)
theorem L2_v73 (c : Dev nD) :
    W17 m ρ c (Proc.devRef .tc main_v73)
      = meanK (W16 m ρ c (Proc.devRef .tc main_v71_1)) :=
  s5_mean (W16 m ρ c)
theorem L2_v77 (c : Dev nD) :
    W17 m ρ c (Proc.devRef .tc main_v77)
      = varK (W16 m ρ c (Proc.devRef .tc main_v71_1)) (W16 m ρ c (Proc.devRef .tc main_v71_2)) :=
  s5_var (W16 m ρ c)
theorem L2_v68 (c : Dev nD) :
    W17 m ρ c (Proc.devRef .tc main_v68)
      = rowK512 (m ((c : Thread nD τ).loc main_arg18)) :=
  (keep_v68_17_15 m ρ c).trans <| (s4_g (W12 m ρ c)).trans (congrArg rowK512 (arg18_at12 m ρ c))
theorem L2_v69 (c : Dev nD) :
    W17 m ρ c (Proc.devRef .tc main_v69)
      = rowK512 (m ((c : Thread nD τ).loc main_arg19)) :=
  (keep_v69_17_15 m ρ c).trans <| (s4_be (W12 m ρ c)).trans (congrArg rowK512 (arg19_at12 m ρ c))
theorem L2_arg20 (c : Dev nD) :
    W17 m ρ c (Proc.devRef .tc main_arg20)
      = m ((c : Thread nD τ).loc main_arg20) :=
  arg20_at17 m ρ c
theorem L2_v70 (c : Dev nD) :
    W17 m ρ c (Proc.devRef .tc main_v70)
      = rowK256 (m ((c : Thread nD τ).loc main_arg21)) :=
  (keep_v70_17_15 m ρ c).trans <| (s4_b2 (W12 m ρ c)).trans (congrArg rowK256 (arg21_at12 m ρ c))

/-! ## Layer 3 -/

theorem L3_v91 (c : Dev nD) :
    W21 m ρ c (Proc.devRef .tc main_v91)
      = aggIdxK (W12 m ρ c (Proc.devRef .tc main_v53)) (srcIdx (m ((c : Thread nD τ).loc main_arg1))) (dstIdx (m ((c : Thread nD τ).loc main_arg1))) (m ((c : Thread nD τ).loc main_arg2)) := by
  refine (s6_hin (W18 m ρ c)).trans ?_
  rw [keep_v1_18_3 m ρ c, keep_v3_18_3 m ρ c, arg2_at18 m ρ c, L0_v1 m ρ c, L0_v3 m ρ c, keep_v53_18_12 m ρ c]
theorem L3_arg22 (c : Dev nD) :
    W21 m ρ c (Proc.devRef .tc main_arg22)
      = m ((c : Thread nD τ).loc main_arg22) :=
  arg22_at21 m ρ c
theorem L3_v92 (c : Dev nD) :
    W21 m ρ c (Proc.devRef .tc main_v92)
      = rowK512 (m ((c : Thread nD τ).loc main_arg23)) :=
  (s6_b1 (W18 m ρ c)).trans (congrArg rowK512 (arg23_at18 m ρ c))
theorem L3_v96_0 (c : Dev nD) :
    W23 m ρ c (Proc.devRef .tc main_v96_0)
      = W22 m ρ c (Proc.devRef .tc main_v96_0) :=
  W23_of m ρ c main_v96_0 (by decide)
theorem L3_v98 (c : Dev nD) :
    W23 m ρ c (Proc.devRef .tc main_v98)
      = meanK (W22 m ρ c (Proc.devRef .tc main_v96_1)) :=
  s7_mean (W22 m ρ c)
theorem L3_v102 (c : Dev nD) :
    W23 m ρ c (Proc.devRef .tc main_v102)
      = varK (W22 m ρ c (Proc.devRef .tc main_v96_1)) (W22 m ρ c (Proc.devRef .tc main_v96_2)) :=
  s7_var (W22 m ρ c)
theorem L3_v93 (c : Dev nD) :
    W23 m ρ c (Proc.devRef .tc main_v93)
      = rowK512 (m ((c : Thread nD τ).loc main_arg24)) :=
  (keep_v93_23_21 m ρ c).trans <| (s6_g (W18 m ρ c)).trans (congrArg rowK512 (arg24_at18 m ρ c))
theorem L3_v94 (c : Dev nD) :
    W23 m ρ c (Proc.devRef .tc main_v94)
      = rowK512 (m ((c : Thread nD τ).loc main_arg25)) :=
  (keep_v94_23_21 m ρ c).trans <| (s6_be (W18 m ρ c)).trans (congrArg rowK512 (arg25_at18 m ρ c))
theorem L3_arg26 (c : Dev nD) :
    W23 m ρ c (Proc.devRef .tc main_arg26)
      = m ((c : Thread nD τ).loc main_arg26) :=
  arg26_at23 m ρ c
theorem L3_v95 (c : Dev nD) :
    W23 m ρ c (Proc.devRef .tc main_v95)
      = rowK256 (m ((c : Thread nD τ).loc main_arg27)) :=
  (keep_v95_23_21 m ρ c).trans <| (s6_b2 (W18 m ρ c)).trans (congrArg rowK256 (arg27_at18 m ρ c))

/-! ## After the last kernel -/

theorem LT_v106 (c : Dev nD) :
    W25 m ρ c (Proc.devRef .tc main_v106)
      = zK (m ((c : Thread nD τ).loc main_arg3)) (W18 m ρ c (Proc.devRef .tc main_v78)) (W24 m ρ c (Proc.devRef .tc main_v103)) := by
  refine (s8_z (W24 m ρ c)).trans ?_
  rw [arg3_at24 m ρ c, keep_v78_24_18 m ρ c]
theorem LT_v119 (c : Dev nD) :
    W25 m ρ c (Proc.devRef .tc main_v119)
      = klK (W18 m ρ c (Proc.devRef .tc main_v78)) (W24 m ρ c (Proc.devRef .tc main_v103)) := by
  refine (s8_kl (W24 m ρ c)).trans ?_
  rw [keep_v78_24_18 m ρ c]
theorem LT_v78 (c : Dev nD) :
    W25 m ρ c (Proc.devRef .tc main_v78)
      = W18 m ρ c (Proc.devRef .tc main_v78) :=
  (W25_of m ρ c main_v78 (by decide)).trans (keep_v78_24_18 m ρ c)
theorem LT_v103 (c : Dev nD) :
    W25 m ρ c (Proc.devRef .tc main_v103)
      = W24 m ρ c (Proc.devRef .tc main_v103) :=
  W25_of m ρ c main_v103 (by decide)

end Cert.KernelIdeal.Hand
-- ==== Proof.KIArrCommon.lean ====
/-
  Rows in tiles: the 20000 rows of a node array are ten tiles of 2000 rows, row `r` of tile `t` being row `2000 t + r`;
  `rowBlk X t` is tile `t` of an array `X` of 20000 rows, as an array of 2000 rows.
-/
import Idealize.ShloMosaic.Lib.ValueIdx

noncomputable section

namespace Cert.KernelIdeal.Hand

open Idealize.ShloMosaic Idealize.ShloMosaic.ValueIdx

/-- Row `r` of tile `t`, among the 20000 rows. -/
def tileRowK (t : Fin 10) (r : Fin 2000) : Fin 20000 := ⟨2000 * t.val + r.val, by omega⟩

@[simp] theorem tileRowK_val (t : Fin 10) (r : Fin 2000) : (tileRowK t r).val = 2000 * t.val + r.val := rfl

/-- Tile `t` of an array of 20000 rows and `n` columns, as an array of 2000 rows. -/
def rowBlk {α : Type} {n : ℕ} (X : (⟨2, ![20000, n]⟩ : Shape).Idx → α) (t : Fin 10) : (⟨2, ![2000, n]⟩ : Shape).Idx → α :=
  fun idx => X (ix2 (tileRowK t (idx 0)) (idx 1))

theorem rowBlk_apply {α : Type} {n : ℕ} (X : (⟨2, ![20000, n]⟩ : Shape).Idx → α) (t : Fin 10) (r : Fin 2000) (q : Fin n) :
    rowBlk X t (ix2 r q) = X (ix2 (tileRowK t r) q) := rfl

end Cert.KernelIdeal.Hand

end
-- ==== Proof.KIArr0.lean ====
/-
  The first kernel of a layer, from blocks to arrays: an input window's array is never written back, so it ends as the region
  found it; the block output's ten row blocks tile its array and no two grid points write the same block, so the entry at row
  `2000 t + r` ends at what point `t` left in its staging buffer at row `r`; each of the two rows of column sums is written
  back once, after the last point, whole, so it ends at the running sum over all ten points; and each input block, index by
  index, is the array read at the block's offset.
-/
import proofs.«138093_j17583596110490_1_alg».proof.Proof.KIHalf0
import Idealize.ShloMosaic.Lib.Pipeline.Value
import Idealize.ShloMosaic.Lib.ValueIdx
import proofs.«138093_j17583596110490_1_alg».proof.Proof.KIArrCommon

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The index maps over the ten grid points -/

/-- The moving input window and the block output are at row block `t`, column block 0, at grid point `t`; every other
    window stays at block (0, 0). -/
theorem idx0_facts : ∀ t : Fin cfg0.N,
    win0_0.index t (0 : Fin 2) = t.val ∧ win0_0.index t (1 : Fin 2) = 0
    ∧ win0_3.index t (0 : Fin 2) = t.val ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Distinct grid points write distinct blocks of the block output. -/
theorem idx0_3_inj : ∀ t t' : Fin cfg0.N, win0_3.index t = win0_3.index t' → t = t' :=
  (by decide +kernel : ∀ t t' : Fin grid0.N, win0_3.index t = win0_3.index t' → t = t')

theorem disjoint0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx0_3_inj t t' h)

/-- The last grid point. -/
abbrev last0 : Fin cfg0.N := t0_9

theorem last0_lt : 9 < cfg0.N := last0.isLt

/-- Only the last point writes a row of column sums back. -/
theorem flush0_4_iff (t : Fin cfg0.N) : (cfg0.win 4).flush t = true ↔ t = last0 := by
  have hN : cfg0.N = 10 := N_0
  rw [flush0_4 t]
  constructor
  · intro h; apply Fin.ext; show t.val = 9; have := t.isLt; omega
  · rintro rfl; rfl
theorem flush0_5_iff (t : Fin cfg0.N) : (cfg0.win 5).flush t = true ↔ t = last0 := by
  have hN : cfg0.N = 10 := N_0
  rw [flush0_5 t]
  constructor
  · intro h; apply Fin.ext; show t.val = 9; have := t.isLt; omega
  · rintro rfl; rfl

theorem disjoint0_4 : ∀ t t' : Fin cfg0.N, (cfg0.win 4).flush t = true → (cfg0.win 4).flush t' = true → t ≠ t' →
    Disjoint ((cfg0.win 4).blk t).view.set ((cfg0.win 4).blk t').view.set :=
  fun t t' h h' hne => absurd (((flush0_4_iff t).mp h).trans ((flush0_4_iff t').mp h').symm) hne
theorem disjoint0_5 : ∀ t t' : Fin cfg0.N, (cfg0.win 5).flush t = true → (cfg0.win 5).flush t' = true → t ≠ t' →
    Disjoint ((cfg0.win 5).blk t).view.set ((cfg0.win 5).blk t').view.set :=
  fun t t' h h' hne => absurd (((flush0_5_iff t).mp h).trans ((flush0_5_iff t').mp h').symm) hne

/-! ## The input arrays after the region -/

theorem arr0_0 (c : Dev nD) : (dat0 V c).arrAt 0 cfg0.N = V c (Pipeline.arrRef spec0 0) :=
  ((dat0 V c).arrAt_in 0 rfl _).trans (A_eq0 V c 0)

theorem arr0_1 (c : Dev nD) : (dat0 V c).arrAt 1 cfg0.N = V c (Pipeline.arrRef spec0 1) :=
  ((dat0 V c).arrAt_in 1 rfl _).trans (A_eq0 V c 1)

theorem arr0_2 (c : Dev nD) : (dat0 V c).arrAt 2 cfg0.N = V c (Pipeline.arrRef spec0 2) :=
  ((dat0 V c).arrAt_in 2 rfl _).trans (A_eq0 V c 2)

/-! ## The output arrays after the region -/

/-- Row `2000 t + r` of the block output ends at row `r` of what grid point `t` computed from its three input blocks. -/
theorem arr0_3 (c : Dev nD) (t : Fin cfg0.N) (r : Fin 2000) (q : Fin 512) (h : 2000 * t.val + r.val < 20000) :
    ((dat0 V c).arrAt 3 cfg0.N : Vec F S20000x512 .f32) (ix2 ⟨2000 * t.val + r.val, h⟩ q)
      = k0_pay3 (iblk0 V c 0 t) (iblk0 V c 1 t) (iblk0 V c 2 t) (ix2 r q) := by
  obtain ⟨-, -, e0, e1, -⟩ := idx0_facts t
  have e := (dat0 V c).arrAt_emb_eq_flushed 3 disjoint0_3 t (flush0_3 t) (ix2 r q)
  have hemb : ((cfg0.win 3).blk t).view.emb (ix2 r q) = (ix2 ⟨2000 * t.val + r.val, h⟩ q : S20000x512.Idx) := by
    funext a; apply Fin.ext
    match a with
    | ⟨0, _⟩ => show win0_3.index t (0 : Fin 2) * 2000 + 1 * r.val = 2000 * t.val + r.val; rw [e0]; omega
    | ⟨1, _⟩ => show win0_3.index t (1 : Fin 2) * 512 + 1 * q.val = q.val; rw [e1]; omega
  rw [hemb] at e
  refine e.trans ?_
  rw [cast_eq]
  show (cfg0.win 3).cut (grid0.coords t) ((dat0 V c).after 3 t) (ix2 r q) = _
  rw [after0_3]
  rfl

/-- The row of column sums (window 4) ends at the running sum after the last point. -/
theorem arr0_4 (c : Dev nD) :
    ((dat0 V c).arrAt 4 cfg0.N : Vec F S1x512 .f32) = (acc0 V c 9 last0_lt).1 := by
  obtain ⟨-, -, -, -, -, -, -, -, e0, e1, -⟩ := idx0_facts last0
  funext j
  have e := (dat0 V c).arrAt_emb_eq_flushed 4 disjoint0_4 last0 ((flush0_4_iff last0).mpr rfl) j
  have hemb : ((cfg0.win 4).blk last0).view.emb j = (j : S1x512.Idx) := by
    funext a; apply Fin.ext
    match a with
    | ⟨0, _⟩ => show win0_4.index last0 (0 : Fin 2) * 1 + 1 * (j 0).val = (j 0).val; rw [e0]; omega
    | ⟨1, _⟩ => show win0_4.index last0 (1 : Fin 2) * 512 + 1 * (j 1).val = (j 1).val; rw [e1]; omega
  rw [hemb] at e
  refine e.trans ?_
  rw [cast_eq]
  show (cfg0.win 4).cut (grid0.coords last0) ((dat0 V c).after 4 last0) j = _
  rw [after0_4]
  rfl

/-- The row of column sums (window 5) ends at the running sum after the last point. -/
theorem arr0_5 (c : Dev nD) :
    ((dat0 V c).arrAt 5 cfg0.N : Vec F S1x512 .f32) = (acc0 V c 9 last0_lt).2 := by
  obtain ⟨-, -, -, -, -, -, -, -, -, -, e0, e1⟩ := idx0_facts last0
  funext j
  have e := (dat0 V c).arrAt_emb_eq_flushed 5 disjoint0_5 last0 ((flush0_5_iff last0).mpr rfl) j
  have hemb : ((cfg0.win 5).blk last0).view.emb j = (j : S1x512.Idx) := by
    funext a; apply Fin.ext
    match a with
    | ⟨0, _⟩ => show win0_5.index last0 (0 : Fin 2) * 1 + 1 * (j 0).val = (j 0).val; rw [e0]; omega
    | ⟨1, _⟩ => show win0_5.index last0 (1 : Fin 2) * 512 + 1 * (j 1).val = (j 1).val; rw [e1]; omega
  rw [hemb] at e
  refine e.trans ?_
  rw [cast_eq]
  show (cfg0.win 5).cut (grid0.coords last0) ((dat0 V c).after 5 last0) j = _
  rw [after0_5]
  rfl

/-! ## The input blocks, index by index -/

/-- The moving window's block at point `t` is rows `2000 t … 2000 t + 1999` of its array. -/
theorem iblk0_0_apply (c : Dev nD) (t : Fin cfg0.N) (r : Fin 2000) (q : Fin 256) (h : 2000 * t.val + r.val < 20000) :
    (iblk0 V c 0 t : Vec F S2000x256 .f32) (ix2 r q)
      = (V c (Pipeline.arrRef spec0 0) : Vec F S20000x256 .f32) (ix2 ⟨2000 * t.val + r.val, h⟩ q) := by
  obtain ⟨e0, e1, -⟩ := idx0_facts t
  unfold iblk0
  rw [View.read_apply]
  show V c (Pipeline.arrRef spec0 0) _ = V c (Pipeline.arrRef spec0 0) _
  congr 1
  funext a; apply Fin.ext
  match a with
  | ⟨0, _⟩ => show win0_0.index t (0 : Fin 2) * 2000 + 1 * r.val = 2000 * t.val + r.val; rw [e0]; omega
  | ⟨1, _⟩ => show win0_0.index t (1 : Fin 2) * 256 + 1 * q.val = q.val; rw [e1]; omega

/-- Window 1's block is its whole array at every point. -/
theorem iblk0_1_eq (c : Dev nD) (t : Fin cfg0.N) :
    (iblk0 V c 1 t : Vec F S256x512 .f32) = (V c (Pipeline.arrRef spec0 1) : Vec F S256x512 .f32) := by
  obtain ⟨-, -, -, -, e0, e1, -⟩ := idx0_facts t
  funext j
  unfold iblk0
  rw [View.read_apply]
  show V c (Pipeline.arrRef spec0 1) _ = V c (Pipeline.arrRef spec0 1) _
  congr 1
  funext a; apply Fin.ext
  match a with
  | ⟨0, _⟩ => show win0_1.index t (0 : Fin 2) * 256 + 1 * (j 0).val = (j 0).val; rw [e0]; omega
  | ⟨1, _⟩ => show win0_1.index t (1 : Fin 2) * 512 + 1 * (j 1).val = (j 1).val; rw [e1]; omega

/-- Window 2's block is its whole array at every point. -/
theorem iblk0_2_eq (c : Dev nD) (t : Fin cfg0.N) :
    (iblk0 V c 2 t : Vec F S1x512 .f32) = (V c (Pipeline.arrRef spec0 2) : Vec F S1x512 .f32) := by
  obtain ⟨-, -, -, -, -, -, e0, e1, -⟩ := idx0_facts t
  funext j
  unfold iblk0
  rw [View.read_apply]
  show V c (Pipeline.arrRef spec0 2) _ = V c (Pipeline.arrRef spec0 2) _
  congr 1
  funext a; apply Fin.ext
  match a with
  | ⟨0, _⟩ => show win0_2.index t (0 : Fin 2) * 1 + 1 * (j 0).val = (j 0).val; rw [e0]; omega
  | ⟨1, _⟩ => show win0_2.index t (1 : Fin 2) * 512 + 1 * (j 1).val = (j 1).val; rw [e1]; omega

/-! ## The same, tile by tile over whole arrays -/

/-- The moving window's block at point `t` is tile `t` of its array. -/
theorem iblk0_0_blk (c : Dev nD) (t : Fin 10) :
    (iblk0 V c 0 t : Vec F S2000x256 .f32) = rowBlk (V c (Pipeline.arrRef spec0 0) : Vec F S20000x256 .f32) t := by
  funext j
  obtain ⟨r, q, rfl⟩ : ∃ r q, j = ix2 r q := ⟨j 0, j 1, eq_ix2 j⟩
  exact iblk0_0_apply V c t r q (tileRowK t r).isLt

/-- `arr0_3` with the row named as row `r` of tile `t`. -/
theorem arr0_3_tile (c : Dev nD) (t : Fin 10) (r : Fin 2000) (q : Fin 512) :
    ((dat0 V c).arrAt 3 cfg0.N : Vec F S20000x512 .f32) (ix2 (tileRowK t r) q) = k0_pay3 (iblk0 V c 0 t) (iblk0 V c 1 t) (iblk0 V c 2 t) (ix2 r q) :=
  arr0_3 V c t r q (tileRowK t r).isLt

set_option maxHeartbeats 1000000 in
/-- Tile `t` of the block output is what the body computes from tile `t` of the moving input, the weights and the bias row. -/
theorem arr0_3_blk (c : Dev nD) (t : Fin 10) :
    rowBlk ((dat0 V c).arrAt 3 cfg0.N : Vec F S20000x512 .f32) t = k0_pay3 (rowBlk (V c (Pipeline.arrRef spec0 0) : Vec F S20000x256 .f32) t) (V c (Pipeline.arrRef spec0 1) : Vec F S256x512 .f32) (V c (Pipeline.arrRef spec0 2) : Vec F S1x512 .f32) := by
  funext j
  obtain ⟨r, q, rfl⟩ : ∃ r q, j = ix2 r q := ⟨j 0, j 1, eq_ix2 j⟩
  rw [rowBlk_apply, arr0_3_tile V c t r q, iblk0_0_blk V c t, iblk0_1_eq V c t, iblk0_2_eq V c t]

set_option maxHeartbeats 1000000 in
/-- The running column sums after the first tile, over whole arrays. -/
theorem acc0_zero_arr (c : Dev nD) (h0 : 0 < 10) :
    (acc0 V c 0 h0).1 = k0_pay4 (rowBlk (V c (Pipeline.arrRef spec0 0) : Vec F S20000x256 .f32) 0) (V c (Pipeline.arrRef spec0 1) : Vec F S256x512 .f32) (V c (Pipeline.arrRef spec0 2) : Vec F S1x512 .f32) k0_pay1
    ∧ (acc0 V c 0 h0).2 = k0_pay5 (rowBlk (V c (Pipeline.arrRef spec0 0) : Vec F S20000x256 .f32) 0) (V c (Pipeline.arrRef spec0 1) : Vec F S256x512 .f32) (V c (Pipeline.arrRef spec0 2) : Vec F S1x512 .f32) k0_pay2 := by
  have e1 := acc0_zero_1 V c (⟨0, h0⟩ : Fin cfg0.N) rfl
  have e2 := acc0_zero_2 V c (⟨0, h0⟩ : Fin cfg0.N) rfl
  rw [iblk0_0_blk V c (⟨0, h0⟩ : Fin cfg0.N), iblk0_1_eq V c (⟨0, h0⟩ : Fin cfg0.N), iblk0_2_eq V c (⟨0, h0⟩ : Fin cfg0.N)] at e1 e2
  exact ⟨e1, e2⟩

set_option maxHeartbeats 1000000 in
/-- The running column sums after tile `n + 1`: the body's update of the sums after tile `n`, over whole arrays. -/
theorem acc0_succ_arr (c : Dev nD) (n : ℕ) (hn : n + 1 < 10) :
    (acc0 V c (n + 1) hn).1 = k0_pay4 (rowBlk (V c (Pipeline.arrRef spec0 0) : Vec F S20000x256 .f32) ⟨n + 1, hn⟩) (V c (Pipeline.arrRef spec0 1) : Vec F S256x512 .f32) (V c (Pipeline.arrRef spec0 2) : Vec F S1x512 .f32) (acc0 V c n (Nat.lt_of_succ_lt hn)).1
    ∧ (acc0 V c (n + 1) hn).2 = k0_pay5 (rowBlk (V c (Pipeline.arrRef spec0 0) : Vec F S20000x256 .f32) ⟨n + 1, hn⟩) (V c (Pipeline.arrRef spec0 1) : Vec F S256x512 .f32) (V c (Pipeline.arrRef spec0 2) : Vec F S1x512 .f32) (acc0 V c n (Nat.lt_of_succ_lt hn)).2 := by
  have e1 := acc0_pos_1 V c (⟨n + 1, hn⟩ : Fin cfg0.N) (Nat.succ_ne_zero n)
  have e2 := acc0_pos_2 V c (⟨n + 1, hn⟩ : Fin cfg0.N) (Nat.succ_ne_zero n)
  rw [iblk0_0_blk V c (⟨n + 1, hn⟩ : Fin cfg0.N), iblk0_1_eq V c (⟨n + 1, hn⟩ : Fin cfg0.N), iblk0_2_eq V c (⟨n + 1, hn⟩ : Fin cfg0.N)] at e1 e2
  exact ⟨e1, e2⟩

end Cert.KernelIdeal.Hand

end
-- ==== Proof.KIArr1.lean ====
/-
  The second kernel of a layer, from blocks to arrays: an input window's array is never written back, so it ends as the region
  found it; the output window's ten row blocks tile its array and no two grid points write the same block, so the entry at row
  `2000 t + r` ends at what point `t` left in its staging buffer at row `r`; and each input block, index by index, is the
  array read at the block's offset (rows `2000 t …` for the moving window, the whole array for the others).
-/
import proofs.«138093_j17583596110490_1_alg».proof.Proof.KIHalf1
import Idealize.ShloMosaic.Lib.Pipeline.Value
import Idealize.ShloMosaic.Lib.ValueIdx
import proofs.«138093_j17583596110490_1_alg».proof.Proof.KIArrCommon

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The index maps over the ten grid points -/

/-- The moving input window and the output window are at row block `t`, column block 0, at grid point `t`; every other
    window stays at block (0, 0). -/
theorem idx1_facts : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Distinct grid points write distinct blocks of the output. -/
theorem idx1_7_inj : ∀ t t' : Fin cfg1.N, win1_7.index t = win1_7.index t' → t = t' :=
  (by decide +kernel : ∀ t t' : Fin grid1.N, win1_7.index t = win1_7.index t' → t = t')

theorem disjoint1_7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (idx1_7_inj t t' h)

/-! ## The input arrays after the region -/

theorem arr1_0 (c : Dev nD) : (dat1 V c).arrAt 0 cfg1.N = V c (Pipeline.arrRef spec1 0) :=
  ((dat1 V c).arrAt_in 0 rfl _).trans (A_eq1 V c 0)

theorem arr1_1 (c : Dev nD) : (dat1 V c).arrAt 1 cfg1.N = V c (Pipeline.arrRef spec1 1) :=
  ((dat1 V c).arrAt_in 1 rfl _).trans (A_eq1 V c 1)

theorem arr1_2 (c : Dev nD) : (dat1 V c).arrAt 2 cfg1.N = V c (Pipeline.arrRef spec1 2) :=
  ((dat1 V c).arrAt_in 2 rfl _).trans (A_eq1 V c 2)

theorem arr1_3 (c : Dev nD) : (dat1 V c).arrAt 3 cfg1.N = V c (Pipeline.arrRef spec1 3) :=
  ((dat1 V c).arrAt_in 3 rfl _).trans (A_eq1 V c 3)

theorem arr1_4 (c : Dev nD) : (dat1 V c).arrAt 4 cfg1.N = V c (Pipeline.arrRef spec1 4) :=
  ((dat1 V c).arrAt_in 4 rfl _).trans (A_eq1 V c 4)

theorem arr1_5 (c : Dev nD) : (dat1 V c).arrAt 5 cfg1.N = V c (Pipeline.arrRef spec1 5) :=
  ((dat1 V c).arrAt_in 5 rfl _).trans (A_eq1 V c 5)

theorem arr1_6 (c : Dev nD) : (dat1 V c).arrAt 6 cfg1.N = V c (Pipeline.arrRef spec1 6) :=
  ((dat1 V c).arrAt_in 6 rfl _).trans (A_eq1 V c 6)

/-! ## The output array after the region -/

/-- Row `2000 t + r` of the output array ends at row `r` of what grid point `t` computed from its seven input blocks. -/
theorem arr1_7 (c : Dev nD) (t : Fin cfg1.N) (r : Fin 2000) (q : Fin 256) (h : 2000 * t.val + r.val < 20000) :
    ((dat1 V c).arrAt 7 cfg1.N : Vec F S20000x256 .f32) (ix2 ⟨2000 * t.val + r.val, h⟩ q)
      = out1_7 (iblk1 V c 0 t) (iblk1 V c 1 t) (iblk1 V c 2 t) (iblk1 V c 3 t) (iblk1 V c 4 t) (iblk1 V c 5 t) (iblk1 V c 6 t) (ix2 r q) := by
  obtain ⟨-, -, e0, e1, -⟩ := idx1_facts t
  have e := (dat1 V c).arrAt_emb_eq_flushed 7 disjoint1_7 t (flush1_7 t) (ix2 r q)
  have hemb : ((cfg1.win 7).blk t).view.emb (ix2 r q) = (ix2 ⟨2000 * t.val + r.val, h⟩ q : S20000x256.Idx) := by
    funext a; apply Fin.ext
    match a with
    | ⟨0, _⟩ => show win1_7.index t (0 : Fin 2) * 2000 + 1 * r.val = 2000 * t.val + r.val; rw [e0]; omega
    | ⟨1, _⟩ => show win1_7.index t (1 : Fin 2) * 256 + 1 * q.val = q.val; rw [e1]; omega
  rw [hemb] at e
  refine e.trans ?_
  rw [cast_eq]
  show (cfg1.win 7).cut (grid1.coords t) ((dat1 V c).after 7 t) (ix2 r q) = _
  rw [after1_7]
  rfl

/-! ## The input blocks, index by index -/

/-- The moving window's block at point `t` is rows `2000 t … 2000 t + 1999` of its array. -/
theorem iblk1_0_apply (c : Dev nD) (t : Fin cfg1.N) (r : Fin 2000) (q : Fin 512) (h : 2000 * t.val + r.val < 20000) :
    (iblk1 V c 0 t : Vec F S2000x512 .f32) (ix2 r q)
      = (V c (Pipeline.arrRef spec1 0) : Vec F S20000x512 .f32) (ix2 ⟨2000 * t.val + r.val, h⟩ q) := by
  obtain ⟨e0, e1, -⟩ := idx1_facts t
  unfold iblk1
  rw [View.read_apply]
  show V c (Pipeline.arrRef spec1 0) _ = V c (Pipeline.arrRef spec1 0) _
  congr 1
  funext a; apply Fin.ext
  match a with
  | ⟨0, _⟩ => show win1_0.index t (0 : Fin 2) * 2000 + 1 * r.val = 2000 * t.val + r.val; rw [e0]; omega
  | ⟨1, _⟩ => show win1_0.index t (1 : Fin 2) * 512 + 1 * q.val = q.val; rw [e1]; omega

/-- Window 1's block is its whole array at every point. -/
theorem iblk1_1_eq (c : Dev nD) (t : Fin cfg1.N) :
    (iblk1 V c 1 t : Vec F S1x512 .f32) = (V c (Pipeline.arrRef spec1 1) : Vec F S1x512 .f32) := by
  obtain ⟨-, -, -, -, e0, e1, -⟩ := idx1_facts t
  funext j
  unfold iblk1
  rw [View.read_apply]
  show V c (Pipeline.arrRef spec1 1) _ = V c (Pipeline.arrRef spec1 1) _
  congr 1
  funext a; apply Fin.ext
  match a with
  | ⟨0, _⟩ => show win1_1.index t (0 : Fin 2) * 1 + 1 * (j 0).val = (j 0).val; rw [e0]; omega
  | ⟨1, _⟩ => show win1_1.index t (1 : Fin 2) * 512 + 1 * (j 1).val = (j 1).val; rw [e1]; omega

/-- Window 2's block is its whole array at every point. -/
theorem iblk1_2_eq (c : Dev nD) (t : Fin cfg1.N) :
    (iblk1 V c 2 t : Vec F S1x512 .f32) = (V c (Pipeline.arrRef spec1 2) : Vec F S1x512 .f32) := by
  obtain ⟨-, -, -, -, -, -, e0, e1, -⟩ := idx1_facts t
  funext j
  unfold iblk1
  rw [View.read_apply]
  show V c (Pipeline.arrRef spec1 2) _ = V c (Pipeline.arrRef spec1 2) _
  congr 1
  funext a; apply Fin.ext
  match a with
  | ⟨0, _⟩ => show win1_2.index t (0 : Fin 2) * 1 + 1 * (j 0).val = (j 0).val; rw [e0]; omega
  | ⟨1, _⟩ => show win1_2.index t (1 : Fin 2) * 512 + 1 * (j 1).val = (j 1).val; rw [e1]; omega

/-- Window 3's block is its whole array at every point. -/
theorem iblk1_3_eq (c : Dev nD) (t : Fin cfg1.N) :
    (iblk1 V c 3 t : Vec F S1x512 .f32) = (V c (Pipeline.arrRef spec1 3) : Vec F S1x512 .f32) := by
  obtain ⟨-, -, -, -, -, -, -, -, e0, e1, -⟩ := idx1_facts t
  funext j
  unfold iblk1
  rw [View.read_apply]
  show V c (Pipeline.arrRef spec1 3) _ = V c (Pipeline.arrRef spec1 3) _
  congr 1
  funext a; apply Fin.ext
  match a with
  | ⟨0, _⟩ => show win1_3.index t (0 : Fin 2) * 1 + 1 * (j 0).val = (j 0).val; rw [e0]; omega
  | ⟨1, _⟩ => show win1_3.index t (1 : Fin 2) * 512 + 1 * (j 1).val = (j 1).val; rw [e1]; omega

/-- Window 4's block is its whole array at every point. -/
theorem iblk1_4_eq (c : Dev nD) (t : Fin cfg1.N) :
    (iblk1 V c 4 t : Vec F S1x512 .f32) = (V c (Pipeline.arrRef spec1 4) : Vec F S1x512 .f32) := by
  obtain ⟨-, -, -, -, -, -, -, -, -, -, e0, e1, -⟩ := idx1_facts t
  funext j
  unfold iblk1
  rw [View.read_apply]
  show V c (Pipeline.arrRef spec1 4) _ = V c (Pipeline.arrRef spec1 4) _
  congr 1
  funext a; apply Fin.ext
  match a with
  | ⟨0, _⟩ => show win1_4.index t (0 : Fin 2) * 1 + 1 * (j 0).val = (j 0).val; rw [e0]; omega
  | ⟨1, _⟩ => show win1_4.index t (1 : Fin 2) * 512 + 1 * (j 1).val = (j 1).val; rw [e1]; omega

/-- Window 5's block is its whole array at every point. -/
theorem iblk1_5_eq (c : Dev nD) (t : Fin cfg1.N) :
    (iblk1 V c 5 t : Vec F S512x256 .f32) = (V c (Pipeline.arrRef spec1 5) : Vec F S512x256 .f32) := by
  obtain ⟨-, -, -, -, -, -, -, -, -, -, -, -, e0, e1, -⟩ := idx1_facts t
  funext j
  unfold iblk1
  rw [View.read_apply]
  show V c (Pipeline.arrRef spec1 5) _ = V c (Pipeline.arrRef spec1 5) _
  congr 1
  funext a; apply Fin.ext
  match a with
  | ⟨0, _⟩ => show win1_5.index t (0 : Fin 2) * 512 + 1 * (j 0).val = (j 0).val; rw [e0]; omega
  | ⟨1, _⟩ => show win1_5.index t (1 : Fin 2) * 256 + 1 * (j 1).val = (j 1).val; rw [e1]; omega

/-- Window 6's block is its whole array at every point. -/
theorem iblk1_6_eq (c : Dev nD) (t : Fin cfg1.N) :
    (iblk1 V c 6 t : Vec F S1x256 .f32) = (V c (Pipeline.arrRef spec1 6) : Vec F S1x256 .f32) := by
  obtain ⟨-, -, -, -, -, -, -, -, -, -, -, -, -, -, e0, e1⟩ := idx1_facts t
  funext j
  unfold iblk1
  rw [View.read_apply]
  show V c (Pipeline.arrRef spec1 6) _ = V c (Pipeline.arrRef spec1 6) _
  congr 1
  funext a; apply Fin.ext
  match a with
  | ⟨0, _⟩ => show win1_6.index t (0 : Fin 2) * 1 + 1 * (j 0).val = (j 0).val; rw [e0]; omega
  | ⟨1, _⟩ => show win1_6.index t (1 : Fin 2) * 256 + 1 * (j 1).val = (j 1).val; rw [e1]; omega

/-! ## The same, tile by tile over whole arrays -/

/-- The moving window's block at point `t` is tile `t` of its array. -/
theorem iblk1_0_blk (c : Dev nD) (t : Fin 10) :
    (iblk1 V c 0 t : Vec F S2000x512 .f32) = rowBlk (V c (Pipeline.arrRef spec1 0) : Vec F S20000x512 .f32) t := by
  funext j
  obtain ⟨r, q, rfl⟩ : ∃ r q, j = ix2 r q := ⟨j 0, j 1, eq_ix2 j⟩
  exact iblk1_0_apply V c t r q (tileRowK t r).isLt

/-- `arr1_7` with the row named as row `r` of tile `t`. -/
theorem arr1_7_tile (c : Dev nD) (t : Fin 10) (r : Fin 2000) (q : Fin 256) :
    ((dat1 V c).arrAt 7 cfg1.N : Vec F S20000x256 .f32) (ix2 (tileRowK t r) q) = out1_7 (iblk1 V c 0 t) (iblk1 V c 1 t) (iblk1 V c 2 t) (iblk1 V c 3 t) (iblk1 V c 4 t) (iblk1 V c 5 t) (iblk1 V c 6 t) (ix2 r q) :=
  arr1_7 V c t r q (tileRowK t r).isLt

set_option maxHeartbeats 1000000 in
/-- Tile `t` of the output array is what the body computes from tile `t` of the moving input and the six whole arrays. -/
theorem arr1_7_blk (c : Dev nD) (t : Fin 10) :
    rowBlk ((dat1 V c).arrAt 7 cfg1.N : Vec F S20000x256 .f32) t
      = out1_7 (rowBlk (V c (Pipeline.arrRef spec1 0) : Vec F S20000x512 .f32) t) (V c (Pipeline.arrRef spec1 1) : Vec F S1x512 .f32) (V c (Pipeline.arrRef spec1 2) : Vec F S1x512 .f32) (V c (Pipeline.arrRef spec1 3) : Vec F S1x512 .f32) (V c (Pipeline.arrRef spec1 4) : Vec F S1x512 .f32) (V c (Pipeline.arrRef spec1 5) : Vec F S512x256 .f32) (V c (Pipeline.arrRef spec1 6) : Vec F S1x256 .f32) := by
  funext j
  obtain ⟨r, q, rfl⟩ : ∃ r q, j = ix2 r q := ⟨j 0, j 1, eq_ix2 j⟩
  rw [rowBlk_apply, arr1_7_tile V c t r q, iblk1_0_blk V c t, iblk1_1_eq V c t, iblk1_2_eq V c t, iblk1_3_eq V c t, iblk1_4_eq V c t, iblk1_5_eq V c t, iblk1_6_eq V c t]

end Cert.KernelIdeal.Hand

end
-- ==== Proof.KIArr2.lean ====
/-
  The first kernel of a layer, from blocks to arrays: an input window's array is never written back, so it ends as the region
  found it; the block output's ten row blocks tile its array and no two grid points write the same block, so the entry at row
  `2000 t + r` ends at what point `t` left in its staging buffer at row `r`; each of the two rows of column sums is written
  back once, after the last point, whole, so it ends at the running sum over all ten points; and each input block, index by
  index, is the array read at the block's offset.
-/
import proofs.«138093_j17583596110490_1_alg».proof.Proof.KIHalf2
import Idealize.ShloMosaic.Lib.Pipeline.Value
import Idealize.ShloMosaic.Lib.ValueIdx
import proofs.«138093_j17583596110490_1_alg».proof.Proof.KIArrCommon

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The index maps over the ten grid points -/

/-- The moving input window and the block output are at row block `t`, column block 0, at grid point `t`; every other
    window stays at block (0, 0). -/
theorem idx2_facts : ∀ t : Fin cfg2.N,
    win2_0.index t (0 : Fin 2) = t.val ∧ win2_0.index t (1 : Fin 2) = 0
    ∧ win2_3.index t (0 : Fin 2) = t.val ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Distinct grid points write distinct blocks of the block output. -/
theorem idx2_3_inj : ∀ t t' : Fin cfg2.N, win2_3.index t = win2_3.index t' → t = t' :=
  (by decide +kernel : ∀ t t' : Fin grid2.N, win2_3.index t = win2_3.index t' → t = t')

theorem disjoint2_3 : ∀ t t' : Fin cfg2.N, (cfg2.win 3).flush t = true → (cfg2.win 3).flush t' = true → t ≠ t' →
    Disjoint ((cfg2.win 3).blk t).view.set ((cfg2.win 3).blk t').view.set :=
  fun t t' _ _ hne => (cfg2.win 3).disjoint_blk fun h => hne (idx2_3_inj t t' h)

/-- The last grid point. -/
abbrev last2 : Fin cfg2.N := t2_9

theorem last2_lt : 9 < cfg2.N := last2.isLt

/-- Only the last point writes a row of column sums back. -/
theorem flush2_4_iff (t : Fin cfg2.N) : (cfg2.win 4).flush t = true ↔ t = last2 := by
  have hN : cfg2.N = 10 := N_2
  rw [flush2_4 t]
  constructor
  · intro h; apply Fin.ext; show t.val = 9; have := t.isLt; omega
  · rintro rfl; rfl
theorem flush2_5_iff (t : Fin cfg2.N) : (cfg2.win 5).flush t = true ↔ t = last2 := by
  have hN : cfg2.N = 10 := N_2
  rw [flush2_5 t]
  constructor
  · intro h; apply Fin.ext; show t.val = 9; have := t.isLt; omega
  · rintro rfl; rfl

theorem disjoint2_4 : ∀ t t' : Fin cfg2.N, (cfg2.win 4).flush t = true → (cfg2.win 4).flush t' = true → t ≠ t' →
    Disjoint ((cfg2.win 4).blk t).view.set ((cfg2.win 4).blk t').view.set :=
  fun t t' h h' hne => absurd (((flush2_4_iff t).mp h).trans ((flush2_4_iff t').mp h').symm) hne
theorem disjoint2_5 : ∀ t t' : Fin cfg2.N, (cfg2.win 5).flush t = true → (cfg2.win 5).flush t' = true → t ≠ t' →
    Disjoint ((cfg2.win 5).blk t).view.set ((cfg2.win 5).blk t').view.set :=
  fun t t' h h' hne => absurd (((flush2_5_iff t).mp h).trans ((flush2_5_iff t').mp h').symm) hne

/-! ## The input arrays after the region -/

theorem arr2_0 (c : Dev nD) : (dat2 V c).arrAt 0 cfg2.N = V c (Pipeline.arrRef spec2 0) :=
  ((dat2 V c).arrAt_in 0 rfl _).trans (A_eq2 V c 0)

theorem arr2_1 (c : Dev nD) : (dat2 V c).arrAt 1 cfg2.N = V c (Pipeline.arrRef spec2 1) :=
  ((dat2 V c).arrAt_in 1 rfl _).trans (A_eq2 V c 1)

theorem arr2_2 (c : Dev nD) : (dat2 V c).arrAt 2 cfg2.N = V c (Pipeline.arrRef spec2 2) :=
  ((dat2 V c).arrAt_in 2 rfl _).trans (A_eq2 V c 2)

/-! ## The output arrays after the region -/

/-- Row `2000 t + r` of the block output ends at row `r` of what grid point `t` computed from its three input blocks. -/
theorem arr2_3 (c : Dev nD) (t : Fin cfg2.N) (r : Fin 2000) (q : Fin 512) (h : 2000 * t.val + r.val < 20000) :
    ((dat2 V c).arrAt 3 cfg2.N : Vec F S20000x512 .f32) (ix2 ⟨2000 * t.val + r.val, h⟩ q)
      = k2_pay3 (iblk2 V c 0 t) (iblk2 V c 1 t) (iblk2 V c 2 t) (ix2 r q) := by
  obtain ⟨-, -, e0, e1, -⟩ := idx2_facts t
  have e := (dat2 V c).arrAt_emb_eq_flushed 3 disjoint2_3 t (flush2_3 t) (ix2 r q)
  have hemb : ((cfg2.win 3).blk t).view.emb (ix2 r q) = (ix2 ⟨2000 * t.val + r.val, h⟩ q : S20000x512.Idx) := by
    funext a; apply Fin.ext
    match a with
    | ⟨0, _⟩ => show win2_3.index t (0 : Fin 2) * 2000 + 1 * r.val = 2000 * t.val + r.val; rw [e0]; omega
    | ⟨1, _⟩ => show win2_3.index t (1 : Fin 2) * 512 + 1 * q.val = q.val; rw [e1]; omega
  rw [hemb] at e
  refine e.trans ?_
  rw [cast_eq]
  show (cfg2.win 3).cut (grid2.coords t) ((dat2 V c).after 3 t) (ix2 r q) = _
  rw [after2_3]
  rfl

/-- The row of column sums (window 4) ends at the running sum after the last point. -/
theorem arr2_4 (c : Dev nD) :
    ((dat2 V c).arrAt 4 cfg2.N : Vec F S1x512 .f32) = (acc2 V c 9 last2_lt).1 := by
  obtain ⟨-, -, -, -, -, -, -, -, e0, e1, -⟩ := idx2_facts last2
  funext j
  have e := (dat2 V c).arrAt_emb_eq_flushed 4 disjoint2_4 last2 ((flush2_4_iff last2).mpr rfl) j
  have hemb : ((cfg2.win 4).blk last2).view.emb j = (j : S1x512.Idx) := by
    funext a; apply Fin.ext
    match a with
    | ⟨0, _⟩ => show win2_4.index last2 (0 : Fin 2) * 1 + 1 * (j 0).val = (j 0).val; rw [e0]; omega
    | ⟨1, _⟩ => show win2_4.index last2 (1 : Fin 2) * 512 + 1 * (j 1).val = (j 1).val; rw [e1]; omega
  rw [hemb] at e
  refine e.trans ?_
  rw [cast_eq]
  show (cfg2.win 4).cut (grid2.coords last2) ((dat2 V c).after 4 last2) j = _
  rw [after2_4]
  rfl

/-- The row of column sums (window 5) ends at the running sum after the last point. -/
theorem arr2_5 (c : Dev nD) :
    ((dat2 V c).arrAt 5 cfg2.N : Vec F S1x512 .f32) = (acc2 V c 9 last2_lt).2 := by
  obtain ⟨-, -, -, -, -, -, -, -, -, -, e0, e1⟩ := idx2_facts last2
  funext j
  have e := (dat2 V c).arrAt_emb_eq_flushed 5 disjoint2_5 last2 ((flush2_5_iff last2).mpr rfl) j
  have hemb : ((cfg2.win 5).blk last2).view.emb j = (j : S1x512.Idx) := by
    funext a; apply Fin.ext
    match a with
    | ⟨0, _⟩ => show win2_5.index last2 (0 : Fin 2) * 1 + 1 * (j 0).val = (j 0).val; rw [e0]; omega
    | ⟨1, _⟩ => show win2_5.index last2 (1 : Fin 2) * 512 + 1 * (j 1).val = (j 1).val; rw [e1]; omega
  rw [hemb] at e
  refine e.trans ?_
  rw [cast_eq]
  show (cfg2.win 5).cut (grid2.coords last2) ((dat2 V c).after 5 last2) j = _
  rw [after2_5]
  rfl

/-! ## The input blocks, index by index -/

/-- The moving window's block at point `t` is rows `2000 t … 2000 t + 1999` of its array. -/
theorem iblk2_0_apply (c : Dev nD) (t : Fin cfg2.N) (r : Fin 2000) (q : Fin 256) (h : 2000 * t.val + r.val < 20000) :
    (iblk2 V c 0 t : Vec F S2000x256 .f32) (ix2 r q)
      = (V c (Pipeline.arrRef spec2 0) : Vec F S20000x256 .f32) (ix2 ⟨2000 * t.val + r.val, h⟩ q) := by
  obtain ⟨e0, e1, -⟩ := idx2_facts t
  unfold iblk2
  rw [View.read_apply]
  show V c (Pipeline.arrRef spec2 0) _ = V c (Pipeline.arrRef spec2 0) _
  congr 1
  funext a; apply Fin.ext
  match a with
  | ⟨0, _⟩ => show win2_0.index t (0 : Fin 2) * 2000 + 1 * r.val = 2000 * t.val + r.val; rw [e0]; omega
  | ⟨1, _⟩ => show win2_0.index t (1 : Fin 2) * 256 + 1 * q.val = q.val; rw [e1]; omega

/-- Window 1's block is its whole array at every point. -/
theorem iblk2_1_eq (c : Dev nD) (t : Fin cfg2.N) :
    (iblk2 V c 1 t : Vec F S256x512 .f32) = (V c (Pipeline.arrRef spec2 1) : Vec F S256x512 .f32) := by
  obtain ⟨-, -, -, -, e0, e1, -⟩ := idx2_facts t
  funext j
  unfold iblk2
  rw [View.read_apply]
  show V c (Pipeline.arrRef spec2 1) _ = V c (Pipeline.arrRef spec2 1) _
  congr 1
  funext a; apply Fin.ext
  match a with
  | ⟨0, _⟩ => show win2_1.index t (0 : Fin 2) * 256 + 1 * (j 0).val = (j 0).val; rw [e0]; omega
  | ⟨1, _⟩ => show win2_1.index t (1 : Fin 2) * 512 + 1 * (j 1).val = (j 1).val; rw [e1]; omega

/-- Window 2's block is its whole array at every point. -/
theorem iblk2_2_eq (c : Dev nD) (t : Fin cfg2.N) :
    (iblk2 V c 2 t : Vec F S1x512 .f32) = (V c (Pipeline.arrRef spec2 2) : Vec F S1x512 .f32) := by
  obtain ⟨-, -, -, -, -, -, e0, e1, -⟩ := idx2_facts t
  funext j
  unfold iblk2
  rw [View.read_apply]
  show V c (Pipeline.arrRef spec2 2) _ = V c (Pipeline.arrRef spec2 2) _
  congr 1
  funext a; apply Fin.ext
  match a with
  | ⟨0, _⟩ => show win2_2.index t (0 : Fin 2) * 1 + 1 * (j 0).val = (j 0).val; rw [e0]; omega
  | ⟨1, _⟩ => show win2_2.index t (1 : Fin 2) * 512 + 1 * (j 1).val = (j 1).val; rw [e1]; omega

/-! ## The same, tile by tile over whole arrays -/

/-- The moving window's block at point `t` is tile `t` of its array. -/
theorem iblk2_0_blk (c : Dev nD) (t : Fin 10) :
    (iblk2 V c 0 t : Vec F S2000x256 .f32) = rowBlk (V c (Pipeline.arrRef spec2 0) : Vec F S20000x256 .f32) t := by
  funext j
  obtain ⟨r, q, rfl⟩ : ∃ r q, j = ix2 r q := ⟨j 0, j 1, eq_ix2 j⟩
  exact iblk2_0_apply V c t r q (tileRowK t r).isLt

/-- `arr2_3` with the row named as row `r` of tile `t`. -/
theorem arr2_3_tile (c : Dev nD) (t : Fin 10) (r : Fin 2000) (q : Fin 512) :
    ((dat2 V c).arrAt 3 cfg2.N : Vec F S20000x512 .f32) (ix2 (tileRowK t r) q) = k2_pay3 (iblk2 V c 0 t) (iblk2 V c 1 t) (iblk2 V c 2 t) (ix2 r q) :=
  arr2_3 V c t r q (tileRowK t r).isLt

set_option maxHeartbeats 1000000 in
/-- Tile `t` of the block output is what the body computes from tile `t` of the moving input, the weights and the bias row. -/
theorem arr2_3_blk (c : Dev nD) (t : Fin 10) :
    rowBlk ((dat2 V c).arrAt 3 cfg2.N : Vec F S20000x512 .f32) t = k2_pay3 (rowBlk (V c (Pipeline.arrRef spec2 0) : Vec F S20000x256 .f32) t) (V c (Pipeline.arrRef spec2 1) : Vec F S256x512 .f32) (V c (Pipeline.arrRef spec2 2) : Vec F S1x512 .f32) := by
  funext j
  obtain ⟨r, q, rfl⟩ : ∃ r q, j = ix2 r q := ⟨j 0, j 1, eq_ix2 j⟩
  rw [rowBlk_apply, arr2_3_tile V c t r q, iblk2_0_blk V c t, iblk2_1_eq V c t, iblk2_2_eq V c t]

set_option maxHeartbeats 1000000 in
/-- The running column sums after the first tile, over whole arrays. -/
theorem acc2_zero_arr (c : Dev nD) (h0 : 0 < 10) :
    (acc2 V c 0 h0).1 = k2_pay4 (rowBlk (V c (Pipeline.arrRef spec2 0) : Vec F S20000x256 .f32) 0) (V c (Pipeline.arrRef spec2 1) : Vec F S256x512 .f32) (V c (Pipeline.arrRef spec2 2) : Vec F S1x512 .f32) k2_pay1
    ∧ (acc2 V c 0 h0).2 = k2_pay5 (rowBlk (V c (Pipeline.arrRef spec2 0) : Vec F S20000x256 .f32) 0) (V c (Pipeline.arrRef spec2 1) : Vec F S256x512 .f32) (V c (Pipeline.arrRef spec2 2) : Vec F S1x512 .f32) k2_pay2 := by
  have e1 := acc2_zero_1 V c (⟨0, h0⟩ : Fin cfg2.N) rfl
  have e2 := acc2_zero_2 V c (⟨0, h0⟩ : Fin cfg2.N) rfl
  rw [iblk2_0_blk V c (⟨0, h0⟩ : Fin cfg2.N), iblk2_1_eq V c (⟨0, h0⟩ : Fin cfg2.N), iblk2_2_eq V c (⟨0, h0⟩ : Fin cfg2.N)] at e1 e2
  exact ⟨e1, e2⟩

set_option maxHeartbeats 1000000 in
/-- The running column sums after tile `n + 1`: the body's update of the sums after tile `n`, over whole arrays. -/
theorem acc2_succ_arr (c : Dev nD) (n : ℕ) (hn : n + 1 < 10) :
    (acc2 V c (n + 1) hn).1 = k2_pay4 (rowBlk (V c (Pipeline.arrRef spec2 0) : Vec F S20000x256 .f32) ⟨n + 1, hn⟩) (V c (Pipeline.arrRef spec2 1) : Vec F S256x512 .f32) (V c (Pipeline.arrRef spec2 2) : Vec F S1x512 .f32) (acc2 V c n (Nat.lt_of_succ_lt hn)).1
    ∧ (acc2 V c (n + 1) hn).2 = k2_pay5 (rowBlk (V c (Pipeline.arrRef spec2 0) : Vec F S20000x256 .f32) ⟨n + 1, hn⟩) (V c (Pipeline.arrRef spec2 1) : Vec F S256x512 .f32) (V c (Pipeline.arrRef spec2 2) : Vec F S1x512 .f32) (acc2 V c n (Nat.lt_of_succ_lt hn)).2 := by
  have e1 := acc2_pos_1 V c (⟨n + 1, hn⟩ : Fin cfg2.N) (Nat.succ_ne_zero n)
  have e2 := acc2_pos_2 V c (⟨n + 1, hn⟩ : Fin cfg2.N) (Nat.succ_ne_zero n)
  rw [iblk2_0_blk V c (⟨n + 1, hn⟩ : Fin cfg2.N), iblk2_1_eq V c (⟨n + 1, hn⟩ : Fin cfg2.N), iblk2_2_eq V c (⟨n + 1, hn⟩ : Fin cfg2.N)] at e1 e2
  exact ⟨e1, e2⟩

end Cert.KernelIdeal.Hand

end
-- ==== Proof.KIArr3.lean ====
/-
  The second kernel of a layer, from blocks to arrays: an input window's array is never written back, so it ends as the region
  found it; the output window's ten row blocks tile its array and no two grid points write the same block, so the entry at row
  `2000 t + r` ends at what point `t` left in its staging buffer at row `r`; and each input block, index by index, is the
  array read at the block's offset (rows `2000 t …` for the moving window, the whole array for the others).
-/
import proofs.«138093_j17583596110490_1_alg».proof.Proof.KIHalf3
import Idealize.ShloMosaic.Lib.Pipeline.Value
import Idealize.ShloMosaic.Lib.ValueIdx
import proofs.«138093_j17583596110490_1_alg».proof.Proof.KIArrCommon

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The index maps over the ten grid points -/

/-- The moving input window and the output window are at row block `t`, column block 0, at grid point `t`; every other
    window stays at block (0, 0). -/
theorem idx3_facts : ∀ t : Fin cfg3.N,
    win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Distinct grid points write distinct blocks of the output. -/
theorem idx3_7_inj : ∀ t t' : Fin cfg3.N, win3_7.index t = win3_7.index t' → t = t' :=
  (by decide +kernel : ∀ t t' : Fin grid3.N, win3_7.index t = win3_7.index t' → t = t')

theorem disjoint3_7 : ∀ t t' : Fin cfg3.N, (cfg3.win 7).flush t = true → (cfg3.win 7).flush t' = true → t ≠ t' →
    Disjoint ((cfg3.win 7).blk t).view.set ((cfg3.win 7).blk t').view.set :=
  fun t t' _ _ hne => (cfg3.win 7).disjoint_blk fun h => hne (idx3_7_inj t t' h)

/-! ## The input arrays after the region -/

theorem arr3_0 (c : Dev nD) : (dat3 V c).arrAt 0 cfg3.N = V c (Pipeline.arrRef spec3 0) :=
  ((dat3 V c).arrAt_in 0 rfl _).trans (A_eq3 V c 0)

theorem arr3_1 (c : Dev nD) : (dat3 V c).arrAt 1 cfg3.N = V c (Pipeline.arrRef spec3 1) :=
  ((dat3 V c).arrAt_in 1 rfl _).trans (A_eq3 V c 1)

theorem arr3_2 (c : Dev nD) : (dat3 V c).arrAt 2 cfg3.N = V c (Pipeline.arrRef spec3 2) :=
  ((dat3 V c).arrAt_in 2 rfl _).trans (A_eq3 V c 2)

theorem arr3_3 (c : Dev nD) : (dat3 V c).arrAt 3 cfg3.N = V c (Pipeline.arrRef spec3 3) :=
  ((dat3 V c).arrAt_in 3 rfl _).trans (A_eq3 V c 3)

theorem arr3_4 (c : Dev nD) : (dat3 V c).arrAt 4 cfg3.N = V c (Pipeline.arrRef spec3 4) :=
  ((dat3 V c).arrAt_in 4 rfl _).trans (A_eq3 V c 4)

theorem arr3_5 (c : Dev nD) : (dat3 V c).arrAt 5 cfg3.N = V c (Pipeline.arrRef spec3 5) :=
  ((dat3 V c).arrAt_in 5 rfl _).trans (A_eq3 V c 5)

theorem arr3_6 (c : Dev nD) : (dat3 V c).arrAt 6 cfg3.N = V c (Pipeline.arrRef spec3 6) :=
  ((dat3 V c).arrAt_in 6 rfl _).trans (A_eq3 V c 6)

/-! ## The output array after the region -/

/-- Row `2000 t + r` of the output array ends at row `r` of what grid point `t` computed from its seven input blocks. -/
theorem arr3_7 (c : Dev nD) (t : Fin cfg3.N) (r : Fin 2000) (q : Fin 256) (h : 2000 * t.val + r.val < 20000) :
    ((dat3 V c).arrAt 7 cfg3.N : Vec F S20000x256 .f32) (ix2 ⟨2000 * t.val + r.val, h⟩ q)
      = out3_7 (iblk3 V c 0 t) (iblk3 V c 1 t) (iblk3 V c 2 t) (iblk3 V c 3 t) (iblk3 V c 4 t) (iblk3 V c 5 t) (iblk3 V c 6 t) (ix2 r q) := by
  obtain ⟨-, -, e0, e1, -⟩ := idx3_facts t
  have e := (dat3 V c).arrAt_emb_eq_flushed 7 disjoint3_7 t (flush3_7 t) (ix2 r q)
  have hemb : ((cfg3.win 7).blk t).view.emb (ix2 r q) = (ix2 ⟨2000 * t.val + r.val, h⟩ q : S20000x256.Idx) := by
    funext a; apply Fin.ext
    match a with
    | ⟨0, _⟩ => show win3_7.index t (0 : Fin 2) * 2000 + 1 * r.val = 2000 * t.val + r.val; rw [e0]; omega
    | ⟨1, _⟩ => show win3_7.index t (1 : Fin 2) * 256 + 1 * q.val = q.val; rw [e1]; omega
  rw [hemb] at e
  refine e.trans ?_
  rw [cast_eq]
  show (cfg3.win 7).cut (grid3.coords t) ((dat3 V c).after 7 t) (ix2 r q) = _
  rw [after3_7]
  rfl

/-! ## The input blocks, index by index -/

/-- The moving window's block at point `t` is rows `2000 t … 2000 t + 1999` of its array. -/
theorem iblk3_0_apply (c : Dev nD) (t : Fin cfg3.N) (r : Fin 2000) (q : Fin 512) (h : 2000 * t.val + r.val < 20000) :
    (iblk3 V c 0 t : Vec F S2000x512 .f32) (ix2 r q)
      = (V c (Pipeline.arrRef spec3 0) : Vec F S20000x512 .f32) (ix2 ⟨2000 * t.val + r.val, h⟩ q) := by
  obtain ⟨e0, e1, -⟩ := idx3_facts t
  unfold iblk3
  rw [View.read_apply]
  show V c (Pipeline.arrRef spec3 0) _ = V c (Pipeline.arrRef spec3 0) _
  congr 1
  funext a; apply Fin.ext
  match a with
  | ⟨0, _⟩ => show win3_0.index t (0 : Fin 2) * 2000 + 1 * r.val = 2000 * t.val + r.val; rw [e0]; omega
  | ⟨1, _⟩ => show win3_0.index t (1 : Fin 2) * 512 + 1 * q.val = q.val; rw [e1]; omega

/-- Window 1's block is its whole array at every point. -/
theorem iblk3_1_eq (c : Dev nD) (t : Fin cfg3.N) :
    (iblk3 V c 1 t : Vec F S1x512 .f32) = (V c (Pipeline.arrRef spec3 1) : Vec F S1x512 .f32) := by
  obtain ⟨-, -, -, -, e0, e1, -⟩ := idx3_facts t
  funext j
  unfold iblk3
  rw [View.read_apply]
  show V c (Pipeline.arrRef spec3 1) _ = V c (Pipeline.arrRef spec3 1) _
  congr 1
  funext a; apply Fin.ext
  match a with
  | ⟨0, _⟩ => show win3_1.index t (0 : Fin 2) * 1 + 1 * (j 0).val = (j 0).val; rw [e0]; omega
  | ⟨1, _⟩ => show win3_1.index t (1 : Fin 2) * 512 + 1 * (j 1).val = (j 1).val; rw [e1]; omega

/-- Window 2's block is its whole array at every point. -/
theorem iblk3_2_eq (c : Dev nD) (t : Fin cfg3.N) :
    (iblk3 V c 2 t : Vec F S1x512 .f32) = (V c (Pipeline.arrRef spec3 2) : Vec F S1x512 .f32) := by
  obtain ⟨-, -, -, -, -, -, e0, e1, -⟩ := idx3_facts t
  funext j
  unfold iblk3
  rw [View.read_apply]
  show V c (Pipeline.arrRef spec3 2) _ = V c (Pipeline.arrRef spec3 2) _
  congr 1
  funext a; apply Fin.ext
  match a with
  | ⟨0, _⟩ => show win3_2.index t (0 : Fin 2) * 1 + 1 * (j 0).val = (j 0).val; rw [e0]; omega
  | ⟨1, _⟩ => show win3_2.index t (1 : Fin 2) * 512 + 1 * (j 1).val = (j 1).val; rw [e1]; omega

/-- Window 3's block is its whole array at every point. -/
theorem iblk3_3_eq (c : Dev nD) (t : Fin cfg3.N) :
    (iblk3 V c 3 t : Vec F S1x512 .f32) = (V c (Pipeline.arrRef spec3 3) : Vec F S1x512 .f32) := by
  obtain ⟨-, -, -, -, -, -, -, -, e0, e1, -⟩ := idx3_facts t
  funext j
  unfold iblk3
  rw [View.read_apply]
  show V c (Pipeline.arrRef spec3 3) _ = V c (Pipeline.arrRef spec3 3) _
  congr 1
  funext a; apply Fin.ext
  match a with
  | ⟨0, _⟩ => show win3_3.index t (0 : Fin 2) * 1 + 1 * (j 0).val = (j 0).val; rw [e0]; omega
  | ⟨1, _⟩ => show win3_3.index t (1 : Fin 2) * 512 + 1 * (j 1).val = (j 1).val; rw [e1]; omega

/-- Window 4's block is its whole array at every point. -/
theorem iblk3_4_eq (c : Dev nD) (t : Fin cfg3.N) :
    (iblk3 V c 4 t : Vec F S1x512 .f32) = (V c (Pipeline.arrRef spec3 4) : Vec F S1x512 .f32) := by
  obtain ⟨-, -, -, -, -, -, -, -, -, -, e0, e1, -⟩ := idx3_facts t
  funext j
  unfold iblk3
  rw [View.read_apply]
  show V c (Pipeline.arrRef spec3 4) _ = V c (Pipeline.arrRef spec3 4) _
  congr 1
  funext a; apply Fin.ext
  match a with
  | ⟨0, _⟩ => show win3_4.index t (0 : Fin 2) * 1 + 1 * (j 0).val = (j 0).val; rw [e0]; omega
  | ⟨1, _⟩ => show win3_4.index t (1 : Fin 2) * 512 + 1 * (j 1).val = (j 1).val; rw [e1]; omega

/-- Window 5's block is its whole array at every point. -/
theorem iblk3_5_eq (c : Dev nD) (t : Fin cfg3.N) :
    (iblk3 V c 5 t : Vec F S512x256 .f32) = (V c (Pipeline.arrRef spec3 5) : Vec F S512x256 .f32) := by
  obtain ⟨-, -, -, -, -, -, -, -, -, -, -, -, e0, e1, -⟩ := idx3_facts t
  funext j
  unfold iblk3
  rw [View.read_apply]
  show V c (Pipeline.arrRef spec3 5) _ = V c (Pipeline.arrRef spec3 5) _
  congr 1
  funext a; apply Fin.ext
  match a with
  | ⟨0, _⟩ => show win3_5.index t (0 : Fin 2) * 512 + 1 * (j 0).val = (j 0).val; rw [e0]; omega
  | ⟨1, _⟩ => show win3_5.index t (1 : Fin 2) * 256 + 1 * (j 1).val = (j 1).val; rw [e1]; omega

/-- Window 6's block is its whole array at every point. -/
theorem iblk3_6_eq (c : Dev nD) (t : Fin cfg3.N) :
    (iblk3 V c 6 t : Vec F S1x256 .f32) = (V c (Pipeline.arrRef spec3 6) : Vec F S1x256 .f32) := by
  obtain ⟨-, -, -, -, -, -, -, -, -, -, -, -, -, -, e0, e1⟩ := idx3_facts t
  funext j
  unfold iblk3
  rw [View.read_apply]
  show V c (Pipeline.arrRef spec3 6) _ = V c (Pipeline.arrRef spec3 6) _
  congr 1
  funext a; apply Fin.ext
  match a with
  | ⟨0, _⟩ => show win3_6.index t (0 : Fin 2) * 1 + 1 * (j 0).val = (j 0).val; rw [e0]; omega
  | ⟨1, _⟩ => show win3_6.index t (1 : Fin 2) * 256 + 1 * (j 1).val = (j 1).val; rw [e1]; omega

/-! ## The same, tile by tile over whole arrays -/

/-- The moving window's block at point `t` is tile `t` of its array. -/
theorem iblk3_0_blk (c : Dev nD) (t : Fin 10) :
    (iblk3 V c 0 t : Vec F S2000x512 .f32) = rowBlk (V c (Pipeline.arrRef spec3 0) : Vec F S20000x512 .f32) t := by
  funext j
  obtain ⟨r, q, rfl⟩ : ∃ r q, j = ix2 r q := ⟨j 0, j 1, eq_ix2 j⟩
  exact iblk3_0_apply V c t r q (tileRowK t r).isLt

/-- `arr3_7` with the row named as row `r` of tile `t`. -/
theorem arr3_7_tile (c : Dev nD) (t : Fin 10) (r : Fin 2000) (q : Fin 256) :
    ((dat3 V c).arrAt 7 cfg3.N : Vec F S20000x256 .f32) (ix2 (tileRowK t r) q) = out3_7 (iblk3 V c 0 t) (iblk3 V c 1 t) (iblk3 V c 2 t) (iblk3 V c 3 t) (iblk3 V c 4 t) (iblk3 V c 5 t) (iblk3 V c 6 t) (ix2 r q) :=
  arr3_7 V c t r q (tileRowK t r).isLt

set_option maxHeartbeats 1000000 in
/-- Tile `t` of the output array is what the body computes from tile `t` of the moving input and the six whole arrays. -/
theorem arr3_7_blk (c : Dev nD) (t : Fin 10) :
    rowBlk ((dat3 V c).arrAt 7 cfg3.N : Vec F S20000x256 .f32) t
      = out3_7 (rowBlk (V c (Pipeline.arrRef spec3 0) : Vec F S20000x512 .f32) t) (V c (Pipeline.arrRef spec3 1) : Vec F S1x512 .f32) (V c (Pipeline.arrRef spec3 2) : Vec F S1x512 .f32) (V c (Pipeline.arrRef spec3 3) : Vec F S1x512 .f32) (V c (Pipeline.arrRef spec3 4) : Vec F S1x512 .f32) (V c (Pipeline.arrRef spec3 5) : Vec F S512x256 .f32) (V c (Pipeline.arrRef spec3 6) : Vec F S1x256 .f32) := by
  funext j
  obtain ⟨r, q, rfl⟩ : ∃ r q, j = ix2 r q := ⟨j 0, j 1, eq_ix2 j⟩
  rw [rowBlk_apply, arr3_7_tile V c t r q, iblk3_0_blk V c t, iblk3_1_eq V c t, iblk3_2_eq V c t, iblk3_3_eq V c t, iblk3_4_eq V c t, iblk3_5_eq V c t, iblk3_6_eq V c t]

end Cert.KernelIdeal.Hand

end
-- ==== Proof.KIArr4.lean ====
/-
  The first kernel of a layer, from blocks to arrays: an input window's array is never written back, so it ends as the region
  found it; the block output's ten row blocks tile its array and no two grid points write the same block, so the entry at row
  `2000 t + r` ends at what point `t` left in its staging buffer at row `r`; each of the two rows of column sums is written
  back once, after the last point, whole, so it ends at the running sum over all ten points; and each input block, index by
  index, is the array read at the block's offset.
-/
import proofs.«138093_j17583596110490_1_alg».proof.Proof.KIHalf4
import Idealize.ShloMosaic.Lib.Pipeline.Value
import Idealize.ShloMosaic.Lib.ValueIdx
import proofs.«138093_j17583596110490_1_alg».proof.Proof.KIArrCommon

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The index maps over the ten grid points -/

/-- The moving input window and the block output are at row block `t`, column block 0, at grid point `t`; every other
    window stays at block (0, 0). -/
theorem idx4_facts : ∀ t : Fin cfg4.N,
    win4_0.index t (0 : Fin 2) = t.val ∧ win4_0.index t (1 : Fin 2) = 0
    ∧ win4_3.index t (0 : Fin 2) = t.val ∧ win4_3.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Distinct grid points write distinct blocks of the block output. -/
theorem idx4_3_inj : ∀ t t' : Fin cfg4.N, win4_3.index t = win4_3.index t' → t = t' :=
  (by decide +kernel : ∀ t t' : Fin grid4.N, win4_3.index t = win4_3.index t' → t = t')

theorem disjoint4_3 : ∀ t t' : Fin cfg4.N, (cfg4.win 3).flush t = true → (cfg4.win 3).flush t' = true → t ≠ t' →
    Disjoint ((cfg4.win 3).blk t).view.set ((cfg4.win 3).blk t').view.set :=
  fun t t' _ _ hne => (cfg4.win 3).disjoint_blk fun h => hne (idx4_3_inj t t' h)

/-- The last grid point. -/
abbrev last4 : Fin cfg4.N := t4_9

theorem last4_lt : 9 < cfg4.N := last4.isLt

/-- Only the last point writes a row of column sums back. -/
theorem flush4_4_iff (t : Fin cfg4.N) : (cfg4.win 4).flush t = true ↔ t = last4 := by
  have hN : cfg4.N = 10 := N_4
  rw [flush4_4 t]
  constructor
  · intro h; apply Fin.ext; show t.val = 9; have := t.isLt; omega
  · rintro rfl; rfl
theorem flush4_5_iff (t : Fin cfg4.N) : (cfg4.win 5).flush t = true ↔ t = last4 := by
  have hN : cfg4.N = 10 := N_4
  rw [flush4_5 t]
  constructor
  · intro h; apply Fin.ext; show t.val = 9; have := t.isLt; omega
  · rintro rfl; rfl

theorem disjoint4_4 : ∀ t t' : Fin cfg4.N, (cfg4.win 4).flush t = true → (cfg4.win 4).flush t' = true → t ≠ t' →
    Disjoint ((cfg4.win 4).blk t).view.set ((cfg4.win 4).blk t').view.set :=
  fun t t' h h' hne => absurd (((flush4_4_iff t).mp h).trans ((flush4_4_iff t').mp h').symm) hne
theorem disjoint4_5 : ∀ t t' : Fin cfg4.N, (cfg4.win 5).flush t = true → (cfg4.win 5).flush t' = true → t ≠ t' →
    Disjoint ((cfg4.win 5).blk t).view.set ((cfg4.win 5).blk t').view.set :=
  fun t t' h h' hne => absurd (((flush4_5_iff t).mp h).trans ((flush4_5_iff t').mp h').symm) hne

/-! ## The input arrays after the region -/

theorem arr4_0 (c : Dev nD) : (dat4 V c).arrAt 0 cfg4.N = V c (Pipeline.arrRef spec4 0) :=
  ((dat4 V c).arrAt_in 0 rfl _).trans (A_eq4 V c 0)

theorem arr4_1 (c : Dev nD) : (dat4 V c).arrAt 1 cfg4.N = V c (Pipeline.arrRef spec4 1) :=
  ((dat4 V c).arrAt_in 1 rfl _).trans (A_eq4 V c 1)

theorem arr4_2 (c : Dev nD) : (dat4 V c).arrAt 2 cfg4.N = V c (Pipeline.arrRef spec4 2) :=
  ((dat4 V c).arrAt_in 2 rfl _).trans (A_eq4 V c 2)

/-! ## The output arrays after the region -/

/-- Row `2000 t + r` of the block output ends at row `r` of what grid point `t` computed from its three input blocks. -/
theorem arr4_3 (c : Dev nD) (t : Fin cfg4.N) (r : Fin 2000) (q : Fin 512) (h : 2000 * t.val + r.val < 20000) :
    ((dat4 V c).arrAt 3 cfg4.N : Vec F S20000x512 .f32) (ix2 ⟨2000 * t.val + r.val, h⟩ q)
      = k4_pay3 (iblk4 V c 0 t) (iblk4 V c 1 t) (iblk4 V c 2 t) (ix2 r q) := by
  obtain ⟨-, -, e0, e1, -⟩ := idx4_facts t
  have e := (dat4 V c).arrAt_emb_eq_flushed 3 disjoint4_3 t (flush4_3 t) (ix2 r q)
  have hemb : ((cfg4.win 3).blk t).view.emb (ix2 r q) = (ix2 ⟨2000 * t.val + r.val, h⟩ q : S20000x512.Idx) := by
    funext a; apply Fin.ext
    match a with
    | ⟨0, _⟩ => show win4_3.index t (0 : Fin 2) * 2000 + 1 * r.val = 2000 * t.val + r.val; rw [e0]; omega
    | ⟨1, _⟩ => show win4_3.index t (1 : Fin 2) * 512 + 1 * q.val = q.val; rw [e1]; omega
  rw [hemb] at e
  refine e.trans ?_
  rw [cast_eq]
  show (cfg4.win 3).cut (grid4.coords t) ((dat4 V c).after 3 t) (ix2 r q) = _
  rw [after4_3]
  rfl

/-- The row of column sums (window 4) ends at the running sum after the last point. -/
theorem arr4_4 (c : Dev nD) :
    ((dat4 V c).arrAt 4 cfg4.N : Vec F S1x512 .f32) = (acc4 V c 9 last4_lt).1 := by
  obtain ⟨-, -, -, -, -, -, -, -, e0, e1, -⟩ := idx4_facts last4
  funext j
  have e := (dat4 V c).arrAt_emb_eq_flushed 4 disjoint4_4 last4 ((flush4_4_iff last4).mpr rfl) j
  have hemb : ((cfg4.win 4).blk last4).view.emb j = (j : S1x512.Idx) := by
    funext a; apply Fin.ext
    match a with
    | ⟨0, _⟩ => show win4_4.index last4 (0 : Fin 2) * 1 + 1 * (j 0).val = (j 0).val; rw [e0]; omega
    | ⟨1, _⟩ => show win4_4.index last4 (1 : Fin 2) * 512 + 1 * (j 1).val = (j 1).val; rw [e1]; omega
  rw [hemb] at e
  refine e.trans ?_
  rw [cast_eq]
  show (cfg4.win 4).cut (grid4.coords last4) ((dat4 V c).after 4 last4) j = _
  rw [after4_4]
  rfl

/-- The row of column sums (window 5) ends at the running sum after the last point. -/
theorem arr4_5 (c : Dev nD) :
    ((dat4 V c).arrAt 5 cfg4.N : Vec F S1x512 .f32) = (acc4 V c 9 last4_lt).2 := by
  obtain ⟨-, -, -, -, -, -, -, -, -, -, e0, e1⟩ := idx4_facts last4
  funext j
  have e := (dat4 V c).arrAt_emb_eq_flushed 5 disjoint4_5 last4 ((flush4_5_iff last4).mpr rfl) j
  have hemb : ((cfg4.win 5).blk last4).view.emb j = (j : S1x512.Idx) := by
    funext a; apply Fin.ext
    match a with
    | ⟨0, _⟩ => show win4_5.index last4 (0 : Fin 2) * 1 + 1 * (j 0).val = (j 0).val; rw [e0]; omega
    | ⟨1, _⟩ => show win4_5.index last4 (1 : Fin 2) * 512 + 1 * (j 1).val = (j 1).val; rw [e1]; omega
  rw [hemb] at e
  refine e.trans ?_
  rw [cast_eq]
  show (cfg4.win 5).cut (grid4.coords last4) ((dat4 V c).after 5 last4) j = _
  rw [after4_5]
  rfl

/-! ## The input blocks, index by index -/

/-- The moving window's block at point `t` is rows `2000 t … 2000 t + 1999` of its array. -/
theorem iblk4_0_apply (c : Dev nD) (t : Fin cfg4.N) (r : Fin 2000) (q : Fin 256) (h : 2000 * t.val + r.val < 20000) :
    (iblk4 V c 0 t : Vec F S2000x256 .f32) (ix2 r q)
      = (V c (Pipeline.arrRef spec4 0) : Vec F S20000x256 .f32) (ix2 ⟨2000 * t.val + r.val, h⟩ q) := by
  obtain ⟨e0, e1, -⟩ := idx4_facts t
  unfold iblk4
  rw [View.read_apply]
  show V c (Pipeline.arrRef spec4 0) _ = V c (Pipeline.arrRef spec4 0) _
  congr 1
  funext a; apply Fin.ext
  match a with
  | ⟨0, _⟩ => show win4_0.index t (0 : Fin 2) * 2000 + 1 * r.val = 2000 * t.val + r.val; rw [e0]; omega
  | ⟨1, _⟩ => show win4_0.index t (1 : Fin 2) * 256 + 1 * q.val = q.val; rw [e1]; omega

/-- Window 1's block is its whole array at every point. -/
theorem iblk4_1_eq (c : Dev nD) (t : Fin cfg4.N) :
    (iblk4 V c 1 t : Vec F S256x512 .f32) = (V c (Pipeline.arrRef spec4 1) : Vec F S256x512 .f32) := by
  obtain ⟨-, -, -, -, e0, e1, -⟩ := idx4_facts t
  funext j
  unfold iblk4
  rw [View.read_apply]
  show V c (Pipeline.arrRef spec4 1) _ = V c (Pipeline.arrRef spec4 1) _
  congr 1
  funext a; apply Fin.ext
  match a with
  | ⟨0, _⟩ => show win4_1.index t (0 : Fin 2) * 256 + 1 * (j 0).val = (j 0).val; rw [e0]; omega
  | ⟨1, _⟩ => show win4_1.index t (1 : Fin 2) * 512 + 1 * (j 1).val = (j 1).val; rw [e1]; omega

/-- Window 2's block is its whole array at every point. -/
theorem iblk4_2_eq (c : Dev nD) (t : Fin cfg4.N) :
    (iblk4 V c 2 t : Vec F S1x512 .f32) = (V c (Pipeline.arrRef spec4 2) : Vec F S1x512 .f32) := by
  obtain ⟨-, -, -, -, -, -, e0, e1, -⟩ := idx4_facts t
  funext j
  unfold iblk4
  rw [View.read_apply]
  show V c (Pipeline.arrRef spec4 2) _ = V c (Pipeline.arrRef spec4 2) _
  congr 1
  funext a; apply Fin.ext
  match a with
  | ⟨0, _⟩ => show win4_2.index t (0 : Fin 2) * 1 + 1 * (j 0).val = (j 0).val; rw [e0]; omega
  | ⟨1, _⟩ => show win4_2.index t (1 : Fin 2) * 512 + 1 * (j 1).val = (j 1).val; rw [e1]; omega

/-! ## The same, tile by tile over whole arrays -/

/-- The moving window's block at point `t` is tile `t` of its array. -/
theorem iblk4_0_blk (c : Dev nD) (t : Fin 10) :
    (iblk4 V c 0 t : Vec F S2000x256 .f32) = rowBlk (V c (Pipeline.arrRef spec4 0) : Vec F S20000x256 .f32) t := by
  funext j
  obtain ⟨r, q, rfl⟩ : ∃ r q, j = ix2 r q := ⟨j 0, j 1, eq_ix2 j⟩
  exact iblk4_0_apply V c t r q (tileRowK t r).isLt

/-- `arr4_3` with the row named as row `r` of tile `t`. -/
theorem arr4_3_tile (c : Dev nD) (t : Fin 10) (r : Fin 2000) (q : Fin 512) :
    ((dat4 V c).arrAt 3 cfg4.N : Vec F S20000x512 .f32) (ix2 (tileRowK t r) q) = k4_pay3 (iblk4 V c 0 t) (iblk4 V c 1 t) (iblk4 V c 2 t) (ix2 r q) :=
  arr4_3 V c t r q (tileRowK t r).isLt

set_option maxHeartbeats 1000000 in
/-- Tile `t` of the block output is what the body computes from tile `t` of the moving input, the weights and the bias row. -/
theorem arr4_3_blk (c : Dev nD) (t : Fin 10) :
    rowBlk ((dat4 V c).arrAt 3 cfg4.N : Vec F S20000x512 .f32) t = k4_pay3 (rowBlk (V c (Pipeline.arrRef spec4 0) : Vec F S20000x256 .f32) t) (V c (Pipeline.arrRef spec4 1) : Vec F S256x512 .f32) (V c (Pipeline.arrRef spec4 2) : Vec F S1x512 .f32) := by
  funext j
  obtain ⟨r, q, rfl⟩ : ∃ r q, j = ix2 r q := ⟨j 0, j 1, eq_ix2 j⟩
  rw [rowBlk_apply, arr4_3_tile V c t r q, iblk4_0_blk V c t, iblk4_1_eq V c t, iblk4_2_eq V c t]

set_option maxHeartbeats 1000000 in
/-- The running column sums after the first tile, over whole arrays. -/
theorem acc4_zero_arr (c : Dev nD) (h0 : 0 < 10) :
    (acc4 V c 0 h0).1 = k4_pay4 (rowBlk (V c (Pipeline.arrRef spec4 0) : Vec F S20000x256 .f32) 0) (V c (Pipeline.arrRef spec4 1) : Vec F S256x512 .f32) (V c (Pipeline.arrRef spec4 2) : Vec F S1x512 .f32) k4_pay1
    ∧ (acc4 V c 0 h0).2 = k4_pay5 (rowBlk (V c (Pipeline.arrRef spec4 0) : Vec F S20000x256 .f32) 0) (V c (Pipeline.arrRef spec4 1) : Vec F S256x512 .f32) (V c (Pipeline.arrRef spec4 2) : Vec F S1x512 .f32) k4_pay2 := by
  have e1 := acc4_zero_1 V c (⟨0, h0⟩ : Fin cfg4.N) rfl
  have e2 := acc4_zero_2 V c (⟨0, h0⟩ : Fin cfg4.N) rfl
  rw [iblk4_0_blk V c (⟨0, h0⟩ : Fin cfg4.N), iblk4_1_eq V c (⟨0, h0⟩ : Fin cfg4.N), iblk4_2_eq V c (⟨0, h0⟩ : Fin cfg4.N)] at e1 e2
  exact ⟨e1, e2⟩

set_option maxHeartbeats 1000000 in
/-- The running column sums after tile `n + 1`: the body's update of the sums after tile `n`, over whole arrays. -/
theorem acc4_succ_arr (c : Dev nD) (n : ℕ) (hn : n + 1 < 10) :
    (acc4 V c (n + 1) hn).1 = k4_pay4 (rowBlk (V c (Pipeline.arrRef spec4 0) : Vec F S20000x256 .f32) ⟨n + 1, hn⟩) (V c (Pipeline.arrRef spec4 1) : Vec F S256x512 .f32) (V c (Pipeline.arrRef spec4 2) : Vec F S1x512 .f32) (acc4 V c n (Nat.lt_of_succ_lt hn)).1
    ∧ (acc4 V c (n + 1) hn).2 = k4_pay5 (rowBlk (V c (Pipeline.arrRef spec4 0) : Vec F S20000x256 .f32) ⟨n + 1, hn⟩) (V c (Pipeline.arrRef spec4 1) : Vec F S256x512 .f32) (V c (Pipeline.arrRef spec4 2) : Vec F S1x512 .f32) (acc4 V c n (Nat.lt_of_succ_lt hn)).2 := by
  have e1 := acc4_pos_1 V c (⟨n + 1, hn⟩ : Fin cfg4.N) (Nat.succ_ne_zero n)
  have e2 := acc4_pos_2 V c (⟨n + 1, hn⟩ : Fin cfg4.N) (Nat.succ_ne_zero n)
  rw [iblk4_0_blk V c (⟨n + 1, hn⟩ : Fin cfg4.N), iblk4_1_eq V c (⟨n + 1, hn⟩ : Fin cfg4.N), iblk4_2_eq V c (⟨n + 1, hn⟩ : Fin cfg4.N)] at e1 e2
  exact ⟨e1, e2⟩

end Cert.KernelIdeal.Hand

end
-- ==== Proof.KIArr5.lean ====
/-
  The second kernel of a layer, from blocks to arrays: an input window's array is never written back, so it ends as the region
  found it; the output window's ten row blocks tile its array and no two grid points write the same block, so the entry at row
  `2000 t + r` ends at what point `t` left in its staging buffer at row `r`; and each input block, index by index, is the
  array read at the block's offset (rows `2000 t …` for the moving window, the whole array for the others).
-/
import proofs.«138093_j17583596110490_1_alg».proof.Proof.KIHalf5
import Idealize.ShloMosaic.Lib.Pipeline.Value
import Idealize.ShloMosaic.Lib.ValueIdx
import proofs.«138093_j17583596110490_1_alg».proof.Proof.KIArrCommon

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The index maps over the ten grid points -/

/-- The moving input window and the output window are at row block `t`, column block 0, at grid point `t`; every other
    window stays at block (0, 0). -/
theorem idx5_facts : ∀ t : Fin cfg5.N,
    win5_0.index t (0 : Fin 2) = t.val ∧ win5_0.index t (1 : Fin 2) = 0
    ∧ win5_7.index t (0 : Fin 2) = t.val ∧ win5_7.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

/-- Distinct grid points write distinct blocks of the output. -/
theorem idx5_7_inj : ∀ t t' : Fin cfg5.N, win5_7.index t = win5_7.index t' → t = t' :=
  (by decide +kernel : ∀ t t' : Fin grid5.N, win5_7.index t = win5_7.index t' → t = t')

theorem disjoint5_7 : ∀ t t' : Fin cfg5.N, (cfg5.win 7).flush t = true → (cfg5.win 7).flush t' = true → t ≠ t' →
    Disjoint ((cfg5.win 7).blk t).view.set ((cfg5.win 7).blk t').view.set :=
  fun t t' _ _ hne => (cfg5.win 7).disjoint_blk fun h => hne (idx5_7_inj t t' h)

/-! ## The input arrays after the region -/

theorem arr5_0 (c : Dev nD) : (dat5 V c).arrAt 0 cfg5.N = V c (Pipeline.arrRef spec5 0) :=
  ((dat5 V c).arrAt_in 0 rfl _).trans (A_eq5 V c 0)

theorem arr5_1 (c : Dev nD) : (dat5 V c).arrAt 1 cfg5.N = V c (Pipeline.arrRef spec5 1) :=
  ((dat5 V c).arrAt_in 1 rfl _).trans (A_eq5 V c 1)

theorem arr5_2 (c : Dev nD) : (dat5 V c).arrAt 2 cfg5.N = V c (Pipeline.arrRef spec5 2) :=
  ((dat5 V c).arrAt_in 2 rfl _).trans (A_eq5 V c 2)

theorem arr5_3 (c : Dev nD) : (dat5 V c).arrAt 3 cfg5.N = V c (Pipeline.arrRef spec5 3) :=
  ((dat5 V c).arrAt_in 3 rfl _).trans (A_eq5 V c 3)

theorem arr5_4 (c : Dev nD) : (dat5 V c).arrAt 4 cfg5.N = V c (Pipeline.arrRef spec5 4) :=
  ((dat5 V c).arrAt_in 4 rfl _).trans (A_eq5 V c 4)

theorem arr5_5 (c : Dev nD) : (dat5 V c).arrAt 5 cfg5.N = V c (Pipeline.arrRef spec5 5) :=
  ((dat5 V c).arrAt_in 5 rfl _).trans (A_eq5 V c 5)

theorem arr5_6 (c : Dev nD) : (dat5 V c).arrAt 6 cfg5.N = V c (Pipeline.arrRef spec5 6) :=
  ((dat5 V c).arrAt_in 6 rfl _).trans (A_eq5 V c 6)

/-! ## The output array after the region -/

/-- Row `2000 t + r` of the output array ends at row `r` of what grid point `t` computed from its seven input blocks. -/
theorem arr5_7 (c : Dev nD) (t : Fin cfg5.N) (r : Fin 2000) (q : Fin 256) (h : 2000 * t.val + r.val < 20000) :
    ((dat5 V c).arrAt 7 cfg5.N : Vec F S20000x256 .f32) (ix2 ⟨2000 * t.val + r.val, h⟩ q)
      = out5_7 (iblk5 V c 0 t) (iblk5 V c 1 t) (iblk5 V c 2 t) (iblk5 V c 3 t) (iblk5 V c 4 t) (iblk5 V c 5 t) (iblk5 V c 6 t) (ix2 r q) := by
  obtain ⟨-, -, e0, e1, -⟩ := idx5_facts t
  have e := (dat5 V c).arrAt_emb_eq_flushed 7 disjoint5_7 t (flush5_7 t) (ix2 r q)
  have hemb : ((cfg5.win 7).blk t).view.emb (ix2 r q) = (ix2 ⟨2000 * t.val + r.val, h⟩ q : S20000x256.Idx) := by
    funext a; apply Fin.ext
    match a with
    | ⟨0, _⟩ => show win5_7.index t (0 : Fin 2) * 2000 + 1 * r.val = 2000 * t.val + r.val; rw [e0]; omega
    | ⟨1, _⟩ => show win5_7.index t (1 : Fin 2) * 256 + 1 * q.val = q.val; rw [e1]; omega
  rw [hemb] at e
  refine e.trans ?_
  rw [cast_eq]
  show (cfg5.win 7).cut (grid5.coords t) ((dat5 V c).after 7 t) (ix2 r q) = _
  rw [after5_7]
  rfl

/-! ## The input blocks, index by index -/

/-- The moving window's block at point `t` is rows `2000 t … 2000 t + 1999` of its array. -/
theorem iblk5_0_apply (c : Dev nD) (t : Fin cfg5.N) (r : Fin 2000) (q : Fin 512) (h : 2000 * t.val + r.val < 20000) :
    (iblk5 V c 0 t : Vec F S2000x512 .f32) (ix2 r q)
      = (V c (Pipeline.arrRef spec5 0) : Vec F S20000x512 .f32) (ix2 ⟨2000 * t.val + r.val, h⟩ q) := by
  obtain ⟨e0, e1, -⟩ := idx5_facts t
  unfold iblk5
  rw [View.read_apply]
  show V c (Pipeline.arrRef spec5 0) _ = V c (Pipeline.arrRef spec5 0) _
  congr 1
  funext a; apply Fin.ext
  match a with
  | ⟨0, _⟩ => show win5_0.index t (0 : Fin 2) * 2000 + 1 * r.val = 2000 * t.val + r.val; rw [e0]; omega
  | ⟨1, _⟩ => show win5_0.index t (1 : Fin 2) * 512 + 1 * q.val = q.val; rw [e1]; omega

/-- Window 1's block is its whole array at every point. -/
theorem iblk5_1_eq (c : Dev nD) (t : Fin cfg5.N) :
    (iblk5 V c 1 t : Vec F S1x512 .f32) = (V c (Pipeline.arrRef spec5 1) : Vec F S1x512 .f32) := by
  obtain ⟨-, -, -, -, e0, e1, -⟩ := idx5_facts t
  funext j
  unfold iblk5
  rw [View.read_apply]
  show V c (Pipeline.arrRef spec5 1) _ = V c (Pipeline.arrRef spec5 1) _
  congr 1
  funext a; apply Fin.ext
  match a with
  | ⟨0, _⟩ => show win5_1.index t (0 : Fin 2) * 1 + 1 * (j 0).val = (j 0).val; rw [e0]; omega
  | ⟨1, _⟩ => show win5_1.index t (1 : Fin 2) * 512 + 1 * (j 1).val = (j 1).val; rw [e1]; omega

/-- Window 2's block is its whole array at every point. -/
theorem iblk5_2_eq (c : Dev nD) (t : Fin cfg5.N) :
    (iblk5 V c 2 t : Vec F S1x512 .f32) = (V c (Pipeline.arrRef spec5 2) : Vec F S1x512 .f32) := by
  obtain ⟨-, -, -, -, -, -, e0, e1, -⟩ := idx5_facts t
  funext j
  unfold iblk5
  rw [View.read_apply]
  show V c (Pipeline.arrRef spec5 2) _ = V c (Pipeline.arrRef spec5 2) _
  congr 1
  funext a; apply Fin.ext
  match a with
  | ⟨0, _⟩ => show win5_2.index t (0 : Fin 2) * 1 + 1 * (j 0).val = (j 0).val; rw [e0]; omega
  | ⟨1, _⟩ => show win5_2.index t (1 : Fin 2) * 512 + 1 * (j 1).val = (j 1).val; rw [e1]; omega

/-- Window 3's block is its whole array at every point. -/
theorem iblk5_3_eq (c : Dev nD) (t : Fin cfg5.N) :
    (iblk5 V c 3 t : Vec F S1x512 .f32) = (V c (Pipeline.arrRef spec5 3) : Vec F S1x512 .f32) := by
  obtain ⟨-, -, -, -, -, -, -, -, e0, e1, -⟩ := idx5_facts t
  funext j
  unfold iblk5
  rw [View.read_apply]
  show V c (Pipeline.arrRef spec5 3) _ = V c (Pipeline.arrRef spec5 3) _
  congr 1
  funext a; apply Fin.ext
  match a with
  | ⟨0, _⟩ => show win5_3.index t (0 : Fin 2) * 1 + 1 * (j 0).val = (j 0).val; rw [e0]; omega
  | ⟨1, _⟩ => show win5_3.index t (1 : Fin 2) * 512 + 1 * (j 1).val = (j 1).val; rw [e1]; omega

/-- Window 4's block is its whole array at every point. -/
theorem iblk5_4_eq (c : Dev nD) (t : Fin cfg5.N) :
    (iblk5 V c 4 t : Vec F S1x512 .f32) = (V c (Pipeline.arrRef spec5 4) : Vec F S1x512 .f32) := by
  obtain ⟨-, -, -, -, -, -, -, -, -, -, e0, e1, -⟩ := idx5_facts t
  funext j
  unfold iblk5
  rw [View.read_apply]
  show V c (Pipeline.arrRef spec5 4) _ = V c (Pipeline.arrRef spec5 4) _
  congr 1
  funext a; apply Fin.ext
  match a with
  | ⟨0, _⟩ => show win5_4.index t (0 : Fin 2) * 1 + 1 * (j 0).val = (j 0).val; rw [e0]; omega
  | ⟨1, _⟩ => show win5_4.index t (1 : Fin 2) * 512 + 1 * (j 1).val = (j 1).val; rw [e1]; omega

/-- Window 5's block is its whole array at every point. -/
theorem iblk5_5_eq (c : Dev nD) (t : Fin cfg5.N) :
    (iblk5 V c 5 t : Vec F S512x256 .f32) = (V c (Pipeline.arrRef spec5 5) : Vec F S512x256 .f32) := by
  obtain ⟨-, -, -, -, -, -, -, -, -, -, -, -, e0, e1, -⟩ := idx5_facts t
  funext j
  unfold iblk5
  rw [View.read_apply]
  show V c (Pipeline.arrRef spec5 5) _ = V c (Pipeline.arrRef spec5 5) _
  congr 1
  funext a; apply Fin.ext
  match a with
  | ⟨0, _⟩ => show win5_5.index t (0 : Fin 2) * 512 + 1 * (j 0).val = (j 0).val; rw [e0]; omega
  | ⟨1, _⟩ => show win5_5.index t (1 : Fin 2) * 256 + 1 * (j 1).val = (j 1).val; rw [e1]; omega

/-- Window 6's block is its whole array at every point. -/
theorem iblk5_6_eq (c : Dev nD) (t : Fin cfg5.N) :
    (iblk5 V c 6 t : Vec F S1x256 .f32) = (V c (Pipeline.arrRef spec5 6) : Vec F S1x256 .f32) := by
  obtain ⟨-, -, -, -, -, -, -, -, -, -, -, -, -, -, e0, e1⟩ := idx5_facts t
  funext j
  unfold iblk5
  rw [View.read_apply]
  show V c (Pipeline.arrRef spec5 6) _ = V c (Pipeline.arrRef spec5 6) _
  congr 1
  funext a; apply Fin.ext
  match a with
  | ⟨0, _⟩ => show win5_6.index t (0 : Fin 2) * 1 + 1 * (j 0).val = (j 0).val; rw [e0]; omega
  | ⟨1, _⟩ => show win5_6.index t (1 : Fin 2) * 256 + 1 * (j 1).val = (j 1).val; rw [e1]; omega

/-! ## The same, tile by tile over whole arrays -/

/-- The moving window's block at point `t` is tile `t` of its array. -/
theorem iblk5_0_blk (c : Dev nD) (t : Fin 10) :
    (iblk5 V c 0 t : Vec F S2000x512 .f32) = rowBlk (V c (Pipeline.arrRef spec5 0) : Vec F S20000x512 .f32) t := by
  funext j
  obtain ⟨r, q, rfl⟩ : ∃ r q, j = ix2 r q := ⟨j 0, j 1, eq_ix2 j⟩
  exact iblk5_0_apply V c t r q (tileRowK t r).isLt

/-- `arr5_7` with the row named as row `r` of tile `t`. -/
theorem arr5_7_tile (c : Dev nD) (t : Fin 10) (r : Fin 2000) (q : Fin 256) :
    ((dat5 V c).arrAt 7 cfg5.N : Vec F S20000x256 .f32) (ix2 (tileRowK t r) q) = out5_7 (iblk5 V c 0 t) (iblk5 V c 1 t) (iblk5 V c 2 t) (iblk5 V c 3 t) (iblk5 V c 4 t) (iblk5 V c 5 t) (iblk5 V c 6 t) (ix2 r q) :=
  arr5_7 V c t r q (tileRowK t r).isLt

set_option maxHeartbeats 1000000 in
/-- Tile `t` of the output array is what the body computes from tile `t` of the moving input and the six whole arrays. -/
theorem arr5_7_blk (c : Dev nD) (t : Fin 10) :
    rowBlk ((dat5 V c).arrAt 7 cfg5.N : Vec F S20000x256 .f32) t
      = out5_7 (rowBlk (V c (Pipeline.arrRef spec5 0) : Vec F S20000x512 .f32) t) (V c (Pipeline.arrRef spec5 1) : Vec F S1x512 .f32) (V c (Pipeline.arrRef spec5 2) : Vec F S1x512 .f32) (V c (Pipeline.arrRef spec5 3) : Vec F S1x512 .f32) (V c (Pipeline.arrRef spec5 4) : Vec F S1x512 .f32) (V c (Pipeline.arrRef spec5 5) : Vec F S512x256 .f32) (V c (Pipeline.arrRef spec5 6) : Vec F S1x256 .f32) := by
  funext j
  obtain ⟨r, q, rfl⟩ : ∃ r q, j = ix2 r q := ⟨j 0, j 1, eq_ix2 j⟩
  rw [rowBlk_apply, arr5_7_tile V c t r q, iblk5_0_blk V c t, iblk5_1_eq V c t, iblk5_2_eq V c t, iblk5_3_eq V c t, iblk5_4_eq V c t, iblk5_5_eq V c t, iblk5_6_eq V c t]

end Cert.KernelIdeal.Hand

end
-- ==== Proof.KIArr6.lean ====
/-
  The first kernel of a layer, from blocks to arrays: an input window's array is never written back, so it ends as the region
  found it; the block output's ten row blocks tile its array and no two grid points write the same block, so the entry at row
  `2000 t + r` ends at what point `t` left in its staging buffer at row `r`; each of the two rows of column sums is written
  back once, after the last point, whole, so it ends at the running sum over all ten points; and each input block, index by
  index, is the array read at the block's offset.
-/
import proofs.«138093_j17583596110490_1_alg».proof.Proof.KIHalf6
import Idealize.ShloMosaic.Lib.Pipeline.Value
import Idealize.ShloMosaic.Lib.ValueIdx
import proofs.«138093_j17583596110490_1_alg».proof.Proof.KIArrCommon

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The index maps over the ten grid points -/

/-- The moving input window and the block output are at row block `t`, column block 0, at grid point `t`; every other
    window stays at block (0, 0). -/
theorem idx6_facts : ∀ t : Fin cfg6.N,
    win6_0.index t (0 : Fin 2) = t.val ∧ win6_0.index t (1 : Fin 2) = 0
    ∧ win6_3.index t (0 : Fin 2) = t.val ∧ win6_3.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Distinct grid points write distinct blocks of the block output. -/
theorem idx6_3_inj : ∀ t t' : Fin cfg6.N, win6_3.index t = win6_3.index t' → t = t' :=
  (by decide +kernel : ∀ t t' : Fin grid6.N, win6_3.index t = win6_3.index t' → t = t')

theorem disjoint6_3 : ∀ t t' : Fin cfg6.N, (cfg6.win 3).flush t = true → (cfg6.win 3).flush t' = true → t ≠ t' →
    Disjoint ((cfg6.win 3).blk t).view.set ((cfg6.win 3).blk t').view.set :=
  fun t t' _ _ hne => (cfg6.win 3).disjoint_blk fun h => hne (idx6_3_inj t t' h)

/-- The last grid point. -/
abbrev last6 : Fin cfg6.N := t6_9

theorem last6_lt : 9 < cfg6.N := last6.isLt

/-- Only the last point writes a row of column sums back. -/
theorem flush6_4_iff (t : Fin cfg6.N) : (cfg6.win 4).flush t = true ↔ t = last6 := by
  have hN : cfg6.N = 10 := N_6
  rw [flush6_4 t]
  constructor
  · intro h; apply Fin.ext; show t.val = 9; have := t.isLt; omega
  · rintro rfl; rfl
theorem flush6_5_iff (t : Fin cfg6.N) : (cfg6.win 5).flush t = true ↔ t = last6 := by
  have hN : cfg6.N = 10 := N_6
  rw [flush6_5 t]
  constructor
  · intro h; apply Fin.ext; show t.val = 9; have := t.isLt; omega
  · rintro rfl; rfl

theorem disjoint6_4 : ∀ t t' : Fin cfg6.N, (cfg6.win 4).flush t = true → (cfg6.win 4).flush t' = true → t ≠ t' →
    Disjoint ((cfg6.win 4).blk t).view.set ((cfg6.win 4).blk t').view.set :=
  fun t t' h h' hne => absurd (((flush6_4_iff t).mp h).trans ((flush6_4_iff t').mp h').symm) hne
theorem disjoint6_5 : ∀ t t' : Fin cfg6.N, (cfg6.win 5).flush t = true → (cfg6.win 5).flush t' = true → t ≠ t' →
    Disjoint ((cfg6.win 5).blk t).view.set ((cfg6.win 5).blk t').view.set :=
  fun t t' h h' hne => absurd (((flush6_5_iff t).mp h).trans ((flush6_5_iff t').mp h').symm) hne

/-! ## The input arrays after the region -/

theorem arr6_0 (c : Dev nD) : (dat6 V c).arrAt 0 cfg6.N = V c (Pipeline.arrRef spec6 0) :=
  ((dat6 V c).arrAt_in 0 rfl _).trans (A_eq6 V c 0)

theorem arr6_1 (c : Dev nD) : (dat6 V c).arrAt 1 cfg6.N = V c (Pipeline.arrRef spec6 1) :=
  ((dat6 V c).arrAt_in 1 rfl _).trans (A_eq6 V c 1)

theorem arr6_2 (c : Dev nD) : (dat6 V c).arrAt 2 cfg6.N = V c (Pipeline.arrRef spec6 2) :=
  ((dat6 V c).arrAt_in 2 rfl _).trans (A_eq6 V c 2)

/-! ## The output arrays after the region -/

/-- Row `2000 t + r` of the block output ends at row `r` of what grid point `t` computed from its three input blocks. -/
theorem arr6_3 (c : Dev nD) (t : Fin cfg6.N) (r : Fin 2000) (q : Fin 512) (h : 2000 * t.val + r.val < 20000) :
    ((dat6 V c).arrAt 3 cfg6.N : Vec F S20000x512 .f32) (ix2 ⟨2000 * t.val + r.val, h⟩ q)
      = k6_pay3 (iblk6 V c 0 t) (iblk6 V c 1 t) (iblk6 V c 2 t) (ix2 r q) := by
  obtain ⟨-, -, e0, e1, -⟩ := idx6_facts t
  have e := (dat6 V c).arrAt_emb_eq_flushed 3 disjoint6_3 t (flush6_3 t) (ix2 r q)
  have hemb : ((cfg6.win 3).blk t).view.emb (ix2 r q) = (ix2 ⟨2000 * t.val + r.val, h⟩ q : S20000x512.Idx) := by
    funext a; apply Fin.ext
    match a with
    | ⟨0, _⟩ => show win6_3.index t (0 : Fin 2) * 2000 + 1 * r.val = 2000 * t.val + r.val; rw [e0]; omega
    | ⟨1, _⟩ => show win6_3.index t (1 : Fin 2) * 512 + 1 * q.val = q.val; rw [e1]; omega
  rw [hemb] at e
  refine e.trans ?_
  rw [cast_eq]
  show (cfg6.win 3).cut (grid6.coords t) ((dat6 V c).after 3 t) (ix2 r q) = _
  rw [after6_3]
  rfl

/-- The row of column sums (window 4) ends at the running sum after the last point. -/
theorem arr6_4 (c : Dev nD) :
    ((dat6 V c).arrAt 4 cfg6.N : Vec F S1x512 .f32) = (acc6 V c 9 last6_lt).1 := by
  obtain ⟨-, -, -, -, -, -, -, -, e0, e1, -⟩ := idx6_facts last6
  funext j
  have e := (dat6 V c).arrAt_emb_eq_flushed 4 disjoint6_4 last6 ((flush6_4_iff last6).mpr rfl) j
  have hemb : ((cfg6.win 4).blk last6).view.emb j = (j : S1x512.Idx) := by
    funext a; apply Fin.ext
    match a with
    | ⟨0, _⟩ => show win6_4.index last6 (0 : Fin 2) * 1 + 1 * (j 0).val = (j 0).val; rw [e0]; omega
    | ⟨1, _⟩ => show win6_4.index last6 (1 : Fin 2) * 512 + 1 * (j 1).val = (j 1).val; rw [e1]; omega
  rw [hemb] at e
  refine e.trans ?_
  rw [cast_eq]
  show (cfg6.win 4).cut (grid6.coords last6) ((dat6 V c).after 4 last6) j = _
  rw [after6_4]
  rfl

/-- The row of column sums (window 5) ends at the running sum after the last point. -/
theorem arr6_5 (c : Dev nD) :
    ((dat6 V c).arrAt 5 cfg6.N : Vec F S1x512 .f32) = (acc6 V c 9 last6_lt).2 := by
  obtain ⟨-, -, -, -, -, -, -, -, -, -, e0, e1⟩ := idx6_facts last6
  funext j
  have e := (dat6 V c).arrAt_emb_eq_flushed 5 disjoint6_5 last6 ((flush6_5_iff last6).mpr rfl) j
  have hemb : ((cfg6.win 5).blk last6).view.emb j = (j : S1x512.Idx) := by
    funext a; apply Fin.ext
    match a with
    | ⟨0, _⟩ => show win6_5.index last6 (0 : Fin 2) * 1 + 1 * (j 0).val = (j 0).val; rw [e0]; omega
    | ⟨1, _⟩ => show win6_5.index last6 (1 : Fin 2) * 512 + 1 * (j 1).val = (j 1).val; rw [e1]; omega
  rw [hemb] at e
  refine e.trans ?_
  rw [cast_eq]
  show (cfg6.win 5).cut (grid6.coords last6) ((dat6 V c).after 5 last6) j = _
  rw [after6_5]
  rfl

/-! ## The input blocks, index by index -/

/-- The moving window's block at point `t` is rows `2000 t … 2000 t + 1999` of its array. -/
theorem iblk6_0_apply (c : Dev nD) (t : Fin cfg6.N) (r : Fin 2000) (q : Fin 256) (h : 2000 * t.val + r.val < 20000) :
    (iblk6 V c 0 t : Vec F S2000x256 .f32) (ix2 r q)
      = (V c (Pipeline.arrRef spec6 0) : Vec F S20000x256 .f32) (ix2 ⟨2000 * t.val + r.val, h⟩ q) := by
  obtain ⟨e0, e1, -⟩ := idx6_facts t
  unfold iblk6
  rw [View.read_apply]
  show V c (Pipeline.arrRef spec6 0) _ = V c (Pipeline.arrRef spec6 0) _
  congr 1
  funext a; apply Fin.ext
  match a with
  | ⟨0, _⟩ => show win6_0.index t (0 : Fin 2) * 2000 + 1 * r.val = 2000 * t.val + r.val; rw [e0]; omega
  | ⟨1, _⟩ => show win6_0.index t (1 : Fin 2) * 256 + 1 * q.val = q.val; rw [e1]; omega

/-- Window 1's block is its whole array at every point. -/
theorem iblk6_1_eq (c : Dev nD) (t : Fin cfg6.N) :
    (iblk6 V c 1 t : Vec F S256x512 .f32) = (V c (Pipeline.arrRef spec6 1) : Vec F S256x512 .f32) := by
  obtain ⟨-, -, -, -, e0, e1, -⟩ := idx6_facts t
  funext j
  unfold iblk6
  rw [View.read_apply]
  show V c (Pipeline.arrRef spec6 1) _ = V c (Pipeline.arrRef spec6 1) _
  congr 1
  funext a; apply Fin.ext
  match a with
  | ⟨0, _⟩ => show win6_1.index t (0 : Fin 2) * 256 + 1 * (j 0).val = (j 0).val; rw [e0]; omega
  | ⟨1, _⟩ => show win6_1.index t (1 : Fin 2) * 512 + 1 * (j 1).val = (j 1).val; rw [e1]; omega

/-- Window 2's block is its whole array at every point. -/
theorem iblk6_2_eq (c : Dev nD) (t : Fin cfg6.N) :
    (iblk6 V c 2 t : Vec F S1x512 .f32) = (V c (Pipeline.arrRef spec6 2) : Vec F S1x512 .f32) := by
  obtain ⟨-, -, -, -, -, -, e0, e1, -⟩ := idx6_facts t
  funext j
  unfold iblk6
  rw [View.read_apply]
  show V c (Pipeline.arrRef spec6 2) _ = V c (Pipeline.arrRef spec6 2) _
  congr 1
  funext a; apply Fin.ext
  match a with
  | ⟨0, _⟩ => show win6_2.index t (0 : Fin 2) * 1 + 1 * (j 0).val = (j 0).val; rw [e0]; omega
  | ⟨1, _⟩ => show win6_2.index t (1 : Fin 2) * 512 + 1 * (j 1).val = (j 1).val; rw [e1]; omega

/-! ## The same, tile by tile over whole arrays -/

/-- The moving window's block at point `t` is tile `t` of its array. -/
theorem iblk6_0_blk (c : Dev nD) (t : Fin 10) :
    (iblk6 V c 0 t : Vec F S2000x256 .f32) = rowBlk (V c (Pipeline.arrRef spec6 0) : Vec F S20000x256 .f32) t := by
  funext j
  obtain ⟨r, q, rfl⟩ : ∃ r q, j = ix2 r q := ⟨j 0, j 1, eq_ix2 j⟩
  exact iblk6_0_apply V c t r q (tileRowK t r).isLt

/-- `arr6_3` with the row named as row `r` of tile `t`. -/
theorem arr6_3_tile (c : Dev nD) (t : Fin 10) (r : Fin 2000) (q : Fin 512) :
    ((dat6 V c).arrAt 3 cfg6.N : Vec F S20000x512 .f32) (ix2 (tileRowK t r) q) = k6_pay3 (iblk6 V c 0 t) (iblk6 V c 1 t) (iblk6 V c 2 t) (ix2 r q) :=
  arr6_3 V c t r q (tileRowK t r).isLt

set_option maxHeartbeats 1000000 in
/-- Tile `t` of the block output is what the body computes from tile `t` of the moving input, the weights and the bias row. -/
theorem arr6_3_blk (c : Dev nD) (t : Fin 10) :
    rowBlk ((dat6 V c).arrAt 3 cfg6.N : Vec F S20000x512 .f32) t = k6_pay3 (rowBlk (V c (Pipeline.arrRef spec6 0) : Vec F S20000x256 .f32) t) (V c (Pipeline.arrRef spec6 1) : Vec F S256x512 .f32) (V c (Pipeline.arrRef spec6 2) : Vec F S1x512 .f32) := by
  funext j
  obtain ⟨r, q, rfl⟩ : ∃ r q, j = ix2 r q := ⟨j 0, j 1, eq_ix2 j⟩
  rw [rowBlk_apply, arr6_3_tile V c t r q, iblk6_0_blk V c t, iblk6_1_eq V c t, iblk6_2_eq V c t]

set_option maxHeartbeats 1000000 in
/-- The running column sums after the first tile, over whole arrays. -/
theorem acc6_zero_arr (c : Dev nD) (h0 : 0 < 10) :
    (acc6 V c 0 h0).1 = k6_pay4 (rowBlk (V c (Pipeline.arrRef spec6 0) : Vec F S20000x256 .f32) 0) (V c (Pipeline.arrRef spec6 1) : Vec F S256x512 .f32) (V c (Pipeline.arrRef spec6 2) : Vec F S1x512 .f32) k6_pay1
    ∧ (acc6 V c 0 h0).2 = k6_pay5 (rowBlk (V c (Pipeline.arrRef spec6 0) : Vec F S20000x256 .f32) 0) (V c (Pipeline.arrRef spec6 1) : Vec F S256x512 .f32) (V c (Pipeline.arrRef spec6 2) : Vec F S1x512 .f32) k6_pay2 := by
  have e1 := acc6_zero_1 V c (⟨0, h0⟩ : Fin cfg6.N) rfl
  have e2 := acc6_zero_2 V c (⟨0, h0⟩ : Fin cfg6.N) rfl
  rw [iblk6_0_blk V c (⟨0, h0⟩ : Fin cfg6.N), iblk6_1_eq V c (⟨0, h0⟩ : Fin cfg6.N), iblk6_2_eq V c (⟨0, h0⟩ : Fin cfg6.N)] at e1 e2
  exact ⟨e1, e2⟩

set_option maxHeartbeats 1000000 in
/-- The running column sums after tile `n + 1`: the body's update of the sums after tile `n`, over whole arrays. -/
theorem acc6_succ_arr (c : Dev nD) (n : ℕ) (hn : n + 1 < 10) :
    (acc6 V c (n + 1) hn).1 = k6_pay4 (rowBlk (V c (Pipeline.arrRef spec6 0) : Vec F S20000x256 .f32) ⟨n + 1, hn⟩) (V c (Pipeline.arrRef spec6 1) : Vec F S256x512 .f32) (V c (Pipeline.arrRef spec6 2) : Vec F S1x512 .f32) (acc6 V c n (Nat.lt_of_succ_lt hn)).1
    ∧ (acc6 V c (n + 1) hn).2 = k6_pay5 (rowBlk (V c (Pipeline.arrRef spec6 0) : Vec F S20000x256 .f32) ⟨n + 1, hn⟩) (V c (Pipeline.arrRef spec6 1) : Vec F S256x512 .f32) (V c (Pipeline.arrRef spec6 2) : Vec F S1x512 .f32) (acc6 V c n (Nat.lt_of_succ_lt hn)).2 := by
  have e1 := acc6_pos_1 V c (⟨n + 1, hn⟩ : Fin cfg6.N) (Nat.succ_ne_zero n)
  have e2 := acc6_pos_2 V c (⟨n + 1, hn⟩ : Fin cfg6.N) (Nat.succ_ne_zero n)
  rw [iblk6_0_blk V c (⟨n + 1, hn⟩ : Fin cfg6.N), iblk6_1_eq V c (⟨n + 1, hn⟩ : Fin cfg6.N), iblk6_2_eq V c (⟨n + 1, hn⟩ : Fin cfg6.N)] at e1 e2
  exact ⟨e1, e2⟩

end Cert.KernelIdeal.Hand

end
-- ==== Proof.KIArr7.lean ====
/-
  The second kernel of a layer, from blocks to arrays: an input window's array is never written back, so it ends as the region
  found it; the output window's ten row blocks tile its array and no two grid points write the same block, so the entry at row
  `2000 t + r` ends at what point `t` left in its staging buffer at row `r`; and each input block, index by index, is the
  array read at the block's offset (rows `2000 t …` for the moving window, the whole array for the others).
-/
import proofs.«138093_j17583596110490_1_alg».proof.Proof.KIHalf7
import Idealize.ShloMosaic.Lib.Pipeline.Value
import Idealize.ShloMosaic.Lib.ValueIdx
import proofs.«138093_j17583596110490_1_alg».proof.Proof.KIArrCommon

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The index maps over the ten grid points -/

/-- The moving input window and the output window are at row block `t`, column block 0, at grid point `t`; every other
    window stays at block (0, 0). -/
theorem idx7_facts : ∀ t : Fin cfg7.N,
    win7_0.index t (0 : Fin 2) = t.val ∧ win7_0.index t (1 : Fin 2) = 0
    ∧ win7_7.index t (0 : Fin 2) = t.val ∧ win7_7.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- Distinct grid points write distinct blocks of the output. -/
theorem idx7_7_inj : ∀ t t' : Fin cfg7.N, win7_7.index t = win7_7.index t' → t = t' :=
  (by decide +kernel : ∀ t t' : Fin grid7.N, win7_7.index t = win7_7.index t' → t = t')

theorem disjoint7_7 : ∀ t t' : Fin cfg7.N, (cfg7.win 7).flush t = true → (cfg7.win 7).flush t' = true → t ≠ t' →
    Disjoint ((cfg7.win 7).blk t).view.set ((cfg7.win 7).blk t').view.set :=
  fun t t' _ _ hne => (cfg7.win 7).disjoint_blk fun h => hne (idx7_7_inj t t' h)

/-! ## The input arrays after the region -/

theorem arr7_0 (c : Dev nD) : (dat7 V c).arrAt 0 cfg7.N = V c (Pipeline.arrRef spec7 0) :=
  ((dat7 V c).arrAt_in 0 rfl _).trans (A_eq7 V c 0)

theorem arr7_1 (c : Dev nD) : (dat7 V c).arrAt 1 cfg7.N = V c (Pipeline.arrRef spec7 1) :=
  ((dat7 V c).arrAt_in 1 rfl _).trans (A_eq7 V c 1)

theorem arr7_2 (c : Dev nD) : (dat7 V c).arrAt 2 cfg7.N = V c (Pipeline.arrRef spec7 2) :=
  ((dat7 V c).arrAt_in 2 rfl _).trans (A_eq7 V c 2)

theorem arr7_3 (c : Dev nD) : (dat7 V c).arrAt 3 cfg7.N = V c (Pipeline.arrRef spec7 3) :=
  ((dat7 V c).arrAt_in 3 rfl _).trans (A_eq7 V c 3)

theorem arr7_4 (c : Dev nD) : (dat7 V c).arrAt 4 cfg7.N = V c (Pipeline.arrRef spec7 4) :=
  ((dat7 V c).arrAt_in 4 rfl _).trans (A_eq7 V c 4)

theorem arr7_5 (c : Dev nD) : (dat7 V c).arrAt 5 cfg7.N = V c (Pipeline.arrRef spec7 5) :=
  ((dat7 V c).arrAt_in 5 rfl _).trans (A_eq7 V c 5)

theorem arr7_6 (c : Dev nD) : (dat7 V c).arrAt 6 cfg7.N = V c (Pipeline.arrRef spec7 6) :=
  ((dat7 V c).arrAt_in 6 rfl _).trans (A_eq7 V c 6)

/-! ## The output array after the region -/

/-- Row `2000 t + r` of the output array ends at row `r` of what grid point `t` computed from its seven input blocks. -/
theorem arr7_7 (c : Dev nD) (t : Fin cfg7.N) (r : Fin 2000) (q : Fin 256) (h : 2000 * t.val + r.val < 20000) :
    ((dat7 V c).arrAt 7 cfg7.N : Vec F S20000x256 .f32) (ix2 ⟨2000 * t.val + r.val, h⟩ q)
      = out7_7 (iblk7 V c 0 t) (iblk7 V c 1 t) (iblk7 V c 2 t) (iblk7 V c 3 t) (iblk7 V c 4 t) (iblk7 V c 5 t) (iblk7 V c 6 t) (ix2 r q) := by
  obtain ⟨-, -, e0, e1, -⟩ := idx7_facts t
  have e := (dat7 V c).arrAt_emb_eq_flushed 7 disjoint7_7 t (flush7_7 t) (ix2 r q)
  have hemb : ((cfg7.win 7).blk t).view.emb (ix2 r q) = (ix2 ⟨2000 * t.val + r.val, h⟩ q : S20000x256.Idx) := by
    funext a; apply Fin.ext
    match a with
    | ⟨0, _⟩ => show win7_7.index t (0 : Fin 2) * 2000 + 1 * r.val = 2000 * t.val + r.val; rw [e0]; omega
    | ⟨1, _⟩ => show win7_7.index t (1 : Fin 2) * 256 + 1 * q.val = q.val; rw [e1]; omega
  rw [hemb] at e
  refine e.trans ?_
  rw [cast_eq]
  show (cfg7.win 7).cut (grid7.coords t) ((dat7 V c).after 7 t) (ix2 r q) = _
  rw [after7_7]
  rfl

/-! ## The input blocks, index by index -/

/-- The moving window's block at point `t` is rows `2000 t … 2000 t + 1999` of its array. -/
theorem iblk7_0_apply (c : Dev nD) (t : Fin cfg7.N) (r : Fin 2000) (q : Fin 512) (h : 2000 * t.val + r.val < 20000) :
    (iblk7 V c 0 t : Vec F S2000x512 .f32) (ix2 r q)
      = (V c (Pipeline.arrRef spec7 0) : Vec F S20000x512 .f32) (ix2 ⟨2000 * t.val + r.val, h⟩ q) := by
  obtain ⟨e0, e1, -⟩ := idx7_facts t
  unfold iblk7
  rw [View.read_apply]
  show V c (Pipeline.arrRef spec7 0) _ = V c (Pipeline.arrRef spec7 0) _
  congr 1
  funext a; apply Fin.ext
  match a with
  | ⟨0, _⟩ => show win7_0.index t (0 : Fin 2) * 2000 + 1 * r.val = 2000 * t.val + r.val; rw [e0]; omega
  | ⟨1, _⟩ => show win7_0.index t (1 : Fin 2) * 512 + 1 * q.val = q.val; rw [e1]; omega

/-- Window 1's block is its whole array at every point. -/
theorem iblk7_1_eq (c : Dev nD) (t : Fin cfg7.N) :
    (iblk7 V c 1 t : Vec F S1x512 .f32) = (V c (Pipeline.arrRef spec7 1) : Vec F S1x512 .f32) := by
  obtain ⟨-, -, -, -, e0, e1, -⟩ := idx7_facts t
  funext j
  unfold iblk7
  rw [View.read_apply]
  show V c (Pipeline.arrRef spec7 1) _ = V c (Pipeline.arrRef spec7 1) _
  congr 1
  funext a; apply Fin.ext
  match a with
  | ⟨0, _⟩ => show win7_1.index t (0 : Fin 2) * 1 + 1 * (j 0).val = (j 0).val; rw [e0]; omega
  | ⟨1, _⟩ => show win7_1.index t (1 : Fin 2) * 512 + 1 * (j 1).val = (j 1).val; rw [e1]; omega

/-- Window 2's block is its whole array at every point. -/
theorem iblk7_2_eq (c : Dev nD) (t : Fin cfg7.N) :
    (iblk7 V c 2 t : Vec F S1x512 .f32) = (V c (Pipeline.arrRef spec7 2) : Vec F S1x512 .f32) := by
  obtain ⟨-, -, -, -, -, -, e0, e1, -⟩ := idx7_facts t
  funext j
  unfold iblk7
  rw [View.read_apply]
  show V c (Pipeline.arrRef spec7 2) _ = V c (Pipeline.arrRef spec7 2) _
  congr 1
  funext a; apply Fin.ext
  match a with
  | ⟨0, _⟩ => show win7_2.index t (0 : Fin 2) * 1 + 1 * (j 0).val = (j 0).val; rw [e0]; omega
  | ⟨1, _⟩ => show win7_2.index t (1 : Fin 2) * 512 + 1 * (j 1).val = (j 1).val; rw [e1]; omega

/-- Window 3's block is its whole array at every point. -/
theorem iblk7_3_eq (c : Dev nD) (t : Fin cfg7.N) :
    (iblk7 V c 3 t : Vec F S1x512 .f32) = (V c (Pipeline.arrRef spec7 3) : Vec F S1x512 .f32) := by
  obtain ⟨-, -, -, -, -, -, -, -, e0, e1, -⟩ := idx7_facts t
  funext j
  unfold iblk7
  rw [View.read_apply]
  show V c (Pipeline.arrRef spec7 3) _ = V c (Pipeline.arrRef spec7 3) _
  congr 1
  funext a; apply Fin.ext
  match a with
  | ⟨0, _⟩ => show win7_3.index t (0 : Fin 2) * 1 + 1 * (j 0).val = (j 0).val; rw [e0]; omega
  | ⟨1, _⟩ => show win7_3.index t (1 : Fin 2) * 512 + 1 * (j 1).val = (j 1).val; rw [e1]; omega

/-- Window 4's block is its whole array at every point. -/
theorem iblk7_4_eq (c : Dev nD) (t : Fin cfg7.N) :
    (iblk7 V c 4 t : Vec F S1x512 .f32) = (V c (Pipeline.arrRef spec7 4) : Vec F S1x512 .f32) := by
  obtain ⟨-, -, -, -, -, -, -, -, -, -, e0, e1, -⟩ := idx7_facts t
  funext j
  unfold iblk7
  rw [View.read_apply]
  show V c (Pipeline.arrRef spec7 4) _ = V c (Pipeline.arrRef spec7 4) _
  congr 1
  funext a; apply Fin.ext
  match a with
  | ⟨0, _⟩ => show win7_4.index t (0 : Fin 2) * 1 + 1 * (j 0).val = (j 0).val; rw [e0]; omega
  | ⟨1, _⟩ => show win7_4.index t (1 : Fin 2) * 512 + 1 * (j 1).val = (j 1).val; rw [e1]; omega

/-- Window 5's block is its whole array at every point. -/
theorem iblk7_5_eq (c : Dev nD) (t : Fin cfg7.N) :
    (iblk7 V c 5 t : Vec F S512x256 .f32) = (V c (Pipeline.arrRef spec7 5) : Vec F S512x256 .f32) := by
  obtain ⟨-, -, -, -, -, -, -, -, -, -, -, -, e0, e1, -⟩ := idx7_facts t
  funext j
  unfold iblk7
  rw [View.read_apply]
  show V c (Pipeline.arrRef spec7 5) _ = V c (Pipeline.arrRef spec7 5) _
  congr 1
  funext a; apply Fin.ext
  match a with
  | ⟨0, _⟩ => show win7_5.index t (0 : Fin 2) * 512 + 1 * (j 0).val = (j 0).val; rw [e0]; omega
  | ⟨1, _⟩ => show win7_5.index t (1 : Fin 2) * 256 + 1 * (j 1).val = (j 1).val; rw [e1]; omega

/-- Window 6's block is its whole array at every point. -/
theorem iblk7_6_eq (c : Dev nD) (t : Fin cfg7.N) :
    (iblk7 V c 6 t : Vec F S1x256 .f32) = (V c (Pipeline.arrRef spec7 6) : Vec F S1x256 .f32) := by
  obtain ⟨-, -, -, -, -, -, -, -, -, -, -, -, -, -, e0, e1⟩ := idx7_facts t
  funext j
  unfold iblk7
  rw [View.read_apply]
  show V c (Pipeline.arrRef spec7 6) _ = V c (Pipeline.arrRef spec7 6) _
  congr 1
  funext a; apply Fin.ext
  match a with
  | ⟨0, _⟩ => show win7_6.index t (0 : Fin 2) * 1 + 1 * (j 0).val = (j 0).val; rw [e0]; omega
  | ⟨1, _⟩ => show win7_6.index t (1 : Fin 2) * 256 + 1 * (j 1).val = (j 1).val; rw [e1]; omega

/-! ## The same, tile by tile over whole arrays -/

/-- The moving window's block at point `t` is tile `t` of its array. -/
theorem iblk7_0_blk (c : Dev nD) (t : Fin 10) :
    (iblk7 V c 0 t : Vec F S2000x512 .f32) = rowBlk (V c (Pipeline.arrRef spec7 0) : Vec F S20000x512 .f32) t := by
  funext j
  obtain ⟨r, q, rfl⟩ : ∃ r q, j = ix2 r q := ⟨j 0, j 1, eq_ix2 j⟩
  exact iblk7_0_apply V c t r q (tileRowK t r).isLt

/-- `arr7_7` with the row named as row `r` of tile `t`. -/
theorem arr7_7_tile (c : Dev nD) (t : Fin 10) (r : Fin 2000) (q : Fin 256) :
    ((dat7 V c).arrAt 7 cfg7.N : Vec F S20000x256 .f32) (ix2 (tileRowK t r) q) = out7_7 (iblk7 V c 0 t) (iblk7 V c 1 t) (iblk7 V c 2 t) (iblk7 V c 3 t) (iblk7 V c 4 t) (iblk7 V c 5 t) (iblk7 V c 6 t) (ix2 r q) :=
  arr7_7 V c t r q (tileRowK t r).isLt

set_option maxHeartbeats 1000000 in
/-- Tile `t` of the output array is what the body computes from tile `t` of the moving input and the six whole arrays. -/
theorem arr7_7_blk (c : Dev nD) (t : Fin 10) :
    rowBlk ((dat7 V c).arrAt 7 cfg7.N : Vec F S20000x256 .f32) t
      = out7_7 (rowBlk (V c (Pipeline.arrRef spec7 0) : Vec F S20000x512 .f32) t) (V c (Pipeline.arrRef spec7 1) : Vec F S1x512 .f32) (V c (Pipeline.arrRef spec7 2) : Vec F S1x512 .f32) (V c (Pipeline.arrRef spec7 3) : Vec F S1x512 .f32) (V c (Pipeline.arrRef spec7 4) : Vec F S1x512 .f32) (V c (Pipeline.arrRef spec7 5) : Vec F S512x256 .f32) (V c (Pipeline.arrRef spec7 6) : Vec F S1x256 .f32) := by
  funext j
  obtain ⟨r, q, rfl⟩ : ∃ r q, j = ix2 r q := ⟨j 0, j 1, eq_ix2 j⟩
  rw [rowBlk_apply, arr7_7_tile V c t r q, iblk7_0_blk V c t, iblk7_1_eq V c t, iblk7_2_eq V c t, iblk7_3_eq V c t, iblk7_4_eq V c t, iblk7_5_eq V c t, iblk7_6_eq V c t]

end Cert.KernelIdeal.Hand

end
-- ==== Proof.RefStages.lean ====
/- The reference program's results as compositions of named stage functions. One layer is a neighbourhood sum
   (`aggR`: gather the source rows, add the edge attributes, clamp at zero, scatter-add onto the destination rows, add the
   input) followed by a two-layer perceptron with batch normalisation over the 20000 rows (`mlpR`: linear map, column
   mean and column variance, normalise, scale and shift, optionally clamp at zero, linear map). Each stage's list of
   operations computes the stage function of the buffers it reads (`…_out`), and leaves every buffer outside the block
   of indices it writes as it was (`…_frame`). -/
import proofs.«138093_j17583596110490_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of 32-bit floats of shape `s`. -/
abbrev Tf (F : FTy → Type) (s : Shape) : Type := (⟨s, .f32⟩ : BufTy).Contents (Elt F)
/-- The contents of a buffer of 32-bit integers of shape `s`. -/
abbrev Ti (F : FTy → Type) (s : Shape) : Type := (⟨s, .i32⟩ : BufTy).Contents (Elt F)

/-! ## The neighbourhood sum -/

/-- Row 0 of the edge index: the 320000 source node ids. -/
def srcIdx (ei : Ti F S2x320000) : Ti F S320000 :=
  shapeCast S320000 (extractStridedSlice S1x320000 ![0, 0] ei slices_S2x320000_S1x320000_0_0) shapeCasts_S1x320000_S320000

/-- Row 1 of the edge index: the 320000 destination node ids. -/
def dstIdx (ei : Ti F S2x320000) : Ti F S320000 :=
  shapeCast S320000 (extractStridedSlice S1x320000 ![1, 0] ei slices_S2x320000_S1x320000_1_0) shapeCasts_S1x320000_S320000

/-- A negative node id counts from the end: `i + 20000` where `i < 0`, else `i`. -/
def wrapIdx (s : Ti F S320000) : Ti F S320000 :=
  select (cmpi .slt s (broadcastInDim S320000 ![] bcast_S_S320000 (constantI S_ 32 0#32)))
    (addi s (broadcastInDim S320000 ![] bcast_S_S320000 (constantI S_ 32 20000#32))) s

/-- The ids as a column of one-component index vectors. -/
def colIdx (s : Ti F S320000) : Ti F S320000x1 := broadcastInDim S320000x1 ![0] bcast_S320000_S320000x1_0 s

/-- `max(v, 0)` on the edge messages. -/
def reluE (v : Tf F S320000x256) : Tf F S320000x256 :=
  maximumf v (broadcastInDim S320000x256 ![] bcast_S_S320000x256 (constant S_ .f32 0x00000000#32))

/-- `x + segment_sum(relu(x[src] + edge_attr), dst)`. -/
def aggR (x : Tf F S20000x256) (ei : Ti F S2x320000) (ea : Tf F S320000x256) : Tf F S20000x256 :=
  addf x (Host.scatterAdd scatter_S20000x256_S320000x1_S320000x256_1_0_0_1
    (broadcastInDim S20000x256 ![] bcast_S_S20000x256 (constant S_ .f32 0x00000000#32))
    (colIdx (dstIdx ei))
    (reluE (addf (Host.gather gather_S20000x256_S320000x1_S320000x256_1_0_n_n_0_1_1256 x (colIdx (wrapIdx (srcIdx ei)))) ea)))

/-! ## The perceptron with batch normalisation -/

/-- A vector of 512 as every row of a 20000 × 512 array. -/
def rowB512 (v : Tf F S512) : Tf F S20000x512 :=
  broadcastInDim S20000x512 ![0, 1] bcast_S1x512_S20000x512_0_1 (broadcastInDim S1x512 ![1] bcast_S512_S1x512_1 v)

/-- A vector of 256 as every row of a 20000 × 256 array. -/
def rowB256 (v : Tf F S256) : Tf F S20000x256 :=
  broadcastInDim S20000x256 ![0, 1] bcast_S1x256_S20000x256_0_1 (broadcastInDim S1x256 ![1] bcast_S256_S1x256_1 v)

/-- `h · W + b`, 256 → 512. -/
def lin1R (h : Tf F S20000x256) (W : Tf F S256x512) (b : Tf F S512) : Tf F S20000x512 :=
  addf (Host.dotGeneral dot_S20000x256_S256x512_S20000x512_1_0_0_1_n_n none h W) (rowB512 b)

/-- `h · W + b`, 512 → 256. -/
def lin2R (h : Tf F S20000x512) (W : Tf F S512x256) (b : Tf F S256) : Tf F S20000x256 :=
  addf (Host.dotGeneral dot_S20000x512_S512x256_S20000x256_1_0_0_1_n_n none h W) (rowB256 b)

/-- The sum of each column over the 20000 rows. -/
def colSumR (z : Tf F S20000x512) : Tf F S512 :=
  Host.reduceAdd z (constant S_ .f32 0x00000000#32) reducesTo_S20000x512_S512_d0 h_S_

/-- A scalar as a vector of 512. -/
def splat512 (c : Tf F S_) : Tf F S512 := broadcastInDim S512 ![] bcast_S_S512 c

/-- The column mean: the column sum over 20000. -/
def meanR (z : Tf F S20000x512) : Tf F S512 :=
  Host.divf (colSumR z) (splat512 (constant S_ .f32 0x469C4000#32))

/-- The column variance as the outlined function computes it: the mean (kept as a row) subtracted, the squares summed
    and divided by `20000 - 0`, where that count is positive (else the literal `0x7FC00000`). -/
def varR (z : Tf F S20000x512) : Tf F S512 :=
  let n : Tf F S_ := subf (constant S_ .f32 0x469C4000#32) (sitofp .f32 (constantI S_ 32 0#32))
  let d : Tf F S20000x512 := subf z (broadcastInDim S20000x512 ![0, 1] bcast_S1x512_S20000x512_0_1
    (Host.divf (broadcastInDim S1x512 ![1] bcast_S512_S1x512_1 (colSumR z))
      (broadcastInDim S1x512 ![] bcast_S_S1x512 (constant S_ .f32 0x469C4000#32))))
  select (broadcastInDim S512 ![] bcast_S_S512 (cmpf .ogt n (constant S_ .f32 0x00000000#32)))
    (Host.divf (colSumR (mulf d d)) (splat512 n))
    (splat512 (id (constant S_ .f32 0x7FC00000#32)))

/-- Batch normalisation with the batch's own statistics: `(z - mean) * rsqrt(var + 1e-5) * g + be`. -/
def bnR (z : Tf F S20000x512) (g be : Tf F S512) : Tf F S20000x512 :=
  addf (mulf (mulf (subf z (rowB512 (meanR z)))
      (rowB512 (Host.rsqrt (addf (varR z) (splat512 (constant S_ .f32 0x3727C5AC#32)))))) (rowB512 g)) (rowB512 be)

/-- `max(v, 0)` on the hidden activations. -/
def reluH (v : Tf F S20000x512) : Tf F S20000x512 :=
  maximumf v (broadcastInDim S20000x512 ![] bcast_S_S20000x512 (constant S_ .f32 0x00000000#32))

/-- Linear, batch normalisation, the clamp at zero where `relu`, linear. -/
def mlpR (relu : Bool) (h : Tf F S20000x256) (W1 : Tf F S256x512) (b1 g be : Tf F S512) (W2 : Tf F S512x256) (b2 : Tf F S256) :
    Tf F S20000x256 :=
  lin2R (bif relu then reluH (bnR (lin1R h W1 b1) g be) else bnR (lin1R h W1 b1) g be) W2 b2

/-- One layer: the neighbourhood sum, then the perceptron. -/
def layerR (relu : Bool) (x : Tf F S20000x256) (ei : Ti F S2x320000) (ea : Tf F S320000x256)
    (W1 : Tf F S256x512) (b1 g be : Tf F S512) (W2 : Tf F S512x256) (b2 : Tf F S256) : Tf F S20000x256 :=
  mlpR relu (aggR x ei ea) W1 b1 g be W2 b2

/-! ## The sample and the divergence -/

/-- A scalar as a 20000 × 256 array. -/
def splatN (c : Tf F S_) : Tf F S20000x256 := broadcastInDim S20000x256 ![] bcast_S_S20000x256 c

/-- `noise * exp(logstd) + mean`. -/
def zR (noise mean logstd : Tf F S20000x256) : Tf F S20000x256 := addf (mulf noise (Host.exp logstd)) mean

/-- `2.5e-5 * (Σ_rows Σ_cols (1 + 2 logstd - mean² - exp(logstd)²)) / 20000`. -/
def klR (mean logstd : Tf F S20000x256) : Tf F S_ :=
  mulf (constant S_ .f32 0x37D1B717#32)
    (Host.divf (Host.reduceAdd (Host.reduceAdd
        (subf (subf (addf (splatN (constant S_ .f32 0x3F800000#32)) (mulf (splatN (constant S_ .f32 0x40000000#32)) logstd))
          (mulf mean mean)) (mulf (Host.exp logstd) (Host.exp logstd)))
        (constant S_ .f32 0x00000000#32) reducesTo_S20000x256_S20000_d1 h_S_)
      (constant S_ .f32 0x00000000#32) reducesTo_S20000_S_d0 h_S_) (constant S_ .f32 0x469C4000#32))

/-! ## Each stage's list computes its stage function -/

set_option maxRecDepth 8192 in
set_option maxHeartbeats 4000000 in
theorem sA0_out (V : Valuation τ sig (Elt F)) :
    after cA0 V (no_index (Proc.devRef .tc main_v16))
      = aggR (V (Proc.devRef .tc main_arg0)) (V (Proc.devRef .tc main_arg1)) (V (Proc.devRef .tc main_arg2)) := by
  after_results_simp
  rfl

set_option maxRecDepth 8192 in
set_option maxHeartbeats 4000000 in
theorem sA1_out (V : Valuation τ sig (Elt F)) :
    after cA1b (after cA1a V) (no_index (Proc.devRef .tc main_v61))
      = aggR (V (Proc.devRef .tc main_v44)) (V (Proc.devRef .tc main_arg1)) (V (Proc.devRef .tc main_arg2)) := by
  after_results_simp
  rfl

set_option maxRecDepth 8192 in
set_option maxHeartbeats 4000000 in
theorem sA2_out (V : Valuation τ sig (Elt F)) :
    after cA2b (after cA2a V) (no_index (Proc.devRef .tc main_v106))
      = aggR (V (Proc.devRef .tc main_v89)) (V (Proc.devRef .tc main_arg1)) (V (Proc.devRef .tc main_arg2)) := by
  after_results_simp
  rfl

set_option maxRecDepth 8192 in
set_option maxHeartbeats 4000000 in
theorem sA3_out (V : Valuation τ sig (Elt F)) :
    after cA3 V (no_index (Proc.devRef .tc main_v150))
      = aggR (V (Proc.devRef .tc main_v89)) (V (Proc.devRef .tc main_arg1)) (V (Proc.devRef .tc main_arg2)) := by
  after_results_simp
  rfl

set_option maxRecDepth 8192 in
set_option maxHeartbeats 8000000 in
theorem sM0_out (V : Valuation τ sig (Elt F)) :
    after cM0 V (no_index (Proc.devRef .tc main_v44))
      = mlpR true (V (Proc.devRef .tc main_v16)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  after_results_simp
  rfl

set_option maxRecDepth 8192 in
set_option maxHeartbeats 8000000 in
theorem sM1_out (V : Valuation τ sig (Elt F)) :
    after cM1 V (no_index (Proc.devRef .tc main_v89))
      = mlpR true (V (Proc.devRef .tc main_v61)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  after_results_simp
  rfl

set_option maxRecDepth 8192 in
set_option maxHeartbeats 8000000 in
theorem sM2_out (V : Valuation τ sig (Elt F)) :
    after cM2 V (no_index (Proc.devRef .tc main_v133))
      = mlpR false (V (Proc.devRef .tc main_v106)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  after_results_simp
  rfl

set_option maxRecDepth 8192 in
set_option maxHeartbeats 8000000 in
theorem sM3_out (V : Valuation τ sig (Elt F)) :
    after cM3b (after cM3a V) (no_index (Proc.devRef .tc main_v177))
      = mlpR false (V (Proc.devRef .tc main_v150)) (V (Proc.devRef .tc main_arg22)) (V (Proc.devRef .tc main_arg23)) (V (Proc.devRef .tc main_arg24)) (V (Proc.devRef .tc main_arg25)) (V (Proc.devRef .tc main_arg26)) (V (Proc.devRef .tc main_arg27)) := by
  after_results_simp
  rfl

set_option maxRecDepth 8192 in
set_option maxHeartbeats 4000000 in
theorem sT_z (V : Valuation τ sig (Elt F)) :
    after cT V (no_index (Proc.devRef .tc main_v180)) = zR (V (Proc.devRef .tc main_arg3)) (V (Proc.devRef .tc main_v133)) (V (Proc.devRef .tc main_v177)) := by
  after_results_simp
  rfl

set_option maxRecDepth 8192 in
set_option maxHeartbeats 4000000 in
theorem sT_kl (V : Valuation τ sig (Elt F)) :
    after cT V (no_index (Proc.devRef .tc main_v193)) = klR (V (Proc.devRef .tc main_v133)) (V (Proc.devRef .tc main_v177)) := by
  after_results_simp
  rfl

/-! ## A list leaves the buffers outside its block of indices as they were -/

theorem cA0_frame (V : Valuation τ sig (Elt F)) (r : Ref sig .tc) (hr : r.idx.val < 28 ∨ 49 < r.idx.val) :
    after cA0 V (no_index (Proc.devRef .tc r)) = V (Proc.devRef .tc r) := after_frame cA0 cA0_writes V r hr

theorem cM0_frame (V : Valuation τ sig (Elt F)) (r : Ref sig .tc) (hr : r.idx.val < 50 ∨ 104 < r.idx.val) :
    after cM0 V (no_index (Proc.devRef .tc r)) = V (Proc.devRef .tc r) := after_frame cM0 cM0_writes V r hr

theorem cA1a_frame (V : Valuation τ sig (Elt F)) (r : Ref sig .tc) (hr : r.idx.val < 105 ∨ 112 < r.idx.val) :
    after cA1a V (no_index (Proc.devRef .tc r)) = V (Proc.devRef .tc r) := after_frame cA1a cA1a_writes V r hr

theorem cA1b_frame (V : Valuation τ sig (Elt F)) (r : Ref sig .tc) (hr : r.idx.val < 113 ∨ 126 < r.idx.val) :
    after cA1b V (no_index (Proc.devRef .tc r)) = V (Proc.devRef .tc r) := after_frame cA1b cA1b_writes V r hr

theorem cM1_frame (V : Valuation τ sig (Elt F)) (r : Ref sig .tc) (hr : r.idx.val < 127 ∨ 181 < r.idx.val) :
    after cM1 V (no_index (Proc.devRef .tc r)) = V (Proc.devRef .tc r) := after_frame cM1 cM1_writes V r hr

theorem cA2a_frame (V : Valuation τ sig (Elt F)) (r : Ref sig .tc) (hr : r.idx.val < 182 ∨ 199 < r.idx.val) :
    after cA2a V (no_index (Proc.devRef .tc r)) = V (Proc.devRef .tc r) := after_frame cA2a cA2a_writes V r hr

theorem cA2b_frame (V : Valuation τ sig (Elt F)) (r : Ref sig .tc) (hr : r.idx.val < 200 ∨ 203 < r.idx.val) :
    after cA2b V (no_index (Proc.devRef .tc r)) = V (Proc.devRef .tc r) := after_frame cA2b cA2b_writes V r hr

theorem cM2_frame (V : Valuation τ sig (Elt F)) (r : Ref sig .tc) (hr : r.idx.val < 204 ∨ 255 < r.idx.val) :
    after cM2 V (no_index (Proc.devRef .tc r)) = V (Proc.devRef .tc r) := after_frame cM2 cM2_writes V r hr

theorem cA3_frame (V : Valuation τ sig (Elt F)) (r : Ref sig .tc) (hr : r.idx.val < 256 ∨ 277 < r.idx.val) :
    after cA3 V (no_index (Proc.devRef .tc r)) = V (Proc.devRef .tc r) := after_frame cA3 cA3_writes V r hr

theorem cM3a_frame (V : Valuation τ sig (Elt F)) (r : Ref sig .tc) (hr : r.idx.val < 278 ∨ 282 < r.idx.val) :
    after cM3a V (no_index (Proc.devRef .tc r)) = V (Proc.devRef .tc r) := after_frame cM3a cM3a_writes V r hr

theorem cM3b_frame (V : Valuation τ sig (Elt F)) (r : Ref sig .tc) (hr : r.idx.val < 283 ∨ 329 < r.idx.val) :
    after cM3b V (no_index (Proc.devRef .tc r)) = V (Proc.devRef .tc r) := after_frame cM3b cM3b_writes V r hr

theorem cT_frame (V : Valuation τ sig (Elt F)) (r : Ref sig .tc) (hr : r.idx.val < 330 ∨ 351 < r.idx.val) :
    after cT V (no_index (Proc.devRef .tc r)) = V (Proc.devRef .tc r) := after_frame cT cT_writes V r hr

end Cert.ReferenceIdeal.RefRun

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«138093_j17583596110490_1_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.LibKeepdims.lean ====
/-
  Row reductions that keep the reduced axis as a unit axis, read at an entry on the extended reals.

  A kernel that takes `sum(x, axis=-1, keepdims=True)` of an [a, b] block does three layout steps around the
  arithmetic: the lane sum into [a], a cast of [a] to the column shape [a, 1], and later a broadcast of an [a, 1]
  column back over the b lanes. Read at an entry written by its coordinates:
    * the cast [a] → [a, 1] at (i, u) is the vector at i;
    * the broadcast [a, 1] → [a, b] at (p, c) is the column at (p, 0);
    * the lane sum of an [a, b] array at i is the sum over k of the array at (i, k);
    * a [1, b] row cast to its own shape and broadcast over a rows reads, at (p, c), the row at (0, c).
  Over any extents a, b.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type} {a b : ℕ}

/-- An `[a]` vector cast to the column shape `[a, 1]` reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column at `(p, 0)`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, at row `i`, is the sum over `k` of the array at `(i, k)`. -/
theorem laneSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax; apply Fin.ext
  match ax with
  | ⟨0, _⟩ => rfl
  | ⟨1, _⟩ => rfl

/-- The lane sum kept as a column: the `[a]` sums cast to `[a, 1]` read, at `(i, u)`, the sum over `k` of the array at `(i, k)`. -/
theorem keepdimsSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (hc : (⟨1, ![a]⟩ : Shape).ShapeCasts ⟨2, ![a, 1]⟩)
    (i : Fin a) (u : Fin 1) :
    shapeCast ⟨2, ![a, 1]⟩ (multiReduction .add [1] ⟨1, ![a]⟩ src 0x00000000#32 h hφ hacc) hc (ix2 i u)
      = ∑ k : Fin b, src (ix2 i k) :=
  (shapeCast_a_a1_apply _ hc i u).trans (laneSum_apply src h hφ hacc i)

/-- A `[1, b]` row, cast to its own shape and broadcast over `a` rows, reads at `(p, c)` the row at `(0, c)`. -/
theorem rowBroadcast_apply (v : (⟨2, ![1, b]⟩ : Shape).Idx → α) (hc : (⟨2, ![1, b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix2 (0 : Fin 1) c) := by
  rw [shapeCast_self]
  exact broadcastTo_1b_ab_apply v h p c

end Cert.LibKeepdims
-- ==== Proof.LibColSum.lean ====
/-
  Column sums of a two-dimensional array, read at an entry on the extended reals.

  A kernel that accumulates per-column statistics of an [a, b] block takes the sum over the rows (axis 0) into a
  vector [b] and casts it to the one-row shape [1, b] of its accumulator. Read at an entry written by its coordinates:
    * the sum over axis 0 of an [a, b] array at k is the sum over i of the array at (i, k);
    * the same sums kept as a [1, b] row read, at (u, k), that sum.
  Over any extents a, b.
-/
import Idealize.ShloMosaic.PureOps.Ideal.Laws
import Idealize.ShloMosaic.Lib.ValueIdx
import Idealize.ShloMosaic.Lib.ValueLayout
import Idealize.ShloMosaic.Lib.Pipeline.Value

namespace Cert.LibColSum

open Idealize.ShloMosaic Idealize.ShloMosaic.ValueIdx

variable {a b : ℕ}

/-- The sum over the rows of an `[a, b]` array of extended reals, at column `k`, is the sum over `i` of the array at `(i, k)`. -/
theorem colSum_apply (src : FVec Ideal (⟨2, ![a, b]⟩ : Shape) .f32)
    (h : (⟨2, ![a, b]⟩ : Shape).Reduces [0] ⟨1, ![b]⟩) (hφ : FKind.Formats .f32)
    (hacc : (0x00000000#32 : BitVec (FTy.bits .f32)) = FKind.add.neutral .f32 hφ) (k : Fin b) :
    multiReduction .add [0] ⟨1, ![b]⟩ src 0x00000000#32 h hφ hacc (ix1 k) = ∑ i : Fin a, src (ix2 i k) := by
  refine (Ideal.multiReduction_add_single src 0x00000000#32 h hφ hacc (ix1 k)).trans ?_
  refine Finset.sum_congr rfl fun i _ => congrArg src ?_
  funext ax; apply Fin.ext
  match ax with
  | ⟨0, _⟩ => rfl
  | ⟨1, _⟩ => rfl

/-- The column sums kept as a one-row array: the `[b]` sums cast to `[1, b]` read, at `(u, k)`, the sum over `i` of the array at `(i, k)`. -/
theorem rowOfColSums_apply (src : FVec Ideal (⟨2, ![a, b]⟩ : Shape) .f32)
    (h : (⟨2, ![a, b]⟩ : Shape).Reduces [0] ⟨1, ![b]⟩) (hφ : FKind.Formats .f32)
    (hacc : (0x00000000#32 : BitVec (FTy.bits .f32)) = FKind.add.neutral .f32 hφ)
    (hc : (⟨1, ![b]⟩ : Shape).ShapeCasts ⟨2, ![1, b]⟩) (u : Fin 1) (k : Fin b) :
    shapeCast ⟨2, ![1, b]⟩ (multiReduction .add [0] ⟨1, ![b]⟩ src 0x00000000#32 h hφ hacc) hc (ix2 u k)
      = ∑ i : Fin a, src (ix2 i k) :=
  (shapeCast_a_1a_apply _ hc u k).trans (colSum_apply src h hφ hacc k)

end Cert.LibColSum
-- ==== Proof.PayloadsMm1.lean ====
/-
  The values stored by the first kernel of each of the four layers, read entry by entry on the extended reals.

  The first kernel of a layer works on one tile of 2000 rows of the layer's input X : [2000, 256], with the weight
  matrix W1 : [256, 512] and the bias row b1 : [1, 512] loaded whole. It stores
    * the dense block  h = X W1 + b1 : [2000, 512], whose entry (p, q) is (∑ j, X (p, j) * W1 (j, q)) + b1 (0, q);
    * the running column sums: the accumulator row plus, at column q, the sum over the tile's 2000 rows of h (p, q);
    * the running column sums of squares: the same with h (p, q) * h (p, q);
    * at the first tile, before anything else, zero into both accumulator rows.
  On the extended reals a change of float format is the identity, a cast of a shape to itself does nothing, the
  product into the zero accumulator is the plain sum over the contracted axis, and a sum over axis 0 kept as a one-row
  array is, at column q, the sum over the rows.
  The four layers' kernels have the same text, so the four groups of statements below are the same statements.
-/
import proofs.«138093_j17583596110490_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«138093_j17583596110490_1_alg».proof.Proof.LibMatmul2D
import proofs.«138093_j17583596110490_1_alg».proof.Proof.LibKeepdims
import proofs.«138093_j17583596110490_1_alg».proof.Proof.LibColSum

namespace Cert.KernelIdeal.Payloads

open Idealize.ShloMosaic Idealize.ShloMosaic.ValueIdx Cert.KernelIdeal Cert.KernelIdeal.Gen

/-! ### The first kernel of the layer whose payloads are named `k0_` -/

/-- The dense block at entry `(p, q)`: row `p` of the input tile against column `q` of the weights, plus the bias at `q`. -/
theorem k0_pay3_apply (x : Vec Ideal S2000x256 .f32) (w : Vec Ideal S256x512 .f32) (b : Vec Ideal S1x512 .f32)
    (p : Fin 2000) (q : Fin 512) :
    k0_pay3 x w b (ix2 p q) = (∑ j : Fin 256, x (ix2 p j) * w (ix2 j q)) + b (ix2 (0 : Fin 1) q) := by
  show FloatOps.matmul (F := Ideal) dot_S2000x256_S256x512_S2000x512_1_0_0_1_n_n none
        (truncf .bf16 (shapeCast S2000x256 x Facts₀.shapeCasts_S2000x256_S2000x256) Facts₀.bitsLt_bf16_f32)
        (truncf .bf16 w Facts₀.bitsLt_bf16_f32) (constant (F := Ideal) S2000x512 .f32 0x00000000#32) (ix2 p q)
      + broadcastTo S2000x512 (shapeCast S1x512 b Facts₀.shapeCasts_S1x512_S1x512) Facts₀.broadcasts_S1x512_S2000x512 (ix2 p q) = _
  refine congrArg₂ (· + ·) ?_ (Cert.LibKeepdims.rowBroadcast_apply b _ _ p q)
  refine (Cert.LibMatmul2D.rows_cols Facts₀.dot_S2000x256_S256x512_S2000x512_1_0_0_1_n_n_wf none
    (truncf .bf16 (shapeCast S2000x256 x Facts₀.shapeCasts_S2000x256_S2000x256) Facts₀.bitsLt_bf16_f32)
    (truncf .bf16 w Facts₀.bitsLt_bf16_f32) p q).trans ?_
  rw [shapeCast_self]
  rfl

/-- The running column sum after this tile, at column `q`: the accumulator there plus the sum over the tile's rows of the dense block. -/
theorem k0_pay4_apply (x : Vec Ideal S2000x256 .f32) (w : Vec Ideal S256x512 .f32) (b : Vec Ideal S1x512 .f32)
    (acc : Vec Ideal S1x512 .f32) (q : Fin 512) :
    k0_pay4 x w b acc (ix2 (0 : Fin 1) q) = acc (ix2 (0 : Fin 1) q) + ∑ p : Fin 2000, k0_pay3 x w b (ix2 p q) := by
  show shapeCast S1x512 (addf acc (shapeCast S1x512
        (multiReduction .add [0] S512 (k0_pay3 x w b) 0x00000000#32 Facts₀.reduces_S2000x512_S512 (.inl rfl) rfl)
        Facts₀.shapeCasts_S512_S1x512)) Facts₀.shapeCasts_S1x512_S1x512 (ix2 (0 : Fin 1) q) = _
  rw [shapeCast_self]
  exact congrArg (acc (ix2 (0 : Fin 1) q) + ·)
    (Cert.LibColSum.rowOfColSums_apply (k0_pay3 x w b) _ _ _ _ (0 : Fin 1) q)

/-- The running column sum of squares after this tile, at column `q`: the accumulator there plus the sum over the tile's rows of the squared dense block. -/
theorem k0_pay5_apply (x : Vec Ideal S2000x256 .f32) (w : Vec Ideal S256x512 .f32) (b : Vec Ideal S1x512 .f32)
    (acc : Vec Ideal S1x512 .f32) (q : Fin 512) :
    k0_pay5 x w b acc (ix2 (0 : Fin 1) q)
      = acc (ix2 (0 : Fin 1) q) + ∑ p : Fin 2000, k0_pay3 x w b (ix2 p q) * k0_pay3 x w b (ix2 p q) := by
  show shapeCast S1x512 (addf acc (shapeCast S1x512
        (multiReduction .add [0] S512 (mulf (k0_pay3 x w b) (k0_pay3 x w b)) 0x00000000#32 Facts₀.reduces_S2000x512_S512 (.inl rfl) rfl)
        Facts₀.shapeCasts_S512_S1x512)) Facts₀.shapeCasts_S1x512_S1x512 (ix2 (0 : Fin 1) q) = _
  rw [shapeCast_self]
  exact congrArg (acc (ix2 (0 : Fin 1) q) + ·)
    (Cert.LibColSum.rowOfColSums_apply (mulf (k0_pay3 x w b) (k0_pay3 x w b)) _ _ _ _ (0 : Fin 1) q)

/-- The value the sum accumulator is reset to at the first tile: zero at every column. -/
theorem k0_pay1_apply (q : Fin 512) : k0_pay1 (F := Ideal) (ix2 (0 : Fin 1) q) = 0 := by
  show shapeCast S1x512 (broadcast S1x512 (Scalar.ofBits (F := Ideal) .f32 0x00000000#32)) Facts₀.shapeCasts_S1x512_S1x512 (ix2 (0 : Fin 1) q) = _
  rw [shapeCast_self]
  exact Ideal.ofBits_zero_f32

/-- The value the sum-of-squares accumulator is reset to at the first tile: zero at every column. -/
theorem k0_pay2_apply (q : Fin 512) : k0_pay2 (F := Ideal) (ix2 (0 : Fin 1) q) = 0 := by
  show shapeCast S1x512 (broadcast S1x512 (Scalar.ofBits (F := Ideal) .f32 0x00000000#32)) Facts₀.shapeCasts_S1x512_S1x512 (ix2 (0 : Fin 1) q) = _
  rw [shapeCast_self]
  exact Ideal.ofBits_zero_f32

/-! ### The first kernel of the layer whose payloads are named `k2_` -/

/-- The dense block at entry `(p, q)`: row `p` of the input tile against column `q` of the weights, plus the bias at `q`. -/
theorem k2_pay3_apply (x : Vec Ideal S2000x256 .f32) (w : Vec Ideal S256x512 .f32) (b : Vec Ideal S1x512 .f32)
    (p : Fin 2000) (q : Fin 512) :
    k2_pay3 x w b (ix2 p q) = (∑ j : Fin 256, x (ix2 p j) * w (ix2 j q)) + b (ix2 (0 : Fin 1) q) := by
  show FloatOps.matmul (F := Ideal) dot_S2000x256_S256x512_S2000x512_1_0_0_1_n_n none
        (truncf .bf16 (shapeCast S2000x256 x Facts₀.shapeCasts_S2000x256_S2000x256) Facts₀.bitsLt_bf16_f32)
        (truncf .bf16 w Facts₀.bitsLt_bf16_f32) (constant (F := Ideal) S2000x512 .f32 0x00000000#32) (ix2 p q)
      + broadcastTo S2000x512 (shapeCast S1x512 b Facts₀.shapeCasts_S1x512_S1x512) Facts₀.broadcasts_S1x512_S2000x512 (ix2 p q) = _
  refine congrArg₂ (· + ·) ?_ (Cert.LibKeepdims.rowBroadcast_apply b _ _ p q)
  refine (Cert.LibMatmul2D.rows_cols Facts₀.dot_S2000x256_S256x512_S2000x512_1_0_0_1_n_n_wf none
    (truncf .bf16 (shapeCast S2000x256 x Facts₀.shapeCasts_S2000x256_S2000x256) Facts₀.bitsLt_bf16_f32)
    (truncf .bf16 w Facts₀.bitsLt_bf16_f32) p q).trans ?_
  rw [shapeCast_self]
  rfl

/-- The running column sum after this tile, at column `q`: the accumulator there plus the sum over the tile's rows of the dense block. -/
theorem k2_pay4_apply (x : Vec Ideal S2000x256 .f32) (w : Vec Ideal S256x512 .f32) (b : Vec Ideal S1x512 .f32)
    (acc : Vec Ideal S1x512 .f32) (q : Fin 512) :
    k2_pay4 x w b acc (ix2 (0 : Fin 1) q) = acc (ix2 (0 : Fin 1) q) + ∑ p : Fin 2000, k2_pay3 x w b (ix2 p q) := by
  show shapeCast S1x512 (addf acc (shapeCast S1x512
        (multiReduction .add [0] S512 (k2_pay3 x w b) 0x00000000#32 Facts₀.reduces_S2000x512_S512 (.inl rfl) rfl)
        Facts₀.shapeCasts_S512_S1x512)) Facts₀.shapeCasts_S1x512_S1x512 (ix2 (0 : Fin 1) q) = _
  rw [shapeCast_self]
  exact congrArg (acc (ix2 (0 : Fin 1) q) + ·)
    (Cert.LibColSum.rowOfColSums_apply (k2_pay3 x w b) _ _ _ _ (0 : Fin 1) q)

/-- The running column sum of squares after this tile, at column `q`: the accumulator there plus the sum over the tile's rows of the squared dense block. -/
theorem k2_pay5_apply (x : Vec Ideal S2000x256 .f32) (w : Vec Ideal S256x512 .f32) (b : Vec Ideal S1x512 .f32)
    (acc : Vec Ideal S1x512 .f32) (q : Fin 512) :
    k2_pay5 x w b acc (ix2 (0 : Fin 1) q)
      = acc (ix2 (0 : Fin 1) q) + ∑ p : Fin 2000, k2_pay3 x w b (ix2 p q) * k2_pay3 x w b (ix2 p q) := by
  show shapeCast S1x512 (addf acc (shapeCast S1x512
        (multiReduction .add [0] S512 (mulf (k2_pay3 x w b) (k2_pay3 x w b)) 0x00000000#32 Facts₀.reduces_S2000x512_S512 (.inl rfl) rfl)
        Facts₀.shapeCasts_S512_S1x512)) Facts₀.shapeCasts_S1x512_S1x512 (ix2 (0 : Fin 1) q) = _
  rw [shapeCast_self]
  exact congrArg (acc (ix2 (0 : Fin 1) q) + ·)
    (Cert.LibColSum.rowOfColSums_apply (mulf (k2_pay3 x w b) (k2_pay3 x w b)) _ _ _ _ (0 : Fin 1) q)

/-- The value the sum accumulator is reset to at the first tile: zero at every column. -/
theorem k2_pay1_apply (q : Fin 512) : k2_pay1 (F := Ideal) (ix2 (0 : Fin 1) q) = 0 := by
  show shapeCast S1x512 (broadcast S1x512 (Scalar.ofBits (F := Ideal) .f32 0x00000000#32)) Facts₀.shapeCasts_S1x512_S1x512 (ix2 (0 : Fin 1) q) = _
  rw [shapeCast_self]
  exact Ideal.ofBits_zero_f32

/-- The value the sum-of-squares accumulator is reset to at the first tile: zero at every column. -/
theorem k2_pay2_apply (q : Fin 512) : k2_pay2 (F := Ideal) (ix2 (0 : Fin 1) q) = 0 := by
  show shapeCast S1x512 (broadcast S1x512 (Scalar.ofBits (F := Ideal) .f32 0x00000000#32)) Facts₀.shapeCasts_S1x512_S1x512 (ix2 (0 : Fin 1) q) = _
  rw [shapeCast_self]
  exact Ideal.ofBits_zero_f32

/-! ### The first kernel of the layer whose payloads are named `k4_` -/

/-- The dense block at entry `(p, q)`: row `p` of the input tile against column `q` of the weights, plus the bias at `q`. -/
theorem k4_pay3_apply (x : Vec Ideal S2000x256 .f32) (w : Vec Ideal S256x512 .f32) (b : Vec Ideal S1x512 .f32)
    (p : Fin 2000) (q : Fin 512) :
    k4_pay3 x w b (ix2 p q) = (∑ j : Fin 256, x (ix2 p j) * w (ix2 j q)) + b (ix2 (0 : Fin 1) q) := by
  show FloatOps.matmul (F := Ideal) dot_S2000x256_S256x512_S2000x512_1_0_0_1_n_n none
        (truncf .bf16 (shapeCast S2000x256 x Facts₀.shapeCasts_S2000x256_S2000x256) Facts₀.bitsLt_bf16_f32)
        (truncf .bf16 w Facts₀.bitsLt_bf16_f32) (constant (F := Ideal) S2000x512 .f32 0x00000000#32) (ix2 p q)
      + broadcastTo S2000x512 (shapeCast S1x512 b Facts₀.shapeCasts_S1x512_S1x512) Facts₀.broadcasts_S1x512_S2000x512 (ix2 p q) = _
  refine congrArg₂ (· + ·) ?_ (Cert.LibKeepdims.rowBroadcast_apply b _ _ p q)
  refine (Cert.LibMatmul2D.rows_cols Facts₀.dot_S2000x256_S256x512_S2000x512_1_0_0_1_n_n_wf none
    (truncf .bf16 (shapeCast S2000x256 x Facts₀.shapeCasts_S2000x256_S2000x256) Facts₀.bitsLt_bf16_f32)
    (truncf .bf16 w Facts₀.bitsLt_bf16_f32) p q).trans ?_
  rw [shapeCast_self]
  rfl

/-- The running column sum after this tile, at column `q`: the accumulator there plus the sum over the tile's rows of the dense block. -/
theorem k4_pay4_apply (x : Vec Ideal S2000x256 .f32) (w : Vec Ideal S256x512 .f32) (b : Vec Ideal S1x512 .f32)
    (acc : Vec Ideal S1x512 .f32) (q : Fin 512) :
    k4_pay4 x w b acc (ix2 (0 : Fin 1) q) = acc (ix2 (0 : Fin 1) q) + ∑ p : Fin 2000, k4_pay3 x w b (ix2 p q) := by
  show shapeCast S1x512 (addf acc (shapeCast S1x512
        (multiReduction .add [0] S512 (k4_pay3 x w b) 0x00000000#32 Facts₀.reduces_S2000x512_S512 (.inl rfl) rfl)
        Facts₀.shapeCasts_S512_S1x512)) Facts₀.shapeCasts_S1x512_S1x512 (ix2 (0 : Fin 1) q) = _
  rw [shapeCast_self]
  exact congrArg (acc (ix2 (0 : Fin 1) q) + ·)
    (Cert.LibColSum.rowOfColSums_apply (k4_pay3 x w b) _ _ _ _ (0 : Fin 1) q)

/-- The running column sum of squares after this tile, at column `q`: the accumulator there plus the sum over the tile's rows of the squared dense block. -/
theorem k4_pay5_apply (x : Vec Ideal S2000x256 .f32) (w : Vec Ideal S256x512 .f32) (b : Vec Ideal S1x512 .f32)
    (acc : Vec Ideal S1x512 .f32) (q : Fin 512) :
    k4_pay5 x w b acc (ix2 (0 : Fin 1) q)
      = acc (ix2 (0 : Fin 1) q) + ∑ p : Fin 2000, k4_pay3 x w b (ix2 p q) * k4_pay3 x w b (ix2 p q) := by
  show shapeCast S1x512 (addf acc (shapeCast S1x512
        (multiReduction .add [0] S512 (mulf (k4_pay3 x w b) (k4_pay3 x w b)) 0x00000000#32 Facts₀.reduces_S2000x512_S512 (.inl rfl) rfl)
        Facts₀.shapeCasts_S512_S1x512)) Facts₀.shapeCasts_S1x512_S1x512 (ix2 (0 : Fin 1) q) = _
  rw [shapeCast_self]
  exact congrArg (acc (ix2 (0 : Fin 1) q) + ·)
    (Cert.LibColSum.rowOfColSums_apply (mulf (k4_pay3 x w b) (k4_pay3 x w b)) _ _ _ _ (0 : Fin 1) q)

/-- The value the sum accumulator is reset to at the first tile: zero at every column. -/
theorem k4_pay1_apply (q : Fin 512) : k4_pay1 (F := Ideal) (ix2 (0 : Fin 1) q) = 0 := by
  show shapeCast S1x512 (broadcast S1x512 (Scalar.ofBits (F := Ideal) .f32 0x00000000#32)) Facts₀.shapeCasts_S1x512_S1x512 (ix2 (0 : Fin 1) q) = _
  rw [shapeCast_self]
  exact Ideal.ofBits_zero_f32

/-- The value the sum-of-squares accumulator is reset to at the first tile: zero at every column. -/
theorem k4_pay2_apply (q : Fin 512) : k4_pay2 (F := Ideal) (ix2 (0 : Fin 1) q) = 0 := by
  show shapeCast S1x512 (broadcast S1x512 (Scalar.ofBits (F := Ideal) .f32 0x00000000#32)) Facts₀.shapeCasts_S1x512_S1x512 (ix2 (0 : Fin 1) q) = _
  rw [shapeCast_self]
  exact Ideal.ofBits_zero_f32

/-! ### The first kernel of the layer whose payloads are named `k6_` -/

/-- The dense block at entry `(p, q)`: row `p` of the input tile against column `q` of the weights, plus the bias at `q`. -/
theorem k6_pay3_apply (x : Vec Ideal S2000x256 .f32) (w : Vec Ideal S256x512 .f32) (b : Vec Ideal S1x512 .f32)
    (p : Fin 2000) (q : Fin 512) :
    k6_pay3 x w b (ix2 p q) = (∑ j : Fin 256, x (ix2 p j) * w (ix2 j q)) + b (ix2 (0 : Fin 1) q) := by
  show FloatOps.matmul (F := Ideal) dot_S2000x256_S256x512_S2000x512_1_0_0_1_n_n none
        (truncf .bf16 (shapeCast S2000x256 x Facts₀.shapeCasts_S2000x256_S2000x256) Facts₀.bitsLt_bf16_f32)
        (truncf .bf16 w Facts₀.bitsLt_bf16_f32) (constant (F := Ideal) S2000x512 .f32 0x00000000#32) (ix2 p q)
      + broadcastTo S2000x512 (shapeCast S1x512 b Facts₀.shapeCasts_S1x512_S1x512) Facts₀.broadcasts_S1x512_S2000x512 (ix2 p q) = _
  refine congrArg₂ (· + ·) ?_ (Cert.LibKeepdims.rowBroadcast_apply b _ _ p q)
  refine (Cert.LibMatmul2D.rows_cols Facts₀.dot_S2000x256_S256x512_S2000x512_1_0_0_1_n_n_wf none
    (truncf .bf16 (shapeCast S2000x256 x Facts₀.shapeCasts_S2000x256_S2000x256) Facts₀.bitsLt_bf16_f32)
    (truncf .bf16 w Facts₀.bitsLt_bf16_f32) p q).trans ?_
  rw [shapeCast_self]
  rfl

/-- The running column sum after this tile, at column `q`: the accumulator there plus the sum over the tile's rows of the dense block. -/
theorem k6_pay4_apply (x : Vec Ideal S2000x256 .f32) (w : Vec Ideal S256x512 .f32) (b : Vec Ideal S1x512 .f32)
    (acc : Vec Ideal S1x512 .f32) (q : Fin 512) :
    k6_pay4 x w b acc (ix2 (0 : Fin 1) q) = acc (ix2 (0 : Fin 1) q) + ∑ p : Fin 2000, k6_pay3 x w b (ix2 p q) := by
  show shapeCast S1x512 (addf acc (shapeCast S1x512
        (multiReduction .add [0] S512 (k6_pay3 x w b) 0x00000000#32 Facts₀.reduces_S2000x512_S512 (.inl rfl) rfl)
        Facts₀.shapeCasts_S512_S1x512)) Facts₀.shapeCasts_S1x512_S1x512 (ix2 (0 : Fin 1) q) = _
  rw [shapeCast_self]
  exact congrArg (acc (ix2 (0 : Fin 1) q) + ·)
    (Cert.LibColSum.rowOfColSums_apply (k6_pay3 x w b) _ _ _ _ (0 : Fin 1) q)

/-- The running column sum of squares after this tile, at column `q`: the accumulator there plus the sum over the tile's rows of the squared dense block. -/
theorem k6_pay5_apply (x : Vec Ideal S2000x256 .f32) (w : Vec Ideal S256x512 .f32) (b : Vec Ideal S1x512 .f32)
    (acc : Vec Ideal S1x512 .f32) (q : Fin 512) :
    k6_pay5 x w b acc (ix2 (0 : Fin 1) q)
      = acc (ix2 (0 : Fin 1) q) + ∑ p : Fin 2000, k6_pay3 x w b (ix2 p q) * k6_pay3 x w b (ix2 p q) := by
  show shapeCast S1x512 (addf acc (shapeCast S1x512
        (multiReduction .add [0] S512 (mulf (k6_pay3 x w b) (k6_pay3 x w b)) 0x00000000#32 Facts₀.reduces_S2000x512_S512 (.inl rfl) rfl)
        Facts₀.shapeCasts_S512_S1x512)) Facts₀.shapeCasts_S1x512_S1x512 (ix2 (0 : Fin 1) q) = _
  rw [shapeCast_self]
  exact congrArg (acc (ix2 (0 : Fin 1) q) + ·)
    (Cert.LibColSum.rowOfColSums_apply (mulf (k6_pay3 x w b) (k6_pay3 x w b)) _ _ _ _ (0 : Fin 1) q)

/-- The value the sum accumulator is reset to at the first tile: zero at every column. -/
theorem k6_pay1_apply (q : Fin 512) : k6_pay1 (F := Ideal) (ix2 (0 : Fin 1) q) = 0 := by
  show shapeCast S1x512 (broadcast S1x512 (Scalar.ofBits (F := Ideal) .f32 0x00000000#32)) Facts₀.shapeCasts_S1x512_S1x512 (ix2 (0 : Fin 1) q) = _
  rw [shapeCast_self]
  exact Ideal.ofBits_zero_f32

/-- The value the sum-of-squares accumulator is reset to at the first tile: zero at every column. -/
theorem k6_pay2_apply (q : Fin 512) : k6_pay2 (F := Ideal) (ix2 (0 : Fin 1) q) = 0 := by
  show shapeCast S1x512 (broadcast S1x512 (Scalar.ofBits (F := Ideal) .f32 0x00000000#32)) Facts₀.shapeCasts_S1x512_S1x512 (ix2 (0 : Fin 1) q) = _
  rw [shapeCast_self]
  exact Ideal.ofBits_zero_f32

end Cert.KernelIdeal.Payloads
-- ==== Proof.PayloadsMm2.lean ====
/-
  The value stored by the second kernel of each of the four layers, read entry by entry on the extended reals.

  The second kernel of a layer works on one tile h : [2000, 512] of the dense block, with the column means and
  variances, the scale g and shift be (one-row arrays [1, 512]), the weight matrix W2 : [512, 256] and the bias row
  b2 : [1, 256] loaded whole. It normalises every column, scales and shifts it, in the first two layers rectifies it,
  and applies the second dense layer: entry (p, q) of what it stores is
      (∑ k, a (p, k) * W2 (k, q)) + b2 (0, q),
  with  a (p, k) = (h (p, k) - mean (0, k)) * rsqrt (var (0, k) + eps) * g (0, k) + be (0, k),  replaced by
  max (a (p, k)) 0 in the layers that rectify; eps is the float constant of the kernel text.
  The first and second layers' kernels have the same text, as have the third and fourth layers' kernels.
-/
import proofs.«138093_j17583596110490_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«138093_j17583596110490_1_alg».proof.Proof.LibMatmul2D
import proofs.«138093_j17583596110490_1_alg».proof.Proof.LibKeepdims

namespace Cert.KernelIdeal.Payloads

open Idealize.ShloMosaic Idealize.ShloMosaic.ValueIdx Cert.KernelIdeal Cert.KernelIdeal.Gen

/-- The second kernel's stored block, in a layer that rectifies (payloads named `k1_`), at entry `(p, q)`. -/
theorem k1_pay1_apply (h : Vec Ideal S2000x512 .f32) (var mean g be : Vec Ideal S1x512 .f32)
    (W2 : Vec Ideal S512x256 .f32) (b2 : Vec Ideal S1x256 .f32) (p : Fin 2000) (q : Fin 256) :
    k1_pay1 h var mean g be W2 b2 (ix2 p q)
      = (∑ k : Fin 512,
          max ((h (ix2 p k) - mean (ix2 (0 : Fin 1) k))
                * Ideal.rsqrt (var (ix2 (0 : Fin 1) k) + Ideal.ofBits .f32 0x3727C5AC#32)
                * g (ix2 (0 : Fin 1) k) + be (ix2 (0 : Fin 1) k)) 0
            * W2 (ix2 k q))
        + b2 (ix2 (0 : Fin 1) q) := by
  unfold k1_pay1
  rw [addf_apply]
  refine congrArg₂ (· + ·) ?_ (Cert.LibKeepdims.rowBroadcast_apply b2 _ _ p q)
  refine (Cert.LibMatmul2D.rows_cols Facts₀.dot_S2000x512_S512x256_S2000x256_1_0_0_1_n_n_wf none _ _ p q).trans ?_
  refine Finset.sum_congr rfl fun k _ => ?_
  rw [truncf_apply, truncf_apply, maximumf_apply, addf_apply, mulf_apply, mulf_apply, subf_apply, broadcast_apply]
  rw [shapeCast_self h, Cert.LibKeepdims.rowBroadcast_apply mean _ _ p k, Cert.LibKeepdims.rowBroadcast_apply g _ _ p k,
    Cert.LibKeepdims.rowBroadcast_apply be _ _ p k, broadcastTo_1b_ab_apply _ _ p k, shapeCast_self var]
  simp only [Ideal.ofBits_def, Ideal.ofBits_zero_f32]
  rfl

/-- The second kernel's stored block, in a layer that rectifies (payloads named `k3_`), at entry `(p, q)`. -/
theorem k3_pay1_apply (h : Vec Ideal S2000x512 .f32) (var mean g be : Vec Ideal S1x512 .f32)
    (W2 : Vec Ideal S512x256 .f32) (b2 : Vec Ideal S1x256 .f32) (p : Fin 2000) (q : Fin 256) :
    k3_pay1 h var mean g be W2 b2 (ix2 p q)
      = (∑ k : Fin 512,
          max ((h (ix2 p k) - mean (ix2 (0 : Fin 1) k))
                * Ideal.rsqrt (var (ix2 (0 : Fin 1) k) + Ideal.ofBits .f32 0x3727C5AC#32)
                * g (ix2 (0 : Fin 1) k) + be (ix2 (0 : Fin 1) k)) 0
            * W2 (ix2 k q))
        + b2 (ix2 (0 : Fin 1) q) := by
  unfold k3_pay1
  rw [addf_apply]
  refine congrArg₂ (· + ·) ?_ (Cert.LibKeepdims.rowBroadcast_apply b2 _ _ p q)
  refine (Cert.LibMatmul2D.rows_cols Facts₀.dot_S2000x512_S512x256_S2000x256_1_0_0_1_n_n_wf none _ _ p q).trans ?_
  refine Finset.sum_congr rfl fun k _ => ?_
  rw [truncf_apply, truncf_apply, maximumf_apply, addf_apply, mulf_apply, mulf_apply, subf_apply, broadcast_apply]
  rw [shapeCast_self h, Cert.LibKeepdims.rowBroadcast_apply mean _ _ p k, Cert.LibKeepdims.rowBroadcast_apply g _ _ p k,
    Cert.LibKeepdims.rowBroadcast_apply be _ _ p k, broadcastTo_1b_ab_apply _ _ p k, shapeCast_self var]
  simp only [Ideal.ofBits_def, Ideal.ofBits_zero_f32]
  rfl

/-- The second kernel's stored block, in a layer that does not rectify (payloads named `k5_`), at entry `(p, q)`. -/
theorem k5_pay1_apply (h : Vec Ideal S2000x512 .f32) (var mean g be : Vec Ideal S1x512 .f32)
    (W2 : Vec Ideal S512x256 .f32) (b2 : Vec Ideal S1x256 .f32) (p : Fin 2000) (q : Fin 256) :
    k5_pay1 h var mean g be W2 b2 (ix2 p q)
      = (∑ k : Fin 512,
          ((h (ix2 p k) - mean (ix2 (0 : Fin 1) k))
                * Ideal.rsqrt (var (ix2 (0 : Fin 1) k) + Ideal.ofBits .f32 0x3727C5AC#32)
                * g (ix2 (0 : Fin 1) k) + be (ix2 (0 : Fin 1) k))
            * W2 (ix2 k q))
        + b2 (ix2 (0 : Fin 1) q) := by
  unfold k5_pay1
  rw [addf_apply]
  refine congrArg₂ (· + ·) ?_ (Cert.LibKeepdims.rowBroadcast_apply b2 _ _ p q)
  refine (Cert.LibMatmul2D.rows_cols Facts₀.dot_S2000x512_S512x256_S2000x256_1_0_0_1_n_n_wf none _ _ p q).trans ?_
  refine Finset.sum_congr rfl fun k _ => ?_
  rw [truncf_apply, truncf_apply, addf_apply, mulf_apply, mulf_apply, subf_apply]
  rw [shapeCast_self h, Cert.LibKeepdims.rowBroadcast_apply mean _ _ p k, Cert.LibKeepdims.rowBroadcast_apply g _ _ p k,
    Cert.LibKeepdims.rowBroadcast_apply be _ _ p k, broadcastTo_1b_ab_apply _ _ p k, shapeCast_self var]
  rfl

/-- The second kernel's stored block, in a layer that does not rectify (payloads named `k7_`), at entry `(p, q)`. -/
theorem k7_pay1_apply (h : Vec Ideal S2000x512 .f32) (var mean g be : Vec Ideal S1x512 .f32)
    (W2 : Vec Ideal S512x256 .f32) (b2 : Vec Ideal S1x256 .f32) (p : Fin 2000) (q : Fin 256) :
    k7_pay1 h var mean g be W2 b2 (ix2 p q)
      = (∑ k : Fin 512,
          ((h (ix2 p k) - mean (ix2 (0 : Fin 1) k))
                * Ideal.rsqrt (var (ix2 (0 : Fin 1) k) + Ideal.ofBits .f32 0x3727C5AC#32)
                * g (ix2 (0 : Fin 1) k) + be (ix2 (0 : Fin 1) k))
            * W2 (ix2 k q))
        + b2 (ix2 (0 : Fin 1) q) := by
  unfold k7_pay1
  rw [addf_apply]
  refine congrArg₂ (· + ·) ?_ (Cert.LibKeepdims.rowBroadcast_apply b2 _ _ p q)
  refine (Cert.LibMatmul2D.rows_cols Facts₀.dot_S2000x512_S512x256_S2000x256_1_0_0_1_n_n_wf none _ _ p q).trans ?_
  refine Finset.sum_congr rfl fun k _ => ?_
  rw [truncf_apply, truncf_apply, addf_apply, mulf_apply, mulf_apply, subf_apply]
  rw [shapeCast_self h, Cert.LibKeepdims.rowBroadcast_apply mean _ _ p k, Cert.LibKeepdims.rowBroadcast_apply g _ _ p k,
    Cert.LibKeepdims.rowBroadcast_apply be _ _ p k, broadcastTo_1b_ab_apply _ _ p k, shapeCast_self var]
  rfl

end Cert.KernelIdeal.Payloads
-- ==== Proof.LibTileSum.lean ====
/-
  Summing a long axis tile by tile.

  An axis of length `T * R` is cut into `T` consecutive tiles of `R` rows; row `r` of tile `j` is row
  `R * j + r` of the axis. In any additive commutative monoid the sum over the whole axis is the sum over the tiles
  of each tile's sum (`sum_tiles`). An accumulator that starts at zero and adds one tile's sum per step
  (`tileAcc`: after the first step it holds `0 + ` the first tile's sum) therefore holds, after `n` steps, the sum
  of the first `n` tiles (`tileAcc_eq`), and after all `T` steps the sum over the whole axis (`tileAcc_all`;
  `tileAcc_512_8` is the instance of 8 tiles of 512 rows, an axis of length 4096). Only commutativity and
  associativity of `+` are used, so the statements hold on the extended reals with their infinities.
-/
import Mathlib.Algebra.BigOperators.Fin
import Mathlib.Algebra.BigOperators.Intervals

namespace Cert.LibTileSum

open scoped BigOperators

variable {M : Type*} [AddCommMonoid M]

/-- The sum over an axis of `T * R` rows is the sum over its `T` tiles of the sum over each tile's `R` rows. -/
theorem sum_tiles (T R : ℕ) (g : ℕ → M) :
    (∑ s : Fin (T * R), g s.val) = ∑ j ∈ Finset.range T, ∑ r : Fin R, g (R * j + r.val) := by
  rw [Fin.sum_univ_eq_sum_range (fun n => g n) (T * R)]
  induction T with
  | zero => simp
  | succ T ih =>
    rw [Finset.sum_range_succ, ← ih, Nat.succ_mul, Finset.sum_range_add,
      Fin.sum_univ_eq_sum_range (fun r => g (R * T + r)) R, Nat.mul_comm R T]

/-- The accumulator after `n` tiles: zero, then one tile's sum added per step. -/
def tileAcc (R : ℕ) (g : ℕ → M) : ℕ → M
  | 0 => 0
  | n + 1 => tileAcc R g n + ∑ r : Fin R, g (R * n + r.val)

@[simp] theorem tileAcc_zero (R : ℕ) (g : ℕ → M) : tileAcc R g 0 = 0 := rfl

theorem tileAcc_succ (R : ℕ) (g : ℕ → M) (n : ℕ) :
    tileAcc R g (n + 1) = tileAcc R g n + ∑ r : Fin R, g (R * n + r.val) := rfl

/-- After `n` steps the accumulator holds the sum of the first `n` tiles. -/
theorem tileAcc_eq (R : ℕ) (g : ℕ → M) (n : ℕ) :
    tileAcc R g n = ∑ j ∈ Finset.range n, ∑ r : Fin R, g (R * j + r.val) := by
  induction n with
  | zero => simp
  | succ n ih => rw [tileAcc_succ, ih, Finset.sum_range_succ]

/-- After all `T` steps the accumulator holds the sum over the whole axis. -/
theorem tileAcc_all (T R : ℕ) (g : ℕ → M) : tileAcc R g T = ∑ s : Fin (T * R), g s.val := by
  rw [tileAcc_eq, sum_tiles]

/-- Eight tiles of 512 rows: the accumulator ends at the sum over the axis of length 4096. -/
theorem tileAcc_512_8 (g : ℕ → M) : tileAcc 512 g 8 = ∑ s : Fin 4096, g s.val :=
  tileAcc_all 8 512 g

end Cert.LibTileSum
-- ==== Proof.LibRealMatrix.lean ====
/-
  Matrix algebra on the extended reals for entries that are real numbers.

  The extended reals are not a ring: with an infinite entry, distributivity fails, and with it the associativity of
  the matrix product. For matrices all of whose entries are real numbers (`IsReal`: the value is the coercion of a
  real) every finite sum and product is again real, and the usual laws hold. Here:
    * `IsReal` and its closure under `+`, `*`, finite sums and `max` against a real;
    * `sum_coe`: a finite sum of coerced reals is the coercion of the real sum;
    * `matmul_assoc`: (A X) W = A (X W) entry by entry, for real-valued A, X, W over any finite index types;
    * `sum_split`: a sum over `Fin (m + n)` is the sum over the first `m` plus the sum over the last `n` indices
      (no finiteness needed: `+` on the extended reals is associative and commutative).
  It imports Mathlib only.
-/
import Mathlib.Data.EReal.Basic
import Mathlib.Data.EReal.Operations
import Mathlib.Algebra.BigOperators.Fin
import Mathlib.Algebra.BigOperators.Ring.Finset

namespace Cert.LibRealMatrix

open scoped BigOperators

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of coerced reals is the coercion of the sum of the reals. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (hf : ∀ i, IsReal (f i)) : IsReal (∑ i ∈ s, f i) := by
  choose g hg using hf
  exact ⟨∑ i ∈ s, g i, by rw [← sum_coe]; exact Finset.sum_congr rfl fun i _ => hg i⟩

/-- Associativity of the matrix product, entry (m, n), for matrices with real entries:
    ∑ j, (∑ k, A m k * X k j) * W j n = ∑ k, A m k * (∑ j, X k j * W j n). -/
theorem matmul_assoc {K J : Type*} [Fintype K] [Fintype J] (a : K → EReal) (X : K → J → EReal) (w : J → EReal)
    (ha : ∀ k, IsReal (a k)) (hX : ∀ k j, IsReal (X k j)) (hw : ∀ j, IsReal (w j)) :
    ∑ j, (∑ k, a k * X k j) * w j = ∑ k, a k * ∑ j, X k j * w j := by
  choose a' ha' using ha
  choose X' hX' using hX
  choose w' hw' using hw
  have hl : ∀ j, (∑ k, a k * X k j) * w j = (((∑ k, a' k * X' k j) * w' j : ℝ) : EReal) := fun j => by
    rw [EReal.coe_mul, ← sum_coe, hw' j]
    congr 1
    exact Finset.sum_congr rfl fun k _ => by rw [ha' k, hX' k j, EReal.coe_mul]
  have hr : ∀ k, a k * ∑ j, X k j * w j = ((a' k * ∑ j, X' k j * w' j : ℝ) : EReal) := fun k => by
    rw [EReal.coe_mul, ← sum_coe, ha' k]
    congr 1
    exact Finset.sum_congr rfl fun j _ => by rw [hX' k j, hw' j, EReal.coe_mul]
  rw [Finset.sum_congr rfl fun j _ => hl j, Finset.sum_congr rfl fun k _ => hr k, sum_coe, sum_coe]
  congr 1
  simp only [Finset.sum_mul, Finset.mul_sum]
  rw [Finset.sum_comm]
  exact Finset.sum_congr rfl fun k _ => Finset.sum_congr rfl fun j _ => by ring

/-- A sum over `Fin (m + n)` is the sum over its first `m` indices plus the sum over its last `n`. -/
theorem sum_split {m n : ℕ} (f : Fin (m + n) → EReal) :
    ∑ i, f i = ∑ i : Fin m, f (Fin.castAdd n i) + ∑ i : Fin n, f (Fin.natAdd m i) :=
  Fin.sum_univ_add f

end Cert.LibRealMatrix
-- ==== Proof.LibBatchVariance.lean ====
/-
  Batch statistics on the extended reals, for real-valued data.

  A batch normalisation computes the variance of a column of numbers in one of two ways: as the mean of the
  squared deviations from the mean, or as the mean of the squares minus the square of the mean. Over the reals
  the two agree; on the extended reals they agree whenever the data are real numbers, because every
  intermediate value is then a real number and the extended-real operations restrict to the real ones.

  * `sum_coe`: a finite sum of coerced reals is the coerced sum.
  * `mean_sq_dev`: over ℝ, with `n` the number of samples, `(∑ (hᵢ − μ)²)/n = (∑ hᵢ²)/n − μ²` for `μ = (∑ hᵢ)/n`.
  * `variance_two_forms`: the same identity on the extended reals, the quotients taken by `Ideal.div`
    (the division of the ideal float instance) by the real number `n ≠ 0`.
  * `mean_real`, `variance_real`: both statistics of real data are real numbers, and the variance in the
    deviation form is nonnegative.
-/
import Mathlib
import Idealize.ShloMosaic.PureOps.Ideal

noncomputable section

namespace LibBatchVariance

open Idealize.ShloMosaic

variable {ι : Type} [Fintype ι]

/-- A finite sum of coerced reals is the coerced sum. -/
theorem sum_coe (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over ℝ: the mean of the squared deviations from the mean is the mean of the squares minus the squared mean. -/
theorem mean_sq_dev (h : ι → ℝ) (n : ℝ) (hn : n ≠ 0) (hc : (Fintype.card ι : ℝ) = n) :
    (∑ i, (h i - (∑ j, h j) * (1 / n)) * (h i - (∑ j, h j) * (1 / n))) * (1 / n)
      = (∑ i, h i * h i) * (1 / n) - ((∑ j, h j) * (1 / n)) * ((∑ j, h j) * (1 / n)) := by
  set S := ∑ j, h j with hS
  have e : ∑ i, (h i - S * (1 / n)) * (h i - S * (1 / n))
      = (∑ i, h i * h i) - 2 * (S * (1 / n)) * S + n * ((S * (1 / n)) * (S * (1 / n))) := by
    have hterm : ∀ i, (h i - S * (1 / n)) * (h i - S * (1 / n))
        = h i * h i - 2 * (S * (1 / n)) * h i + (S * (1 / n)) * (S * (1 / n)) := fun i => by ring
    simp only [hterm, Finset.sum_add_distrib, Finset.sum_sub_distrib, ← Finset.mul_sum, Finset.sum_const,
      Finset.card_univ, nsmul_eq_mul, hc, ← hS]
    ring
  rw [e]
  field_simp
  ring

/-- On the extended reals, for real data and a real divisor `n ≠ 0` equal to the number of samples: the variance as
    the mean of squared deviations is the variance as the mean of squares minus the squared mean. -/
theorem variance_two_forms (h : ι → ℝ) (n : ℝ) (hn : n ≠ 0) (hc : (Fintype.card ι : ℝ) = n) :
    Ideal.div (∑ i, ((h i : EReal) - Ideal.div (∑ j, (h j : EReal)) (n : EReal))
        * ((h i : EReal) - Ideal.div (∑ j, (h j : EReal)) (n : EReal))) (n : EReal)
      = Ideal.div (∑ i, (h i : EReal) * (h i : EReal)) (n : EReal)
        - Ideal.div (∑ j, (h j : EReal)) (n : EReal) * Ideal.div (∑ j, (h j : EReal)) (n : EReal) := by
  simp only [Ideal.div_coe hn, sum_coe, ← EReal.coe_mul, ← EReal.coe_sub]
  exact congrArg _ (mean_sq_dev h n hn hc)

/-- The mean of real data is a real number. -/
theorem mean_real (h : ι → ℝ) (n : ℝ) (hn : n ≠ 0) :
    Ideal.div (∑ j, (h j : EReal)) (n : EReal) = (((∑ j, h j) * (1 / n) : ℝ) : EReal) := by
  simp only [Ideal.div_coe hn, sum_coe, ← EReal.coe_mul]

/-- The variance of real data, in the deviation form, is a nonnegative real number when `n > 0`. -/
theorem variance_real (h : ι → ℝ) (n : ℝ) (hn : 0 < n) :
    ∃ v : ℝ, 0 ≤ v ∧
      Ideal.div (∑ i, ((h i : EReal) - Ideal.div (∑ j, (h j : EReal)) (n : EReal))
        * ((h i : EReal) - Ideal.div (∑ j, (h j : EReal)) (n : EReal))) (n : EReal) = (v : EReal) := by
  refine ⟨(∑ i, (h i - (∑ j, h j) * (1 / n)) * (h i - (∑ j, h j) * (1 / n))) * (1 / n), ?_, ?_⟩
  · exact mul_nonneg (Finset.sum_nonneg fun i _ => mul_self_nonneg _) (by positivity)
  · simp only [Ideal.div_coe hn.ne', sum_coe, ← EReal.coe_mul, ← EReal.coe_sub]

end LibBatchVariance

end
-- ==== Proof.LayerAlgebra.lean ====
/-
  The algebra that joins the two computations of one layer's batch statistics, on the extended reals, for real data.

  One layer has a dense block h : [20000, 512], computed in 10 tiles of 2000 rows. For every column of h:

  (a) Tiles. Row r of tile t is row 2000 * t + r. An accumulator that is reset to zero at the first tile and
      receives one tile's column sum per tile holds, after the last tile, the sum over all 20000 rows
      (`acc_last`); `sum_rows_eq_sum_tiles` is the underlying regrouping of the sum.

  (b) Statistics. From the column's sum S and sum of squares Q one side forms  mean = S / n  and
      var = Q / n - mean * mean; the other side forms  mean' = (0 + S) / n  and the mean of the squared deviations
      var' = (0 + ∑ (hᵢ - mean') * (hᵢ - mean')) / (n - 0). For a column of real numbers and n the number of rows these
      agree (`mean_eq`, `var_eq`), both are real numbers, the variance is not negative, and so for a real eps > 0 the
      inverse square root of var + eps is a real number (`mean_isReal`, `var_nonneg_real`, `rsqrt_var_add_isReal`).
      The float constants of the program text that enter here are real numbers: the row count 20000 and a positive eps.

  (c) Closure. If every entry of the layer's input, weights, biases, scale and shift is a real number, then so is
      every entry of the dense block, of the normalised block and of the layer's output (`layer_out_isReal`,
      `layer_out_relu_isReal`).
-/
import Mathlib
import Idealize.ShloMosaic.PureOps.Ideal
import proofs.«138093_j17583596110490_1_alg».proof.Proof.LibTileSum
import proofs.«138093_j17583596110490_1_alg».proof.Proof.LibRealMatrix
import proofs.«138093_j17583596110490_1_alg».proof.Proof.LibBatchVariance

noncomputable section

namespace Cert.LayerAlgebra

open Idealize.ShloMosaic Cert.LibRealMatrix
open scoped BigOperators

/-! ## (a) The sum over 20000 rows, tile by tile -/

section Tiles

variable {M : Type*} [AddCommMonoid M]

/-- An accumulator `s` that after the first step holds `0 +` the first tile's sum and at every later step receives
    that step's tile sum holds, after step `t`, the sum of the first `t + 1` tiles. -/
theorem acc_eq_tileAcc (R T : ℕ) (g : ℕ → M) (s : ℕ → M)
    (h0 : s 0 = 0 + ∑ r : Fin R, g (R * 0 + r.val))
    (hs : ∀ t, t + 1 < T → s (t + 1) = s t + ∑ r : Fin R, g (R * (t + 1) + r.val)) :
    ∀ t, t < T → s t = Cert.LibTileSum.tileAcc R g (t + 1) := by
  intro t
  induction t with
  | zero => intro _; rw [h0, Cert.LibTileSum.tileAcc_succ, Cert.LibTileSum.tileAcc_zero]
  | succ t ih => intro ht; rw [hs t ht, ih (by omega), Cert.LibTileSum.tileAcc_succ R g (t + 1)]

/-- Row `r` of tile `t`, as a row of the whole axis of 10 tiles of 2000 rows. -/
def tileRow (t : Fin 10) (r : Fin 2000) : Fin 20000 := ⟨2000 * t.val + r.val, by omega⟩

@[simp] theorem tileRow_val (t : Fin 10) (r : Fin 2000) : (tileRow t r).val = 2000 * t.val + r.val := rfl

/-- A function on the 20000 rows, extended by zero to all natural numbers. -/
def extendRows (H : Fin 20000 → M) (n : ℕ) : M := if hn : n < 20000 then H ⟨n, hn⟩ else 0

theorem extendRows_tileRow (H : Fin 20000 → M) (t : Fin 10) (r : Fin 2000) :
    extendRows H (2000 * t.val + r.val) = H (tileRow t r) := by
  have hlt : 2000 * t.val + r.val < 20000 := by omega
  unfold extendRows
  rw [dif_pos hlt]
  rfl

theorem sum_extendRows (H : Fin 20000 → M) : ∑ i : Fin (10 * 2000), extendRows H i.val = ∑ i : Fin 20000, H i :=
  Finset.sum_congr rfl fun i _ => by
    unfold extendRows
    rw [dif_pos i.isLt]

/-- The sum over the 20000 rows is the sum over the 10 tiles of the sum over each tile's 2000 rows. -/
theorem sum_rows_eq_sum_tiles (H : Fin 20000 → M) :
    ∑ i : Fin 20000, H i = ∑ t : Fin 10, ∑ r : Fin 2000, H (tileRow t r) := by
  rw [← sum_extendRows H, Cert.LibTileSum.sum_tiles 10 2000 (extendRows H),
    ← Fin.sum_univ_eq_sum_range (fun j => ∑ r : Fin 2000, extendRows H (2000 * j + r.val)) 10]
  exact Finset.sum_congr rfl fun t _ => Finset.sum_congr rfl fun r _ => extendRows_tileRow H t r

/-- The accumulator over the tiles: `s t` is its value after tile `t`. Reset to zero and given the first tile's sum at
    tile 0, given one further tile's sum at each later tile, it ends at the sum over all 20000 rows. -/
theorem acc_last (H : Fin 20000 → M) (s : Fin 10 → M)
    (h0 : s 0 = 0 + ∑ r : Fin 2000, H (tileRow 0 r))
    (hs : ∀ (t : ℕ) (ht : t + 1 < 10),
      s ⟨t + 1, ht⟩ = s ⟨t, by omega⟩ + ∑ r : Fin 2000, H (tileRow ⟨t + 1, ht⟩ r)) :
    s 9 = ∑ i : Fin 20000, H i := by
  have key := acc_eq_tileAcc 2000 10 (extendRows H) (fun n => if hn : n < 10 then s ⟨n, hn⟩ else 0)
    (by
      rw [dif_pos (by omega : 0 < 10)]
      exact h0.trans (congrArg (0 + ·) (Finset.sum_congr rfl fun r _ => (extendRows_tileRow H 0 r).symm)))
    (fun t ht => by
      rw [dif_pos ht, dif_pos (by omega : t < 10)]
      exact (hs t ht).trans (congrArg (s ⟨t, by omega⟩ + ·)
        (Finset.sum_congr rfl fun r _ => (extendRows_tileRow H ⟨t + 1, ht⟩ r).symm)))
    9 (by omega)
  rw [dif_pos (by omega : 9 < 10)] at key
  exact key.trans ((Cert.LibTileSum.tileAcc_all 10 2000 (extendRows H)).trans (sum_extendRows H))

end Tiles

/-! ## (b) The two forms of the batch statistics -/

section Stats

variable {ι : Type} [Fintype ι]

theorem isReal_sub {x y : EReal} (hx : IsReal x) (hy : IsReal y) : IsReal (x - y) := by
  obtain ⟨a, rfl⟩ := hx; obtain ⟨b, rfl⟩ := hy
  exact ⟨a - b, (EReal.coe_sub a b).symm⟩

/-- A column of real numbers is the coercion of a real-valued column. -/
theorem exists_real_column (c : ι → EReal) (hc : ∀ i, IsReal (c i)) : ∃ h : ι → ℝ, c = fun i => (h i : EReal) := by
  choose h hh using hc
  exact ⟨h, funext hh⟩

/-- The two means agree (the second starts its sum from zero). -/
theorem mean_eq (c : ι → EReal) (n : EReal) : Ideal.div (∑ j, c j) n = Ideal.div (0 + ∑ j, c j) n := by
  rw [zero_add]

/-- The two variances agree for a column of real numbers: mean of squares minus squared mean, against the mean of the
    squared deviations from the mean (sums started from zero, the divisor written `n - 0`). -/
theorem var_eq (c : ι → EReal) (hc : ∀ i, IsReal (c i)) (n : ℝ) (hn : n ≠ 0) (hcard : (Fintype.card ι : ℝ) = n) :
    Ideal.div (∑ i, c i * c i) (n : EReal) - Ideal.div (∑ j, c j) (n : EReal) * Ideal.div (∑ j, c j) (n : EReal)
      = Ideal.div (0 + ∑ i, (c i - Ideal.div (0 + ∑ j, c j) (n : EReal)) * (c i - Ideal.div (0 + ∑ j, c j) (n : EReal)))
          ((n : EReal) - 0) := by
  obtain ⟨h, rfl⟩ := exists_real_column c hc
  simp only [zero_add, sub_zero]
  exact (LibBatchVariance.variance_two_forms h n hn hcard).symm

/-- The mean of a column of real numbers is a real number. -/
theorem mean_isReal (c : ι → EReal) (hc : ∀ i, IsReal (c i)) (n : ℝ) (hn : n ≠ 0) :
    IsReal (Ideal.div (∑ j, c j) (n : EReal)) := by
  obtain ⟨h, rfl⟩ := exists_real_column c hc
  exact ⟨_, LibBatchVariance.mean_real h n hn⟩

/-- The variance (mean of squares minus squared mean) of a column of real numbers is a real number that is not negative. -/
theorem var_nonneg_real (c : ι → EReal) (hc : ∀ i, IsReal (c i)) (n : ℝ) (hn : 0 < n) (hcard : (Fintype.card ι : ℝ) = n) :
    ∃ v : ℝ, 0 ≤ v ∧
      Ideal.div (∑ i, c i * c i) (n : EReal) - Ideal.div (∑ j, c j) (n : EReal) * Ideal.div (∑ j, c j) (n : EReal)
        = (v : EReal) := by
  obtain ⟨h, rfl⟩ := exists_real_column c hc
  obtain ⟨v, hv, e⟩ := LibBatchVariance.variance_real h n hn
  exact ⟨v, hv, (LibBatchVariance.variance_two_forms h n hn.ne' hcard).symm.trans e⟩

/-- The inverse square root of a positive real number is the real number `(√r)⁻¹`. -/
theorem rsqrt_coe_of_pos {r : ℝ} (h : 0 < r) : Ideal.rsqrt ((r : ℝ) : EReal) = (((Real.sqrt r)⁻¹ : ℝ) : EReal) := by
  rw [Ideal.rsqrt_coe, if_neg (not_lt.mpr h.le), if_neg h.ne']

/-- The inverse square root of the variance plus a positive real `eps` is a real number. -/
theorem rsqrt_var_add_isReal (c : ι → EReal) (hc : ∀ i, IsReal (c i)) (n : ℝ) (hn : 0 < n)
    (hcard : (Fintype.card ι : ℝ) = n) (eps : ℝ) (he : 0 < eps) :
    IsReal (Ideal.rsqrt
      (Ideal.div (∑ i, c i * c i) (n : EReal) - Ideal.div (∑ j, c j) (n : EReal) * Ideal.div (∑ j, c j) (n : EReal)
        + (eps : EReal))) := by
  obtain ⟨v, hv, e⟩ := var_nonneg_real c hc n hn hcard
  rw [e, ← EReal.coe_add, rsqrt_coe_of_pos (by positivity)]
  exact ⟨_, rfl⟩

/-- The float constant `2.0e4` of the program text is the real number 20000. -/
theorem ofBits_rows : Ideal.ofBits .f32 0x469C4000#32 = ((20000 : ℝ) : EReal) := by
  simp [Ideal.ofBits, Ideal.ieee, -EReal.coe_mul]; norm_num

/-- The float constant `eps` of the program text (about 1.0e-5) is a positive real number. -/
theorem ofBits_eps : ∃ e : ℝ, 0 < e ∧ Ideal.ofBits .f32 0x3727C5AC#32 = (e : EReal) := by
  refine ⟨((2 ^ 23 + 2606508 : ℕ) : ℝ) * (2 : ℝ) ^ ((110 : ℤ) - 127 - 23), by positivity, ?_⟩
  simp [Ideal.ofBits, Ideal.ieee, -EReal.coe_mul]

end Stats

/-! ## (c) Every value of a layer is a real number when its data are -/

section Closure

/-- An entry of a dense layer: a row against a column of the weights, plus the bias. -/
theorem dense_isReal {n : ℕ} (x w : Fin n → EReal) (b : EReal) (hx : ∀ j, IsReal (x j)) (hw : ∀ j, IsReal (w j))
    (hb : IsReal b) : IsReal ((∑ j, x j * w j) + b) :=
  (IsReal.sum Finset.univ fun j => (hx j).mul (hw j)).add hb

/-- An entry of the normalised, scaled and shifted block. -/
theorem normalised_isReal {x mean rs g be : EReal} (hx : IsReal x) (hm : IsReal mean) (hr : IsReal rs) (hg : IsReal g)
    (hb : IsReal be) : IsReal ((x - mean) * rs * g + be) :=
  (((isReal_sub hx hm).mul hr).mul hg).add hb

/-- The same entry after the rectifier. -/
theorem normalised_relu_isReal {x mean rs g be : EReal} (hx : IsReal x) (hm : IsReal mean) (hr : IsReal rs)
    (hg : IsReal g) (hb : IsReal be) : IsReal (max ((x - mean) * rs * g + be) 0) :=
  (normalised_isReal hx hm hr hg hb).max IsReal.zero

variable {ι : Type} [Fintype ι] {m : ℕ}

/-- An entry of a layer's output, without the rectifier: with `hd` the dense block (all of whose entries are real
    numbers), its column statistics taken over all rows, a real `eps > 0`, and real scale, shift, weights and bias. -/
theorem layer_out_isReal (hd : ι → Fin m → EReal) (hhd : ∀ i k, IsReal (hd i k)) (g be w2 : Fin m → EReal) (b2 : EReal)
    (hg : ∀ k, IsReal (g k)) (hbe : ∀ k, IsReal (be k)) (hw2 : ∀ k, IsReal (w2 k)) (hb2 : IsReal b2)
    (n : ℝ) (hn : 0 < n) (hcard : (Fintype.card ι : ℝ) = n) (eps : ℝ) (he : 0 < eps) (p : ι) :
    IsReal ((∑ k : Fin m,
        ((hd p k - Ideal.div (∑ i, hd i k) (n : EReal))
          * Ideal.rsqrt (Ideal.div (∑ i, hd i k * hd i k) (n : EReal)
              - Ideal.div (∑ i, hd i k) (n : EReal) * Ideal.div (∑ i, hd i k) (n : EReal) + (eps : EReal))
          * g k + be k) * w2 k) + b2) :=
  dense_isReal _ w2 b2
    (fun k => normalised_isReal (hhd p k) (mean_isReal (fun i => hd i k) (fun i => hhd i k) n hn.ne')
      (rsqrt_var_add_isReal (fun i => hd i k) (fun i => hhd i k) n hn hcard eps he) (hg k) (hbe k))
    hw2 hb2

/-- An entry of a layer's output, with the rectifier. -/
theorem layer_out_relu_isReal (hd : ι → Fin m → EReal) (hhd : ∀ i k, IsReal (hd i k)) (g be w2 : Fin m → EReal) (b2 : EReal)
    (hg : ∀ k, IsReal (g k)) (hbe : ∀ k, IsReal (be k)) (hw2 : ∀ k, IsReal (w2 k)) (hb2 : IsReal b2)
    (n : ℝ) (hn : 0 < n) (hcard : (Fintype.card ι : ℝ) = n) (eps : ℝ) (he : 0 < eps) (p : ι) :
    IsReal ((∑ k : Fin m,
        max ((hd p k - Ideal.div (∑ i, hd i k) (n : EReal))
          * Ideal.rsqrt (Ideal.div (∑ i, hd i k * hd i k) (n : EReal)
              - Ideal.div (∑ i, hd i k) (n : EReal) * Ideal.div (∑ i, hd i k) (n : EReal) + (eps : EReal))
          * g k + be k) 0 * w2 k) + b2) :=
  dense_isReal _ w2 b2
    (fun k => normalised_relu_isReal (hhd p k) (mean_isReal (fun i => hd i k) (fun i => hhd i k) n hn.ne')
      (rsqrt_var_add_isReal (fun i => hd i k) (fun i => hhd i k) n hn hcard eps he) (hg k) (hbe k))
    hw2 hb2

end Closure

end Cert.LayerAlgebra

end
-- ==== Proof.LibHostRows.lean ====
/-
  Host operations of a reference program on two-dimensional arrays, read at an entry on the extended reals.

    * the host's product of an [M, K] array with a [K, N] array (left axis 1 against right axis 0) at (m, n) is
      ∑ k, lhs (m, k) * rhs (k, n);
    * a vector [n] laid out as a one-row array [1, n] (a broadcast along axis 1) reads, at (u, k), the vector at k,
      and laid along every one of m rows it reads, at (i, k), the vector at k;
    * the host's sum over axis 0 of an [a, b] array from an initial value, at k, is the initial value plus the sum over
      i of the array at (i, k).
  Over any extents.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import proofs.«138093_j17583596110490_1_alg».proof.Proof.LibMatmul2D

namespace Cert.LibHostRows

open Idealize.ShloMosaic Idealize.ShloMosaic.ValueIdx

variable {α : Type}

/-- The host's rows-by-columns product at entry `(m, n)`. -/
theorem hostDot_rows_cols {M K N : ℕ} {φ₁ φ₂ : FTy}
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    Host.dotGeneral (⟨[1], [0], [0], [1], [], [], wf⟩ : DotDims (⟨2, ![M, K]⟩ : Shape) (⟨2, ![K, N]⟩ : Shape) (⟨2, ![M, N]⟩ : Shape))
        prec lhs rhs (ix2 m n)
      = ∑ k : Fin K, lhs (ix2 m k) * rhs (ix2 k n) :=
  (congrFun (matmul_zero_eq_dotGeneral _ prec lhs rhs) (ix2 m n)).symm.trans
    (Cert.LibMatmul2D.rows_cols wf prec lhs rhs m n)

/-- A vector `[n]` laid out as a one-row array reads, at `(u, k)`, the vector at `k`. -/
theorem vecAsRow_apply {n : ℕ} (h : (⟨1, ![n]⟩ : Shape).BroadcastsInDim ⟨2, ![1, n]⟩ ![1])
    (v : (⟨1, ![n]⟩ : Shape).Idx → α) (u : Fin 1) (k : Fin n) :
    broadcastInDim ⟨2, ![1, n]⟩ ![1] h v (ix2 u k) = v (ix1 k) := by
  refine broadcastInDim_apply ![1] h v (ix2 u k) (ix1 k) ?_
  intro a
  match a with
  | ⟨0, _⟩ =>
    show k.val = if n = 1 then 0 else k.val
    split_ifs with hn
    · have := k.isLt; omega
    · rfl

/-- A vector `[n]` laid along every one of `m` rows reads, at `(i, k)`, the vector at `k`. -/
theorem vecRows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (i : Fin m) (k : Fin n) :
    broadcastInDim ⟨2, ![m, n]⟩ ![0, 1] h2 (broadcastInDim ⟨2, ![1, n]⟩ ![1] h1 v) (ix2 i k) = v (ix1 k) :=
  (broadcastInDim_oneRow_apply h2 _ i k).trans (vecAsRow_apply h1 v 0 k)

/-- The host's sum over the rows of an `[a, b]` array from an initial value, at column `k`. -/
theorem hostColSum_apply {a b : ℕ} {u : Shape} (x : FVec Ideal (⟨2, ![a, b]⟩ : Shape) .f32)
    (init : u.Idx → Ideal .f32) (h' : (⟨2, ![a, b]⟩ : Shape).ReducesTo [0] ⟨1, ![b]⟩)
    (h : (⟨2, ![a, b]⟩ : Shape).Reduces [0] ⟨1, ![b]⟩) (hu : 0 < u.numel) (k : Fin b) :
    Host.reduceAdd x init h' hu (ix1 k) = init (Shape.Idx.first hu) + ∑ i : Fin a, x (ix2 i k) := by
  rw [hostReduceAdd_apply, Ideal.hostReduceAdd_single h' h]
  refine congrArg (init (Shape.Idx.first hu) + ·) (Finset.sum_congr rfl fun i _ => congrArg x ?_)
  funext ax; apply Fin.ext
  match ax with
  | ⟨0, _⟩ => rfl
  | ⟨1, _⟩ => rfl

end Cert.LibHostRows
-- ==== Proof.LayerEq.lean ====
/-
  One layer of the graph network: the kernel program's computation against the reference's, entry by entry, on the
  extended reals, for real-valued data.

  The reference computes a layer's perceptron on whole arrays: h = X W1 + b1, the column means and variances of h over
  the 20000 rows (the variance as the mean of the squared deviations), the normalised block scaled and shifted and, in
  the first two layers, rectified, and the second linear map. Its host operations are read here at an entry
  (`lin1R_apply` … `mlpR_apply`); the test `20000 - 0 > 0` inside its variance holds, so its other branch is never taken.

  The kernel program computes the same layer in 10 tiles of 2000 rows: the first kernel stores h tile by tile and keeps
  running column sums of h and of h², the host divides them by 20000 into the mean and the variance (as the mean of the
  squares minus the squared mean), and the second kernel normalises and applies the second linear map tile by tile.
  `kernelLayer` is that computation in closed form; `assembled` derives the closed form from the tile-by-tile
  description (`blk`, `denseK`, `sumStepK`, `sqStepK`, `zeroRow`, `normK`, which are the stored values of the two kernels:
  `k0_pay3_eq` …), and `kernelLayer_eq_mlpR` identifies it with the reference's perceptron when every entry of the data is
  a real number, because the two forms of the variance agree for real data. `layer_eq` puts the two together and adds
  that every entry of the layer's output is a real number.
-/
import proofs.«138093_j17583596110490_1_alg».proof.Proof.RefStages
import proofs.«138093_j17583596110490_1_alg».proof.Proof.PayloadsMm1
import proofs.«138093_j17583596110490_1_alg».proof.Proof.PayloadsMm2
import proofs.«138093_j17583596110490_1_alg».proof.Proof.LayerAlgebra
import proofs.«138093_j17583596110490_1_alg».proof.Proof.KStages
import proofs.«138093_j17583596110490_1_alg».proof.Proof.LibHostRows
import Idealize.ShloMosaic.Lib.IdealHost
import Idealize.ShloMosaic.Lib.KernelVsHost

noncomputable section

namespace Cert.LayerEq

open Idealize.ShloMosaic Idealize.ShloMosaic.ValueIdx Cert.LibRealMatrix
open Cert.ReferenceIdeal.RefRun (Tf Ti lin1R lin2R meanR varR bnR reluH mlpR colSumR splat512 rowB512 rowB256)
open Cert.ReferenceIdeal (S20000x256 S256x512 S512 S20000x512 S512x256 S256 S1x512 S1x256 S_)

/-! ## The reference's perceptron read at an entry -/

/-- The reference's first linear map at `(i, k)`. -/
theorem lin1R_apply (h : Tf Ideal S20000x256) (W : Tf Ideal S256x512) (b : Tf Ideal S512) (i : Fin 20000) (k : Fin 512) :
    lin1R h W b (ix2 i k) = (∑ j : Fin 256, h (ix2 i j) * W (ix2 j k)) + b (ix1 k) := by
  unfold lin1R rowB512
  rw [addf_apply]
  exact congrArg₂ (· + ·) (Cert.LibHostRows.hostDot_rows_cols _ none h W i k) (Cert.LibHostRows.vecRows_apply _ _ b i k)

/-- The reference's second linear map at `(i, q)`. -/
theorem lin2R_apply (h : Tf Ideal S20000x512) (W : Tf Ideal S512x256) (b : Tf Ideal S256) (i : Fin 20000) (q : Fin 256) :
    lin2R h W b (ix2 i q) = (∑ k : Fin 512, h (ix2 i k) * W (ix2 k q)) + b (ix1 q) := by
  unfold lin2R rowB256
  rw [addf_apply]
  exact congrArg₂ (· + ·) (Cert.LibHostRows.hostDot_rows_cols _ none h W i q) (Cert.LibHostRows.vecRows_apply _ _ b i q)

/-- The reference's column sum at `k`: zero plus the sum over the 20000 rows. -/
theorem colSumR_apply (z : Tf Ideal S20000x512) (k : Fin 512) :
    colSumR z (ix1 k) = 0 + ∑ i : Fin 20000, z (ix2 i k) := by
  unfold colSumR
  rw [Cert.LibHostRows.hostColSum_apply z _ _ (by decide) _ k, constant_apply, Ideal.ofBits_zero_f32]

/-- The reference's column mean at `k`. -/
theorem meanR_apply (z : Tf Ideal S20000x512) (k : Fin 512) :
    meanR z (ix1 k) = Ideal.div (0 + ∑ i : Fin 20000, z (ix2 i k)) (Ideal.ofBits .f32 0x469C4000#32) := by
  unfold meanR splat512
  rw [hostDivf_apply, colSumR_apply, broadcastInDim_scalar_apply, constant_apply]

/-- The positive-count test of the reference's variance: `20000 - 0 > 0` holds. -/
theorem count_pos :
    Ideal.cmp .ogt (Ideal.ofBits .f32 0x469C4000#32 - Scalar.sitofp (F := Ideal) .f32 (0#32 : BitVec 32)) (Ideal.ofBits .f32 0x00000000#32) = 1#1 := by
  rw [Cert.LayerAlgebra.ofBits_rows, Ideal.ofBits_zero_f32, sitofp_zero, sub_zero]
  have h : (0 : EReal) < ((20000 : ℝ) : EReal) := by exact_mod_cast (by norm_num : (0 : ℝ) < 20000)
  simp [Ideal.cmp, h]

/-- The reference's column variance at `k`: the mean of the squared deviations from the column mean (the positive-count
    test holds, so the other branch is not taken). -/
theorem varR_apply (z : Tf Ideal S20000x512) (k : Fin 512) :
    varR z (ix1 k)
      = Ideal.div (0 + ∑ i : Fin 20000,
            (z (ix2 i k) - Ideal.div (0 + ∑ i' : Fin 20000, z (ix2 i' k)) (Ideal.ofBits .f32 0x469C4000#32))
            * (z (ix2 i k) - Ideal.div (0 + ∑ i' : Fin 20000, z (ix2 i' k)) (Ideal.ofBits .f32 0x469C4000#32)))
          (Ideal.ofBits .f32 0x469C4000#32 - 0) := by
  unfold varR
  rw [select_apply, broadcastInDim_scalar_apply]
  rw [show cmpf CmpFPredicate.ogt (subf (constant S_ .f32 0x469C4000#32) (sitofp .f32 (constantI S_ 32 0#32)))
      (constant (F := Ideal) S_ .f32 0x00000000#32) ix0 = 1#1 from count_pos, select_one]
  rw [hostDivf_apply, colSumR_apply]
  unfold splat512
  rw [broadcastInDim_scalar_apply]
  refine congrArg₂ Ideal.div (congrArg (0 + ·) (Finset.sum_congr rfl fun i _ => ?_)) ?_
  · rw [mulf_apply, subf_apply, broadcastInDim_oneRow_apply, hostDivf_apply, Cert.LibHostRows.vecAsRow_apply, colSumR_apply,
      broadcastInDim_scalar_apply, constant_apply]
  · show Ideal.ofBits .f32 0x469C4000#32 - Scalar.sitofp (F := Ideal) .f32 (0#32 : BitVec 32) = _
    rw [sitofp_zero]

/-- The reference's batch normalisation at `(i, k)`. -/
theorem bnR_apply (z : Tf Ideal S20000x512) (g be : Tf Ideal S512) (i : Fin 20000) (k : Fin 512) :
    bnR z g be (ix2 i k)
      = (z (ix2 i k) - meanR z (ix1 k)) * Ideal.rsqrt (varR z (ix1 k) + Ideal.ofBits .f32 0x3727C5AC#32) * g (ix1 k)
        + be (ix1 k) := by
  unfold bnR rowB512
  rw [addf_apply, mulf_apply, mulf_apply, subf_apply, Cert.LibHostRows.vecRows_apply, Cert.LibHostRows.vecRows_apply,
    Cert.LibHostRows.vecRows_apply, Cert.LibHostRows.vecRows_apply]
  unfold splat512
  show _ * Ideal.rsqrt (varR z (ix1 k) + broadcastInDim S512 ![] _ (constant (F := Ideal) S_ .f32 0x3727C5AC#32) (ix1 k)) * _ + _ = _
  rw [broadcastInDim_scalar_apply, constant_apply]

/-- The reference's perceptron at `(i, q)`. -/
theorem mlpR_apply (relu : Bool) (hin : Tf Ideal S20000x256) (W1 : Tf Ideal S256x512) (b1 g be : Tf Ideal S512)
    (W2 : Tf Ideal S512x256) (b2 : Tf Ideal S256) (i : Fin 20000) (q : Fin 256) :
    mlpR relu hin W1 b1 g be W2 b2 (ix2 i q)
      = (∑ k : Fin 512,
          (bif relu then max (bnR (lin1R hin W1 b1) g be (ix2 i k)) 0 else bnR (lin1R hin W1 b1) g be (ix2 i k))
            * W2 (ix2 k q)) + b2 (ix1 q) := by
  unfold mlpR
  rw [lin2R_apply]
  cases relu
  · rfl
  · refine congrArg (· + b2 (ix1 q)) (Finset.sum_congr rfl fun k _ => congrArg (· * W2 (ix2 k q)) ?_)
    show reluH _ (ix2 i k) = max _ 0
    unfold reluH
    rw [maximumf_apply, broadcastInDim_scalar_apply, constant_apply, Ideal.ofBits_zero_f32]

/-! ## The kernel's layer in closed form -/

/-- The dense block at `(i, k)`. -/
def hK (hin : Tf Ideal S20000x256) (W1 : Tf Ideal S256x512) (b1 : Tf Ideal S512) (i : Fin 20000) (k : Fin 512) : EReal :=
  (∑ j : Fin 256, hin (ix2 i j) * W1 (ix2 j k)) + b1 (ix1 k)

/-- The column mean from the column sum. -/
def meanKc (hin : Tf Ideal S20000x256) (W1 : Tf Ideal S256x512) (b1 : Tf Ideal S512) (k : Fin 512) : EReal :=
  Ideal.div (∑ i : Fin 20000, hK hin W1 b1 i k) (Ideal.ofBits .f32 0x469C4000#32)

/-- The column variance from the column sums of the block and of its squares. -/
def varKc (hin : Tf Ideal S20000x256) (W1 : Tf Ideal S256x512) (b1 : Tf Ideal S512) (k : Fin 512) : EReal :=
  Ideal.div (∑ i : Fin 20000, hK hin W1 b1 i k * hK hin W1 b1 i k) (Ideal.ofBits .f32 0x469C4000#32)
    - meanKc hin W1 b1 k * meanKc hin W1 b1 k

/-- The normalised, scaled and shifted block at `(i, k)`. -/
def normKc (hin : Tf Ideal S20000x256) (W1 : Tf Ideal S256x512) (b1 g be : Tf Ideal S512) (i : Fin 20000) (k : Fin 512) : EReal :=
  (hK hin W1 b1 i k - meanKc hin W1 b1 k) * Ideal.rsqrt (varKc hin W1 b1 k + Ideal.ofBits .f32 0x3727C5AC#32) * g (ix1 k)
    + be (ix1 k)

/-- The kernel's layer: both kernels and the host arithmetic between them, entry by entry. -/
def kernelLayer (relu : Bool) (hin : Tf Ideal S20000x256) (W1 : Tf Ideal S256x512) (b1 g be : Tf Ideal S512)
    (W2 : Tf Ideal S512x256) (b2 : Tf Ideal S256) : Tf Ideal S20000x256 :=
  fun idx => (∑ k : Fin 512,
      (bif relu then max (normKc hin W1 b1 g be (idx 0) k) 0 else normKc hin W1 b1 g be (idx 0) k) * W2 (ix2 k (idx 1)))
    + b2 (ix1 (idx 1))

section Real

variable (hin : Tf Ideal S20000x256) (W1 : Tf Ideal S256x512) (b1 g be : Tf Ideal S512) (W2 : Tf Ideal S512x256) (b2 : Tf Ideal S256)
  (hhin : ∀ i j, IsReal (hin (ix2 i j))) (hW1 : ∀ j k, IsReal (W1 (ix2 j k))) (hb1 : ∀ k, IsReal (b1 (ix1 k)))
  (hg : ∀ k, IsReal (g (ix1 k))) (hbe : ∀ k, IsReal (be (ix1 k))) (hW2 : ∀ k q, IsReal (W2 (ix2 k q))) (hb2 : ∀ q, IsReal (b2 (ix1 q)))

include hhin hW1 hb1 in
theorem hK_isReal (i : Fin 20000) (k : Fin 512) : IsReal (hK hin W1 b1 i k) :=
  Cert.LayerAlgebra.dense_isReal (fun j => hin (ix2 i j)) (fun j => W1 (ix2 j k)) (b1 (ix1 k)) (hhin i) (fun j => hW1 j k) (hb1 k)

theorem card_rows : (Fintype.card (Fin 20000) : ℝ) = 20000 := by simp

include hhin hW1 hb1 in
/-- For real data the reference's normalised block is the kernel's. -/
theorem bnR_eq_normKc (i : Fin 20000) (k : Fin 512) :
    bnR (lin1R hin W1 b1) g be (ix2 i k) = normKc hin W1 b1 g be i k := by
  have hm := Cert.LayerAlgebra.mean_eq (fun i => hK hin W1 b1 i k) (((20000 : ℝ) : EReal))
  have hv := Cert.LayerAlgebra.var_eq (fun i => hK hin W1 b1 i k) (fun i => hK_isReal hin W1 b1 hhin hW1 hb1 i k)
    20000 (by norm_num) card_rows
  rw [bnR_apply, meanR_apply, varR_apply]
  simp only [lin1R_apply]
  unfold normKc varKc meanKc
  simp only [hK, Cert.LayerAlgebra.ofBits_rows] at hm hv ⊢
  rw [← hv, ← hm]

end Real

section Real2

variable (hin : Tf Ideal S20000x256) (W1 : Tf Ideal S256x512) (b1 g be : Tf Ideal S512) (W2 : Tf Ideal S512x256) (b2 : Tf Ideal S256)
  (hhin : ∀ i j, IsReal (hin (ix2 i j))) (hW1 : ∀ j k, IsReal (W1 (ix2 j k))) (hb1 : ∀ k, IsReal (b1 (ix1 k)))
  (hg : ∀ k, IsReal (g (ix1 k))) (hbe : ∀ k, IsReal (be (ix1 k))) (hW2 : ∀ k q, IsReal (W2 (ix2 k q))) (hb2 : ∀ q, IsReal (b2 (ix1 q)))

include hhin hW1 hb1 in
/-- For real data the kernel's layer is the reference's perceptron, entry by entry. -/
theorem kernelLayer_eq_mlpR (relu : Bool) (i : Fin 20000) (q : Fin 256) :
    kernelLayer relu hin W1 b1 g be W2 b2 (ix2 i q) = mlpR relu hin W1 b1 g be W2 b2 (ix2 i q) := by
  rw [mlpR_apply]
  show (∑ k : Fin 512, (bif relu then max (normKc hin W1 b1 g be i k) 0 else normKc hin W1 b1 g be i k) * W2 (ix2 k q))
      + b2 (ix1 q) = _
  refine congrArg (· + b2 (ix1 q)) (Finset.sum_congr rfl fun k _ => ?_)
  rw [bnR_eq_normKc hin W1 b1 g be hhin hW1 hb1 i k]

include hhin hW1 hb1 hg hbe hW2 hb2 in
/-- For real data every entry of the kernel's layer is a real number. -/
theorem kernelLayer_isReal (relu : Bool) (i : Fin 20000) (q : Fin 256) :
    IsReal (kernelLayer relu hin W1 b1 g be W2 b2 (ix2 i q)) := by
  obtain ⟨e, he, hE⟩ := Cert.LayerAlgebra.ofBits_eps
  have hr := hK_isReal hin W1 b1 hhin hW1 hb1
  show IsReal ((∑ k : Fin 512, (bif relu then max (normKc hin W1 b1 g be i k) 0 else normKc hin W1 b1 g be i k) * W2 (ix2 k q))
      + b2 (ix1 q))
  unfold normKc varKc meanKc
  rw [Cert.LayerAlgebra.ofBits_rows, hE]
  cases relu
  · exact Cert.LayerAlgebra.layer_out_isReal (fun i k => hK hin W1 b1 i k) hr (fun k => g (ix1 k)) (fun k => be (ix1 k))
      (fun k => W2 (ix2 k q)) (b2 (ix1 q)) hg hbe (fun k => hW2 k q) (hb2 q) 20000 (by norm_num) card_rows e he i
  · exact Cert.LayerAlgebra.layer_out_relu_isReal (fun i k => hK hin W1 b1 i k) hr (fun k => g (ix1 k)) (fun k => be (ix1 k))
      (fun k => W2 (ix2 k q)) (b2 (ix1 q)) hg hbe (fun k => hW2 k q) (hb2 q) 20000 (by norm_num) card_rows e he i

end Real2

/-! ## The kernel's layer assembled from its tiles -/

open Cert.LayerAlgebra (tileRow)
open Cert.KernelIdeal.KStages (rowK512 rowK256 meanK varK rowsK)

/-- Block `t` of an array of 20000 rows: its rows `2000 t … 2000 t + 1999`. -/
def blk {n : ℕ} (X : (⟨2, ![20000, n]⟩ : Shape).Idx → EReal) (t : Fin 10) : (⟨2, ![2000, n]⟩ : Shape).Idx → EReal :=
  fun idx => X (ix2 (tileRow t (idx 0)) (idx 1))

/-- The first kernel's dense block of one tile. -/
def denseK (x : (⟨2, ![2000, 256]⟩ : Shape).Idx → EReal) (w : (⟨2, ![256, 512]⟩ : Shape).Idx → EReal)
    (b : (⟨2, ![1, 512]⟩ : Shape).Idx → EReal) : (⟨2, ![2000, 512]⟩ : Shape).Idx → EReal :=
  fun idx => (∑ j : Fin 256, x (ix2 (idx 0) j) * w (ix2 j (idx 1))) + b (ix2 (0 : Fin 1) (idx 1))

/-- One tile's update of the running column sums. -/
def sumStepK (hb : (⟨2, ![2000, 512]⟩ : Shape).Idx → EReal) (acc : (⟨2, ![1, 512]⟩ : Shape).Idx → EReal) :
    (⟨2, ![1, 512]⟩ : Shape).Idx → EReal :=
  fun idx => acc (ix2 (0 : Fin 1) (idx 1)) + ∑ p : Fin 2000, hb (ix2 p (idx 1))

/-- One tile's update of the running column sums of squares. -/
def sqStepK (hb : (⟨2, ![2000, 512]⟩ : Shape).Idx → EReal) (acc : (⟨2, ![1, 512]⟩ : Shape).Idx → EReal) :
    (⟨2, ![1, 512]⟩ : Shape).Idx → EReal :=
  fun idx => acc (ix2 (0 : Fin 1) (idx 1)) + ∑ p : Fin 2000, hb (ix2 p (idx 1)) * hb (ix2 p (idx 1))

/-- The accumulators' value at the reset. -/
def zeroRow : (⟨2, ![1, 512]⟩ : Shape).Idx → EReal := fun _ => 0

/-- The second kernel's block of one tile (`var` before `mean`, as the kernel takes them). -/
def normK (relu : Bool) (h : (⟨2, ![2000, 512]⟩ : Shape).Idx → EReal) (var mean g be : (⟨2, ![1, 512]⟩ : Shape).Idx → EReal)
    (W2 : (⟨2, ![512, 256]⟩ : Shape).Idx → EReal) (b2 : (⟨2, ![1, 256]⟩ : Shape).Idx → EReal) :
    (⟨2, ![2000, 256]⟩ : Shape).Idx → EReal :=
  fun idx => (∑ k : Fin 512,
      (bif relu then
          max ((h (ix2 (idx 0) k) - mean (ix2 (0 : Fin 1) k))
            * Ideal.rsqrt (var (ix2 (0 : Fin 1) k) + Ideal.ofBits .f32 0x3727C5AC#32) * g (ix2 (0 : Fin 1) k)
            + be (ix2 (0 : Fin 1) k)) 0
        else (h (ix2 (idx 0) k) - mean (ix2 (0 : Fin 1) k))
            * Ideal.rsqrt (var (ix2 (0 : Fin 1) k) + Ideal.ofBits .f32 0x3727C5AC#32) * g (ix2 (0 : Fin 1) k)
            + be (ix2 (0 : Fin 1) k))
        * W2 (ix2 k (idx 1)))
    + b2 (ix2 (0 : Fin 1) (idx 1))

/-- Every row is a row of some tile. -/
theorem exists_tileRow (i : Fin 20000) : ∃ (t : Fin 10) (r : Fin 2000), i = tileRow t r :=
  ⟨⟨i.val / 2000, by have := i.isLt; omega⟩, ⟨i.val % 2000, Nat.mod_lt _ (by norm_num)⟩,
    Fin.ext (by show i.val = 2000 * (i.val / 2000) + i.val % 2000; omega)⟩

/-- A vector of 512 as a one-row array reads the vector. -/
theorem rowK512_apply (b : Tf Ideal S512) (u : Fin 1) (k : Fin 512) : rowK512 (F := Ideal) b (ix2 u k) = b (ix1 k) :=
  shapeCast_a_1a_apply b _ u k

theorem rowK256_apply (b : Tf Ideal S256) (u : Fin 1) (q : Fin 256) : rowK256 (F := Ideal) b (ix2 u q) = b (ix1 q) :=
  shapeCast_a_1a_apply b _ u q

/-- The host's column means from the column sums, at `k`. -/
theorem meanK_apply (s : (⟨2, ![1, 512]⟩ : Shape).Idx → EReal) (u : Fin 1) (k : Fin 512) :
    meanK (F := Ideal) s (ix2 u k) = Ideal.div (s (ix2 u k)) (Ideal.ofBits .f32 0x469C4000#32) := by
  unfold meanK rowsK
  rw [hostDivf_apply, broadcastInDim_scalar_apply, constant_apply]

/-- The host's column variances from the column sums and sums of squares, at `k`. -/
theorem varK_apply (s ss : (⟨2, ![1, 512]⟩ : Shape).Idx → EReal) (u : Fin 1) (k : Fin 512) :
    varK (F := Ideal) s ss (ix2 u k)
      = Ideal.div (ss (ix2 u k)) (Ideal.ofBits .f32 0x469C4000#32)
        - Ideal.div (s (ix2 u k)) (Ideal.ofBits .f32 0x469C4000#32) * Ideal.div (s (ix2 u k)) (Ideal.ofBits .f32 0x469C4000#32) := by
  unfold varK
  rw [subf_apply, mulf_apply, meanK_apply]
  unfold rowsK
  rw [hostDivf_apply, broadcastInDim_scalar_apply, constant_apply]

section Assembly

variable (relu : Bool) (hin : Tf Ideal S20000x256) (W1 : Tf Ideal S256x512) (b1 g be : Tf Ideal S512) (W2 : Tf Ideal S512x256)
  (b2 : Tf Ideal S256)

/-- The dense block of tile `t` at `(r, k)` is the layer's dense block at row `tileRow t r`. -/
theorem denseK_blk (t : Fin 10) (r : Fin 2000) (k : Fin 512) :
    denseK (blk hin t) W1 (rowK512 (F := Ideal) b1) (ix2 r k) = hK hin W1 b1 (tileRow t r) k := by
  show (∑ j : Fin 256, hin (ix2 (tileRow t r) j) * W1 (ix2 j k)) + rowK512 (F := Ideal) b1 (ix2 (0 : Fin 1) k) = _
  rw [rowK512_apply]
  rfl

/-- The kernel's layer, as its two kernels compute it tile by tile with the host arithmetic between them, is the
    closed form: `h` is the stored dense block, `acc1 t` and `acc2 t` the two accumulator rows after tile `t`, `y` the
    stored output. -/
theorem assembled (h : Tf Ideal S20000x512) (acc1 acc2 : Fin 10 → (⟨2, ![1, 512]⟩ : Shape).Idx → EReal) (y : Tf Ideal S20000x256)
    (hh : ∀ t, blk h t = denseK (blk hin t) W1 (rowK512 (F := Ideal) b1))
    (h10 : acc1 0 = sumStepK (denseK (blk hin 0) W1 (rowK512 (F := Ideal) b1)) zeroRow)
    (h1s : ∀ (n : ℕ) (hn : n + 1 < 10),
      acc1 ⟨n + 1, hn⟩ = sumStepK (denseK (blk hin ⟨n + 1, hn⟩) W1 (rowK512 (F := Ideal) b1)) (acc1 ⟨n, by omega⟩))
    (h20 : acc2 0 = sqStepK (denseK (blk hin 0) W1 (rowK512 (F := Ideal) b1)) zeroRow)
    (h2s : ∀ (n : ℕ) (hn : n + 1 < 10),
      acc2 ⟨n + 1, hn⟩ = sqStepK (denseK (blk hin ⟨n + 1, hn⟩) W1 (rowK512 (F := Ideal) b1)) (acc2 ⟨n, by omega⟩))
    (hy : ∀ t, blk y t = normK relu (blk h t) (varK (F := Ideal) (acc1 9) (acc2 9)) (meanK (F := Ideal) (acc1 9))
      (rowK512 (F := Ideal) g) (rowK512 (F := Ideal) be) W2 (rowK256 (F := Ideal) b2))
    (i : Fin 20000) (q : Fin 256) :
    y (ix2 i q) = kernelLayer relu hin W1 b1 g be W2 b2 (ix2 i q) := by
  have hH : ∀ (t : Fin 10) (r : Fin 2000) (k : Fin 512), h (ix2 (tileRow t r) k) = hK hin W1 b1 (tileRow t r) k := fun t r k =>
    (congrFun (hh t) (ix2 r k)).trans (denseK_blk hin W1 b1 t r k)
  have hs1 : ∀ k : Fin 512, acc1 9 (ix2 (0 : Fin 1) k) = ∑ i : Fin 20000, hK hin W1 b1 i k := fun k =>
    Cert.LayerAlgebra.acc_last (fun i => hK hin W1 b1 i k) (fun t => acc1 t (ix2 (0 : Fin 1) k))
      ((congrFun h10 (ix2 (0 : Fin 1) k)).trans
        (congrArg ((0 : EReal) + ·) (Finset.sum_congr rfl fun r _ => denseK_blk hin W1 b1 0 r k)))
      (fun n hn => (congrFun (h1s n hn) (ix2 (0 : Fin 1) k)).trans
        (congrArg (acc1 ⟨n, by omega⟩ (ix2 (0 : Fin 1) k) + ·) (Finset.sum_congr rfl fun r _ => denseK_blk hin W1 b1 ⟨n + 1, hn⟩ r k)))
  have hs2 : ∀ k : Fin 512, acc2 9 (ix2 (0 : Fin 1) k) = ∑ i : Fin 20000, hK hin W1 b1 i k * hK hin W1 b1 i k := fun k =>
    Cert.LayerAlgebra.acc_last (fun i => hK hin W1 b1 i k * hK hin W1 b1 i k) (fun t => acc2 t (ix2 (0 : Fin 1) k))
      ((congrFun h20 (ix2 (0 : Fin 1) k)).trans
        (congrArg ((0 : EReal) + ·) (Finset.sum_congr rfl fun r _ => by
          show denseK _ _ _ (ix2 r k) * denseK _ _ _ (ix2 r k) = _
          rw [denseK_blk hin W1 b1 0 r k])))
      (fun n hn => (congrFun (h2s n hn) (ix2 (0 : Fin 1) k)).trans
        (congrArg (acc2 ⟨n, by omega⟩ (ix2 (0 : Fin 1) k) + ·) (Finset.sum_congr rfl fun r _ => by
          show denseK _ _ _ (ix2 r k) * denseK _ _ _ (ix2 r k) = _
          rw [denseK_blk hin W1 b1 ⟨n + 1, hn⟩ r k])))
  obtain ⟨t, r, rfl⟩ := exists_tileRow i
  refine (congrFun (hy t) (ix2 r q)).trans ?_
  show (∑ k : Fin 512, (bif relu then
          max ((h (ix2 (tileRow t r) k) - meanK (F := Ideal) (acc1 9) (ix2 (0 : Fin 1) k))
            * Ideal.rsqrt (varK (F := Ideal) (acc1 9) (acc2 9) (ix2 (0 : Fin 1) k) + Ideal.ofBits .f32 0x3727C5AC#32)
            * rowK512 (F := Ideal) g (ix2 (0 : Fin 1) k) + rowK512 (F := Ideal) be (ix2 (0 : Fin 1) k)) 0
        else (h (ix2 (tileRow t r) k) - meanK (F := Ideal) (acc1 9) (ix2 (0 : Fin 1) k))
            * Ideal.rsqrt (varK (F := Ideal) (acc1 9) (acc2 9) (ix2 (0 : Fin 1) k) + Ideal.ofBits .f32 0x3727C5AC#32)
            * rowK512 (F := Ideal) g (ix2 (0 : Fin 1) k) + rowK512 (F := Ideal) be (ix2 (0 : Fin 1) k))
        * W2 (ix2 k q)) + rowK256 (F := Ideal) b2 (ix2 (0 : Fin 1) q)
      = (∑ k : Fin 512, (bif relu then max (normKc hin W1 b1 g be (tileRow t r) k) 0 else normKc hin W1 b1 g be (tileRow t r) k)
          * W2 (ix2 k q)) + b2 (ix1 q)
  rw [rowK256_apply]
  refine congrArg (· + b2 (ix1 q)) (Finset.sum_congr rfl fun k _ => ?_)
  rw [hH t r k, meanK_apply, varK_apply, hs1 k, hs2 k, rowK512_apply, rowK512_apply]
  rfl

end Assembly

/-! ## The kernels' stored values are these tile functions -/

section PayloadEq

open Cert.KernelIdeal.Gen Cert.KernelIdeal.Payloads

theorem k0_pay3_eq (x : Vec Ideal Cert.KernelIdeal.S2000x256 .f32) (w : Vec Ideal Cert.KernelIdeal.S256x512 .f32)
    (b : Vec Ideal Cert.KernelIdeal.S1x512 .f32) : k0_pay3 x w b = denseK x w b := by
  funext idx
  obtain ⟨p, q, rfl⟩ : ∃ (p : Fin 2000) (q : Fin 512), idx = ix2 p q := ⟨idx 0, idx 1, eq_ix2 idx⟩
  exact k0_pay3_apply x w b p q

theorem k0_pay4_eq (x : Vec Ideal Cert.KernelIdeal.S2000x256 .f32) (w : Vec Ideal Cert.KernelIdeal.S256x512 .f32)
    (b acc : Vec Ideal Cert.KernelIdeal.S1x512 .f32) : k0_pay4 x w b acc = sumStepK (denseK x w b) acc := by
  funext idx
  obtain ⟨u, q, rfl⟩ : ∃ (u : Fin 1) (q : Fin 512), idx = ix2 u q := ⟨idx 0, idx 1, eq_ix2 idx⟩
  obtain rfl : u = 0 := Subsingleton.elim u 0
  rw [k0_pay4_apply, k0_pay3_eq]
  rfl

theorem k0_pay5_eq (x : Vec Ideal Cert.KernelIdeal.S2000x256 .f32) (w : Vec Ideal Cert.KernelIdeal.S256x512 .f32)
    (b acc : Vec Ideal Cert.KernelIdeal.S1x512 .f32) : k0_pay5 x w b acc = sqStepK (denseK x w b) acc := by
  funext idx
  obtain ⟨u, q, rfl⟩ : ∃ (u : Fin 1) (q : Fin 512), idx = ix2 u q := ⟨idx 0, idx 1, eq_ix2 idx⟩
  obtain rfl : u = 0 := Subsingleton.elim u 0
  rw [k0_pay5_apply, k0_pay3_eq]
  rfl

theorem k0_pay1_eq : k0_pay1 (F := Ideal) = zeroRow := by
  funext idx
  obtain ⟨u, q, rfl⟩ : ∃ (u : Fin 1) (q : Fin 512), idx = ix2 u q := ⟨idx 0, idx 1, eq_ix2 idx⟩
  obtain rfl : u = 0 := Subsingleton.elim u 0
  exact k0_pay1_apply q

theorem k0_pay2_eq : k0_pay2 (F := Ideal) = zeroRow := by
  funext idx
  obtain ⟨u, q, rfl⟩ : ∃ (u : Fin 1) (q : Fin 512), idx = ix2 u q := ⟨idx 0, idx 1, eq_ix2 idx⟩
  obtain rfl : u = 0 := Subsingleton.elim u 0
  exact k0_pay2_apply q

theorem k2_pay3_eq (x : Vec Ideal Cert.KernelIdeal.S2000x256 .f32) (w : Vec Ideal Cert.KernelIdeal.S256x512 .f32)
    (b : Vec Ideal Cert.KernelIdeal.S1x512 .f32) : k2_pay3 x w b = denseK x w b := by
  funext idx
  obtain ⟨p, q, rfl⟩ : ∃ (p : Fin 2000) (q : Fin 512), idx = ix2 p q := ⟨idx 0, idx 1, eq_ix2 idx⟩
  exact k2_pay3_apply x w b p q

theorem k2_pay4_eq (x : Vec Ideal Cert.KernelIdeal.S2000x256 .f32) (w : Vec Ideal Cert.KernelIdeal.S256x512 .f32)
    (b acc : Vec Ideal Cert.KernelIdeal.S1x512 .f32) : k2_pay4 x w b acc = sumStepK (denseK x w b) acc := by
  funext idx
  obtain ⟨u, q, rfl⟩ : ∃ (u : Fin 1) (q : Fin 512), idx = ix2 u q := ⟨idx 0, idx 1, eq_ix2 idx⟩
  obtain rfl : u = 0 := Subsingleton.elim u 0
  rw [k2_pay4_apply, k2_pay3_eq]
  rfl

theorem k2_pay5_eq (x : Vec Ideal Cert.KernelIdeal.S2000x256 .f32) (w : Vec Ideal Cert.KernelIdeal.S256x512 .f32)
    (b acc : Vec Ideal Cert.KernelIdeal.S1x512 .f32) : k2_pay5 x w b acc = sqStepK (denseK x w b) acc := by
  funext idx
  obtain ⟨u, q, rfl⟩ : ∃ (u : Fin 1) (q : Fin 512), idx = ix2 u q := ⟨idx 0, idx 1, eq_ix2 idx⟩
  obtain rfl : u = 0 := Subsingleton.elim u 0
  rw [k2_pay5_apply, k2_pay3_eq]
  rfl

theorem k2_pay1_eq : k2_pay1 (F := Ideal) = zeroRow := by
  funext idx
  obtain ⟨u, q, rfl⟩ : ∃ (u : Fin 1) (q : Fin 512), idx = ix2 u q := ⟨idx 0, idx 1, eq_ix2 idx⟩
  obtain rfl : u = 0 := Subsingleton.elim u 0
  exact k2_pay1_apply q

theorem k2_pay2_eq : k2_pay2 (F := Ideal) = zeroRow := by
  funext idx
  obtain ⟨u, q, rfl⟩ : ∃ (u : Fin 1) (q : Fin 512), idx = ix2 u q := ⟨idx 0, idx 1, eq_ix2 idx⟩
  obtain rfl : u = 0 := Subsingleton.elim u 0
  exact k2_pay2_apply q

theorem k4_pay3_eq (x : Vec Ideal Cert.KernelIdeal.S2000x256 .f32) (w : Vec Ideal Cert.KernelIdeal.S256x512 .f32)
    (b : Vec Ideal Cert.KernelIdeal.S1x512 .f32) : k4_pay3 x w b = denseK x w b := by
  funext idx
  obtain ⟨p, q, rfl⟩ : ∃ (p : Fin 2000) (q : Fin 512), idx = ix2 p q := ⟨idx 0, idx 1, eq_ix2 idx⟩
  exact k4_pay3_apply x w b p q

theorem k4_pay4_eq (x : Vec Ideal Cert.KernelIdeal.S2000x256 .f32) (w : Vec Ideal Cert.KernelIdeal.S256x512 .f32)
    (b acc : Vec Ideal Cert.KernelIdeal.S1x512 .f32) : k4_pay4 x w b acc = sumStepK (denseK x w b) acc := by
  funext idx
  obtain ⟨u, q, rfl⟩ : ∃ (u : Fin 1) (q : Fin 512), idx = ix2 u q := ⟨idx 0, idx 1, eq_ix2 idx⟩
  obtain rfl : u = 0 := Subsingleton.elim u 0
  rw [k4_pay4_apply, k4_pay3_eq]
  rfl

theorem k4_pay5_eq (x : Vec Ideal Cert.KernelIdeal.S2000x256 .f32) (w : Vec Ideal Cert.KernelIdeal.S256x512 .f32)
    (b acc : Vec Ideal Cert.KernelIdeal.S1x512 .f32) : k4_pay5 x w b acc = sqStepK (denseK x w b) acc := by
  funext idx
  obtain ⟨u, q, rfl⟩ : ∃ (u : Fin 1) (q : Fin 512), idx = ix2 u q := ⟨idx 0, idx 1, eq_ix2 idx⟩
  obtain rfl : u = 0 := Subsingleton.elim u 0
  rw [k4_pay5_apply, k4_pay3_eq]
  rfl

theorem k4_pay1_eq : k4_pay1 (F := Ideal) = zeroRow := by
  funext idx
  obtain ⟨u, q, rfl⟩ : ∃ (u : Fin 1) (q : Fin 512), idx = ix2 u q := ⟨idx 0, idx 1, eq_ix2 idx⟩
  obtain rfl : u = 0 := Subsingleton.elim u 0
  exact k4_pay1_apply q

theorem k4_pay2_eq : k4_pay2 (F := Ideal) = zeroRow := by
  funext idx
  obtain ⟨u, q, rfl⟩ : ∃ (u : Fin 1) (q : Fin 512), idx = ix2 u q := ⟨idx 0, idx 1, eq_ix2 idx⟩
  obtain rfl : u = 0 := Subsingleton.elim u 0
  exact k4_pay2_apply q

theorem k6_pay3_eq (x : Vec Ideal Cert.KernelIdeal.S2000x256 .f32) (w : Vec Ideal Cert.KernelIdeal.S256x512 .f32)
    (b : Vec Ideal Cert.KernelIdeal.S1x512 .f32) : k6_pay3 x w b = denseK x w b := by
  funext idx
  obtain ⟨p, q, rfl⟩ : ∃ (p : Fin 2000) (q : Fin 512), idx = ix2 p q := ⟨idx 0, idx 1, eq_ix2 idx⟩
  exact k6_pay3_apply x w b p q

theorem k6_pay4_eq (x : Vec Ideal Cert.KernelIdeal.S2000x256 .f32) (w : Vec Ideal Cert.KernelIdeal.S256x512 .f32)
    (b acc : Vec Ideal Cert.KernelIdeal.S1x512 .f32) : k6_pay4 x w b acc = sumStepK (denseK x w b) acc := by
  funext idx
  obtain ⟨u, q, rfl⟩ : ∃ (u : Fin 1) (q : Fin 512), idx = ix2 u q := ⟨idx 0, idx 1, eq_ix2 idx⟩
  obtain rfl : u = 0 := Subsingleton.elim u 0
  rw [k6_pay4_apply, k6_pay3_eq]
  rfl

theorem k6_pay5_eq (x : Vec Ideal Cert.KernelIdeal.S2000x256 .f32) (w : Vec Ideal Cert.KernelIdeal.S256x512 .f32)
    (b acc : Vec Ideal Cert.KernelIdeal.S1x512 .f32) : k6_pay5 x w b acc = sqStepK (denseK x w b) acc := by
  funext idx
  obtain ⟨u, q, rfl⟩ : ∃ (u : Fin 1) (q : Fin 512), idx = ix2 u q := ⟨idx 0, idx 1, eq_ix2 idx⟩
  obtain rfl : u = 0 := Subsingleton.elim u 0
  rw [k6_pay5_apply, k6_pay3_eq]
  rfl

theorem k6_pay1_eq : k6_pay1 (F := Ideal) = zeroRow := by
  funext idx
  obtain ⟨u, q, rfl⟩ : ∃ (u : Fin 1) (q : Fin 512), idx = ix2 u q := ⟨idx 0, idx 1, eq_ix2 idx⟩
  obtain rfl : u = 0 := Subsingleton.elim u 0
  exact k6_pay1_apply q

theorem k6_pay2_eq : k6_pay2 (F := Ideal) = zeroRow := by
  funext idx
  obtain ⟨u, q, rfl⟩ : ∃ (u : Fin 1) (q : Fin 512), idx = ix2 u q := ⟨idx 0, idx 1, eq_ix2 idx⟩
  obtain rfl : u = 0 := Subsingleton.elim u 0
  exact k6_pay2_apply q

theorem k1_pay1_eq (h : Vec Ideal Cert.KernelIdeal.S2000x512 .f32) (var mean g be : Vec Ideal Cert.KernelIdeal.S1x512 .f32)
    (W2 : Vec Ideal Cert.KernelIdeal.S512x256 .f32) (b2 : Vec Ideal Cert.KernelIdeal.S1x256 .f32) :
    k1_pay1 h var mean g be W2 b2 = normK true h var mean g be W2 b2 := by
  funext idx
  obtain ⟨p, q, rfl⟩ : ∃ (p : Fin 2000) (q : Fin 256), idx = ix2 p q := ⟨idx 0, idx 1, eq_ix2 idx⟩
  exact k1_pay1_apply h var mean g be W2 b2 p q

theorem k3_pay1_eq (h : Vec Ideal Cert.KernelIdeal.S2000x512 .f32) (var mean g be : Vec Ideal Cert.KernelIdeal.S1x512 .f32)
    (W2 : Vec Ideal Cert.KernelIdeal.S512x256 .f32) (b2 : Vec Ideal Cert.KernelIdeal.S1x256 .f32) :
    k3_pay1 h var mean g be W2 b2 = normK true h var mean g be W2 b2 := by
  funext idx
  obtain ⟨p, q, rfl⟩ : ∃ (p : Fin 2000) (q : Fin 256), idx = ix2 p q := ⟨idx 0, idx 1, eq_ix2 idx⟩
  exact k3_pay1_apply h var mean g be W2 b2 p q

theorem k5_pay1_eq (h : Vec Ideal Cert.KernelIdeal.S2000x512 .f32) (var mean g be : Vec Ideal Cert.KernelIdeal.S1x512 .f32)
    (W2 : Vec Ideal Cert.KernelIdeal.S512x256 .f32) (b2 : Vec Ideal Cert.KernelIdeal.S1x256 .f32) :
    k5_pay1 h var mean g be W2 b2 = normK false h var mean g be W2 b2 := by
  funext idx
  obtain ⟨p, q, rfl⟩ : ∃ (p : Fin 2000) (q : Fin 256), idx = ix2 p q := ⟨idx 0, idx 1, eq_ix2 idx⟩
  exact k5_pay1_apply h var mean g be W2 b2 p q

theorem k7_pay1_eq (h : Vec Ideal Cert.KernelIdeal.S2000x512 .f32) (var mean g be : Vec Ideal Cert.KernelIdeal.S1x512 .f32)
    (W2 : Vec Ideal Cert.KernelIdeal.S512x256 .f32) (b2 : Vec Ideal Cert.KernelIdeal.S1x256 .f32) :
    k7_pay1 h var mean g be W2 b2 = normK false h var mean g be W2 b2 := by
  funext idx
  obtain ⟨p, q, rfl⟩ : ∃ (p : Fin 2000) (q : Fin 256), idx = ix2 p q := ⟨idx 0, idx 1, eq_ix2 idx⟩
  exact k7_pay1_apply h var mean g be W2 b2 p q

end PayloadEq

/-! ## One layer: the kernel program's against the reference's -/

/-- One layer of the kernel program — the dense block stored tile by tile, the two accumulator rows, the host's mean and
    variance, the output stored tile by tile — agrees with the reference's perceptron at every entry, for real data, and
    every entry of the output is a real number. -/
theorem layer_eq (relu : Bool) (hin : Tf Ideal S20000x256) (W1 : Tf Ideal S256x512) (b1 g be : Tf Ideal S512)
    (W2 : Tf Ideal S512x256) (b2 : Tf Ideal S256)
    (hhin : ∀ i j, IsReal (hin (ix2 i j))) (hW1 : ∀ j k, IsReal (W1 (ix2 j k))) (hb1 : ∀ k, IsReal (b1 (ix1 k)))
    (hg : ∀ k, IsReal (g (ix1 k))) (hbe : ∀ k, IsReal (be (ix1 k))) (hW2 : ∀ k q, IsReal (W2 (ix2 k q))) (hb2 : ∀ q, IsReal (b2 (ix1 q)))
    (h : Tf Ideal S20000x512) (acc1 acc2 : Fin 10 → (⟨2, ![1, 512]⟩ : Shape).Idx → EReal) (y : Tf Ideal S20000x256)
    (hh : ∀ t, blk h t = denseK (blk hin t) W1 (rowK512 (F := Ideal) b1))
    (h10 : acc1 0 = sumStepK (denseK (blk hin 0) W1 (rowK512 (F := Ideal) b1)) zeroRow)
    (h1s : ∀ (n : ℕ) (hn : n + 1 < 10),
      acc1 ⟨n + 1, hn⟩ = sumStepK (denseK (blk hin ⟨n + 1, hn⟩) W1 (rowK512 (F := Ideal) b1)) (acc1 ⟨n, by omega⟩))
    (h20 : acc2 0 = sqStepK (denseK (blk hin 0) W1 (rowK512 (F := Ideal) b1)) zeroRow)
    (h2s : ∀ (n : ℕ) (hn : n + 1 < 10),
      acc2 ⟨n + 1, hn⟩ = sqStepK (denseK (blk hin ⟨n + 1, hn⟩) W1 (rowK512 (F := Ideal) b1)) (acc2 ⟨n, by omega⟩))
    (hy : ∀ t, blk y t = normK relu (blk h t) (varK (F := Ideal) (acc1 9) (acc2 9)) (meanK (F := Ideal) (acc1 9))
      (rowK512 (F := Ideal) g) (rowK512 (F := Ideal) be) W2 (rowK256 (F := Ideal) b2))
    (i : Fin 20000) (q : Fin 256) :
    y (ix2 i q) = mlpR relu hin W1 b1 g be W2 b2 (ix2 i q) ∧ IsReal (y (ix2 i q)) := by
  have e := assembled relu hin W1 b1 g be W2 b2 h acc1 acc2 y hh h10 h1s h20 h2s hy i q
  exact ⟨e.trans (kernelLayer_eq_mlpR hin W1 b1 g be W2 b2 hhin hW1 hb1 relu i q),
    e ▸ kernelLayer_isReal hin W1 b1 g be W2 b2 hhin hW1 hb1 hg hbe hW2 hb2 relu i q⟩

end Cert.LayerEq

end
-- ==== Proof.AggReal.lean ====
/-
  The neighbourhood sum keeps real data real.

  On the extended reals a gather's entry is one of its operand's entries, the clamp at zero is the maximum with the
  real number 0, and the accumulating scatter's entry is the operand's entry plus a finite sum of update entries. Real
  numbers are closed under all three, so `x + segment_sum(relu(x[src] + edge_attr), dst)` has only real entries when
  `x` and `edge_attr` do — whatever the index words are.
-/
import proofs.«138093_j17583596110490_1_alg».proof.Proof.RefStages
import proofs.«138093_j17583596110490_1_alg».proof.Proof.LibRealMatrix
import Idealize.ShloMosaic.PureOps.Ideal
import Idealize.ShloMosaic.PureOps.Ideal.Laws

noncomputable section

namespace Cert.AggReal

open Idealize.ShloMosaic Cert.LibRealMatrix Cert.ReferenceIdeal Cert.ReferenceIdeal.RefRun

/-- A host gather of an array with real entries has real entries: each entry is an entry of the operand. -/
theorem gather_isReal {s si t : Shape} {w : Nat} (d : GatherDims s si t) (x : s.Idx → EReal) (idx : IVec si w)
    (hx : ∀ i, IsReal (x i)) : ∀ j, IsReal (Host.gather d x idx j) := fun j => hx _

/-- The accumulating host scatter of real updates into a real operand is real: each entry is the operand's entry plus a
    finite sum of update entries. -/
theorem scatterAdd_isReal {s si u : Shape} {w : Nat} (d : ScatterDims s si u) (x : FVec Ideal s .f32) (idx : IVec si w)
    (upd : FVec Ideal u .f32) (hx : ∀ i, IsReal (x i)) (hupd : ∀ j, IsReal (upd j)) :
    ∀ i, IsReal (Host.scatterAdd d x idx upd i) := fun i => by
  change IsReal (x i + ∑ j ∈ Finset.univ.filter (fun j => d.resultIdx? j idx = some i), upd j)
  exact (hx i).add (IsReal.sum _ hupd)

/-- The zero constant, broadcast to any shape, is real. -/
theorem zeros_isReal {s0 s : Shape} (dims : Fin s0.rank → Fin s.rank) (hb : s0.BroadcastsInDim s dims) :
    ∀ i, IsReal ((broadcastInDim s dims hb (constant (F := Ideal) s0 .f32 0x00000000#32)) i) := fun i => by
  change IsReal (Ideal.ofBits .f32 0x00000000#32)
  rw [Ideal.ofBits_zero_f32]
  exact IsReal.zero

variable [Cert.ReferenceIdeal.Facts]

/-- The clamp at zero of real edge messages is real. -/
theorem reluE_isReal (v : Tf Ideal S320000x256) (hv : ∀ i, IsReal (v i)) : ∀ i, IsReal (reluE (F := Ideal) v i) :=
  fun i => (hv i).max (zeros_isReal _ _ i)

/-- `x + segment_sum(relu(x[src] + edge_attr), dst)` is real where `x` and `edge_attr` are. -/
theorem aggR_isReal (x : Tf Ideal S20000x256) (ei : Ti Ideal S2x320000) (ea : Tf Ideal S320000x256)
    (hx : ∀ i, IsReal (x i)) (hea : ∀ i, IsReal (ea i)) : ∀ i, IsReal (aggR (F := Ideal) x ei ea i) := fun i =>
  (hx i).add (scatterAdd_isReal _ _ _ _ (zeros_isReal _ _)
    (reluE_isReal _ fun j => (gather_isReal _ x _ hx j).add (hea j)) i)

end Cert.AggReal
-- ==== Proof.RefResults.lean ====
/- The reference program's four results as stage functions of its arguments. The line of 324 operations is its nine
   stages one after the other; a stage's result is its stage function of the buffers it reads (RefStages.lean), and each of
   those is an earlier stage's result or an argument, carried unchanged through the stages between (their blocks of
   indices do not hold it). Layers 0 and 1 (clamped) feed layer 2, whose result is the mean, and layer 3, whose result is
   the log of the standard deviation: both read layer 1's result. -/
import proofs.«138093_j17583596110490_1_alg».proof.Proof.RefRun
import proofs.«138093_j17583596110490_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two clamped layers: layer 1 of layer 0 of the node features. -/
def encR (a0 : Tf F S20000x256) (a1 : Ti F S2x320000) (a2 : Tf F S320000x256)
    (a4 : Tf F S256x512) (a5 a6 a7 : Tf F S512) (a8 : Tf F S512x256) (a9 : Tf F S256)
    (a10 : Tf F S256x512) (a11 a12 a13 : Tf F S512) (a14 : Tf F S512x256) (a15 : Tf F S256) : Tf F S20000x256 :=
  layerR true (layerR true a0 a1 a2 a4 a5 a6 a7 a8 a9) a1 a2 a10 a11 a12 a13 a14 a15

/-- The mean: layer 2 (not clamped) of the two clamped layers, over the buffers' contents `V`. -/
def meanV (V : Valuation τ sig (Elt F)) : Tf F S20000x256 :=
  (layerR false (encR (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) (V (Proc.devRef .tc main_arg1)) (V (Proc.devRef .tc main_arg2)) (V (Proc.devRef .tc main_arg16)) (V (Proc.devRef .tc main_arg17)) (V (Proc.devRef .tc main_arg18)) (V (Proc.devRef .tc main_arg19)) (V (Proc.devRef .tc main_arg20)) (V (Proc.devRef .tc main_arg21)))

/-- The log of the standard deviation: layer 3 (not clamped) of the two clamped layers, over the buffers' contents `V`. -/
def logstdV (V : Valuation τ sig (Elt F)) : Tf F S20000x256 :=
  (layerR false (encR (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15))) (V (Proc.devRef .tc main_arg1)) (V (Proc.devRef .tc main_arg2)) (V (Proc.devRef .tc main_arg22)) (V (Proc.devRef .tc main_arg23)) (V (Proc.devRef .tc main_arg24)) (V (Proc.devRef .tc main_arg25)) (V (Proc.devRef .tc main_arg26)) (V (Proc.devRef .tc main_arg27)))

/-- The fold over the whole line is the fold over its twelve lists in turn. -/
theorem after_ops_eq (V : Valuation τ sig (Elt F)) :
    after ops V = after cT (after cM3b (after cM3a (after cA3 (after cM2 (after cA2b (after cA2a (after cM1 (after cA1b (after cA1a (after cM0 (after cA0 V))))))))))) := by
  simp only [ops, after_append]

set_option maxRecDepth 8192 in
set_option maxHeartbeats 4000000 in
/-- The four results after the line, from any contents. -/
theorem after_ops_results (V : Valuation τ sig (Elt F)) :
    after ops V (Proc.devRef .tc main_v180) = zR (V (Proc.devRef .tc main_arg3)) (meanV V) (logstdV V)
    ∧ after ops V (Proc.devRef .tc main_v133) = meanV V
    ∧ after ops V (Proc.devRef .tc main_v177) = logstdV V
    ∧ after ops V (Proc.devRef .tc main_v193) = klR (meanV V) (logstdV V) := by
  rw [after_ops_eq]
  refine ⟨?_, ?_, ?_, ?_⟩ <;>
  · simp (disch := decide) only [sT_z, sT_kl, sM3_out, sA3_out, sM2_out, sA2_out, sM1_out, sA1_out, sM0_out, sA0_out,
      cA0_frame, cM0_frame, cA1a_frame, cA1b_frame, cM1_frame, cA2a_frame, cA2b_frame, cM2_frame, cA3_frame, cM3a_frame, cM3b_frame, cT_frame]
    rfl

/-- On every device, for any float values, from any memory with zero counters: every weakly fair execution of @main
    terminates with the sample, the mean, the log of the standard deviation and the divergence at the stage functions
    of the arguments' launch contents, and the 28 arguments unchanged. -/
theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180) = zR (m ((c.tc : Thread nD τ).loc main_arg3)) (layerR false (encR (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg1)) (m ((c.tc : Thread nD τ).loc main_arg2)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) (layerR false (encR (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg1)) (m ((c.tc : Thread nD τ).loc main_arg2)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
      ∧ r.2.mem ((c.tc : Thread nD τ).loc main_v133) = (layerR false (encR (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg1)) (m ((c.tc : Thread nD τ).loc main_arg2)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)))
      ∧ r.2.mem ((c.tc : Thread nD τ).loc main_v177) = (layerR false (encR (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg1)) (m ((c.tc : Thread nD τ).loc main_arg2)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
      ∧ r.2.mem ((c.tc : Thread nD τ).loc main_v193) = klR (layerR false (encR (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg1)) (m ((c.tc : Thread nD τ).loc main_arg2)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))) (layerR false (encR (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg1)) (m ((c.tc : Thread nD τ).loc main_arg2)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run _ _ _).mono (fun _ h c =>
    ⟨(h c main_v180).trans (after_ops_results _).1,
      (h c main_v133).trans (after_ops_results _).2.1,
      (h c main_v177).trans (after_ops_results _).2.2.1,
      (h c main_v193).trans (after_ops_results _).2.2.2,
      (h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide)),
      (h c main_arg15).trans (after_ops_arg _ main_arg15 (by decide)),
      (h c main_arg16).trans (after_ops_arg _ main_arg16 (by decide)),
      (h c main_arg17).trans (after_ops_arg _ main_arg17 (by decide)),
      (h c main_arg18).trans (after_ops_arg _ main_arg18 (by decide)),
      (h c main_arg19).trans (after_ops_arg _ main_arg19 (by decide)),
      (h c main_arg20).trans (after_ops_arg _ main_arg20 (by decide)),
      (h c main_arg21).trans (after_ops_arg _ main_arg21 (by decide)),
      (h c main_arg22).trans (after_ops_arg _ main_arg22 (by decide)),
      (h c main_arg23).trans (after_ops_arg _ main_arg23 (by decide)),
      (h c main_arg24).trans (after_ops_arg _ main_arg24 (by decide)),
      (h c main_arg25).trans (after_ops_arg _ main_arg25 (by decide)),
      (h c main_arg26).trans (after_ops_arg _ main_arg26 (by decide)),
      (h c main_arg27).trans (after_ops_arg _ main_arg27 (by decide))⟩)
    (run_all m ρ)

end Cert.ReferenceIdeal.RefRun

end
-- ==== Proof.NetEq.lean ====
/-
  The four layers chained: the kernel program's network against the reference's, on the extended reals, for real data.

  `KLayer relu hin W1 b1 g be W2 b2 y` says that `y` is what the kernel program's two kernels of one layer, with the host
  arithmetic between them, leave from the layer input `hin`: there are a stored dense block and two rows of accumulators
  per tile that satisfy the tile-by-tile description of LayerEq.lean. For real data such a `y` is the reference's
  perceptron of `hin`, entry by entry, and real (`KLayer.eq`). The reference's neighbourhood sum keeps real data real, so
  the four layers chain: layers 0 and 1 (rectified) feed layer 2, whose output is the mean, and layer 3, whose output is
  the log of the standard deviation; both read layer 1's output (`net_eq`).
-/
import proofs.«138093_j17583596110490_1_alg».proof.Proof.LayerEq
import proofs.«138093_j17583596110490_1_alg».proof.Proof.AggReal
import proofs.«138093_j17583596110490_1_alg».proof.Proof.RefResults

noncomputable section

namespace Cert.NetEq

open Idealize.ShloMosaic Idealize.ShloMosaic.ValueIdx Cert.LibRealMatrix Cert.LayerEq
open Cert.ReferenceIdeal.RefRun (Tf Ti mlpR aggR layerR encR)
open Cert.ReferenceIdeal (S20000x256 S2x320000 S320000x256 S256x512 S512 S20000x512 S512x256 S256)
open Cert.KernelIdeal.KStages (rowK512 rowK256 meanK varK)

/-- `y` is the kernel program's layer over the input `hin`: some stored dense block `h` and accumulator rows `acc1 t`,
    `acc2 t` after each tile `t` satisfy the tile-by-tile description. -/
inductive KLayer (relu : Bool) (hin : Tf Ideal S20000x256) (W1 : Tf Ideal S256x512) (b1 g be : Tf Ideal S512)
    (W2 : Tf Ideal S512x256) (b2 : Tf Ideal S256) (y : Tf Ideal S20000x256) : Prop
  | intro (h : Tf Ideal S20000x512) (acc1 acc2 : Fin 10 → (⟨2, ![1, 512]⟩ : Shape).Idx → EReal)
      (hh : ∀ t, blk h t = denseK (blk hin t) W1 (rowK512 (F := Ideal) b1))
      (h10 : acc1 0 = sumStepK (denseK (blk hin 0) W1 (rowK512 (F := Ideal) b1)) zeroRow)
      (h1s : ∀ (n : ℕ) (hn : n + 1 < 10),
        acc1 ⟨n + 1, hn⟩ = sumStepK (denseK (blk hin ⟨n + 1, hn⟩) W1 (rowK512 (F := Ideal) b1)) (acc1 ⟨n, by omega⟩))
      (h20 : acc2 0 = sqStepK (denseK (blk hin 0) W1 (rowK512 (F := Ideal) b1)) zeroRow)
      (h2s : ∀ (n : ℕ) (hn : n + 1 < 10),
        acc2 ⟨n + 1, hn⟩ = sqStepK (denseK (blk hin ⟨n + 1, hn⟩) W1 (rowK512 (F := Ideal) b1)) (acc2 ⟨n, by omega⟩))
      (hy : ∀ t, blk y t = normK relu (blk h t) (varK (F := Ideal) (acc1 9) (acc2 9)) (meanK (F := Ideal) (acc1 9))
        (rowK512 (F := Ideal) g) (rowK512 (F := Ideal) be) W2 (rowK256 (F := Ideal) b2)) : KLayer relu hin W1 b1 g be W2 b2 y

/-- For real data the kernel program's layer is the reference's perceptron of the same input, and its entries are real. -/
theorem KLayer.eq {relu : Bool} {hin : Tf Ideal S20000x256} {W1 : Tf Ideal S256x512} {b1 g be : Tf Ideal S512}
    {W2 : Tf Ideal S512x256} {b2 : Tf Ideal S256} {y : Tf Ideal S20000x256} (L : KLayer relu hin W1 b1 g be W2 b2 y)
    (hhin : ∀ i, IsReal (hin i)) (hW1 : ∀ i, IsReal (W1 i)) (hb1 : ∀ i, IsReal (b1 i)) (hg : ∀ i, IsReal (g i))
    (hbe : ∀ i, IsReal (be i)) (hW2 : ∀ i, IsReal (W2 i)) (hb2 : ∀ i, IsReal (b2 i)) :
    y = mlpR relu hin W1 b1 g be W2 b2 ∧ ∀ i, IsReal (y i) := by
  obtain ⟨h, acc1, acc2, hh, h10, h1s, h20, h2s, hy⟩ := L
  have key := fun (i : Fin 20000) (q : Fin 256) =>
    layer_eq relu hin W1 b1 g be W2 b2 (fun i j => hhin _) (fun j k => hW1 _) (fun k => hb1 _) (fun k => hg _) (fun k => hbe _)
      (fun k q => hW2 _) (fun q => hb2 _) h acc1 acc2 y hh h10 h1s h20 h2s hy i q
  refine ⟨funext fun idx => ?_, fun idx => ?_⟩
  · obtain ⟨i, q, rfl⟩ : ∃ (i : Fin 20000) (q : Fin 256), idx = ix2 i q := ⟨idx 0, idx 1, eq_ix2 idx⟩
    exact (key i q).1
  · obtain ⟨i, q, rfl⟩ : ∃ (i : Fin 20000) (q : Fin 256), idx = ix2 i q := ⟨idx 0, idx 1, eq_ix2 idx⟩
    exact (key i q).2

/-- The same against the reference's whole layer, whose input is the neighbourhood sum of `x`. -/
theorem KLayer.eq_layerR {relu : Bool} {x : Tf Ideal S20000x256} {ei : Ti Ideal S2x320000} {ea : Tf Ideal S320000x256}
    {W1 : Tf Ideal S256x512} {b1 g be : Tf Ideal S512} {W2 : Tf Ideal S512x256} {b2 : Tf Ideal S256} {y : Tf Ideal S20000x256}
    (L : KLayer relu (aggR (F := Ideal) x ei ea) W1 b1 g be W2 b2 y)
    (hx : ∀ i, IsReal (x i)) (hea : ∀ i, IsReal (ea i)) (hW1 : ∀ i, IsReal (W1 i)) (hb1 : ∀ i, IsReal (b1 i))
    (hg : ∀ i, IsReal (g i)) (hbe : ∀ i, IsReal (be i)) (hW2 : ∀ i, IsReal (W2 i)) (hb2 : ∀ i, IsReal (b2 i)) :
    y = layerR relu x ei ea W1 b1 g be W2 b2 ∧ ∀ i, IsReal (y i) :=
  L.eq (Cert.AggReal.aggR_isReal x ei ea hx hea) hW1 hb1 hg hbe hW2 hb2

/-- The four layers of the kernel program compute the reference's two rectified layers, its mean and its log of the
    standard deviation, for real node features, edge attributes and parameters (the edge index is arbitrary). -/
theorem net_eq (x : Tf Ideal S20000x256) (ei : Ti Ideal S2x320000) (ea : Tf Ideal S320000x256)
    (p4 : Tf Ideal S256x512) (p5 p6 p7 : Tf Ideal S512) (p8 : Tf Ideal S512x256) (p9 : Tf Ideal S256)
    (p10 : Tf Ideal S256x512) (p11 p12 p13 : Tf Ideal S512) (p14 : Tf Ideal S512x256) (p15 : Tf Ideal S256)
    (p16 : Tf Ideal S256x512) (p17 p18 p19 : Tf Ideal S512) (p20 : Tf Ideal S512x256) (p21 : Tf Ideal S256)
    (p22 : Tf Ideal S256x512) (p23 p24 p25 : Tf Ideal S512) (p26 : Tf Ideal S512x256) (p27 : Tf Ideal S256)
    (hx : ∀ i, IsReal (x i)) (hea : ∀ i, IsReal (ea i))
    (hp4 : ∀ i, IsReal (p4 i)) (hp5 : ∀ i, IsReal (p5 i)) (hp6 : ∀ i, IsReal (p6 i)) (hp7 : ∀ i, IsReal (p7 i)) (hp8 : ∀ i, IsReal (p8 i)) (hp9 : ∀ i, IsReal (p9 i))
    (hp10 : ∀ i, IsReal (p10 i)) (hp11 : ∀ i, IsReal (p11 i)) (hp12 : ∀ i, IsReal (p12 i)) (hp13 : ∀ i, IsReal (p13 i)) (hp14 : ∀ i, IsReal (p14 i)) (hp15 : ∀ i, IsReal (p15 i))
    (hp16 : ∀ i, IsReal (p16 i)) (hp17 : ∀ i, IsReal (p17 i)) (hp18 : ∀ i, IsReal (p18 i)) (hp19 : ∀ i, IsReal (p19 i)) (hp20 : ∀ i, IsReal (p20 i)) (hp21 : ∀ i, IsReal (p21 i))
    (hp22 : ∀ i, IsReal (p22 i)) (hp23 : ∀ i, IsReal (p23 i)) (hp24 : ∀ i, IsReal (p24 i)) (hp25 : ∀ i, IsReal (p25 i)) (hp26 : ∀ i, IsReal (p26 i)) (hp27 : ∀ i, IsReal (p27 i))
    (y0 y1 y2 y3 : Tf Ideal S20000x256)
    (L0 : KLayer true (aggR (F := Ideal) x ei ea) p4 p5 p6 p7 p8 p9 y0)
    (L1 : KLayer true (aggR (F := Ideal) y0 ei ea) p10 p11 p12 p13 p14 p15 y1)
    (L2 : KLayer false (aggR (F := Ideal) y1 ei ea) p16 p17 p18 p19 p20 p21 y2)
    (L3 : KLayer false (aggR (F := Ideal) y1 ei ea) p22 p23 p24 p25 p26 p27 y3) :
    y0 = layerR true x ei ea p4 p5 p6 p7 p8 p9
    ∧ y1 = encR x ei ea p4 p5 p6 p7 p8 p9 p10 p11 p12 p13 p14 p15
    ∧ y2 = layerR false (encR x ei ea p4 p5 p6 p7 p8 p9 p10 p11 p12 p13 p14 p15) ei ea p16 p17 p18 p19 p20 p21
    ∧ y3 = layerR false (encR x ei ea p4 p5 p6 p7 p8 p9 p10 p11 p12 p13 p14 p15) ei ea p22 p23 p24 p25 p26 p27
    ∧ (∀ i, IsReal (y2 i)) ∧ (∀ i, IsReal (y3 i)) := by
  obtain ⟨e0, r0⟩ := L0.eq_layerR hx hea hp4 hp5 hp6 hp7 hp8 hp9
  obtain ⟨e1, r1⟩ := L1.eq_layerR r0 hea hp10 hp11 hp12 hp13 hp14 hp15
  obtain ⟨e2, r2⟩ := L2.eq_layerR r1 hea hp16 hp17 hp18 hp19 hp20 hp21
  obtain ⟨e3, r3⟩ := L3.eq_layerR r1 hea hp22 hp23 hp24 hp25 hp26 hp27
  subst e0
  subst e1
  exact ⟨rfl, rfl, e2, e3, r2, r3⟩

end Cert.NetEq

end
-- ==== Proof.KStagesEq.lean ====
/- The kernel program's host stages that are also stages of the reference program: the layer input (the neighbourhood
   sum), the sample and the divergence are computed by the same host operations on the same arguments in both programs.
   The two programs name their shapes, side conditions and dimension records separately, but the names unfold to the
   same terms, so the stage functions are equal by unfolding. -/
import proofs.«138093_j17583596110490_1_alg».proof.Proof.KStages
import proofs.«138093_j17583596110490_1_alg».proof.Proof.RefStages

noncomputable section

namespace Cert.KStagesEq

open Idealize.ShloMosaic

variable {F : FTy → Type} [FloatOps F]

/-- The layer input from the edge index: the neighbourhood sum of the reference. -/
theorem aggK_eq_aggR : @Cert.KernelIdeal.KStages.aggK F _ = @Cert.ReferenceIdeal.RefRun.aggR F _ := rfl

/-- The sample. -/
theorem zK_eq_zR : @Cert.KernelIdeal.KStages.zK F _ = @Cert.ReferenceIdeal.RefRun.zR F _ := rfl

/-- The divergence. -/
theorem klK_eq_klR : @Cert.KernelIdeal.KStages.klK F _ = @Cert.ReferenceIdeal.RefRun.klR F _ := rfl

/-- The source and destination ids. -/
theorem srcIdx_eq (ei : Cert.KernelIdeal.KStages.Ti F Cert.KernelIdeal.S2x320000) :
    Cert.KernelIdeal.KStages.srcIdx (F := F) ei = Cert.ReferenceIdeal.RefRun.srcIdx (F := F) ei := rfl
theorem dstIdx_eq (ei : Cert.KernelIdeal.KStages.Ti F Cert.KernelIdeal.S2x320000) :
    Cert.KernelIdeal.KStages.dstIdx (F := F) ei = Cert.ReferenceIdeal.RefRun.dstIdx (F := F) ei := rfl

/-- The layer input from the ids, against the reference's neighbourhood sum from the edge index. -/
theorem aggIdxK_eq_aggR (x : Cert.KernelIdeal.KStages.Tf F Cert.KernelIdeal.S20000x256)
    (ei : Cert.KernelIdeal.KStages.Ti F Cert.KernelIdeal.S2x320000) (ea : Cert.KernelIdeal.KStages.Tf F Cert.KernelIdeal.S320000x256) :
    Cert.KernelIdeal.KStages.aggIdxK x (Cert.KernelIdeal.KStages.srcIdx ei) (Cert.KernelIdeal.KStages.dstIdx ei) ea
      = Cert.ReferenceIdeal.RefRun.aggR x ei ea := rfl

end Cert.KStagesEq

end
-- ==== Proof.KILayers.lean ====
/-
  The kernel program's four layers, each as the tile-by-tile description the layer algebra takes: the first kernel of a layer
  leaves, tile by tile, the dense block of the layer's input and, after the last tile, the two rows of column sums; the host
  arithmetic between the kernels turns the sums into the mean and the variance; the second kernel leaves, tile by tile, the
  normalised (for layers 0 and 1 rectified) block times the second weight matrix plus the bias row. The layer's input is the
  reference's neighbourhood sum of the previous layer's output (of the node features, for layer 0); layers 2 and 3 both read
  layer 1's output.
-/
import proofs.«138093_j17583596110490_1_alg».proof.Proof.KIFrame
import proofs.«138093_j17583596110490_1_alg».proof.Proof.KIChain
import proofs.«138093_j17583596110490_1_alg».proof.Proof.KIArr0
import proofs.«138093_j17583596110490_1_alg».proof.Proof.KIArr1
import proofs.«138093_j17583596110490_1_alg».proof.Proof.KIArr2
import proofs.«138093_j17583596110490_1_alg».proof.Proof.KIArr3
import proofs.«138093_j17583596110490_1_alg».proof.Proof.KIArr4
import proofs.«138093_j17583596110490_1_alg».proof.Proof.KIArr5
import proofs.«138093_j17583596110490_1_alg».proof.Proof.KIArr6
import proofs.«138093_j17583596110490_1_alg».proof.Proof.KIArr7
import proofs.«138093_j17583596110490_1_alg».proof.Proof.NetEq
import proofs.«138093_j17583596110490_1_alg».proof.Proof.KStagesEq

set_option maxRecDepth 16384

noncomputable section

namespace Cert.KernelIdeal.Hand

open Cert.KernelIdeal Cert.KernelIdeal.Gen Cert.KernelIdeal.KStages
open Idealize.ShloMosaic Idealize.ShloMosaic.TcCoe Idealize.SL.Sem Idealize.ShloMosaic.ValueIdx
open Cert.LayerEq (blk denseK sumStepK sqStepK zeroRow normK)

variable (m : (ℓ : Loc nD τ sig) → Buf (Elt Ideal) ℓ) (ρ : Dev nD → PrngReg)

/-- A tile of an array, in the two spellings of row `r` of tile `t`. -/
theorem blk_eq_rowBlk {n : ℕ} (X : (⟨2, ![20000, n]⟩ : Shape).Idx → EReal) (t : Fin 10) : blk X t = rowBlk X t := rfl

set_option maxHeartbeats 4000000 in
/-- Layer 0. -/
theorem klayer0 (c : Dev nD) :
    Cert.NetEq.KLayer true (Cert.ReferenceIdeal.RefRun.aggR (F := Ideal) (m ((c : Thread nD τ).loc main_arg0)) (m ((c : Thread nD τ).loc main_arg1)) (m ((c : Thread nD τ).loc main_arg2)))
      (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      (W6 m ρ c (Proc.devRef .tc main_v28)) := by
  -- what the first kernel's windows hold when it is entered
  have hX : V3 m ρ c (Pipeline.arrRef spec0 0) = (Cert.ReferenceIdeal.RefRun.aggR (F := Ideal) (m ((c : Thread nD τ).loc main_arg0)) (m ((c : Thread nD τ).loc main_arg1)) (m ((c : Thread nD τ).loc main_arg2))) :=
    (L0_v16 m ρ c).trans (congrFun (congrFun (congrFun Cert.KStagesEq.aggK_eq_aggR _) _) _)
  have hW1 : V3 m ρ c (Pipeline.arrRef spec0 1) = (m ((c : Thread nD τ).loc main_arg4)) := L0_arg4 m ρ c
  have hb1 : V3 m ρ c (Pipeline.arrRef spec0 2) = rowK512 (m ((c : Thread nD τ).loc main_arg5)) := L0_v17 m ρ c
  -- the two rows of column sums after the last tile
  have hs1 : W4 m ρ c (Proc.devRef .tc main_v21_1) = (acc0 (V3 m ρ) c 9 last0_lt).1 :=
    (W4_arr m ρ c 4).trans (arr0_4 (V3 m ρ) c)
  have hs2 : W4 m ρ c (Proc.devRef .tc main_v21_2) = (acc0 (V3 m ρ) c 9 last0_lt).2 :=
    (W4_arr m ρ c 5).trans (arr0_5 (V3 m ρ) c)
  -- what the second kernel's windows hold when it is entered
  have h0 : V5 m ρ c (Pipeline.arrRef spec1 0) = W4 m ρ c (Proc.devRef .tc main_v21_0) := L0_v21_0 m ρ c
  have h1 : V5 m ρ c (Pipeline.arrRef spec1 1) = meanK (acc0 (V3 m ρ) c 9 last0_lt).1 :=
    (L0_v23 m ρ c).trans (congrArg meanK hs1)
  have h2 : V5 m ρ c (Pipeline.arrRef spec1 2) = varK (acc0 (V3 m ρ) c 9 last0_lt).1 (acc0 (V3 m ρ) c 9 last0_lt).2 :=
    (L0_v27 m ρ c).trans (by rw [hs1, hs2])
  have h3 : V5 m ρ c (Pipeline.arrRef spec1 3) = rowK512 (m ((c : Thread nD τ).loc main_arg6)) := L0_v18 m ρ c
  have h4 : V5 m ρ c (Pipeline.arrRef spec1 4) = rowK512 (m ((c : Thread nD τ).loc main_arg7)) := L0_v19 m ρ c
  have h5 : V5 m ρ c (Pipeline.arrRef spec1 5) = (m ((c : Thread nD τ).loc main_arg8)) := L0_arg8 m ρ c
  have h6 : V5 m ρ c (Pipeline.arrRef spec1 6) = rowK256 (m ((c : Thread nD τ).loc main_arg9)) := L0_v20 m ρ c
  refine Cert.NetEq.KLayer.intro (W4 m ρ c (Proc.devRef .tc main_v21_0))
    (fun t => (acc0 (V3 m ρ) c t.val t.isLt).1) (fun t => (acc0 (V3 m ρ) c t.val t.isLt).2) ?_ ?_ ?_ ?_ ?_ ?_
  · intro t
    have e := arr0_3_blk (V3 m ρ) c t
    rw [← W4_arr m ρ c 3, hX, hW1, hb1, Cert.LayerEq.k0_pay3_eq] at e
    simp only [blk_eq_rowBlk]
    exact e
  · have e := (acc0_zero_arr (V3 m ρ) c (by decide)).1
    rw [hX, hW1, hb1, Cert.LayerEq.k0_pay4_eq, Cert.LayerEq.k0_pay1_eq] at e
    simp only [blk_eq_rowBlk]
    exact e
  · intro n hn
    have e := (acc0_succ_arr (V3 m ρ) c n hn).1
    rw [hX, hW1, hb1, Cert.LayerEq.k0_pay4_eq] at e
    simp only [blk_eq_rowBlk]
    exact e
  · have e := (acc0_zero_arr (V3 m ρ) c (by decide)).2
    rw [hX, hW1, hb1, Cert.LayerEq.k0_pay5_eq, Cert.LayerEq.k0_pay2_eq] at e
    simp only [blk_eq_rowBlk]
    exact e
  · intro n hn
    have e := (acc0_succ_arr (V3 m ρ) c n hn).2
    rw [hX, hW1, hb1, Cert.LayerEq.k0_pay5_eq] at e
    simp only [blk_eq_rowBlk]
    exact e
  · intro t
    have e := arr1_7_blk (V5 m ρ) c t
    rw [← W6_arr m ρ c 7, h0, h1, h2, h3, h4, h5, h6] at e
    unfold out1_7 at e
    rw [Cert.LayerEq.k1_pay1_eq] at e
    simp only [blk_eq_rowBlk]
    exact e

set_option maxHeartbeats 4000000 in
/-- Layer 1. -/
theorem klayer1 (c : Dev nD) :
    Cert.NetEq.KLayer true (Cert.ReferenceIdeal.RefRun.aggR (F := Ideal) (W6 m ρ c (Proc.devRef .tc main_v28)) (m ((c : Thread nD τ).loc main_arg1)) (m ((c : Thread nD τ).loc main_arg2)))
      (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
      (W12 m ρ c (Proc.devRef .tc main_v53)) := by
  -- what the first kernel's windows hold when it is entered
  have hX : V9 m ρ c (Pipeline.arrRef spec2 0) = (Cert.ReferenceIdeal.RefRun.aggR (F := Ideal) (W6 m ρ c (Proc.devRef .tc main_v28)) (m ((c : Thread nD τ).loc main_arg1)) (m ((c : Thread nD τ).loc main_arg2))) :=
    (L1_v41 m ρ c).trans (Cert.KStagesEq.aggIdxK_eq_aggR _ _ _)
  have hW1 : V9 m ρ c (Pipeline.arrRef spec2 1) = (m ((c : Thread nD τ).loc main_arg10)) := L1_arg10 m ρ c
  have hb1 : V9 m ρ c (Pipeline.arrRef spec2 2) = rowK512 (m ((c : Thread nD τ).loc main_arg11)) := L1_v42 m ρ c
  -- the two rows of column sums after the last tile
  have hs1 : W10 m ρ c (Proc.devRef .tc main_v46_1) = (acc2 (V9 m ρ) c 9 last2_lt).1 :=
    (W10_arr m ρ c 4).trans (arr2_4 (V9 m ρ) c)
  have hs2 : W10 m ρ c (Proc.devRef .tc main_v46_2) = (acc2 (V9 m ρ) c 9 last2_lt).2 :=
    (W10_arr m ρ c 5).trans (arr2_5 (V9 m ρ) c)
  -- what the second kernel's windows hold when it is entered
  have h0 : V11 m ρ c (Pipeline.arrRef spec3 0) = W10 m ρ c (Proc.devRef .tc main_v46_0) := L1_v46_0 m ρ c
  have h1 : V11 m ρ c (Pipeline.arrRef spec3 1) = meanK (acc2 (V9 m ρ) c 9 last2_lt).1 :=
    (L1_v48 m ρ c).trans (congrArg meanK hs1)
  have h2 : V11 m ρ c (Pipeline.arrRef spec3 2) = varK (acc2 (V9 m ρ) c 9 last2_lt).1 (acc2 (V9 m ρ) c 9 last2_lt).2 :=
    (L1_v52 m ρ c).trans (by rw [hs1, hs2])
  have h3 : V11 m ρ c (Pipeline.arrRef spec3 3) = rowK512 (m ((c : Thread nD τ).loc main_arg12)) := L1_v43 m ρ c
  have h4 : V11 m ρ c (Pipeline.arrRef spec3 4) = rowK512 (m ((c : Thread nD τ).loc main_arg13)) := L1_v44 m ρ c
  have h5 : V11 m ρ c (Pipeline.arrRef spec3 5) = (m ((c : Thread nD τ).loc main_arg14)) := L1_arg14 m ρ c
  have h6 : V11 m ρ c (Pipeline.arrRef spec3 6) = rowK256 (m ((c : Thread nD τ).loc main_arg15)) := L1_v45 m ρ c
  refine Cert.NetEq.KLayer.intro (W10 m ρ c (Proc.devRef .tc main_v46_0))
    (fun t => (acc2 (V9 m ρ) c t.val t.isLt).1) (fun t => (acc2 (V9 m ρ) c t.val t.isLt).2) ?_ ?_ ?_ ?_ ?_ ?_
  · intro t
    have e := arr2_3_blk (V9 m ρ) c t
    rw [← W10_arr m ρ c 3, hX, hW1, hb1, Cert.LayerEq.k2_pay3_eq] at e
    simp only [blk_eq_rowBlk]
    exact e
  · have e := (acc2_zero_arr (V9 m ρ) c (by decide)).1
    rw [hX, hW1, hb1, Cert.LayerEq.k2_pay4_eq, Cert.LayerEq.k2_pay1_eq] at e
    simp only [blk_eq_rowBlk]
    exact e
  · intro n hn
    have e := (acc2_succ_arr (V9 m ρ) c n hn).1
    rw [hX, hW1, hb1, Cert.LayerEq.k2_pay4_eq] at e
    simp only [blk_eq_rowBlk]
    exact e
  · have e := (acc2_zero_arr (V9 m ρ) c (by decide)).2
    rw [hX, hW1, hb1, Cert.LayerEq.k2_pay5_eq, Cert.LayerEq.k2_pay2_eq] at e
    simp only [blk_eq_rowBlk]
    exact e
  · intro n hn
    have e := (acc2_succ_arr (V9 m ρ) c n hn).2
    rw [hX, hW1, hb1, Cert.LayerEq.k2_pay5_eq] at e
    simp only [blk_eq_rowBlk]
    exact e
  · intro t
    have e := arr3_7_blk (V11 m ρ) c t
    rw [← W12_arr m ρ c 7, h0, h1, h2, h3, h4, h5, h6] at e
    unfold out3_7 at e
    rw [Cert.LayerEq.k3_pay1_eq] at e
    simp only [blk_eq_rowBlk]
    exact e

set_option maxHeartbeats 4000000 in
/-- Layer 2. -/
theorem klayer2 (c : Dev nD) :
    Cert.NetEq.KLayer false (Cert.ReferenceIdeal.RefRun.aggR (F := Ideal) (W12 m ρ c (Proc.devRef .tc main_v53)) (m ((c : Thread nD τ).loc main_arg1)) (m ((c : Thread nD τ).loc main_arg2)))
      (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
      (W18 m ρ c (Proc.devRef .tc main_v78)) := by
  -- what the first kernel's windows hold when it is entered
  have hX : V15 m ρ c (Pipeline.arrRef spec4 0) = (Cert.ReferenceIdeal.RefRun.aggR (F := Ideal) (W12 m ρ c (Proc.devRef .tc main_v53)) (m ((c : Thread nD τ).loc main_arg1)) (m ((c : Thread nD τ).loc main_arg2))) :=
    (L2_v66 m ρ c).trans (Cert.KStagesEq.aggIdxK_eq_aggR _ _ _)
  have hW1 : V15 m ρ c (Pipeline.arrRef spec4 1) = (m ((c : Thread nD τ).loc main_arg16)) := L2_arg16 m ρ c
  have hb1 : V15 m ρ c (Pipeline.arrRef spec4 2) = rowK512 (m ((c : Thread nD τ).loc main_arg17)) := L2_v67 m ρ c
  -- the two rows of column sums after the last tile
  have hs1 : W16 m ρ c (Proc.devRef .tc main_v71_1) = (acc4 (V15 m ρ) c 9 last4_lt).1 :=
    (W16_arr m ρ c 4).trans (arr4_4 (V15 m ρ) c)
  have hs2 : W16 m ρ c (Proc.devRef .tc main_v71_2) = (acc4 (V15 m ρ) c 9 last4_lt).2 :=
    (W16_arr m ρ c 5).trans (arr4_5 (V15 m ρ) c)
  -- what the second kernel's windows hold when it is entered
  have h0 : V17 m ρ c (Pipeline.arrRef spec5 0) = W16 m ρ c (Proc.devRef .tc main_v71_0) := L2_v71_0 m ρ c
  have h1 : V17 m ρ c (Pipeline.arrRef spec5 1) = meanK (acc4 (V15 m ρ) c 9 last4_lt).1 :=
    (L2_v73 m ρ c).trans (congrArg meanK hs1)
  have h2 : V17 m ρ c (Pipeline.arrRef spec5 2) = varK (acc4 (V15 m ρ) c 9 last4_lt).1 (acc4 (V15 m ρ) c 9 last4_lt).2 :=
    (L2_v77 m ρ c).trans (by rw [hs1, hs2])
  have h3 : V17 m ρ c (Pipeline.arrRef spec5 3) = rowK512 (m ((c : Thread nD τ).loc main_arg18)) := L2_v68 m ρ c
  have h4 : V17 m ρ c (Pipeline.arrRef spec5 4) = rowK512 (m ((c : Thread nD τ).loc main_arg19)) := L2_v69 m ρ c
  have h5 : V17 m ρ c (Pipeline.arrRef spec5 5) = (m ((c : Thread nD τ).loc main_arg20)) := L2_arg20 m ρ c
  have h6 : V17 m ρ c (Pipeline.arrRef spec5 6) = rowK256 (m ((c : Thread nD τ).loc main_arg21)) := L2_v70 m ρ c
  refine Cert.NetEq.KLayer.intro (W16 m ρ c (Proc.devRef .tc main_v71_0))
    (fun t => (acc4 (V15 m ρ) c t.val t.isLt).1) (fun t => (acc4 (V15 m ρ) c t.val t.isLt).2) ?_ ?_ ?_ ?_ ?_ ?_
  · intro t
    have e := arr4_3_blk (V15 m ρ) c t
    rw [← W16_arr m ρ c 3, hX, hW1, hb1, Cert.LayerEq.k4_pay3_eq] at e
    simp only [blk_eq_rowBlk]
    exact e
  · have e := (acc4_zero_arr (V15 m ρ) c (by decide)).1
    rw [hX, hW1, hb1, Cert.LayerEq.k4_pay4_eq, Cert.LayerEq.k4_pay1_eq] at e
    simp only [blk_eq_rowBlk]
    exact e
  · intro n hn
    have e := (acc4_succ_arr (V15 m ρ) c n hn).1
    rw [hX, hW1, hb1, Cert.LayerEq.k4_pay4_eq] at e
    simp only [blk_eq_rowBlk]
    exact e
  · have e := (acc4_zero_arr (V15 m ρ) c (by decide)).2
    rw [hX, hW1, hb1, Cert.LayerEq.k4_pay5_eq, Cert.LayerEq.k4_pay2_eq] at e
    simp only [blk_eq_rowBlk]
    exact e
  · intro n hn
    have e := (acc4_succ_arr (V15 m ρ) c n hn).2
    rw [hX, hW1, hb1, Cert.LayerEq.k4_pay5_eq] at e
    simp only [blk_eq_rowBlk]
    exact e
  · intro t
    have e := arr5_7_blk (V17 m ρ) c t
    rw [← W18_arr m ρ c 7, h0, h1, h2, h3, h4, h5, h6] at e
    unfold out5_7 at e
    rw [Cert.LayerEq.k5_pay1_eq] at e
    simp only [blk_eq_rowBlk]
    exact e

set_option maxHeartbeats 4000000 in
/-- Layer 3. -/
theorem klayer3 (c : Dev nD) :
    Cert.NetEq.KLayer false (Cert.ReferenceIdeal.RefRun.aggR (F := Ideal) (W12 m ρ c (Proc.devRef .tc main_v53)) (m ((c : Thread nD τ).loc main_arg1)) (m ((c : Thread nD τ).loc main_arg2)))
      (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))
      (W24 m ρ c (Proc.devRef .tc main_v103)) := by
  -- what the first kernel's windows hold when it is entered
  have hX : V21 m ρ c (Pipeline.arrRef spec6 0) = (Cert.ReferenceIdeal.RefRun.aggR (F := Ideal) (W12 m ρ c (Proc.devRef .tc main_v53)) (m ((c : Thread nD τ).loc main_arg1)) (m ((c : Thread nD τ).loc main_arg2))) :=
    (L3_v91 m ρ c).trans (Cert.KStagesEq.aggIdxK_eq_aggR _ _ _)
  have hW1 : V21 m ρ c (Pipeline.arrRef spec6 1) = (m ((c : Thread nD τ).loc main_arg22)) := L3_arg22 m ρ c
  have hb1 : V21 m ρ c (Pipeline.arrRef spec6 2) = rowK512 (m ((c : Thread nD τ).loc main_arg23)) := L3_v92 m ρ c
  -- the two rows of column sums after the last tile
  have hs1 : W22 m ρ c (Proc.devRef .tc main_v96_1) = (acc6 (V21 m ρ) c 9 last6_lt).1 :=
    (W22_arr m ρ c 4).trans (arr6_4 (V21 m ρ) c)
  have hs2 : W22 m ρ c (Proc.devRef .tc main_v96_2) = (acc6 (V21 m ρ) c 9 last6_lt).2 :=
    (W22_arr m ρ c 5).trans (arr6_5 (V21 m ρ) c)
  -- what the second kernel's windows hold when it is entered
  have h0 : V23 m ρ c (Pipeline.arrRef spec7 0) = W22 m ρ c (Proc.devRef .tc main_v96_0) := L3_v96_0 m ρ c
  have h1 : V23 m ρ c (Pipeline.arrRef spec7 1) = meanK (acc6 (V21 m ρ) c 9 last6_lt).1 :=
    (L3_v98 m ρ c).trans (congrArg meanK hs1)
  have h2 : V23 m ρ c (Pipeline.arrRef spec7 2) = varK (acc6 (V21 m ρ) c 9 last6_lt).1 (acc6 (V21 m ρ) c 9 last6_lt).2 :=
    (L3_v102 m ρ c).trans (by rw [hs1, hs2])
  have h3 : V23 m ρ c (Pipeline.arrRef spec7 3) = rowK512 (m ((c : Thread nD τ).loc main_arg24)) := L3_v93 m ρ c
  have h4 : V23 m ρ c (Pipeline.arrRef spec7 4) = rowK512 (m ((c : Thread nD τ).loc main_arg25)) := L3_v94 m ρ c
  have h5 : V23 m ρ c (Pipeline.arrRef spec7 5) = (m ((c : Thread nD τ).loc main_arg26)) := L3_arg26 m ρ c
  have h6 : V23 m ρ c (Pipeline.arrRef spec7 6) = rowK256 (m ((c : Thread nD τ).loc main_arg27)) := L3_v95 m ρ c
  refine Cert.NetEq.KLayer.intro (W22 m ρ c (Proc.devRef .tc main_v96_0))
    (fun t => (acc6 (V21 m ρ) c t.val t.isLt).1) (fun t => (acc6 (V21 m ρ) c t.val t.isLt).2) ?_ ?_ ?_ ?_ ?_ ?_
  · intro t
    have e := arr6_3_blk (V21 m ρ) c t
    rw [← W22_arr m ρ c 3, hX, hW1, hb1, Cert.LayerEq.k6_pay3_eq] at e
    simp only [blk_eq_rowBlk]
    exact e
  · have e := (acc6_zero_arr (V21 m ρ) c (by decide)).1
    rw [hX, hW1, hb1, Cert.LayerEq.k6_pay4_eq, Cert.LayerEq.k6_pay1_eq] at e
    simp only [blk_eq_rowBlk]
    exact e
  · intro n hn
    have e := (acc6_succ_arr (V21 m ρ) c n hn).1
    rw [hX, hW1, hb1, Cert.LayerEq.k6_pay4_eq] at e
    simp only [blk_eq_rowBlk]
    exact e
  · have e := (acc6_zero_arr (V21 m ρ) c (by decide)).2
    rw [hX, hW1, hb1, Cert.LayerEq.k6_pay5_eq, Cert.LayerEq.k6_pay2_eq] at e
    simp only [blk_eq_rowBlk]
    exact e
  · intro n hn
    have e := (acc6_succ_arr (V21 m ρ) c n hn).2
    rw [hX, hW1, hb1, Cert.LayerEq.k6_pay5_eq] at e
    simp only [blk_eq_rowBlk]
    exact e
  · intro t
    have e := arr7_7_blk (V23 m ρ) c t
    rw [← W24_arr m ρ c 7, h0, h1, h2, h3, h4, h5, h6] at e
    unfold out7_7 at e
    rw [Cert.LayerEq.k7_pay1_eq] at e
    simp only [blk_eq_rowBlk]
    exact e

end Cert.KernelIdeal.Hand

end
-- ==== Proof.FiniteInputs.lean ====
/-
  From the precondition to "every float input entry is a real number".

  The precondition is the conjunction, over the 27 float argument arrays, of "every entry x has |x| < +∞", each
  conjunct an `and`-reduction of the entrywise comparison down to a single word, and it states that the resulting word
  is 1. On the extended reals |x| is max x (-x) and the bit pattern 0x7F800000 denotes ⊤, so an entry passes the
  comparison exactly when it is neither ⊤ nor ⊥, that is, when it is the coercion of a real number.
    * `isReal_of_abs_lt_inf`: one value whose comparison word is 1 is real (cases on the extended real);
    * `all_lt_inf_isReal`: an array of any shape whose reduced comparison word is 1 has every entry real (an
      `and`-reduction to a single word that is 1 saw a 1 at every index);
    * `finite_of_pre`: the precondition's word being 1 splits, `and` by `and`, into its 27 reductions, one per float
      argument in argument order (argument 1, the integer edge index, carries no condition);
    * `real_of_pre_KI`: the same for the argument arrays of a memory satisfying the idealized kernel's precondition.
-/
import proofs.«138093_j17583596110490_1_alg».proof.Defs
import proofs.«138093_j17583596110490_1_alg».proof.Proof.Gen.Pre_finite_inputs
import Idealize.ShloMosaic.Lib.ReduceAll
import Idealize.ShloMosaic.Lib.ValueIdx
import proofs.«138093_j17583596110490_1_alg».proof.Proof.LibRealMatrix

noncomputable section

namespace Cert.FiniteInputs

open Idealize.ShloMosaic Idealize.SL.Sem Cert.LibRealMatrix Cert.Pre_finite_inputs

/-- A rank-0 shape has one index. -/
instance : Subsingleton (⟨0, ![]⟩ : Shape).Idx := ⟨fun a b => funext fun d => d.elim0⟩

/-- A value `x` with `|x| < +∞` (the comparison's word is 1) is a real number: it is neither `⊤` nor `⊥`. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- `jnp.all(|x| < inf) = 1`, for an array of any shape: every entry of `x` is a real number. -/
theorem all_lt_inf_isReal {s s0 t u : Shape} {axes : List (Fin s.rank)} [Subsingleton t.Idx]
    (x : FVec Ideal s .f32) (dims : Fin s0.rank → Fin s.rank) (hb : s0.BroadcastsInDim s dims)
    (init : u.Idx → BitVec 1) (hr : s.ReducesTo axes t) (hu : 0 < u.numel) (j : t.Idx)
    (e : Host.reduce IntOp.andi
          (cmpf .olt (Host.absf x) (broadcastInDim s dims hb (constant s0 .f32 0x7F800000#32))) init hr hu j = 1#1) :
    ∀ i, IsReal (x i) := fun i =>
  isReal_of_abs_lt_inf (x i) (Host.reduce_andi_all _ init hr hu j e i)

/-- The precondition's word is 1: every entry of every float argument is a real number. -/
theorem finite_of_pre [Cert.Pre_finite_inputs.Facts]
    (a0 : FVec Ideal S20000x256 .f32) (a1 : IVec S2x320000 32) (a2 : FVec Ideal S320000x256 .f32)
    (a3 : FVec Ideal S20000x256 .f32) (a4 : FVec Ideal S256x512 .f32) (a5 : FVec Ideal S512 .f32)
    (a6 : FVec Ideal S512 .f32) (a7 : FVec Ideal S512 .f32) (a8 : FVec Ideal S512x256 .f32)
    (a9 : FVec Ideal S256 .f32) (a10 : FVec Ideal S256x512 .f32) (a11 : FVec Ideal S512 .f32)
    (a12 : FVec Ideal S512 .f32) (a13 : FVec Ideal S512 .f32) (a14 : FVec Ideal S512x256 .f32)
    (a15 : FVec Ideal S256 .f32) (a16 : FVec Ideal S256x512 .f32) (a17 : FVec Ideal S512 .f32)
    (a18 : FVec Ideal S512 .f32) (a19 : FVec Ideal S512 .f32) (a20 : FVec Ideal S512x256 .f32)
    (a21 : FVec Ideal S256 .f32) (a22 : FVec Ideal S256x512 .f32) (a23 : FVec Ideal S512 .f32)
    (a24 : FVec Ideal S512 .f32) (a25 : FVec Ideal S512 .f32) (a26 : FVec Ideal S512x256 .f32)
    (a27 : FVec Ideal S256 .f32)
    (h : fn (F := Ideal) a0 a1 a2 a3 a4 a5 a6 a7 a8 a9 a10 a11 a12 a13 a14 a15 a16 a17 a18 a19 a20 a21 a22 a23 a24 a25 a26 a27 = fun _ => 1#1) :
    (∀ i, IsReal (a0 i)) ∧ (∀ i, IsReal (a2 i)) ∧ (∀ i, IsReal (a3 i)) ∧ (∀ i, IsReal (a4 i)) ∧
    (∀ i, IsReal (a5 i)) ∧ (∀ i, IsReal (a6 i)) ∧ (∀ i, IsReal (a7 i)) ∧ (∀ i, IsReal (a8 i)) ∧
    (∀ i, IsReal (a9 i)) ∧ (∀ i, IsReal (a10 i)) ∧ (∀ i, IsReal (a11 i)) ∧ (∀ i, IsReal (a12 i)) ∧
    (∀ i, IsReal (a13 i)) ∧ (∀ i, IsReal (a14 i)) ∧ (∀ i, IsReal (a15 i)) ∧ (∀ i, IsReal (a16 i)) ∧
    (∀ i, IsReal (a17 i)) ∧ (∀ i, IsReal (a18 i)) ∧ (∀ i, IsReal (a19 i)) ∧ (∀ i, IsReal (a20 i)) ∧
    (∀ i, IsReal (a21 i)) ∧ (∀ i, IsReal (a22 i)) ∧ (∀ i, IsReal (a23 i)) ∧ (∀ i, IsReal (a24 i)) ∧
    (∀ i, IsReal (a25 i)) ∧ (∀ i, IsReal (a26 i)) ∧ (∀ i, IsReal (a27 i)) := by
  have hw := congrFun h ValueIdx.ix0
  dsimp only [fn, fn_part1, fn_part2, fn_part3, fn_part4, fn_part5, fn_part6, fn_part7, andi] at hw
  simp only [IntOp.andi_eq_one, and_assoc] at hw
  obtain ⟨h0, h2, h3, h4, h5, h6, h7, h8, h9, h10, h11, h12, h13, h14, h15, h16, h17, h18, h19, h20, h21, h22, h23, h24, h25, h26, h27⟩ := hw
  exact ⟨all_lt_inf_isReal _ _ _ _ _ _ _ h0,
    all_lt_inf_isReal _ _ _ _ _ _ _ h2,
    all_lt_inf_isReal _ _ _ _ _ _ _ h3,
    all_lt_inf_isReal _ _ _ _ _ _ _ h4,
    all_lt_inf_isReal _ _ _ _ _ _ _ h5,
    all_lt_inf_isReal _ _ _ _ _ _ _ h6,
    all_lt_inf_isReal _ _ _ _ _ _ _ h7,
    all_lt_inf_isReal _ _ _ _ _ _ _ h8,
    all_lt_inf_isReal _ _ _ _ _ _ _ h9,
    all_lt_inf_isReal _ _ _ _ _ _ _ h10,
    all_lt_inf_isReal _ _ _ _ _ _ _ h11,
    all_lt_inf_isReal _ _ _ _ _ _ _ h12,
    all_lt_inf_isReal _ _ _ _ _ _ _ h13,
    all_lt_inf_isReal _ _ _ _ _ _ _ h14,
    all_lt_inf_isReal _ _ _ _ _ _ _ h15,
    all_lt_inf_isReal _ _ _ _ _ _ _ h16,
    all_lt_inf_isReal _ _ _ _ _ _ _ h17,
    all_lt_inf_isReal _ _ _ _ _ _ _ h18,
    all_lt_inf_isReal _ _ _ _ _ _ _ h19,
    all_lt_inf_isReal _ _ _ _ _ _ _ h20,
    all_lt_inf_isReal _ _ _ _ _ _ _ h21,
    all_lt_inf_isReal _ _ _ _ _ _ _ h22,
    all_lt_inf_isReal _ _ _ _ _ _ _ h23,
    all_lt_inf_isReal _ _ _ _ _ _ _ h24,
    all_lt_inf_isReal _ _ _ _ _ _ _ h25,
    all_lt_inf_isReal _ _ _ _ _ _ _ h26,
    all_lt_inf_isReal _ _ _ _ _ _ _ h27⟩

/-- Every float argument array of a memory satisfying the idealized kernel's precondition has only real entries, on
    every device. -/
theorem real_of_pre_KI [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i)) ∧
    (∀ i, IsReal (m ((c.tc : Thread Cert.KernelIdeal.nD Cert.KernelIdeal.τ).loc Cert.KernelIdeal.main_arg2) i)) ∧
    (∀ i, IsReal (m ((c.tc : Thread Cert.KernelIdeal.nD Cert.KernelIdeal.τ).loc Cert.KernelIdeal.main_arg3) i)) ∧
    (∀ i, IsReal (m ((c.tc : Thread Cert.KernelIdeal.nD Cert.KernelIdeal.τ).loc Cert.KernelIdeal.main_arg4) i)) ∧
    (∀ i, IsReal (m ((c.tc : Thread Cert.KernelIdeal.nD Cert.KernelIdeal.τ).loc Cert.KernelIdeal.main_arg5) i)) ∧
    (∀ i, IsReal (m ((c.tc : Thread Cert.KernelIdeal.nD Cert.KernelIdeal.τ).loc Cert.KernelIdeal.main_arg6) i)) ∧
    (∀ i, IsReal (m ((c.tc : Thread Cert.KernelIdeal.nD Cert.KernelIdeal.τ).loc Cert.KernelIdeal.main_arg7) i)) ∧
    (∀ i, IsReal (m ((c.tc : Thread Cert.KernelIdeal.nD Cert.KernelIdeal.τ).loc Cert.KernelIdeal.main_arg8) i)) ∧
    (∀ i, IsReal (m ((c.tc : Thread Cert.KernelIdeal.nD Cert.KernelIdeal.τ).loc Cert.KernelIdeal.main_arg9) i)) ∧
    (∀ i, IsReal (m ((c.tc : Thread Cert.KernelIdeal.nD Cert.KernelIdeal.τ).loc Cert.KernelIdeal.main_arg10) i)) ∧
    (∀ i, IsReal (m ((c.tc : Thread Cert.KernelIdeal.nD Cert.KernelIdeal.τ).loc Cert.KernelIdeal.main_arg11) i)) ∧
    (∀ i, IsReal (m ((c.tc : Thread Cert.KernelIdeal.nD Cert.KernelIdeal.τ).loc Cert.KernelIdeal.main_arg12) i)) ∧
    (∀ i, IsReal (m ((c.tc : Thread Cert.KernelIdeal.nD Cert.KernelIdeal.τ).loc Cert.KernelIdeal.main_arg13) i)) ∧
    (∀ i, IsReal (m ((c.tc : Thread Cert.KernelIdeal.nD Cert.KernelIdeal.τ).loc Cert.KernelIdeal.main_arg14) i)) ∧
    (∀ i, IsReal (m ((c.tc : Thread Cert.KernelIdeal.nD Cert.KernelIdeal.τ).loc Cert.KernelIdeal.main_arg15) i)) ∧
    (∀ i, IsReal (m ((c.tc : Thread Cert.KernelIdeal.nD Cert.KernelIdeal.τ).loc Cert.KernelIdeal.main_arg16) i)) ∧
    (∀ i, IsReal (m ((c.tc : Thread Cert.KernelIdeal.nD Cert.KernelIdeal.τ).loc Cert.KernelIdeal.main_arg17) i)) ∧
    (∀ i, IsReal (m ((c.tc : Thread Cert.KernelIdeal.nD Cert.KernelIdeal.τ).loc Cert.KernelIdeal.main_arg18) i)) ∧
    (∀ i, IsReal (m ((c.tc : Thread Cert.KernelIdeal.nD Cert.KernelIdeal.τ).loc Cert.KernelIdeal.main_arg19) i)) ∧
    (∀ i, IsReal (m ((c.tc : Thread Cert.KernelIdeal.nD Cert.KernelIdeal.τ).loc Cert.KernelIdeal.main_arg20) i)) ∧
    (∀ i, IsReal (m ((c.tc : Thread Cert.KernelIdeal.nD Cert.KernelIdeal.τ).loc Cert.KernelIdeal.main_arg21) i)) ∧
    (∀ i, IsReal (m ((c.tc : Thread Cert.KernelIdeal.nD Cert.KernelIdeal.τ).loc Cert.KernelIdeal.main_arg22) i)) ∧
    (∀ i, IsReal (m ((c.tc : Thread Cert.KernelIdeal.nD Cert.KernelIdeal.τ).loc Cert.KernelIdeal.main_arg23) i)) ∧
    (∀ i, IsReal (m ((c.tc : Thread Cert.KernelIdeal.nD Cert.KernelIdeal.τ).loc Cert.KernelIdeal.main_arg24) i)) ∧
    (∀ i, IsReal (m ((c.tc : Thread Cert.KernelIdeal.nD Cert.KernelIdeal.τ).loc Cert.KernelIdeal.main_arg25) i)) ∧
    (∀ i, IsReal (m ((c.tc : Thread Cert.KernelIdeal.nD Cert.KernelIdeal.τ).loc Cert.KernelIdeal.main_arg26) i)) ∧
    (∀ i, IsReal (m ((c.tc : Thread Cert.KernelIdeal.nD Cert.KernelIdeal.τ).loc Cert.KernelIdeal.main_arg27) i)) :=
  finite_of_pre _ _ _ _ _ _ _ _ _ _ _ _ _ _ _ _ _ _ _ _ _ _ _ _ _ _ _ _ (h c)

end Cert.FiniteInputs
-- ==== Proof.Algebraic.lean ====
/-
  The two idealized programs compute the same four results. The kernel program's run ends with every unscoped buffer at the last
  boundary's contents, so its results are those contents; the reference's run ends with its results at the composed stage terms
  of the arguments. Under the precondition every float argument is real-valued, each of the kernel's four layers is the
  reference's layer of the same input (the tile-by-tile column sums are the whole column sums, and the variance as mean of
  squares minus squared mean is the variance as mean of squared deviations, for real data), and the final stages are the same
  host operations on both sides.
-/
import proofs.«138093_j17583596110490_1_alg».proof.Defs
import proofs.«138093_j17583596110490_1_alg».proof.Proof.KIFrame
import proofs.«138093_j17583596110490_1_alg».proof.Proof.KIChain
import proofs.«138093_j17583596110490_1_alg».proof.Proof.KILayers
import proofs.«138093_j17583596110490_1_alg».proof.Proof.NetEq
import proofs.«138093_j17583596110490_1_alg».proof.Proof.RefResults
import proofs.«138093_j17583596110490_1_alg».proof.Proof.FiniteInputs
import proofs.«138093_j17583596110490_1_alg».proof.Proof.KStagesEq
import proofs.«138093_j17583596110490_1_alg».proof.Proof.Gen.KernelIdeal
import proofs.«138093_j17583596110490_1_alg».proof.Proof.Gen.ReferenceIdeal
import proofs.«138093_j17583596110490_1_alg».proof.Proof.Gen.Pre_finite_inputs

set_option maxRecDepth 16384

noncomputable section

namespace Cert.Proof.Alg

open Idealize.ShloMosaic Idealize.ShloMosaic.TcCoe Idealize.SL.Sem
open Cert.ReferenceIdeal.RefRun (zR klR layerR encR aggR)

set_option maxHeartbeats 4000000 in
/-- On every core the kernel program's last boundary contents at its four result buffers are the reference's stage terms of the
    launch memory: the two middle layers' outputs by the layer-by-layer equality, the sample and the divergence by the shared
    final stages. -/
theorem results_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    (Cert.KernelIdeal.Hand.W25 (F := Ideal) m ρ c (Proc.devRef .tc Cert.KernelIdeal.main_v78)) = layerR (F := Ideal) false (encR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
    ∧ (Cert.KernelIdeal.Hand.W25 (F := Ideal) m ρ c (Proc.devRef .tc Cert.KernelIdeal.main_v103)) = layerR (F := Ideal) false (encR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))
    ∧ (Cert.KernelIdeal.Hand.W25 (F := Ideal) m ρ c (Proc.devRef .tc Cert.KernelIdeal.main_v106)) = zR (F := Ideal) (m ((c.tc : Thread Cert.KernelIdeal.nD Cert.KernelIdeal.τ).loc Cert.KernelIdeal.main_arg3)) (Cert.KernelIdeal.Hand.W25 (F := Ideal) m ρ c (Proc.devRef .tc Cert.KernelIdeal.main_v78)) (Cert.KernelIdeal.Hand.W25 (F := Ideal) m ρ c (Proc.devRef .tc Cert.KernelIdeal.main_v103))
    ∧ (Cert.KernelIdeal.Hand.W25 (F := Ideal) m ρ c (Proc.devRef .tc Cert.KernelIdeal.main_v119)) = klR (F := Ideal) (Cert.KernelIdeal.Hand.W25 (F := Ideal) m ρ c (Proc.devRef .tc Cert.KernelIdeal.main_v78)) (Cert.KernelIdeal.Hand.W25 (F := Ideal) m ρ c (Proc.devRef .tc Cert.KernelIdeal.main_v103)) := by
  obtain ⟨r0, r2, r3, r4, r5, r6, r7, r8, r9, r10, r11, r12, r13, r14, r15, r16, r17, r18, r19, r20, r21, r22, r23, r24, r25, r26, r27⟩ := Cert.FiniteInputs.real_of_pre_KI m hpre c
  have N := Cert.NetEq.net_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))
    r0 r2 r4 r5 r6 r7 r8 r9 r10 r11 r12 r13 r14 r15 r16 r17 r18 r19 r20 r21 r22 r23 r24 r25 r26 r27
    (Cert.KernelIdeal.Hand.W6 (F := Ideal) m ρ c (Proc.devRef .tc Cert.KernelIdeal.main_v28)) (Cert.KernelIdeal.Hand.W12 (F := Ideal) m ρ c (Proc.devRef .tc Cert.KernelIdeal.main_v53)) (Cert.KernelIdeal.Hand.W18 (F := Ideal) m ρ c (Proc.devRef .tc Cert.KernelIdeal.main_v78)) (Cert.KernelIdeal.Hand.W24 (F := Ideal) m ρ c (Proc.devRef .tc Cert.KernelIdeal.main_v103))
    (Cert.KernelIdeal.Hand.klayer0 m ρ c) (Cert.KernelIdeal.Hand.klayer1 m ρ c) (Cert.KernelIdeal.Hand.klayer2 m ρ c) (Cert.KernelIdeal.Hand.klayer3 m ρ c)
  obtain ⟨-, -, N2, N3, -, -⟩ := N
  have e78 := Cert.KernelIdeal.Hand.LT_v78 (F := Ideal) m ρ c
  have e103 := Cert.KernelIdeal.Hand.LT_v103 (F := Ideal) m ρ c
  refine ⟨e78.trans N2, e103.trans N3, ?_, ?_⟩
  · rw [Cert.KernelIdeal.Hand.LT_v106 (F := Ideal) m ρ c, e78, e103, Cert.KStagesEq.zK_eq_zR]
  · rw [Cert.KernelIdeal.Hand.LT_v119 (F := Ideal) m ρ c, e78, e103, Cert.KStagesEq.klK_eq_klR]

set_option maxHeartbeats 4000000 in
/-- THE ALGEBRAIC CLAIM: from memories agreeing on the arguments both idealized programs run to the end with equal results,
    the arguments unchanged. -/
theorem algebraic : Cert.algebraic_KernelIdeal_ReferenceIdeal := by
  intro m ρ m' ρ' hpre hagree
  refine ⟨fun c => Cert.KernelIdeal.Hand.W25 (F := Ideal) m ρ c (Proc.devRef .tc Cert.KernelIdeal.main_v106), fun c => Cert.KernelIdeal.Hand.W25 (F := Ideal) m ρ c (Proc.devRef .tc Cert.KernelIdeal.main_v78),
    fun c => Cert.KernelIdeal.Hand.W25 (F := Ideal) m ρ c (Proc.devRef .tc Cert.KernelIdeal.main_v103), fun c => Cert.KernelIdeal.Hand.W25 (F := Ideal) m ρ c (Proc.devRef .tc Cert.KernelIdeal.main_v119), ?_, ?_⟩
  · refine (θ_run (Cert.KernelIdeal.defs (F := Ideal)) _ _).mono (fun r h c => ?_) (Cert.KernelIdeal.Hand.run_all (F := Ideal) m ρ)
    exact ⟨h c _ (Cert.KernelIdeal.Hand.mem_uc Cert.KernelIdeal.main_v106 (by decide)), h c _ (Cert.KernelIdeal.Hand.mem_uc Cert.KernelIdeal.main_v78 (by decide)),
      h c _ (Cert.KernelIdeal.Hand.mem_uc Cert.KernelIdeal.main_v103 (by decide)), h c _ (Cert.KernelIdeal.Hand.mem_uc Cert.KernelIdeal.main_v119 (by decide)),
      (h c _ (Cert.KernelIdeal.Hand.mem_uc Cert.KernelIdeal.main_arg0 (by decide))).trans (Cert.KernelIdeal.Hand.W25_main_arg0 m ρ c),
      (h c _ (Cert.KernelIdeal.Hand.mem_uc Cert.KernelIdeal.main_arg1 (by decide))).trans (Cert.KernelIdeal.Hand.W25_main_arg1 m ρ c),
      (h c _ (Cert.KernelIdeal.Hand.mem_uc Cert.KernelIdeal.main_arg2 (by decide))).trans (Cert.KernelIdeal.Hand.W25_main_arg2 m ρ c),
      (h c _ (Cert.KernelIdeal.Hand.mem_uc Cert.KernelIdeal.main_arg3 (by decide))).trans (Cert.KernelIdeal.Hand.W25_main_arg3 m ρ c),
      (h c _ (Cert.KernelIdeal.Hand.mem_uc Cert.KernelIdeal.main_arg4 (by decide))).trans (Cert.KernelIdeal.Hand.W25_main_arg4 m ρ c),
      (h c _ (Cert.KernelIdeal.Hand.mem_uc Cert.KernelIdeal.main_arg5 (by decide))).trans (Cert.KernelIdeal.Hand.W25_main_arg5 m ρ c),
      (h c _ (Cert.KernelIdeal.Hand.mem_uc Cert.KernelIdeal.main_arg6 (by decide))).trans (Cert.KernelIdeal.Hand.W25_main_arg6 m ρ c),
      (h c _ (Cert.KernelIdeal.Hand.mem_uc Cert.KernelIdeal.main_arg7 (by decide))).trans (Cert.KernelIdeal.Hand.W25_main_arg7 m ρ c),
      (h c _ (Cert.KernelIdeal.Hand.mem_uc Cert.KernelIdeal.main_arg8 (by decide))).trans (Cert.KernelIdeal.Hand.W25_main_arg8 m ρ c),
      (h c _ (Cert.KernelIdeal.Hand.mem_uc Cert.KernelIdeal.main_arg9 (by decide))).trans (Cert.KernelIdeal.Hand.W25_main_arg9 m ρ c),
      (h c _ (Cert.KernelIdeal.Hand.mem_uc Cert.KernelIdeal.main_arg10 (by decide))).trans (Cert.KernelIdeal.Hand.W25_main_arg10 m ρ c),
      (h c _ (Cert.KernelIdeal.Hand.mem_uc Cert.KernelIdeal.main_arg11 (by decide))).trans (Cert.KernelIdeal.Hand.W25_main_arg11 m ρ c),
      (h c _ (Cert.KernelIdeal.Hand.mem_uc Cert.KernelIdeal.main_arg12 (by decide))).trans (Cert.KernelIdeal.Hand.W25_main_arg12 m ρ c),
      (h c _ (Cert.KernelIdeal.Hand.mem_uc Cert.KernelIdeal.main_arg13 (by decide))).trans (Cert.KernelIdeal.Hand.W25_main_arg13 m ρ c),
      (h c _ (Cert.KernelIdeal.Hand.mem_uc Cert.KernelIdeal.main_arg14 (by decide))).trans (Cert.KernelIdeal.Hand.W25_main_arg14 m ρ c),
      (h c _ (Cert.KernelIdeal.Hand.mem_uc Cert.KernelIdeal.main_arg15 (by decide))).trans (Cert.KernelIdeal.Hand.W25_main_arg15 m ρ c),
      (h c _ (Cert.KernelIdeal.Hand.mem_uc Cert.KernelIdeal.main_arg16 (by decide))).trans (Cert.KernelIdeal.Hand.W25_main_arg16 m ρ c),
      (h c _ (Cert.KernelIdeal.Hand.mem_uc Cert.KernelIdeal.main_arg17 (by decide))).trans (Cert.KernelIdeal.Hand.W25_main_arg17 m ρ c),
      (h c _ (Cert.KernelIdeal.Hand.mem_uc Cert.KernelIdeal.main_arg18 (by decide))).trans (Cert.KernelIdeal.Hand.W25_main_arg18 m ρ c),
      (h c _ (Cert.KernelIdeal.Hand.mem_uc Cert.KernelIdeal.main_arg19 (by decide))).trans (Cert.KernelIdeal.Hand.W25_main_arg19 m ρ c),
      (h c _ (Cert.KernelIdeal.Hand.mem_uc Cert.KernelIdeal.main_arg20 (by decide))).trans (Cert.KernelIdeal.Hand.W25_main_arg20 m ρ c),
      (h c _ (Cert.KernelIdeal.Hand.mem_uc Cert.KernelIdeal.main_arg21 (by decide))).trans (Cert.KernelIdeal.Hand.W25_main_arg21 m ρ c),
      (h c _ (Cert.KernelIdeal.Hand.mem_uc Cert.KernelIdeal.main_arg22 (by decide))).trans (Cert.KernelIdeal.Hand.W25_main_arg22 m ρ c),
      (h c _ (Cert.KernelIdeal.Hand.mem_uc Cert.KernelIdeal.main_arg23 (by decide))).trans (Cert.KernelIdeal.Hand.W25_main_arg23 m ρ c),
      (h c _ (Cert.KernelIdeal.Hand.mem_uc Cert.KernelIdeal.main_arg24 (by decide))).trans (Cert.KernelIdeal.Hand.W25_main_arg24 m ρ c),
      (h c _ (Cert.KernelIdeal.Hand.mem_uc Cert.KernelIdeal.main_arg25 (by decide))).trans (Cert.KernelIdeal.Hand.W25_main_arg25 m ρ c),
      (h c _ (Cert.KernelIdeal.Hand.mem_uc Cert.KernelIdeal.main_arg26 (by decide))).trans (Cert.KernelIdeal.Hand.W25_main_arg26 m ρ c),
      (h c _ (Cert.KernelIdeal.Hand.mem_uc Cert.KernelIdeal.main_arg27 (by decide))).trans (Cert.KernelIdeal.Hand.W25_main_arg27 m ρ c)⟩
  · refine (θ_run (Cert.ReferenceIdeal.defs (F := Ideal)) _ _).mono (fun r h c => ?_) (Cert.ReferenceIdeal.RefRun.run_results (F := Ideal) m' ρ')
    obtain ⟨h0, h1, h2, h3, hargs⟩ := h c
    obtain ⟨a0, a1, a2, a3, a4, a5, a6, a7, a8, a9, a10, a11, a12, a13, a14, a15, a16, a17, a18, a19, a20, a21, a22, a23, a24, a25, a26, a27⟩ := hagree c
    simp only [a0, a1, a2, a3, a4, a5, a6, a7, a8, a9, a10, a11, a12, a13, a14, a15, a16, a17, a18, a19, a20, a21, a22, a23, a24, a25, a26, a27] at h0 h1 h2 h3
    obtain ⟨k78, k103, k106, k119⟩ := results_eq m ρ hpre c
    refine ⟨?_, h1.trans k78.symm, h2.trans k103.symm, ?_, hargs⟩
    · dsimp only; rw [k106, k78, k103]; exact h0
    · dsimp only; rw [k119, k78, k103]; exact h3

end Cert.Proof.Alg

end
-- ==== Proof.lean ====
/-
  The proof of `Cert.Claim`: the three frames, the (empty) idealization ledger, and the equality of the two idealized programs'
  results. The word-level kernel program and its idealization are run by the same proof, written once over any float instance:
  @main is 25 items, host stretches and the eight kernel launches of the four layers (per layer a first kernel that stores a
  row tile's dense block and keeps running column sums in two scratch rows, and a second kernel that normalises, optionally
  rectifies and multiplies by the second weight matrix); each launch is a segment whose pipeline proof data name what every
  write-back leaves, and the launch theorem for a list of segments gives the run and with it the frame. The reference is a
  host-only program: its run is the composition of its operations. The results agree because for real-valued inputs the
  tile-by-tile sums are the whole column sums and the two ways of computing a variance coincide.
-/
import proofs.«138093_j17583596110490_1_alg».proof.Defs
import proofs.«138093_j17583596110490_1_alg».proof.Proof.KFrame
import proofs.«138093_j17583596110490_1_alg».proof.Proof.KIFrame
import proofs.«138093_j17583596110490_1_alg».proof.Proof.RefRun
import proofs.«138093_j17583596110490_1_alg».proof.Proof.Algebraic
import proofs.«138093_j17583596110490_1_alg».proof.Proof.Gen.Kernel
import proofs.«138093_j17583596110490_1_alg».proof.Proof.Gen.KernelIdeal
import proofs.«138093_j17583596110490_1_alg».proof.Proof.Gen.ReferenceIdeal
import proofs.«138093_j17583596110490_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.ReferenceIdeal.RefRun.frame_ri,
    trivial,
    Cert.Proof.Alg.algebraic⟩

end Cert.Proof

end
